-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v186)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x300 : Shape := ⟨2, ![4096, 300]⟩
abbrev S4096x1024 : Shape := ⟨2, ![4096, 1024]⟩
abbrev S8192x1024 : Shape := ⟨2, ![8192, 1024]⟩
abbrev S2x262144 : Shape := ⟨2, ![2, 262144]⟩
abbrev S262144 : Shape := ⟨1, ![262144]⟩
abbrev S8192x8192 : Shape := ⟨2, ![8192, 8192]⟩
abbrev S1024x512 : Shape := ⟨2, ![1024, 512]⟩
abbrev S512 : Shape := ⟨1, ![512]⟩
abbrev S512x512 : Shape := ⟨2, ![512, 512]⟩
abbrev S3372x1024 : Shape := ⟨2, ![3372, 1024]⟩
abbrev S1024 : Shape := ⟨1, ![1024]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S4096x300 : S_.BroadcastsInDim S4096x300 (![] : Fin 0 → Fin S4096x300.rank)
  reducesTo_S4096x300_S_d0_1 : S4096x300.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S262144 : S_.BroadcastsInDim S262144 (![] : Fin 0 → Fin S262144.rank)
  reducesTo_S262144_S_d0 : S262144.ReducesTo [0] S_
  bcast_S_S8192x8192 : S_.BroadcastsInDim S8192x8192 (![] : Fin 0 → Fin S8192x8192.rank)
  reducesTo_S8192x8192_S_d0_1 : S8192x8192.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S3372x1024 : S_.BroadcastsInDim S3372x1024 (![] : Fin 0 → Fin S3372x1024.rank)
  reducesTo_S3372x1024_S_d0_1 : S3372x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg25 : FVec F S256 .f32) (main_arg26 : FVec F S256 .f32) (main_arg27 : FVec F S256x1 .f32) (main_arg28 : FVec F S1 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg25
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg26
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x1 .f32 := Host.absf main_arg27
  let main_cst_44 : FVec F S_ .f32 := constant S_ .f32 0x7F800000#32
  let main_v115 : FVec F S256x1 .f32 := broadcastInDim S256x1 ![] bcast_S_S256x1 main_cst_44
  let main_v116 : IVec S256x1 1 := cmpf .olt main_v114 main_v115
  let main_c_45 : IVec S_ 1 := constantI S_ 1 1#1
  let main_v117 : IVec S_ 1 := (fun x v => Host.reduce IntOp.andi x v reducesTo_S256x1_S_d0_1 h_S_) main_v116 main_c_45
  let main_v118 : IVec S_ 1 := andi main_v113 main_v117
  let main_v119 : FVec F S1 .f32 := Host.absf main_arg28
  fn_part7 (F := F) main_v118 main_v119

def fn_part5 {F : FTy → Type} [FloatOps F] (main_arg22 : FVec F S1024 .f32) (main_arg23 : FVec F S1024x256 .f32) (main_arg24 : FVec F S256 .f32) (main_arg25 : FVec F S256 .f32) (main_arg26 : FVec F S256 .f32) (main_arg27 : FVec F S256x1 .f32) (main_arg28 : FVec F S1 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg22
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x256 .f32 := Host.absf main_arg23
  let main_cst_36 : FVec F S_ .f32 := constant S_ .f32 0x7F800000#32
  let main_v95 : FVec F S1024x256 .f32 := broadcastInDim S1024x256 ![] bcast_S_S1024x256 main_cst_36
  let main_v96 : IVec S1024x256 1 := cmpf .olt main_v94 main_v95
  let main_c_37 : IVec S_ 1 := constantI S_ 1 1#1
  let main_v97 : IVec S_ 1 := (fun x v => Host.reduce IntOp.andi x v reducesTo_S1024x256_S_d0_1 h_S_) main_v96 main_c_37
  let main_v98 : IVec S_ 1 := andi main_v93 main_v97
  let main_v99 : FVec F S256 .f32 := Host.absf main_arg24
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg25 main_arg26 main_arg27 main_arg28 main_v98 main_v101 main_c_39

def fn_part4 {F : FTy → Type} [FloatOps F] (main_arg18 : FVec F S512 .f32) (main_arg19 : FVec F S3372x1024 .f32) (main_arg20 : FVec F S1024 .f32) (main_arg21 : FVec F S1024 .f32) (main_arg22 : FVec F S1024 .f32) (main_arg23 : FVec F S1024x256 .f32) (main_arg24 : FVec F S256 .f32) (main_arg25 : FVec F S256 .f32) (main_arg26 : FVec F S256 .f32) (main_arg27 : FVec F S256x1 .f32) (main_arg28 : FVec F S1 .f32) (main_v63 : IVec S_ 1) (main_v67 : IVec S_ 1) : IVec S_ 1 :=
  let main_v68 : IVec S_ 1 := andi main_v63 main_v67
  let main_v69 : FVec F S512 .f32 := Host.absf main_arg18
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S3372x1024 .f32 := Host.absf main_arg19
  let main_cst_28 : FVec F S_ .f32 := constant S_ .f32 0x7F800000#32
  let main_v75 : FVec F S3372x1024 .f32 := broadcastInDim S3372x1024 ![] bcast_S_S3372x1024 main_cst_28
  let main_v76 : IVec S3372x1024 1 := cmpf .olt main_v74 main_v75
  let main_c_29 : IVec S_ 1 := constantI S_ 1 1#1
  let main_v77 : IVec S_ 1 := (fun x v => Host.reduce IntOp.andi x v reducesTo_S3372x1024_S_d0_1 h_S_) main_v76 main_c_29
  let main_v78 : IVec S_ 1 := andi main_v73 main_v77
  let main_v79 : FVec F S1024 .f32 := Host.absf main_arg20
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg21
  let main_cst_32 : FVec F S_ .f32 := constant S_ .f32 0x7F800000#32
  fn_part5 (F := F) main_arg22 main_arg23 main_arg24 main_arg25 main_arg26 main_arg27 main_arg28 main_v83 main_v84 main_cst_32

def fn_part3 {F : FTy → Type} [FloatOps F] (main_arg15 : FVec F S512x512 .f32) (main_arg16 : FVec F S512 .f32) (main_arg17 : FVec F S512x512 .f32) (main_arg18 : FVec F S512 .f32) (main_arg19 : FVec F S3372x1024 .f32) (main_arg20 : FVec F S1024 .f32) (main_arg21 : FVec F S1024 .f32) (main_arg22 : FVec F S1024 .f32) (main_arg23 : FVec F S1024x256 .f32) (main_arg24 : FVec F S256 .f32) (main_arg25 : FVec F S256 .f32) (main_arg26 : FVec F S256 .f32) (main_arg27 : FVec F S256x1 .f32) (main_arg28 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg15
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg16
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg17
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg18 main_arg19 main_arg20 main_arg21 main_arg22 main_arg23 main_arg24 main_arg25 main_arg26 main_arg27 main_arg28 main_v63 main_v67

def fn_part2 {F : FTy → Type} [FloatOps F] (main_arg11 : FVec F S1024x512 .f32) (main_arg12 : FVec F S512 .f32) (main_arg13 : FVec F S1024x512 .f32) (main_arg14 : FVec F S512 .f32) (main_arg15 : FVec F S512x512 .f32) (main_arg16 : FVec F S512 .f32) (main_arg17 : FVec F S512x512 .f32) (main_arg18 : FVec F S512 .f32) (main_arg19 : FVec F S3372x1024 .f32) (main_arg20 : FVec F S1024 .f32) (main_arg21 : FVec F S1024 .f32) (main_arg22 : FVec F S1024 .f32) (main_arg23 : FVec F S1024x256 .f32) (main_arg24 : FVec F S256 .f32) (main_arg25 : FVec F S256 .f32) (main_arg26 : FVec F S256 .f32) (main_arg27 : FVec F S256x1 .f32) (main_arg28 : FVec F S1 .f32) (main_v33 : IVec S_ 1) : IVec S_ 1 :=
  let main_v34 : FVec F S1024x512 .f32 := Host.absf main_arg11
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg12
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x512 .f32 := Host.absf main_arg13
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg14
  let main_cst_18 : FVec F S_ .f32 := constant S_ .f32 0x7F800000#32
  let main_v50 : FVec F S512 .f32 := broadcastInDim S512 ![] bcast_S_S512 main_cst_18
  fn_part3 (F := F) main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg7 : FVec F S8192x1024 .f32) (main_arg9 : FVec F S262144 .f32) (main_arg10 : FVec F S8192x8192 .f32) (main_arg11 : FVec F S1024x512 .f32) (main_arg12 : FVec F S512 .f32) (main_arg13 : FVec F S1024x512 .f32) (main_arg14 : FVec F S512 .f32) (main_arg15 : FVec F S512x512 .f32) (main_arg16 : FVec F S512 .f32) (main_arg17 : FVec F S512x512 .f32) (main_arg18 : FVec F S512 .f32) (main_arg19 : FVec F S3372x1024 .f32) (main_arg20 : FVec F S1024 .f32) (main_arg21 : FVec F S1024 .f32) (main_arg22 : FVec F S1024 .f32) (main_arg23 : FVec F S1024x256 .f32) (main_arg24 : FVec F S256 .f32) (main_arg25 : FVec F S256 .f32) (main_arg26 : FVec F S256 .f32) (main_arg27 : FVec F S256x1 .f32) (main_arg28 : FVec F S1 .f32) (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  let main_v19 : FVec F S8192x1024 .f32 := Host.absf main_arg7
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S262144 .f32 := Host.absf main_arg9
  let main_cst_8 : FVec F S_ .f32 := constant S_ .f32 0x7F800000#32
  let main_v25 : FVec F S262144 .f32 := broadcastInDim S262144 ![] bcast_S_S262144 main_cst_8
  let main_v26 : IVec S262144 1 := cmpf .olt main_v24 main_v25
  let main_c_9 : IVec S_ 1 := constantI S_ 1 1#1
  let main_v27 : IVec S_ 1 := (fun x v => Host.reduce IntOp.andi x v reducesTo_S262144_S_d0 h_S_) main_v26 main_c_9
  let main_v28 : IVec S_ 1 := andi main_v23 main_v27
  let main_v29 : FVec F S8192x8192 .f32 := Host.absf main_arg10
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : IVec S4096 32) (main_arg1 : IVec S4096 32) (main_arg2 : FVec F S4096x300 .f32) (main_arg3 : FVec F S4096x1024 .f32) (main_arg4 : FVec F S8192x1024 .f32) (main_arg5 : IVec S2x262144 32) (main_arg6 : FVec F S262144 .f32) (main_arg7 : FVec F S8192x1024 .f32) (main_arg8 : IVec S2x262144 32) (main_arg9 : FVec F S262144 .f32) (main_arg10 : FVec F S8192x8192 .f32) (main_arg11 : FVec F S1024x512 .f32) (main_arg12 : FVec F S512 .f32) (main_arg13 : FVec F S1024x512 .f32) (main_arg14 : FVec F S512 .f32) (main_arg15 : FVec F S512x512 .f32) (main_arg16 : FVec F S512 .f32) (main_arg17 : FVec F S512x512 .f32) (main_arg18 : FVec F S512 .f32) (main_arg19 : FVec F S3372x1024 .f32) (main_arg20 : FVec F S1024 .f32) (main_arg21 : FVec F S1024 .f32) (main_arg22 : FVec F S1024 .f32) (main_arg23 : FVec F S1024x256 .f32) (main_arg24 : FVec F S256 .f32) (main_arg25 : FVec F S256 .f32) (main_arg26 : FVec F S256 .f32) (main_arg27 : FVec F S256x1 .f32) (main_arg28 : FVec F S1 .f32) : IVec S_ 1 :=
  let main_v0 : FVec F S4096x300 .f32 := Host.absf main_arg2
  let main_cst : FVec F S_ .f32 := constant S_ .f32 0x7F800000#32
  let main_v1 : FVec F S4096x300 .f32 := broadcastInDim S4096x300 ![] bcast_S_S4096x300 main_cst
  let main_v2 : IVec S4096x300 1 := cmpf .olt main_v0 main_v1
  let main_c : IVec S_ 1 := constantI S_ 1 1#1
  let main_v3 : IVec S_ 1 := (fun x v => Host.reduce IntOp.andi x v reducesTo_S4096x300_S_d0_1 h_S_) main_v2 main_c
  let main_v4 : FVec F S4096x1024 .f32 := Host.absf main_arg3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S262144 .f32 := Host.absf main_arg6
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_arg7 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S4096 : Shape := ⟨1, ![4096]⟩
abbrev S4096x300 : Shape := ⟨2, ![4096, 300]⟩
abbrev S4096x1024 : Shape := ⟨2, ![4096, 1024]⟩
abbrev S8192x1024 : Shape := ⟨2, ![8192, 1024]⟩
abbrev S2x262144 : Shape := ⟨2, ![2, 262144]⟩
abbrev S262144 : Shape := ⟨1, ![262144]⟩
abbrev S8192x8192 : Shape := ⟨2, ![8192, 8192]⟩
abbrev S1024x512 : Shape := ⟨2, ![1024, 512]⟩
abbrev S512 : Shape := ⟨1, ![512]⟩
abbrev S512x512 : Shape := ⟨2, ![512, 512]⟩
abbrev S3372x1024 : Shape := ⟨2, ![3372, 1024]⟩
abbrev S1024 : Shape := ⟨1, ![1024]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S_ : Shape := ⟨0, ![]⟩
abbrev S1x512 : Shape := ⟨2, ![1, 512]⟩
abbrev S8192x512 : Shape := ⟨2, ![8192, 512]⟩
abbrev S1024x1024 : Shape := ⟨2, ![1024, 1024]⟩
abbrev S8192 : Shape := ⟨1, ![8192]⟩
abbrev S1x262144 : Shape := ⟨2, ![1, 262144]⟩
abbrev S270336 : Shape := ⟨1, ![270336]⟩
abbrev S270336x1 : Shape := ⟨2, ![270336, 1]⟩
abbrev S270336x512 : Shape := ⟨2, ![270336, 512]⟩
abbrev S512x2048 : Shape := ⟨2, ![512, 2048]⟩
abbrev S2048x512 : Shape := ⟨2, ![2048, 512]⟩
abbrev S4096x1 : Shape := ⟨2, ![4096, 1]⟩
abbrev S4096x512 : Shape := ⟨2, ![4096, 512]⟩
abbrev S4096x3372 : Shape := ⟨2, ![4096, 3372]⟩
abbrev S1x1024 : Shape := ⟨2, ![1, 1024]⟩
abbrev S256x3372 : Shape := ⟨2, ![256, 3372]⟩
abbrev S256x1024 : Shape := ⟨2, ![256, 1024]⟩
abbrev S1x256 : Shape := ⟨2, ![1, 256]⟩
abbrev S4096x256 : Shape := ⟨2, ![4096, 256]⟩
abbrev S512x1024 : Shape := ⟨2, ![512, 1024]⟩
abbrev S512x256 : Shape := ⟨2, ![512, 256]⟩
abbrev S1x1 : Shape := ⟨2, ![1, 1]⟩

abbrev nBuf : Space → Nat
  | .hbm => 320
  | .vmem => 42
  | .smem => 0
  | _ => 0

abbrev hbmTy0_0 (i : Nat) : BufTy := match i % 128 with
  | 0 => ⟨S4096, .i32⟩
  | 1 => ⟨S4096, .i32⟩
  | 2 => ⟨S4096x300, .f32⟩
  | 3 => ⟨S4096x1024, .f32⟩
  | 4 => ⟨S8192x1024, .f32⟩
  | 5 => ⟨S2x262144, .i32⟩
  | 6 => ⟨S262144, .f32⟩
  | 7 => ⟨S8192x1024, .f32⟩
  | 8 => ⟨S2x262144, .i32⟩
  | 9 => ⟨S262144, .f32⟩
  | 10 => ⟨S8192x8192, .f32⟩
  | 11 => ⟨S1024x512, .f32⟩
  | 12 => ⟨S512, .f32⟩
  | 13 => ⟨S1024x512, .f32⟩
  | 14 => ⟨S512, .f32⟩
  | 15 => ⟨S512x512, .f32⟩
  | 16 => ⟨S512, .f32⟩
  | 17 => ⟨S512x512, .f32⟩
  | 18 => ⟨S512, .f32⟩
  | 19 => ⟨S3372x1024, .f32⟩
  | 20 => ⟨S1024, .f32⟩
  | 21 => ⟨S1024, .f32⟩
  | 22 => ⟨S1024, .f32⟩
  | 23 => ⟨S1024x256, .f32⟩
  | 24 => ⟨S256, .f32⟩
  | 25 => ⟨S256, .f32⟩
  | 26 => ⟨S256, .f32⟩
  | 27 => ⟨S256x1, .f32⟩
  | 28 => ⟨S1, .f32⟩
  | 29 => ⟨S_, .f32⟩
  | 30 => ⟨S512, .f32⟩
  | 31 => ⟨S_, .f32⟩
  | 32 => ⟨S512, .f32⟩
  | 33 => ⟨S1x512, .f32⟩
  | 34 => ⟨S8192x512, .f32⟩
  | 35 => ⟨S8192, .i32⟩
  | 36 => ⟨S1x262144, .i32⟩
  | 37 => ⟨S262144, .i32⟩
  | 38 => ⟨S270336, .i32⟩
  | 39 => ⟨S1x262144, .i32⟩
  | 40 => ⟨S262144, .i32⟩
  | 41 => ⟨S270336, .i32⟩
  | 42 => ⟨S_, .f32⟩
  | 43 => ⟨S8192, .f32⟩
  | 44 => ⟨S270336, .f32⟩
  | 45 => ⟨S_, .f32⟩
  | 46 => ⟨S8192, .f32⟩
  | 47 => ⟨S270336x1, .i32⟩
  | 48 => ⟨S8192, .f32⟩
  | 49 => ⟨S_, .f32⟩
  | 50 => ⟨S8192, .f32⟩
  | 51 => ⟨S8192, .i1⟩
  | 52 => ⟨S8192, .f32⟩
  | 53 => ⟨S_, .f32⟩
  | 54 => ⟨S_, .f32⟩
  | 55 => ⟨S8192, .f32⟩
  | 56 => ⟨S8192, .f32⟩
  | 57 => ⟨S_, .i32⟩
  | 58 => ⟨S270336, .i32⟩
  | 59 => ⟨S270336, .i1⟩
  | 60 => ⟨S_, .i32⟩
  | 61 => ⟨S270336, .i32⟩
  | 62 => ⟨S270336, .i32⟩
  | 63 => ⟨S270336, .i32⟩
  | 64 => ⟨S270336x1, .i32⟩
  | 65 => ⟨S270336, .f32⟩
  | 66 => ⟨S270336, .f32⟩
  | 67 => ⟨S_, .i32⟩
  | 68 => ⟨S270336, .i32⟩
  | 69 => ⟨S270336, .i1⟩
  | 70 => ⟨S_, .i32⟩
  | 71 => ⟨S270336, .i32⟩
  | 72 => ⟨S270336, .i32⟩
  | 73 => ⟨S270336, .i32⟩
  | 74 => ⟨S270336x1, .i32⟩
  | 75 => ⟨S270336, .f32⟩
  | 76 => ⟨S270336, .f32⟩
  | 77 => ⟨S_, .i32⟩
  | 78 => ⟨S270336, .i32⟩
  | 79 => ⟨S270336, .i1⟩
  | 80 => ⟨S_, .i32⟩
  | 81 => ⟨S270336, .i32⟩
  | 82 => ⟨S270336, .i32⟩
  | 83 => ⟨S270336, .i32⟩
  | 84 => ⟨S270336x1, .i32⟩
  | 85 => ⟨S270336x512, .f32⟩
  | 86 => ⟨S270336x1, .f32⟩
  | 87 => ⟨S270336x512, .f32⟩
  | 88 => ⟨S270336x512, .f32⟩
  | 89 => ⟨S_, .f32⟩
  | 90 => ⟨S8192x512, .f32⟩
  | 91 => ⟨S270336x1, .i32⟩
  | 92 => ⟨S8192x512, .f32⟩
  | 93 => ⟨S1x512, .f32⟩
  | 94 => ⟨S8192x512, .f32⟩
  | 95 => ⟨S8192x512, .f32⟩
  | 96 => ⟨S_, .f32⟩
  | 97 => ⟨S_, .f32⟩
  | 98 => ⟨S8192x512, .f32⟩
  | 99 => ⟨S8192x512, .i1⟩
  | 100 => ⟨S_, .f32⟩
  | 101 => ⟨S8192x512, .f32⟩
  | 102 => ⟨S8192x512, .f32⟩
  | 103 => ⟨S8192x512, .f32⟩
  | 104 => ⟨S1x512, .f32⟩
  | 105 => ⟨S8192x512, .f32⟩
  | 106 => ⟨S8192, .i32⟩
  | 107 => ⟨S1x262144, .i32⟩
  | 108 => ⟨S262144, .i32⟩
  | 109 => ⟨S270336, .i32⟩
  | 110 => ⟨S1x262144, .i32⟩
  | 111 => ⟨S262144, .i32⟩
  | 112 => ⟨S270336, .i32⟩
  | 113 => ⟨S_, .f32⟩
  | 114 => ⟨S8192, .f32⟩
  | 115 => ⟨S270336, .f32⟩
  | 116 => ⟨S_, .f32⟩
  | 117 => ⟨S8192, .f32⟩
  | 118 => ⟨S270336x1, .i32⟩
  | 119 => ⟨S8192, .f32⟩
  | 120 => ⟨S_, .f32⟩
  | 121 => ⟨S8192, .f32⟩
  | 122 => ⟨S8192, .i1⟩
  | 123 => ⟨S8192, .f32⟩
  | 124 => ⟨S_, .f32⟩
  | 125 => ⟨S_, .f32⟩
  | 126 => ⟨S8192, .f32⟩
  | 127 => ⟨S8192, .f32⟩
  | _ => ⟨S4096, .i32⟩

abbrev hbmTy0_1 (i : Nat) : BufTy := match i % 128 with
  | 0 => ⟨S_, .i32⟩
  | 1 => ⟨S270336, .i32⟩
  | 2 => ⟨S270336, .i1⟩
  | 3 => ⟨S_, .i32⟩
  | 4 => ⟨S270336, .i32⟩
  | 5 => ⟨S270336, .i32⟩
  | 6 => ⟨S270336, .i32⟩
  | 7 => ⟨S270336x1, .i32⟩
  | 8 => ⟨S270336, .f32⟩
  | 9 => ⟨S270336, .f32⟩
  | 10 => ⟨S_, .i32⟩
  | 11 => ⟨S270336, .i32⟩
  | 12 => ⟨S270336, .i1⟩
  | 13 => ⟨S_, .i32⟩
  | 14 => ⟨S270336, .i32⟩
  | 15 => ⟨S270336, .i32⟩
  | 16 => ⟨S270336, .i32⟩
  | 17 => ⟨S270336x1, .i32⟩
  | 18 => ⟨S270336, .f32⟩
  | 19 => ⟨S270336, .f32⟩
  | 20 => ⟨S_, .i32⟩
  | 21 => ⟨S270336, .i32⟩
  | 22 => ⟨S270336, .i1⟩
  | 23 => ⟨S_, .i32⟩
  | 24 => ⟨S270336, .i32⟩
  | 25 => ⟨S270336, .i32⟩
  | 26 => ⟨S270336, .i32⟩
  | 27 => ⟨S270336x1, .i32⟩
  | 28 => ⟨S270336x512, .f32⟩
  | 29 => ⟨S270336x1, .f32⟩
  | 30 => ⟨S270336x512, .f32⟩
  | 31 => ⟨S270336x512, .f32⟩
  | 32 => ⟨S_, .f32⟩
  | 33 => ⟨S8192x512, .f32⟩
  | 34 => ⟨S270336x1, .i32⟩
  | 35 => ⟨S8192x512, .f32⟩
  | 36 => ⟨S1x512, .f32⟩
  | 37 => ⟨S8192x512, .f32⟩
  | 38 => ⟨S8192x512, .f32⟩
  | 39 => ⟨S_, .f32⟩
  | 40 => ⟨S_, .f32⟩
  | 41 => ⟨S8192x512, .f32⟩
  | 42 => ⟨S8192x512, .i1⟩
  | 43 => ⟨S_, .f32⟩
  | 44 => ⟨S8192x512, .f32⟩
  | 45 => ⟨S8192x512, .f32⟩
  | 46 => ⟨S8192x512, .f32⟩
  | 47 => ⟨S1x512, .f32⟩
  | 48 => ⟨S8192x512, .f32⟩
  | 49 => ⟨S1x512, .f32⟩
  | 50 => ⟨S8192x512, .f32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S4096x512, .f32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S4096, .i32⟩
  | 67 => ⟨S4096x1, .i32⟩
  | 68 => ⟨S4096x512, .f32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S4096x512, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S4096x512, .f32⟩
  | 87 => ⟨S4096x1024, .f32⟩
  | 88 => ⟨S4096x1024, .f32⟩
  | 89 => ⟨S4096x3372, .f32⟩
  | 90 => ⟨S1x1024, .f32⟩
  | 91 => ⟨S4096x1024, .f32⟩
  | 92 => ⟨S_, .f32⟩
  | 93 => ⟨S1024, .f32⟩
  | 94 => ⟨S_, .f32⟩
  | 95 => ⟨S1024, .f32⟩
  | 96 => ⟨S1024, .f32⟩
  | 97 => ⟨S_, .i32⟩
  | 98 => ⟨S_, .f32⟩
  | 99 => ⟨S1024, .f32⟩
  | 100 => ⟨S1x1024, .f32⟩
  | 101 => ⟨S_, .f32⟩
  | 102 => ⟨S1x1024, .f32⟩
  | 103 => ⟨S1x1024, .f32⟩
  | 104 => ⟨S4096x1024, .f32⟩
  | 105 => ⟨S4096x1024, .f32⟩
  | 106 => ⟨S4096x1024, .f32⟩
  | 107 => ⟨S_, .f32⟩
  | 108 => ⟨S_, .f32⟩
  | 109 => ⟨S_, .f32⟩
  | 110 => ⟨S_, .f32⟩
  | 111 => ⟨S1024, .f32⟩
  | 112 => ⟨S1024, .f32⟩
  | 113 => ⟨S1024, .f32⟩
  | 114 => ⟨S_, .f32⟩
  | 115 => ⟨S_, .i1⟩
  | 116 => ⟨S_, .f32⟩
  | 117 => ⟨S_, .f32⟩
  | 118 => ⟨S1024, .f32⟩
  | 119 => ⟨S1024, .f32⟩
  | 120 => ⟨S1x1024, .f32⟩
  | 121 => ⟨S4096x1024, .f32⟩
  | 122 => ⟨S4096x1024, .f32⟩
  | 123 => ⟨S_, .f32⟩
  | 124 => ⟨S1024, .f32⟩
  | 125 => ⟨S1024, .f32⟩
  | 126 => ⟨S1024, .f32⟩
  | 127 => ⟨S1x1024, .f32⟩
  | _ => ⟨S4096, .i32⟩

abbrev hbmTy0_2 (i : Nat) : BufTy := match i % 128 with
  | 0 => ⟨S4096x1024, .f32⟩
  | 1 => ⟨S4096x1024, .f32⟩
  | 2 => ⟨S1x1024, .f32⟩
  | 3 => ⟨S4096x1024, .f32⟩
  | 4 => ⟨S4096x1024, .f32⟩
  | 5 => ⟨S1x1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S1x256, .f32⟩
  | 12 => ⟨S4096x256, .f32⟩
  | 13 => ⟨S_, .f32⟩
  | 14 => ⟨S256, .f32⟩
  | 15 => ⟨S_, .f32⟩
  | 16 => ⟨S256, .f32⟩
  | 17 => ⟨S256, .f32⟩
  | 18 => ⟨S_, .i32⟩
  | 19 => ⟨S_, .f32⟩
  | 20 => ⟨S256, .f32⟩
  | 21 => ⟨S1x256, .f32⟩
  | 22 => ⟨S_, .f32⟩
  | 23 => ⟨S1x256, .f32⟩
  | 24 => ⟨S1x256, .f32⟩
  | 25 => ⟨S4096x256, .f32⟩
  | 26 => ⟨S4096x256, .f32⟩
  | 27 => ⟨S4096x256, .f32⟩
  | 28 => ⟨S_, .f32⟩
  | 29 => ⟨S_, .f32⟩
  | 30 => ⟨S_, .f32⟩
  | 31 => ⟨S_, .f32⟩
  | 32 => ⟨S256, .f32⟩
  | 33 => ⟨S256, .f32⟩
  | 34 => ⟨S256, .f32⟩
  | 35 => ⟨S_, .f32⟩
  | 36 => ⟨S_, .i1⟩
  | 37 => ⟨S_, .f32⟩
  | 38 => ⟨S_, .f32⟩
  | 39 => ⟨S256, .f32⟩
  | 40 => ⟨S256, .f32⟩
  | 41 => ⟨S1x256, .f32⟩
  | 42 => ⟨S4096x256, .f32⟩
  | 43 => ⟨S4096x256, .f32⟩
  | 44 => ⟨S_, .f32⟩
  | 45 => ⟨S256, .f32⟩
  | 46 => ⟨S256, .f32⟩
  | 47 => ⟨S256, .f32⟩
  | 48 => ⟨S1x256, .f32⟩
  | 49 => ⟨S4096x256, .f32⟩
  | 50 => ⟨S4096x256, .f32⟩
  | 51 => ⟨S1x256, .f32⟩
  | 52 => ⟨S4096x256, .f32⟩
  | 53 => ⟨S4096x256, .f32⟩
  | 54 => ⟨S1x256, .f32⟩
  | 55 => ⟨S4096x256, .f32⟩
  | 56 => ⟨S4096x256, .f32⟩
  | 57 => ⟨S_, .f32⟩
  | 58 => ⟨S4096x256, .f32⟩
  | 59 => ⟨S4096x256, .f32⟩
  | 60 => ⟨S4096x1, .f32⟩
  | 61 => ⟨S1x1, .f32⟩
  | 62 => ⟨S4096x1, .f32⟩
  | 63 => ⟨S4096x1, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .f32⟩
  | .local _ .vmem, ⟨7, _⟩ => ⟨S1024x1024, .f32⟩
  | .local _ .vmem, ⟨8, _⟩ => ⟨S1024x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S512x2048, .f32⟩
  | .local _ .vmem, ⟨13, _⟩ => ⟨S512x2048, .f32⟩
  | .local _ .vmem, ⟨14, _⟩ => ⟨S2048x512, .f32⟩
  | .local _ .vmem, ⟨15, _⟩ => ⟨S2048x512, .f32⟩
  | .local _ .vmem, ⟨16, _⟩ => ⟨S512x512, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S512x512, .f32⟩
  | .local _ .vmem, ⟨26, _⟩ => ⟨S1x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S256x3372, .f32⟩
  | .local _ .vmem, ⟨31, _⟩ => ⟨S256x3372, .f32⟩
  | .local _ .vmem, ⟨32, _⟩ => ⟨S3372x1024, .f32⟩
  | .local _ .vmem, ⟨33, _⟩ => ⟨S1x1024, .f32⟩
  | .local _ .vmem, ⟨34, _⟩ => ⟨S256x1024, .f32⟩
  | .local _ .vmem, ⟨35, _⟩ => ⟨S256x1024, .f32⟩
  | .local _ .vmem, ⟨36, _⟩ => ⟨S512x1024, .f32⟩
  | .local _ .vmem, ⟨37, _⟩ => ⟨S512x1024, .f32⟩
  | .local _ .vmem, ⟨38, _⟩ => ⟨S1024x256, .f32⟩
  | .local _ .vmem, ⟨39, _⟩ => ⟨S1x256, .f32⟩
  | .local _ .vmem, ⟨40, _⟩ => ⟨S512x256, .f32⟩
  | .local _ .vmem, ⟨41, _⟩ => ⟨S512x256, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_cst_0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_3 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_v19 : Ref sig .tc := ⟨.hbm, 56, rfl⟩
abbrev main_c : Ref sig .tc := ⟨.hbm, 57, rfl⟩
abbrev main_v20 : Ref sig .tc := ⟨.hbm, 58, rfl⟩
abbrev main_v21 : Ref sig .tc := ⟨.hbm, 59, rfl⟩
abbrev main_c_5 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_c_6 : Ref sig .tc := ⟨.hbm, 67, rfl⟩
abbrev main_v28 : Ref sig .tc := ⟨.hbm, 68, rfl⟩
abbrev main_v29 : Ref sig .tc := ⟨.hbm, 69, rfl⟩
abbrev main_c_7 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_c_8 : Ref sig .tc := ⟨.hbm, 77, rfl⟩
abbrev main_v36 : Ref sig .tc := ⟨.hbm, 78, rfl⟩
abbrev main_v37 : Ref sig .tc := ⟨.hbm, 79, rfl⟩
abbrev main_c_9 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_10 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_11 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_12 : Ref sig .tc := ⟨.hbm, 113, rfl⟩
abbrev main_v62 : Ref sig .tc := ⟨.hbm, 114, rfl⟩
abbrev main_v63 : Ref sig .tc := ⟨.hbm, 115, rfl⟩
abbrev main_cst_13 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_14 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_15 : Ref sig .tc := ⟨.hbm, 124, rfl⟩
abbrev main_call2_v0 : Ref sig .tc := ⟨.hbm, 125, rfl⟩
abbrev main_call2_v1 : Ref sig .tc := ⟨.hbm, 126, rfl⟩
abbrev main_v70 : Ref sig .tc := ⟨.hbm, 127, rfl⟩
abbrev main_c_16 : Ref sig .tc := ⟨.hbm, 128, rfl⟩
abbrev main_v71 : Ref sig .tc := ⟨.hbm, 129, rfl⟩
abbrev main_v72 : Ref sig .tc := ⟨.hbm, 130, rfl⟩
abbrev main_c_17 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_c_18 : Ref sig .tc := ⟨.hbm, 138, rfl⟩
abbrev main_v79 : Ref sig .tc := ⟨.hbm, 139, rfl⟩
abbrev main_v80 : Ref sig .tc := ⟨.hbm, 140, rfl⟩
abbrev main_c_19 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_c_20 : Ref sig .tc := ⟨.hbm, 148, rfl⟩
abbrev main_v87 : Ref sig .tc := ⟨.hbm, 149, rfl⟩
abbrev main_v88 : Ref sig .tc := ⟨.hbm, 150, rfl⟩
abbrev main_c_21 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_cst_22 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_23 : Ref sig .tc := ⟨.hbm, 167, rfl⟩
abbrev main_call3_cst : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_call3_v3 : Ref sig .tc := ⟨.hbm, 172, rfl⟩
abbrev main_call3_v4 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_c_24 : Ref sig .tc := ⟨.hbm, 179, rfl⟩
abbrev main_v108 : Ref sig .tc := ⟨.hbm, 180, rfl⟩
abbrev main_v109 : Ref sig .tc := ⟨.hbm, 181, rfl⟩
abbrev main_c_25 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_c_26 : Ref sig .tc := ⟨.hbm, 188, rfl⟩
abbrev main_v115 : Ref sig .tc := ⟨.hbm, 189, rfl⟩
abbrev main_v116 : Ref sig .tc := ⟨.hbm, 190, rfl⟩
abbrev main_c_27 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_c_28 : Ref sig .tc := ⟨.hbm, 197, rfl⟩
abbrev main_v122 : Ref sig .tc := ⟨.hbm, 198, rfl⟩
abbrev main_v123 : Ref sig .tc := ⟨.hbm, 199, rfl⟩
abbrev main_c_29 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_c_30 : Ref sig .tc := ⟨.hbm, 206, rfl⟩
abbrev main_v129 : Ref sig .tc := ⟨.hbm, 207, rfl⟩
abbrev main_v130 : Ref sig .tc := ⟨.hbm, 208, rfl⟩
abbrev main_c_31 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_cst_32 : Ref sig .tc := ⟨.hbm, 220, rfl⟩
abbrev main_v141 : Ref sig .tc := ⟨.hbm, 221, rfl⟩
abbrev main_cst_33 : Ref sig .tc := ⟨.hbm, 222, rfl⟩
abbrev main_v142 : Ref sig .tc := ⟨.hbm, 223, rfl⟩
abbrev main_v143 : Ref sig .tc := ⟨.hbm, 224, rfl⟩
abbrev main_c_34 : Ref sig .tc := ⟨.hbm, 225, rfl⟩
abbrev main_call4_cst : Ref sig .tc := ⟨.hbm, 226, rfl⟩
abbrev main_call4_v0 : Ref sig .tc := ⟨.hbm, 227, rfl⟩
abbrev main_call4_v1 : Ref sig .tc := ⟨.hbm, 228, rfl⟩
abbrev main_call4_cst_0 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_v6 : Ref sig .tc := ⟨.hbm, 234, rfl⟩
abbrev main_call4_v7 : Ref sig .tc := ⟨.hbm, 235, rfl⟩
abbrev main_call4_cst_1 : Ref sig .tc := ⟨.hbm, 236, rfl⟩
abbrev main_call4_v8 : Ref sig .tc := ⟨.hbm, 237, rfl⟩
abbrev main_call4_cst_2 : Ref sig .tc := ⟨.hbm, 238, rfl⟩
abbrev main_call4_v9 : Ref sig .tc := ⟨.hbm, 239, rfl⟩
abbrev main_call4_v10 : Ref sig .tc := ⟨.hbm, 240, rfl⟩
abbrev main_call4_v11 : Ref sig .tc := ⟨.hbm, 241, rfl⟩
abbrev main_call4_cst_3 : Ref sig .tc := ⟨.hbm, 242, rfl⟩
abbrev main_call4_v12 : Ref sig .tc := ⟨.hbm, 243, rfl⟩
abbrev main_call4_cst_4 : Ref sig .tc := ⟨.hbm, 244, rfl⟩
abbrev main_call4_call0_v0 : Ref sig .tc := ⟨.hbm, 245, rfl⟩
abbrev main_call4_call0_v1 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_cst_35 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_call5_cst : Ref sig .tc := ⟨.hbm, 264, rfl⟩
abbrev main_call5_v0 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_cst_36 : Ref sig .tc := ⟨.hbm, 269, rfl⟩
abbrev main_v163 : Ref sig .tc := ⟨.hbm, 270, rfl⟩
abbrev main_cst_37 : Ref sig .tc := ⟨.hbm, 271, rfl⟩
abbrev main_v164 : Ref sig .tc := ⟨.hbm, 272, rfl⟩
abbrev main_v165 : Ref sig .tc := ⟨.hbm, 273, rfl⟩
abbrev main_c_38 : Ref sig .tc := ⟨.hbm, 274, rfl⟩
abbrev main_call6_cst : Ref sig .tc := ⟨.hbm, 275, rfl⟩
abbrev main_call6_v0 : Ref sig .tc := ⟨.hbm, 276, rfl⟩
abbrev main_call6_v1 : Ref sig .tc := ⟨.hbm, 277, rfl⟩
abbrev main_call6_cst_0 : Ref sig .tc := ⟨.hbm, 278, rfl⟩
abbrev main_call6_v2 : Ref sig .tc := ⟨.hbm, 279, rfl⟩
abbrev main_call6_v3 : Ref sig .tc := ⟨.hbm, 280, rfl⟩
abbrev main_call6_v4 : Ref sig .tc := ⟨.hbm, 281, rfl⟩
abbrev main_call6_v5 : Ref sig .tc := ⟨.hbm, 282, rfl⟩
abbrev main_call6_v6 : Ref sig .tc := ⟨.hbm, 283, rfl⟩
abbrev main_call6_v7 : Ref sig .tc := ⟨.hbm, 284, rfl⟩
abbrev main_call6_cst_1 : Ref sig .tc := ⟨.hbm, 285, rfl⟩
abbrev main_call6_v8 : Ref sig .tc := ⟨.hbm, 286, rfl⟩
abbrev main_call6_cst_2 : Ref sig .tc := ⟨.hbm, 287, rfl⟩
abbrev main_call6_v9 : Ref sig .tc := ⟨.hbm, 288, rfl⟩
abbrev main_call6_v10 : Ref sig .tc := ⟨.hbm, 289, rfl⟩
abbrev main_call6_v11 : Ref sig .tc := ⟨.hbm, 290, rfl⟩
abbrev main_call6_cst_3 : Ref sig .tc := ⟨.hbm, 291, rfl⟩
abbrev main_call6_v12 : Ref sig .tc := ⟨.hbm, 292, rfl⟩
abbrev main_call6_cst_4 : Ref sig .tc := ⟨.hbm, 293, rfl⟩
abbrev main_call6_call0_v0 : Ref sig .tc := ⟨.hbm, 294, rfl⟩
abbrev main_call6_call0_v1 : Ref sig .tc := ⟨.hbm, 295, rfl⟩
abbrev main_v166 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_cst_39 : Ref sig .tc := ⟨.hbm, 300, rfl⟩
abbrev main_v170 : Ref sig .tc := ⟨.hbm, 301, rfl⟩
abbrev main_v171 : Ref sig .tc := ⟨.hbm, 302, rfl⟩
abbrev main_v172 : Ref sig .tc := ⟨.hbm, 303, rfl⟩
abbrev main_v173 : Ref sig .tc := ⟨.hbm, 304, rfl⟩
abbrev main_v174 : Ref sig .tc := ⟨.hbm, 305, rfl⟩
abbrev main_v175 : Ref sig .tc := ⟨.hbm, 306, rfl⟩
abbrev main_v176 : Ref sig .tc := ⟨.hbm, 307, rfl⟩
abbrev main_v177 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_call7_cst : Ref sig .tc := ⟨.hbm, 313, rfl⟩
abbrev main_call7_v0 : Ref sig .tc := ⟨.hbm, 314, rfl⟩
abbrev main_v182 : Ref sig .tc := ⟨.hbm, 315, rfl⟩
abbrev main_v183 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![16, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x3372 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3372x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S512 : S_.BroadcastsInDim S512 (![] : Fin 0 → Fin S512.rank)
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S8192 : S_.BroadcastsInDim S8192 (![] : Fin 0 → Fin S8192.rank)
  bcast_S270336_S270336x1_0 : S270336.BroadcastsInDim S270336x1 (![0] : Fin 1 → Fin S270336x1.rank)
  bcast_S_S270336 : S_.BroadcastsInDim S270336 (![] : Fin 0 → Fin S270336.rank)
  bcast_S270336x1_S270336x512_0_1 : S270336x1.BroadcastsInDim S270336x512 (![0, 1] : Fin 2 → Fin S270336x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S512x512 : S1x512.Broadcasts S512x512
  bcast_S_S4096 : S_.BroadcastsInDim S4096 (![] : Fin 0 → Fin S4096.rank)
  bcast_S4096_S4096x1_0 : S4096.BroadcastsInDim S4096x1 (![0] : Fin 1 → Fin S4096x1.rank)
  concatenates_S4096x512_S4096x512_S4096x1024_d1 : Shape.Concatenates [S4096x512, S4096x512] S4096x1024 1
  concatenates_S4096x300_S4096x1024_S4096x1024_S4096x1024_S4096x3372_d1 : Shape.Concatenates [S4096x300, S4096x1024, S4096x1024, S4096x1024] S4096x3372 1
  shapeCasts_S1024_S1x1024 : S1024.ShapeCasts S1x1024
  inb_S256x3372_S256x3372_0_0 : ∀ a, (![0, 0] : Fin 2 → Nat) a + S256x3372.size a ≤ S256x3372.size a
  h_S256x3372 : 0 < S256x3372.numel
  shapeCasts_S256x3372_S256x3372 : S256x3372.ShapeCasts S256x3372
  inb_S3372x1024_S3372x1024_0_0 : ∀ a, (![0, 0] : Fin 2 → Nat) a + S3372x1024.size a ≤ S3372x1024.size a
  h_S3372x1024 : 0 < S3372x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  reducesTo_S4096x1024_S1024_d0 : S4096x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  shapeCasts_S256_S1x256 : S256.ShapeCasts S1x256
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  reducesTo_S4096x256_S256_d0 : S4096x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S1024x1024_S1024x512_S1024x512_1_0_0_1_n_n_wf : DotDims.WF S1024x1024 S1024x512 S1024x512 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x512_S270336x1_S270336x512_1_0_n_n_0_1_1512_wf : GatherDims.WF S8192x512 S270336x1 S270336x512 [1] [0] [] [0] [] 1 ![1, 512]
  scatter_S8192x512_S270336x1_S270336x512_1_0_0_1_wf : ScatterDims.WF S8192x512 S270336x1 S270336x512 [1] [0] [0] 1
  dot_S512x2048_S2048x512_S512x512_1_0_0_1_n_n_wf : DotDims.WF S512x2048 S2048x512 S512x512 [1] [0] [0] [1] [] []
  dot_S512x512_S512x512_S512x512_1_0_0_1_n_n_wf : DotDims.WF S512x512 S512x512 S512x512 [1] [0] [0] [1] [] []
  dot_S2048x512_S2048x512_S512x512_0_0_1_1_n_n_wf : DotDims.WF S2048x512 S2048x512 S512x512 [0] [0] [1] [1] [] []
  gather_S8192x512_S4096x1_S4096x512_1_0_n_n_0_1_1512_wf : GatherDims.WF S8192x512 S4096x1 S4096x512 [1] [0] [] [0] [] 1 ![1, 512]
  dot_S256x3372_S3372x1024_S256x1024_1_0_0_1_n_n_wf : DotDims.WF S256x3372 S3372x1024 S256x1024 [1] [0] [0] [1] [] []
  dot_S512x1024_S1024x256_S512x256_1_0_0_1_n_n_wf : DotDims.WF S512x1024 S1024x256 S512x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x8192.size a
  hwx2_0 : ∀ i : grid2.Coords, EltTy.bits .f32 = 32 ∨ (Rect.block (s := S8192x8192) S512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S8192x512.size a
  hwx2_1 : ∀ i : grid2.Coords, EltTy.bits .f32 = 32 ∨ (Rect.block (s := S8192x512) S2048x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S8192x512.size a
  hwx2_4 : ∀ i : grid2.Coords, EltTy.bits .f32 = 32 ∨ (Rect.block (s := S8192x512) S512x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S8192x8192.size a
  hwx3_0 : ∀ i : grid3.Coords, EltTy.bits .f32 = 32 ∨ (Rect.block (s := S8192x8192) S2048x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S8192x512.size a
  hwx3_1 : ∀ i : grid3.Coords, EltTy.bits .f32 = 32 ∨ (Rect.block (s := S8192x512) S2048x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S8192x512.size a
  hwx3_4 : ∀ i : grid3.Coords, EltTy.bits .f32 = 32 ∨ (Rect.block (s := S8192x512) S512x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x3372.size a ≤ S4096x3372.size a
  hwx4_0 : ∀ i : grid4.Coords, EltTy.bits .f32 = 32 ∨ (Rect.block (s := S4096x3372) S256x3372.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3372x1024.size a ≤ S3372x1024.size a
  hwx4_1 : ∀ i : grid4.Coords, EltTy.bits .f32 = 32 ∨ (Rect.block (s := S3372x1024) S3372x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x1024.size a ≤ S4096x1024.size a
  hwx4_3 : ∀ i : grid4.Coords, EltTy.bits .f32 = 32 ∨ (Rect.block (s := S4096x1024) S256x1024.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S4096x1024.size a
  hwx5_0 : ∀ i : grid5.Coords, EltTy.bits .f32 = 32 ∨ (Rect.block (s := S4096x1024) S512x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x256.size a ≤ S1024x256.size a
  hwx5_1 : ∀ i : grid5.Coords, EltTy.bits .f32 = 32 ∨ (Rect.block (s := S1024x256) S1024x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S4096x256.size a
  hwx5_3 : ∀ i : grid5.Coords, EltTy.bits .f32 = 32 ∨ (Rect.block (s := S4096x256) S512x256.size (cc5_transform_3 i) (hinb5_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x512_S270336x1_S270336x512_1_0_n_n_0_1_1512 : GatherDims S8192x512 S270336x1 S270336x512 where
  offsetDims := [1]
  collapsedSliceDims := [0]
  operandBatchingDims := []
  startIndicesBatchingDims := []
  startIndexMap := [0]
  indexVectorDim := 1
  sliceSizes := ![1, 512]
  wf := gather_S8192x512_S270336x1_S270336x512_1_0_n_n_0_1_1512_wf
def scatter_S8192x512_S270336x1_S270336x512_1_0_0_1 : ScatterDims S8192x512 S270336x1 S270336x512 where
  updateWindowDims := [1]
  insertedWindowDims := [0]
  scatterDimsToOperandDims := [0]
  indexVectorDim := 1
  wf := scatter_S8192x512_S270336x1_S270336x512_1_0_0_1_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def gather_S8192x512_S4096x1_S4096x512_1_0_n_n_0_1_1512 : GatherDims S8192x512 S4096x1 S4096x512 where
  offsetDims := [1]
  collapsedSliceDims := [0]
  operandBatchingDims := []
  startIndicesBatchingDims := []
  startIndexMap := [0]
  indexVectorDim := 1
  sliceSizes := ![1, 512]
  wf := gather_S8192x512_S4096x1_S4096x512_1_0_n_n_0_1_1512_wf
def dot_S256x3372_S3372x1024_S256x1024_1_0_0_1_n_n : DotDims S256x3372 S3372x1024 S256x1024 where
  lhsContracting := [1]
  rhsContracting := [0]
  lhsNonContracting := [0]
  rhsNonContracting := [1]
  lhsBatch := []
  rhsBatch := []
  wf := dot_S256x3372_S3372x1024_S256x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_arg4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg7) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg10) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v103) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg15) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v104) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v105) S512x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_arg10) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v106) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v107) S512x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v138) S256x3372.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg19) S3372x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v139) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v140) S256x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v160) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg23) S1024x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v161) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v162) S512x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S4096 : Shape := ⟨1, ![4096]⟩
abbrev S4096x300 : Shape := ⟨2, ![4096, 300]⟩
abbrev S4096x1024 : Shape := ⟨2, ![4096, 1024]⟩
abbrev S8192x1024 : Shape := ⟨2, ![8192, 1024]⟩
abbrev S2x262144 : Shape := ⟨2, ![2, 262144]⟩
abbrev S262144 : Shape := ⟨1, ![262144]⟩
abbrev S8192x8192 : Shape := ⟨2, ![8192, 8192]⟩
abbrev S1024x512 : Shape := ⟨2, ![1024, 512]⟩
abbrev S512 : Shape := ⟨1, ![512]⟩
abbrev S512x512 : Shape := ⟨2, ![512, 512]⟩
abbrev S3372x1024 : Shape := ⟨2, ![3372, 1024]⟩
abbrev S1024 : Shape := ⟨1, ![1024]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S8192 : Shape := ⟨1, ![8192]⟩
abbrev S1x262144 : Shape := ⟨2, ![1, 262144]⟩
abbrev S270336 : Shape := ⟨1, ![270336]⟩
abbrev S_ : Shape := ⟨0, ![]⟩
abbrev S270336x1 : Shape := ⟨2, ![270336, 1]⟩
abbrev S8192x512 : Shape := ⟨2, ![8192, 512]⟩
abbrev S270336x512 : Shape := ⟨2, ![270336, 512]⟩
abbrev S1x512 : Shape := ⟨2, ![1, 512]⟩
abbrev S4096x1 : Shape := ⟨2, ![4096, 1]⟩
abbrev S4096x512 : Shape := ⟨2, ![4096, 512]⟩
abbrev S4096x3372 : Shape := ⟨2, ![4096, 3372]⟩
abbrev S1x1024 : Shape := ⟨2, ![1, 1024]⟩
abbrev S4096x256 : Shape := ⟨2, ![4096, 256]⟩
abbrev S1x256 : Shape := ⟨2, ![1, 256]⟩
abbrev S1x1 : Shape := ⟨2, ![1, 1]⟩

abbrev nBuf : Space → Nat
  | .hbm => 331
  | .vmem => 0
  | .smem => 0
  | _ => 0

abbrev hbmTy0_0 (i : Nat) : BufTy := match i % 128 with
  | 0 => ⟨S4096, .i32⟩
  | 1 => ⟨S4096, .i32⟩
  | 2 => ⟨S4096x300, .f32⟩
  | 3 => ⟨S4096x1024, .f32⟩
  | 4 => ⟨S8192x1024, .f32⟩
  | 5 => ⟨S2x262144, .i32⟩
  | 6 => ⟨S262144, .f32⟩
  | 7 => ⟨S8192x1024, .f32⟩
  | 8 => ⟨S2x262144, .i32⟩
  | 9 => ⟨S262144, .f32⟩
  | 10 => ⟨S8192x8192, .f32⟩
  | 11 => ⟨S1024x512, .f32⟩
  | 12 => ⟨S512, .f32⟩
  | 13 => ⟨S1024x512, .f32⟩
  | 14 => ⟨S512, .f32⟩
  | 15 => ⟨S512x512, .f32⟩
  | 16 => ⟨S512, .f32⟩
  | 17 => ⟨S512x512, .f32⟩
  | 18 => ⟨S512, .f32⟩
  | 19 => ⟨S3372x1024, .f32⟩
  | 20 => ⟨S1024, .f32⟩
  | 21 => ⟨S1024, .f32⟩
  | 22 => ⟨S1024, .f32⟩
  | 23 => ⟨S1024x256, .f32⟩
  | 24 => ⟨S256, .f32⟩
  | 25 => ⟨S256, .f32⟩
  | 26 => ⟨S256, .f32⟩
  | 27 => ⟨S256x1, .f32⟩
  | 28 => ⟨S1, .f32⟩
  | 29 => ⟨S8192, .i32⟩
  | 30 => ⟨S1x262144, .i32⟩
  | 31 => ⟨S262144, .i32⟩
  | 32 => ⟨S270336, .i32⟩
  | 33 => ⟨S1x262144, .i32⟩
  | 34 => ⟨S262144, .i32⟩
  | 35 => ⟨S270336, .i32⟩
  | 36 => ⟨S_, .f32⟩
  | 37 => ⟨S8192, .f32⟩
  | 38 => ⟨S270336, .f32⟩
  | 39 => ⟨S_, .f32⟩
  | 40 => ⟨S8192, .f32⟩
  | 41 => ⟨S270336x1, .i32⟩
  | 42 => ⟨S8192, .f32⟩
  | 43 => ⟨S_, .f32⟩
  | 44 => ⟨S8192, .f32⟩
  | 45 => ⟨S8192, .i1⟩
  | 46 => ⟨S8192, .f32⟩
  | 47 => ⟨S_, .f32⟩
  | 48 => ⟨S_, .f32⟩
  | 49 => ⟨S8192, .f32⟩
  | 50 => ⟨S8192, .f32⟩
  | 51 => ⟨S_, .i32⟩
  | 52 => ⟨S270336, .i32⟩
  | 53 => ⟨S270336, .i1⟩
  | 54 => ⟨S_, .i32⟩
  | 55 => ⟨S270336, .i32⟩
  | 56 => ⟨S270336, .i32⟩
  | 57 => ⟨S270336, .i32⟩
  | 58 => ⟨S270336x1, .i32⟩
  | 59 => ⟨S270336, .f32⟩
  | 60 => ⟨S270336, .f32⟩
  | 61 => ⟨S_, .i32⟩
  | 62 => ⟨S270336, .i32⟩
  | 63 => ⟨S270336, .i1⟩
  | 64 => ⟨S_, .i32⟩
  | 65 => ⟨S270336, .i32⟩
  | 66 => ⟨S270336, .i32⟩
  | 67 => ⟨S270336, .i32⟩
  | 68 => ⟨S270336x1, .i32⟩
  | 69 => ⟨S270336, .f32⟩
  | 70 => ⟨S270336, .f32⟩
  | 71 => ⟨S8192x512, .f32⟩
  | 72 => ⟨S_, .i32⟩
  | 73 => ⟨S270336, .i32⟩
  | 74 => ⟨S270336, .i1⟩
  | 75 => ⟨S_, .i32⟩
  | 76 => ⟨S270336, .i32⟩
  | 77 => ⟨S270336, .i32⟩
  | 78 => ⟨S270336, .i32⟩
  | 79 => ⟨S270336x1, .i32⟩
  | 80 => ⟨S270336x512, .f32⟩
  | 81 => ⟨S270336x1, .f32⟩
  | 82 => ⟨S270336x512, .f32⟩
  | 83 => ⟨S270336x512, .f32⟩
  | 84 => ⟨S_, .f32⟩
  | 85 => ⟨S8192x512, .f32⟩
  | 86 => ⟨S270336x1, .i32⟩
  | 87 => ⟨S8192x512, .f32⟩
  | 88 => ⟨S1x512, .f32⟩
  | 89 => ⟨S8192x512, .f32⟩
  | 90 => ⟨S8192x512, .f32⟩
  | 91 => ⟨S_, .f32⟩
  | 92 => ⟨S_, .f32⟩
  | 93 => ⟨S8192x512, .f32⟩
  | 94 => ⟨S8192x512, .i1⟩
  | 95 => ⟨S_, .f32⟩
  | 96 => ⟨S8192x512, .f32⟩
  | 97 => ⟨S8192x512, .f32⟩
  | 98 => ⟨S8192x512, .f32⟩
  | 99 => ⟨S8192, .i32⟩
  | 100 => ⟨S1x262144, .i32⟩
  | 101 => ⟨S262144, .i32⟩
  | 102 => ⟨S270336, .i32⟩
  | 103 => ⟨S1x262144, .i32⟩
  | 104 => ⟨S262144, .i32⟩
  | 105 => ⟨S270336, .i32⟩
  | 106 => ⟨S_, .f32⟩
  | 107 => ⟨S8192, .f32⟩
  | 108 => ⟨S270336, .f32⟩
  | 109 => ⟨S_, .f32⟩
  | 110 => ⟨S8192, .f32⟩
  | 111 => ⟨S270336x1, .i32⟩
  | 112 => ⟨S8192, .f32⟩
  | 113 => ⟨S_, .f32⟩
  | 114 => ⟨S8192, .f32⟩
  | 115 => ⟨S8192, .i1⟩
  | 116 => ⟨S8192, .f32⟩
  | 117 => ⟨S_, .f32⟩
  | 118 => ⟨S_, .f32⟩
  | 119 => ⟨S8192, .f32⟩
  | 120 => ⟨S8192, .f32⟩
  | 121 => ⟨S_, .i32⟩
  | 122 => ⟨S270336, .i32⟩
  | 123 => ⟨S270336, .i1⟩
  | 124 => ⟨S_, .i32⟩
  | 125 => ⟨S270336, .i32⟩
  | 126 => ⟨S270336, .i32⟩
  | 127 => ⟨S270336, .i32⟩
  | _ => ⟨S4096, .i32⟩

abbrev hbmTy0_1 (i : Nat) : BufTy := match i % 128 with
  | 0 => ⟨S270336x1, .i32⟩
  | 1 => ⟨S270336, .f32⟩
  | 2 => ⟨S270336, .f32⟩
  | 3 => ⟨S_, .i32⟩
  | 4 => ⟨S270336, .i32⟩
  | 5 => ⟨S270336, .i1⟩
  | 6 => ⟨S_, .i32⟩
  | 7 => ⟨S270336, .i32⟩
  | 8 => ⟨S270336, .i32⟩
  | 9 => ⟨S270336, .i32⟩
  | 10 => ⟨S270336x1, .i32⟩
  | 11 => ⟨S270336, .f32⟩
  | 12 => ⟨S270336, .f32⟩
  | 13 => ⟨S8192x512, .f32⟩
  | 14 => ⟨S_, .i32⟩
  | 15 => ⟨S270336, .i32⟩
  | 16 => ⟨S270336, .i1⟩
  | 17 => ⟨S_, .i32⟩
  | 18 => ⟨S270336, .i32⟩
  | 19 => ⟨S270336, .i32⟩
  | 20 => ⟨S270336, .i32⟩
  | 21 => ⟨S270336x1, .i32⟩
  | 22 => ⟨S270336x512, .f32⟩
  | 23 => ⟨S270336x1, .f32⟩
  | 24 => ⟨S270336x512, .f32⟩
  | 25 => ⟨S270336x512, .f32⟩
  | 26 => ⟨S_, .f32⟩
  | 27 => ⟨S8192x512, .f32⟩
  | 28 => ⟨S270336x1, .i32⟩
  | 29 => ⟨S8192x512, .f32⟩
  | 30 => ⟨S1x512, .f32⟩
  | 31 => ⟨S8192x512, .f32⟩
  | 32 => ⟨S8192x512, .f32⟩
  | 33 => ⟨S_, .f32⟩
  | 34 => ⟨S_, .f32⟩
  | 35 => ⟨S8192x512, .f32⟩
  | 36 => ⟨S8192x512, .i1⟩
  | 37 => ⟨S_, .f32⟩
  | 38 => ⟨S8192x512, .f32⟩
  | 39 => ⟨S8192x512, .f32⟩
  | 40 => ⟨S8192x512, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S4096x512, .f32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096x512, .f32⟩
  | 59 => ⟨S8192x512, .f32⟩
  | 60 => ⟨S8192x512, .f32⟩
  | 61 => ⟨S1x512, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S4096x512, .f32⟩
  | 76 => ⟨S8192x8192, .f32⟩
  | 77 => ⟨S8192x512, .f32⟩
  | 78 => ⟨S8192x512, .f32⟩
  | 79 => ⟨S1x512, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x512, .f32⟩
  | 94 => ⟨S4096x1024, .f32⟩
  | 95 => ⟨S4096x1024, .f32⟩
  | 96 => ⟨S4096x3372, .f32⟩
  | 97 => ⟨S4096x1024, .f32⟩
  | 98 => ⟨S1x1024, .f32⟩
  | 99 => ⟨S4096x1024, .f32⟩
  | 100 => ⟨S4096x1024, .f32⟩
  | 101 => ⟨S_, .f32⟩
  | 102 => ⟨S1024, .f32⟩
  | 103 => ⟨S_, .f32⟩
  | 104 => ⟨S1024, .f32⟩
  | 105 => ⟨S1024, .f32⟩
  | 106 => ⟨S_, .i32⟩
  | 107 => ⟨S_, .f32⟩
  | 108 => ⟨S1024, .f32⟩
  | 109 => ⟨S1x1024, .f32⟩
  | 110 => ⟨S_, .f32⟩
  | 111 => ⟨S1x1024, .f32⟩
  | 112 => ⟨S1x1024, .f32⟩
  | 113 => ⟨S4096x1024, .f32⟩
  | 114 => ⟨S4096x1024, .f32⟩
  | 115 => ⟨S4096x1024, .f32⟩
  | 116 => ⟨S_, .f32⟩
  | 117 => ⟨S_, .f32⟩
  | 118 => ⟨S_, .f32⟩
  | 119 => ⟨S_, .f32⟩
  | 120 => ⟨S1024, .f32⟩
  | 121 => ⟨S1024, .f32⟩
  | 122 => ⟨S1024, .f32⟩
  | 123 => ⟨S_, .f32⟩
  | 124 => ⟨S_, .i1⟩
  | 125 => ⟨S_, .f32⟩
  | 126 => ⟨S_, .f32⟩
  | 127 => ⟨S1024, .f32⟩
  | _ => ⟨S4096, .i32⟩

abbrev hbmTy0_2 (i : Nat) : BufTy := match i % 128 with
  | 0 => ⟨S1024, .f32⟩
  | 1 => ⟨S1x1024, .f32⟩
  | 2 => ⟨S4096x1024, .f32⟩
  | 3 => ⟨S4096x1024, .f32⟩
  | 4 => ⟨S_, .f32⟩
  | 5 => ⟨S1024, .f32⟩
  | 6 => ⟨S1024, .f32⟩
  | 7 => ⟨S1024, .f32⟩
  | 8 => ⟨S1x1024, .f32⟩
  | 9 => ⟨S4096x1024, .f32⟩
  | 10 => ⟨S4096x1024, .f32⟩
  | 11 => ⟨S1x1024, .f32⟩
  | 12 => ⟨S4096x1024, .f32⟩
  | 13 => ⟨S4096x1024, .f32⟩
  | 14 => ⟨S1x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x256, .f32⟩
  | 21 => ⟨S1x256, .f32⟩
  | 22 => ⟨S4096x256, .f32⟩
  | 23 => ⟨S4096x256, .f32⟩
  | 24 => ⟨S_, .f32⟩
  | 25 => ⟨S256, .f32⟩
  | 26 => ⟨S_, .f32⟩
  | 27 => ⟨S256, .f32⟩
  | 28 => ⟨S256, .f32⟩
  | 29 => ⟨S_, .i32⟩
  | 30 => ⟨S_, .f32⟩
  | 31 => ⟨S256, .f32⟩
  | 32 => ⟨S1x256, .f32⟩
  | 33 => ⟨S_, .f32⟩
  | 34 => ⟨S1x256, .f32⟩
  | 35 => ⟨S1x256, .f32⟩
  | 36 => ⟨S4096x256, .f32⟩
  | 37 => ⟨S4096x256, .f32⟩
  | 38 => ⟨S4096x256, .f32⟩
  | 39 => ⟨S_, .f32⟩
  | 40 => ⟨S_, .f32⟩
  | 41 => ⟨S_, .f32⟩
  | 42 => ⟨S_, .f32⟩
  | 43 => ⟨S256, .f32⟩
  | 44 => ⟨S256, .f32⟩
  | 45 => ⟨S256, .f32⟩
  | 46 => ⟨S_, .f32⟩
  | 47 => ⟨S_, .i1⟩
  | 48 => ⟨S_, .f32⟩
  | 49 => ⟨S_, .f32⟩
  | 50 => ⟨S256, .f32⟩
  | 51 => ⟨S256, .f32⟩
  | 52 => ⟨S1x256, .f32⟩
  | 53 => ⟨S4096x256, .f32⟩
  | 54 => ⟨S4096x256, .f32⟩
  | 55 => ⟨S_, .f32⟩
  | 56 => ⟨S256, .f32⟩
  | 57 => ⟨S256, .f32⟩
  | 58 => ⟨S256, .f32⟩
  | 59 => ⟨S1x256, .f32⟩
  | 60 => ⟨S4096x256, .f32⟩
  | 61 => ⟨S4096x256, .f32⟩
  | 62 => ⟨S1x256, .f32⟩
  | 63 => ⟨S4096x256, .f32⟩
  | 64 => ⟨S4096x256, .f32⟩
  | 65 => ⟨S1x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S4096x1, .f32⟩
  | 72 => ⟨S1x1, .f32⟩
  | 73 => ⟨S4096x1, .f32⟩
  | 74 => ⟨S4096x1, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_2 : Ref sig .tc := ⟨.hbm, 47, rfl⟩
abbrev main_call0_v0 : Ref sig .tc := ⟨.hbm, 48, rfl⟩
abbrev main_call0_v1 : Ref sig .tc := ⟨.hbm, 49, rfl⟩
abbrev main_v15 : Ref sig .tc := ⟨.hbm, 50, rfl⟩
abbrev main_c : Ref sig .tc := ⟨.hbm, 51, rfl⟩
abbrev main_v16 : Ref sig .tc := ⟨.hbm, 52, rfl⟩
abbrev main_v17 : Ref sig .tc := ⟨.hbm, 53, rfl⟩
abbrev main_c_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_4 : Ref sig .tc := ⟨.hbm, 61, rfl⟩
abbrev main_v24 : Ref sig .tc := ⟨.hbm, 62, rfl⟩
abbrev main_v25 : Ref sig .tc := ⟨.hbm, 63, rfl⟩
abbrev main_c_5 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_6 : Ref sig .tc := ⟨.hbm, 72, rfl⟩
abbrev main_v33 : Ref sig .tc := ⟨.hbm, 73, rfl⟩
abbrev main_v34 : Ref sig .tc := ⟨.hbm, 74, rfl⟩
abbrev main_c_7 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_8 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_9 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_10 : Ref sig .tc := ⟨.hbm, 106, rfl⟩
abbrev main_v57 : Ref sig .tc := ⟨.hbm, 107, rfl⟩
abbrev main_v58 : Ref sig .tc := ⟨.hbm, 108, rfl⟩
abbrev main_cst_11 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_12 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_13 : Ref sig .tc := ⟨.hbm, 117, rfl⟩
abbrev main_call2_v0 : Ref sig .tc := ⟨.hbm, 118, rfl⟩
abbrev main_call2_v1 : Ref sig .tc := ⟨.hbm, 119, rfl⟩
abbrev main_v65 : Ref sig .tc := ⟨.hbm, 120, rfl⟩
abbrev main_c_14 : Ref sig .tc := ⟨.hbm, 121, rfl⟩
abbrev main_v66 : Ref sig .tc := ⟨.hbm, 122, rfl⟩
abbrev main_v67 : Ref sig .tc := ⟨.hbm, 123, rfl⟩
abbrev main_c_15 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_c_16 : Ref sig .tc := ⟨.hbm, 131, rfl⟩
abbrev main_v74 : Ref sig .tc := ⟨.hbm, 132, rfl⟩
abbrev main_v75 : Ref sig .tc := ⟨.hbm, 133, rfl⟩
abbrev main_c_17 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_c_18 : Ref sig .tc := ⟨.hbm, 142, rfl⟩
abbrev main_v83 : Ref sig .tc := ⟨.hbm, 143, rfl⟩
abbrev main_v84 : Ref sig .tc := ⟨.hbm, 144, rfl⟩
abbrev main_c_19 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_20 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_cst_21 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_v99 : Ref sig .tc := ⟨.hbm, 168, rfl⟩
abbrev main_c_22 : Ref sig .tc := ⟨.hbm, 169, rfl⟩
abbrev main_v100 : Ref sig .tc := ⟨.hbm, 170, rfl⟩
abbrev main_v101 : Ref sig .tc := ⟨.hbm, 171, rfl⟩
abbrev main_c_23 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_c_24 : Ref sig .tc := ⟨.hbm, 178, rfl⟩
abbrev main_v107 : Ref sig .tc := ⟨.hbm, 179, rfl⟩
abbrev main_v108 : Ref sig .tc := ⟨.hbm, 180, rfl⟩
abbrev main_c_25 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_call4_cst : Ref sig .tc := ⟨.hbm, 192, rfl⟩
abbrev main_call4_v0 : Ref sig .tc := ⟨.hbm, 193, rfl⟩
abbrev main_v119 : Ref sig .tc := ⟨.hbm, 194, rfl⟩
abbrev main_c_26 : Ref sig .tc := ⟨.hbm, 195, rfl⟩
abbrev main_v120 : Ref sig .tc := ⟨.hbm, 196, rfl⟩
abbrev main_v121 : Ref sig .tc := ⟨.hbm, 197, rfl⟩
abbrev main_c_27 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_call5_cst : Ref sig .tc := ⟨.hbm, 210, rfl⟩
abbrev main_call5_v0 : Ref sig .tc := ⟨.hbm, 211, rfl⟩
abbrev main_v133 : Ref sig .tc := ⟨.hbm, 212, rfl⟩
abbrev main_c_28 : Ref sig .tc := ⟨.hbm, 213, rfl⟩
abbrev main_v134 : Ref sig .tc := ⟨.hbm, 214, rfl⟩
abbrev main_v135 : Ref sig .tc := ⟨.hbm, 215, rfl⟩
abbrev main_c_29 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_cst_30 : Ref sig .tc := ⟨.hbm, 229, rfl⟩
abbrev main_v148 : Ref sig .tc := ⟨.hbm, 230, rfl⟩
abbrev main_cst_31 : Ref sig .tc := ⟨.hbm, 231, rfl⟩
abbrev main_v149 : Ref sig .tc := ⟨.hbm, 232, rfl⟩
abbrev main_v150 : Ref sig .tc := ⟨.hbm, 233, rfl⟩
abbrev main_c_32 : Ref sig .tc := ⟨.hbm, 234, rfl⟩
abbrev main_call6_cst : Ref sig .tc := ⟨.hbm, 235, rfl⟩
abbrev main_call6_v0 : Ref sig .tc := ⟨.hbm, 236, rfl⟩
abbrev main_call6_v1 : Ref sig .tc := ⟨.hbm, 237, rfl⟩
abbrev main_call6_cst_0 : Ref sig .tc := ⟨.hbm, 238, rfl⟩
abbrev main_call6_v2 : Ref sig .tc := ⟨.hbm, 239, rfl⟩
abbrev main_call6_v3 : Ref sig .tc := ⟨.hbm, 240, rfl⟩
abbrev main_call6_v4 : Ref sig .tc := ⟨.hbm, 241, rfl⟩
abbrev main_call6_v5 : Ref sig .tc := ⟨.hbm, 242, rfl⟩
abbrev main_call6_v6 : Ref sig .tc := ⟨.hbm, 243, rfl⟩
abbrev main_call6_v7 : Ref sig .tc := ⟨.hbm, 244, rfl⟩
abbrev main_call6_cst_1 : Ref sig .tc := ⟨.hbm, 245, rfl⟩
abbrev main_call6_v8 : Ref sig .tc := ⟨.hbm, 246, rfl⟩
abbrev main_call6_cst_2 : Ref sig .tc := ⟨.hbm, 247, rfl⟩
abbrev main_call6_v9 : Ref sig .tc := ⟨.hbm, 248, rfl⟩
abbrev main_call6_v10 : Ref sig .tc := ⟨.hbm, 249, rfl⟩
abbrev main_call6_v11 : Ref sig .tc := ⟨.hbm, 250, rfl⟩
abbrev main_call6_cst_3 : Ref sig .tc := ⟨.hbm, 251, rfl⟩
abbrev main_call6_v12 : Ref sig .tc := ⟨.hbm, 252, rfl⟩
abbrev main_call6_cst_4 : Ref sig .tc := ⟨.hbm, 253, rfl⟩
abbrev main_call6_call0_v0 : Ref sig .tc := ⟨.hbm, 254, rfl⟩
abbrev main_call6_call0_v1 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_cst_33 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_call7_cst : Ref sig .tc := ⟨.hbm, 273, rfl⟩
abbrev main_call7_v0 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_cst_34 : Ref sig .tc := ⟨.hbm, 280, rfl⟩
abbrev main_v172 : Ref sig .tc := ⟨.hbm, 281, rfl⟩
abbrev main_cst_35 : Ref sig .tc := ⟨.hbm, 282, rfl⟩
abbrev main_v173 : Ref sig .tc := ⟨.hbm, 283, rfl⟩
abbrev main_v174 : Ref sig .tc := ⟨.hbm, 284, rfl⟩
abbrev main_c_36 : Ref sig .tc := ⟨.hbm, 285, rfl⟩
abbrev main_call8_cst : Ref sig .tc := ⟨.hbm, 286, rfl⟩
abbrev main_call8_v0 : Ref sig .tc := ⟨.hbm, 287, rfl⟩
abbrev main_call8_v1 : Ref sig .tc := ⟨.hbm, 288, rfl⟩
abbrev main_call8_cst_0 : Ref sig .tc := ⟨.hbm, 289, rfl⟩
abbrev main_call8_v2 : Ref sig .tc := ⟨.hbm, 290, rfl⟩
abbrev main_call8_v3 : Ref sig .tc := ⟨.hbm, 291, rfl⟩
abbrev main_call8_v4 : Ref sig .tc := ⟨.hbm, 292, rfl⟩
abbrev main_call8_v5 : Ref sig .tc := ⟨.hbm, 293, rfl⟩
abbrev main_call8_v6 : Ref sig .tc := ⟨.hbm, 294, rfl⟩
abbrev main_call8_v7 : Ref sig .tc := ⟨.hbm, 295, rfl⟩
abbrev main_call8_cst_1 : Ref sig .tc := ⟨.hbm, 296, rfl⟩
abbrev main_call8_v8 : Ref sig .tc := ⟨.hbm, 297, rfl⟩
abbrev main_call8_cst_2 : Ref sig .tc := ⟨.hbm, 298, rfl⟩
abbrev main_call8_v9 : Ref sig .tc := ⟨.hbm, 299, rfl⟩
abbrev main_call8_v10 : Ref sig .tc := ⟨.hbm, 300, rfl⟩
abbrev main_call8_v11 : Ref sig .tc := ⟨.hbm, 301, rfl⟩
abbrev main_call8_cst_3 : Ref sig .tc := ⟨.hbm, 302, rfl⟩
abbrev main_call8_v12 : Ref sig .tc := ⟨.hbm, 303, rfl⟩
abbrev main_call8_cst_4 : Ref sig .tc := ⟨.hbm, 304, rfl⟩
abbrev main_call8_call0_v0 : Ref sig .tc := ⟨.hbm, 305, rfl⟩
abbrev main_call8_call0_v1 : Ref sig .tc := ⟨.hbm, 306, rfl⟩
abbrev main_v175 : Ref sig .tc := ⟨.hbm, 307, rfl⟩
abbrev main_v176 : Ref sig .tc := ⟨.hbm, 308, rfl⟩
abbrev main_v177 : Ref sig .tc := ⟨.hbm, 309, rfl⟩
abbrev main_v178 : Ref sig .tc := ⟨.hbm, 310, rfl⟩
abbrev main_cst_37 : Ref sig .tc := ⟨.hbm, 311, rfl⟩
abbrev main_v179 : Ref sig .tc := ⟨.hbm, 312, rfl⟩
abbrev main_v180 : Ref sig .tc := ⟨.hbm, 313, rfl⟩
abbrev main_v181 : Ref sig .tc := ⟨.hbm, 314, rfl⟩
abbrev main_v182 : Ref sig .tc := ⟨.hbm, 315, rfl⟩
abbrev main_v183 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_v187 : Ref sig .tc := ⟨.hbm, 320, rfl⟩
abbrev main_v188 : Ref sig .tc := ⟨.hbm, 321, rfl⟩
abbrev main_v189 : Ref sig .tc := ⟨.hbm, 322, rfl⟩
abbrev main_v190 : Ref sig .tc := ⟨.hbm, 323, rfl⟩
abbrev main_call9_cst : Ref sig .tc := ⟨.hbm, 324, rfl⟩
abbrev main_call9_v0 : Ref sig .tc := ⟨.hbm, 325, rfl⟩
abbrev main_v191 : Ref sig .tc := ⟨.hbm, 326, rfl⟩
abbrev main_v192 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S8192 : S_.BroadcastsInDim S8192 (![] : Fin 0 → Fin S8192.rank)
  bcast_S270336_S270336x1_0 : S270336.BroadcastsInDim S270336x1 (![0] : Fin 1 → Fin S270336x1.rank)
  bcast_S_S270336 : S_.BroadcastsInDim S270336 (![] : Fin 0 → Fin S270336.rank)
  bcast_S270336x1_S270336x512_0_1 : S270336x1.BroadcastsInDim S270336x512 (![0, 1] : Fin 2 → Fin S270336x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S4096 : S_.BroadcastsInDim S4096 (![] : Fin 0 → Fin S4096.rank)
  bcast_S4096_S4096x1_0 : S4096.BroadcastsInDim S4096x1 (![0] : Fin 1 → Fin S4096x1.rank)
  transposes_S8192x8192_S8192x8192_1_0 : S8192x8192.Transposes [1, 0] S8192x8192
  concatenates_S4096x512_S4096x512_S4096x1024_d1 : Shape.Concatenates [S4096x512, S4096x512] S4096x1024 1
  concatenates_S4096x300_S4096x1024_S4096x1024_S4096x1024_S4096x3372_d1 : Shape.Concatenates [S4096x300, S4096x1024, S4096x1024, S4096x1024] S4096x3372 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  reducesTo_S4096x1024_S1024_d0 : S4096x1024.ReducesTo [0] S1024
  h_S_ : 0 < S_.numel
  bcast_S_S1024 : S_.BroadcastsInDim S1024 (![] : Fin 0 → Fin S1024.rank)
  bcast_S_S1x1024 : S_.BroadcastsInDim S1x1024 (![] : Fin 0 → Fin S1x1024.rank)
  bcast_S_S4096x1024 : S_.BroadcastsInDim S4096x1024 (![] : Fin 0 → Fin S4096x1024.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S256_d0 : S4096x256.ReducesTo [0] S256
  bcast_S_S256 : S_.BroadcastsInDim S256 (![] : Fin 0 → Fin S256.rank)
  bcast_S_S1x256 : S_.BroadcastsInDim S1x256 (![] : Fin 0 → Fin S1x256.rank)
  bcast_S_S4096x256 : S_.BroadcastsInDim S4096x256 (![] : Fin 0 → Fin S4096x256.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x1024_S1024x512_S8192x512_1_0_0_1_n_n_wf : DotDims.WF S8192x1024 S1024x512 S8192x512 [1] [0] [0] [1] [] []
  gather_S8192x512_S270336x1_S270336x512_1_0_n_n_0_1_1512_wf : GatherDims.WF S8192x512 S270336x1 S270336x512 [1] [0] [] [0] [] 1 ![1, 512]
  scatter_S8192x512_S270336x1_S270336x512_1_0_0_1_wf : ScatterDims.WF S8192x512 S270336x1 S270336x512 [1] [0] [0] 1
  gather_S8192x512_S4096x1_S4096x512_1_0_n_n_0_1_1512_wf : GatherDims.WF S8192x512 S4096x1 S4096x512 [1] [0] [] [0] [] 1 ![1, 512]
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []
  dot_S4096x3372_S3372x1024_S4096x1024_1_0_0_1_n_n_wf : DotDims.WF S4096x3372 S3372x1024 S4096x1024 [1] [0] [0] [1] [] []
  dot_S4096x1024_S1024x256_S4096x256_1_0_0_1_n_n_wf : DotDims.WF S4096x1024 S1024x256 S4096x256 [1] [0] [0] [1] [] []
  dot_S4096x256_S256x1_S4096x1_1_0_0_1_n_n_wf : DotDims.WF S4096x256 S256x1 S4096x1 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def gather_S8192x512_S270336x1_S270336x512_1_0_n_n_0_1_1512 : GatherDims S8192x512 S270336x1 S270336x512 where
  offsetDims := [1]
  collapsedSliceDims := [0]
  operandBatchingDims := []
  startIndicesBatchingDims := []
  startIndexMap := [0]
  indexVectorDim := 1
  sliceSizes := ![1, 512]
  wf := gather_S8192x512_S270336x1_S270336x512_1_0_n_n_0_1_1512_wf
def scatter_S8192x512_S270336x1_S270336x512_1_0_0_1 : ScatterDims S8192x512 S270336x1 S270336x512 where
  updateWindowDims := [1]
  insertedWindowDims := [0]
  scatterDimsToOperandDims := [0]
  indexVectorDim := 1
  wf := scatter_S8192x512_S270336x1_S270336x512_1_0_0_1_wf
def gather_S8192x512_S4096x1_S4096x512_1_0_n_n_0_1_1512 : GatherDims S8192x512 S4096x1 S4096x512 where
  offsetDims := [1]
  collapsedSliceDims := [0]
  operandBatchingDims := []
  startIndicesBatchingDims := []
  startIndexMap := [0]
  indexVectorDim := 1
  sliceSizes := ![1, 512]
  wf := gather_S8192x512_S4096x1_S4096x512_1_0_n_n_0_1_1512_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S4096x3372_S3372x1024_S4096x1024_1_0_0_1_n_n : DotDims S4096x3372 S3372x1024 S4096x1024 where
  lhsContracting := [1]
  rhsContracting := [0]
  lhsNonContracting := [0]
  rhsNonContracting := [1]
  lhsBatch := []
  rhsBatch := []
  wf := dot_S4096x3372_S3372x1024_S4096x1024_1_0_0_1_n_n_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.K.RunCond.lean ====
/-
  The kernel program's run read to the end, with its RESULT: @main is host stretches and six kernel regions; between two
  items a core's unscoped buffers hold the launch contents folded through the host stretches and, at each region's output
  array, what that region left. Given each region's segment record between those thread states, every weakly fair
  execution terminates, the arguments end as launched and the result buffer ends at the last valuation's contents.
-/
import proofs.«141825_j60318520705103_1_alg».proof.Proof.Gen.Kernel.Launch
import proofs.«141825_j60318520705103_1_alg».proof.Proof.Gen.Kernel.Regions
import Idealize.ShloMosaic.Lib.Pipeline.Frame
import Idealize.ShloMosaic.Lib.Pipeline.Regions

-- decided memberships and the launch's enumerations over 362 references recurse past the default depth
set_option maxRecDepth 1960

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of @main given the regions' records, with the RESULT named: as the conditional frame, and besides every
    final memory holds the result buffer at the last valuation's contents (the last host stretch's value of it, over what
    the regions left). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V17 m outs c) ∗ E 4 c) ⊢ R4.pre c)
    (hpost4 : ∀ c : Dev nD, R4.post c ⊢ iprop(StableHlo.held (c : Thread nD τ) (Pipeline.ucRefs τ sig) (V18 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V23 m outs c) ∗ E 5 c) ⊢ R5.pre c)
    (hpost5 : ∀ c : Dev nD, R5.post c ⊢ iprop(StableHlo.held (c : Thread nD τ) (Pipeline.ucRefs τ sig) (V24 m outs c) ∗ E 6 c)) :
    θ_run defs (onTc (τ := τ) (main (F := F))) ⟨m, fun _ => 0, ρ⟩ (fun r => ∀ c : Dev nD,
      r.2.mem ((c.tc : Thread nD τ).loc main_v186) = V29 m outs c main_v186 ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          StableHlo.seq hostOps5_3,
          StableHlo.seq hostOps5_4,
          Prog.lift (.customCall (Pipeline.entry 5) ()),
          StableHlo.seq hostOps6,
          StableHlo.seq hostOps6_1,
          StableHlo.seq hostOps6_2,
          StableHlo.seq hostOps6_3,
          StableHlo.seq hostOps6_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, hpre0 c, hpost0 c, .rfl, .rfl, .rfl, .rfl, hpre1 c, hpost1 c, .rfl, .rfl, .rfl, .rfl, hpre2 c, hpost2 c, hpre3 c, hpost3 c, hpre4 c, hpost4 c, .rfl, .rfl, .rfl, .rfl, hpre5 c, hpost5 c, .rfl, .rfl, .rfl, .rfl, sep_mono .rfl (hE6 c)⟩)
    (hinit := ?_) (QY := fun c s => s.mem ((c.tc : Thread nD τ).loc main_v186) = V29 m outs c main_v186 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27) ∧ s.mem ((c.tc : Thread nD τ).loc main_arg28) = m ((c.tc : Thread nD τ).loc main_arg28))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V29 m outs c) s') $$ [Hh HSI]
    · isplitl [Hh] <;> iassumption
    icases Hr with ⟨%h, HSI⟩
    imodintro
    isplitr
    · ipureintro
      exact ⟨h (Proc.devRef .tc main_v186) (Finset.mem_filter.mpr ⟨StableHlo.devRef_mem_tcRefs main_v186, by decide⟩),
        (h (Proc.devRef .tc main_arg0) (Finset.mem_filter.mpr ⟨StableHlo.devRef_mem_tcRefs main_arg0, by decide⟩)).trans (V29_main_arg0 m outs c),
        (h (Proc.devRef .tc main_arg1) (Finset.mem_filter.mpr ⟨StableHlo.devRef_mem_tcRefs main_arg1, by decide⟩)).trans (V29_main_arg1 m outs c),
        (h (Proc.devRef .tc main_arg2) (Finset.mem_filter.mpr ⟨StableHlo.devRef_mem_tcRefs main_arg2, by decide⟩)).trans (V29_main_arg2 m outs c),
        (h (Proc.devRef .tc main_arg3) (Finset.mem_filter.mpr ⟨StableHlo.devRef_mem_tcRefs main_arg3, by decide⟩)).trans (V29_main_arg3 m outs c),
        (h (Proc.devRef .tc main_arg4) (Finset.mem_filter.mpr ⟨StableHlo.devRef_mem_tcRefs main_arg4, by decide⟩)).trans (V29_main_arg4 m outs c),
        (h (Proc.devRef .tc main_arg5) (Finset.mem_filter.mpr ⟨StableHlo.devRef_mem_tcRefs main_arg5, by decide⟩)).trans (V29_main_arg5 m outs c),
        (h (Proc.devRef .tc main_arg6) (Finset.mem_filter.mpr ⟨StableHlo.devRef_mem_tcRefs main_arg6, by decide⟩)).trans (V29_main_arg6 m outs c),
        (h (Proc.devRef .tc main_arg7) (Finset.mem_filter.mpr ⟨StableHlo.devRef_mem_tcRefs main_arg7, by decide⟩)).trans (V29_main_arg7 m outs c),
        (h (Proc.devRef .tc main_arg8) (Finset.mem_filter.mpr ⟨StableHlo.devRef_mem_tcRefs main_arg8, by decide⟩)).trans (V29_main_arg8 m outs c),
        (h (Proc.devRef .tc main_arg9) (Finset.mem_filter.mpr ⟨StableHlo.devRef_mem_tcRefs main_arg9, by decide⟩)).trans (V29_main_arg9 m outs c),
        (h (Proc.devRef .tc main_arg10) (Finset.mem_filter.mpr ⟨StableHlo.devRef_mem_tcRefs main_arg10, by decide⟩)).trans (V29_main_arg10 m outs c),
        (h (Proc.devRef .tc main_arg11) (Finset.mem_filter.mpr ⟨StableHlo.devRef_mem_tcRefs main_arg11, by decide⟩)).trans (V29_main_arg11 m outs c),
        (h (Proc.devRef .tc main_arg12) (Finset.mem_filter.mpr ⟨StableHlo.devRef_mem_tcRefs main_arg12, by decide⟩)).trans (V29_main_arg12 m outs c),
        (h (Proc.devRef .tc main_arg13) (Finset.mem_filter.mpr ⟨StableHlo.devRef_mem_tcRefs main_arg13, by decide⟩)).trans (V29_main_arg13 m outs c),
        (h (Proc.devRef .tc main_arg14) (Finset.mem_filter.mpr ⟨StableHlo.devRef_mem_tcRefs main_arg14, by decide⟩)).trans (V29_main_arg14 m outs c),
        (h (Proc.devRef .tc main_arg15) (Finset.mem_filter.mpr ⟨StableHlo.devRef_mem_tcRefs main_arg15, by decide⟩)).trans (V29_main_arg15 m outs c),
        (h (Proc.devRef .tc main_arg16) (Finset.mem_filter.mpr ⟨StableHlo.devRef_mem_tcRefs main_arg16, by decide⟩)).trans (V29_main_arg16 m outs c),
        (h (Proc.devRef .tc main_arg17) (Finset.mem_filter.mpr ⟨StableHlo.devRef_mem_tcRefs main_arg17, by decide⟩)).trans (V29_main_arg17 m outs c),
        (h (Proc.devRef .tc main_arg18) (Finset.mem_filter.mpr ⟨StableHlo.devRef_mem_tcRefs main_arg18, by decide⟩)).trans (V29_main_arg18 m outs c),
        (h (Proc.devRef .tc main_arg19) (Finset.mem_filter.mpr ⟨StableHlo.devRef_mem_tcRefs main_arg19, by decide⟩)).trans (V29_main_arg19 m outs c),
        (h (Proc.devRef .tc main_arg20) (Finset.mem_filter.mpr ⟨StableHlo.devRef_mem_tcRefs main_arg20, by decide⟩)).trans (V29_main_arg20 m outs c),
        (h (Proc.devRef .tc main_arg21) (Finset.mem_filter.mpr ⟨StableHlo.devRef_mem_tcRefs main_arg21, by decide⟩)).trans (V29_main_arg21 m outs c),
        (h (Proc.devRef .tc main_arg22) (Finset.mem_filter.mpr ⟨StableHlo.devRef_mem_tcRefs main_arg22, by decide⟩)).trans (V29_main_arg22 m outs c),
        (h (Proc.devRef .tc main_arg23) (Finset.mem_filter.mpr ⟨StableHlo.devRef_mem_tcRefs main_arg23, by decide⟩)).trans (V29_main_arg23 m outs c),
        (h (Proc.devRef .tc main_arg24) (Finset.mem_filter.mpr ⟨StableHlo.devRef_mem_tcRefs main_arg24, by decide⟩)).trans (V29_main_arg24 m outs c),
        (h (Proc.devRef .tc main_arg25) (Finset.mem_filter.mpr ⟨StableHlo.devRef_mem_tcRefs main_arg25, by decide⟩)).trans (V29_main_arg25 m outs c),
        (h (Proc.devRef .tc main_arg26) (Finset.mem_filter.mpr ⟨StableHlo.devRef_mem_tcRefs main_arg26, by decide⟩)).trans (V29_main_arg26 m outs c),
        (h (Proc.devRef .tc main_arg27) (Finset.mem_filter.mpr ⟨StableHlo.devRef_mem_tcRefs main_arg27, by decide⟩)).trans (V29_main_arg27 m outs c),
        (h (Proc.devRef .tc main_arg28) (Finset.mem_filter.mpr ⟨StableHlo.devRef_mem_tcRefs main_arg28, by decide⟩)).trans (V29_main_arg28 m outs c)⟩
    · iexact HSI

end Cert.Kernel.Hand

end
-- ==== Proof.K.Region0.lean ====
/- Region 0 of the program: the dense kernel `cc0__dense_matmul_bias_kernel` (x · w on the matrix unit into a zero
   accumulator, plus the bias row broadcast down the rows), as a pipeline over row blocks of x. Stated at a parameter
   `V`, the core's buffer contents when the region is entered: each window's block at a point, what the body leaves in
   the output window's buffer, the body's triple, the pipeline's proof data and the body obligation. Generic in the
   float interpretation. -/
import proofs.«141825_j60318520705103_1_alg».proof.Proof.Gen.Kernel.Launch
import proofs.«141825_j60318520705103_1_alg».proof.Proof.Gen.Kernel.Skeleton
import proofs.«141825_j60318520705103_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched at that point or
    at an earlier one (then its block index has not moved since), for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x1024 := Rect.unit (s := S1024x1024) ![0, 0] S1024x1024.size inb_S1024x1024_S1024x1024_0_0
abbrev r0_1 : Rect S1024x512 := Rect.unit (s := S1024x512) ![0, 0] S1024x512.size inb_S1024x512_S1024x512_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-! ## What the body leaves in the output window's buffer -/

/-- The output buffer after the body, from the three input blocks: its one store, of the whole buffer. -/
def out0_3 (x0 : Vec F S1024x1024 .f32) (x1 : Vec F S1024x512 .f32) (x2 : Vec F S1x512 .f32) : Vec F S1024x512 .f32 :=
  View.canon [⟨r0_3, k0_pay1 (View.ld x0 r0_0) (View.ld x1 r0_1) (View.ld x2 r0_2)⟩]

/-- The one store is of the whole buffer, so it covers it. -/
theorem cover0_3 (p0 : Vec F S1024x512 .f32) (y : S1024x512.Idx) :
    ∃ pc ∈ ([⟨r0_3, p0⟩] : List (View.Piece (Elt F) S1024x512 .f32)), y ∈ pc.1.set :=
  View.cover_of_tiled [⟨r0_3, p0⟩] S1024x512.size (by rfl) y

/-! ## The body's triple -/

set_option maxHeartbeats 1000000 in
/-- The kernel body on whole staging memrefs, the three inputs' at contents `x0 x1 x2` and the output's at anything,
    runs to the continuation holding the inputs' as they were and the output's at `out0_3` of the inputs'. The body
    also reads the output buffer before it stores it whole; the value read is not used. -/
theorem sound_kernel0 (c : Dev nD) (E : Set ℕ) (i : grid0.Coords)
    (arg1 : Memref sig .tc .vmem S1024x1024 .f32) (harg1 : arg1.IsWhole) (arg2 : Memref sig .tc .vmem S1024x512 .f32) (harg2 : arg2.IsWhole)
    (arg3 : Memref sig .tc .vmem S1x512 .f32) (harg3 : arg3.IsWhole) (arg4 : Memref sig .tc .vmem S1024x512 .f32) (harg4 : arg4.IsWhole)
    (x0 : Vec F S1024x1024 .f32) (x1 : Vec F S1024x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_matmul_bias_kernel i arg1 harg1 arg2 harg2 arg3 harg3 arg4 harg4) K := by
  simp only [cc0__dense_matmul_bias_kernel_eq_skeleton]; unfold cc0__dense_matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them (`V`); after the body at point
    `t` each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Region1.lean ====
/- Region 1 of the program: the dense kernel `cc1__dense_matmul_bias_kernel` (x · w on the matrix unit into a zero
   accumulator, plus the bias row broadcast down the rows), as a pipeline over row blocks of x. Stated at a parameter
   `V`, the core's buffer contents when the region is entered: each window's block at a point, what the body leaves in
   the output window's buffer, the body's triple, the pipeline's proof data and the body obligation. Generic in the
   float interpretation. -/
import proofs.«141825_j60318520705103_1_alg».proof.Proof.Gen.Kernel.Launch
import proofs.«141825_j60318520705103_1_alg».proof.Proof.Gen.Kernel.Skeleton
import proofs.«141825_j60318520705103_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched at that point or
    at an earlier one (then its block index has not moved since), for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1024x1024 := Rect.unit (s := S1024x1024) ![0, 0] S1024x1024.size inb_S1024x1024_S1024x1024_0_0
abbrev r1_1 : Rect S1024x512 := Rect.unit (s := S1024x512) ![0, 0] S1024x512.size inb_S1024x512_S1024x512_0_0
abbrev r1_2 : Rect S1x512 := Rect.unit (s := S1x512) ![0, 0] S1x512.size inb_S1x512_S1x512_0_0
abbrev r1_3 : Rect S1024x512 := Rect.unit (s := S1024x512) ![0, 0] S1024x512.size inb_S1024x512_S1024x512_0_0

/-! ## What the body leaves in the output window's buffer -/

/-- The output buffer after the body, from the three input blocks: its one store, of the whole buffer. -/
def out1_3 (x0 : Vec F S1024x1024 .f32) (x1 : Vec F S1024x512 .f32) (x2 : Vec F S1x512 .f32) : Vec F S1024x512 .f32 :=
  View.canon [⟨r1_3, k1_pay1 (View.ld x0 r1_0) (View.ld x1 r1_1) (View.ld x2 r1_2)⟩]

/-- The one store is of the whole buffer, so it covers it. -/
theorem cover1_3 (p0 : Vec F S1024x512 .f32) (y : S1024x512.Idx) :
    ∃ pc ∈ ([⟨r1_3, p0⟩] : List (View.Piece (Elt F) S1024x512 .f32)), y ∈ pc.1.set :=
  View.cover_of_tiled [⟨r1_3, p0⟩] S1024x512.size (by rfl) y

/-! ## The body's triple -/

set_option maxHeartbeats 1000000 in
/-- The kernel body on whole staging memrefs, the three inputs' at contents `x0 x1 x2` and the output's at anything,
    runs to the continuation holding the inputs' as they were and the output's at `out1_3` of the inputs'. The body
    also reads the output buffer before it stores it whole; the value read is not used. -/
theorem sound_kernel1 (c : Dev nD) (E : Set ℕ) (i : grid1.Coords)
    (arg1 : Memref sig .tc .vmem S1024x1024 .f32) (harg1 : arg1.IsWhole) (arg2 : Memref sig .tc .vmem S1024x512 .f32) (harg2 : arg2.IsWhole)
    (arg3 : Memref sig .tc .vmem S1x512 .f32) (harg3 : arg3.IsWhole) (arg4 : Memref sig .tc .vmem S1024x512 .f32) (harg4 : arg4.IsWhole)
    (x0 : Vec F S1024x1024 .f32) (x1 : Vec F S1024x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_matmul_bias_kernel i arg1 harg1 arg2 harg2 arg3 harg3 arg4 harg4) K := by
  simp only [cc1__dense_matmul_bias_kernel_eq_skeleton]; unfold cc1__dense_matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them (`V`); after the body at point
    `t` each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Region2Runs.lean ====
import proofs.«141825_j60318520705103_1_alg».proof.Proof.Gen.Kernel.Launch
import proofs.«141825_j60318520705103_1_alg».proof.Proof.Gen.Kernel.Skeleton
import proofs.«141825_j60318520705103_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions, in closed form over the grid -/

/-- The first conditional: the inner coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional: the inner coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the second conditional fails the output window is idle and is not written back; -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- where it holds the window is live. -/
theorem liveAt2_4 : ∀ t : Fin cfg2.N, cond2_1 (grid2.coords t) → cfg2.idle 4 (grid2.coords t) = false := by decide +kernel

/-! ## The memrefs the body is called with -/

/-- One staging buffer of the output window, through which its contents are stated (the choice does not matter). -/
abbrev VO2_4 : View sig .tc .vmem S512x512 .f32 := (Memref.whole cc2_stg4_0 : Memref sig .tc .vmem S512x512 .f32).view
abbrev ms2_0 (t : Fin cfg2.N) : Memref sig .tc .vmem S512x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
/-- The scratch accumulator: a whole scoped buffer of the kernel's own, carried between points. -/
abbrev scM2 : Memref sig .tc .vmem S512x512 .f32 := Memref.whole cc2_scratch0
abbrev VS2 : View sig .tc .vmem S512x512 .f32 := scM2.view

/-- The class's invariant with the scratch as a memref owned at some contents and the remaining scoped buffers unopened. -/
theorem PhiA2_eq (c : Dev nD) :
    (Pipeline.ΦA spec2 c : sProp 𝕄)
      = iprop(iprop(iprop((∃ d, owns (c : Thread nD τ) scM2 fullShare d)) ∗ Pipeline.scopedRestBut spec2 c [cc2_scratch0]) ∗ (∃ r, prngReg c r)) := by
  unfold Pipeline.ΦA; rw [scopedRest2_split]; simp only [scM2, owns_whole]; try rfl

end Cert.Kernel.Hand

end
-- ==== Proof.K.Region2RunA.lean ====
import proofs.«141825_j60318520705103_1_alg».proof.Proof.K.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 0: the accumulator is reset, then the block product is added; with the proof that on whole memrefs, the inputs' at
    their contents, the body runs to the continuation holding the inputs' as they were and each stored buffer with its
    pieces written. -/
noncomputable def kernelRun2_A (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i)
    (x0 : Vec F S512x2048 .f32) (x1 : Vec F S2048x512 .f32) (x2 : Vec F S512x512 .f32) (x3 : Vec F S1x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__fused_affinity_kernel i arg2 harg2 arg3 harg3 arg4 harg4 arg5 harg5 arg6 harg6 arg7 harg7) K } := by
  refine ⟨[], ?_, fun xi4 E K => ?run⟩
  case run =>
    simp only [cc2__fused_affinity_kernel_eq_skeleton]; unfold cc2__fused_affinity_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Region2RunB.lean ====
import proofs.«141825_j60318520705103_1_alg».proof.Proof.K.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 1 or 2: the block product is added to the accumulator; with the proof that on whole memrefs, the inputs' at
    their contents, the body runs to the continuation holding the inputs' as they were and each stored buffer with its
    pieces written. -/
noncomputable def kernelRun2_B (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i)
    (x0 : Vec F S512x2048 .f32) (x1 : Vec F S2048x512 .f32) (x2 : Vec F S512x512 .f32) (x3 : Vec F S1x512 .f32) (xs0 : Vec F S512x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__fused_affinity_kernel i arg2 harg2 arg3 harg3 arg4 harg4 arg5 harg5 arg6 harg6 arg7 harg7) K } := by
  refine ⟨[], ?_, fun xi4 E K => ?run⟩
  case run =>
    simp only [cc2__fused_affinity_kernel_eq_skeleton]; unfold cc2__fused_affinity_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Region2RunC.lean ====
import proofs.«141825_j60318520705103_1_alg».proof.Proof.K.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 3: the block product is added, then the output block is computed from the accumulator and stored; with the proof that on whole memrefs, the inputs' at
    their contents, the body runs to the continuation holding the inputs' as they were and each stored buffer with its
    pieces written. -/
noncomputable def kernelRun2_C (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i)
    (x0 : Vec F S512x2048 .f32) (x1 : Vec F S2048x512 .f32) (x2 : Vec F S512x512 .f32) (x3 : Vec F S1x512 .f32) (xs0 : Vec F S512x512 .f32) :
    Σ' (L4 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__fused_affinity_kernel i arg2 harg2 arg3 harg3 arg4 harg4 arg5 harg5 arg6 harg6 arg7 harg7) K } := by
  refine ⟨?_, ?_, fun E K => ?run⟩
  case run =>
    simp only [cc2__fused_affinity_kernel_eq_skeleton]; unfold cc2__fused_affinity_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Region2.lean ====
import proofs.«141825_j60318520705103_1_alg».proof.Proof.K.Region2RunA
import proofs.«141825_j60318520705103_1_alg».proof.Proof.K.Region2RunB
import proofs.«141825_j60318520705103_1_alg».proof.Proof.K.Region2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the buffers they fill -/

theorem scover2_A (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i) (x0 : Vec F S512x2048 .f32) (x1 : Vec F S2048x512 .f32) (x2 : Vec F S512x512 .f32) (x3 : Vec F S1x512 .f32) (y : S512x512.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S512x512.size (by sl_kernel_rfl) y

theorem scover2_B (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i) (x0 : Vec F S512x2048 .f32) (x1 : Vec F S2048x512 .f32) (x2 : Vec F S512x512 .f32) (x3 : Vec F S1x512 .f32) (xs0 : Vec F S512x512 .f32) (y : S512x512.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S512x512.size (by sl_kernel_rfl) y

theorem scover2_C (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x2048 .f32) (x1 : Vec F S2048x512 .f32) (x2 : Vec F S512x512 .f32) (x3 : Vec F S1x512 .f32) (xs0 : Vec F S512x512 .f32) (y : S512x512.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S512x512.size (by sl_kernel_rfl) y

theorem cover2_C (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x2048 .f32) (x1 : Vec F S2048x512 .f32) (x2 : Vec F S512x512 .f32) (x3 : Vec F S1x512 .f32) (xs0 : Vec F S512x512 .f32) (y : S512x512.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S512x512.size (by sl_kernel_rfl) y

section Region2
variable (V : (c : Dev nD) → (b : Ref sig .tc) → Buf (Elt F) ((c : Thread nD τ).loc b))

/-! ## The three cases at a point of the grid -/

/-- The case of a point with inner coordinate 0, at the point's memrefs and input blocks. -/
abbrev runA2 (c : Dev nD) (t : Fin cfg2.N) (h0 : t.val % 4 = 0) (h1 : ¬t.val % 4 = 3) :=
  kernelRun2_A (F := F) c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)
/-- The case of a point with inner coordinate 1 or 2, over accumulator contents `xs`. -/
abbrev runB2 (c : Dev nD) (t : Fin cfg2.N) (h0 : ¬t.val % 4 = 0) (h1 : ¬t.val % 4 = 3) (xs : Vec F S512x512 .f32) :=
  kernelRun2_B (F := F) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) xs
/-- The case of a point with inner coordinate 3, over accumulator contents `xs`. -/
abbrev runC2 (c : Dev nD) (t : Fin cfg2.N) (h0 : ¬t.val % 4 = 0) (h1 : t.val % 4 = 3) (xs : Vec F S512x512 .f32) :=
  kernelRun2_C (F := F) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) xs

/-- What each case leaves in the accumulator: its pieces read back. -/
def soutA2 (c : Dev nD) (t : Fin cfg2.N) (h0 : t.val % 4 = 0) (h1 : ¬t.val % 4 = 3) : Vec F S512x512 .f32 :=
  VS2.read (Elt F) (VS2.writes (Elt F) VS2.junk (runA2 V c t h0 h1).2.1)
def soutB2 (c : Dev nD) (t : Fin cfg2.N) (h0 : ¬t.val % 4 = 0) (h1 : ¬t.val % 4 = 3) (xs : Vec F S512x512 .f32) : Vec F S512x512 .f32 :=
  VS2.read (Elt F) (VS2.writes (Elt F) VS2.junk (runB2 V c t h0 h1 xs).2.1)
def soutC2 (c : Dev nD) (t : Fin cfg2.N) (h0 : ¬t.val % 4 = 0) (h1 : t.val % 4 = 3) (xs : Vec F S512x512 .f32) : Vec F S512x512 .f32 :=
  VS2.read (Elt F) (VS2.writes (Elt F) VS2.junk (runC2 V c t h0 h1 xs).2.1)
/-- What the last case leaves in the output block's staging buffer. -/
def outC2 (c : Dev nD) (t : Fin cfg2.N) (h0 : ¬t.val % 4 = 0) (h1 : t.val % 4 = 3) (xs : Vec F S512x512 .f32) : Vec F S512x512 .f32 :=
  VO2_4.read (Elt F) (VO2_4.writes (Elt F) VO2_4.junk (runC2 V c t h0 h1 xs).1)

/-! ## The accumulation -/

/-- What the accumulator holds after the body at position `n`: the case the inner coordinate selects, over what the
    position before left. -/
def acc2 (c : Dev nD) : (n : ℕ) → n < cfg2.N → Vec F S512x512 .f32
  | 0, hn => soutA2 V c ⟨0, hn⟩ (Nat.zero_mod _) (by show ¬((0 : ℕ) % 4 = 3); decide)
  | n + 1, hn =>
    if h0 : (n + 1) % 4 = 0 then soutA2 V c ⟨n + 1, hn⟩ h0 (by show ¬((n + 1) % 4 = 3); omega)
    else if h1 : (n + 1) % 4 = 3 then soutC2 V c ⟨n + 1, hn⟩ h0 h1 (acc2 c n (Nat.lt_of_succ_lt hn))
    else soutB2 V c ⟨n + 1, hn⟩ h0 h1 (acc2 c n (Nat.lt_of_succ_lt hn))

theorem acc2_A (c : Dev nD) (t : Fin cfg2.N) (h0 : t.val % 4 = 0) (h1 : ¬t.val % 4 = 3) :
    acc2 V c t.val t.isLt = soutA2 V c t h0 h1 := by
  obtain ⟨n, hn⟩ := t
  cases n with
  | zero => rfl
  | succ n => exact (dif_pos h0)

theorem acc2_B (c : Dev nD) (t : Fin cfg2.N) (h0 : ¬t.val % 4 = 0) (h1 : ¬t.val % 4 = 3) :
    acc2 V c t.val t.isLt = soutB2 V c t h0 h1 (acc2 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem acc2_C (c : Dev nD) (t : Fin cfg2.N) (h0 : ¬t.val % 4 = 0) (h1 : t.val % 4 = 3) :
    acc2 V c t.val t.isLt = soutC2 V c t h0 h1 (acc2 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- A placeholder for the output block's buffer at the points that leave it idle: nothing reads it (the block is neither
    written back there nor handed on). -/
def outIdle2 : Vec F S512x512 .f32 := VO2_4.read (Elt F) VO2_4.junk

/-- What the output block's staging buffer holds after the body at point `t`. -/
def out2 (c : Dev nD) (t : Fin cfg2.N) : Vec F S512x512 .f32 :=
  if h1 : t.val % 4 = 3 then outC2 V c t (by omega) h1 (acc2 V c (t.val - 1) (Nat.lt_of_le_of_lt (Nat.sub_le _ _) t.isLt))
  else outIdle2

/-! ## The invariant -/

/-- Before the first point the class's invariant (the scratch at anything); afterwards the scratch at what the point before
    left, the remaining scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ Pipeline.scopedRestBut spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ Pipeline.scopedRestBut spec2 c [cc2_scratch0]) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]
theorem leaves2_4_idle (c : Dev nD) (t : Fin cfg2.N) (h1 : ¬t.val % 4 = 3) :
    (dat2 V c).leavesExact 4 t = iprop(∃ d, owns (c : Thread nD τ) (ms2_4 t) fullShare ((dat2 V c).before 4 t d)) :=
  Dat.leavesExact_idle (dat2 V c) 4 t (idleAt2_4 t (fun h => h1 ((hcond2_1 t).mp h))) (noFlush2_4 t (fun h => h1 ((hcond2_1 t).mp h)))
theorem leaves2_4_live (c : Dev nD) (t : Fin cfg2.N) (h1 : t.val % 4 = 3) :
    (dat2 V c).leavesExact 4 t = owns (c : Thread nD τ) (ms2_4 t) fullShare (out2 V c t) := by
  unfold Dat.leavesExact; rw [liveAt2_4 t ((hcond2_1 t).mpr h1), after2_4]

set_option maxHeartbeats 4800000 in
/-- The body at any point: the inputs' memrefs hold their blocks; the inner coordinate says which case the point is in; the
    invariant hands the body the accumulator at what the point before left (at anything at the first point) and takes it back
    at this point's contents; where the output block is idle its buffer passes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 64 := lt_of_lt_of_eq t.isLt (show cfg2.N = 64 from N_2)
  by_cases h0 : t.val % 4 = 0
  · have h1 : ¬t.val % 4 = 3 := by omega
    rw [leaves2_4_idle V c t h1, acc2_A V c t h0 h1]
    unfold soutA2
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((runA2 V c t h0 h1).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA2 V c t h0 h1).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [PhiS2_castSucc V c t, PhiS2_pos V c _ _ hz]
    by_cases h1 : t.val % 4 = 3
    · rw [leaves2_4_live V c t h1, acc2_C V c t h0 h1]
      rw [show out2 V c t = outC2 V c t h0 h1 (acc2 V c (t.val - 1) (Nat.lt_of_le_of_lt (Nat.sub_le _ _) t.isLt)) from dif_pos h1]
      unfold soutC2 outC2
      iintro ⟨⟨⟨HS0, Hr⟩, Hg⟩, Ho, ⟨%d0, H0⟩, ⟨%d1, H1⟩, ⟨%d2, H2⟩, ⟨%d3, H3⟩, ⟨%d4, H4⟩⟩
      iapply ((runC2 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C c _ _ _ _ _ _ _ _ _ _ _ _ _ _ _ _ _ _ _ _)
    · rw [leaves2_4_idle V c t h1, acc2_B V c t h0 h1]
      unfold soutB2
      iintro ⟨⟨⟨HS0, Hr⟩, Hg⟩, Ho, ⟨%d0, H0⟩, ⟨%d1, H1⟩, ⟨%d2, H2⟩, ⟨%d3, H3⟩, ⟨%d4, H4⟩⟩
      iapply ((runB2 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (iprop((∃ r, prngReg c r) ∗ Pipeline.scopedRest (Ix := Unit) (Name := ℕ) (U := UR sig nD τ) (Lvl := ℕ) (Val := Elt F) spec2 c) : sProp 𝕄) ⊢ (dat2 V c).Φ 0 := by
  rw [show (dat2 V c).Φ 0 = PhiS2 V c 0 (Nat.zero_le _) from rfl, PhiS2_zero V c 0 _ rfl]
  unfold Pipeline.ΦA
  iintro ⟨Hg, Hs⟩
  isplitl [Hs]; · iexact Hs
  iexact Hg

/-- After the last point the invariant gives the scoped rest back: the accumulator's named contents are forgotten. -/
theorem hout2 (c : Dev nD) : (dat2 V c).Φ (Fin.last cfg2.N) ⊢ (iprop((∃ r, prngReg c r) ∗ Pipeline.scopedRest (Ix := Unit) (Name := ℕ) (U := UR sig nD τ) (Lvl := ℕ) (Val := Elt F) spec2 c) : sProp 𝕄) := by
  have hne : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ hne, scopedRest2_split]
  simp only [scM2, owns_whole]
  iintro ⟨⟨HS0, Hr⟩, Hg⟩
  isplitl [Hg]; · iexact Hg
  isplitl [HS0]
  · iexists _; iexact HS0
  iexact Hr

end Region2

end Cert.Kernel.Hand

end
-- ==== Proof.K.Region3Runs.lean ====
import proofs.«141825_j60318520705103_1_alg».proof.Proof.Gen.Kernel.Launch
import proofs.«141825_j60318520705103_1_alg».proof.Proof.Gen.Kernel.Skeleton
import proofs.«141825_j60318520705103_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's branch conditions, in closed form over the grid -/

/-- The first conditional: the inner coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional: the inner coordinate is 3. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Where the second conditional fails the output window is idle and is not written back; -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- where it holds the window is live. -/
theorem liveAt3_4 : ∀ t : Fin cfg3.N, cond3_1 (grid3.coords t) → cfg3.idle 4 (grid3.coords t) = false := by decide +kernel

/-! ## The memrefs the body is called with -/

/-- One staging buffer of the output window, through which its contents are stated (the choice does not matter). -/
abbrev VO3_4 : View sig .tc .vmem S512x512 .f32 := (Memref.whole cc3_stg4_0 : Memref sig .tc .vmem S512x512 .f32).view
abbrev ms3_0 (t : Fin cfg3.N) : Memref sig .tc .vmem S2048x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x512 .f32 := win3_4.stage (cfg3.slots t 4)
abbrev hs3_4 (t : Fin cfg3.N) : (ms3_4 t).IsWhole := hstage3_4 ((cfg3.slots t 4).cast nbuf3_4)
/-- The scratch accumulator: a whole scoped buffer of the kernel's own, carried between points. -/
abbrev scM3 : Memref sig .tc .vmem S512x512 .f32 := Memref.whole cc3_scratch0
abbrev VS3 : View sig .tc .vmem S512x512 .f32 := scM3.view

/-- The class's invariant with the scratch as a memref owned at some contents and the remaining scoped buffers unopened. -/
theorem PhiA3_eq (c : Dev nD) :
    (Pipeline.ΦA spec3 c : sProp 𝕄)
      = iprop(iprop(iprop((∃ d, owns (c : Thread nD τ) scM3 fullShare d)) ∗ Pipeline.scopedRestBut spec3 c [cc3_scratch0]) ∗ (∃ r, prngReg c r)) := by
  unfold Pipeline.ΦA; rw [scopedRest3_split]; simp only [scM3, owns_whole]; try rfl

end Cert.Kernel.Hand

end
-- ==== Proof.K.Region3RunA.lean ====
import proofs.«141825_j60318520705103_1_alg».proof.Proof.K.Region3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 0: the accumulator is reset, then the block product is added; with the proof that on whole memrefs, the inputs' at
    their contents, the body runs to the continuation holding the inputs' as they were and each stored buffer with its
    pieces written. -/
noncomputable def kernelRun3_A (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond3_0 i) (hc1 : ¬cond3_1 i)
    (x0 : Vec F S2048x512 .f32) (x1 : Vec F S2048x512 .f32) (x2 : Vec F S512x512 .f32) (x3 : Vec F S1x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__fused_affinity_kernel i arg2 harg2 arg3 harg3 arg4 harg4 arg5 harg5 arg6 harg6 arg7 harg7) K } := by
  refine ⟨[], ?_, fun xi4 E K => ?run⟩
  case run =>
    simp only [cc3__fused_affinity_kernel_eq_skeleton]; unfold cc3__fused_affinity_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Region3RunB.lean ====
import proofs.«141825_j60318520705103_1_alg».proof.Proof.K.Region3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 1 or 2: the block product is added to the accumulator; with the proof that on whole memrefs, the inputs' at
    their contents, the body runs to the continuation holding the inputs' as they were and each stored buffer with its
    pieces written. -/
noncomputable def kernelRun3_B (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : ¬cond3_1 i)
    (x0 : Vec F S2048x512 .f32) (x1 : Vec F S2048x512 .f32) (x2 : Vec F S512x512 .f32) (x3 : Vec F S1x512 .f32) (xs0 : Vec F S512x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__fused_affinity_kernel i arg2 harg2 arg3 harg3 arg4 harg4 arg5 harg5 arg6 harg6 arg7 harg7) K } := by
  refine ⟨[], ?_, fun xi4 E K => ?run⟩
  case run =>
    simp only [cc3__fused_affinity_kernel_eq_skeleton]; unfold cc3__fused_affinity_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Region3RunC.lean ====
import proofs.«141825_j60318520705103_1_alg».proof.Proof.K.Region3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 3: the block product is added, then the output block is computed from the accumulator and stored; with the proof that on whole memrefs, the inputs' at
    their contents, the body runs to the continuation holding the inputs' as they were and each stored buffer with its
    pieces written. -/
noncomputable def kernelRun3_C (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : cond3_1 i)
    (x0 : Vec F S2048x512 .f32) (x1 : Vec F S2048x512 .f32) (x2 : Vec F S512x512 .f32) (x3 : Vec F S1x512 .f32) (xs0 : Vec F S512x512 .f32) :
    Σ' (L4 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__fused_affinity_kernel i arg2 harg2 arg3 harg3 arg4 harg4 arg5 harg5 arg6 harg6 arg7 harg7) K } := by
  refine ⟨?_, ?_, fun E K => ?run⟩
  case run =>
    simp only [cc3__fused_affinity_kernel_eq_skeleton]; unfold cc3__fused_affinity_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Region3.lean ====
import proofs.«141825_j60318520705103_1_alg».proof.Proof.K.Region3RunA
import proofs.«141825_j60318520705103_1_alg».proof.Proof.K.Region3RunB
import proofs.«141825_j60318520705103_1_alg».proof.Proof.K.Region3RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the buffers they fill -/

theorem scover3_A (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond3_0 i) (hc1 : ¬cond3_1 i) (x0 : Vec F S2048x512 .f32) (x1 : Vec F S2048x512 .f32) (x2 : Vec F S512x512 .f32) (x3 : Vec F S1x512 .f32) (y : S512x512.Idx) :
    ∃ pc ∈ (kernelRun3_A c i arg2 harg2 arg3 harg3 arg4 harg4 arg5 harg5 arg6 harg6 arg7 harg7 hc0 hc1 x0 x1 x2 x3).2.1, y ∈ pc.1.set :=
  View.cover_of_tiledL (kernelRun3_A c i arg2 harg2 arg3 harg3 arg4 harg4 arg5 harg5 arg6 harg6 arg7 harg7 hc0 hc1 x0 x1 x2 x3).2.1 S512x512.size (by sl_kernel_rfl) y

theorem scover3_B (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : ¬cond3_1 i) (x0 : Vec F S2048x512 .f32) (x1 : Vec F S2048x512 .f32) (x2 : Vec F S512x512 .f32) (x3 : Vec F S1x512 .f32) (xs0 : Vec F S512x512 .f32) (y : S512x512.Idx) :
    ∃ pc ∈ (kernelRun3_B c i arg2 harg2 arg3 harg3 arg4 harg4 arg5 harg5 arg6 harg6 arg7 harg7 hc0 hc1 x0 x1 x2 x3 xs0).2.1, y ∈ pc.1.set :=
  View.cover_of_tiledL (kernelRun3_B c i arg2 harg2 arg3 harg3 arg4 harg4 arg5 harg5 arg6 harg6 arg7 harg7 hc0 hc1 x0 x1 x2 x3 xs0).2.1 S512x512.size (by sl_kernel_rfl) y

theorem scover3_C (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : cond3_1 i) (x0 : Vec F S2048x512 .f32) (x1 : Vec F S2048x512 .f32) (x2 : Vec F S512x512 .f32) (x3 : Vec F S1x512 .f32) (xs0 : Vec F S512x512 .f32) (y : S512x512.Idx) :
    ∃ pc ∈ (kernelRun3_C c i arg2 harg2 arg3 harg3 arg4 harg4 arg5 harg5 arg6 harg6 arg7 harg7 hc0 hc1 x0 x1 x2 x3 xs0).2.1, y ∈ pc.1.set :=
  View.cover_of_tiledL (kernelRun3_C c i arg2 harg2 arg3 harg3 arg4 harg4 arg5 harg5 arg6 harg6 arg7 harg7 hc0 hc1 x0 x1 x2 x3 xs0).2.1 S512x512.size (by sl_kernel_rfl) y

theorem cover3_C (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : cond3_1 i) (x0 : Vec F S2048x512 .f32) (x1 : Vec F S2048x512 .f32) (x2 : Vec F S512x512 .f32) (x3 : Vec F S1x512 .f32) (xs0 : Vec F S512x512 .f32) (y : S512x512.Idx) :
    ∃ pc ∈ (kernelRun3_C c i arg2 harg2 arg3 harg3 arg4 harg4 arg5 harg5 arg6 harg6 arg7 harg7 hc0 hc1 x0 x1 x2 x3 xs0).1, y ∈ pc.1.set :=
  View.cover_of_tiledL (kernelRun3_C c i arg2 harg2 arg3 harg3 arg4 harg4 arg5 harg5 arg6 harg6 arg7 harg7 hc0 hc1 x0 x1 x2 x3 xs0).1 S512x512.size (by sl_kernel_rfl) y

section Region3
variable (V : (c : Dev nD) → (b : Ref sig .tc) → Buf (Elt F) ((c : Thread nD τ).loc b))

/-! ## The three cases at a point of the grid -/

/-- The case of a point with inner coordinate 0, at the point's memrefs and input blocks. -/
abbrev runA3 (c : Dev nD) (t : Fin cfg3.N) (h0 : t.val % 4 = 0) (h1 : ¬t.val % 4 = 3) :=
  kernelRun3_A (F := F) c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t) (iblk3 V c 2 t) (iblk3 V c 3 t)
/-- The case of a point with inner coordinate 1 or 2, over accumulator contents `xs`. -/
abbrev runB3 (c : Dev nD) (t : Fin cfg3.N) (h0 : ¬t.val % 4 = 0) (h1 : ¬t.val % 4 = 3) (xs : Vec F S512x512 .f32) :=
  kernelRun3_B (F := F) c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (iblk3 V c 2 t) (iblk3 V c 3 t) xs
/-- The case of a point with inner coordinate 3, over accumulator contents `xs`. -/
abbrev runC3 (c : Dev nD) (t : Fin cfg3.N) (h0 : ¬t.val % 4 = 0) (h1 : t.val % 4 = 3) (xs : Vec F S512x512 .f32) :=
  kernelRun3_C (F := F) c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) xs

/-- What each case leaves in the accumulator: its pieces read back. -/
def soutA3 (c : Dev nD) (t : Fin cfg3.N) (h0 : t.val % 4 = 0) (h1 : ¬t.val % 4 = 3) : Vec F S512x512 .f32 :=
  VS3.read (Elt F) (VS3.writes (Elt F) VS3.junk (runA3 V c t h0 h1).2.1)
def soutB3 (c : Dev nD) (t : Fin cfg3.N) (h0 : ¬t.val % 4 = 0) (h1 : ¬t.val % 4 = 3) (xs : Vec F S512x512 .f32) : Vec F S512x512 .f32 :=
  VS3.read (Elt F) (VS3.writes (Elt F) VS3.junk (runB3 V c t h0 h1 xs).2.1)
def soutC3 (c : Dev nD) (t : Fin cfg3.N) (h0 : ¬t.val % 4 = 0) (h1 : t.val % 4 = 3) (xs : Vec F S512x512 .f32) : Vec F S512x512 .f32 :=
  VS3.read (Elt F) (VS3.writes (Elt F) VS3.junk (runC3 V c t h0 h1 xs).2.1)
/-- What the last case leaves in the output block's staging buffer. -/
def outC3 (c : Dev nD) (t : Fin cfg3.N) (h0 : ¬t.val % 4 = 0) (h1 : t.val % 4 = 3) (xs : Vec F S512x512 .f32) : Vec F S512x512 .f32 :=
  VO3_4.read (Elt F) (VO3_4.writes (Elt F) VO3_4.junk (runC3 V c t h0 h1 xs).1)

/-! ## The accumulation -/

/-- What the accumulator holds after the body at position `n`: the case the inner coordinate selects, over what the
    position before left. -/
def acc3 (c : Dev nD) : (n : ℕ) → n < cfg3.N → Vec F S512x512 .f32
  | 0, hn => soutA3 V c ⟨0, hn⟩ (Nat.zero_mod _) (by show ¬((0 : ℕ) % 4 = 3); decide)
  | n + 1, hn =>
    if h0 : (n + 1) % 4 = 0 then soutA3 V c ⟨n + 1, hn⟩ h0 (by show ¬((n + 1) % 4 = 3); omega)
    else if h1 : (n + 1) % 4 = 3 then soutC3 V c ⟨n + 1, hn⟩ h0 h1 (acc3 c n (Nat.lt_of_succ_lt hn))
    else soutB3 V c ⟨n + 1, hn⟩ h0 h1 (acc3 c n (Nat.lt_of_succ_lt hn))

theorem acc3_A (c : Dev nD) (t : Fin cfg3.N) (h0 : t.val % 4 = 0) (h1 : ¬t.val % 4 = 3) :
    acc3 V c t.val t.isLt = soutA3 V c t h0 h1 := by
  obtain ⟨n, hn⟩ := t
  cases n with
  | zero => rfl
  | succ n => exact (dif_pos h0)

theorem acc3_B (c : Dev nD) (t : Fin cfg3.N) (h0 : ¬t.val % 4 = 0) (h1 : ¬t.val % 4 = 3) :
    acc3 V c t.val t.isLt = soutB3 V c t h0 h1 (acc3 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem acc3_C (c : Dev nD) (t : Fin cfg3.N) (h0 : ¬t.val % 4 = 0) (h1 : t.val % 4 = 3) :
    acc3 V c t.val t.isLt = soutC3 V c t h0 h1 (acc3 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- A placeholder for the output block's buffer at the points that leave it idle: nothing reads it (the block is neither
    written back there nor handed on). -/
def outIdle3 : Vec F S512x512 .f32 := VO3_4.read (Elt F) VO3_4.junk

/-- What the output block's staging buffer holds after the body at point `t`. -/
def out3 (c : Dev nD) (t : Fin cfg3.N) : Vec F S512x512 .f32 :=
  if h1 : t.val % 4 = 3 then outC3 V c t (by omega) h1 (acc3 V c (t.val - 1) (Nat.lt_of_le_of_lt (Nat.sub_le _ _) t.isLt))
  else outIdle3

/-! ## The invariant -/

/-- Before the first point the class's invariant (the scratch at anything); afterwards the scratch at what the point before
    left, the remaining scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ Pipeline.scopedRestBut spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ Pipeline.scopedRestBut spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) : (dat3 V c).leavesExact 3 t = owns (c : Thread nD τ) (ms3_3 t) fullShare (iblk3 V c 3 t) := by
  unfold Dat.leavesExact; rw [liveAt3_3 t, after3_3]
theorem leaves3_4_idle (c : Dev nD) (t : Fin cfg3.N) (h1 : ¬t.val % 4 = 3) :
    (dat3 V c).leavesExact 4 t = iprop(∃ d, owns (c : Thread nD τ) (ms3_4 t) fullShare ((dat3 V c).before 4 t d)) :=
  Dat.leavesExact_idle (dat3 V c) 4 t (idleAt3_4 t (fun h => h1 ((hcond3_1 t).mp h))) (noFlush3_4 t (fun h => h1 ((hcond3_1 t).mp h)))
theorem leaves3_4_live (c : Dev nD) (t : Fin cfg3.N) (h1 : t.val % 4 = 3) :
    (dat3 V c).leavesExact 4 t = owns (c : Thread nD τ) (ms3_4 t) fullShare (out3 V c t) := by
  unfold Dat.leavesExact; rw [liveAt3_4 t ((hcond3_1 t).mpr h1), after3_4]

set_option maxHeartbeats 4800000 in
/-- The body at any point: the inputs' memrefs hold their blocks; the inner coordinate says which case the point is in; the
    invariant hands the body the accumulator at what the point before left (at anything at the first point) and takes it back
    at this point's contents; where the output block is idle its buffer passes through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  have hN : t.val < 64 := lt_of_lt_of_eq t.isLt (show cfg3.N = 64 from N_3)
  by_cases h0 : t.val % 4 = 0
  · have h1 : ¬t.val % 4 = 3 := by omega
    rw [leaves3_4_idle V c t h1, acc3_A V c t h0 h1]
    unfold soutA3
    by_cases hz : t.val = 0
    · rw [PhiS3_castSucc V c t, PhiS3_zero V c _ _ hz, PhiA3_eq]
      iintro ⟨⟨⟨HS0, Hr⟩, Hg⟩, Ho, ⟨%d0, H0⟩, ⟨%d1, H1⟩, ⟨%d2, H2⟩, ⟨%d3, H3⟩, ⟨%d4, H4⟩⟩
      iapply ((runA3 V c t h0 h1).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA3 V c t h0 h1).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [PhiS3_castSucc V c t, PhiS3_pos V c _ _ hz]
    by_cases h1 : t.val % 4 = 3
    · rw [leaves3_4_live V c t h1, acc3_C V c t h0 h1]
      rw [show out3 V c t = outC3 V c t h0 h1 (acc3 V c (t.val - 1) (Nat.lt_of_le_of_lt (Nat.sub_le _ _) t.isLt)) from dif_pos h1]
      unfold soutC3 outC3
      iintro ⟨⟨⟨HS0, Hr⟩, Hg⟩, Ho, ⟨%d0, H0⟩, ⟨%d1, H1⟩, ⟨%d2, H2⟩, ⟨%d3, H3⟩, ⟨%d4, H4⟩⟩
      iapply ((runC3 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C c _ _ _ _ _ _ _ _ _ _ _ _ _ _ _ _ _ _ _ _)
    · rw [leaves3_4_idle V c t h1, acc3_B V c t h0 h1]
      unfold soutB3
      iintro ⟨⟨⟨HS0, Hr⟩, Hg⟩, Ho, ⟨%d0, H0⟩, ⟨%d1, H1⟩, ⟨%d2, H2⟩, ⟨%d3, H3⟩, ⟨%d4, H4⟩⟩
      iapply ((runB3 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (iprop((∃ r, prngReg c r) ∗ Pipeline.scopedRest (Ix := Unit) (Name := ℕ) (U := UR sig nD τ) (Lvl := ℕ) (Val := Elt F) spec3 c) : sProp 𝕄) ⊢ (dat3 V c).Φ 0 := by
  rw [show (dat3 V c).Φ 0 = PhiS3 V c 0 (Nat.zero_le _) from rfl, PhiS3_zero V c 0 _ rfl]
  unfold Pipeline.ΦA
  iintro ⟨Hg, Hs⟩
  isplitl [Hs]; · iexact Hs
  iexact Hg

/-- After the last point the invariant gives the scoped rest back: the accumulator's named contents are forgotten. -/
theorem hout3 (c : Dev nD) : (dat3 V c).Φ (Fin.last cfg3.N) ⊢ (iprop((∃ r, prngReg c r) ∗ Pipeline.scopedRest (Ix := Unit) (Name := ℕ) (U := UR sig nD τ) (Lvl := ℕ) (Val := Elt F) spec3 c) : sProp 𝕄) := by
  have hne : (Fin.last cfg3.N).val ≠ 0 := by rw [Fin.val_last]; have : cfg3.N = 64 := N_3; omega
  rw [show (dat3 V c).Φ (Fin.last cfg3.N) = PhiS3 V c (Fin.last cfg3.N).val (Nat.le_of_lt_succ (Fin.last cfg3.N).isLt) from rfl,
    PhiS3_pos V c _ _ hne, scopedRest3_split]
  simp only [scM3, owns_whole]
  iintro ⟨⟨HS0, Hr⟩, Hg⟩
  isplitl [Hg]; · iexact Hg
  isplitl [HS0]
  · iexists _; iexact HS0
  iexact Hr

end Region3

end Cert.Kernel.Hand

end
-- ==== Proof.K.Region4.lean ====
/- Region 4 of the program: the dense kernel `cc4__dense_matmul_bias_kernel` (x · w on the matrix unit into a zero
   accumulator, plus the bias row broadcast down the rows), as a pipeline over row blocks of x. Stated at a parameter
   `V`, the core's buffer contents when the region is entered: each window's block at a point, what the body leaves in
   the output window's buffer, the body's triple, the pipeline's proof data and the body obligation. Generic in the
   float interpretation. -/
import proofs.«141825_j60318520705103_1_alg».proof.Proof.Gen.Kernel.Launch
import proofs.«141825_j60318520705103_1_alg».proof.Proof.Gen.Kernel.Skeleton
import proofs.«141825_j60318520705103_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether it was fetched at that point or
    at an earlier one (then its block index has not moved since), for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S256x3372 := Rect.unit (s := S256x3372) ![0, 0] S256x3372.size inb_S256x3372_S256x3372_0_0
abbrev r4_1 : Rect S3372x1024 := Rect.unit (s := S3372x1024) ![0, 0] S3372x1024.size inb_S3372x1024_S3372x1024_0_0
abbrev r4_2 : Rect S1x1024 := Rect.unit (s := S1x1024) ![0, 0] S1x1024.size inb_S1x1024_S1x1024_0_0
abbrev r4_3 : Rect S256x1024 := Rect.unit (s := S256x1024) ![0, 0] S256x1024.size inb_S256x1024_S256x1024_0_0

/-! ## What the body leaves in the output window's buffer -/

/-- The output buffer after the body, from the three input blocks: its one store, of the whole buffer. -/
def out4_3 (x0 : Vec F S256x3372 .f32) (x1 : Vec F S3372x1024 .f32) (x2 : Vec F S1x1024 .f32) : Vec F S256x1024 .f32 :=
  View.canon [⟨r4_3, k4_pay1 (View.ld x0 r4_0) (View.ld x1 r4_1) (View.ld x2 r4_2)⟩]

/-- The one store is of the whole buffer, so it covers it. -/
theorem cover4_3 (p0 : Vec F S256x1024 .f32) (y : S256x1024.Idx) :
    ∃ pc ∈ ([⟨r4_3, p0⟩] : List (View.Piece (Elt F) S256x1024 .f32)), y ∈ pc.1.set :=
  View.cover_of_tiled [⟨r4_3, p0⟩] S256x1024.size (by rfl) y

/-! ## The body's triple -/

set_option maxHeartbeats 1000000 in
/-- The kernel body on whole staging memrefs, the three inputs' at contents `x0 x1 x2` and the output's at anything,
    runs to the continuation holding the inputs' as they were and the output's at `out4_3` of the inputs'. The body
    also reads the output buffer before it stores it whole; the value read is not used. -/
theorem sound_kernel4 (c : Dev nD) (E : Set ℕ) (i : grid4.Coords)
    (arg1 : Memref sig .tc .vmem S256x3372 .f32) (harg1 : arg1.IsWhole) (arg2 : Memref sig .tc .vmem S3372x1024 .f32) (harg2 : arg2.IsWhole)
    (arg3 : Memref sig .tc .vmem S1x1024 .f32) (harg3 : arg3.IsWhole) (arg4 : Memref sig .tc .vmem S256x1024 .f32) (harg4 : arg4.IsWhole)
    (x0 : Vec F S256x3372 .f32) (x1 : Vec F S3372x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__dense_matmul_bias_kernel i arg1 harg1 arg2 harg2 arg3 harg3 arg4 harg4) K := by
  simp only [cc4__dense_matmul_bias_kernel_eq_skeleton]; unfold cc4__dense_matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the pipeline on core `c`: the arrays as the region finds them (`V`); after the body at point
    `t` each input's buffer at its block and the output's at `out4_3` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.Region5.lean ====
/- Region 5 of the program: the dense kernel `cc5__dense_matmul_bias_kernel` (x · w on the matrix unit into a zero
   accumulator, plus the bias row broadcast down the rows), as a pipeline over row blocks of x. Stated at a parameter
   `V`, the core's buffer contents when the region is entered: each window's block at a point, what the body leaves in
   the output window's buffer, the body's triple, the pipeline's proof data and the body obligation. Generic in the
   float interpretation. -/
import proofs.«141825_j60318520705103_1_alg».proof.Proof.Gen.Kernel.Launch
import proofs.«141825_j60318520705103_1_alg».proof.Proof.Gen.Kernel.Skeleton
import proofs.«141825_j60318520705103_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether it was fetched at that point or
    at an earlier one (then its block index has not moved since), for any proof data whose array is `V`'s and
    whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S512x1024 := Rect.unit (s := S512x1024) ![0, 0] S512x1024.size inb_S512x1024_S512x1024_0_0
abbrev r5_1 : Rect S1024x256 := Rect.unit (s := S1024x256) ![0, 0] S1024x256.size inb_S1024x256_S1024x256_0_0
abbrev r5_2 : Rect S1x256 := Rect.unit (s := S1x256) ![0, 0] S1x256.size inb_S1x256_S1x256_0_0
abbrev r5_3 : Rect S512x256 := Rect.unit (s := S512x256) ![0, 0] S512x256.size inb_S512x256_S512x256_0_0

/-! ## What the body leaves in the output window's buffer -/

/-- The output buffer after the body, from the three input blocks: its one store, of the whole buffer. -/
def out5_3 (x0 : Vec F S512x1024 .f32) (x1 : Vec F S1024x256 .f32) (x2 : Vec F S1x256 .f32) : Vec F S512x256 .f32 :=
  View.canon [⟨r5_3, k5_pay1 (View.ld x0 r5_0) (View.ld x1 r5_1) (View.ld x2 r5_2)⟩]

/-- The one store is of the whole buffer, so it covers it. -/
theorem cover5_3 (p0 : Vec F S512x256 .f32) (y : S512x256.Idx) :
    ∃ pc ∈ ([⟨r5_3, p0⟩] : List (View.Piece (Elt F) S512x256 .f32)), y ∈ pc.1.set :=
  View.cover_of_tiled [⟨r5_3, p0⟩] S512x256.size (by rfl) y

/-! ## The body's triple -/

set_option maxHeartbeats 1000000 in
/-- The kernel body on whole staging memrefs, the three inputs' at contents `x0 x1 x2` and the output's at anything,
    runs to the continuation holding the inputs' as they were and the output's at `out5_3` of the inputs'. The body
    also reads the output buffer before it stores it whole; the value read is not used. -/
theorem sound_kernel5 (c : Dev nD) (E : Set ℕ) (i : grid5.Coords)
    (arg1 : Memref sig .tc .vmem S512x1024 .f32) (harg1 : arg1.IsWhole) (arg2 : Memref sig .tc .vmem S1024x256 .f32) (harg2 : arg2.IsWhole)
    (arg3 : Memref sig .tc .vmem S1x256 .f32) (harg3 : arg3.IsWhole) (arg4 : Memref sig .tc .vmem S512x256 .f32) (harg4 : arg4.IsWhole)
    (x0 : Vec F S512x1024 .f32) (x1 : Vec F S1024x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__dense_matmul_bias_kernel i arg1 harg1 arg2 harg2 arg3 harg3 arg4 harg4) K := by
  simp only [cc5__dense_matmul_bias_kernel_eq_skeleton]; unfold cc5__dense_matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of the pipeline on core `c`: the arrays as the region finds them (`V`); after the body at point
    `t` each input's buffer at its block and the output's at `out5_3` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.Vals.lean ====
/-
  The kernel program between its items. @main is host stretches and six kernel regions (four dense products with a bias
  row, two products accumulated over a blocked contraction with a fused projection, bias and rectifier). `W J c` is what
  core `c`'s unscoped buffers hold after item `J − 1`: the launch contents folded through the host stretches, and at each
  region's output array the contents that region's write-backs leave (`oJ`), read off the region's proof data at the
  contents it is entered with. The unknowns of the program's conditional frame are instantiated at these contents.
-/
import proofs.«141825_j60318520705103_1_alg».proof.Proof.Gen.Kernel.Launch
import proofs.«141825_j60318520705103_1_alg».proof.Proof.Gen.Kernel.Skeleton
import proofs.«141825_j60318520705103_1_alg».proof.Proof.Gen.Kernel.Points
import proofs.«141825_j60318520705103_1_alg».proof.Proof.Gen.Kernel.Regions
import proofs.«141825_j60318520705103_1_alg».proof.Proof.K.RunCond
import proofs.«141825_j60318520705103_1_alg».proof.Proof.K.Region0
import proofs.«141825_j60318520705103_1_alg».proof.Proof.K.Region1
import proofs.«141825_j60318520705103_1_alg».proof.Proof.K.Region2
import proofs.«141825_j60318520705103_1_alg».proof.Proof.K.Region3
import proofs.«141825_j60318520705103_1_alg».proof.Proof.K.Region4
import proofs.«141825_j60318520705103_1_alg».proof.Proof.K.Region5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references. -/
abbrev atTc (W : Dev nD → Valuation τ sig (Elt F)) : (c : Dev nD) → (b : Ref sig .tc) → Buf (Elt F) ((c : Thread nD τ).loc b) := fun c b => W c b

/-- A valuation changed at one buffer reads as before at any other buffer, -/
theorem upd_in {c : Dev nD} (Wp : Valuation τ sig (Elt F)) (out : Ref sig .tc) (x : Buf (Elt F) ((c : Thread nD τ).loc out)) (b : Ref sig .tc) (h : b ≠ out) :
    (Function.update Wp (Proc.devRef .tc out) x : Valuation τ sig (Elt F)) (Proc.devRef .tc b) = Wp (Proc.devRef .tc b) :=
  Function.update_of_ne (StableHlo.devRef_ne_of_ne h) _ _
/-- and at that buffer holds the new contents. -/
theorem upd_out {c : Dev nD} (Wp : Valuation τ sig (Elt F)) (out : Ref sig .tc) (x : Buf (Elt F) ((c : Thread nD τ).loc out)) :
    (Function.update Wp (Proc.devRef .tc out) x : Valuation τ sig (Elt F)) (Proc.devRef .tc out) = x :=
  Function.update_self _ _ _

/-! ## The buffers' contents between items, with each region's output named

  `W J c` is what core `c`'s unscoped buffers hold after item `J − 1` of @main: the launch contents folded through the host
  stretches, and at each region's output array what that region's write-backs leave (`oJ`), computed from the contents
  the region is entered with. -/

/-- After the first host stretch. -/
def W1 (c : Dev nD) : Valuation τ sig (Elt F) := V1 m c
theorem W1_def (c : Dev nD) : W1 m c = V1 m c := rfl
/-- What region 0 leaves in `main_v3`. -/
def o2 (c : Dev nD) : Buf (Elt F) ((c : Thread nD τ).loc main_v3) := (dat0 (atTc (W1 m)) c).arrAt 3 cfg0.N
def W2 (c : Dev nD) : Valuation τ sig (Elt F) := Function.update (W1 m c) (Proc.devRef .tc main_v3) (o2 m c)
theorem W2_def (c : Dev nD) : W2 m c = Function.update (W1 m c) (Proc.devRef .tc main_v3) (o2 m c) := rfl
def W3 (c : Dev nD) : Valuation τ sig (Elt F) := StableHlo.after hostOps1 (W2 m c)
theorem W3_def (c : Dev nD) : W3 m c = StableHlo.after hostOps1 (W2 m c) := rfl
def W4 (c : Dev nD) : Valuation τ sig (Elt F) := StableHlo.after hostOps1_1 (W3 m c)
theorem W4_def (c : Dev nD) : W4 m c = StableHlo.after hostOps1_1 (W3 m c) := rfl
def W5 (c : Dev nD) : Valuation τ sig (Elt F) := StableHlo.after hostOps1_2 (W4 m c)
theorem W5_def (c : Dev nD) : W5 m c = StableHlo.after hostOps1_2 (W4 m c) := rfl
def W6 (c : Dev nD) : Valuation τ sig (Elt F) := StableHlo.after hostOps1_3 (W5 m c)
theorem W6_def (c : Dev nD) : W6 m c = StableHlo.after hostOps1_3 (W5 m c) := rfl
def W7 (c : Dev nD) : Valuation τ sig (Elt F) := StableHlo.after hostOps1_4 (W6 m c)
theorem W7_def (c : Dev nD) : W7 m c = StableHlo.after hostOps1_4 (W6 m c) := rfl
/-- What region 1 leaves in `main_v54`. -/
def o8 (c : Dev nD) : Buf (Elt F) ((c : Thread nD τ).loc main_v54) := (dat1 (atTc (W7 m)) c).arrAt 3 cfg1.N
def W8 (c : Dev nD) : Valuation τ sig (Elt F) := Function.update (W7 m c) (Proc.devRef .tc main_v54) (o8 m c)
theorem W8_def (c : Dev nD) : W8 m c = Function.update (W7 m c) (Proc.devRef .tc main_v54) (o8 m c) := rfl
def W9 (c : Dev nD) : Valuation τ sig (Elt F) := StableHlo.after hostOps2 (W8 m c)
theorem W9_def (c : Dev nD) : W9 m c = StableHlo.after hostOps2 (W8 m c) := rfl
def W10 (c : Dev nD) : Valuation τ sig (Elt F) := StableHlo.after hostOps2_1 (W9 m c)
theorem W10_def (c : Dev nD) : W10 m c = StableHlo.after hostOps2_1 (W9 m c) := rfl
def W11 (c : Dev nD) : Valuation τ sig (Elt F) := StableHlo.after hostOps2_2 (W10 m c)
theorem W11_def (c : Dev nD) : W11 m c = StableHlo.after hostOps2_2 (W10 m c) := rfl
def W12 (c : Dev nD) : Valuation τ sig (Elt F) := StableHlo.after hostOps2_3 (W11 m c)
theorem W12_def (c : Dev nD) : W12 m c = StableHlo.after hostOps2_3 (W11 m c) := rfl
def W13 (c : Dev nD) : Valuation τ sig (Elt F) := StableHlo.after hostOps2_4 (W12 m c)
theorem W13_def (c : Dev nD) : W13 m c = StableHlo.after hostOps2_4 (W12 m c) := rfl
/-- What region 2 leaves in `main_v105`. -/
def o14 (c : Dev nD) : Buf (Elt F) ((c : Thread nD τ).loc main_v105) := (dat2 (atTc (W13 m)) c).arrAt 4 cfg2.N
def W14 (c : Dev nD) : Valuation τ sig (Elt F) := Function.update (W13 m c) (Proc.devRef .tc main_v105) (o14 m c)
theorem W14_def (c : Dev nD) : W14 m c = Function.update (W13 m c) (Proc.devRef .tc main_v105) (o14 m c) := rfl
def W15 (c : Dev nD) : Valuation τ sig (Elt F) := StableHlo.after hostOps3 (W14 m c)
theorem W15_def (c : Dev nD) : W15 m c = StableHlo.after hostOps3 (W14 m c) := rfl
/-- What region 3 leaves in `main_v107`. -/
def o16 (c : Dev nD) : Buf (Elt F) ((c : Thread nD τ).loc main_v107) := (dat3 (atTc (W15 m)) c).arrAt 4 cfg3.N
def W16 (c : Dev nD) : Valuation τ sig (Elt F) := Function.update (W15 m c) (Proc.devRef .tc main_v107) (o16 m c)
theorem W16_def (c : Dev nD) : W16 m c = Function.update (W15 m c) (Proc.devRef .tc main_v107) (o16 m c) := rfl
def W17 (c : Dev nD) : Valuation τ sig (Elt F) := StableHlo.after hostOps4 (W16 m c)
theorem W17_def (c : Dev nD) : W17 m c = StableHlo.after hostOps4 (W16 m c) := rfl
/-- What region 4 leaves in `main_v140`. -/
def o18 (c : Dev nD) : Buf (Elt F) ((c : Thread nD τ).loc main_v140) := (dat4 (atTc (W17 m)) c).arrAt 3 cfg4.N
def W18 (c : Dev nD) : Valuation τ sig (Elt F) := Function.update (W17 m c) (Proc.devRef .tc main_v140) (o18 m c)
theorem W18_def (c : Dev nD) : W18 m c = Function.update (W17 m c) (Proc.devRef .tc main_v140) (o18 m c) := rfl
def W19 (c : Dev nD) : Valuation τ sig (Elt F) := StableHlo.after hostOps5 (W18 m c)
theorem W19_def (c : Dev nD) : W19 m c = StableHlo.after hostOps5 (W18 m c) := rfl
def W20 (c : Dev nD) : Valuation τ sig (Elt F) := StableHlo.after hostOps5_1 (W19 m c)
theorem W20_def (c : Dev nD) : W20 m c = StableHlo.after hostOps5_1 (W19 m c) := rfl
def W21 (c : Dev nD) : Valuation τ sig (Elt F) := StableHlo.after hostOps5_2 (W20 m c)
theorem W21_def (c : Dev nD) : W21 m c = StableHlo.after hostOps5_2 (W20 m c) := rfl
def W22 (c : Dev nD) : Valuation τ sig (Elt F) := StableHlo.after hostOps5_3 (W21 m c)
theorem W22_def (c : Dev nD) : W22 m c = StableHlo.after hostOps5_3 (W21 m c) := rfl
def W23 (c : Dev nD) : Valuation τ sig (Elt F) := StableHlo.after hostOps5_4 (W22 m c)
theorem W23_def (c : Dev nD) : W23 m c = StableHlo.after hostOps5_4 (W22 m c) := rfl
/-- What region 5 leaves in `main_v162`. -/
def o24 (c : Dev nD) : Buf (Elt F) ((c : Thread nD τ).loc main_v162) := (dat5 (atTc (W23 m)) c).arrAt 3 cfg5.N
def W24 (c : Dev nD) : Valuation τ sig (Elt F) := Function.update (W23 m c) (Proc.devRef .tc main_v162) (o24 m c)
theorem W24_def (c : Dev nD) : W24 m c = Function.update (W23 m c) (Proc.devRef .tc main_v162) (o24 m c) := rfl
def W25 (c : Dev nD) : Valuation τ sig (Elt F) := StableHlo.after hostOps6 (W24 m c)
theorem W25_def (c : Dev nD) : W25 m c = StableHlo.after hostOps6 (W24 m c) := rfl
def W26 (c : Dev nD) : Valuation τ sig (Elt F) := StableHlo.after hostOps6_1 (W25 m c)
theorem W26_def (c : Dev nD) : W26 m c = StableHlo.after hostOps6_1 (W25 m c) := rfl
def W27 (c : Dev nD) : Valuation τ sig (Elt F) := StableHlo.after hostOps6_2 (W26 m c)
theorem W27_def (c : Dev nD) : W27 m c = StableHlo.after hostOps6_2 (W26 m c) := rfl
def W28 (c : Dev nD) : Valuation τ sig (Elt F) := StableHlo.after hostOps6_3 (W27 m c)
theorem W28_def (c : Dev nD) : W28 m c = StableHlo.after hostOps6_3 (W27 m c) := rfl
def W29 (c : Dev nD) : Valuation τ sig (Elt F) := StableHlo.after hostOps6_4 (W28 m c)
theorem W29_def (c : Dev nD) : W29 m c = StableHlo.after hostOps6_4 (W28 m c) := rfl

/-- The regions' outputs as the conditional frame's unknowns: read at item `J`'s region, the contents named above. -/
def outsF : Outs (F := F) := fun J r c =>
  if J = 2 then W2 m c r else if J = 8 then W8 m c r else if J = 14 then W14 m c r else if J = 16 then W16 m c r
  else if J = 18 then W18 m c r else W24 m c r

theorem outsF_2 (c : Dev nD) : outsF m 2 main_v3 c = o2 m c := by
  unfold outsF; rw [if_pos rfl, W2_def]; exact upd_out _ _ _
theorem outsF_8 (c : Dev nD) : outsF m 8 main_v54 c = o8 m c := by
  unfold outsF; rw [if_neg (by decide), if_pos rfl, W8_def]; exact upd_out _ _ _
theorem outsF_14 (c : Dev nD) : outsF m 14 main_v105 c = o14 m c := by
  unfold outsF; rw [if_neg (by decide), if_neg (by decide), if_pos rfl, W14_def]; exact upd_out _ _ _
theorem outsF_16 (c : Dev nD) : outsF m 16 main_v107 c = o16 m c := by
  unfold outsF; rw [if_neg (by decide), if_neg (by decide), if_neg (by decide), if_pos rfl, W16_def]; exact upd_out _ _ _
theorem outsF_18 (c : Dev nD) : outsF m 18 main_v140 c = o18 m c := by
  unfold outsF; rw [if_neg (by decide), if_neg (by decide), if_neg (by decide), if_neg (by decide), if_pos rfl, W18_def]; exact upd_out _ _ _
theorem outsF_24 (c : Dev nD) : outsF m 24 main_v162 c = o24 m c := by
  unfold outsF; rw [if_neg (by decide), if_neg (by decide), if_neg (by decide), if_neg (by decide), if_neg (by decide), W24_def]; exact upd_out _ _ _

/-- The conditional frame's valuations at these outputs are the ones named here. -/
theorem V1_eq (c : Dev nD) : V1 m c = W1 m c := rfl
theorem V2_eq (c : Dev nD) : V2 m (outsF m) c = W2 m c := by rw [W2_def, ← V1_eq, ← outsF_2]
theorem V3_eq (c : Dev nD) : V3 m (outsF m) c = W3 m c := by rw [W3_def, ← V2_eq]
theorem V4_eq (c : Dev nD) : V4 m (outsF m) c = W4 m c := by rw [W4_def, ← V3_eq]
theorem V5_eq (c : Dev nD) : V5 m (outsF m) c = W5 m c := by rw [W5_def, ← V4_eq]
theorem V6_eq (c : Dev nD) : V6 m (outsF m) c = W6 m c := by rw [W6_def, ← V5_eq]
theorem V7_eq (c : Dev nD) : V7 m (outsF m) c = W7 m c := by rw [W7_def, ← V6_eq]
theorem V8_eq (c : Dev nD) : V8 m (outsF m) c = W8 m c := by rw [W8_def, ← V7_eq, ← outsF_8]
theorem V9_eq (c : Dev nD) : V9 m (outsF m) c = W9 m c := by rw [W9_def, ← V8_eq]
theorem V10_eq (c : Dev nD) : V10 m (outsF m) c = W10 m c := by rw [W10_def, ← V9_eq]
theorem V11_eq (c : Dev nD) : V11 m (outsF m) c = W11 m c := by rw [W11_def, ← V10_eq]
theorem V12_eq (c : Dev nD) : V12 m (outsF m) c = W12 m c := by rw [W12_def, ← V11_eq]
theorem V13_eq (c : Dev nD) : V13 m (outsF m) c = W13 m c := by rw [W13_def, ← V12_eq]
theorem V14_eq (c : Dev nD) : V14 m (outsF m) c = W14 m c := by rw [W14_def, ← V13_eq, ← outsF_14]
theorem V15_eq (c : Dev nD) : V15 m (outsF m) c = W15 m c := by rw [W15_def, ← V14_eq]
theorem V16_eq (c : Dev nD) : V16 m (outsF m) c = W16 m c := by rw [W16_def, ← V15_eq, ← outsF_16]
theorem V17_eq (c : Dev nD) : V17 m (outsF m) c = W17 m c := by rw [W17_def, ← V16_eq]
theorem V18_eq (c : Dev nD) : V18 m (outsF m) c = W18 m c := by rw [W18_def, ← V17_eq, ← outsF_18]
theorem V19_eq (c : Dev nD) : V19 m (outsF m) c = W19 m c := by rw [W19_def, ← V18_eq]
theorem V20_eq (c : Dev nD) : V20 m (outsF m) c = W20 m c := by rw [W20_def, ← V19_eq]
theorem V21_eq (c : Dev nD) : V21 m (outsF m) c = W21 m c := by rw [W21_def, ← V20_eq]
theorem V22_eq (c : Dev nD) : V22 m (outsF m) c = W22 m c := by rw [W22_def, ← V21_eq]
theorem V23_eq (c : Dev nD) : V23 m (outsF m) c = W23 m c := by rw [W23_def, ← V22_eq]
theorem V24_eq (c : Dev nD) : V24 m (outsF m) c = W24 m c := by rw [W24_def, ← V23_eq, ← outsF_24]
theorem V25_eq (c : Dev nD) : V25 m (outsF m) c = W25 m c := by rw [W25_def, ← V24_eq]
theorem V26_eq (c : Dev nD) : V26 m (outsF m) c = W26 m c := by rw [W26_def, ← V25_eq]
theorem V27_eq (c : Dev nD) : V27 m (outsF m) c = W27 m c := by rw [W27_def, ← V26_eq]
theorem V28_eq (c : Dev nD) : V28 m (outsF m) c = W28 m c := by rw [W28_def, ← V27_eq]
theorem V29_eq (c : Dev nD) : V29 m (outsF m) c = W29 m c := by rw [W29_def, ← V28_eq]

end Cert.Kernel.Hand

end
-- ==== Proof.K.Regs.lean ====
/-
  The six kernel regions of the program as segments of @main: each region is entered from every unscoped buffer at the
  contents before it and left at the contents after it, its arrays split out of the unscoped buffers at entry and put
  back at exit, the generator register (and, for the two accumulating regions, the scoped buffers) handed to the body's
  invariant and returned; no region owes anything or owns a semaphore.
-/
import proofs.«141825_j60318520705103_1_alg».proof.Proof.K.Vals

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

set_option maxHeartbeats 1000000

variable (m : (ℓ : Loc nD τ sig) → Buf (Elt F) ℓ) (ρ : Dev nD → PrngReg)

/-! ## The proof data family and the thread state -/

/-- Every region's proof data, each at the contents its region is entered with. -/
def pdats : (p : Fin 6) → (c : Dev nD) → Dat τ (Elt F) Unit ℕ (UR sig nD τ) ℕ (cfgs p) c
  | ⟨0, _⟩ => fun c => dat0 (atTc (W1 m)) c
  | ⟨1, _⟩ => fun c => dat1 (atTc (W7 m)) c
  | ⟨2, _⟩ => fun c => dat2 (atTc (W13 m)) c
  | ⟨3, _⟩ => fun c => dat3 (atTc (W15 m)) c
  | ⟨4, _⟩ => fun c => dat4 (atTc (W17 m)) c
  | ⟨5, _⟩ => fun c => dat5 (atTc (W23 m)) c

/-- No core owes another anything: no level is assigned. -/
abbrev L0 : GSem nD τ sig → Finset Unit := fun _ => ∅
abbrev lv0 : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-- Region 0's arrays after it: the inputs as entered, the output at what the write-backs leave. -/
theorem hF0 (c : Dev nD) : ∀ w, (dat0 (atTc (W1 m)) c).arrAt w cfg0.N = atTc (W2 m) c (Pipeline.arrRef spec0 w) := fun
  | ⟨0, _⟩ => by
      show _ = W2 m c (Proc.devRef .tc (Pipeline.arrRef spec0 0))
      rw [W2_def, upd_in (W1 m c) main_v3 (o2 m c) (Pipeline.arrRef spec0 0) (by decide)]
      exact ((dat0 (atTc (W1 m)) c).arrAt_in 0 rfl _).trans (A_eq0 (atTc (W1 m)) c 0)
  | ⟨1, _⟩ => by
      show _ = W2 m c (Proc.devRef .tc (Pipeline.arrRef spec0 1))
      rw [W2_def, upd_in (W1 m c) main_v3 (o2 m c) (Pipeline.arrRef spec0 1) (by decide)]
      exact ((dat0 (atTc (W1 m)) c).arrAt_in 1 rfl _).trans (A_eq0 (atTc (W1 m)) c 1)
  | ⟨2, _⟩ => by
      show _ = W2 m c (Proc.devRef .tc (Pipeline.arrRef spec0 2))
      rw [W2_def, upd_in (W1 m c) main_v3 (o2 m c) (Pipeline.arrRef spec0 2) (by decide)]
      exact ((dat0 (atTc (W1 m)) c).arrAt_in 2 rfl _).trans (A_eq0 (atTc (W1 m)) c 2)
  | ⟨3, _⟩ => by
      show _ = W2 m c (Proc.devRef .tc main_v3)
      rw [W2_def, upd_out (W1 m c) main_v3 (o2 m c)]; rfl
  | ⟨_ + 4, h⟩ => absurd h (Nat.not_lt.2 (Nat.le_add_left _ _))
theorem hrest0 (c : Dev nD) : ∀ b, b ∉ Finset.univ.image (Pipeline.arrRef spec0) → atTc (W2 m) c b = atTc (W1 m) c b := fun b hb => by
  show W2 m c (Proc.devRef .tc b) = W1 m c (Proc.devRef .tc b)
  rw [W2_def]
  exact upd_in (W1 m c) main_v3 (o2 m c) b fun e => hb (Finset.mem_image.mpr ⟨3, Finset.mem_univ _, e.symm⟩)

set_option backward.isDefEq.respectTransparency.types false in
/-- REGION 0 over the thread state: entered from every unscoped buffer at `W1`, left at `W2`; its arrays split out of
    the unscoped buffers and put back at the exit contents; the generator register into the body's invariant and
    out; nothing owed; no semaphore of the kernel's own. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L0 lv0 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays after it: the inputs as entered, the output at what the write-backs leave. -/
theorem hF1 (c : Dev nD) : ∀ w, (dat1 (atTc (W7 m)) c).arrAt w cfg1.N = atTc (W8 m) c (Pipeline.arrRef spec1 w) := fun
  | ⟨0, _⟩ => by
      show _ = W8 m c (Proc.devRef .tc (Pipeline.arrRef spec1 0))
      rw [W8_def, upd_in (W7 m c) main_v54 (o8 m c) (Pipeline.arrRef spec1 0) (by decide)]
      exact ((dat1 (atTc (W7 m)) c).arrAt_in 0 rfl _).trans (A_eq1 (atTc (W7 m)) c 0)
  | ⟨1, _⟩ => by
      show _ = W8 m c (Proc.devRef .tc (Pipeline.arrRef spec1 1))
      rw [W8_def, upd_in (W7 m c) main_v54 (o8 m c) (Pipeline.arrRef spec1 1) (by decide)]
      exact ((dat1 (atTc (W7 m)) c).arrAt_in 1 rfl _).trans (A_eq1 (atTc (W7 m)) c 1)
  | ⟨2, _⟩ => by
      show _ = W8 m c (Proc.devRef .tc (Pipeline.arrRef spec1 2))
      rw [W8_def, upd_in (W7 m c) main_v54 (o8 m c) (Pipeline.arrRef spec1 2) (by decide)]
      exact ((dat1 (atTc (W7 m)) c).arrAt_in 2 rfl _).trans (A_eq1 (atTc (W7 m)) c 2)
  | ⟨3, _⟩ => by
      show _ = W8 m c (Proc.devRef .tc main_v54)
      rw [W8_def, upd_out (W7 m c) main_v54 (o8 m c)]; rfl
  | ⟨_ + 4, h⟩ => absurd h (Nat.not_lt.2 (Nat.le_add_left _ _))
theorem hrest1 (c : Dev nD) : ∀ b, b ∉ Finset.univ.image (Pipeline.arrRef spec1) → atTc (W8 m) c b = atTc (W7 m) c b := fun b hb => by
  show W8 m c (Proc.devRef .tc b) = W7 m c (Proc.devRef .tc b)
  rw [W8_def]
  exact upd_in (W7 m c) main_v54 (o8 m c) b fun e => hb (Finset.mem_image.mpr ⟨3, Finset.mem_univ _, e.symm⟩)

set_option backward.isDefEq.respectTransparency.types false in
/-- REGION 1 over the thread state: entered from every unscoped buffer at `W7`, left at `W8`; its arrays split out of
    the unscoped buffers and put back at the exit contents; the generator register into the body's invariant and
    out; nothing owed; no semaphore of the kernel's own. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atTc (W7 m)) c).loose
  hwaits := Pipeline.hwaits_of_owed_zero _ _ _ _ L0 lv0 1 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (W7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W7 m) c) (atTc (W8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays after it: the inputs as entered, the output at what the write-backs leave. -/
theorem hF2 (c : Dev nD) : ∀ w, (dat2 (atTc (W13 m)) c).arrAt w cfg2.N = atTc (W14 m) c (Pipeline.arrRef spec2 w) := fun
  | ⟨0, _⟩ => by
      show _ = W14 m c (Proc.devRef .tc (Pipeline.arrRef spec2 0))
      rw [W14_def, upd_in (W13 m c) main_v105 (o14 m c) (Pipeline.arrRef spec2 0) (by decide)]
      exact ((dat2 (atTc (W13 m)) c).arrAt_in 0 rfl _).trans (A_eq2 (atTc (W13 m)) c 0)
  | ⟨1, _⟩ => by
      show _ = W14 m c (Proc.devRef .tc (Pipeline.arrRef spec2 1))
      rw [W14_def, upd_in (W13 m c) main_v105 (o14 m c) (Pipeline.arrRef spec2 1) (by decide)]
      exact ((dat2 (atTc (W13 m)) c).arrAt_in 1 rfl _).trans (A_eq2 (atTc (W13 m)) c 1)
  | ⟨2, _⟩ => by
      show _ = W14 m c (Proc.devRef .tc (Pipeline.arrRef spec2 2))
      rw [W14_def, upd_in (W13 m c) main_v105 (o14 m c) (Pipeline.arrRef spec2 2) (by decide)]
      exact ((dat2 (atTc (W13 m)) c).arrAt_in 2 rfl _).trans (A_eq2 (atTc (W13 m)) c 2)
  | ⟨3, _⟩ => by
      show _ = W14 m c (Proc.devRef .tc (Pipeline.arrRef spec2 3))
      rw [W14_def, upd_in (W13 m c) main_v105 (o14 m c) (Pipeline.arrRef spec2 3) (by decide)]
      exact ((dat2 (atTc (W13 m)) c).arrAt_in 3 rfl _).trans (A_eq2 (atTc (W13 m)) c 3)
  | ⟨4, _⟩ => by
      show _ = W14 m c (Proc.devRef .tc main_v105)
      rw [W14_def, upd_out (W13 m c) main_v105 (o14 m c)]; rfl
  | ⟨_ + 5, h⟩ => absurd h (Nat.not_lt.2 (Nat.le_add_left _ _))
theorem hrest2 (c : Dev nD) : ∀ b, b ∉ Finset.univ.image (Pipeline.arrRef spec2) → atTc (W14 m) c b = atTc (W13 m) c b := fun b hb => by
  show W14 m c (Proc.devRef .tc b) = W13 m c (Proc.devRef .tc b)
  rw [W14_def]
  exact upd_in (W13 m c) main_v105 (o14 m c) b fun e => hb (Finset.mem_image.mpr ⟨4, Finset.mem_univ _, e.symm⟩)

set_option backward.isDefEq.respectTransparency.types false in
/-- REGION 2 over the thread state: entered from every unscoped buffer at `W13`, left at `W14`; its arrays split out of
    the unscoped buffers and put back at the exit contents; the generator register and the scoped buffers into the body's invariant and
    out; nothing owed; no semaphore of the kernel's own. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (atTc (W13 m)) c).loose
  hwaits := Pipeline.hwaits_of_owed_zero _ _ _ _ L0 lv0 2 fun _ _ => rfl
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (W13 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (atTc (W13 m)) c).Φ 0 from rfl]
    iintro ⟨Hp, -, Hr⟩
    iapply (hin2 (atTc (W13 m)) c)
    isplitl [Hp]; · iexact Hp
    iexact Hr
  hout c := by
    rw [Pipeline.ownSems0_none, show (pdats m 2 c).Φ (Fin.last _) = (dat2 (atTc (W13 m)) c).Φ (Fin.last cfg2.N) from rfl]
    iintro H
    ihave H' := (hout2 (atTc (W13 m)) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W13 m) c) (atTc (W14 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3's arrays after it: the inputs as entered, the output at what the write-backs leave. -/
theorem hF3 (c : Dev nD) : ∀ w, (dat3 (atTc (W15 m)) c).arrAt w cfg3.N = atTc (W16 m) c (Pipeline.arrRef spec3 w) := fun
  | ⟨0, _⟩ => by
      show _ = W16 m c (Proc.devRef .tc (Pipeline.arrRef spec3 0))
      rw [W16_def, upd_in (W15 m c) main_v107 (o16 m c) (Pipeline.arrRef spec3 0) (by decide)]
      exact ((dat3 (atTc (W15 m)) c).arrAt_in 0 rfl _).trans (A_eq3 (atTc (W15 m)) c 0)
  | ⟨1, _⟩ => by
      show _ = W16 m c (Proc.devRef .tc (Pipeline.arrRef spec3 1))
      rw [W16_def, upd_in (W15 m c) main_v107 (o16 m c) (Pipeline.arrRef spec3 1) (by decide)]
      exact ((dat3 (atTc (W15 m)) c).arrAt_in 1 rfl _).trans (A_eq3 (atTc (W15 m)) c 1)
  | ⟨2, _⟩ => by
      show _ = W16 m c (Proc.devRef .tc (Pipeline.arrRef spec3 2))
      rw [W16_def, upd_in (W15 m c) main_v107 (o16 m c) (Pipeline.arrRef spec3 2) (by decide)]
      exact ((dat3 (atTc (W15 m)) c).arrAt_in 2 rfl _).trans (A_eq3 (atTc (W15 m)) c 2)
  | ⟨3, _⟩ => by
      show _ = W16 m c (Proc.devRef .tc (Pipeline.arrRef spec3 3))
      rw [W16_def, upd_in (W15 m c) main_v107 (o16 m c) (Pipeline.arrRef spec3 3) (by decide)]
      exact ((dat3 (atTc (W15 m)) c).arrAt_in 3 rfl _).trans (A_eq3 (atTc (W15 m)) c 3)
  | ⟨4, _⟩ => by
      show _ = W16 m c (Proc.devRef .tc main_v107)
      rw [W16_def, upd_out (W15 m c) main_v107 (o16 m c)]; rfl
  | ⟨_ + 5, h⟩ => absurd h (Nat.not_lt.2 (Nat.le_add_left _ _))
theorem hrest3 (c : Dev nD) : ∀ b, b ∉ Finset.univ.image (Pipeline.arrRef spec3) → atTc (W16 m) c b = atTc (W15 m) c b := fun b hb => by
  show W16 m c (Proc.devRef .tc b) = W15 m c (Proc.devRef .tc b)
  rw [W16_def]
  exact upd_in (W15 m c) main_v107 (o16 m c) b fun e => hb (Finset.mem_image.mpr ⟨4, Finset.mem_univ _, e.symm⟩)

set_option backward.isDefEq.respectTransparency.types false in
/-- REGION 3 over the thread state: entered from every unscoped buffer at `W15`, left at `W16`; its arrays split out of
    the unscoped buffers and put back at the exit contents; the generator register and the scoped buffers into the body's invariant and
    out; nothing owed; no semaphore of the kernel's own. -/
def reg3 : RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atTc (W15 m)) c).loose
  hwaits := Pipeline.hwaits_of_owed_zero _ _ _ _ L0 lv0 3 fun _ _ => rfl
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (W15 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (atTc (W15 m)) c).Φ 0 from rfl]
    iintro ⟨Hp, -, Hr⟩
    iapply (hin3 (atTc (W15 m)) c)
    isplitl [Hp]; · iexact Hp
    iexact Hr
  hout c := by
    rw [Pipeline.ownSems0_none, show (pdats m 3 c).Φ (Fin.last _) = (dat3 (atTc (W15 m)) c).Φ (Fin.last cfg3.N) from rfl]
    iintro H
    ihave H' := (hout3 (atTc (W15 m)) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W15 m) c) (atTc (W16 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 4's arrays after it: the inputs as entered, the output at what the write-backs leave. -/
theorem hF4 (c : Dev nD) : ∀ w, (dat4 (atTc (W17 m)) c).arrAt w cfg4.N = atTc (W18 m) c (Pipeline.arrRef spec4 w) := fun
  | ⟨0, _⟩ => by
      show _ = W18 m c (Proc.devRef .tc (Pipeline.arrRef spec4 0))
      rw [W18_def, upd_in (W17 m c) main_v140 (o18 m c) (Pipeline.arrRef spec4 0) (by decide)]
      exact ((dat4 (atTc (W17 m)) c).arrAt_in 0 rfl _).trans (A_eq4 (atTc (W17 m)) c 0)
  | ⟨1, _⟩ => by
      show _ = W18 m c (Proc.devRef .tc (Pipeline.arrRef spec4 1))
      rw [W18_def, upd_in (W17 m c) main_v140 (o18 m c) (Pipeline.arrRef spec4 1) (by decide)]
      exact ((dat4 (atTc (W17 m)) c).arrAt_in 1 rfl _).trans (A_eq4 (atTc (W17 m)) c 1)
  | ⟨2, _⟩ => by
      show _ = W18 m c (Proc.devRef .tc (Pipeline.arrRef spec4 2))
      rw [W18_def, upd_in (W17 m c) main_v140 (o18 m c) (Pipeline.arrRef spec4 2) (by decide)]
      exact ((dat4 (atTc (W17 m)) c).arrAt_in 2 rfl _).trans (A_eq4 (atTc (W17 m)) c 2)
  | ⟨3, _⟩ => by
      show _ = W18 m c (Proc.devRef .tc main_v140)
      rw [W18_def, upd_out (W17 m c) main_v140 (o18 m c)]; rfl
  | ⟨_ + 4, h⟩ => absurd h (Nat.not_lt.2 (Nat.le_add_left _ _))
theorem hrest4 (c : Dev nD) : ∀ b, b ∉ Finset.univ.image (Pipeline.arrRef spec4) → atTc (W18 m) c b = atTc (W17 m) c b := fun b hb => by
  show W18 m c (Proc.devRef .tc b) = W17 m c (Proc.devRef .tc b)
  rw [W18_def]
  exact upd_in (W17 m c) main_v140 (o18 m c) b fun e => hb (Finset.mem_image.mpr ⟨3, Finset.mem_univ _, e.symm⟩)

set_option backward.isDefEq.respectTransparency.types false in
/-- REGION 4 over the thread state: entered from every unscoped buffer at `W17`, left at `W18`; its arrays split out of
    the unscoped buffers and put back at the exit contents; the generator register into the body's invariant and
    out; nothing owed; no semaphore of the kernel's own. -/
def reg4 : RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atTc (W17 m)) c).loose
  hwaits := Pipeline.hwaits_of_owed_zero _ _ _ _ L0 lv0 4 fun _ _ => rfl
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (W17 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W17 m) c) (atTc (W18 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 5's arrays after it: the inputs as entered, the output at what the write-backs leave. -/
theorem hF5 (c : Dev nD) : ∀ w, (dat5 (atTc (W23 m)) c).arrAt w cfg5.N = atTc (W24 m) c (Pipeline.arrRef spec5 w) := fun
  | ⟨0, _⟩ => by
      show _ = W24 m c (Proc.devRef .tc (Pipeline.arrRef spec5 0))
      rw [W24_def, upd_in (W23 m c) main_v162 (o24 m c) (Pipeline.arrRef spec5 0) (by decide)]
      exact ((dat5 (atTc (W23 m)) c).arrAt_in 0 rfl _).trans (A_eq5 (atTc (W23 m)) c 0)
  | ⟨1, _⟩ => by
      show _ = W24 m c (Proc.devRef .tc (Pipeline.arrRef spec5 1))
      rw [W24_def, upd_in (W23 m c) main_v162 (o24 m c) (Pipeline.arrRef spec5 1) (by decide)]
      exact ((dat5 (atTc (W23 m)) c).arrAt_in 1 rfl _).trans (A_eq5 (atTc (W23 m)) c 1)
  | ⟨2, _⟩ => by
      show _ = W24 m c (Proc.devRef .tc (Pipeline.arrRef spec5 2))
      rw [W24_def, upd_in (W23 m c) main_v162 (o24 m c) (Pipeline.arrRef spec5 2) (by decide)]
      exact ((dat5 (atTc (W23 m)) c).arrAt_in 2 rfl _).trans (A_eq5 (atTc (W23 m)) c 2)
  | ⟨3, _⟩ => by
      show _ = W24 m c (Proc.devRef .tc main_v162)
      rw [W24_def, upd_out (W23 m c) main_v162 (o24 m c)]; rfl
  | ⟨_ + 4, h⟩ => absurd h (Nat.not_lt.2 (Nat.le_add_left _ _))
theorem hrest5 (c : Dev nD) : ∀ b, b ∉ Finset.univ.image (Pipeline.arrRef spec5) → atTc (W24 m) c b = atTc (W23 m) c b := fun b hb => by
  show W24 m c (Proc.devRef .tc b) = W23 m c (Proc.devRef .tc b)
  rw [W24_def]
  exact upd_in (W23 m c) main_v162 (o24 m c) b fun e => hb (Finset.mem_image.mpr ⟨3, Finset.mem_univ _, e.symm⟩)

set_option backward.isDefEq.respectTransparency.types false in
/-- REGION 5 over the thread state: entered from every unscoped buffer at `W23`, left at `W24`; its arrays split out of
    the unscoped buffers and put back at the exit contents; the generator register into the body's invariant and
    out; nothing owed; no semaphore of the kernel's own. -/
def reg5 : RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := (body_obligation5 (atTc (W23 m)) c).loose
  hwaits := Pipeline.hwaits_of_owed_zero _ _ _ _ L0 lv0 5 fun _ _ => rfl
  pre c := iprop(StableHlo.held (c : Thread nD τ) (Pipeline.ucRefs τ sig) (W23 m c) ∗ Rr c)
  post c := iprop(StableHlo.held (c : Thread nD τ) (Pipeline.ucRefs τ sig) (W24 m c) ∗ Rr c)
  X c := iprop(∃ r, prngReg c r)
  Y c := iprop(∃ r, prngReg c r)
  Z c := Pipeline.unscopedRest (Ix := Unit) (Name := ℕ) (U := UR sig nD τ) (Lvl := ℕ) spec5 c (atTc (W23 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (W23 m) c) (atTc (W24 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The kernel program's frame and its run with the result: every weakly fair execution of @main terminates, faults
  nowhere, leaves every argument array as launched, and leaves the result buffer at the last host stretch's value of it
  over what the regions left.
-/
import proofs.«141825_j60318520705103_1_alg».proof.Proof.K.Regs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

set_option maxHeartbeats 1000000

variable (m : (ℓ : Loc nD τ sig) → Buf (Elt F) ℓ) (ρ : Dev nD → PrngReg)

/-! ## The launch -/

/-- The launch's ghost state: the cells' and the duty tokens' initial resource, owned through the user component. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the rest state: the generator register, and nothing owed. -/
theorem hE0 : (iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L0 lv0)
      ⊢ (|={Set.univ}=> bigSep Finset.univ (fun c : Dev nD => Rr c) : sProp 𝕄)) := by
  refine Pipeline.initEach L0 lv0 fun c => ?_
  iintro ⟨⟨-, HO, -, Hp, -⟩, -⟩
  imodintro
  isplitl [Hp]; · iexists _; iexact Hp
  iexists ∅; iexact HO

/-! ## The program's frame and its run with the result -/

set_option backward.isDefEq.respectTransparency.types false in
/-- Every weakly fair execution of @main terminates and leaves each argument array as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_cond (m := m) (EP := emb₁) (ι := ()) (𝒱₀ := Variants.none) (L := L0) (lv := lv0) (hL := fun _ _ => rfl) (ρ := ρ) (outs := outsF m) (pdats := pdats m)
    (O₀ := 0) (G := fun _ => iprop(emp)) (u₀ := initOf (Pipeline.cells cfgs cellOf_inj) (Pipeline.launchToks cfgs cellOf_inj)) (hu₀ := hu0)
    (E := fun _ c => Rr c) (hE0 := hE0 ρ) (hE6 := fun c => by iintro ⟨-, H⟩; iexact H)
    (R0 := reg0 m) (hpre0 := fun c => by rw [V1_eq]; exact .rfl) (hpost0 := fun c => by rw [V2_eq]; exact .rfl)
    (R1 := reg1 m) (hpre1 := fun c => by rw [V7_eq]; exact .rfl) (hpost1 := fun c => by rw [V8_eq]; exact .rfl)
    (R2 := reg2 m) (hpre2 := fun c => by rw [V13_eq]; exact .rfl) (hpost2 := fun c => by rw [V14_eq]; exact .rfl)
    (R3 := reg3 m) (hpre3 := fun c => by rw [V15_eq]; exact .rfl) (hpost3 := fun c => by rw [V16_eq]; exact .rfl)
    (R4 := reg4 m) (hpre4 := fun c => by rw [V17_eq]; exact .rfl) (hpost4 := fun c => by rw [V18_eq]; exact .rfl)
    (R5 := reg5 m) (hpre5 := fun c => by rw [V23_eq]; exact .rfl) (hpost5 := fun c => by rw [V24_eq]; exact .rfl)

set_option backward.isDefEq.respectTransparency.types false in
/-- Every weakly fair execution of @main terminates, leaves each argument array as launched, and leaves the result
    buffer at the last valuation's contents. -/
theorem run_value :
    θ_run defs (onTc (τ := τ) (main (F := F))) ⟨m, fun _ => 0, ρ⟩ (fun r => ∀ c : Dev nD,
      r.2.mem ((c.tc : Thread nD τ).loc main_v186) = W29 m c (Proc.devRef .tc main_v186) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => ⟨by rw [← V29_eq]; exact (h c).1, (h c).2⟩)
    (run_cond (m := m) (EP := emb₁) (ι := ()) (𝒱₀ := Variants.none) (L := L0) (lv := lv0) (hL := fun _ _ => rfl) (ρ := ρ) (outs := outsF m) (pdats := pdats m)
    (O₀ := 0) (G := fun _ => iprop(emp)) (u₀ := initOf (Pipeline.cells cfgs cellOf_inj) (Pipeline.launchToks cfgs cellOf_inj)) (hu₀ := hu0)
    (E := fun _ c => Rr c) (hE0 := hE0 ρ) (hE6 := fun c => by iintro ⟨-, H⟩; iexact H)
    (R0 := reg0 m) (hpre0 := fun c => by rw [V1_eq]; exact .rfl) (hpost0 := fun c => by rw [V2_eq]; exact .rfl)
    (R1 := reg1 m) (hpre1 := fun c => by rw [V7_eq]; exact .rfl) (hpost1 := fun c => by rw [V8_eq]; exact .rfl)
    (R2 := reg2 m) (hpre2 := fun c => by rw [V13_eq]; exact .rfl) (hpost2 := fun c => by rw [V14_eq]; exact .rfl)
    (R3 := reg3 m) (hpre3 := fun c => by rw [V15_eq]; exact .rfl) (hpost3 := fun c => by rw [V16_eq]; exact .rfl)
    (R4 := reg4 m) (hpre4 := fun c => by rw [V17_eq]; exact .rfl) (hpost4 := fun c => by rw [V18_eq]; exact .rfl)
    (R5 := reg5 m) (hpre5 := fun c => by rw [V23_eq]; exact .rfl) (hpost5 := fun c => by rw [V24_eq]; exact .rfl))

end Cert.Kernel.Hand

end
-- ==== Proof.KI.RunCond.lean ====
/-
  The kernel program's run read to the end, with its RESULT: @main is host stretches and six kernel regions; between two
  items a core's unscoped buffers hold the launch contents folded through the host stretches and, at each region's output
  array, what that region left. Given each region's segment record between those thread states, every weakly fair
  execution terminates, the arguments end as launched and the result buffer ends at the last valuation's contents.
-/
import proofs.«141825_j60318520705103_1_alg».proof.Proof.Gen.KernelIdeal.Launch
import proofs.«141825_j60318520705103_1_alg».proof.Proof.Gen.KernelIdeal.Regions
import Idealize.ShloMosaic.Lib.Pipeline.Frame
import Idealize.ShloMosaic.Lib.Pipeline.Regions

-- decided memberships and the launch's enumerations over 362 references recurse past the default depth
set_option maxRecDepth 1960

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of @main given the regions' records, with the RESULT named: as the conditional frame, and besides every
    final memory holds the result buffer at the last valuation's contents (the last host stretch's value of it, over what
    the regions left). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V17 m outs c) ∗ E 4 c) ⊢ R4.pre c)
    (hpost4 : ∀ c : Dev nD, R4.post c ⊢ iprop(StableHlo.held (c : Thread nD τ) (Pipeline.ucRefs τ sig) (V18 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V23 m outs c) ∗ E 5 c) ⊢ R5.pre c)
    (hpost5 : ∀ c : Dev nD, R5.post c ⊢ iprop(StableHlo.held (c : Thread nD τ) (Pipeline.ucRefs τ sig) (V24 m outs c) ∗ E 6 c)) :
    θ_run defs (onTc (τ := τ) (main (F := F))) ⟨m, fun _ => 0, ρ⟩ (fun r => ∀ c : Dev nD,
      r.2.mem ((c.tc : Thread nD τ).loc main_v186) = V29 m outs c main_v186 ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          StableHlo.seq hostOps5_3,
          StableHlo.seq hostOps5_4,
          Prog.lift (.customCall (Pipeline.entry 5) ()),
          StableHlo.seq hostOps6,
          StableHlo.seq hostOps6_1,
          StableHlo.seq hostOps6_2,
          StableHlo.seq hostOps6_3,
          StableHlo.seq hostOps6_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, hpre0 c, hpost0 c, .rfl, .rfl, .rfl, .rfl, hpre1 c, hpost1 c, .rfl, .rfl, .rfl, .rfl, hpre2 c, hpost2 c, hpre3 c, hpost3 c, hpre4 c, hpost4 c, .rfl, .rfl, .rfl, .rfl, hpre5 c, hpost5 c, .rfl, .rfl, .rfl, .rfl, sep_mono .rfl (hE6 c)⟩)
    (hinit := ?_) (QY := fun c s => s.mem ((c.tc : Thread nD τ).loc main_v186) = V29 m outs c main_v186 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27) ∧ s.mem ((c.tc : Thread nD τ).loc main_arg28) = m ((c.tc : Thread nD τ).loc main_arg28))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V29 m outs c) s') $$ [Hh HSI]
    · isplitl [Hh] <;> iassumption
    icases Hr with ⟨%h, HSI⟩
    imodintro
    isplitr
    · ipureintro
      exact ⟨h (Proc.devRef .tc main_v186) (Finset.mem_filter.mpr ⟨StableHlo.devRef_mem_tcRefs main_v186, by decide⟩),
        (h (Proc.devRef .tc main_arg0) (Finset.mem_filter.mpr ⟨StableHlo.devRef_mem_tcRefs main_arg0, by decide⟩)).trans (V29_main_arg0 m outs c),
        (h (Proc.devRef .tc main_arg1) (Finset.mem_filter.mpr ⟨StableHlo.devRef_mem_tcRefs main_arg1, by decide⟩)).trans (V29_main_arg1 m outs c),
        (h (Proc.devRef .tc main_arg2) (Finset.mem_filter.mpr ⟨StableHlo.devRef_mem_tcRefs main_arg2, by decide⟩)).trans (V29_main_arg2 m outs c),
        (h (Proc.devRef .tc main_arg3) (Finset.mem_filter.mpr ⟨StableHlo.devRef_mem_tcRefs main_arg3, by decide⟩)).trans (V29_main_arg3 m outs c),
        (h (Proc.devRef .tc main_arg4) (Finset.mem_filter.mpr ⟨StableHlo.devRef_mem_tcRefs main_arg4, by decide⟩)).trans (V29_main_arg4 m outs c),
        (h (Proc.devRef .tc main_arg5) (Finset.mem_filter.mpr ⟨StableHlo.devRef_mem_tcRefs main_arg5, by decide⟩)).trans (V29_main_arg5 m outs c),
        (h (Proc.devRef .tc main_arg6) (Finset.mem_filter.mpr ⟨StableHlo.devRef_mem_tcRefs main_arg6, by decide⟩)).trans (V29_main_arg6 m outs c),
        (h (Proc.devRef .tc main_arg7) (Finset.mem_filter.mpr ⟨StableHlo.devRef_mem_tcRefs main_arg7, by decide⟩)).trans (V29_main_arg7 m outs c),
        (h (Proc.devRef .tc main_arg8) (Finset.mem_filter.mpr ⟨StableHlo.devRef_mem_tcRefs main_arg8, by decide⟩)).trans (V29_main_arg8 m outs c),
        (h (Proc.devRef .tc main_arg9) (Finset.mem_filter.mpr ⟨StableHlo.devRef_mem_tcRefs main_arg9, by decide⟩)).trans (V29_main_arg9 m outs c),
        (h (Proc.devRef .tc main_arg10) (Finset.mem_filter.mpr ⟨StableHlo.devRef_mem_tcRefs main_arg10, by decide⟩)).trans (V29_main_arg10 m outs c),
        (h (Proc.devRef .tc main_arg11) (Finset.mem_filter.mpr ⟨StableHlo.devRef_mem_tcRefs main_arg11, by decide⟩)).trans (V29_main_arg11 m outs c),
        (h (Proc.devRef .tc main_arg12) (Finset.mem_filter.mpr ⟨StableHlo.devRef_mem_tcRefs main_arg12, by decide⟩)).trans (V29_main_arg12 m outs c),
        (h (Proc.devRef .tc main_arg13) (Finset.mem_filter.mpr ⟨StableHlo.devRef_mem_tcRefs main_arg13, by decide⟩)).trans (V29_main_arg13 m outs c),
        (h (Proc.devRef .tc main_arg14) (Finset.mem_filter.mpr ⟨StableHlo.devRef_mem_tcRefs main_arg14, by decide⟩)).trans (V29_main_arg14 m outs c),
        (h (Proc.devRef .tc main_arg15) (Finset.mem_filter.mpr ⟨StableHlo.devRef_mem_tcRefs main_arg15, by decide⟩)).trans (V29_main_arg15 m outs c),
        (h (Proc.devRef .tc main_arg16) (Finset.mem_filter.mpr ⟨StableHlo.devRef_mem_tcRefs main_arg16, by decide⟩)).trans (V29_main_arg16 m outs c),
        (h (Proc.devRef .tc main_arg17) (Finset.mem_filter.mpr ⟨StableHlo.devRef_mem_tcRefs main_arg17, by decide⟩)).trans (V29_main_arg17 m outs c),
        (h (Proc.devRef .tc main_arg18) (Finset.mem_filter.mpr ⟨StableHlo.devRef_mem_tcRefs main_arg18, by decide⟩)).trans (V29_main_arg18 m outs c),
        (h (Proc.devRef .tc main_arg19) (Finset.mem_filter.mpr ⟨StableHlo.devRef_mem_tcRefs main_arg19, by decide⟩)).trans (V29_main_arg19 m outs c),
        (h (Proc.devRef .tc main_arg20) (Finset.mem_filter.mpr ⟨StableHlo.devRef_mem_tcRefs main_arg20, by decide⟩)).trans (V29_main_arg20 m outs c),
        (h (Proc.devRef .tc main_arg21) (Finset.mem_filter.mpr ⟨StableHlo.devRef_mem_tcRefs main_arg21, by decide⟩)).trans (V29_main_arg21 m outs c),
        (h (Proc.devRef .tc main_arg22) (Finset.mem_filter.mpr ⟨StableHlo.devRef_mem_tcRefs main_arg22, by decide⟩)).trans (V29_main_arg22 m outs c),
        (h (Proc.devRef .tc main_arg23) (Finset.mem_filter.mpr ⟨StableHlo.devRef_mem_tcRefs main_arg23, by decide⟩)).trans (V29_main_arg23 m outs c),
        (h (Proc.devRef .tc main_arg24) (Finset.mem_filter.mpr ⟨StableHlo.devRef_mem_tcRefs main_arg24, by decide⟩)).trans (V29_main_arg24 m outs c),
        (h (Proc.devRef .tc main_arg25) (Finset.mem_filter.mpr ⟨StableHlo.devRef_mem_tcRefs main_arg25, by decide⟩)).trans (V29_main_arg25 m outs c),
        (h (Proc.devRef .tc main_arg26) (Finset.mem_filter.mpr ⟨StableHlo.devRef_mem_tcRefs main_arg26, by decide⟩)).trans (V29_main_arg26 m outs c),
        (h (Proc.devRef .tc main_arg27) (Finset.mem_filter.mpr ⟨StableHlo.devRef_mem_tcRefs main_arg27, by decide⟩)).trans (V29_main_arg27 m outs c),
        (h (Proc.devRef .tc main_arg28) (Finset.mem_filter.mpr ⟨StableHlo.devRef_mem_tcRefs main_arg28, by decide⟩)).trans (V29_main_arg28 m outs c)⟩
    · iexact HSI

end Cert.KernelIdeal.Hand

end
-- ==== Proof.KI.Region0.lean ====
/- Region 0 of the program: the dense kernel `cc0__dense_matmul_bias_kernel` (x · w on the matrix unit into a zero
   accumulator, plus the bias row broadcast down the rows), as a pipeline over row blocks of x. Stated at a parameter
   `V`, the core's buffer contents when the region is entered: each window's block at a point, what the body leaves in
   the output window's buffer, the body's triple, the pipeline's proof data and the body obligation. Generic in the
   float interpretation. -/
import proofs.«141825_j60318520705103_1_alg».proof.Proof.Gen.KernelIdeal.Launch
import proofs.«141825_j60318520705103_1_alg».proof.Proof.Gen.KernelIdeal.Skeleton
import proofs.«141825_j60318520705103_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched at that point or
    at an earlier one (then its block index has not moved since), for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x1024 := Rect.unit (s := S1024x1024) ![0, 0] S1024x1024.size inb_S1024x1024_S1024x1024_0_0
abbrev r0_1 : Rect S1024x512 := Rect.unit (s := S1024x512) ![0, 0] S1024x512.size inb_S1024x512_S1024x512_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-! ## What the body leaves in the output window's buffer -/

/-- The output buffer after the body, from the three input blocks: its one store, of the whole buffer. -/
def out0_3 (x0 : Vec F S1024x1024 .f32) (x1 : Vec F S1024x512 .f32) (x2 : Vec F S1x512 .f32) : Vec F S1024x512 .f32 :=
  View.canon [⟨r0_3, k0_pay1 (View.ld x0 r0_0) (View.ld x1 r0_1) (View.ld x2 r0_2)⟩]

/-- The one store is of the whole buffer, so it covers it. -/
theorem cover0_3 (p0 : Vec F S1024x512 .f32) (y : S1024x512.Idx) :
    ∃ pc ∈ ([⟨r0_3, p0⟩] : List (View.Piece (Elt F) S1024x512 .f32)), y ∈ pc.1.set :=
  View.cover_of_tiled [⟨r0_3, p0⟩] S1024x512.size (by rfl) y

/-! ## The body's triple -/

set_option maxHeartbeats 1000000 in
/-- The kernel body on whole staging memrefs, the three inputs' at contents `x0 x1 x2` and the output's at anything,
    runs to the continuation holding the inputs' as they were and the output's at `out0_3` of the inputs'. The body
    also reads the output buffer before it stores it whole; the value read is not used. -/
theorem sound_kernel0 (c : Dev nD) (E : Set ℕ) (i : grid0.Coords)
    (arg1 : Memref sig .tc .vmem S1024x1024 .f32) (harg1 : arg1.IsWhole) (arg2 : Memref sig .tc .vmem S1024x512 .f32) (harg2 : arg2.IsWhole)
    (arg3 : Memref sig .tc .vmem S1x512 .f32) (harg3 : arg3.IsWhole) (arg4 : Memref sig .tc .vmem S1024x512 .f32) (harg4 : arg4.IsWhole)
    (x0 : Vec F S1024x1024 .f32) (x1 : Vec F S1024x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_matmul_bias_kernel i arg1 harg1 arg2 harg2 arg3 harg3 arg4 harg4) K := by
  simp only [cc0__dense_matmul_bias_kernel_eq_skeleton]; unfold cc0__dense_matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them (`V`); after the body at point
    `t` each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Region1.lean ====
/- Region 1 of the program: the dense kernel `cc1__dense_matmul_bias_kernel` (x · w on the matrix unit into a zero
   accumulator, plus the bias row broadcast down the rows), as a pipeline over row blocks of x. Stated at a parameter
   `V`, the core's buffer contents when the region is entered: each window's block at a point, what the body leaves in
   the output window's buffer, the body's triple, the pipeline's proof data and the body obligation. Generic in the
   float interpretation. -/
import proofs.«141825_j60318520705103_1_alg».proof.Proof.Gen.KernelIdeal.Launch
import proofs.«141825_j60318520705103_1_alg».proof.Proof.Gen.KernelIdeal.Skeleton
import proofs.«141825_j60318520705103_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched at that point or
    at an earlier one (then its block index has not moved since), for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1024x1024 := Rect.unit (s := S1024x1024) ![0, 0] S1024x1024.size inb_S1024x1024_S1024x1024_0_0
abbrev r1_1 : Rect S1024x512 := Rect.unit (s := S1024x512) ![0, 0] S1024x512.size inb_S1024x512_S1024x512_0_0
abbrev r1_2 : Rect S1x512 := Rect.unit (s := S1x512) ![0, 0] S1x512.size inb_S1x512_S1x512_0_0
abbrev r1_3 : Rect S1024x512 := Rect.unit (s := S1024x512) ![0, 0] S1024x512.size inb_S1024x512_S1024x512_0_0

/-! ## What the body leaves in the output window's buffer -/

/-- The output buffer after the body, from the three input blocks: its one store, of the whole buffer. -/
def out1_3 (x0 : Vec F S1024x1024 .f32) (x1 : Vec F S1024x512 .f32) (x2 : Vec F S1x512 .f32) : Vec F S1024x512 .f32 :=
  View.canon [⟨r1_3, k1_pay1 (View.ld x0 r1_0) (View.ld x1 r1_1) (View.ld x2 r1_2)⟩]

/-- The one store is of the whole buffer, so it covers it. -/
theorem cover1_3 (p0 : Vec F S1024x512 .f32) (y : S1024x512.Idx) :
    ∃ pc ∈ ([⟨r1_3, p0⟩] : List (View.Piece (Elt F) S1024x512 .f32)), y ∈ pc.1.set :=
  View.cover_of_tiled [⟨r1_3, p0⟩] S1024x512.size (by rfl) y

/-! ## The body's triple -/

set_option maxHeartbeats 1000000 in
/-- The kernel body on whole staging memrefs, the three inputs' at contents `x0 x1 x2` and the output's at anything,
    runs to the continuation holding the inputs' as they were and the output's at `out1_3` of the inputs'. The body
    also reads the output buffer before it stores it whole; the value read is not used. -/
theorem sound_kernel1 (c : Dev nD) (E : Set ℕ) (i : grid1.Coords)
    (arg1 : Memref sig .tc .vmem S1024x1024 .f32) (harg1 : arg1.IsWhole) (arg2 : Memref sig .tc .vmem S1024x512 .f32) (harg2 : arg2.IsWhole)
    (arg3 : Memref sig .tc .vmem S1x512 .f32) (harg3 : arg3.IsWhole) (arg4 : Memref sig .tc .vmem S1024x512 .f32) (harg4 : arg4.IsWhole)
    (x0 : Vec F S1024x1024 .f32) (x1 : Vec F S1024x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_matmul_bias_kernel i arg1 harg1 arg2 harg2 arg3 harg3 arg4 harg4) K := by
  simp only [cc1__dense_matmul_bias_kernel_eq_skeleton]; unfold cc1__dense_matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them (`V`); after the body at point
    `t` each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Region2Runs.lean ====
import proofs.«141825_j60318520705103_1_alg».proof.Proof.Gen.KernelIdeal.Launch
import proofs.«141825_j60318520705103_1_alg».proof.Proof.Gen.KernelIdeal.Skeleton
import proofs.«141825_j60318520705103_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions, in closed form over the grid -/

/-- The first conditional: the inner coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional: the inner coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the second conditional fails the output window is idle and is not written back; -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- where it holds the window is live. -/
theorem liveAt2_4 : ∀ t : Fin cfg2.N, cond2_1 (grid2.coords t) → cfg2.idle 4 (grid2.coords t) = false := by decide +kernel

/-! ## The memrefs the body is called with -/

/-- One staging buffer of the output window, through which its contents are stated (the choice does not matter). -/
abbrev VO2_4 : View sig .tc .vmem S512x512 .f32 := (Memref.whole cc2_stg4_0 : Memref sig .tc .vmem S512x512 .f32).view
abbrev ms2_0 (t : Fin cfg2.N) : Memref sig .tc .vmem S512x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
/-- The scratch accumulator: a whole scoped buffer of the kernel's own, carried between points. -/
abbrev scM2 : Memref sig .tc .vmem S512x512 .f32 := Memref.whole cc2_scratch0
abbrev VS2 : View sig .tc .vmem S512x512 .f32 := scM2.view

/-- The class's invariant with the scratch as a memref owned at some contents and the remaining scoped buffers unopened. -/
theorem PhiA2_eq (c : Dev nD) :
    (Pipeline.ΦA spec2 c : sProp 𝕄)
      = iprop(iprop(iprop((∃ d, owns (c : Thread nD τ) scM2 fullShare d)) ∗ Pipeline.scopedRestBut spec2 c [cc2_scratch0]) ∗ (∃ r, prngReg c r)) := by
  unfold Pipeline.ΦA; rw [scopedRest2_split]; simp only [scM2, owns_whole]; try rfl

end Cert.KernelIdeal.Hand

end
-- ==== Proof.KI.Region2RunA.lean ====
import proofs.«141825_j60318520705103_1_alg».proof.Proof.KI.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 0: the accumulator is reset, then the block product is added; with the proof that on whole memrefs, the inputs' at
    their contents, the body runs to the continuation holding the inputs' as they were and each stored buffer with its
    pieces written. -/
noncomputable def kernelRun2_A (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i)
    (x0 : Vec F S512x2048 .f32) (x1 : Vec F S2048x512 .f32) (x2 : Vec F S512x512 .f32) (x3 : Vec F S1x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__fused_affinity_kernel i arg2 harg2 arg3 harg3 arg4 harg4 arg5 harg5 arg6 harg6 arg7 harg7) K } := by
  refine ⟨[], ?_, fun xi4 E K => ?run⟩
  case run =>
    simp only [cc2__fused_affinity_kernel_eq_skeleton]; unfold cc2__fused_affinity_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Region2RunB.lean ====
import proofs.«141825_j60318520705103_1_alg».proof.Proof.KI.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 1 or 2: the block product is added to the accumulator; with the proof that on whole memrefs, the inputs' at
    their contents, the body runs to the continuation holding the inputs' as they were and each stored buffer with its
    pieces written. -/
noncomputable def kernelRun2_B (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i)
    (x0 : Vec F S512x2048 .f32) (x1 : Vec F S2048x512 .f32) (x2 : Vec F S512x512 .f32) (x3 : Vec F S1x512 .f32) (xs0 : Vec F S512x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__fused_affinity_kernel i arg2 harg2 arg3 harg3 arg4 harg4 arg5 harg5 arg6 harg6 arg7 harg7) K } := by
  refine ⟨[], ?_, fun xi4 E K => ?run⟩
  case run =>
    simp only [cc2__fused_affinity_kernel_eq_skeleton]; unfold cc2__fused_affinity_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Region2RunC.lean ====
import proofs.«141825_j60318520705103_1_alg».proof.Proof.KI.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 3: the block product is added, then the output block is computed from the accumulator and stored; with the proof that on whole memrefs, the inputs' at
    their contents, the body runs to the continuation holding the inputs' as they were and each stored buffer with its
    pieces written. -/
noncomputable def kernelRun2_C (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i)
    (x0 : Vec F S512x2048 .f32) (x1 : Vec F S2048x512 .f32) (x2 : Vec F S512x512 .f32) (x3 : Vec F S1x512 .f32) (xs0 : Vec F S512x512 .f32) :
    Σ' (L4 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__fused_affinity_kernel i arg2 harg2 arg3 harg3 arg4 harg4 arg5 harg5 arg6 harg6 arg7 harg7) K } := by
  refine ⟨?_, ?_, fun E K => ?run⟩
  case run =>
    simp only [cc2__fused_affinity_kernel_eq_skeleton]; unfold cc2__fused_affinity_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Region2.lean ====
import proofs.«141825_j60318520705103_1_alg».proof.Proof.KI.Region2RunA
import proofs.«141825_j60318520705103_1_alg».proof.Proof.KI.Region2RunB
import proofs.«141825_j60318520705103_1_alg».proof.Proof.KI.Region2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the buffers they fill -/

theorem scover2_A (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i) (x0 : Vec F S512x2048 .f32) (x1 : Vec F S2048x512 .f32) (x2 : Vec F S512x512 .f32) (x3 : Vec F S1x512 .f32) (y : S512x512.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S512x512.size (by sl_kernel_rfl) y

theorem scover2_B (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i) (x0 : Vec F S512x2048 .f32) (x1 : Vec F S2048x512 .f32) (x2 : Vec F S512x512 .f32) (x3 : Vec F S1x512 .f32) (xs0 : Vec F S512x512 .f32) (y : S512x512.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S512x512.size (by sl_kernel_rfl) y

theorem scover2_C (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x2048 .f32) (x1 : Vec F S2048x512 .f32) (x2 : Vec F S512x512 .f32) (x3 : Vec F S1x512 .f32) (xs0 : Vec F S512x512 .f32) (y : S512x512.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S512x512.size (by sl_kernel_rfl) y

theorem cover2_C (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x2048 .f32) (x1 : Vec F S2048x512 .f32) (x2 : Vec F S512x512 .f32) (x3 : Vec F S1x512 .f32) (xs0 : Vec F S512x512 .f32) (y : S512x512.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S512x512.size (by sl_kernel_rfl) y

section Region2
variable (V : (c : Dev nD) → (b : Ref sig .tc) → Buf (Elt F) ((c : Thread nD τ).loc b))

/-! ## The three cases at a point of the grid -/

/-- The case of a point with inner coordinate 0, at the point's memrefs and input blocks. -/
abbrev runA2 (c : Dev nD) (t : Fin cfg2.N) (h0 : t.val % 4 = 0) (h1 : ¬t.val % 4 = 3) :=
  kernelRun2_A (F := F) c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)
/-- The case of a point with inner coordinate 1 or 2, over accumulator contents `xs`. -/
abbrev runB2 (c : Dev nD) (t : Fin cfg2.N) (h0 : ¬t.val % 4 = 0) (h1 : ¬t.val % 4 = 3) (xs : Vec F S512x512 .f32) :=
  kernelRun2_B (F := F) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) xs
/-- The case of a point with inner coordinate 3, over accumulator contents `xs`. -/
abbrev runC2 (c : Dev nD) (t : Fin cfg2.N) (h0 : ¬t.val % 4 = 0) (h1 : t.val % 4 = 3) (xs : Vec F S512x512 .f32) :=
  kernelRun2_C (F := F) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) xs

/-- What each case leaves in the accumulator: its pieces read back. -/
def soutA2 (c : Dev nD) (t : Fin cfg2.N) (h0 : t.val % 4 = 0) (h1 : ¬t.val % 4 = 3) : Vec F S512x512 .f32 :=
  VS2.read (Elt F) (VS2.writes (Elt F) VS2.junk (runA2 V c t h0 h1).2.1)
def soutB2 (c : Dev nD) (t : Fin cfg2.N) (h0 : ¬t.val % 4 = 0) (h1 : ¬t.val % 4 = 3) (xs : Vec F S512x512 .f32) : Vec F S512x512 .f32 :=
  VS2.read (Elt F) (VS2.writes (Elt F) VS2.junk (runB2 V c t h0 h1 xs).2.1)
def soutC2 (c : Dev nD) (t : Fin cfg2.N) (h0 : ¬t.val % 4 = 0) (h1 : t.val % 4 = 3) (xs : Vec F S512x512 .f32) : Vec F S512x512 .f32 :=
  VS2.read (Elt F) (VS2.writes (Elt F) VS2.junk (runC2 V c t h0 h1 xs).2.1)
/-- What the last case leaves in the output block's staging buffer. -/
def outC2 (c : Dev nD) (t : Fin cfg2.N) (h0 : ¬t.val % 4 = 0) (h1 : t.val % 4 = 3) (xs : Vec F S512x512 .f32) : Vec F S512x512 .f32 :=
  VO2_4.read (Elt F) (VO2_4.writes (Elt F) VO2_4.junk (runC2 V c t h0 h1 xs).1)

/-! ## The accumulation -/

/-- What the accumulator holds after the body at position `n`: the case the inner coordinate selects, over what the
    position before left. -/
def acc2 (c : Dev nD) : (n : ℕ) → n < cfg2.N → Vec F S512x512 .f32
  | 0, hn => soutA2 V c ⟨0, hn⟩ (Nat.zero_mod _) (by show ¬((0 : ℕ) % 4 = 3); decide)
  | n + 1, hn =>
    if h0 : (n + 1) % 4 = 0 then soutA2 V c ⟨n + 1, hn⟩ h0 (by show ¬((n + 1) % 4 = 3); omega)
    else if h1 : (n + 1) % 4 = 3 then soutC2 V c ⟨n + 1, hn⟩ h0 h1 (acc2 c n (Nat.lt_of_succ_lt hn))
    else soutB2 V c ⟨n + 1, hn⟩ h0 h1 (acc2 c n (Nat.lt_of_succ_lt hn))

theorem acc2_A (c : Dev nD) (t : Fin cfg2.N) (h0 : t.val % 4 = 0) (h1 : ¬t.val % 4 = 3) :
    acc2 V c t.val t.isLt = soutA2 V c t h0 h1 := by
  obtain ⟨n, hn⟩ := t
  cases n with
  | zero => rfl
  | succ n => exact (dif_pos h0)

theorem acc2_B (c : Dev nD) (t : Fin cfg2.N) (h0 : ¬t.val % 4 = 0) (h1 : ¬t.val % 4 = 3) :
    acc2 V c t.val t.isLt = soutB2 V c t h0 h1 (acc2 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem acc2_C (c : Dev nD) (t : Fin cfg2.N) (h0 : ¬t.val % 4 = 0) (h1 : t.val % 4 = 3) :
    acc2 V c t.val t.isLt = soutC2 V c t h0 h1 (acc2 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- A placeholder for the output block's buffer at the points that leave it idle: nothing reads it (the block is neither
    written back there nor handed on). -/
def outIdle2 : Vec F S512x512 .f32 := VO2_4.read (Elt F) VO2_4.junk

/-- What the output block's staging buffer holds after the body at point `t`. -/
def out2 (c : Dev nD) (t : Fin cfg2.N) : Vec F S512x512 .f32 :=
  if h1 : t.val % 4 = 3 then outC2 V c t (by omega) h1 (acc2 V c (t.val - 1) (Nat.lt_of_le_of_lt (Nat.sub_le _ _) t.isLt))
  else outIdle2

/-! ## The invariant -/

/-- Before the first point the class's invariant (the scratch at anything); afterwards the scratch at what the point before
    left, the remaining scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ Pipeline.scopedRestBut spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ Pipeline.scopedRestBut spec2 c [cc2_scratch0]) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]
theorem leaves2_4_idle (c : Dev nD) (t : Fin cfg2.N) (h1 : ¬t.val % 4 = 3) :
    (dat2 V c).leavesExact 4 t = iprop(∃ d, owns (c : Thread nD τ) (ms2_4 t) fullShare ((dat2 V c).before 4 t d)) :=
  Dat.leavesExact_idle (dat2 V c) 4 t (idleAt2_4 t (fun h => h1 ((hcond2_1 t).mp h))) (noFlush2_4 t (fun h => h1 ((hcond2_1 t).mp h)))
theorem leaves2_4_live (c : Dev nD) (t : Fin cfg2.N) (h1 : t.val % 4 = 3) :
    (dat2 V c).leavesExact 4 t = owns (c : Thread nD τ) (ms2_4 t) fullShare (out2 V c t) := by
  unfold Dat.leavesExact; rw [liveAt2_4 t ((hcond2_1 t).mpr h1), after2_4]

set_option maxHeartbeats 4800000 in
/-- The body at any point: the inputs' memrefs hold their blocks; the inner coordinate says which case the point is in; the
    invariant hands the body the accumulator at what the point before left (at anything at the first point) and takes it back
    at this point's contents; where the output block is idle its buffer passes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 64 := lt_of_lt_of_eq t.isLt (show cfg2.N = 64 from N_2)
  by_cases h0 : t.val % 4 = 0
  · have h1 : ¬t.val % 4 = 3 := by omega
    rw [leaves2_4_idle V c t h1, acc2_A V c t h0 h1]
    unfold soutA2
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((runA2 V c t h0 h1).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA2 V c t h0 h1).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [PhiS2_castSucc V c t, PhiS2_pos V c _ _ hz]
    by_cases h1 : t.val % 4 = 3
    · rw [leaves2_4_live V c t h1, acc2_C V c t h0 h1]
      rw [show out2 V c t = outC2 V c t h0 h1 (acc2 V c (t.val - 1) (Nat.lt_of_le_of_lt (Nat.sub_le _ _) t.isLt)) from dif_pos h1]
      unfold soutC2 outC2
      iintro ⟨⟨⟨HS0, Hr⟩, Hg⟩, Ho, ⟨%d0, H0⟩, ⟨%d1, H1⟩, ⟨%d2, H2⟩, ⟨%d3, H3⟩, ⟨%d4, H4⟩⟩
      iapply ((runC2 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C c _ _ _ _ _ _ _ _ _ _ _ _ _ _ _ _ _ _ _ _)
    · rw [leaves2_4_idle V c t h1, acc2_B V c t h0 h1]
      unfold soutB2
      iintro ⟨⟨⟨HS0, Hr⟩, Hg⟩, Ho, ⟨%d0, H0⟩, ⟨%d1, H1⟩, ⟨%d2, H2⟩, ⟨%d3, H3⟩, ⟨%d4, H4⟩⟩
      iapply ((runB2 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (iprop((∃ r, prngReg c r) ∗ Pipeline.scopedRest (Ix := Unit) (Name := ℕ) (U := UR sig nD τ) (Lvl := ℕ) (Val := Elt F) spec2 c) : sProp 𝕄) ⊢ (dat2 V c).Φ 0 := by
  rw [show (dat2 V c).Φ 0 = PhiS2 V c 0 (Nat.zero_le _) from rfl, PhiS2_zero V c 0 _ rfl]
  unfold Pipeline.ΦA
  iintro ⟨Hg, Hs⟩
  isplitl [Hs]; · iexact Hs
  iexact Hg

/-- After the last point the invariant gives the scoped rest back: the accumulator's named contents are forgotten. -/
theorem hout2 (c : Dev nD) : (dat2 V c).Φ (Fin.last cfg2.N) ⊢ (iprop((∃ r, prngReg c r) ∗ Pipeline.scopedRest (Ix := Unit) (Name := ℕ) (U := UR sig nD τ) (Lvl := ℕ) (Val := Elt F) spec2 c) : sProp 𝕄) := by
  have hne : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ hne, scopedRest2_split]
  simp only [scM2, owns_whole]
  iintro ⟨⟨HS0, Hr⟩, Hg⟩
  isplitl [Hg]; · iexact Hg
  isplitl [HS0]
  · iexists _; iexact HS0
  iexact Hr

end Region2

end Cert.KernelIdeal.Hand

end
-- ==== Proof.KI.Region3Runs.lean ====
import proofs.«141825_j60318520705103_1_alg».proof.Proof.Gen.KernelIdeal.Launch
import proofs.«141825_j60318520705103_1_alg».proof.Proof.Gen.KernelIdeal.Skeleton
import proofs.«141825_j60318520705103_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's branch conditions, in closed form over the grid -/

/-- The first conditional: the inner coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional: the inner coordinate is 3. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Where the second conditional fails the output window is idle and is not written back; -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- where it holds the window is live. -/
theorem liveAt3_4 : ∀ t : Fin cfg3.N, cond3_1 (grid3.coords t) → cfg3.idle 4 (grid3.coords t) = false := by decide +kernel

/-! ## The memrefs the body is called with -/

/-- One staging buffer of the output window, through which its contents are stated (the choice does not matter). -/
abbrev VO3_4 : View sig .tc .vmem S512x512 .f32 := (Memref.whole cc3_stg4_0 : Memref sig .tc .vmem S512x512 .f32).view
abbrev ms3_0 (t : Fin cfg3.N) : Memref sig .tc .vmem S2048x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x512 .f32 := win3_4.stage (cfg3.slots t 4)
abbrev hs3_4 (t : Fin cfg3.N) : (ms3_4 t).IsWhole := hstage3_4 ((cfg3.slots t 4).cast nbuf3_4)
/-- The scratch accumulator: a whole scoped buffer of the kernel's own, carried between points. -/
abbrev scM3 : Memref sig .tc .vmem S512x512 .f32 := Memref.whole cc3_scratch0
abbrev VS3 : View sig .tc .vmem S512x512 .f32 := scM3.view

/-- The class's invariant with the scratch as a memref owned at some contents and the remaining scoped buffers unopened. -/
theorem PhiA3_eq (c : Dev nD) :
    (Pipeline.ΦA spec3 c : sProp 𝕄)
      = iprop(iprop(iprop((∃ d, owns (c : Thread nD τ) scM3 fullShare d)) ∗ Pipeline.scopedRestBut spec3 c [cc3_scratch0]) ∗ (∃ r, prngReg c r)) := by
  unfold Pipeline.ΦA; rw [scopedRest3_split]; simp only [scM3, owns_whole]; try rfl

end Cert.KernelIdeal.Hand

end
-- ==== Proof.KI.Region3RunA.lean ====
import proofs.«141825_j60318520705103_1_alg».proof.Proof.KI.Region3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 0: the accumulator is reset, then the block product is added; with the proof that on whole memrefs, the inputs' at
    their contents, the body runs to the continuation holding the inputs' as they were and each stored buffer with its
    pieces written. -/
noncomputable def kernelRun3_A (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond3_0 i) (hc1 : ¬cond3_1 i)
    (x0 : Vec F S2048x512 .f32) (x1 : Vec F S2048x512 .f32) (x2 : Vec F S512x512 .f32) (x3 : Vec F S1x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__fused_affinity_kernel i arg2 harg2 arg3 harg3 arg4 harg4 arg5 harg5 arg6 harg6 arg7 harg7) K } := by
  refine ⟨[], ?_, fun xi4 E K => ?run⟩
  case run =>
    simp only [cc3__fused_affinity_kernel_eq_skeleton]; unfold cc3__fused_affinity_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Region3RunB.lean ====
import proofs.«141825_j60318520705103_1_alg».proof.Proof.KI.Region3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 1 or 2: the block product is added to the accumulator; with the proof that on whole memrefs, the inputs' at
    their contents, the body runs to the continuation holding the inputs' as they were and each stored buffer with its
    pieces written. -/
noncomputable def kernelRun3_B (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : ¬cond3_1 i)
    (x0 : Vec F S2048x512 .f32) (x1 : Vec F S2048x512 .f32) (x2 : Vec F S512x512 .f32) (x3 : Vec F S1x512 .f32) (xs0 : Vec F S512x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__fused_affinity_kernel i arg2 harg2 arg3 harg3 arg4 harg4 arg5 harg5 arg6 harg6 arg7 harg7) K } := by
  refine ⟨[], ?_, fun xi4 E K => ?run⟩
  case run =>
    simp only [cc3__fused_affinity_kernel_eq_skeleton]; unfold cc3__fused_affinity_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Region3RunC.lean ====
import proofs.«141825_j60318520705103_1_alg».proof.Proof.KI.Region3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch accumulator, as pieces (last first), in the
    case where the inner coordinate is 3: the block product is added, then the output block is computed from the accumulator and stored; with the proof that on whole memrefs, the inputs' at
    their contents, the body runs to the continuation holding the inputs' as they were and each stored buffer with its
    pieces written. -/
noncomputable def kernelRun3_C (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : cond3_1 i)
    (x0 : Vec F S2048x512 .f32) (x1 : Vec F S2048x512 .f32) (x2 : Vec F S512x512 .f32) (x3 : Vec F S1x512 .f32) (xs0 : Vec F S512x512 .f32) :
    Σ' (L4 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__fused_affinity_kernel i arg2 harg2 arg3 harg3 arg4 harg4 arg5 harg5 arg6 harg6 arg7 harg7) K } := by
  refine ⟨?_, ?_, fun E K => ?run⟩
  case run =>
    simp only [cc3__fused_affinity_kernel_eq_skeleton]; unfold cc3__fused_affinity_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Region3.lean ====
import proofs.«141825_j60318520705103_1_alg».proof.Proof.KI.Region3RunA
import proofs.«141825_j60318520705103_1_alg».proof.Proof.KI.Region3RunB
import proofs.«141825_j60318520705103_1_alg».proof.Proof.KI.Region3RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the buffers they fill -/

theorem scover3_A (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond3_0 i) (hc1 : ¬cond3_1 i) (x0 : Vec F S2048x512 .f32) (x1 : Vec F S2048x512 .f32) (x2 : Vec F S512x512 .f32) (x3 : Vec F S1x512 .f32) (y : S512x512.Idx) :
    ∃ pc ∈ (kernelRun3_A c i arg2 harg2 arg3 harg3 arg4 harg4 arg5 harg5 arg6 harg6 arg7 harg7 hc0 hc1 x0 x1 x2 x3).2.1, y ∈ pc.1.set :=
  View.cover_of_tiledL (kernelRun3_A c i arg2 harg2 arg3 harg3 arg4 harg4 arg5 harg5 arg6 harg6 arg7 harg7 hc0 hc1 x0 x1 x2 x3).2.1 S512x512.size (by sl_kernel_rfl) y

theorem scover3_B (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : ¬cond3_1 i) (x0 : Vec F S2048x512 .f32) (x1 : Vec F S2048x512 .f32) (x2 : Vec F S512x512 .f32) (x3 : Vec F S1x512 .f32) (xs0 : Vec F S512x512 .f32) (y : S512x512.Idx) :
    ∃ pc ∈ (kernelRun3_B c i arg2 harg2 arg3 harg3 arg4 harg4 arg5 harg5 arg6 harg6 arg7 harg7 hc0 hc1 x0 x1 x2 x3 xs0).2.1, y ∈ pc.1.set :=
  View.cover_of_tiledL (kernelRun3_B c i arg2 harg2 arg3 harg3 arg4 harg4 arg5 harg5 arg6 harg6 arg7 harg7 hc0 hc1 x0 x1 x2 x3 xs0).2.1 S512x512.size (by sl_kernel_rfl) y

theorem scover3_C (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : cond3_1 i) (x0 : Vec F S2048x512 .f32) (x1 : Vec F S2048x512 .f32) (x2 : Vec F S512x512 .f32) (x3 : Vec F S1x512 .f32) (xs0 : Vec F S512x512 .f32) (y : S512x512.Idx) :
    ∃ pc ∈ (kernelRun3_C c i arg2 harg2 arg3 harg3 arg4 harg4 arg5 harg5 arg6 harg6 arg7 harg7 hc0 hc1 x0 x1 x2 x3 xs0).2.1, y ∈ pc.1.set :=
  View.cover_of_tiledL (kernelRun3_C c i arg2 harg2 arg3 harg3 arg4 harg4 arg5 harg5 arg6 harg6 arg7 harg7 hc0 hc1 x0 x1 x2 x3 xs0).2.1 S512x512.size (by sl_kernel_rfl) y

theorem cover3_C (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : cond3_1 i) (x0 : Vec F S2048x512 .f32) (x1 : Vec F S2048x512 .f32) (x2 : Vec F S512x512 .f32) (x3 : Vec F S1x512 .f32) (xs0 : Vec F S512x512 .f32) (y : S512x512.Idx) :
    ∃ pc ∈ (kernelRun3_C c i arg2 harg2 arg3 harg3 arg4 harg4 arg5 harg5 arg6 harg6 arg7 harg7 hc0 hc1 x0 x1 x2 x3 xs0).1, y ∈ pc.1.set :=
  View.cover_of_tiledL (kernelRun3_C c i arg2 harg2 arg3 harg3 arg4 harg4 arg5 harg5 arg6 harg6 arg7 harg7 hc0 hc1 x0 x1 x2 x3 xs0).1 S512x512.size (by sl_kernel_rfl) y

section Region3
variable (V : (c : Dev nD) → (b : Ref sig .tc) → Buf (Elt F) ((c : Thread nD τ).loc b))

/-! ## The three cases at a point of the grid -/

/-- The case of a point with inner coordinate 0, at the point's memrefs and input blocks. -/
abbrev runA3 (c : Dev nD) (t : Fin cfg3.N) (h0 : t.val % 4 = 0) (h1 : ¬t.val % 4 = 3) :=
  kernelRun3_A (F := F) c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t) (iblk3 V c 2 t) (iblk3 V c 3 t)
/-- The case of a point with inner coordinate 1 or 2, over accumulator contents `xs`. -/
abbrev runB3 (c : Dev nD) (t : Fin cfg3.N) (h0 : ¬t.val % 4 = 0) (h1 : ¬t.val % 4 = 3) (xs : Vec F S512x512 .f32) :=
  kernelRun3_B (F := F) c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (iblk3 V c 2 t) (iblk3 V c 3 t) xs
/-- The case of a point with inner coordinate 3, over accumulator contents `xs`. -/
abbrev runC3 (c : Dev nD) (t : Fin cfg3.N) (h0 : ¬t.val % 4 = 0) (h1 : t.val % 4 = 3) (xs : Vec F S512x512 .f32) :=
  kernelRun3_C (F := F) c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) xs

/-- What each case leaves in the accumulator: its pieces read back. -/
def soutA3 (c : Dev nD) (t : Fin cfg3.N) (h0 : t.val % 4 = 0) (h1 : ¬t.val % 4 = 3) : Vec F S512x512 .f32 :=
  VS3.read (Elt F) (VS3.writes (Elt F) VS3.junk (runA3 V c t h0 h1).2.1)
def soutB3 (c : Dev nD) (t : Fin cfg3.N) (h0 : ¬t.val % 4 = 0) (h1 : ¬t.val % 4 = 3) (xs : Vec F S512x512 .f32) : Vec F S512x512 .f32 :=
  VS3.read (Elt F) (VS3.writes (Elt F) VS3.junk (runB3 V c t h0 h1 xs).2.1)
def soutC3 (c : Dev nD) (t : Fin cfg3.N) (h0 : ¬t.val % 4 = 0) (h1 : t.val % 4 = 3) (xs : Vec F S512x512 .f32) : Vec F S512x512 .f32 :=
  VS3.read (Elt F) (VS3.writes (Elt F) VS3.junk (runC3 V c t h0 h1 xs).2.1)
/-- What the last case leaves in the output block's staging buffer. -/
def outC3 (c : Dev nD) (t : Fin cfg3.N) (h0 : ¬t.val % 4 = 0) (h1 : t.val % 4 = 3) (xs : Vec F S512x512 .f32) : Vec F S512x512 .f32 :=
  VO3_4.read (Elt F) (VO3_4.writes (Elt F) VO3_4.junk (runC3 V c t h0 h1 xs).1)

/-! ## The accumulation -/

/-- What the accumulator holds after the body at position `n`: the case the inner coordinate selects, over what the
    position before left. -/
def acc3 (c : Dev nD) : (n : ℕ) → n < cfg3.N → Vec F S512x512 .f32
  | 0, hn => soutA3 V c ⟨0, hn⟩ (Nat.zero_mod _) (by show ¬((0 : ℕ) % 4 = 3); decide)
  | n + 1, hn =>
    if h0 : (n + 1) % 4 = 0 then soutA3 V c ⟨n + 1, hn⟩ h0 (by show ¬((n + 1) % 4 = 3); omega)
    else if h1 : (n + 1) % 4 = 3 then soutC3 V c ⟨n + 1, hn⟩ h0 h1 (acc3 c n (Nat.lt_of_succ_lt hn))
    else soutB3 V c ⟨n + 1, hn⟩ h0 h1 (acc3 c n (Nat.lt_of_succ_lt hn))

theorem acc3_A (c : Dev nD) (t : Fin cfg3.N) (h0 : t.val % 4 = 0) (h1 : ¬t.val % 4 = 3) :
    acc3 V c t.val t.isLt = soutA3 V c t h0 h1 := by
  obtain ⟨n, hn⟩ := t
  cases n with
  | zero => rfl
  | succ n => exact (dif_pos h0)

theorem acc3_B (c : Dev nD) (t : Fin cfg3.N) (h0 : ¬t.val % 4 = 0) (h1 : ¬t.val % 4 = 3) :
    acc3 V c t.val t.isLt = soutB3 V c t h0 h1 (acc3 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem acc3_C (c : Dev nD) (t : Fin cfg3.N) (h0 : ¬t.val % 4 = 0) (h1 : t.val % 4 = 3) :
    acc3 V c t.val t.isLt = soutC3 V c t h0 h1 (acc3 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- A placeholder for the output block's buffer at the points that leave it idle: nothing reads it (the block is neither
    written back there nor handed on). -/
def outIdle3 : Vec F S512x512 .f32 := VO3_4.read (Elt F) VO3_4.junk

/-- What the output block's staging buffer holds after the body at point `t`. -/
def out3 (c : Dev nD) (t : Fin cfg3.N) : Vec F S512x512 .f32 :=
  if h1 : t.val % 4 = 3 then outC3 V c t (by omega) h1 (acc3 V c (t.val - 1) (Nat.lt_of_le_of_lt (Nat.sub_le _ _) t.isLt))
  else outIdle3

/-! ## The invariant -/

/-- Before the first point the class's invariant (the scratch at anything); afterwards the scratch at what the point before
    left, the remaining scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ Pipeline.scopedRestBut spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ Pipeline.scopedRestBut spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) : (dat3 V c).leavesExact 3 t = owns (c : Thread nD τ) (ms3_3 t) fullShare (iblk3 V c 3 t) := by
  unfold Dat.leavesExact; rw [liveAt3_3 t, after3_3]
theorem leaves3_4_idle (c : Dev nD) (t : Fin cfg3.N) (h1 : ¬t.val % 4 = 3) :
    (dat3 V c).leavesExact 4 t = iprop(∃ d, owns (c : Thread nD τ) (ms3_4 t) fullShare ((dat3 V c).before 4 t d)) :=
  Dat.leavesExact_idle (dat3 V c) 4 t (idleAt3_4 t (fun h => h1 ((hcond3_1 t).mp h))) (noFlush3_4 t (fun h => h1 ((hcond3_1 t).mp h)))
theorem leaves3_4_live (c : Dev nD) (t : Fin cfg3.N) (h1 : t.val % 4 = 3) :
    (dat3 V c).leavesExact 4 t = owns (c : Thread nD τ) (ms3_4 t) fullShare (out3 V c t) := by
  unfold Dat.leavesExact; rw [liveAt3_4 t ((hcond3_1 t).mpr h1), after3_4]

set_option maxHeartbeats 4800000 in
/-- The body at any point: the inputs' memrefs hold their blocks; the inner coordinate says which case the point is in; the
    invariant hands the body the accumulator at what the point before left (at anything at the first point) and takes it back
    at this point's contents; where the output block is idle its buffer passes through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  have hN : t.val < 64 := lt_of_lt_of_eq t.isLt (show cfg3.N = 64 from N_3)
  by_cases h0 : t.val % 4 = 0
  · have h1 : ¬t.val % 4 = 3 := by omega
    rw [leaves3_4_idle V c t h1, acc3_A V c t h0 h1]
    unfold soutA3
    by_cases hz : t.val = 0
    · rw [PhiS3_castSucc V c t, PhiS3_zero V c _ _ hz, PhiA3_eq]
      iintro ⟨⟨⟨HS0, Hr⟩, Hg⟩, Ho, ⟨%d0, H0⟩, ⟨%d1, H1⟩, ⟨%d2, H2⟩, ⟨%d3, H3⟩, ⟨%d4, H4⟩⟩
      iapply ((runA3 V c t h0 h1).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA3 V c t h0 h1).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [PhiS3_castSucc V c t, PhiS3_pos V c _ _ hz]
    by_cases h1 : t.val % 4 = 3
    · rw [leaves3_4_live V c t h1, acc3_C V c t h0 h1]
      rw [show out3 V c t = outC3 V c t h0 h1 (acc3 V c (t.val - 1) (Nat.lt_of_le_of_lt (Nat.sub_le _ _) t.isLt)) from dif_pos h1]
      unfold soutC3 outC3
      iintro ⟨⟨⟨HS0, Hr⟩, Hg⟩, Ho, ⟨%d0, H0⟩, ⟨%d1, H1⟩, ⟨%d2, H2⟩, ⟨%d3, H3⟩, ⟨%d4, H4⟩⟩
      iapply ((runC3 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C c _ _ _ _ _ _ _ _ _ _ _ _ _ _ _ _ _ _ _ _)
    · rw [leaves3_4_idle V c t h1, acc3_B V c t h0 h1]
      unfold soutB3
      iintro ⟨⟨⟨HS0, Hr⟩, Hg⟩, Ho, ⟨%d0, H0⟩, ⟨%d1, H1⟩, ⟨%d2, H2⟩, ⟨%d3, H3⟩, ⟨%d4, H4⟩⟩
      iapply ((runB3 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (iprop((∃ r, prngReg c r) ∗ Pipeline.scopedRest (Ix := Unit) (Name := ℕ) (U := UR sig nD τ) (Lvl := ℕ) (Val := Elt F) spec3 c) : sProp 𝕄) ⊢ (dat3 V c).Φ 0 := by
  rw [show (dat3 V c).Φ 0 = PhiS3 V c 0 (Nat.zero_le _) from rfl, PhiS3_zero V c 0 _ rfl]
  unfold Pipeline.ΦA
  iintro ⟨Hg, Hs⟩
  isplitl [Hs]; · iexact Hs
  iexact Hg

/-- After the last point the invariant gives the scoped rest back: the accumulator's named contents are forgotten. -/
theorem hout3 (c : Dev nD) : (dat3 V c).Φ (Fin.last cfg3.N) ⊢ (iprop((∃ r, prngReg c r) ∗ Pipeline.scopedRest (Ix := Unit) (Name := ℕ) (U := UR sig nD τ) (Lvl := ℕ) (Val := Elt F) spec3 c) : sProp 𝕄) := by
  have hne : (Fin.last cfg3.N).val ≠ 0 := by rw [Fin.val_last]; have : cfg3.N = 64 := N_3; omega
  rw [show (dat3 V c).Φ (Fin.last cfg3.N) = PhiS3 V c (Fin.last cfg3.N).val (Nat.le_of_lt_succ (Fin.last cfg3.N).isLt) from rfl,
    PhiS3_pos V c _ _ hne, scopedRest3_split]
  simp only [scM3, owns_whole]
  iintro ⟨⟨HS0, Hr⟩, Hg⟩
  isplitl [Hg]; · iexact Hg
  isplitl [HS0]
  · iexists _; iexact HS0
  iexact Hr

end Region3

end Cert.KernelIdeal.Hand

end
-- ==== Proof.KI.Region4.lean ====
/- Region 4 of the program: the dense kernel `cc4__dense_matmul_bias_kernel` (x · w on the matrix unit into a zero
   accumulator, plus the bias row broadcast down the rows), as a pipeline over row blocks of x. Stated at a parameter
   `V`, the core's buffer contents when the region is entered: each window's block at a point, what the body leaves in
   the output window's buffer, the body's triple, the pipeline's proof data and the body obligation. Generic in the
   float interpretation. -/
import proofs.«141825_j60318520705103_1_alg».proof.Proof.Gen.KernelIdeal.Launch
import proofs.«141825_j60318520705103_1_alg».proof.Proof.Gen.KernelIdeal.Skeleton
import proofs.«141825_j60318520705103_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether it was fetched at that point or
    at an earlier one (then its block index has not moved since), for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S256x3372 := Rect.unit (s := S256x3372) ![0, 0] S256x3372.size inb_S256x3372_S256x3372_0_0
abbrev r4_1 : Rect S3372x1024 := Rect.unit (s := S3372x1024) ![0, 0] S3372x1024.size inb_S3372x1024_S3372x1024_0_0
abbrev r4_2 : Rect S1x1024 := Rect.unit (s := S1x1024) ![0, 0] S1x1024.size inb_S1x1024_S1x1024_0_0
abbrev r4_3 : Rect S256x1024 := Rect.unit (s := S256x1024) ![0, 0] S256x1024.size inb_S256x1024_S256x1024_0_0

/-! ## What the body leaves in the output window's buffer -/

/-- The output buffer after the body, from the three input blocks: its one store, of the whole buffer. -/
def out4_3 (x0 : Vec F S256x3372 .f32) (x1 : Vec F S3372x1024 .f32) (x2 : Vec F S1x1024 .f32) : Vec F S256x1024 .f32 :=
  View.canon [⟨r4_3, k4_pay1 (View.ld x0 r4_0) (View.ld x1 r4_1) (View.ld x2 r4_2)⟩]

/-- The one store is of the whole buffer, so it covers it. -/
theorem cover4_3 (p0 : Vec F S256x1024 .f32) (y : S256x1024.Idx) :
    ∃ pc ∈ ([⟨r4_3, p0⟩] : List (View.Piece (Elt F) S256x1024 .f32)), y ∈ pc.1.set :=
  View.cover_of_tiled [⟨r4_3, p0⟩] S256x1024.size (by rfl) y

/-! ## The body's triple -/

set_option maxHeartbeats 1000000 in
/-- The kernel body on whole staging memrefs, the three inputs' at contents `x0 x1 x2` and the output's at anything,
    runs to the continuation holding the inputs' as they were and the output's at `out4_3` of the inputs'. The body
    also reads the output buffer before it stores it whole; the value read is not used. -/
theorem sound_kernel4 (c : Dev nD) (E : Set ℕ) (i : grid4.Coords)
    (arg1 : Memref sig .tc .vmem S256x3372 .f32) (harg1 : arg1.IsWhole) (arg2 : Memref sig .tc .vmem S3372x1024 .f32) (harg2 : arg2.IsWhole)
    (arg3 : Memref sig .tc .vmem S1x1024 .f32) (harg3 : arg3.IsWhole) (arg4 : Memref sig .tc .vmem S256x1024 .f32) (harg4 : arg4.IsWhole)
    (x0 : Vec F S256x3372 .f32) (x1 : Vec F S3372x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__dense_matmul_bias_kernel i arg1 harg1 arg2 harg2 arg3 harg3 arg4 harg4) K := by
  simp only [cc4__dense_matmul_bias_kernel_eq_skeleton]; unfold cc4__dense_matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the pipeline on core `c`: the arrays as the region finds them (`V`); after the body at point
    `t` each input's buffer at its block and the output's at `out4_3` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Region5.lean ====
/- Region 5 of the program: the dense kernel `cc5__dense_matmul_bias_kernel` (x · w on the matrix unit into a zero
   accumulator, plus the bias row broadcast down the rows), as a pipeline over row blocks of x. Stated at a parameter
   `V`, the core's buffer contents when the region is entered: each window's block at a point, what the body leaves in
   the output window's buffer, the body's triple, the pipeline's proof data and the body obligation. Generic in the
   float interpretation. -/
import proofs.«141825_j60318520705103_1_alg».proof.Proof.Gen.KernelIdeal.Launch
import proofs.«141825_j60318520705103_1_alg».proof.Proof.Gen.KernelIdeal.Skeleton
import proofs.«141825_j60318520705103_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether it was fetched at that point or
    at an earlier one (then its block index has not moved since), for any proof data whose array is `V`'s and
    whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S512x1024 := Rect.unit (s := S512x1024) ![0, 0] S512x1024.size inb_S512x1024_S512x1024_0_0
abbrev r5_1 : Rect S1024x256 := Rect.unit (s := S1024x256) ![0, 0] S1024x256.size inb_S1024x256_S1024x256_0_0
abbrev r5_2 : Rect S1x256 := Rect.unit (s := S1x256) ![0, 0] S1x256.size inb_S1x256_S1x256_0_0
abbrev r5_3 : Rect S512x256 := Rect.unit (s := S512x256) ![0, 0] S512x256.size inb_S512x256_S512x256_0_0

/-! ## What the body leaves in the output window's buffer -/

/-- The output buffer after the body, from the three input blocks: its one store, of the whole buffer. -/
def out5_3 (x0 : Vec F S512x1024 .f32) (x1 : Vec F S1024x256 .f32) (x2 : Vec F S1x256 .f32) : Vec F S512x256 .f32 :=
  View.canon [⟨r5_3, k5_pay1 (View.ld x0 r5_0) (View.ld x1 r5_1) (View.ld x2 r5_2)⟩]

/-- The one store is of the whole buffer, so it covers it. -/
theorem cover5_3 (p0 : Vec F S512x256 .f32) (y : S512x256.Idx) :
    ∃ pc ∈ ([⟨r5_3, p0⟩] : List (View.Piece (Elt F) S512x256 .f32)), y ∈ pc.1.set :=
  View.cover_of_tiled [⟨r5_3, p0⟩] S512x256.size (by rfl) y

/-! ## The body's triple -/

set_option maxHeartbeats 1000000 in
/-- The kernel body on whole staging memrefs, the three inputs' at contents `x0 x1 x2` and the output's at anything,
    runs to the continuation holding the inputs' as they were and the output's at `out5_3` of the inputs'. The body
    also reads the output buffer before it stores it whole; the value read is not used. -/
theorem sound_kernel5 (c : Dev nD) (E : Set ℕ) (i : grid5.Coords)
    (arg1 : Memref sig .tc .vmem S512x1024 .f32) (harg1 : arg1.IsWhole) (arg2 : Memref sig .tc .vmem S1024x256 .f32) (harg2 : arg2.IsWhole)
    (arg3 : Memref sig .tc .vmem S1x256 .f32) (harg3 : arg3.IsWhole) (arg4 : Memref sig .tc .vmem S512x256 .f32) (harg4 : arg4.IsWhole)
    (x0 : Vec F S512x1024 .f32) (x1 : Vec F S1024x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__dense_matmul_bias_kernel i arg1 harg1 arg2 harg2 arg3 harg3 arg4 harg4) K := by
  simp only [cc5__dense_matmul_bias_kernel_eq_skeleton]; unfold cc5__dense_matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of the pipeline on core `c`: the arrays as the region finds them (`V`); after the body at point
    `t` each input's buffer at its block and the output's at `out5_3` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.Vals.lean ====
/-
  The kernel program between its items. @main is host stretches and six kernel regions (four dense products with a bias
  row, two products accumulated over a blocked contraction with a fused projection, bias and rectifier). `W J c` is what
  core `c`'s unscoped buffers hold after item `J − 1`: the launch contents folded through the host stretches, and at each
  region's output array the contents that region's write-backs leave (`oJ`), read off the region's proof data at the
  contents it is entered with. The unknowns of the program's conditional frame are instantiated at these contents.
-/
import proofs.«141825_j60318520705103_1_alg».proof.Proof.Gen.KernelIdeal.Launch
import proofs.«141825_j60318520705103_1_alg».proof.Proof.Gen.KernelIdeal.Skeleton
import proofs.«141825_j60318520705103_1_alg».proof.Proof.Gen.KernelIdeal.Points
import proofs.«141825_j60318520705103_1_alg».proof.Proof.Gen.KernelIdeal.Regions
import proofs.«141825_j60318520705103_1_alg».proof.Proof.KI.RunCond
import proofs.«141825_j60318520705103_1_alg».proof.Proof.KI.Region0
import proofs.«141825_j60318520705103_1_alg».proof.Proof.KI.Region1
import proofs.«141825_j60318520705103_1_alg».proof.Proof.KI.Region2
import proofs.«141825_j60318520705103_1_alg».proof.Proof.KI.Region3
import proofs.«141825_j60318520705103_1_alg».proof.Proof.KI.Region4
import proofs.«141825_j60318520705103_1_alg».proof.Proof.KI.Region5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references. -/
abbrev atTc (W : Dev nD → Valuation τ sig (Elt F)) : (c : Dev nD) → (b : Ref sig .tc) → Buf (Elt F) ((c : Thread nD τ).loc b) := fun c b => W c b

/-- A valuation changed at one buffer reads as before at any other buffer, -/
theorem upd_in {c : Dev nD} (Wp : Valuation τ sig (Elt F)) (out : Ref sig .tc) (x : Buf (Elt F) ((c : Thread nD τ).loc out)) (b : Ref sig .tc) (h : b ≠ out) :
    (Function.update Wp (Proc.devRef .tc out) x : Valuation τ sig (Elt F)) (Proc.devRef .tc b) = Wp (Proc.devRef .tc b) :=
  Function.update_of_ne (StableHlo.devRef_ne_of_ne h) _ _
/-- and at that buffer holds the new contents. -/
theorem upd_out {c : Dev nD} (Wp : Valuation τ sig (Elt F)) (out : Ref sig .tc) (x : Buf (Elt F) ((c : Thread nD τ).loc out)) :
    (Function.update Wp (Proc.devRef .tc out) x : Valuation τ sig (Elt F)) (Proc.devRef .tc out) = x :=
  Function.update_self _ _ _

/-! ## The buffers' contents between items, with each region's output named

  `W J c` is what core `c`'s unscoped buffers hold after item `J − 1` of @main: the launch contents folded through the host
  stretches, and at each region's output array what that region's write-backs leave (`oJ`), computed from the contents
  the region is entered with. -/

/-- After the first host stretch. -/
def W1 (c : Dev nD) : Valuation τ sig (Elt F) := V1 m c
theorem W1_def (c : Dev nD) : W1 m c = V1 m c := rfl
/-- What region 0 leaves in `main_v3`. -/
def o2 (c : Dev nD) : Buf (Elt F) ((c : Thread nD τ).loc main_v3) := (dat0 (atTc (W1 m)) c).arrAt 3 cfg0.N
def W2 (c : Dev nD) : Valuation τ sig (Elt F) := Function.update (W1 m c) (Proc.devRef .tc main_v3) (o2 m c)
theorem W2_def (c : Dev nD) : W2 m c = Function.update (W1 m c) (Proc.devRef .tc main_v3) (o2 m c) := rfl
def W3 (c : Dev nD) : Valuation τ sig (Elt F) := StableHlo.after hostOps1 (W2 m c)
theorem W3_def (c : Dev nD) : W3 m c = StableHlo.after hostOps1 (W2 m c) := rfl
def W4 (c : Dev nD) : Valuation τ sig (Elt F) := StableHlo.after hostOps1_1 (W3 m c)
theorem W4_def (c : Dev nD) : W4 m c = StableHlo.after hostOps1_1 (W3 m c) := rfl
def W5 (c : Dev nD) : Valuation τ sig (Elt F) := StableHlo.after hostOps1_2 (W4 m c)
theorem W5_def (c : Dev nD) : W5 m c = StableHlo.after hostOps1_2 (W4 m c) := rfl
def W6 (c : Dev nD) : Valuation τ sig (Elt F) := StableHlo.after hostOps1_3 (W5 m c)
theorem W6_def (c : Dev nD) : W6 m c = StableHlo.after hostOps1_3 (W5 m c) := rfl
def W7 (c : Dev nD) : Valuation τ sig (Elt F) := StableHlo.after hostOps1_4 (W6 m c)
theorem W7_def (c : Dev nD) : W7 m c = StableHlo.after hostOps1_4 (W6 m c) := rfl
/-- What region 1 leaves in `main_v54`. -/
def o8 (c : Dev nD) : Buf (Elt F) ((c : Thread nD τ).loc main_v54) := (dat1 (atTc (W7 m)) c).arrAt 3 cfg1.N
def W8 (c : Dev nD) : Valuation τ sig (Elt F) := Function.update (W7 m c) (Proc.devRef .tc main_v54) (o8 m c)
theorem W8_def (c : Dev nD) : W8 m c = Function.update (W7 m c) (Proc.devRef .tc main_v54) (o8 m c) := rfl
def W9 (c : Dev nD) : Valuation τ sig (Elt F) := StableHlo.after hostOps2 (W8 m c)
theorem W9_def (c : Dev nD) : W9 m c = StableHlo.after hostOps2 (W8 m c) := rfl
def W10 (c : Dev nD) : Valuation τ sig (Elt F) := StableHlo.after hostOps2_1 (W9 m c)
theorem W10_def (c : Dev nD) : W10 m c = StableHlo.after hostOps2_1 (W9 m c) := rfl
def W11 (c : Dev nD) : Valuation τ sig (Elt F) := StableHlo.after hostOps2_2 (W10 m c)
theorem W11_def (c : Dev nD) : W11 m c = StableHlo.after hostOps2_2 (W10 m c) := rfl
def W12 (c : Dev nD) : Valuation τ sig (Elt F) := StableHlo.after hostOps2_3 (W11 m c)
theorem W12_def (c : Dev nD) : W12 m c = StableHlo.after hostOps2_3 (W11 m c) := rfl
def W13 (c : Dev nD) : Valuation τ sig (Elt F) := StableHlo.after hostOps2_4 (W12 m c)
theorem W13_def (c : Dev nD) : W13 m c = StableHlo.after hostOps2_4 (W12 m c) := rfl
/-- What region 2 leaves in `main_v105`. -/
def o14 (c : Dev nD) : Buf (Elt F) ((c : Thread nD τ).loc main_v105) := (dat2 (atTc (W13 m)) c).arrAt 4 cfg2.N
def W14 (c : Dev nD) : Valuation τ sig (Elt F) := Function.update (W13 m c) (Proc.devRef .tc main_v105) (o14 m c)
theorem W14_def (c : Dev nD) : W14 m c = Function.update (W13 m c) (Proc.devRef .tc main_v105) (o14 m c) := rfl
def W15 (c : Dev nD) : Valuation τ sig (Elt F) := StableHlo.after hostOps3 (W14 m c)
theorem W15_def (c : Dev nD) : W15 m c = StableHlo.after hostOps3 (W14 m c) := rfl
/-- What region 3 leaves in `main_v107`. -/
def o16 (c : Dev nD) : Buf (Elt F) ((c : Thread nD τ).loc main_v107) := (dat3 (atTc (W15 m)) c).arrAt 4 cfg3.N
def W16 (c : Dev nD) : Valuation τ sig (Elt F) := Function.update (W15 m c) (Proc.devRef .tc main_v107) (o16 m c)
theorem W16_def (c : Dev nD) : W16 m c = Function.update (W15 m c) (Proc.devRef .tc main_v107) (o16 m c) := rfl
def W17 (c : Dev nD) : Valuation τ sig (Elt F) := StableHlo.after hostOps4 (W16 m c)
theorem W17_def (c : Dev nD) : W17 m c = StableHlo.after hostOps4 (W16 m c) := rfl
/-- What region 4 leaves in `main_v140`. -/
def o18 (c : Dev nD) : Buf (Elt F) ((c : Thread nD τ).loc main_v140) := (dat4 (atTc (W17 m)) c).arrAt 3 cfg4.N
def W18 (c : Dev nD) : Valuation τ sig (Elt F) := Function.update (W17 m c) (Proc.devRef .tc main_v140) (o18 m c)
theorem W18_def (c : Dev nD) : W18 m c = Function.update (W17 m c) (Proc.devRef .tc main_v140) (o18 m c) := rfl
def W19 (c : Dev nD) : Valuation τ sig (Elt F) := StableHlo.after hostOps5 (W18 m c)
theorem W19_def (c : Dev nD) : W19 m c = StableHlo.after hostOps5 (W18 m c) := rfl
def W20 (c : Dev nD) : Valuation τ sig (Elt F) := StableHlo.after hostOps5_1 (W19 m c)
theorem W20_def (c : Dev nD) : W20 m c = StableHlo.after hostOps5_1 (W19 m c) := rfl
def W21 (c : Dev nD) : Valuation τ sig (Elt F) := StableHlo.after hostOps5_2 (W20 m c)
theorem W21_def (c : Dev nD) : W21 m c = StableHlo.after hostOps5_2 (W20 m c) := rfl
def W22 (c : Dev nD) : Valuation τ sig (Elt F) := StableHlo.after hostOps5_3 (W21 m c)
theorem W22_def (c : Dev nD) : W22 m c = StableHlo.after hostOps5_3 (W21 m c) := rfl
def W23 (c : Dev nD) : Valuation τ sig (Elt F) := StableHlo.after hostOps5_4 (W22 m c)
theorem W23_def (c : Dev nD) : W23 m c = StableHlo.after hostOps5_4 (W22 m c) := rfl
/-- What region 5 leaves in `main_v162`. -/
def o24 (c : Dev nD) : Buf (Elt F) ((c : Thread nD τ).loc main_v162) := (dat5 (atTc (W23 m)) c).arrAt 3 cfg5.N
def W24 (c : Dev nD) : Valuation τ sig (Elt F) := Function.update (W23 m c) (Proc.devRef .tc main_v162) (o24 m c)
theorem W24_def (c : Dev nD) : W24 m c = Function.update (W23 m c) (Proc.devRef .tc main_v162) (o24 m c) := rfl
def W25 (c : Dev nD) : Valuation τ sig (Elt F) := StableHlo.after hostOps6 (W24 m c)
theorem W25_def (c : Dev nD) : W25 m c = StableHlo.after hostOps6 (W24 m c) := rfl
def W26 (c : Dev nD) : Valuation τ sig (Elt F) := StableHlo.after hostOps6_1 (W25 m c)
theorem W26_def (c : Dev nD) : W26 m c = StableHlo.after hostOps6_1 (W25 m c) := rfl
def W27 (c : Dev nD) : Valuation τ sig (Elt F) := StableHlo.after hostOps6_2 (W26 m c)
theorem W27_def (c : Dev nD) : W27 m c = StableHlo.after hostOps6_2 (W26 m c) := rfl
def W28 (c : Dev nD) : Valuation τ sig (Elt F) := StableHlo.after hostOps6_3 (W27 m c)
theorem W28_def (c : Dev nD) : W28 m c = StableHlo.after hostOps6_3 (W27 m c) := rfl
def W29 (c : Dev nD) : Valuation τ sig (Elt F) := StableHlo.after hostOps6_4 (W28 m c)
theorem W29_def (c : Dev nD) : W29 m c = StableHlo.after hostOps6_4 (W28 m c) := rfl

/-- The regions' outputs as the conditional frame's unknowns: read at item `J`'s region, the contents named above. -/
def outsF : Outs (F := F) := fun J r c =>
  if J = 2 then W2 m c r else if J = 8 then W8 m c r else if J = 14 then W14 m c r else if J = 16 then W16 m c r
  else if J = 18 then W18 m c r else W24 m c r

theorem outsF_2 (c : Dev nD) : outsF m 2 main_v3 c = o2 m c := by
  unfold outsF; rw [if_pos rfl, W2_def]; exact upd_out _ _ _
theorem outsF_8 (c : Dev nD) : outsF m 8 main_v54 c = o8 m c := by
  unfold outsF; rw [if_neg (by decide), if_pos rfl, W8_def]; exact upd_out _ _ _
theorem outsF_14 (c : Dev nD) : outsF m 14 main_v105 c = o14 m c := by
  unfold outsF; rw [if_neg (by decide), if_neg (by decide), if_pos rfl, W14_def]; exact upd_out _ _ _
theorem outsF_16 (c : Dev nD) : outsF m 16 main_v107 c = o16 m c := by
  unfold outsF; rw [if_neg (by decide), if_neg (by decide), if_neg (by decide), if_pos rfl, W16_def]; exact upd_out _ _ _
theorem outsF_18 (c : Dev nD) : outsF m 18 main_v140 c = o18 m c := by
  unfold outsF; rw [if_neg (by decide), if_neg (by decide), if_neg (by decide), if_neg (by decide), if_pos rfl, W18_def]; exact upd_out _ _ _
theorem outsF_24 (c : Dev nD) : outsF m 24 main_v162 c = o24 m c := by
  unfold outsF; rw [if_neg (by decide), if_neg (by decide), if_neg (by decide), if_neg (by decide), if_neg (by decide), W24_def]; exact upd_out _ _ _

/-- The conditional frame's valuations at these outputs are the ones named here. -/
theorem V1_eq (c : Dev nD) : V1 m c = W1 m c := rfl
theorem V2_eq (c : Dev nD) : V2 m (outsF m) c = W2 m c := by rw [W2_def, ← V1_eq, ← outsF_2]
theorem V3_eq (c : Dev nD) : V3 m (outsF m) c = W3 m c := by rw [W3_def, ← V2_eq]
theorem V4_eq (c : Dev nD) : V4 m (outsF m) c = W4 m c := by rw [W4_def, ← V3_eq]
theorem V5_eq (c : Dev nD) : V5 m (outsF m) c = W5 m c := by rw [W5_def, ← V4_eq]
theorem V6_eq (c : Dev nD) : V6 m (outsF m) c = W6 m c := by rw [W6_def, ← V5_eq]
theorem V7_eq (c : Dev nD) : V7 m (outsF m) c = W7 m c := by rw [W7_def, ← V6_eq]
theorem V8_eq (c : Dev nD) : V8 m (outsF m) c = W8 m c := by rw [W8_def, ← V7_eq, ← outsF_8]
theorem V9_eq (c : Dev nD) : V9 m (outsF m) c = W9 m c := by rw [W9_def, ← V8_eq]
theorem V10_eq (c : Dev nD) : V10 m (outsF m) c = W10 m c := by rw [W10_def, ← V9_eq]
theorem V11_eq (c : Dev nD) : V11 m (outsF m) c = W11 m c := by rw [W11_def, ← V10_eq]
theorem V12_eq (c : Dev nD) : V12 m (outsF m) c = W12 m c := by rw [W12_def, ← V11_eq]
theorem V13_eq (c : Dev nD) : V13 m (outsF m) c = W13 m c := by rw [W13_def, ← V12_eq]
theorem V14_eq (c : Dev nD) : V14 m (outsF m) c = W14 m c := by rw [W14_def, ← V13_eq, ← outsF_14]
theorem V15_eq (c : Dev nD) : V15 m (outsF m) c = W15 m c := by rw [W15_def, ← V14_eq]
theorem V16_eq (c : Dev nD) : V16 m (outsF m) c = W16 m c := by rw [W16_def, ← V15_eq, ← outsF_16]
theorem V17_eq (c : Dev nD) : V17 m (outsF m) c = W17 m c := by rw [W17_def, ← V16_eq]
theorem V18_eq (c : Dev nD) : V18 m (outsF m) c = W18 m c := by rw [W18_def, ← V17_eq, ← outsF_18]
theorem V19_eq (c : Dev nD) : V19 m (outsF m) c = W19 m c := by rw [W19_def, ← V18_eq]
theorem V20_eq (c : Dev nD) : V20 m (outsF m) c = W20 m c := by rw [W20_def, ← V19_eq]
theorem V21_eq (c : Dev nD) : V21 m (outsF m) c = W21 m c := by rw [W21_def, ← V20_eq]
theorem V22_eq (c : Dev nD) : V22 m (outsF m) c = W22 m c := by rw [W22_def, ← V21_eq]
theorem V23_eq (c : Dev nD) : V23 m (outsF m) c = W23 m c := by rw [W23_def, ← V22_eq]
theorem V24_eq (c : Dev nD) : V24 m (outsF m) c = W24 m c := by rw [W24_def, ← V23_eq, ← outsF_24]
theorem V25_eq (c : Dev nD) : V25 m (outsF m) c = W25 m c := by rw [W25_def, ← V24_eq]
theorem V26_eq (c : Dev nD) : V26 m (outsF m) c = W26 m c := by rw [W26_def, ← V25_eq]
theorem V27_eq (c : Dev nD) : V27 m (outsF m) c = W27 m c := by rw [W27_def, ← V26_eq]
theorem V28_eq (c : Dev nD) : V28 m (outsF m) c = W28 m c := by rw [W28_def, ← V27_eq]
theorem V29_eq (c : Dev nD) : V29 m (outsF m) c = W29 m c := by rw [W29_def, ← V28_eq]

end Cert.KernelIdeal.Hand

end
-- ==== Proof.KI.Regs.lean ====
/-
  The six kernel regions of the program as segments of @main: each region is entered from every unscoped buffer at the
  contents before it and left at the contents after it, its arrays split out of the unscoped buffers at entry and put
  back at exit, the generator register (and, for the two accumulating regions, the scoped buffers) handed to the body's
  invariant and returned; no region owes anything or owns a semaphore.
-/
import proofs.«141825_j60318520705103_1_alg».proof.Proof.KI.Vals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

set_option maxHeartbeats 1000000

variable (m : (ℓ : Loc nD τ sig) → Buf (Elt F) ℓ) (ρ : Dev nD → PrngReg)

/-! ## The proof data family and the thread state -/

/-- Every region's proof data, each at the contents its region is entered with. -/
def pdats : (p : Fin 6) → (c : Dev nD) → Dat τ (Elt F) Unit ℕ (UR sig nD τ) ℕ (cfgs p) c
  | ⟨0, _⟩ => fun c => dat0 (atTc (W1 m)) c
  | ⟨1, _⟩ => fun c => dat1 (atTc (W7 m)) c
  | ⟨2, _⟩ => fun c => dat2 (atTc (W13 m)) c
  | ⟨3, _⟩ => fun c => dat3 (atTc (W15 m)) c
  | ⟨4, _⟩ => fun c => dat4 (atTc (W17 m)) c
  | ⟨5, _⟩ => fun c => dat5 (atTc (W23 m)) c

/-- No core owes another anything: no level is assigned. -/
abbrev L0 : GSem nD τ sig → Finset Unit := fun _ => ∅
abbrev lv0 : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-- Region 0's arrays after it: the inputs as entered, the output at what the write-backs leave. -/
theorem hF0 (c : Dev nD) : ∀ w, (dat0 (atTc (W1 m)) c).arrAt w cfg0.N = atTc (W2 m) c (Pipeline.arrRef spec0 w) := fun
  | ⟨0, _⟩ => by
      show _ = W2 m c (Proc.devRef .tc (Pipeline.arrRef spec0 0))
      rw [W2_def, upd_in (W1 m c) main_v3 (o2 m c) (Pipeline.arrRef spec0 0) (by decide)]
      exact ((dat0 (atTc (W1 m)) c).arrAt_in 0 rfl _).trans (A_eq0 (atTc (W1 m)) c 0)
  | ⟨1, _⟩ => by
      show _ = W2 m c (Proc.devRef .tc (Pipeline.arrRef spec0 1))
      rw [W2_def, upd_in (W1 m c) main_v3 (o2 m c) (Pipeline.arrRef spec0 1) (by decide)]
      exact ((dat0 (atTc (W1 m)) c).arrAt_in 1 rfl _).trans (A_eq0 (atTc (W1 m)) c 1)
  | ⟨2, _⟩ => by
      show _ = W2 m c (Proc.devRef .tc (Pipeline.arrRef spec0 2))
      rw [W2_def, upd_in (W1 m c) main_v3 (o2 m c) (Pipeline.arrRef spec0 2) (by decide)]
      exact ((dat0 (atTc (W1 m)) c).arrAt_in 2 rfl _).trans (A_eq0 (atTc (W1 m)) c 2)
  | ⟨3, _⟩ => by
      show _ = W2 m c (Proc.devRef .tc main_v3)
      rw [W2_def, upd_out (W1 m c) main_v3 (o2 m c)]; rfl
  | ⟨_ + 4, h⟩ => absurd h (Nat.not_lt.2 (Nat.le_add_left _ _))
theorem hrest0 (c : Dev nD) : ∀ b, b ∉ Finset.univ.image (Pipeline.arrRef spec0) → atTc (W2 m) c b = atTc (W1 m) c b := fun b hb => by
  show W2 m c (Proc.devRef .tc b) = W1 m c (Proc.devRef .tc b)
  rw [W2_def]
  exact upd_in (W1 m c) main_v3 (o2 m c) b fun e => hb (Finset.mem_image.mpr ⟨3, Finset.mem_univ _, e.symm⟩)

set_option backward.isDefEq.respectTransparency.types false in
/-- REGION 0 over the thread state: entered from every unscoped buffer at `W1`, left at `W2`; its arrays split out of
    the unscoped buffers and put back at the exit contents; the generator register into the body's invariant and
    out; nothing owed; no semaphore of the kernel's own. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L0 lv0 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays after it: the inputs as entered, the output at what the write-backs leave. -/
theorem hF1 (c : Dev nD) : ∀ w, (dat1 (atTc (W7 m)) c).arrAt w cfg1.N = atTc (W8 m) c (Pipeline.arrRef spec1 w) := fun
  | ⟨0, _⟩ => by
      show _ = W8 m c (Proc.devRef .tc (Pipeline.arrRef spec1 0))
      rw [W8_def, upd_in (W7 m c) main_v54 (o8 m c) (Pipeline.arrRef spec1 0) (by decide)]
      exact ((dat1 (atTc (W7 m)) c).arrAt_in 0 rfl _).trans (A_eq1 (atTc (W7 m)) c 0)
  | ⟨1, _⟩ => by
      show _ = W8 m c (Proc.devRef .tc (Pipeline.arrRef spec1 1))
      rw [W8_def, upd_in (W7 m c) main_v54 (o8 m c) (Pipeline.arrRef spec1 1) (by decide)]
      exact ((dat1 (atTc (W7 m)) c).arrAt_in 1 rfl _).trans (A_eq1 (atTc (W7 m)) c 1)
  | ⟨2, _⟩ => by
      show _ = W8 m c (Proc.devRef .tc (Pipeline.arrRef spec1 2))
      rw [W8_def, upd_in (W7 m c) main_v54 (o8 m c) (Pipeline.arrRef spec1 2) (by decide)]
      exact ((dat1 (atTc (W7 m)) c).arrAt_in 2 rfl _).trans (A_eq1 (atTc (W7 m)) c 2)
  | ⟨3, _⟩ => by
      show _ = W8 m c (Proc.devRef .tc main_v54)
      rw [W8_def, upd_out (W7 m c) main_v54 (o8 m c)]; rfl
  | ⟨_ + 4, h⟩ => absurd h (Nat.not_lt.2 (Nat.le_add_left _ _))
theorem hrest1 (c : Dev nD) : ∀ b, b ∉ Finset.univ.image (Pipeline.arrRef spec1) → atTc (W8 m) c b = atTc (W7 m) c b := fun b hb => by
  show W8 m c (Proc.devRef .tc b) = W7 m c (Proc.devRef .tc b)
  rw [W8_def]
  exact upd_in (W7 m c) main_v54 (o8 m c) b fun e => hb (Finset.mem_image.mpr ⟨3, Finset.mem_univ _, e.symm⟩)

set_option backward.isDefEq.respectTransparency.types false in
/-- REGION 1 over the thread state: entered from every unscoped buffer at `W7`, left at `W8`; its arrays split out of
    the unscoped buffers and put back at the exit contents; the generator register into the body's invariant and
    out; nothing owed; no semaphore of the kernel's own. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atTc (W7 m)) c).loose
  hwaits := Pipeline.hwaits_of_owed_zero _ _ _ _ L0 lv0 1 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (W7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W7 m) c) (atTc (W8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays after it: the inputs as entered, the output at what the write-backs leave. -/
theorem hF2 (c : Dev nD) : ∀ w, (dat2 (atTc (W13 m)) c).arrAt w cfg2.N = atTc (W14 m) c (Pipeline.arrRef spec2 w) := fun
  | ⟨0, _⟩ => by
      show _ = W14 m c (Proc.devRef .tc (Pipeline.arrRef spec2 0))
      rw [W14_def, upd_in (W13 m c) main_v105 (o14 m c) (Pipeline.arrRef spec2 0) (by decide)]
      exact ((dat2 (atTc (W13 m)) c).arrAt_in 0 rfl _).trans (A_eq2 (atTc (W13 m)) c 0)
  | ⟨1, _⟩ => by
      show _ = W14 m c (Proc.devRef .tc (Pipeline.arrRef spec2 1))
      rw [W14_def, upd_in (W13 m c) main_v105 (o14 m c) (Pipeline.arrRef spec2 1) (by decide)]
      exact ((dat2 (atTc (W13 m)) c).arrAt_in 1 rfl _).trans (A_eq2 (atTc (W13 m)) c 1)
  | ⟨2, _⟩ => by
      show _ = W14 m c (Proc.devRef .tc (Pipeline.arrRef spec2 2))
      rw [W14_def, upd_in (W13 m c) main_v105 (o14 m c) (Pipeline.arrRef spec2 2) (by decide)]
      exact ((dat2 (atTc (W13 m)) c).arrAt_in 2 rfl _).trans (A_eq2 (atTc (W13 m)) c 2)
  | ⟨3, _⟩ => by
      show _ = W14 m c (Proc.devRef .tc (Pipeline.arrRef spec2 3))
      rw [W14_def, upd_in (W13 m c) main_v105 (o14 m c) (Pipeline.arrRef spec2 3) (by decide)]
      exact ((dat2 (atTc (W13 m)) c).arrAt_in 3 rfl _).trans (A_eq2 (atTc (W13 m)) c 3)
  | ⟨4, _⟩ => by
      show _ = W14 m c (Proc.devRef .tc main_v105)
      rw [W14_def, upd_out (W13 m c) main_v105 (o14 m c)]; rfl
  | ⟨_ + 5, h⟩ => absurd h (Nat.not_lt.2 (Nat.le_add_left _ _))
theorem hrest2 (c : Dev nD) : ∀ b, b ∉ Finset.univ.image (Pipeline.arrRef spec2) → atTc (W14 m) c b = atTc (W13 m) c b := fun b hb => by
  show W14 m c (Proc.devRef .tc b) = W13 m c (Proc.devRef .tc b)
  rw [W14_def]
  exact upd_in (W13 m c) main_v105 (o14 m c) b fun e => hb (Finset.mem_image.mpr ⟨4, Finset.mem_univ _, e.symm⟩)

set_option backward.isDefEq.respectTransparency.types false in
/-- REGION 2 over the thread state: entered from every unscoped buffer at `W13`, left at `W14`; its arrays split out of
    the unscoped buffers and put back at the exit contents; the generator register and the scoped buffers into the body's invariant and
    out; nothing owed; no semaphore of the kernel's own. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (atTc (W13 m)) c).loose
  hwaits := Pipeline.hwaits_of_owed_zero _ _ _ _ L0 lv0 2 fun _ _ => rfl
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (W13 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (atTc (W13 m)) c).Φ 0 from rfl]
    iintro ⟨Hp, -, Hr⟩
    iapply (hin2 (atTc (W13 m)) c)
    isplitl [Hp]; · iexact Hp
    iexact Hr
  hout c := by
    rw [Pipeline.ownSems0_none, show (pdats m 2 c).Φ (Fin.last _) = (dat2 (atTc (W13 m)) c).Φ (Fin.last cfg2.N) from rfl]
    iintro H
    ihave H' := (hout2 (atTc (W13 m)) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W13 m) c) (atTc (W14 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3's arrays after it: the inputs as entered, the output at what the write-backs leave. -/
theorem hF3 (c : Dev nD) : ∀ w, (dat3 (atTc (W15 m)) c).arrAt w cfg3.N = atTc (W16 m) c (Pipeline.arrRef spec3 w) := fun
  | ⟨0, _⟩ => by
      show _ = W16 m c (Proc.devRef .tc (Pipeline.arrRef spec3 0))
      rw [W16_def, upd_in (W15 m c) main_v107 (o16 m c) (Pipeline.arrRef spec3 0) (by decide)]
      exact ((dat3 (atTc (W15 m)) c).arrAt_in 0 rfl _).trans (A_eq3 (atTc (W15 m)) c 0)
  | ⟨1, _⟩ => by
      show _ = W16 m c (Proc.devRef .tc (Pipeline.arrRef spec3 1))
      rw [W16_def, upd_in (W15 m c) main_v107 (o16 m c) (Pipeline.arrRef spec3 1) (by decide)]
      exact ((dat3 (atTc (W15 m)) c).arrAt_in 1 rfl _).trans (A_eq3 (atTc (W15 m)) c 1)
  | ⟨2, _⟩ => by
      show _ = W16 m c (Proc.devRef .tc (Pipeline.arrRef spec3 2))
      rw [W16_def, upd_in (W15 m c) main_v107 (o16 m c) (Pipeline.arrRef spec3 2) (by decide)]
      exact ((dat3 (atTc (W15 m)) c).arrAt_in 2 rfl _).trans (A_eq3 (atTc (W15 m)) c 2)
  | ⟨3, _⟩ => by
      show _ = W16 m c (Proc.devRef .tc (Pipeline.arrRef spec3 3))
      rw [W16_def, upd_in (W15 m c) main_v107 (o16 m c) (Pipeline.arrRef spec3 3) (by decide)]
      exact ((dat3 (atTc (W15 m)) c).arrAt_in 3 rfl _).trans (A_eq3 (atTc (W15 m)) c 3)
  | ⟨4, _⟩ => by
      show _ = W16 m c (Proc.devRef .tc main_v107)
      rw [W16_def, upd_out (W15 m c) main_v107 (o16 m c)]; rfl
  | ⟨_ + 5, h⟩ => absurd h (Nat.not_lt.2 (Nat.le_add_left _ _))
theorem hrest3 (c : Dev nD) : ∀ b, b ∉ Finset.univ.image (Pipeline.arrRef spec3) → atTc (W16 m) c b = atTc (W15 m) c b := fun b hb => by
  show W16 m c (Proc.devRef .tc b) = W15 m c (Proc.devRef .tc b)
  rw [W16_def]
  exact upd_in (W15 m c) main_v107 (o16 m c) b fun e => hb (Finset.mem_image.mpr ⟨4, Finset.mem_univ _, e.symm⟩)

set_option backward.isDefEq.respectTransparency.types false in
/-- REGION 3 over the thread state: entered from every unscoped buffer at `W15`, left at `W16`; its arrays split out of
    the unscoped buffers and put back at the exit contents; the generator register and the scoped buffers into the body's invariant and
    out; nothing owed; no semaphore of the kernel's own. -/
def reg3 : RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atTc (W15 m)) c).loose
  hwaits := Pipeline.hwaits_of_owed_zero _ _ _ _ L0 lv0 3 fun _ _ => rfl
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (W15 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (atTc (W15 m)) c).Φ 0 from rfl]
    iintro ⟨Hp, -, Hr⟩
    iapply (hin3 (atTc (W15 m)) c)
    isplitl [Hp]; · iexact Hp
    iexact Hr
  hout c := by
    rw [Pipeline.ownSems0_none, show (pdats m 3 c).Φ (Fin.last _) = (dat3 (atTc (W15 m)) c).Φ (Fin.last cfg3.N) from rfl]
    iintro H
    ihave H' := (hout3 (atTc (W15 m)) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W15 m) c) (atTc (W16 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 4's arrays after it: the inputs as entered, the output at what the write-backs leave. -/
theorem hF4 (c : Dev nD) : ∀ w, (dat4 (atTc (W17 m)) c).arrAt w cfg4.N = atTc (W18 m) c (Pipeline.arrRef spec4 w) := fun
  | ⟨0, _⟩ => by
      show _ = W18 m c (Proc.devRef .tc (Pipeline.arrRef spec4 0))
      rw [W18_def, upd_in (W17 m c) main_v140 (o18 m c) (Pipeline.arrRef spec4 0) (by decide)]
      exact ((dat4 (atTc (W17 m)) c).arrAt_in 0 rfl _).trans (A_eq4 (atTc (W17 m)) c 0)
  | ⟨1, _⟩ => by
      show _ = W18 m c (Proc.devRef .tc (Pipeline.arrRef spec4 1))
      rw [W18_def, upd_in (W17 m c) main_v140 (o18 m c) (Pipeline.arrRef spec4 1) (by decide)]
      exact ((dat4 (atTc (W17 m)) c).arrAt_in 1 rfl _).trans (A_eq4 (atTc (W17 m)) c 1)
  | ⟨2, _⟩ => by
      show _ = W18 m c (Proc.devRef .tc (Pipeline.arrRef spec4 2))
      rw [W18_def, upd_in (W17 m c) main_v140 (o18 m c) (Pipeline.arrRef spec4 2) (by decide)]
      exact ((dat4 (atTc (W17 m)) c).arrAt_in 2 rfl _).trans (A_eq4 (atTc (W17 m)) c 2)
  | ⟨3, _⟩ => by
      show _ = W18 m c (Proc.devRef .tc main_v140)
      rw [W18_def, upd_out (W17 m c) main_v140 (o18 m c)]; rfl
  | ⟨_ + 4, h⟩ => absurd h (Nat.not_lt.2 (Nat.le_add_left _ _))
theorem hrest4 (c : Dev nD) : ∀ b, b ∉ Finset.univ.image (Pipeline.arrRef spec4) → atTc (W18 m) c b = atTc (W17 m) c b := fun b hb => by
  show W18 m c (Proc.devRef .tc b) = W17 m c (Proc.devRef .tc b)
  rw [W18_def]
  exact upd_in (W17 m c) main_v140 (o18 m c) b fun e => hb (Finset.mem_image.mpr ⟨3, Finset.mem_univ _, e.symm⟩)

set_option backward.isDefEq.respectTransparency.types false in
/-- REGION 4 over the thread state: entered from every unscoped buffer at `W17`, left at `W18`; its arrays split out of
    the unscoped buffers and put back at the exit contents; the generator register into the body's invariant and
    out; nothing owed; no semaphore of the kernel's own. -/
def reg4 : RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atTc (W17 m)) c).loose
  hwaits := Pipeline.hwaits_of_owed_zero _ _ _ _ L0 lv0 4 fun _ _ => rfl
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (W17 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W17 m) c) (atTc (W18 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 5's arrays after it: the inputs as entered, the output at what the write-backs leave. -/
theorem hF5 (c : Dev nD) : ∀ w, (dat5 (atTc (W23 m)) c).arrAt w cfg5.N = atTc (W24 m) c (Pipeline.arrRef spec5 w) := fun
  | ⟨0, _⟩ => by
      show _ = W24 m c (Proc.devRef .tc (Pipeline.arrRef spec5 0))
      rw [W24_def, upd_in (W23 m c) main_v162 (o24 m c) (Pipeline.arrRef spec5 0) (by decide)]
      exact ((dat5 (atTc (W23 m)) c).arrAt_in 0 rfl _).trans (A_eq5 (atTc (W23 m)) c 0)
  | ⟨1, _⟩ => by
      show _ = W24 m c (Proc.devRef .tc (Pipeline.arrRef spec5 1))
      rw [W24_def, upd_in (W23 m c) main_v162 (o24 m c) (Pipeline.arrRef spec5 1) (by decide)]
      exact ((dat5 (atTc (W23 m)) c).arrAt_in 1 rfl _).trans (A_eq5 (atTc (W23 m)) c 1)
  | ⟨2, _⟩ => by
      show _ = W24 m c (Proc.devRef .tc (Pipeline.arrRef spec5 2))
      rw [W24_def, upd_in (W23 m c) main_v162 (o24 m c) (Pipeline.arrRef spec5 2) (by decide)]
      exact ((dat5 (atTc (W23 m)) c).arrAt_in 2 rfl _).trans (A_eq5 (atTc (W23 m)) c 2)
  | ⟨3, _⟩ => by
      show _ = W24 m c (Proc.devRef .tc main_v162)
      rw [W24_def, upd_out (W23 m c) main_v162 (o24 m c)]; rfl
  | ⟨_ + 4, h⟩ => absurd h (Nat.not_lt.2 (Nat.le_add_left _ _))
theorem hrest5 (c : Dev nD) : ∀ b, b ∉ Finset.univ.image (Pipeline.arrRef spec5) → atTc (W24 m) c b = atTc (W23 m) c b := fun b hb => by
  show W24 m c (Proc.devRef .tc b) = W23 m c (Proc.devRef .tc b)
  rw [W24_def]
  exact upd_in (W23 m c) main_v162 (o24 m c) b fun e => hb (Finset.mem_image.mpr ⟨3, Finset.mem_univ _, e.symm⟩)

set_option backward.isDefEq.respectTransparency.types false in
/-- REGION 5 over the thread state: entered from every unscoped buffer at `W23`, left at `W24`; its arrays split out of
    the unscoped buffers and put back at the exit contents; the generator register into the body's invariant and
    out; nothing owed; no semaphore of the kernel's own. -/
def reg5 : RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := (body_obligation5 (atTc (W23 m)) c).loose
  hwaits := Pipeline.hwaits_of_owed_zero _ _ _ _ L0 lv0 5 fun _ _ => rfl
  pre c := iprop(StableHlo.held (c : Thread nD τ) (Pipeline.ucRefs τ sig) (W23 m c) ∗ Rr c)
  post c := iprop(StableHlo.held (c : Thread nD τ) (Pipeline.ucRefs τ sig) (W24 m c) ∗ Rr c)
  X c := iprop(∃ r, prngReg c r)
  Y c := iprop(∃ r, prngReg c r)
  Z c := Pipeline.unscopedRest (Ix := Unit) (Name := ℕ) (U := UR sig nD τ) (Lvl := ℕ) spec5 c (atTc (W23 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (W23 m) c) (atTc (W24 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The kernel program's frame and its run with the result: every weakly fair execution of @main terminates, faults
  nowhere, leaves every argument array as launched, and leaves the result buffer at the last host stretch's value of it
  over what the regions left.
-/
import proofs.«141825_j60318520705103_1_alg».proof.Proof.KI.Regs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

set_option maxHeartbeats 1000000

variable (m : (ℓ : Loc nD τ sig) → Buf (Elt F) ℓ) (ρ : Dev nD → PrngReg)

/-! ## The launch -/

/-- The launch's ghost state: the cells' and the duty tokens' initial resource, owned through the user component. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the rest state: the generator register, and nothing owed. -/
theorem hE0 : (iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L0 lv0)
      ⊢ (|={Set.univ}=> bigSep Finset.univ (fun c : Dev nD => Rr c) : sProp 𝕄)) := by
  refine Pipeline.initEach L0 lv0 fun c => ?_
  iintro ⟨⟨-, HO, -, Hp, -⟩, -⟩
  imodintro
  isplitl [Hp]; · iexists _; iexact Hp
  iexists ∅; iexact HO

/-! ## The program's frame and its run with the result -/

set_option backward.isDefEq.respectTransparency.types false in
/-- Every weakly fair execution of @main terminates and leaves each argument array as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_cond (m := m) (EP := emb₁) (ι := ()) (𝒱₀ := Variants.none) (L := L0) (lv := lv0) (hL := fun _ _ => rfl) (ρ := ρ) (outs := outsF m) (pdats := pdats m)
    (O₀ := 0) (G := fun _ => iprop(emp)) (u₀ := initOf (Pipeline.cells cfgs cellOf_inj) (Pipeline.launchToks cfgs cellOf_inj)) (hu₀ := hu0)
    (E := fun _ c => Rr c) (hE0 := hE0 ρ) (hE6 := fun c => by iintro ⟨-, H⟩; iexact H)
    (R0 := reg0 m) (hpre0 := fun c => by rw [V1_eq]; exact .rfl) (hpost0 := fun c => by rw [V2_eq]; exact .rfl)
    (R1 := reg1 m) (hpre1 := fun c => by rw [V7_eq]; exact .rfl) (hpost1 := fun c => by rw [V8_eq]; exact .rfl)
    (R2 := reg2 m) (hpre2 := fun c => by rw [V13_eq]; exact .rfl) (hpost2 := fun c => by rw [V14_eq]; exact .rfl)
    (R3 := reg3 m) (hpre3 := fun c => by rw [V15_eq]; exact .rfl) (hpost3 := fun c => by rw [V16_eq]; exact .rfl)
    (R4 := reg4 m) (hpre4 := fun c => by rw [V17_eq]; exact .rfl) (hpost4 := fun c => by rw [V18_eq]; exact .rfl)
    (R5 := reg5 m) (hpre5 := fun c => by rw [V23_eq]; exact .rfl) (hpost5 := fun c => by rw [V24_eq]; exact .rfl)

set_option backward.isDefEq.respectTransparency.types false in
/-- Every weakly fair execution of @main terminates, leaves each argument array as launched, and leaves the result
    buffer at the last valuation's contents. -/
theorem run_value :
    θ_run defs (onTc (τ := τ) (main (F := F))) ⟨m, fun _ => 0, ρ⟩ (fun r => ∀ c : Dev nD,
      r.2.mem ((c.tc : Thread nD τ).loc main_v186) = W29 m c (Proc.devRef .tc main_v186) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => ⟨by rw [← V29_eq]; exact (h c).1, (h c).2⟩)
    (run_cond (m := m) (EP := emb₁) (ι := ()) (𝒱₀ := Variants.none) (L := L0) (lv := lv0) (hL := fun _ _ => rfl) (ρ := ρ) (outs := outsF m) (pdats := pdats m)
    (O₀ := 0) (G := fun _ => iprop(emp)) (u₀ := initOf (Pipeline.cells cfgs cellOf_inj) (Pipeline.launchToks cfgs cellOf_inj)) (hu₀ := hu0)
    (E := fun _ c => Rr c) (hE0 := hE0 ρ) (hE6 := fun c => by iintro ⟨-, H⟩; iexact H)
    (R0 := reg0 m) (hpre0 := fun c => by rw [V1_eq]; exact .rfl) (hpost0 := fun c => by rw [V2_eq]; exact .rfl)
    (R1 := reg1 m) (hpre1 := fun c => by rw [V7_eq]; exact .rfl) (hpost1 := fun c => by rw [V8_eq]; exact .rfl)
    (R2 := reg2 m) (hpre2 := fun c => by rw [V13_eq]; exact .rfl) (hpost2 := fun c => by rw [V14_eq]; exact .rfl)
    (R3 := reg3 m) (hpre3 := fun c => by rw [V15_eq]; exact .rfl) (hpost3 := fun c => by rw [V16_eq]; exact .rfl)
    (R4 := reg4 m) (hpre4 := fun c => by rw [V17_eq]; exact .rfl) (hpost4 := fun c => by rw [V18_eq]; exact .rfl)
    (R5 := reg5 m) (hpre5 := fun c => by rw [V23_eq]; exact .rfl) (hpost5 := fun c => by rw [V24_eq]; exact .rfl))

end Cert.KernelIdeal.Hand

end
-- ==== Proof.KI.Keep.lean ====
/-
  Which buffers an item of the kernel program leaves alone: every argument array holds its launch contents at every
  point between items, a stage's result is not written again before the later stage that reads it, and each region's
  output array holds what that region left.
-/
import proofs.«141825_j60318520705103_1_alg».proof.Proof.KI.Vals

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-! ## What an item leaves unchanged, at the named contents -/

theorem W1_of (c : Dev nD) (r : Ref sig .tc) (h : r ∉ hostOps0_W) : W1 m c (Proc.devRef .tc r) = V0 m c (Proc.devRef .tc r) := by
  rw [W1_def]; exact V1_of m c r h
theorem W2_of (c : Dev nD) (r : Ref sig .tc) (h : r ∉ ([main_v3] : List (Ref sig .tc))) : W2 m c (Proc.devRef .tc r) = W1 m c (Proc.devRef .tc r) := by
  rw [← V2_eq, ← V1_eq]; exact V2_of m (outsF m) c r h
theorem W3_of (c : Dev nD) (r : Ref sig .tc) (h : r ∉ hostOps1_W) : W3 m c (Proc.devRef .tc r) = W2 m c (Proc.devRef .tc r) := by
  rw [← V3_eq, ← V2_eq]; exact V3_of m (outsF m) c r h
theorem W4_of (c : Dev nD) (r : Ref sig .tc) (h : r ∉ hostOps1_1_W) : W4 m c (Proc.devRef .tc r) = W3 m c (Proc.devRef .tc r) := by
  rw [← V4_eq, ← V3_eq]; exact V4_of m (outsF m) c r h
theorem W5_of (c : Dev nD) (r : Ref sig .tc) (h : r ∉ hostOps1_2_W) : W5 m c (Proc.devRef .tc r) = W4 m c (Proc.devRef .tc r) := by
  rw [← V5_eq, ← V4_eq]; exact V5_of m (outsF m) c r h
theorem W6_of (c : Dev nD) (r : Ref sig .tc) (h : r ∉ hostOps1_3_W) : W6 m c (Proc.devRef .tc r) = W5 m c (Proc.devRef .tc r) := by
  rw [← V6_eq, ← V5_eq]; exact V6_of m (outsF m) c r h
theorem W7_of (c : Dev nD) (r : Ref sig .tc) (h : r ∉ hostOps1_4_W) : W7 m c (Proc.devRef .tc r) = W6 m c (Proc.devRef .tc r) := by
  rw [← V7_eq, ← V6_eq]; exact V7_of m (outsF m) c r h
theorem W8_of (c : Dev nD) (r : Ref sig .tc) (h : r ∉ ([main_v54] : List (Ref sig .tc))) : W8 m c (Proc.devRef .tc r) = W7 m c (Proc.devRef .tc r) := by
  rw [← V8_eq, ← V7_eq]; exact V8_of m (outsF m) c r h
theorem W9_of (c : Dev nD) (r : Ref sig .tc) (h : r ∉ hostOps2_W) : W9 m c (Proc.devRef .tc r) = W8 m c (Proc.devRef .tc r) := by
  rw [← V9_eq, ← V8_eq]; exact V9_of m (outsF m) c r h
theorem W10_of (c : Dev nD) (r : Ref sig .tc) (h : r ∉ hostOps2_1_W) : W10 m c (Proc.devRef .tc r) = W9 m c (Proc.devRef .tc r) := by
  rw [← V10_eq, ← V9_eq]; exact V10_of m (outsF m) c r h
theorem W11_of (c : Dev nD) (r : Ref sig .tc) (h : r ∉ hostOps2_2_W) : W11 m c (Proc.devRef .tc r) = W10 m c (Proc.devRef .tc r) := by
  rw [← V11_eq, ← V10_eq]; exact V11_of m (outsF m) c r h
theorem W12_of (c : Dev nD) (r : Ref sig .tc) (h : r ∉ hostOps2_3_W) : W12 m c (Proc.devRef .tc r) = W11 m c (Proc.devRef .tc r) := by
  rw [← V12_eq, ← V11_eq]; exact V12_of m (outsF m) c r h
theorem W13_of (c : Dev nD) (r : Ref sig .tc) (h : r ∉ hostOps2_4_W) : W13 m c (Proc.devRef .tc r) = W12 m c (Proc.devRef .tc r) := by
  rw [← V13_eq, ← V12_eq]; exact V13_of m (outsF m) c r h
theorem W14_of (c : Dev nD) (r : Ref sig .tc) (h : r ∉ ([main_v105] : List (Ref sig .tc))) : W14 m c (Proc.devRef .tc r) = W13 m c (Proc.devRef .tc r) := by
  rw [← V14_eq, ← V13_eq]; exact V14_of m (outsF m) c r h
theorem W15_of (c : Dev nD) (r : Ref sig .tc) (h : r ∉ hostOps3_W) : W15 m c (Proc.devRef .tc r) = W14 m c (Proc.devRef .tc r) := by
  rw [← V15_eq, ← V14_eq]; exact V15_of m (outsF m) c r h
theorem W16_of (c : Dev nD) (r : Ref sig .tc) (h : r ∉ ([main_v107] : List (Ref sig .tc))) : W16 m c (Proc.devRef .tc r) = W15 m c (Proc.devRef .tc r) := by
  rw [← V16_eq, ← V15_eq]; exact V16_of m (outsF m) c r h
theorem W17_of (c : Dev nD) (r : Ref sig .tc) (h : r ∉ hostOps4_W) : W17 m c (Proc.devRef .tc r) = W16 m c (Proc.devRef .tc r) := by
  rw [← V17_eq, ← V16_eq]; exact V17_of m (outsF m) c r h
theorem W18_of (c : Dev nD) (r : Ref sig .tc) (h : r ∉ ([main_v140] : List (Ref sig .tc))) : W18 m c (Proc.devRef .tc r) = W17 m c (Proc.devRef .tc r) := by
  rw [← V18_eq, ← V17_eq]; exact V18_of m (outsF m) c r h
theorem W19_of (c : Dev nD) (r : Ref sig .tc) (h : r ∉ hostOps5_W) : W19 m c (Proc.devRef .tc r) = W18 m c (Proc.devRef .tc r) := by
  rw [← V19_eq, ← V18_eq]; exact V19_of m (outsF m) c r h
theorem W20_of (c : Dev nD) (r : Ref sig .tc) (h : r ∉ hostOps5_1_W) : W20 m c (Proc.devRef .tc r) = W19 m c (Proc.devRef .tc r) := by
  rw [← V20_eq, ← V19_eq]; exact V20_of m (outsF m) c r h
theorem W21_of (c : Dev nD) (r : Ref sig .tc) (h : r ∉ hostOps5_2_W) : W21 m c (Proc.devRef .tc r) = W20 m c (Proc.devRef .tc r) := by
  rw [← V21_eq, ← V20_eq]; exact V21_of m (outsF m) c r h
theorem W22_of (c : Dev nD) (r : Ref sig .tc) (h : r ∉ hostOps5_3_W) : W22 m c (Proc.devRef .tc r) = W21 m c (Proc.devRef .tc r) := by
  rw [← V22_eq, ← V21_eq]; exact V22_of m (outsF m) c r h
theorem W23_of (c : Dev nD) (r : Ref sig .tc) (h : r ∉ hostOps5_4_W) : W23 m c (Proc.devRef .tc r) = W22 m c (Proc.devRef .tc r) := by
  rw [← V23_eq, ← V22_eq]; exact V23_of m (outsF m) c r h
theorem W24_of (c : Dev nD) (r : Ref sig .tc) (h : r ∉ ([main_v162] : List (Ref sig .tc))) : W24 m c (Proc.devRef .tc r) = W23 m c (Proc.devRef .tc r) := by
  rw [← V24_eq, ← V23_eq]; exact V24_of m (outsF m) c r h
theorem W25_of (c : Dev nD) (r : Ref sig .tc) (h : r ∉ hostOps6_W) : W25 m c (Proc.devRef .tc r) = W24 m c (Proc.devRef .tc r) := by
  rw [← V25_eq, ← V24_eq]; exact V25_of m (outsF m) c r h
theorem W26_of (c : Dev nD) (r : Ref sig .tc) (h : r ∉ hostOps6_1_W) : W26 m c (Proc.devRef .tc r) = W25 m c (Proc.devRef .tc r) := by
  rw [← V26_eq, ← V25_eq]; exact V26_of m (outsF m) c r h
theorem W27_of (c : Dev nD) (r : Ref sig .tc) (h : r ∉ hostOps6_2_W) : W27 m c (Proc.devRef .tc r) = W26 m c (Proc.devRef .tc r) := by
  rw [← V27_eq, ← V26_eq]; exact V27_of m (outsF m) c r h
theorem W28_of (c : Dev nD) (r : Ref sig .tc) (h : r ∉ hostOps6_3_W) : W28 m c (Proc.devRef .tc r) = W27 m c (Proc.devRef .tc r) := by
  rw [← V28_eq, ← V27_eq]; exact V28_of m (outsF m) c r h
theorem W29_of (c : Dev nD) (r : Ref sig .tc) (h : r ∉ hostOps6_4_W) : W29 m c (Proc.devRef .tc r) = W28 m c (Proc.devRef .tc r) := by
  rw [← V29_eq, ← V28_eq]; exact V29_of m (outsF m) c r h

/-! ## No item writes an argument -/

theorem W1_arg0 (c : Dev nD) : W1 m c (Proc.devRef .tc main_arg0) = m ((c : Thread nD τ).loc main_arg0) := W1_of m c main_arg0 (by decide)
theorem W2_arg0 (c : Dev nD) : W2 m c (Proc.devRef .tc main_arg0) = m ((c : Thread nD τ).loc main_arg0) := (W2_of m c main_arg0 (by decide)).trans (W1_arg0 m c)
theorem W3_arg0 (c : Dev nD) : W3 m c (Proc.devRef .tc main_arg0) = m ((c : Thread nD τ).loc main_arg0) := (W3_of m c main_arg0 (by decide)).trans (W2_arg0 m c)
theorem W4_arg0 (c : Dev nD) : W4 m c (Proc.devRef .tc main_arg0) = m ((c : Thread nD τ).loc main_arg0) := (W4_of m c main_arg0 (by decide)).trans (W3_arg0 m c)
theorem W5_arg0 (c : Dev nD) : W5 m c (Proc.devRef .tc main_arg0) = m ((c : Thread nD τ).loc main_arg0) := (W5_of m c main_arg0 (by decide)).trans (W4_arg0 m c)
theorem W6_arg0 (c : Dev nD) : W6 m c (Proc.devRef .tc main_arg0) = m ((c : Thread nD τ).loc main_arg0) := (W6_of m c main_arg0 (by decide)).trans (W5_arg0 m c)
theorem W7_arg0 (c : Dev nD) : W7 m c (Proc.devRef .tc main_arg0) = m ((c : Thread nD τ).loc main_arg0) := (W7_of m c main_arg0 (by decide)).trans (W6_arg0 m c)
theorem W8_arg0 (c : Dev nD) : W8 m c (Proc.devRef .tc main_arg0) = m ((c : Thread nD τ).loc main_arg0) := (W8_of m c main_arg0 (by decide)).trans (W7_arg0 m c)
theorem W9_arg0 (c : Dev nD) : W9 m c (Proc.devRef .tc main_arg0) = m ((c : Thread nD τ).loc main_arg0) := (W9_of m c main_arg0 (by decide)).trans (W8_arg0 m c)
theorem W10_arg0 (c : Dev nD) : W10 m c (Proc.devRef .tc main_arg0) = m ((c : Thread nD τ).loc main_arg0) := (W10_of m c main_arg0 (by decide)).trans (W9_arg0 m c)
theorem W11_arg0 (c : Dev nD) : W11 m c (Proc.devRef .tc main_arg0) = m ((c : Thread nD τ).loc main_arg0) := (W11_of m c main_arg0 (by decide)).trans (W10_arg0 m c)
theorem W12_arg0 (c : Dev nD) : W12 m c (Proc.devRef .tc main_arg0) = m ((c : Thread nD τ).loc main_arg0) := (W12_of m c main_arg0 (by decide)).trans (W11_arg0 m c)
theorem W13_arg0 (c : Dev nD) : W13 m c (Proc.devRef .tc main_arg0) = m ((c : Thread nD τ).loc main_arg0) := (W13_of m c main_arg0 (by decide)).trans (W12_arg0 m c)
theorem W14_arg0 (c : Dev nD) : W14 m c (Proc.devRef .tc main_arg0) = m ((c : Thread nD τ).loc main_arg0) := (W14_of m c main_arg0 (by decide)).trans (W13_arg0 m c)
theorem W15_arg0 (c : Dev nD) : W15 m c (Proc.devRef .tc main_arg0) = m ((c : Thread nD τ).loc main_arg0) := (W15_of m c main_arg0 (by decide)).trans (W14_arg0 m c)
theorem W16_arg0 (c : Dev nD) : W16 m c (Proc.devRef .tc main_arg0) = m ((c : Thread nD τ).loc main_arg0) := (W16_of m c main_arg0 (by decide)).trans (W15_arg0 m c)
theorem W17_arg0 (c : Dev nD) : W17 m c (Proc.devRef .tc main_arg0) = m ((c : Thread nD τ).loc main_arg0) := (W17_of m c main_arg0 (by decide)).trans (W16_arg0 m c)
theorem W18_arg0 (c : Dev nD) : W18 m c (Proc.devRef .tc main_arg0) = m ((c : Thread nD τ).loc main_arg0) := (W18_of m c main_arg0 (by decide)).trans (W17_arg0 m c)
theorem W19_arg0 (c : Dev nD) : W19 m c (Proc.devRef .tc main_arg0) = m ((c : Thread nD τ).loc main_arg0) := (W19_of m c main_arg0 (by decide)).trans (W18_arg0 m c)
theorem W20_arg0 (c : Dev nD) : W20 m c (Proc.devRef .tc main_arg0) = m ((c : Thread nD τ).loc main_arg0) := (W20_of m c main_arg0 (by decide)).trans (W19_arg0 m c)
theorem W21_arg0 (c : Dev nD) : W21 m c (Proc.devRef .tc main_arg0) = m ((c : Thread nD τ).loc main_arg0) := (W21_of m c main_arg0 (by decide)).trans (W20_arg0 m c)
theorem W22_arg0 (c : Dev nD) : W22 m c (Proc.devRef .tc main_arg0) = m ((c : Thread nD τ).loc main_arg0) := (W22_of m c main_arg0 (by decide)).trans (W21_arg0 m c)
theorem W23_arg0 (c : Dev nD) : W23 m c (Proc.devRef .tc main_arg0) = m ((c : Thread nD τ).loc main_arg0) := (W23_of m c main_arg0 (by decide)).trans (W22_arg0 m c)
theorem W24_arg0 (c : Dev nD) : W24 m c (Proc.devRef .tc main_arg0) = m ((c : Thread nD τ).loc main_arg0) := (W24_of m c main_arg0 (by decide)).trans (W23_arg0 m c)
theorem W25_arg0 (c : Dev nD) : W25 m c (Proc.devRef .tc main_arg0) = m ((c : Thread nD τ).loc main_arg0) := (W25_of m c main_arg0 (by decide)).trans (W24_arg0 m c)
theorem W26_arg0 (c : Dev nD) : W26 m c (Proc.devRef .tc main_arg0) = m ((c : Thread nD τ).loc main_arg0) := (W26_of m c main_arg0 (by decide)).trans (W25_arg0 m c)
theorem W27_arg0 (c : Dev nD) : W27 m c (Proc.devRef .tc main_arg0) = m ((c : Thread nD τ).loc main_arg0) := (W27_of m c main_arg0 (by decide)).trans (W26_arg0 m c)
theorem W28_arg0 (c : Dev nD) : W28 m c (Proc.devRef .tc main_arg0) = m ((c : Thread nD τ).loc main_arg0) := (W28_of m c main_arg0 (by decide)).trans (W27_arg0 m c)
theorem W29_arg0 (c : Dev nD) : W29 m c (Proc.devRef .tc main_arg0) = m ((c : Thread nD τ).loc main_arg0) := (W29_of m c main_arg0 (by decide)).trans (W28_arg0 m c)
theorem W1_arg1 (c : Dev nD) : W1 m c (Proc.devRef .tc main_arg1) = m ((c : Thread nD τ).loc main_arg1) := W1_of m c main_arg1 (by decide)
theorem W2_arg1 (c : Dev nD) : W2 m c (Proc.devRef .tc main_arg1) = m ((c : Thread nD τ).loc main_arg1) := (W2_of m c main_arg1 (by decide)).trans (W1_arg1 m c)
theorem W3_arg1 (c : Dev nD) : W3 m c (Proc.devRef .tc main_arg1) = m ((c : Thread nD τ).loc main_arg1) := (W3_of m c main_arg1 (by decide)).trans (W2_arg1 m c)
theorem W4_arg1 (c : Dev nD) : W4 m c (Proc.devRef .tc main_arg1) = m ((c : Thread nD τ).loc main_arg1) := (W4_of m c main_arg1 (by decide)).trans (W3_arg1 m c)
theorem W5_arg1 (c : Dev nD) : W5 m c (Proc.devRef .tc main_arg1) = m ((c : Thread nD τ).loc main_arg1) := (W5_of m c main_arg1 (by decide)).trans (W4_arg1 m c)
theorem W6_arg1 (c : Dev nD) : W6 m c (Proc.devRef .tc main_arg1) = m ((c : Thread nD τ).loc main_arg1) := (W6_of m c main_arg1 (by decide)).trans (W5_arg1 m c)
theorem W7_arg1 (c : Dev nD) : W7 m c (Proc.devRef .tc main_arg1) = m ((c : Thread nD τ).loc main_arg1) := (W7_of m c main_arg1 (by decide)).trans (W6_arg1 m c)
theorem W8_arg1 (c : Dev nD) : W8 m c (Proc.devRef .tc main_arg1) = m ((c : Thread nD τ).loc main_arg1) := (W8_of m c main_arg1 (by decide)).trans (W7_arg1 m c)
theorem W9_arg1 (c : Dev nD) : W9 m c (Proc.devRef .tc main_arg1) = m ((c : Thread nD τ).loc main_arg1) := (W9_of m c main_arg1 (by decide)).trans (W8_arg1 m c)
theorem W10_arg1 (c : Dev nD) : W10 m c (Proc.devRef .tc main_arg1) = m ((c : Thread nD τ).loc main_arg1) := (W10_of m c main_arg1 (by decide)).trans (W9_arg1 m c)
theorem W11_arg1 (c : Dev nD) : W11 m c (Proc.devRef .tc main_arg1) = m ((c : Thread nD τ).loc main_arg1) := (W11_of m c main_arg1 (by decide)).trans (W10_arg1 m c)
theorem W12_arg1 (c : Dev nD) : W12 m c (Proc.devRef .tc main_arg1) = m ((c : Thread nD τ).loc main_arg1) := (W12_of m c main_arg1 (by decide)).trans (W11_arg1 m c)
theorem W13_arg1 (c : Dev nD) : W13 m c (Proc.devRef .tc main_arg1) = m ((c : Thread nD τ).loc main_arg1) := (W13_of m c main_arg1 (by decide)).trans (W12_arg1 m c)
theorem W14_arg1 (c : Dev nD) : W14 m c (Proc.devRef .tc main_arg1) = m ((c : Thread nD τ).loc main_arg1) := (W14_of m c main_arg1 (by decide)).trans (W13_arg1 m c)
theorem W15_arg1 (c : Dev nD) : W15 m c (Proc.devRef .tc main_arg1) = m ((c : Thread nD τ).loc main_arg1) := (W15_of m c main_arg1 (by decide)).trans (W14_arg1 m c)
theorem W16_arg1 (c : Dev nD) : W16 m c (Proc.devRef .tc main_arg1) = m ((c : Thread nD τ).loc main_arg1) := (W16_of m c main_arg1 (by decide)).trans (W15_arg1 m c)
theorem W17_arg1 (c : Dev nD) : W17 m c (Proc.devRef .tc main_arg1) = m ((c : Thread nD τ).loc main_arg1) := (W17_of m c main_arg1 (by decide)).trans (W16_arg1 m c)
theorem W18_arg1 (c : Dev nD) : W18 m c (Proc.devRef .tc main_arg1) = m ((c : Thread nD τ).loc main_arg1) := (W18_of m c main_arg1 (by decide)).trans (W17_arg1 m c)
theorem W19_arg1 (c : Dev nD) : W19 m c (Proc.devRef .tc main_arg1) = m ((c : Thread nD τ).loc main_arg1) := (W19_of m c main_arg1 (by decide)).trans (W18_arg1 m c)
theorem W20_arg1 (c : Dev nD) : W20 m c (Proc.devRef .tc main_arg1) = m ((c : Thread nD τ).loc main_arg1) := (W20_of m c main_arg1 (by decide)).trans (W19_arg1 m c)
theorem W21_arg1 (c : Dev nD) : W21 m c (Proc.devRef .tc main_arg1) = m ((c : Thread nD τ).loc main_arg1) := (W21_of m c main_arg1 (by decide)).trans (W20_arg1 m c)
theorem W22_arg1 (c : Dev nD) : W22 m c (Proc.devRef .tc main_arg1) = m ((c : Thread nD τ).loc main_arg1) := (W22_of m c main_arg1 (by decide)).trans (W21_arg1 m c)
theorem W23_arg1 (c : Dev nD) : W23 m c (Proc.devRef .tc main_arg1) = m ((c : Thread nD τ).loc main_arg1) := (W23_of m c main_arg1 (by decide)).trans (W22_arg1 m c)
theorem W24_arg1 (c : Dev nD) : W24 m c (Proc.devRef .tc main_arg1) = m ((c : Thread nD τ).loc main_arg1) := (W24_of m c main_arg1 (by decide)).trans (W23_arg1 m c)
theorem W25_arg1 (c : Dev nD) : W25 m c (Proc.devRef .tc main_arg1) = m ((c : Thread nD τ).loc main_arg1) := (W25_of m c main_arg1 (by decide)).trans (W24_arg1 m c)
theorem W26_arg1 (c : Dev nD) : W26 m c (Proc.devRef .tc main_arg1) = m ((c : Thread nD τ).loc main_arg1) := (W26_of m c main_arg1 (by decide)).trans (W25_arg1 m c)
theorem W27_arg1 (c : Dev nD) : W27 m c (Proc.devRef .tc main_arg1) = m ((c : Thread nD τ).loc main_arg1) := (W27_of m c main_arg1 (by decide)).trans (W26_arg1 m c)
theorem W28_arg1 (c : Dev nD) : W28 m c (Proc.devRef .tc main_arg1) = m ((c : Thread nD τ).loc main_arg1) := (W28_of m c main_arg1 (by decide)).trans (W27_arg1 m c)
theorem W29_arg1 (c : Dev nD) : W29 m c (Proc.devRef .tc main_arg1) = m ((c : Thread nD τ).loc main_arg1) := (W29_of m c main_arg1 (by decide)).trans (W28_arg1 m c)
theorem W1_arg2 (c : Dev nD) : W1 m c (Proc.devRef .tc main_arg2) = m ((c : Thread nD τ).loc main_arg2) := W1_of m c main_arg2 (by decide)
theorem W2_arg2 (c : Dev nD) : W2 m c (Proc.devRef .tc main_arg2) = m ((c : Thread nD τ).loc main_arg2) := (W2_of m c main_arg2 (by decide)).trans (W1_arg2 m c)
theorem W3_arg2 (c : Dev nD) : W3 m c (Proc.devRef .tc main_arg2) = m ((c : Thread nD τ).loc main_arg2) := (W3_of m c main_arg2 (by decide)).trans (W2_arg2 m c)
theorem W4_arg2 (c : Dev nD) : W4 m c (Proc.devRef .tc main_arg2) = m ((c : Thread nD τ).loc main_arg2) := (W4_of m c main_arg2 (by decide)).trans (W3_arg2 m c)
theorem W5_arg2 (c : Dev nD) : W5 m c (Proc.devRef .tc main_arg2) = m ((c : Thread nD τ).loc main_arg2) := (W5_of m c main_arg2 (by decide)).trans (W4_arg2 m c)
theorem W6_arg2 (c : Dev nD) : W6 m c (Proc.devRef .tc main_arg2) = m ((c : Thread nD τ).loc main_arg2) := (W6_of m c main_arg2 (by decide)).trans (W5_arg2 m c)
theorem W7_arg2 (c : Dev nD) : W7 m c (Proc.devRef .tc main_arg2) = m ((c : Thread nD τ).loc main_arg2) := (W7_of m c main_arg2 (by decide)).trans (W6_arg2 m c)
theorem W8_arg2 (c : Dev nD) : W8 m c (Proc.devRef .tc main_arg2) = m ((c : Thread nD τ).loc main_arg2) := (W8_of m c main_arg2 (by decide)).trans (W7_arg2 m c)
theorem W9_arg2 (c : Dev nD) : W9 m c (Proc.devRef .tc main_arg2) = m ((c : Thread nD τ).loc main_arg2) := (W9_of m c main_arg2 (by decide)).trans (W8_arg2 m c)
theorem W10_arg2 (c : Dev nD) : W10 m c (Proc.devRef .tc main_arg2) = m ((c : Thread nD τ).loc main_arg2) := (W10_of m c main_arg2 (by decide)).trans (W9_arg2 m c)
theorem W11_arg2 (c : Dev nD) : W11 m c (Proc.devRef .tc main_arg2) = m ((c : Thread nD τ).loc main_arg2) := (W11_of m c main_arg2 (by decide)).trans (W10_arg2 m c)
theorem W12_arg2 (c : Dev nD) : W12 m c (Proc.devRef .tc main_arg2) = m ((c : Thread nD τ).loc main_arg2) := (W12_of m c main_arg2 (by decide)).trans (W11_arg2 m c)
theorem W13_arg2 (c : Dev nD) : W13 m c (Proc.devRef .tc main_arg2) = m ((c : Thread nD τ).loc main_arg2) := (W13_of m c main_arg2 (by decide)).trans (W12_arg2 m c)
theorem W14_arg2 (c : Dev nD) : W14 m c (Proc.devRef .tc main_arg2) = m ((c : Thread nD τ).loc main_arg2) := (W14_of m c main_arg2 (by decide)).trans (W13_arg2 m c)
theorem W15_arg2 (c : Dev nD) : W15 m c (Proc.devRef .tc main_arg2) = m ((c : Thread nD τ).loc main_arg2) := (W15_of m c main_arg2 (by decide)).trans (W14_arg2 m c)
theorem W16_arg2 (c : Dev nD) : W16 m c (Proc.devRef .tc main_arg2) = m ((c : Thread nD τ).loc main_arg2) := (W16_of m c main_arg2 (by decide)).trans (W15_arg2 m c)
theorem W17_arg2 (c : Dev nD) : W17 m c (Proc.devRef .tc main_arg2) = m ((c : Thread nD τ).loc main_arg2) := (W17_of m c main_arg2 (by decide)).trans (W16_arg2 m c)
theorem W18_arg2 (c : Dev nD) : W18 m c (Proc.devRef .tc main_arg2) = m ((c : Thread nD τ).loc main_arg2) := (W18_of m c main_arg2 (by decide)).trans (W17_arg2 m c)
theorem W19_arg2 (c : Dev nD) : W19 m c (Proc.devRef .tc main_arg2) = m ((c : Thread nD τ).loc main_arg2) := (W19_of m c main_arg2 (by decide)).trans (W18_arg2 m c)
theorem W20_arg2 (c : Dev nD) : W20 m c (Proc.devRef .tc main_arg2) = m ((c : Thread nD τ).loc main_arg2) := (W20_of m c main_arg2 (by decide)).trans (W19_arg2 m c)
theorem W21_arg2 (c : Dev nD) : W21 m c (Proc.devRef .tc main_arg2) = m ((c : Thread nD τ).loc main_arg2) := (W21_of m c main_arg2 (by decide)).trans (W20_arg2 m c)
theorem W22_arg2 (c : Dev nD) : W22 m c (Proc.devRef .tc main_arg2) = m ((c : Thread nD τ).loc main_arg2) := (W22_of m c main_arg2 (by decide)).trans (W21_arg2 m c)
theorem W23_arg2 (c : Dev nD) : W23 m c (Proc.devRef .tc main_arg2) = m ((c : Thread nD τ).loc main_arg2) := (W23_of m c main_arg2 (by decide)).trans (W22_arg2 m c)
theorem W24_arg2 (c : Dev nD) : W24 m c (Proc.devRef .tc main_arg2) = m ((c : Thread nD τ).loc main_arg2) := (W24_of m c main_arg2 (by decide)).trans (W23_arg2 m c)
theorem W25_arg2 (c : Dev nD) : W25 m c (Proc.devRef .tc main_arg2) = m ((c : Thread nD τ).loc main_arg2) := (W25_of m c main_arg2 (by decide)).trans (W24_arg2 m c)
theorem W26_arg2 (c : Dev nD) : W26 m c (Proc.devRef .tc main_arg2) = m ((c : Thread nD τ).loc main_arg2) := (W26_of m c main_arg2 (by decide)).trans (W25_arg2 m c)
theorem W27_arg2 (c : Dev nD) : W27 m c (Proc.devRef .tc main_arg2) = m ((c : Thread nD τ).loc main_arg2) := (W27_of m c main_arg2 (by decide)).trans (W26_arg2 m c)
theorem W28_arg2 (c : Dev nD) : W28 m c (Proc.devRef .tc main_arg2) = m ((c : Thread nD τ).loc main_arg2) := (W28_of m c main_arg2 (by decide)).trans (W27_arg2 m c)
theorem W29_arg2 (c : Dev nD) : W29 m c (Proc.devRef .tc main_arg2) = m ((c : Thread nD τ).loc main_arg2) := (W29_of m c main_arg2 (by decide)).trans (W28_arg2 m c)
theorem W1_arg3 (c : Dev nD) : W1 m c (Proc.devRef .tc main_arg3) = m ((c : Thread nD τ).loc main_arg3) := W1_of m c main_arg3 (by decide)
theorem W2_arg3 (c : Dev nD) : W2 m c (Proc.devRef .tc main_arg3) = m ((c : Thread nD τ).loc main_arg3) := (W2_of m c main_arg3 (by decide)).trans (W1_arg3 m c)
theorem W3_arg3 (c : Dev nD) : W3 m c (Proc.devRef .tc main_arg3) = m ((c : Thread nD τ).loc main_arg3) := (W3_of m c main_arg3 (by decide)).trans (W2_arg3 m c)
theorem W4_arg3 (c : Dev nD) : W4 m c (Proc.devRef .tc main_arg3) = m ((c : Thread nD τ).loc main_arg3) := (W4_of m c main_arg3 (by decide)).trans (W3_arg3 m c)
theorem W5_arg3 (c : Dev nD) : W5 m c (Proc.devRef .tc main_arg3) = m ((c : Thread nD τ).loc main_arg3) := (W5_of m c main_arg3 (by decide)).trans (W4_arg3 m c)
theorem W6_arg3 (c : Dev nD) : W6 m c (Proc.devRef .tc main_arg3) = m ((c : Thread nD τ).loc main_arg3) := (W6_of m c main_arg3 (by decide)).trans (W5_arg3 m c)
theorem W7_arg3 (c : Dev nD) : W7 m c (Proc.devRef .tc main_arg3) = m ((c : Thread nD τ).loc main_arg3) := (W7_of m c main_arg3 (by decide)).trans (W6_arg3 m c)
theorem W8_arg3 (c : Dev nD) : W8 m c (Proc.devRef .tc main_arg3) = m ((c : Thread nD τ).loc main_arg3) := (W8_of m c main_arg3 (by decide)).trans (W7_arg3 m c)
theorem W9_arg3 (c : Dev nD) : W9 m c (Proc.devRef .tc main_arg3) = m ((c : Thread nD τ).loc main_arg3) := (W9_of m c main_arg3 (by decide)).trans (W8_arg3 m c)
theorem W10_arg3 (c : Dev nD) : W10 m c (Proc.devRef .tc main_arg3) = m ((c : Thread nD τ).loc main_arg3) := (W10_of m c main_arg3 (by decide)).trans (W9_arg3 m c)
theorem W11_arg3 (c : Dev nD) : W11 m c (Proc.devRef .tc main_arg3) = m ((c : Thread nD τ).loc main_arg3) := (W11_of m c main_arg3 (by decide)).trans (W10_arg3 m c)
theorem W12_arg3 (c : Dev nD) : W12 m c (Proc.devRef .tc main_arg3) = m ((c : Thread nD τ).loc main_arg3) := (W12_of m c main_arg3 (by decide)).trans (W11_arg3 m c)
theorem W13_arg3 (c : Dev nD) : W13 m c (Proc.devRef .tc main_arg3) = m ((c : Thread nD τ).loc main_arg3) := (W13_of m c main_arg3 (by decide)).trans (W12_arg3 m c)
theorem W14_arg3 (c : Dev nD) : W14 m c (Proc.devRef .tc main_arg3) = m ((c : Thread nD τ).loc main_arg3) := (W14_of m c main_arg3 (by decide)).trans (W13_arg3 m c)
theorem W15_arg3 (c : Dev nD) : W15 m c (Proc.devRef .tc main_arg3) = m ((c : Thread nD τ).loc main_arg3) := (W15_of m c main_arg3 (by decide)).trans (W14_arg3 m c)
theorem W16_arg3 (c : Dev nD) : W16 m c (Proc.devRef .tc main_arg3) = m ((c : Thread nD τ).loc main_arg3) := (W16_of m c main_arg3 (by decide)).trans (W15_arg3 m c)
theorem W17_arg3 (c : Dev nD) : W17 m c (Proc.devRef .tc main_arg3) = m ((c : Thread nD τ).loc main_arg3) := (W17_of m c main_arg3 (by decide)).trans (W16_arg3 m c)
theorem W18_arg3 (c : Dev nD) : W18 m c (Proc.devRef .tc main_arg3) = m ((c : Thread nD τ).loc main_arg3) := (W18_of m c main_arg3 (by decide)).trans (W17_arg3 m c)
theorem W19_arg3 (c : Dev nD) : W19 m c (Proc.devRef .tc main_arg3) = m ((c : Thread nD τ).loc main_arg3) := (W19_of m c main_arg3 (by decide)).trans (W18_arg3 m c)
theorem W20_arg3 (c : Dev nD) : W20 m c (Proc.devRef .tc main_arg3) = m ((c : Thread nD τ).loc main_arg3) := (W20_of m c main_arg3 (by decide)).trans (W19_arg3 m c)
theorem W21_arg3 (c : Dev nD) : W21 m c (Proc.devRef .tc main_arg3) = m ((c : Thread nD τ).loc main_arg3) := (W21_of m c main_arg3 (by decide)).trans (W20_arg3 m c)
theorem W22_arg3 (c : Dev nD) : W22 m c (Proc.devRef .tc main_arg3) = m ((c : Thread nD τ).loc main_arg3) := (W22_of m c main_arg3 (by decide)).trans (W21_arg3 m c)
theorem W23_arg3 (c : Dev nD) : W23 m c (Proc.devRef .tc main_arg3) = m ((c : Thread nD τ).loc main_arg3) := (W23_of m c main_arg3 (by decide)).trans (W22_arg3 m c)
theorem W24_arg3 (c : Dev nD) : W24 m c (Proc.devRef .tc main_arg3) = m ((c : Thread nD τ).loc main_arg3) := (W24_of m c main_arg3 (by decide)).trans (W23_arg3 m c)
theorem W25_arg3 (c : Dev nD) : W25 m c (Proc.devRef .tc main_arg3) = m ((c : Thread nD τ).loc main_arg3) := (W25_of m c main_arg3 (by decide)).trans (W24_arg3 m c)
theorem W26_arg3 (c : Dev nD) : W26 m c (Proc.devRef .tc main_arg3) = m ((c : Thread nD τ).loc main_arg3) := (W26_of m c main_arg3 (by decide)).trans (W25_arg3 m c)
theorem W27_arg3 (c : Dev nD) : W27 m c (Proc.devRef .tc main_arg3) = m ((c : Thread nD τ).loc main_arg3) := (W27_of m c main_arg3 (by decide)).trans (W26_arg3 m c)
theorem W28_arg3 (c : Dev nD) : W28 m c (Proc.devRef .tc main_arg3) = m ((c : Thread nD τ).loc main_arg3) := (W28_of m c main_arg3 (by decide)).trans (W27_arg3 m c)
theorem W29_arg3 (c : Dev nD) : W29 m c (Proc.devRef .tc main_arg3) = m ((c : Thread nD τ).loc main_arg3) := (W29_of m c main_arg3 (by decide)).trans (W28_arg3 m c)
theorem W1_arg4 (c : Dev nD) : W1 m c (Proc.devRef .tc main_arg4) = m ((c : Thread nD τ).loc main_arg4) := W1_of m c main_arg4 (by decide)
theorem W2_arg4 (c : Dev nD) : W2 m c (Proc.devRef .tc main_arg4) = m ((c : Thread nD τ).loc main_arg4) := (W2_of m c main_arg4 (by decide)).trans (W1_arg4 m c)
theorem W3_arg4 (c : Dev nD) : W3 m c (Proc.devRef .tc main_arg4) = m ((c : Thread nD τ).loc main_arg4) := (W3_of m c main_arg4 (by decide)).trans (W2_arg4 m c)
theorem W4_arg4 (c : Dev nD) : W4 m c (Proc.devRef .tc main_arg4) = m ((c : Thread nD τ).loc main_arg4) := (W4_of m c main_arg4 (by decide)).trans (W3_arg4 m c)
theorem W5_arg4 (c : Dev nD) : W5 m c (Proc.devRef .tc main_arg4) = m ((c : Thread nD τ).loc main_arg4) := (W5_of m c main_arg4 (by decide)).trans (W4_arg4 m c)
theorem W6_arg4 (c : Dev nD) : W6 m c (Proc.devRef .tc main_arg4) = m ((c : Thread nD τ).loc main_arg4) := (W6_of m c main_arg4 (by decide)).trans (W5_arg4 m c)
theorem W7_arg4 (c : Dev nD) : W7 m c (Proc.devRef .tc main_arg4) = m ((c : Thread nD τ).loc main_arg4) := (W7_of m c main_arg4 (by decide)).trans (W6_arg4 m c)
theorem W8_arg4 (c : Dev nD) : W8 m c (Proc.devRef .tc main_arg4) = m ((c : Thread nD τ).loc main_arg4) := (W8_of m c main_arg4 (by decide)).trans (W7_arg4 m c)
theorem W9_arg4 (c : Dev nD) : W9 m c (Proc.devRef .tc main_arg4) = m ((c : Thread nD τ).loc main_arg4) := (W9_of m c main_arg4 (by decide)).trans (W8_arg4 m c)
theorem W10_arg4 (c : Dev nD) : W10 m c (Proc.devRef .tc main_arg4) = m ((c : Thread nD τ).loc main_arg4) := (W10_of m c main_arg4 (by decide)).trans (W9_arg4 m c)
theorem W11_arg4 (c : Dev nD) : W11 m c (Proc.devRef .tc main_arg4) = m ((c : Thread nD τ).loc main_arg4) := (W11_of m c main_arg4 (by decide)).trans (W10_arg4 m c)
theorem W12_arg4 (c : Dev nD) : W12 m c (Proc.devRef .tc main_arg4) = m ((c : Thread nD τ).loc main_arg4) := (W12_of m c main_arg4 (by decide)).trans (W11_arg4 m c)
theorem W13_arg4 (c : Dev nD) : W13 m c (Proc.devRef .tc main_arg4) = m ((c : Thread nD τ).loc main_arg4) := (W13_of m c main_arg4 (by decide)).trans (W12_arg4 m c)
theorem W14_arg4 (c : Dev nD) : W14 m c (Proc.devRef .tc main_arg4) = m ((c : Thread nD τ).loc main_arg4) := (W14_of m c main_arg4 (by decide)).trans (W13_arg4 m c)
theorem W15_arg4 (c : Dev nD) : W15 m c (Proc.devRef .tc main_arg4) = m ((c : Thread nD τ).loc main_arg4) := (W15_of m c main_arg4 (by decide)).trans (W14_arg4 m c)
theorem W16_arg4 (c : Dev nD) : W16 m c (Proc.devRef .tc main_arg4) = m ((c : Thread nD τ).loc main_arg4) := (W16_of m c main_arg4 (by decide)).trans (W15_arg4 m c)
theorem W17_arg4 (c : Dev nD) : W17 m c (Proc.devRef .tc main_arg4) = m ((c : Thread nD τ).loc main_arg4) := (W17_of m c main_arg4 (by decide)).trans (W16_arg4 m c)
theorem W18_arg4 (c : Dev nD) : W18 m c (Proc.devRef .tc main_arg4) = m ((c : Thread nD τ).loc main_arg4) := (W18_of m c main_arg4 (by decide)).trans (W17_arg4 m c)
theorem W19_arg4 (c : Dev nD) : W19 m c (Proc.devRef .tc main_arg4) = m ((c : Thread nD τ).loc main_arg4) := (W19_of m c main_arg4 (by decide)).trans (W18_arg4 m c)
theorem W20_arg4 (c : Dev nD) : W20 m c (Proc.devRef .tc main_arg4) = m ((c : Thread nD τ).loc main_arg4) := (W20_of m c main_arg4 (by decide)).trans (W19_arg4 m c)
theorem W21_arg4 (c : Dev nD) : W21 m c (Proc.devRef .tc main_arg4) = m ((c : Thread nD τ).loc main_arg4) := (W21_of m c main_arg4 (by decide)).trans (W20_arg4 m c)
theorem W22_arg4 (c : Dev nD) : W22 m c (Proc.devRef .tc main_arg4) = m ((c : Thread nD τ).loc main_arg4) := (W22_of m c main_arg4 (by decide)).trans (W21_arg4 m c)
theorem W23_arg4 (c : Dev nD) : W23 m c (Proc.devRef .tc main_arg4) = m ((c : Thread nD τ).loc main_arg4) := (W23_of m c main_arg4 (by decide)).trans (W22_arg4 m c)
theorem W24_arg4 (c : Dev nD) : W24 m c (Proc.devRef .tc main_arg4) = m ((c : Thread nD τ).loc main_arg4) := (W24_of m c main_arg4 (by decide)).trans (W23_arg4 m c)
theorem W25_arg4 (c : Dev nD) : W25 m c (Proc.devRef .tc main_arg4) = m ((c : Thread nD τ).loc main_arg4) := (W25_of m c main_arg4 (by decide)).trans (W24_arg4 m c)
theorem W26_arg4 (c : Dev nD) : W26 m c (Proc.devRef .tc main_arg4) = m ((c : Thread nD τ).loc main_arg4) := (W26_of m c main_arg4 (by decide)).trans (W25_arg4 m c)
theorem W27_arg4 (c : Dev nD) : W27 m c (Proc.devRef .tc main_arg4) = m ((c : Thread nD τ).loc main_arg4) := (W27_of m c main_arg4 (by decide)).trans (W26_arg4 m c)
theorem W28_arg4 (c : Dev nD) : W28 m c (Proc.devRef .tc main_arg4) = m ((c : Thread nD τ).loc main_arg4) := (W28_of m c main_arg4 (by decide)).trans (W27_arg4 m c)
theorem W29_arg4 (c : Dev nD) : W29 m c (Proc.devRef .tc main_arg4) = m ((c : Thread nD τ).loc main_arg4) := (W29_of m c main_arg4 (by decide)).trans (W28_arg4 m c)
theorem W1_arg5 (c : Dev nD) : W1 m c (Proc.devRef .tc main_arg5) = m ((c : Thread nD τ).loc main_arg5) := W1_of m c main_arg5 (by decide)
theorem W2_arg5 (c : Dev nD) : W2 m c (Proc.devRef .tc main_arg5) = m ((c : Thread nD τ).loc main_arg5) := (W2_of m c main_arg5 (by decide)).trans (W1_arg5 m c)
theorem W3_arg5 (c : Dev nD) : W3 m c (Proc.devRef .tc main_arg5) = m ((c : Thread nD τ).loc main_arg5) := (W3_of m c main_arg5 (by decide)).trans (W2_arg5 m c)
theorem W4_arg5 (c : Dev nD) : W4 m c (Proc.devRef .tc main_arg5) = m ((c : Thread nD τ).loc main_arg5) := (W4_of m c main_arg5 (by decide)).trans (W3_arg5 m c)
theorem W5_arg5 (c : Dev nD) : W5 m c (Proc.devRef .tc main_arg5) = m ((c : Thread nD τ).loc main_arg5) := (W5_of m c main_arg5 (by decide)).trans (W4_arg5 m c)
theorem W6_arg5 (c : Dev nD) : W6 m c (Proc.devRef .tc main_arg5) = m ((c : Thread nD τ).loc main_arg5) := (W6_of m c main_arg5 (by decide)).trans (W5_arg5 m c)
theorem W7_arg5 (c : Dev nD) : W7 m c (Proc.devRef .tc main_arg5) = m ((c : Thread nD τ).loc main_arg5) := (W7_of m c main_arg5 (by decide)).trans (W6_arg5 m c)
theorem W8_arg5 (c : Dev nD) : W8 m c (Proc.devRef .tc main_arg5) = m ((c : Thread nD τ).loc main_arg5) := (W8_of m c main_arg5 (by decide)).trans (W7_arg5 m c)
theorem W9_arg5 (c : Dev nD) : W9 m c (Proc.devRef .tc main_arg5) = m ((c : Thread nD τ).loc main_arg5) := (W9_of m c main_arg5 (by decide)).trans (W8_arg5 m c)
theorem W10_arg5 (c : Dev nD) : W10 m c (Proc.devRef .tc main_arg5) = m ((c : Thread nD τ).loc main_arg5) := (W10_of m c main_arg5 (by decide)).trans (W9_arg5 m c)
theorem W11_arg5 (c : Dev nD) : W11 m c (Proc.devRef .tc main_arg5) = m ((c : Thread nD τ).loc main_arg5) := (W11_of m c main_arg5 (by decide)).trans (W10_arg5 m c)
theorem W12_arg5 (c : Dev nD) : W12 m c (Proc.devRef .tc main_arg5) = m ((c : Thread nD τ).loc main_arg5) := (W12_of m c main_arg5 (by decide)).trans (W11_arg5 m c)
theorem W13_arg5 (c : Dev nD) : W13 m c (Proc.devRef .tc main_arg5) = m ((c : Thread nD τ).loc main_arg5) := (W13_of m c main_arg5 (by decide)).trans (W12_arg5 m c)
theorem W14_arg5 (c : Dev nD) : W14 m c (Proc.devRef .tc main_arg5) = m ((c : Thread nD τ).loc main_arg5) := (W14_of m c main_arg5 (by decide)).trans (W13_arg5 m c)
theorem W15_arg5 (c : Dev nD) : W15 m c (Proc.devRef .tc main_arg5) = m ((c : Thread nD τ).loc main_arg5) := (W15_of m c main_arg5 (by decide)).trans (W14_arg5 m c)
theorem W16_arg5 (c : Dev nD) : W16 m c (Proc.devRef .tc main_arg5) = m ((c : Thread nD τ).loc main_arg5) := (W16_of m c main_arg5 (by decide)).trans (W15_arg5 m c)
theorem W17_arg5 (c : Dev nD) : W17 m c (Proc.devRef .tc main_arg5) = m ((c : Thread nD τ).loc main_arg5) := (W17_of m c main_arg5 (by decide)).trans (W16_arg5 m c)
theorem W18_arg5 (c : Dev nD) : W18 m c (Proc.devRef .tc main_arg5) = m ((c : Thread nD τ).loc main_arg5) := (W18_of m c main_arg5 (by decide)).trans (W17_arg5 m c)
theorem W19_arg5 (c : Dev nD) : W19 m c (Proc.devRef .tc main_arg5) = m ((c : Thread nD τ).loc main_arg5) := (W19_of m c main_arg5 (by decide)).trans (W18_arg5 m c)
theorem W20_arg5 (c : Dev nD) : W20 m c (Proc.devRef .tc main_arg5) = m ((c : Thread nD τ).loc main_arg5) := (W20_of m c main_arg5 (by decide)).trans (W19_arg5 m c)
theorem W21_arg5 (c : Dev nD) : W21 m c (Proc.devRef .tc main_arg5) = m ((c : Thread nD τ).loc main_arg5) := (W21_of m c main_arg5 (by decide)).trans (W20_arg5 m c)
theorem W22_arg5 (c : Dev nD) : W22 m c (Proc.devRef .tc main_arg5) = m ((c : Thread nD τ).loc main_arg5) := (W22_of m c main_arg5 (by decide)).trans (W21_arg5 m c)
theorem W23_arg5 (c : Dev nD) : W23 m c (Proc.devRef .tc main_arg5) = m ((c : Thread nD τ).loc main_arg5) := (W23_of m c main_arg5 (by decide)).trans (W22_arg5 m c)
theorem W24_arg5 (c : Dev nD) : W24 m c (Proc.devRef .tc main_arg5) = m ((c : Thread nD τ).loc main_arg5) := (W24_of m c main_arg5 (by decide)).trans (W23_arg5 m c)
theorem W25_arg5 (c : Dev nD) : W25 m c (Proc.devRef .tc main_arg5) = m ((c : Thread nD τ).loc main_arg5) := (W25_of m c main_arg5 (by decide)).trans (W24_arg5 m c)
theorem W26_arg5 (c : Dev nD) : W26 m c (Proc.devRef .tc main_arg5) = m ((c : Thread nD τ).loc main_arg5) := (W26_of m c main_arg5 (by decide)).trans (W25_arg5 m c)
theorem W27_arg5 (c : Dev nD) : W27 m c (Proc.devRef .tc main_arg5) = m ((c : Thread nD τ).loc main_arg5) := (W27_of m c main_arg5 (by decide)).trans (W26_arg5 m c)
theorem W28_arg5 (c : Dev nD) : W28 m c (Proc.devRef .tc main_arg5) = m ((c : Thread nD τ).loc main_arg5) := (W28_of m c main_arg5 (by decide)).trans (W27_arg5 m c)
theorem W29_arg5 (c : Dev nD) : W29 m c (Proc.devRef .tc main_arg5) = m ((c : Thread nD τ).loc main_arg5) := (W29_of m c main_arg5 (by decide)).trans (W28_arg5 m c)
theorem W1_arg6 (c : Dev nD) : W1 m c (Proc.devRef .tc main_arg6) = m ((c : Thread nD τ).loc main_arg6) := W1_of m c main_arg6 (by decide)
theorem W2_arg6 (c : Dev nD) : W2 m c (Proc.devRef .tc main_arg6) = m ((c : Thread nD τ).loc main_arg6) := (W2_of m c main_arg6 (by decide)).trans (W1_arg6 m c)
theorem W3_arg6 (c : Dev nD) : W3 m c (Proc.devRef .tc main_arg6) = m ((c : Thread nD τ).loc main_arg6) := (W3_of m c main_arg6 (by decide)).trans (W2_arg6 m c)
theorem W4_arg6 (c : Dev nD) : W4 m c (Proc.devRef .tc main_arg6) = m ((c : Thread nD τ).loc main_arg6) := (W4_of m c main_arg6 (by decide)).trans (W3_arg6 m c)
theorem W5_arg6 (c : Dev nD) : W5 m c (Proc.devRef .tc main_arg6) = m ((c : Thread nD τ).loc main_arg6) := (W5_of m c main_arg6 (by decide)).trans (W4_arg6 m c)
theorem W6_arg6 (c : Dev nD) : W6 m c (Proc.devRef .tc main_arg6) = m ((c : Thread nD τ).loc main_arg6) := (W6_of m c main_arg6 (by decide)).trans (W5_arg6 m c)
theorem W7_arg6 (c : Dev nD) : W7 m c (Proc.devRef .tc main_arg6) = m ((c : Thread nD τ).loc main_arg6) := (W7_of m c main_arg6 (by decide)).trans (W6_arg6 m c)
theorem W8_arg6 (c : Dev nD) : W8 m c (Proc.devRef .tc main_arg6) = m ((c : Thread nD τ).loc main_arg6) := (W8_of m c main_arg6 (by decide)).trans (W7_arg6 m c)
theorem W9_arg6 (c : Dev nD) : W9 m c (Proc.devRef .tc main_arg6) = m ((c : Thread nD τ).loc main_arg6) := (W9_of m c main_arg6 (by decide)).trans (W8_arg6 m c)
theorem W10_arg6 (c : Dev nD) : W10 m c (Proc.devRef .tc main_arg6) = m ((c : Thread nD τ).loc main_arg6) := (W10_of m c main_arg6 (by decide)).trans (W9_arg6 m c)
theorem W11_arg6 (c : Dev nD) : W11 m c (Proc.devRef .tc main_arg6) = m ((c : Thread nD τ).loc main_arg6) := (W11_of m c main_arg6 (by decide)).trans (W10_arg6 m c)
theorem W12_arg6 (c : Dev nD) : W12 m c (Proc.devRef .tc main_arg6) = m ((c : Thread nD τ).loc main_arg6) := (W12_of m c main_arg6 (by decide)).trans (W11_arg6 m c)
theorem W13_arg6 (c : Dev nD) : W13 m c (Proc.devRef .tc main_arg6) = m ((c : Thread nD τ).loc main_arg6) := (W13_of m c main_arg6 (by decide)).trans (W12_arg6 m c)
theorem W14_arg6 (c : Dev nD) : W14 m c (Proc.devRef .tc main_arg6) = m ((c : Thread nD τ).loc main_arg6) := (W14_of m c main_arg6 (by decide)).trans (W13_arg6 m c)
theorem W15_arg6 (c : Dev nD) : W15 m c (Proc.devRef .tc main_arg6) = m ((c : Thread nD τ).loc main_arg6) := (W15_of m c main_arg6 (by decide)).trans (W14_arg6 m c)
theorem W16_arg6 (c : Dev nD) : W16 m c (Proc.devRef .tc main_arg6) = m ((c : Thread nD τ).loc main_arg6) := (W16_of m c main_arg6 (by decide)).trans (W15_arg6 m c)
theorem W17_arg6 (c : Dev nD) : W17 m c (Proc.devRef .tc main_arg6) = m ((c : Thread nD τ).loc main_arg6) := (W17_of m c main_arg6 (by decide)).trans (W16_arg6 m c)
theorem W18_arg6 (c : Dev nD) : W18 m c (Proc.devRef .tc main_arg6) = m ((c : Thread nD τ).loc main_arg6) := (W18_of m c main_arg6 (by decide)).trans (W17_arg6 m c)
theorem W19_arg6 (c : Dev nD) : W19 m c (Proc.devRef .tc main_arg6) = m ((c : Thread nD τ).loc main_arg6) := (W19_of m c main_arg6 (by decide)).trans (W18_arg6 m c)
theorem W20_arg6 (c : Dev nD) : W20 m c (Proc.devRef .tc main_arg6) = m ((c : Thread nD τ).loc main_arg6) := (W20_of m c main_arg6 (by decide)).trans (W19_arg6 m c)
theorem W21_arg6 (c : Dev nD) : W21 m c (Proc.devRef .tc main_arg6) = m ((c : Thread nD τ).loc main_arg6) := (W21_of m c main_arg6 (by decide)).trans (W20_arg6 m c)
theorem W22_arg6 (c : Dev nD) : W22 m c (Proc.devRef .tc main_arg6) = m ((c : Thread nD τ).loc main_arg6) := (W22_of m c main_arg6 (by decide)).trans (W21_arg6 m c)
theorem W23_arg6 (c : Dev nD) : W23 m c (Proc.devRef .tc main_arg6) = m ((c : Thread nD τ).loc main_arg6) := (W23_of m c main_arg6 (by decide)).trans (W22_arg6 m c)
theorem W24_arg6 (c : Dev nD) : W24 m c (Proc.devRef .tc main_arg6) = m ((c : Thread nD τ).loc main_arg6) := (W24_of m c main_arg6 (by decide)).trans (W23_arg6 m c)
theorem W25_arg6 (c : Dev nD) : W25 m c (Proc.devRef .tc main_arg6) = m ((c : Thread nD τ).loc main_arg6) := (W25_of m c main_arg6 (by decide)).trans (W24_arg6 m c)
theorem W26_arg6 (c : Dev nD) : W26 m c (Proc.devRef .tc main_arg6) = m ((c : Thread nD τ).loc main_arg6) := (W26_of m c main_arg6 (by decide)).trans (W25_arg6 m c)
theorem W27_arg6 (c : Dev nD) : W27 m c (Proc.devRef .tc main_arg6) = m ((c : Thread nD τ).loc main_arg6) := (W27_of m c main_arg6 (by decide)).trans (W26_arg6 m c)
theorem W28_arg6 (c : Dev nD) : W28 m c (Proc.devRef .tc main_arg6) = m ((c : Thread nD τ).loc main_arg6) := (W28_of m c main_arg6 (by decide)).trans (W27_arg6 m c)
theorem W29_arg6 (c : Dev nD) : W29 m c (Proc.devRef .tc main_arg6) = m ((c : Thread nD τ).loc main_arg6) := (W29_of m c main_arg6 (by decide)).trans (W28_arg6 m c)
theorem W1_arg7 (c : Dev nD) : W1 m c (Proc.devRef .tc main_arg7) = m ((c : Thread nD τ).loc main_arg7) := W1_of m c main_arg7 (by decide)
theorem W2_arg7 (c : Dev nD) : W2 m c (Proc.devRef .tc main_arg7) = m ((c : Thread nD τ).loc main_arg7) := (W2_of m c main_arg7 (by decide)).trans (W1_arg7 m c)
theorem W3_arg7 (c : Dev nD) : W3 m c (Proc.devRef .tc main_arg7) = m ((c : Thread nD τ).loc main_arg7) := (W3_of m c main_arg7 (by decide)).trans (W2_arg7 m c)
theorem W4_arg7 (c : Dev nD) : W4 m c (Proc.devRef .tc main_arg7) = m ((c : Thread nD τ).loc main_arg7) := (W4_of m c main_arg7 (by decide)).trans (W3_arg7 m c)
theorem W5_arg7 (c : Dev nD) : W5 m c (Proc.devRef .tc main_arg7) = m ((c : Thread nD τ).loc main_arg7) := (W5_of m c main_arg7 (by decide)).trans (W4_arg7 m c)
theorem W6_arg7 (c : Dev nD) : W6 m c (Proc.devRef .tc main_arg7) = m ((c : Thread nD τ).loc main_arg7) := (W6_of m c main_arg7 (by decide)).trans (W5_arg7 m c)
theorem W7_arg7 (c : Dev nD) : W7 m c (Proc.devRef .tc main_arg7) = m ((c : Thread nD τ).loc main_arg7) := (W7_of m c main_arg7 (by decide)).trans (W6_arg7 m c)
theorem W8_arg7 (c : Dev nD) : W8 m c (Proc.devRef .tc main_arg7) = m ((c : Thread nD τ).loc main_arg7) := (W8_of m c main_arg7 (by decide)).trans (W7_arg7 m c)
theorem W9_arg7 (c : Dev nD) : W9 m c (Proc.devRef .tc main_arg7) = m ((c : Thread nD τ).loc main_arg7) := (W9_of m c main_arg7 (by decide)).trans (W8_arg7 m c)
theorem W10_arg7 (c : Dev nD) : W10 m c (Proc.devRef .tc main_arg7) = m ((c : Thread nD τ).loc main_arg7) := (W10_of m c main_arg7 (by decide)).trans (W9_arg7 m c)
theorem W11_arg7 (c : Dev nD) : W11 m c (Proc.devRef .tc main_arg7) = m ((c : Thread nD τ).loc main_arg7) := (W11_of m c main_arg7 (by decide)).trans (W10_arg7 m c)
theorem W12_arg7 (c : Dev nD) : W12 m c (Proc.devRef .tc main_arg7) = m ((c : Thread nD τ).loc main_arg7) := (W12_of m c main_arg7 (by decide)).trans (W11_arg7 m c)
theorem W13_arg7 (c : Dev nD) : W13 m c (Proc.devRef .tc main_arg7) = m ((c : Thread nD τ).loc main_arg7) := (W13_of m c main_arg7 (by decide)).trans (W12_arg7 m c)
theorem W14_arg7 (c : Dev nD) : W14 m c (Proc.devRef .tc main_arg7) = m ((c : Thread nD τ).loc main_arg7) := (W14_of m c main_arg7 (by decide)).trans (W13_arg7 m c)
theorem W15_arg7 (c : Dev nD) : W15 m c (Proc.devRef .tc main_arg7) = m ((c : Thread nD τ).loc main_arg7) := (W15_of m c main_arg7 (by decide)).trans (W14_arg7 m c)
theorem W16_arg7 (c : Dev nD) : W16 m c (Proc.devRef .tc main_arg7) = m ((c : Thread nD τ).loc main_arg7) := (W16_of m c main_arg7 (by decide)).trans (W15_arg7 m c)
theorem W17_arg7 (c : Dev nD) : W17 m c (Proc.devRef .tc main_arg7) = m ((c : Thread nD τ).loc main_arg7) := (W17_of m c main_arg7 (by decide)).trans (W16_arg7 m c)
theorem W18_arg7 (c : Dev nD) : W18 m c (Proc.devRef .tc main_arg7) = m ((c : Thread nD τ).loc main_arg7) := (W18_of m c main_arg7 (by decide)).trans (W17_arg7 m c)
theorem W19_arg7 (c : Dev nD) : W19 m c (Proc.devRef .tc main_arg7) = m ((c : Thread nD τ).loc main_arg7) := (W19_of m c main_arg7 (by decide)).trans (W18_arg7 m c)
theorem W20_arg7 (c : Dev nD) : W20 m c (Proc.devRef .tc main_arg7) = m ((c : Thread nD τ).loc main_arg7) := (W20_of m c main_arg7 (by decide)).trans (W19_arg7 m c)
theorem W21_arg7 (c : Dev nD) : W21 m c (Proc.devRef .tc main_arg7) = m ((c : Thread nD τ).loc main_arg7) := (W21_of m c main_arg7 (by decide)).trans (W20_arg7 m c)
theorem W22_arg7 (c : Dev nD) : W22 m c (Proc.devRef .tc main_arg7) = m ((c : Thread nD τ).loc main_arg7) := (W22_of m c main_arg7 (by decide)).trans (W21_arg7 m c)
theorem W23_arg7 (c : Dev nD) : W23 m c (Proc.devRef .tc main_arg7) = m ((c : Thread nD τ).loc main_arg7) := (W23_of m c main_arg7 (by decide)).trans (W22_arg7 m c)
theorem W24_arg7 (c : Dev nD) : W24 m c (Proc.devRef .tc main_arg7) = m ((c : Thread nD τ).loc main_arg7) := (W24_of m c main_arg7 (by decide)).trans (W23_arg7 m c)
theorem W25_arg7 (c : Dev nD) : W25 m c (Proc.devRef .tc main_arg7) = m ((c : Thread nD τ).loc main_arg7) := (W25_of m c main_arg7 (by decide)).trans (W24_arg7 m c)
theorem W26_arg7 (c : Dev nD) : W26 m c (Proc.devRef .tc main_arg7) = m ((c : Thread nD τ).loc main_arg7) := (W26_of m c main_arg7 (by decide)).trans (W25_arg7 m c)
theorem W27_arg7 (c : Dev nD) : W27 m c (Proc.devRef .tc main_arg7) = m ((c : Thread nD τ).loc main_arg7) := (W27_of m c main_arg7 (by decide)).trans (W26_arg7 m c)
theorem W28_arg7 (c : Dev nD) : W28 m c (Proc.devRef .tc main_arg7) = m ((c : Thread nD τ).loc main_arg7) := (W28_of m c main_arg7 (by decide)).trans (W27_arg7 m c)
theorem W29_arg7 (c : Dev nD) : W29 m c (Proc.devRef .tc main_arg7) = m ((c : Thread nD τ).loc main_arg7) := (W29_of m c main_arg7 (by decide)).trans (W28_arg7 m c)
theorem W1_arg8 (c : Dev nD) : W1 m c (Proc.devRef .tc main_arg8) = m ((c : Thread nD τ).loc main_arg8) := W1_of m c main_arg8 (by decide)
theorem W2_arg8 (c : Dev nD) : W2 m c (Proc.devRef .tc main_arg8) = m ((c : Thread nD τ).loc main_arg8) := (W2_of m c main_arg8 (by decide)).trans (W1_arg8 m c)
theorem W3_arg8 (c : Dev nD) : W3 m c (Proc.devRef .tc main_arg8) = m ((c : Thread nD τ).loc main_arg8) := (W3_of m c main_arg8 (by decide)).trans (W2_arg8 m c)
theorem W4_arg8 (c : Dev nD) : W4 m c (Proc.devRef .tc main_arg8) = m ((c : Thread nD τ).loc main_arg8) := (W4_of m c main_arg8 (by decide)).trans (W3_arg8 m c)
theorem W5_arg8 (c : Dev nD) : W5 m c (Proc.devRef .tc main_arg8) = m ((c : Thread nD τ).loc main_arg8) := (W5_of m c main_arg8 (by decide)).trans (W4_arg8 m c)
theorem W6_arg8 (c : Dev nD) : W6 m c (Proc.devRef .tc main_arg8) = m ((c : Thread nD τ).loc main_arg8) := (W6_of m c main_arg8 (by decide)).trans (W5_arg8 m c)
theorem W7_arg8 (c : Dev nD) : W7 m c (Proc.devRef .tc main_arg8) = m ((c : Thread nD τ).loc main_arg8) := (W7_of m c main_arg8 (by decide)).trans (W6_arg8 m c)
theorem W8_arg8 (c : Dev nD) : W8 m c (Proc.devRef .tc main_arg8) = m ((c : Thread nD τ).loc main_arg8) := (W8_of m c main_arg8 (by decide)).trans (W7_arg8 m c)
theorem W9_arg8 (c : Dev nD) : W9 m c (Proc.devRef .tc main_arg8) = m ((c : Thread nD τ).loc main_arg8) := (W9_of m c main_arg8 (by decide)).trans (W8_arg8 m c)
theorem W10_arg8 (c : Dev nD) : W10 m c (Proc.devRef .tc main_arg8) = m ((c : Thread nD τ).loc main_arg8) := (W10_of m c main_arg8 (by decide)).trans (W9_arg8 m c)
theorem W11_arg8 (c : Dev nD) : W11 m c (Proc.devRef .tc main_arg8) = m ((c : Thread nD τ).loc main_arg8) := (W11_of m c main_arg8 (by decide)).trans (W10_arg8 m c)
theorem W12_arg8 (c : Dev nD) : W12 m c (Proc.devRef .tc main_arg8) = m ((c : Thread nD τ).loc main_arg8) := (W12_of m c main_arg8 (by decide)).trans (W11_arg8 m c)
theorem W13_arg8 (c : Dev nD) : W13 m c (Proc.devRef .tc main_arg8) = m ((c : Thread nD τ).loc main_arg8) := (W13_of m c main_arg8 (by decide)).trans (W12_arg8 m c)
theorem W14_arg8 (c : Dev nD) : W14 m c (Proc.devRef .tc main_arg8) = m ((c : Thread nD τ).loc main_arg8) := (W14_of m c main_arg8 (by decide)).trans (W13_arg8 m c)
theorem W15_arg8 (c : Dev nD) : W15 m c (Proc.devRef .tc main_arg8) = m ((c : Thread nD τ).loc main_arg8) := (W15_of m c main_arg8 (by decide)).trans (W14_arg8 m c)
theorem W16_arg8 (c : Dev nD) : W16 m c (Proc.devRef .tc main_arg8) = m ((c : Thread nD τ).loc main_arg8) := (W16_of m c main_arg8 (by decide)).trans (W15_arg8 m c)
theorem W17_arg8 (c : Dev nD) : W17 m c (Proc.devRef .tc main_arg8) = m ((c : Thread nD τ).loc main_arg8) := (W17_of m c main_arg8 (by decide)).trans (W16_arg8 m c)
theorem W18_arg8 (c : Dev nD) : W18 m c (Proc.devRef .tc main_arg8) = m ((c : Thread nD τ).loc main_arg8) := (W18_of m c main_arg8 (by decide)).trans (W17_arg8 m c)
theorem W19_arg8 (c : Dev nD) : W19 m c (Proc.devRef .tc main_arg8) = m ((c : Thread nD τ).loc main_arg8) := (W19_of m c main_arg8 (by decide)).trans (W18_arg8 m c)
theorem W20_arg8 (c : Dev nD) : W20 m c (Proc.devRef .tc main_arg8) = m ((c : Thread nD τ).loc main_arg8) := (W20_of m c main_arg8 (by decide)).trans (W19_arg8 m c)
theorem W21_arg8 (c : Dev nD) : W21 m c (Proc.devRef .tc main_arg8) = m ((c : Thread nD τ).loc main_arg8) := (W21_of m c main_arg8 (by decide)).trans (W20_arg8 m c)
theorem W22_arg8 (c : Dev nD) : W22 m c (Proc.devRef .tc main_arg8) = m ((c : Thread nD τ).loc main_arg8) := (W22_of m c main_arg8 (by decide)).trans (W21_arg8 m c)
theorem W23_arg8 (c : Dev nD) : W23 m c (Proc.devRef .tc main_arg8) = m ((c : Thread nD τ).loc main_arg8) := (W23_of m c main_arg8 (by decide)).trans (W22_arg8 m c)
theorem W24_arg8 (c : Dev nD) : W24 m c (Proc.devRef .tc main_arg8) = m ((c : Thread nD τ).loc main_arg8) := (W24_of m c main_arg8 (by decide)).trans (W23_arg8 m c)
theorem W25_arg8 (c : Dev nD) : W25 m c (Proc.devRef .tc main_arg8) = m ((c : Thread nD τ).loc main_arg8) := (W25_of m c main_arg8 (by decide)).trans (W24_arg8 m c)
theorem W26_arg8 (c : Dev nD) : W26 m c (Proc.devRef .tc main_arg8) = m ((c : Thread nD τ).loc main_arg8) := (W26_of m c main_arg8 (by decide)).trans (W25_arg8 m c)
theorem W27_arg8 (c : Dev nD) : W27 m c (Proc.devRef .tc main_arg8) = m ((c : Thread nD τ).loc main_arg8) := (W27_of m c main_arg8 (by decide)).trans (W26_arg8 m c)
theorem W28_arg8 (c : Dev nD) : W28 m c (Proc.devRef .tc main_arg8) = m ((c : Thread nD τ).loc main_arg8) := (W28_of m c main_arg8 (by decide)).trans (W27_arg8 m c)
theorem W29_arg8 (c : Dev nD) : W29 m c (Proc.devRef .tc main_arg8) = m ((c : Thread nD τ).loc main_arg8) := (W29_of m c main_arg8 (by decide)).trans (W28_arg8 m c)
theorem W1_arg9 (c : Dev nD) : W1 m c (Proc.devRef .tc main_arg9) = m ((c : Thread nD τ).loc main_arg9) := W1_of m c main_arg9 (by decide)
theorem W2_arg9 (c : Dev nD) : W2 m c (Proc.devRef .tc main_arg9) = m ((c : Thread nD τ).loc main_arg9) := (W2_of m c main_arg9 (by decide)).trans (W1_arg9 m c)
theorem W3_arg9 (c : Dev nD) : W3 m c (Proc.devRef .tc main_arg9) = m ((c : Thread nD τ).loc main_arg9) := (W3_of m c main_arg9 (by decide)).trans (W2_arg9 m c)
theorem W4_arg9 (c : Dev nD) : W4 m c (Proc.devRef .tc main_arg9) = m ((c : Thread nD τ).loc main_arg9) := (W4_of m c main_arg9 (by decide)).trans (W3_arg9 m c)
theorem W5_arg9 (c : Dev nD) : W5 m c (Proc.devRef .tc main_arg9) = m ((c : Thread nD τ).loc main_arg9) := (W5_of m c main_arg9 (by decide)).trans (W4_arg9 m c)
theorem W6_arg9 (c : Dev nD) : W6 m c (Proc.devRef .tc main_arg9) = m ((c : Thread nD τ).loc main_arg9) := (W6_of m c main_arg9 (by decide)).trans (W5_arg9 m c)
theorem W7_arg9 (c : Dev nD) : W7 m c (Proc.devRef .tc main_arg9) = m ((c : Thread nD τ).loc main_arg9) := (W7_of m c main_arg9 (by decide)).trans (W6_arg9 m c)
theorem W8_arg9 (c : Dev nD) : W8 m c (Proc.devRef .tc main_arg9) = m ((c : Thread nD τ).loc main_arg9) := (W8_of m c main_arg9 (by decide)).trans (W7_arg9 m c)
theorem W9_arg9 (c : Dev nD) : W9 m c (Proc.devRef .tc main_arg9) = m ((c : Thread nD τ).loc main_arg9) := (W9_of m c main_arg9 (by decide)).trans (W8_arg9 m c)
theorem W10_arg9 (c : Dev nD) : W10 m c (Proc.devRef .tc main_arg9) = m ((c : Thread nD τ).loc main_arg9) := (W10_of m c main_arg9 (by decide)).trans (W9_arg9 m c)
theorem W11_arg9 (c : Dev nD) : W11 m c (Proc.devRef .tc main_arg9) = m ((c : Thread nD τ).loc main_arg9) := (W11_of m c main_arg9 (by decide)).trans (W10_arg9 m c)
theorem W12_arg9 (c : Dev nD) : W12 m c (Proc.devRef .tc main_arg9) = m ((c : Thread nD τ).loc main_arg9) := (W12_of m c main_arg9 (by decide)).trans (W11_arg9 m c)
theorem W13_arg9 (c : Dev nD) : W13 m c (Proc.devRef .tc main_arg9) = m ((c : Thread nD τ).loc main_arg9) := (W13_of m c main_arg9 (by decide)).trans (W12_arg9 m c)
theorem W14_arg9 (c : Dev nD) : W14 m c (Proc.devRef .tc main_arg9) = m ((c : Thread nD τ).loc main_arg9) := (W14_of m c main_arg9 (by decide)).trans (W13_arg9 m c)
theorem W15_arg9 (c : Dev nD) : W15 m c (Proc.devRef .tc main_arg9) = m ((c : Thread nD τ).loc main_arg9) := (W15_of m c main_arg9 (by decide)).trans (W14_arg9 m c)
theorem W16_arg9 (c : Dev nD) : W16 m c (Proc.devRef .tc main_arg9) = m ((c : Thread nD τ).loc main_arg9) := (W16_of m c main_arg9 (by decide)).trans (W15_arg9 m c)
theorem W17_arg9 (c : Dev nD) : W17 m c (Proc.devRef .tc main_arg9) = m ((c : Thread nD τ).loc main_arg9) := (W17_of m c main_arg9 (by decide)).trans (W16_arg9 m c)
theorem W18_arg9 (c : Dev nD) : W18 m c (Proc.devRef .tc main_arg9) = m ((c : Thread nD τ).loc main_arg9) := (W18_of m c main_arg9 (by decide)).trans (W17_arg9 m c)
theorem W19_arg9 (c : Dev nD) : W19 m c (Proc.devRef .tc main_arg9) = m ((c : Thread nD τ).loc main_arg9) := (W19_of m c main_arg9 (by decide)).trans (W18_arg9 m c)
theorem W20_arg9 (c : Dev nD) : W20 m c (Proc.devRef .tc main_arg9) = m ((c : Thread nD τ).loc main_arg9) := (W20_of m c main_arg9 (by decide)).trans (W19_arg9 m c)
theorem W21_arg9 (c : Dev nD) : W21 m c (Proc.devRef .tc main_arg9) = m ((c : Thread nD τ).loc main_arg9) := (W21_of m c main_arg9 (by decide)).trans (W20_arg9 m c)
theorem W22_arg9 (c : Dev nD) : W22 m c (Proc.devRef .tc main_arg9) = m ((c : Thread nD τ).loc main_arg9) := (W22_of m c main_arg9 (by decide)).trans (W21_arg9 m c)
theorem W23_arg9 (c : Dev nD) : W23 m c (Proc.devRef .tc main_arg9) = m ((c : Thread nD τ).loc main_arg9) := (W23_of m c main_arg9 (by decide)).trans (W22_arg9 m c)
theorem W24_arg9 (c : Dev nD) : W24 m c (Proc.devRef .tc main_arg9) = m ((c : Thread nD τ).loc main_arg9) := (W24_of m c main_arg9 (by decide)).trans (W23_arg9 m c)
theorem W25_arg9 (c : Dev nD) : W25 m c (Proc.devRef .tc main_arg9) = m ((c : Thread nD τ).loc main_arg9) := (W25_of m c main_arg9 (by decide)).trans (W24_arg9 m c)
theorem W26_arg9 (c : Dev nD) : W26 m c (Proc.devRef .tc main_arg9) = m ((c : Thread nD τ).loc main_arg9) := (W26_of m c main_arg9 (by decide)).trans (W25_arg9 m c)
theorem W27_arg9 (c : Dev nD) : W27 m c (Proc.devRef .tc main_arg9) = m ((c : Thread nD τ).loc main_arg9) := (W27_of m c main_arg9 (by decide)).trans (W26_arg9 m c)
theorem W28_arg9 (c : Dev nD) : W28 m c (Proc.devRef .tc main_arg9) = m ((c : Thread nD τ).loc main_arg9) := (W28_of m c main_arg9 (by decide)).trans (W27_arg9 m c)
theorem W29_arg9 (c : Dev nD) : W29 m c (Proc.devRef .tc main_arg9) = m ((c : Thread nD τ).loc main_arg9) := (W29_of m c main_arg9 (by decide)).trans (W28_arg9 m c)
theorem W1_arg10 (c : Dev nD) : W1 m c (Proc.devRef .tc main_arg10) = m ((c : Thread nD τ).loc main_arg10) := W1_of m c main_arg10 (by decide)
theorem W2_arg10 (c : Dev nD) : W2 m c (Proc.devRef .tc main_arg10) = m ((c : Thread nD τ).loc main_arg10) := (W2_of m c main_arg10 (by decide)).trans (W1_arg10 m c)
theorem W3_arg10 (c : Dev nD) : W3 m c (Proc.devRef .tc main_arg10) = m ((c : Thread nD τ).loc main_arg10) := (W3_of m c main_arg10 (by decide)).trans (W2_arg10 m c)
theorem W4_arg10 (c : Dev nD) : W4 m c (Proc.devRef .tc main_arg10) = m ((c : Thread nD τ).loc main_arg10) := (W4_of m c main_arg10 (by decide)).trans (W3_arg10 m c)
theorem W5_arg10 (c : Dev nD) : W5 m c (Proc.devRef .tc main_arg10) = m ((c : Thread nD τ).loc main_arg10) := (W5_of m c main_arg10 (by decide)).trans (W4_arg10 m c)
theorem W6_arg10 (c : Dev nD) : W6 m c (Proc.devRef .tc main_arg10) = m ((c : Thread nD τ).loc main_arg10) := (W6_of m c main_arg10 (by decide)).trans (W5_arg10 m c)
theorem W7_arg10 (c : Dev nD) : W7 m c (Proc.devRef .tc main_arg10) = m ((c : Thread nD τ).loc main_arg10) := (W7_of m c main_arg10 (by decide)).trans (W6_arg10 m c)
theorem W8_arg10 (c : Dev nD) : W8 m c (Proc.devRef .tc main_arg10) = m ((c : Thread nD τ).loc main_arg10) := (W8_of m c main_arg10 (by decide)).trans (W7_arg10 m c)
theorem W9_arg10 (c : Dev nD) : W9 m c (Proc.devRef .tc main_arg10) = m ((c : Thread nD τ).loc main_arg10) := (W9_of m c main_arg10 (by decide)).trans (W8_arg10 m c)
theorem W10_arg10 (c : Dev nD) : W10 m c (Proc.devRef .tc main_arg10) = m ((c : Thread nD τ).loc main_arg10) := (W10_of m c main_arg10 (by decide)).trans (W9_arg10 m c)
theorem W11_arg10 (c : Dev nD) : W11 m c (Proc.devRef .tc main_arg10) = m ((c : Thread nD τ).loc main_arg10) := (W11_of m c main_arg10 (by decide)).trans (W10_arg10 m c)
theorem W12_arg10 (c : Dev nD) : W12 m c (Proc.devRef .tc main_arg10) = m ((c : Thread nD τ).loc main_arg10) := (W12_of m c main_arg10 (by decide)).trans (W11_arg10 m c)
theorem W13_arg10 (c : Dev nD) : W13 m c (Proc.devRef .tc main_arg10) = m ((c : Thread nD τ).loc main_arg10) := (W13_of m c main_arg10 (by decide)).trans (W12_arg10 m c)
theorem W14_arg10 (c : Dev nD) : W14 m c (Proc.devRef .tc main_arg10) = m ((c : Thread nD τ).loc main_arg10) := (W14_of m c main_arg10 (by decide)).trans (W13_arg10 m c)
theorem W15_arg10 (c : Dev nD) : W15 m c (Proc.devRef .tc main_arg10) = m ((c : Thread nD τ).loc main_arg10) := (W15_of m c main_arg10 (by decide)).trans (W14_arg10 m c)
theorem W16_arg10 (c : Dev nD) : W16 m c (Proc.devRef .tc main_arg10) = m ((c : Thread nD τ).loc main_arg10) := (W16_of m c main_arg10 (by decide)).trans (W15_arg10 m c)
theorem W17_arg10 (c : Dev nD) : W17 m c (Proc.devRef .tc main_arg10) = m ((c : Thread nD τ).loc main_arg10) := (W17_of m c main_arg10 (by decide)).trans (W16_arg10 m c)
theorem W18_arg10 (c : Dev nD) : W18 m c (Proc.devRef .tc main_arg10) = m ((c : Thread nD τ).loc main_arg10) := (W18_of m c main_arg10 (by decide)).trans (W17_arg10 m c)
theorem W19_arg10 (c : Dev nD) : W19 m c (Proc.devRef .tc main_arg10) = m ((c : Thread nD τ).loc main_arg10) := (W19_of m c main_arg10 (by decide)).trans (W18_arg10 m c)
theorem W20_arg10 (c : Dev nD) : W20 m c (Proc.devRef .tc main_arg10) = m ((c : Thread nD τ).loc main_arg10) := (W20_of m c main_arg10 (by decide)).trans (W19_arg10 m c)
theorem W21_arg10 (c : Dev nD) : W21 m c (Proc.devRef .tc main_arg10) = m ((c : Thread nD τ).loc main_arg10) := (W21_of m c main_arg10 (by decide)).trans (W20_arg10 m c)
theorem W22_arg10 (c : Dev nD) : W22 m c (Proc.devRef .tc main_arg10) = m ((c : Thread nD τ).loc main_arg10) := (W22_of m c main_arg10 (by decide)).trans (W21_arg10 m c)
theorem W23_arg10 (c : Dev nD) : W23 m c (Proc.devRef .tc main_arg10) = m ((c : Thread nD τ).loc main_arg10) := (W23_of m c main_arg10 (by decide)).trans (W22_arg10 m c)
theorem W24_arg10 (c : Dev nD) : W24 m c (Proc.devRef .tc main_arg10) = m ((c : Thread nD τ).loc main_arg10) := (W24_of m c main_arg10 (by decide)).trans (W23_arg10 m c)
theorem W25_arg10 (c : Dev nD) : W25 m c (Proc.devRef .tc main_arg10) = m ((c : Thread nD τ).loc main_arg10) := (W25_of m c main_arg10 (by decide)).trans (W24_arg10 m c)
theorem W26_arg10 (c : Dev nD) : W26 m c (Proc.devRef .tc main_arg10) = m ((c : Thread nD τ).loc main_arg10) := (W26_of m c main_arg10 (by decide)).trans (W25_arg10 m c)
theorem W27_arg10 (c : Dev nD) : W27 m c (Proc.devRef .tc main_arg10) = m ((c : Thread nD τ).loc main_arg10) := (W27_of m c main_arg10 (by decide)).trans (W26_arg10 m c)
theorem W28_arg10 (c : Dev nD) : W28 m c (Proc.devRef .tc main_arg10) = m ((c : Thread nD τ).loc main_arg10) := (W28_of m c main_arg10 (by decide)).trans (W27_arg10 m c)
theorem W29_arg10 (c : Dev nD) : W29 m c (Proc.devRef .tc main_arg10) = m ((c : Thread nD τ).loc main_arg10) := (W29_of m c main_arg10 (by decide)).trans (W28_arg10 m c)
theorem W1_arg11 (c : Dev nD) : W1 m c (Proc.devRef .tc main_arg11) = m ((c : Thread nD τ).loc main_arg11) := W1_of m c main_arg11 (by decide)
theorem W2_arg11 (c : Dev nD) : W2 m c (Proc.devRef .tc main_arg11) = m ((c : Thread nD τ).loc main_arg11) := (W2_of m c main_arg11 (by decide)).trans (W1_arg11 m c)
theorem W3_arg11 (c : Dev nD) : W3 m c (Proc.devRef .tc main_arg11) = m ((c : Thread nD τ).loc main_arg11) := (W3_of m c main_arg11 (by decide)).trans (W2_arg11 m c)
theorem W4_arg11 (c : Dev nD) : W4 m c (Proc.devRef .tc main_arg11) = m ((c : Thread nD τ).loc main_arg11) := (W4_of m c main_arg11 (by decide)).trans (W3_arg11 m c)
theorem W5_arg11 (c : Dev nD) : W5 m c (Proc.devRef .tc main_arg11) = m ((c : Thread nD τ).loc main_arg11) := (W5_of m c main_arg11 (by decide)).trans (W4_arg11 m c)
theorem W6_arg11 (c : Dev nD) : W6 m c (Proc.devRef .tc main_arg11) = m ((c : Thread nD τ).loc main_arg11) := (W6_of m c main_arg11 (by decide)).trans (W5_arg11 m c)
theorem W7_arg11 (c : Dev nD) : W7 m c (Proc.devRef .tc main_arg11) = m ((c : Thread nD τ).loc main_arg11) := (W7_of m c main_arg11 (by decide)).trans (W6_arg11 m c)
theorem W8_arg11 (c : Dev nD) : W8 m c (Proc.devRef .tc main_arg11) = m ((c : Thread nD τ).loc main_arg11) := (W8_of m c main_arg11 (by decide)).trans (W7_arg11 m c)
theorem W9_arg11 (c : Dev nD) : W9 m c (Proc.devRef .tc main_arg11) = m ((c : Thread nD τ).loc main_arg11) := (W9_of m c main_arg11 (by decide)).trans (W8_arg11 m c)
theorem W10_arg11 (c : Dev nD) : W10 m c (Proc.devRef .tc main_arg11) = m ((c : Thread nD τ).loc main_arg11) := (W10_of m c main_arg11 (by decide)).trans (W9_arg11 m c)
theorem W11_arg11 (c : Dev nD) : W11 m c (Proc.devRef .tc main_arg11) = m ((c : Thread nD τ).loc main_arg11) := (W11_of m c main_arg11 (by decide)).trans (W10_arg11 m c)
theorem W12_arg11 (c : Dev nD) : W12 m c (Proc.devRef .tc main_arg11) = m ((c : Thread nD τ).loc main_arg11) := (W12_of m c main_arg11 (by decide)).trans (W11_arg11 m c)
theorem W13_arg11 (c : Dev nD) : W13 m c (Proc.devRef .tc main_arg11) = m ((c : Thread nD τ).loc main_arg11) := (W13_of m c main_arg11 (by decide)).trans (W12_arg11 m c)
theorem W14_arg11 (c : Dev nD) : W14 m c (Proc.devRef .tc main_arg11) = m ((c : Thread nD τ).loc main_arg11) := (W14_of m c main_arg11 (by decide)).trans (W13_arg11 m c)
theorem W15_arg11 (c : Dev nD) : W15 m c (Proc.devRef .tc main_arg11) = m ((c : Thread nD τ).loc main_arg11) := (W15_of m c main_arg11 (by decide)).trans (W14_arg11 m c)
theorem W16_arg11 (c : Dev nD) : W16 m c (Proc.devRef .tc main_arg11) = m ((c : Thread nD τ).loc main_arg11) := (W16_of m c main_arg11 (by decide)).trans (W15_arg11 m c)
theorem W17_arg11 (c : Dev nD) : W17 m c (Proc.devRef .tc main_arg11) = m ((c : Thread nD τ).loc main_arg11) := (W17_of m c main_arg11 (by decide)).trans (W16_arg11 m c)
theorem W18_arg11 (c : Dev nD) : W18 m c (Proc.devRef .tc main_arg11) = m ((c : Thread nD τ).loc main_arg11) := (W18_of m c main_arg11 (by decide)).trans (W17_arg11 m c)
theorem W19_arg11 (c : Dev nD) : W19 m c (Proc.devRef .tc main_arg11) = m ((c : Thread nD τ).loc main_arg11) := (W19_of m c main_arg11 (by decide)).trans (W18_arg11 m c)
theorem W20_arg11 (c : Dev nD) : W20 m c (Proc.devRef .tc main_arg11) = m ((c : Thread nD τ).loc main_arg11) := (W20_of m c main_arg11 (by decide)).trans (W19_arg11 m c)
theorem W21_arg11 (c : Dev nD) : W21 m c (Proc.devRef .tc main_arg11) = m ((c : Thread nD τ).loc main_arg11) := (W21_of m c main_arg11 (by decide)).trans (W20_arg11 m c)
theorem W22_arg11 (c : Dev nD) : W22 m c (Proc.devRef .tc main_arg11) = m ((c : Thread nD τ).loc main_arg11) := (W22_of m c main_arg11 (by decide)).trans (W21_arg11 m c)
theorem W23_arg11 (c : Dev nD) : W23 m c (Proc.devRef .tc main_arg11) = m ((c : Thread nD τ).loc main_arg11) := (W23_of m c main_arg11 (by decide)).trans (W22_arg11 m c)
theorem W24_arg11 (c : Dev nD) : W24 m c (Proc.devRef .tc main_arg11) = m ((c : Thread nD τ).loc main_arg11) := (W24_of m c main_arg11 (by decide)).trans (W23_arg11 m c)
theorem W25_arg11 (c : Dev nD) : W25 m c (Proc.devRef .tc main_arg11) = m ((c : Thread nD τ).loc main_arg11) := (W25_of m c main_arg11 (by decide)).trans (W24_arg11 m c)
theorem W26_arg11 (c : Dev nD) : W26 m c (Proc.devRef .tc main_arg11) = m ((c : Thread nD τ).loc main_arg11) := (W26_of m c main_arg11 (by decide)).trans (W25_arg11 m c)
theorem W27_arg11 (c : Dev nD) : W27 m c (Proc.devRef .tc main_arg11) = m ((c : Thread nD τ).loc main_arg11) := (W27_of m c main_arg11 (by decide)).trans (W26_arg11 m c)
theorem W28_arg11 (c : Dev nD) : W28 m c (Proc.devRef .tc main_arg11) = m ((c : Thread nD τ).loc main_arg11) := (W28_of m c main_arg11 (by decide)).trans (W27_arg11 m c)
theorem W29_arg11 (c : Dev nD) : W29 m c (Proc.devRef .tc main_arg11) = m ((c : Thread nD τ).loc main_arg11) := (W29_of m c main_arg11 (by decide)).trans (W28_arg11 m c)
theorem W1_arg12 (c : Dev nD) : W1 m c (Proc.devRef .tc main_arg12) = m ((c : Thread nD τ).loc main_arg12) := W1_of m c main_arg12 (by decide)
theorem W2_arg12 (c : Dev nD) : W2 m c (Proc.devRef .tc main_arg12) = m ((c : Thread nD τ).loc main_arg12) := (W2_of m c main_arg12 (by decide)).trans (W1_arg12 m c)
theorem W3_arg12 (c : Dev nD) : W3 m c (Proc.devRef .tc main_arg12) = m ((c : Thread nD τ).loc main_arg12) := (W3_of m c main_arg12 (by decide)).trans (W2_arg12 m c)
theorem W4_arg12 (c : Dev nD) : W4 m c (Proc.devRef .tc main_arg12) = m ((c : Thread nD τ).loc main_arg12) := (W4_of m c main_arg12 (by decide)).trans (W3_arg12 m c)
theorem W5_arg12 (c : Dev nD) : W5 m c (Proc.devRef .tc main_arg12) = m ((c : Thread nD τ).loc main_arg12) := (W5_of m c main_arg12 (by decide)).trans (W4_arg12 m c)
theorem W6_arg12 (c : Dev nD) : W6 m c (Proc.devRef .tc main_arg12) = m ((c : Thread nD τ).loc main_arg12) := (W6_of m c main_arg12 (by decide)).trans (W5_arg12 m c)
theorem W7_arg12 (c : Dev nD) : W7 m c (Proc.devRef .tc main_arg12) = m ((c : Thread nD τ).loc main_arg12) := (W7_of m c main_arg12 (by decide)).trans (W6_arg12 m c)
theorem W8_arg12 (c : Dev nD) : W8 m c (Proc.devRef .tc main_arg12) = m ((c : Thread nD τ).loc main_arg12) := (W8_of m c main_arg12 (by decide)).trans (W7_arg12 m c)
theorem W9_arg12 (c : Dev nD) : W9 m c (Proc.devRef .tc main_arg12) = m ((c : Thread nD τ).loc main_arg12) := (W9_of m c main_arg12 (by decide)).trans (W8_arg12 m c)
theorem W10_arg12 (c : Dev nD) : W10 m c (Proc.devRef .tc main_arg12) = m ((c : Thread nD τ).loc main_arg12) := (W10_of m c main_arg12 (by decide)).trans (W9_arg12 m c)
theorem W11_arg12 (c : Dev nD) : W11 m c (Proc.devRef .tc main_arg12) = m ((c : Thread nD τ).loc main_arg12) := (W11_of m c main_arg12 (by decide)).trans (W10_arg12 m c)
theorem W12_arg12 (c : Dev nD) : W12 m c (Proc.devRef .tc main_arg12) = m ((c : Thread nD τ).loc main_arg12) := (W12_of m c main_arg12 (by decide)).trans (W11_arg12 m c)
theorem W13_arg12 (c : Dev nD) : W13 m c (Proc.devRef .tc main_arg12) = m ((c : Thread nD τ).loc main_arg12) := (W13_of m c main_arg12 (by decide)).trans (W12_arg12 m c)
theorem W14_arg12 (c : Dev nD) : W14 m c (Proc.devRef .tc main_arg12) = m ((c : Thread nD τ).loc main_arg12) := (W14_of m c main_arg12 (by decide)).trans (W13_arg12 m c)
theorem W15_arg12 (c : Dev nD) : W15 m c (Proc.devRef .tc main_arg12) = m ((c : Thread nD τ).loc main_arg12) := (W15_of m c main_arg12 (by decide)).trans (W14_arg12 m c)
theorem W16_arg12 (c : Dev nD) : W16 m c (Proc.devRef .tc main_arg12) = m ((c : Thread nD τ).loc main_arg12) := (W16_of m c main_arg12 (by decide)).trans (W15_arg12 m c)
theorem W17_arg12 (c : Dev nD) : W17 m c (Proc.devRef .tc main_arg12) = m ((c : Thread nD τ).loc main_arg12) := (W17_of m c main_arg12 (by decide)).trans (W16_arg12 m c)
theorem W18_arg12 (c : Dev nD) : W18 m c (Proc.devRef .tc main_arg12) = m ((c : Thread nD τ).loc main_arg12) := (W18_of m c main_arg12 (by decide)).trans (W17_arg12 m c)
theorem W19_arg12 (c : Dev nD) : W19 m c (Proc.devRef .tc main_arg12) = m ((c : Thread nD τ).loc main_arg12) := (W19_of m c main_arg12 (by decide)).trans (W18_arg12 m c)
theorem W20_arg12 (c : Dev nD) : W20 m c (Proc.devRef .tc main_arg12) = m ((c : Thread nD τ).loc main_arg12) := (W20_of m c main_arg12 (by decide)).trans (W19_arg12 m c)
theorem W21_arg12 (c : Dev nD) : W21 m c (Proc.devRef .tc main_arg12) = m ((c : Thread nD τ).loc main_arg12) := (W21_of m c main_arg12 (by decide)).trans (W20_arg12 m c)
theorem W22_arg12 (c : Dev nD) : W22 m c (Proc.devRef .tc main_arg12) = m ((c : Thread nD τ).loc main_arg12) := (W22_of m c main_arg12 (by decide)).trans (W21_arg12 m c)
theorem W23_arg12 (c : Dev nD) : W23 m c (Proc.devRef .tc main_arg12) = m ((c : Thread nD τ).loc main_arg12) := (W23_of m c main_arg12 (by decide)).trans (W22_arg12 m c)
theorem W24_arg12 (c : Dev nD) : W24 m c (Proc.devRef .tc main_arg12) = m ((c : Thread nD τ).loc main_arg12) := (W24_of m c main_arg12 (by decide)).trans (W23_arg12 m c)
theorem W25_arg12 (c : Dev nD) : W25 m c (Proc.devRef .tc main_arg12) = m ((c : Thread nD τ).loc main_arg12) := (W25_of m c main_arg12 (by decide)).trans (W24_arg12 m c)
theorem W26_arg12 (c : Dev nD) : W26 m c (Proc.devRef .tc main_arg12) = m ((c : Thread nD τ).loc main_arg12) := (W26_of m c main_arg12 (by decide)).trans (W25_arg12 m c)
theorem W27_arg12 (c : Dev nD) : W27 m c (Proc.devRef .tc main_arg12) = m ((c : Thread nD τ).loc main_arg12) := (W27_of m c main_arg12 (by decide)).trans (W26_arg12 m c)
theorem W28_arg12 (c : Dev nD) : W28 m c (Proc.devRef .tc main_arg12) = m ((c : Thread nD τ).loc main_arg12) := (W28_of m c main_arg12 (by decide)).trans (W27_arg12 m c)
theorem W29_arg12 (c : Dev nD) : W29 m c (Proc.devRef .tc main_arg12) = m ((c : Thread nD τ).loc main_arg12) := (W29_of m c main_arg12 (by decide)).trans (W28_arg12 m c)
theorem W1_arg13 (c : Dev nD) : W1 m c (Proc.devRef .tc main_arg13) = m ((c : Thread nD τ).loc main_arg13) := W1_of m c main_arg13 (by decide)
theorem W2_arg13 (c : Dev nD) : W2 m c (Proc.devRef .tc main_arg13) = m ((c : Thread nD τ).loc main_arg13) := (W2_of m c main_arg13 (by decide)).trans (W1_arg13 m c)
theorem W3_arg13 (c : Dev nD) : W3 m c (Proc.devRef .tc main_arg13) = m ((c : Thread nD τ).loc main_arg13) := (W3_of m c main_arg13 (by decide)).trans (W2_arg13 m c)
theorem W4_arg13 (c : Dev nD) : W4 m c (Proc.devRef .tc main_arg13) = m ((c : Thread nD τ).loc main_arg13) := (W4_of m c main_arg13 (by decide)).trans (W3_arg13 m c)
theorem W5_arg13 (c : Dev nD) : W5 m c (Proc.devRef .tc main_arg13) = m ((c : Thread nD τ).loc main_arg13) := (W5_of m c main_arg13 (by decide)).trans (W4_arg13 m c)
theorem W6_arg13 (c : Dev nD) : W6 m c (Proc.devRef .tc main_arg13) = m ((c : Thread nD τ).loc main_arg13) := (W6_of m c main_arg13 (by decide)).trans (W5_arg13 m c)
theorem W7_arg13 (c : Dev nD) : W7 m c (Proc.devRef .tc main_arg13) = m ((c : Thread nD τ).loc main_arg13) := (W7_of m c main_arg13 (by decide)).trans (W6_arg13 m c)
theorem W8_arg13 (c : Dev nD) : W8 m c (Proc.devRef .tc main_arg13) = m ((c : Thread nD τ).loc main_arg13) := (W8_of m c main_arg13 (by decide)).trans (W7_arg13 m c)
theorem W9_arg13 (c : Dev nD) : W9 m c (Proc.devRef .tc main_arg13) = m ((c : Thread nD τ).loc main_arg13) := (W9_of m c main_arg13 (by decide)).trans (W8_arg13 m c)
theorem W10_arg13 (c : Dev nD) : W10 m c (Proc.devRef .tc main_arg13) = m ((c : Thread nD τ).loc main_arg13) := (W10_of m c main_arg13 (by decide)).trans (W9_arg13 m c)
theorem W11_arg13 (c : Dev nD) : W11 m c (Proc.devRef .tc main_arg13) = m ((c : Thread nD τ).loc main_arg13) := (W11_of m c main_arg13 (by decide)).trans (W10_arg13 m c)
theorem W12_arg13 (c : Dev nD) : W12 m c (Proc.devRef .tc main_arg13) = m ((c : Thread nD τ).loc main_arg13) := (W12_of m c main_arg13 (by decide)).trans (W11_arg13 m c)
theorem W13_arg13 (c : Dev nD) : W13 m c (Proc.devRef .tc main_arg13) = m ((c : Thread nD τ).loc main_arg13) := (W13_of m c main_arg13 (by decide)).trans (W12_arg13 m c)
theorem W14_arg13 (c : Dev nD) : W14 m c (Proc.devRef .tc main_arg13) = m ((c : Thread nD τ).loc main_arg13) := (W14_of m c main_arg13 (by decide)).trans (W13_arg13 m c)
theorem W15_arg13 (c : Dev nD) : W15 m c (Proc.devRef .tc main_arg13) = m ((c : Thread nD τ).loc main_arg13) := (W15_of m c main_arg13 (by decide)).trans (W14_arg13 m c)
theorem W16_arg13 (c : Dev nD) : W16 m c (Proc.devRef .tc main_arg13) = m ((c : Thread nD τ).loc main_arg13) := (W16_of m c main_arg13 (by decide)).trans (W15_arg13 m c)
theorem W17_arg13 (c : Dev nD) : W17 m c (Proc.devRef .tc main_arg13) = m ((c : Thread nD τ).loc main_arg13) := (W17_of m c main_arg13 (by decide)).trans (W16_arg13 m c)
theorem W18_arg13 (c : Dev nD) : W18 m c (Proc.devRef .tc main_arg13) = m ((c : Thread nD τ).loc main_arg13) := (W18_of m c main_arg13 (by decide)).trans (W17_arg13 m c)
theorem W19_arg13 (c : Dev nD) : W19 m c (Proc.devRef .tc main_arg13) = m ((c : Thread nD τ).loc main_arg13) := (W19_of m c main_arg13 (by decide)).trans (W18_arg13 m c)
theorem W20_arg13 (c : Dev nD) : W20 m c (Proc.devRef .tc main_arg13) = m ((c : Thread nD τ).loc main_arg13) := (W20_of m c main_arg13 (by decide)).trans (W19_arg13 m c)
theorem W21_arg13 (c : Dev nD) : W21 m c (Proc.devRef .tc main_arg13) = m ((c : Thread nD τ).loc main_arg13) := (W21_of m c main_arg13 (by decide)).trans (W20_arg13 m c)
theorem W22_arg13 (c : Dev nD) : W22 m c (Proc.devRef .tc main_arg13) = m ((c : Thread nD τ).loc main_arg13) := (W22_of m c main_arg13 (by decide)).trans (W21_arg13 m c)
theorem W23_arg13 (c : Dev nD) : W23 m c (Proc.devRef .tc main_arg13) = m ((c : Thread nD τ).loc main_arg13) := (W23_of m c main_arg13 (by decide)).trans (W22_arg13 m c)
theorem W24_arg13 (c : Dev nD) : W24 m c (Proc.devRef .tc main_arg13) = m ((c : Thread nD τ).loc main_arg13) := (W24_of m c main_arg13 (by decide)).trans (W23_arg13 m c)
theorem W25_arg13 (c : Dev nD) : W25 m c (Proc.devRef .tc main_arg13) = m ((c : Thread nD τ).loc main_arg13) := (W25_of m c main_arg13 (by decide)).trans (W24_arg13 m c)
theorem W26_arg13 (c : Dev nD) : W26 m c (Proc.devRef .tc main_arg13) = m ((c : Thread nD τ).loc main_arg13) := (W26_of m c main_arg13 (by decide)).trans (W25_arg13 m c)
theorem W27_arg13 (c : Dev nD) : W27 m c (Proc.devRef .tc main_arg13) = m ((c : Thread nD τ).loc main_arg13) := (W27_of m c main_arg13 (by decide)).trans (W26_arg13 m c)
theorem W28_arg13 (c : Dev nD) : W28 m c (Proc.devRef .tc main_arg13) = m ((c : Thread nD τ).loc main_arg13) := (W28_of m c main_arg13 (by decide)).trans (W27_arg13 m c)
theorem W29_arg13 (c : Dev nD) : W29 m c (Proc.devRef .tc main_arg13) = m ((c : Thread nD τ).loc main_arg13) := (W29_of m c main_arg13 (by decide)).trans (W28_arg13 m c)
theorem W1_arg14 (c : Dev nD) : W1 m c (Proc.devRef .tc main_arg14) = m ((c : Thread nD τ).loc main_arg14) := W1_of m c main_arg14 (by decide)
theorem W2_arg14 (c : Dev nD) : W2 m c (Proc.devRef .tc main_arg14) = m ((c : Thread nD τ).loc main_arg14) := (W2_of m c main_arg14 (by decide)).trans (W1_arg14 m c)
theorem W3_arg14 (c : Dev nD) : W3 m c (Proc.devRef .tc main_arg14) = m ((c : Thread nD τ).loc main_arg14) := (W3_of m c main_arg14 (by decide)).trans (W2_arg14 m c)
theorem W4_arg14 (c : Dev nD) : W4 m c (Proc.devRef .tc main_arg14) = m ((c : Thread nD τ).loc main_arg14) := (W4_of m c main_arg14 (by decide)).trans (W3_arg14 m c)
theorem W5_arg14 (c : Dev nD) : W5 m c (Proc.devRef .tc main_arg14) = m ((c : Thread nD τ).loc main_arg14) := (W5_of m c main_arg14 (by decide)).trans (W4_arg14 m c)
theorem W6_arg14 (c : Dev nD) : W6 m c (Proc.devRef .tc main_arg14) = m ((c : Thread nD τ).loc main_arg14) := (W6_of m c main_arg14 (by decide)).trans (W5_arg14 m c)
theorem W7_arg14 (c : Dev nD) : W7 m c (Proc.devRef .tc main_arg14) = m ((c : Thread nD τ).loc main_arg14) := (W7_of m c main_arg14 (by decide)).trans (W6_arg14 m c)
theorem W8_arg14 (c : Dev nD) : W8 m c (Proc.devRef .tc main_arg14) = m ((c : Thread nD τ).loc main_arg14) := (W8_of m c main_arg14 (by decide)).trans (W7_arg14 m c)
theorem W9_arg14 (c : Dev nD) : W9 m c (Proc.devRef .tc main_arg14) = m ((c : Thread nD τ).loc main_arg14) := (W9_of m c main_arg14 (by decide)).trans (W8_arg14 m c)
theorem W10_arg14 (c : Dev nD) : W10 m c (Proc.devRef .tc main_arg14) = m ((c : Thread nD τ).loc main_arg14) := (W10_of m c main_arg14 (by decide)).trans (W9_arg14 m c)
theorem W11_arg14 (c : Dev nD) : W11 m c (Proc.devRef .tc main_arg14) = m ((c : Thread nD τ).loc main_arg14) := (W11_of m c main_arg14 (by decide)).trans (W10_arg14 m c)
theorem W12_arg14 (c : Dev nD) : W12 m c (Proc.devRef .tc main_arg14) = m ((c : Thread nD τ).loc main_arg14) := (W12_of m c main_arg14 (by decide)).trans (W11_arg14 m c)
theorem W13_arg14 (c : Dev nD) : W13 m c (Proc.devRef .tc main_arg14) = m ((c : Thread nD τ).loc main_arg14) := (W13_of m c main_arg14 (by decide)).trans (W12_arg14 m c)
theorem W14_arg14 (c : Dev nD) : W14 m c (Proc.devRef .tc main_arg14) = m ((c : Thread nD τ).loc main_arg14) := (W14_of m c main_arg14 (by decide)).trans (W13_arg14 m c)
theorem W15_arg14 (c : Dev nD) : W15 m c (Proc.devRef .tc main_arg14) = m ((c : Thread nD τ).loc main_arg14) := (W15_of m c main_arg14 (by decide)).trans (W14_arg14 m c)
theorem W16_arg14 (c : Dev nD) : W16 m c (Proc.devRef .tc main_arg14) = m ((c : Thread nD τ).loc main_arg14) := (W16_of m c main_arg14 (by decide)).trans (W15_arg14 m c)
theorem W17_arg14 (c : Dev nD) : W17 m c (Proc.devRef .tc main_arg14) = m ((c : Thread nD τ).loc main_arg14) := (W17_of m c main_arg14 (by decide)).trans (W16_arg14 m c)
theorem W18_arg14 (c : Dev nD) : W18 m c (Proc.devRef .tc main_arg14) = m ((c : Thread nD τ).loc main_arg14) := (W18_of m c main_arg14 (by decide)).trans (W17_arg14 m c)
theorem W19_arg14 (c : Dev nD) : W19 m c (Proc.devRef .tc main_arg14) = m ((c : Thread nD τ).loc main_arg14) := (W19_of m c main_arg14 (by decide)).trans (W18_arg14 m c)
theorem W20_arg14 (c : Dev nD) : W20 m c (Proc.devRef .tc main_arg14) = m ((c : Thread nD τ).loc main_arg14) := (W20_of m c main_arg14 (by decide)).trans (W19_arg14 m c)
theorem W21_arg14 (c : Dev nD) : W21 m c (Proc.devRef .tc main_arg14) = m ((c : Thread nD τ).loc main_arg14) := (W21_of m c main_arg14 (by decide)).trans (W20_arg14 m c)
theorem W22_arg14 (c : Dev nD) : W22 m c (Proc.devRef .tc main_arg14) = m ((c : Thread nD τ).loc main_arg14) := (W22_of m c main_arg14 (by decide)).trans (W21_arg14 m c)
theorem W23_arg14 (c : Dev nD) : W23 m c (Proc.devRef .tc main_arg14) = m ((c : Thread nD τ).loc main_arg14) := (W23_of m c main_arg14 (by decide)).trans (W22_arg14 m c)
theorem W24_arg14 (c : Dev nD) : W24 m c (Proc.devRef .tc main_arg14) = m ((c : Thread nD τ).loc main_arg14) := (W24_of m c main_arg14 (by decide)).trans (W23_arg14 m c)
theorem W25_arg14 (c : Dev nD) : W25 m c (Proc.devRef .tc main_arg14) = m ((c : Thread nD τ).loc main_arg14) := (W25_of m c main_arg14 (by decide)).trans (W24_arg14 m c)
theorem W26_arg14 (c : Dev nD) : W26 m c (Proc.devRef .tc main_arg14) = m ((c : Thread nD τ).loc main_arg14) := (W26_of m c main_arg14 (by decide)).trans (W25_arg14 m c)
theorem W27_arg14 (c : Dev nD) : W27 m c (Proc.devRef .tc main_arg14) = m ((c : Thread nD τ).loc main_arg14) := (W27_of m c main_arg14 (by decide)).trans (W26_arg14 m c)
theorem W28_arg14 (c : Dev nD) : W28 m c (Proc.devRef .tc main_arg14) = m ((c : Thread nD τ).loc main_arg14) := (W28_of m c main_arg14 (by decide)).trans (W27_arg14 m c)
theorem W29_arg14 (c : Dev nD) : W29 m c (Proc.devRef .tc main_arg14) = m ((c : Thread nD τ).loc main_arg14) := (W29_of m c main_arg14 (by decide)).trans (W28_arg14 m c)
theorem W1_arg15 (c : Dev nD) : W1 m c (Proc.devRef .tc main_arg15) = m ((c : Thread nD τ).loc main_arg15) := W1_of m c main_arg15 (by decide)
theorem W2_arg15 (c : Dev nD) : W2 m c (Proc.devRef .tc main_arg15) = m ((c : Thread nD τ).loc main_arg15) := (W2_of m c main_arg15 (by decide)).trans (W1_arg15 m c)
theorem W3_arg15 (c : Dev nD) : W3 m c (Proc.devRef .tc main_arg15) = m ((c : Thread nD τ).loc main_arg15) := (W3_of m c main_arg15 (by decide)).trans (W2_arg15 m c)
theorem W4_arg15 (c : Dev nD) : W4 m c (Proc.devRef .tc main_arg15) = m ((c : Thread nD τ).loc main_arg15) := (W4_of m c main_arg15 (by decide)).trans (W3_arg15 m c)
theorem W5_arg15 (c : Dev nD) : W5 m c (Proc.devRef .tc main_arg15) = m ((c : Thread nD τ).loc main_arg15) := (W5_of m c main_arg15 (by decide)).trans (W4_arg15 m c)
theorem W6_arg15 (c : Dev nD) : W6 m c (Proc.devRef .tc main_arg15) = m ((c : Thread nD τ).loc main_arg15) := (W6_of m c main_arg15 (by decide)).trans (W5_arg15 m c)
theorem W7_arg15 (c : Dev nD) : W7 m c (Proc.devRef .tc main_arg15) = m ((c : Thread nD τ).loc main_arg15) := (W7_of m c main_arg15 (by decide)).trans (W6_arg15 m c)
theorem W8_arg15 (c : Dev nD) : W8 m c (Proc.devRef .tc main_arg15) = m ((c : Thread nD τ).loc main_arg15) := (W8_of m c main_arg15 (by decide)).trans (W7_arg15 m c)
theorem W9_arg15 (c : Dev nD) : W9 m c (Proc.devRef .tc main_arg15) = m ((c : Thread nD τ).loc main_arg15) := (W9_of m c main_arg15 (by decide)).trans (W8_arg15 m c)
theorem W10_arg15 (c : Dev nD) : W10 m c (Proc.devRef .tc main_arg15) = m ((c : Thread nD τ).loc main_arg15) := (W10_of m c main_arg15 (by decide)).trans (W9_arg15 m c)
theorem W11_arg15 (c : Dev nD) : W11 m c (Proc.devRef .tc main_arg15) = m ((c : Thread nD τ).loc main_arg15) := (W11_of m c main_arg15 (by decide)).trans (W10_arg15 m c)
theorem W12_arg15 (c : Dev nD) : W12 m c (Proc.devRef .tc main_arg15) = m ((c : Thread nD τ).loc main_arg15) := (W12_of m c main_arg15 (by decide)).trans (W11_arg15 m c)
theorem W13_arg15 (c : Dev nD) : W13 m c (Proc.devRef .tc main_arg15) = m ((c : Thread nD τ).loc main_arg15) := (W13_of m c main_arg15 (by decide)).trans (W12_arg15 m c)
theorem W14_arg15 (c : Dev nD) : W14 m c (Proc.devRef .tc main_arg15) = m ((c : Thread nD τ).loc main_arg15) := (W14_of m c main_arg15 (by decide)).trans (W13_arg15 m c)
theorem W15_arg15 (c : Dev nD) : W15 m c (Proc.devRef .tc main_arg15) = m ((c : Thread nD τ).loc main_arg15) := (W15_of m c main_arg15 (by decide)).trans (W14_arg15 m c)
theorem W16_arg15 (c : Dev nD) : W16 m c (Proc.devRef .tc main_arg15) = m ((c : Thread nD τ).loc main_arg15) := (W16_of m c main_arg15 (by decide)).trans (W15_arg15 m c)
theorem W17_arg15 (c : Dev nD) : W17 m c (Proc.devRef .tc main_arg15) = m ((c : Thread nD τ).loc main_arg15) := (W17_of m c main_arg15 (by decide)).trans (W16_arg15 m c)
theorem W18_arg15 (c : Dev nD) : W18 m c (Proc.devRef .tc main_arg15) = m ((c : Thread nD τ).loc main_arg15) := (W18_of m c main_arg15 (by decide)).trans (W17_arg15 m c)
theorem W19_arg15 (c : Dev nD) : W19 m c (Proc.devRef .tc main_arg15) = m ((c : Thread nD τ).loc main_arg15) := (W19_of m c main_arg15 (by decide)).trans (W18_arg15 m c)
theorem W20_arg15 (c : Dev nD) : W20 m c (Proc.devRef .tc main_arg15) = m ((c : Thread nD τ).loc main_arg15) := (W20_of m c main_arg15 (by decide)).trans (W19_arg15 m c)
theorem W21_arg15 (c : Dev nD) : W21 m c (Proc.devRef .tc main_arg15) = m ((c : Thread nD τ).loc main_arg15) := (W21_of m c main_arg15 (by decide)).trans (W20_arg15 m c)
theorem W22_arg15 (c : Dev nD) : W22 m c (Proc.devRef .tc main_arg15) = m ((c : Thread nD τ).loc main_arg15) := (W22_of m c main_arg15 (by decide)).trans (W21_arg15 m c)
theorem W23_arg15 (c : Dev nD) : W23 m c (Proc.devRef .tc main_arg15) = m ((c : Thread nD τ).loc main_arg15) := (W23_of m c main_arg15 (by decide)).trans (W22_arg15 m c)
theorem W24_arg15 (c : Dev nD) : W24 m c (Proc.devRef .tc main_arg15) = m ((c : Thread nD τ).loc main_arg15) := (W24_of m c main_arg15 (by decide)).trans (W23_arg15 m c)
theorem W25_arg15 (c : Dev nD) : W25 m c (Proc.devRef .tc main_arg15) = m ((c : Thread nD τ).loc main_arg15) := (W25_of m c main_arg15 (by decide)).trans (W24_arg15 m c)
theorem W26_arg15 (c : Dev nD) : W26 m c (Proc.devRef .tc main_arg15) = m ((c : Thread nD τ).loc main_arg15) := (W26_of m c main_arg15 (by decide)).trans (W25_arg15 m c)
theorem W27_arg15 (c : Dev nD) : W27 m c (Proc.devRef .tc main_arg15) = m ((c : Thread nD τ).loc main_arg15) := (W27_of m c main_arg15 (by decide)).trans (W26_arg15 m c)
theorem W28_arg15 (c : Dev nD) : W28 m c (Proc.devRef .tc main_arg15) = m ((c : Thread nD τ).loc main_arg15) := (W28_of m c main_arg15 (by decide)).trans (W27_arg15 m c)
theorem W29_arg15 (c : Dev nD) : W29 m c (Proc.devRef .tc main_arg15) = m ((c : Thread nD τ).loc main_arg15) := (W29_of m c main_arg15 (by decide)).trans (W28_arg15 m c)
theorem W1_arg16 (c : Dev nD) : W1 m c (Proc.devRef .tc main_arg16) = m ((c : Thread nD τ).loc main_arg16) := W1_of m c main_arg16 (by decide)
theorem W2_arg16 (c : Dev nD) : W2 m c (Proc.devRef .tc main_arg16) = m ((c : Thread nD τ).loc main_arg16) := (W2_of m c main_arg16 (by decide)).trans (W1_arg16 m c)
theorem W3_arg16 (c : Dev nD) : W3 m c (Proc.devRef .tc main_arg16) = m ((c : Thread nD τ).loc main_arg16) := (W3_of m c main_arg16 (by decide)).trans (W2_arg16 m c)
theorem W4_arg16 (c : Dev nD) : W4 m c (Proc.devRef .tc main_arg16) = m ((c : Thread nD τ).loc main_arg16) := (W4_of m c main_arg16 (by decide)).trans (W3_arg16 m c)
theorem W5_arg16 (c : Dev nD) : W5 m c (Proc.devRef .tc main_arg16) = m ((c : Thread nD τ).loc main_arg16) := (W5_of m c main_arg16 (by decide)).trans (W4_arg16 m c)
theorem W6_arg16 (c : Dev nD) : W6 m c (Proc.devRef .tc main_arg16) = m ((c : Thread nD τ).loc main_arg16) := (W6_of m c main_arg16 (by decide)).trans (W5_arg16 m c)
theorem W7_arg16 (c : Dev nD) : W7 m c (Proc.devRef .tc main_arg16) = m ((c : Thread nD τ).loc main_arg16) := (W7_of m c main_arg16 (by decide)).trans (W6_arg16 m c)
theorem W8_arg16 (c : Dev nD) : W8 m c (Proc.devRef .tc main_arg16) = m ((c : Thread nD τ).loc main_arg16) := (W8_of m c main_arg16 (by decide)).trans (W7_arg16 m c)
theorem W9_arg16 (c : Dev nD) : W9 m c (Proc.devRef .tc main_arg16) = m ((c : Thread nD τ).loc main_arg16) := (W9_of m c main_arg16 (by decide)).trans (W8_arg16 m c)
theorem W10_arg16 (c : Dev nD) : W10 m c (Proc.devRef .tc main_arg16) = m ((c : Thread nD τ).loc main_arg16) := (W10_of m c main_arg16 (by decide)).trans (W9_arg16 m c)
theorem W11_arg16 (c : Dev nD) : W11 m c (Proc.devRef .tc main_arg16) = m ((c : Thread nD τ).loc main_arg16) := (W11_of m c main_arg16 (by decide)).trans (W10_arg16 m c)
theorem W12_arg16 (c : Dev nD) : W12 m c (Proc.devRef .tc main_arg16) = m ((c : Thread nD τ).loc main_arg16) := (W12_of m c main_arg16 (by decide)).trans (W11_arg16 m c)
theorem W13_arg16 (c : Dev nD) : W13 m c (Proc.devRef .tc main_arg16) = m ((c : Thread nD τ).loc main_arg16) := (W13_of m c main_arg16 (by decide)).trans (W12_arg16 m c)
theorem W14_arg16 (c : Dev nD) : W14 m c (Proc.devRef .tc main_arg16) = m ((c : Thread nD τ).loc main_arg16) := (W14_of m c main_arg16 (by decide)).trans (W13_arg16 m c)
theorem W15_arg16 (c : Dev nD) : W15 m c (Proc.devRef .tc main_arg16) = m ((c : Thread nD τ).loc main_arg16) := (W15_of m c main_arg16 (by decide)).trans (W14_arg16 m c)
theorem W16_arg16 (c : Dev nD) : W16 m c (Proc.devRef .tc main_arg16) = m ((c : Thread nD τ).loc main_arg16) := (W16_of m c main_arg16 (by decide)).trans (W15_arg16 m c)
theorem W17_arg16 (c : Dev nD) : W17 m c (Proc.devRef .tc main_arg16) = m ((c : Thread nD τ).loc main_arg16) := (W17_of m c main_arg16 (by decide)).trans (W16_arg16 m c)
theorem W18_arg16 (c : Dev nD) : W18 m c (Proc.devRef .tc main_arg16) = m ((c : Thread nD τ).loc main_arg16) := (W18_of m c main_arg16 (by decide)).trans (W17_arg16 m c)
theorem W19_arg16 (c : Dev nD) : W19 m c (Proc.devRef .tc main_arg16) = m ((c : Thread nD τ).loc main_arg16) := (W19_of m c main_arg16 (by decide)).trans (W18_arg16 m c)
theorem W20_arg16 (c : Dev nD) : W20 m c (Proc.devRef .tc main_arg16) = m ((c : Thread nD τ).loc main_arg16) := (W20_of m c main_arg16 (by decide)).trans (W19_arg16 m c)
theorem W21_arg16 (c : Dev nD) : W21 m c (Proc.devRef .tc main_arg16) = m ((c : Thread nD τ).loc main_arg16) := (W21_of m c main_arg16 (by decide)).trans (W20_arg16 m c)
theorem W22_arg16 (c : Dev nD) : W22 m c (Proc.devRef .tc main_arg16) = m ((c : Thread nD τ).loc main_arg16) := (W22_of m c main_arg16 (by decide)).trans (W21_arg16 m c)
theorem W23_arg16 (c : Dev nD) : W23 m c (Proc.devRef .tc main_arg16) = m ((c : Thread nD τ).loc main_arg16) := (W23_of m c main_arg16 (by decide)).trans (W22_arg16 m c)
theorem W24_arg16 (c : Dev nD) : W24 m c (Proc.devRef .tc main_arg16) = m ((c : Thread nD τ).loc main_arg16) := (W24_of m c main_arg16 (by decide)).trans (W23_arg16 m c)
theorem W25_arg16 (c : Dev nD) : W25 m c (Proc.devRef .tc main_arg16) = m ((c : Thread nD τ).loc main_arg16) := (W25_of m c main_arg16 (by decide)).trans (W24_arg16 m c)
theorem W26_arg16 (c : Dev nD) : W26 m c (Proc.devRef .tc main_arg16) = m ((c : Thread nD τ).loc main_arg16) := (W26_of m c main_arg16 (by decide)).trans (W25_arg16 m c)
theorem W27_arg16 (c : Dev nD) : W27 m c (Proc.devRef .tc main_arg16) = m ((c : Thread nD τ).loc main_arg16) := (W27_of m c main_arg16 (by decide)).trans (W26_arg16 m c)
theorem W28_arg16 (c : Dev nD) : W28 m c (Proc.devRef .tc main_arg16) = m ((c : Thread nD τ).loc main_arg16) := (W28_of m c main_arg16 (by decide)).trans (W27_arg16 m c)
theorem W29_arg16 (c : Dev nD) : W29 m c (Proc.devRef .tc main_arg16) = m ((c : Thread nD τ).loc main_arg16) := (W29_of m c main_arg16 (by decide)).trans (W28_arg16 m c)
theorem W1_arg17 (c : Dev nD) : W1 m c (Proc.devRef .tc main_arg17) = m ((c : Thread nD τ).loc main_arg17) := W1_of m c main_arg17 (by decide)
theorem W2_arg17 (c : Dev nD) : W2 m c (Proc.devRef .tc main_arg17) = m ((c : Thread nD τ).loc main_arg17) := (W2_of m c main_arg17 (by decide)).trans (W1_arg17 m c)
theorem W3_arg17 (c : Dev nD) : W3 m c (Proc.devRef .tc main_arg17) = m ((c : Thread nD τ).loc main_arg17) := (W3_of m c main_arg17 (by decide)).trans (W2_arg17 m c)
theorem W4_arg17 (c : Dev nD) : W4 m c (Proc.devRef .tc main_arg17) = m ((c : Thread nD τ).loc main_arg17) := (W4_of m c main_arg17 (by decide)).trans (W3_arg17 m c)
theorem W5_arg17 (c : Dev nD) : W5 m c (Proc.devRef .tc main_arg17) = m ((c : Thread nD τ).loc main_arg17) := (W5_of m c main_arg17 (by decide)).trans (W4_arg17 m c)
theorem W6_arg17 (c : Dev nD) : W6 m c (Proc.devRef .tc main_arg17) = m ((c : Thread nD τ).loc main_arg17) := (W6_of m c main_arg17 (by decide)).trans (W5_arg17 m c)
theorem W7_arg17 (c : Dev nD) : W7 m c (Proc.devRef .tc main_arg17) = m ((c : Thread nD τ).loc main_arg17) := (W7_of m c main_arg17 (by decide)).trans (W6_arg17 m c)
theorem W8_arg17 (c : Dev nD) : W8 m c (Proc.devRef .tc main_arg17) = m ((c : Thread nD τ).loc main_arg17) := (W8_of m c main_arg17 (by decide)).trans (W7_arg17 m c)
theorem W9_arg17 (c : Dev nD) : W9 m c (Proc.devRef .tc main_arg17) = m ((c : Thread nD τ).loc main_arg17) := (W9_of m c main_arg17 (by decide)).trans (W8_arg17 m c)
theorem W10_arg17 (c : Dev nD) : W10 m c (Proc.devRef .tc main_arg17) = m ((c : Thread nD τ).loc main_arg17) := (W10_of m c main_arg17 (by decide)).trans (W9_arg17 m c)
theorem W11_arg17 (c : Dev nD) : W11 m c (Proc.devRef .tc main_arg17) = m ((c : Thread nD τ).loc main_arg17) := (W11_of m c main_arg17 (by decide)).trans (W10_arg17 m c)
theorem W12_arg17 (c : Dev nD) : W12 m c (Proc.devRef .tc main_arg17) = m ((c : Thread nD τ).loc main_arg17) := (W12_of m c main_arg17 (by decide)).trans (W11_arg17 m c)
theorem W13_arg17 (c : Dev nD) : W13 m c (Proc.devRef .tc main_arg17) = m ((c : Thread nD τ).loc main_arg17) := (W13_of m c main_arg17 (by decide)).trans (W12_arg17 m c)
theorem W14_arg17 (c : Dev nD) : W14 m c (Proc.devRef .tc main_arg17) = m ((c : Thread nD τ).loc main_arg17) := (W14_of m c main_arg17 (by decide)).trans (W13_arg17 m c)
theorem W15_arg17 (c : Dev nD) : W15 m c (Proc.devRef .tc main_arg17) = m ((c : Thread nD τ).loc main_arg17) := (W15_of m c main_arg17 (by decide)).trans (W14_arg17 m c)
theorem W16_arg17 (c : Dev nD) : W16 m c (Proc.devRef .tc main_arg17) = m ((c : Thread nD τ).loc main_arg17) := (W16_of m c main_arg17 (by decide)).trans (W15_arg17 m c)
theorem W17_arg17 (c : Dev nD) : W17 m c (Proc.devRef .tc main_arg17) = m ((c : Thread nD τ).loc main_arg17) := (W17_of m c main_arg17 (by decide)).trans (W16_arg17 m c)
theorem W18_arg17 (c : Dev nD) : W18 m c (Proc.devRef .tc main_arg17) = m ((c : Thread nD τ).loc main_arg17) := (W18_of m c main_arg17 (by decide)).trans (W17_arg17 m c)
theorem W19_arg17 (c : Dev nD) : W19 m c (Proc.devRef .tc main_arg17) = m ((c : Thread nD τ).loc main_arg17) := (W19_of m c main_arg17 (by decide)).trans (W18_arg17 m c)
theorem W20_arg17 (c : Dev nD) : W20 m c (Proc.devRef .tc main_arg17) = m ((c : Thread nD τ).loc main_arg17) := (W20_of m c main_arg17 (by decide)).trans (W19_arg17 m c)
theorem W21_arg17 (c : Dev nD) : W21 m c (Proc.devRef .tc main_arg17) = m ((c : Thread nD τ).loc main_arg17) := (W21_of m c main_arg17 (by decide)).trans (W20_arg17 m c)
theorem W22_arg17 (c : Dev nD) : W22 m c (Proc.devRef .tc main_arg17) = m ((c : Thread nD τ).loc main_arg17) := (W22_of m c main_arg17 (by decide)).trans (W21_arg17 m c)
theorem W23_arg17 (c : Dev nD) : W23 m c (Proc.devRef .tc main_arg17) = m ((c : Thread nD τ).loc main_arg17) := (W23_of m c main_arg17 (by decide)).trans (W22_arg17 m c)
theorem W24_arg17 (c : Dev nD) : W24 m c (Proc.devRef .tc main_arg17) = m ((c : Thread nD τ).loc main_arg17) := (W24_of m c main_arg17 (by decide)).trans (W23_arg17 m c)
theorem W25_arg17 (c : Dev nD) : W25 m c (Proc.devRef .tc main_arg17) = m ((c : Thread nD τ).loc main_arg17) := (W25_of m c main_arg17 (by decide)).trans (W24_arg17 m c)
theorem W26_arg17 (c : Dev nD) : W26 m c (Proc.devRef .tc main_arg17) = m ((c : Thread nD τ).loc main_arg17) := (W26_of m c main_arg17 (by decide)).trans (W25_arg17 m c)
theorem W27_arg17 (c : Dev nD) : W27 m c (Proc.devRef .tc main_arg17) = m ((c : Thread nD τ).loc main_arg17) := (W27_of m c main_arg17 (by decide)).trans (W26_arg17 m c)
theorem W28_arg17 (c : Dev nD) : W28 m c (Proc.devRef .tc main_arg17) = m ((c : Thread nD τ).loc main_arg17) := (W28_of m c main_arg17 (by decide)).trans (W27_arg17 m c)
theorem W29_arg17 (c : Dev nD) : W29 m c (Proc.devRef .tc main_arg17) = m ((c : Thread nD τ).loc main_arg17) := (W29_of m c main_arg17 (by decide)).trans (W28_arg17 m c)
theorem W1_arg18 (c : Dev nD) : W1 m c (Proc.devRef .tc main_arg18) = m ((c : Thread nD τ).loc main_arg18) := W1_of m c main_arg18 (by decide)
theorem W2_arg18 (c : Dev nD) : W2 m c (Proc.devRef .tc main_arg18) = m ((c : Thread nD τ).loc main_arg18) := (W2_of m c main_arg18 (by decide)).trans (W1_arg18 m c)
theorem W3_arg18 (c : Dev nD) : W3 m c (Proc.devRef .tc main_arg18) = m ((c : Thread nD τ).loc main_arg18) := (W3_of m c main_arg18 (by decide)).trans (W2_arg18 m c)
theorem W4_arg18 (c : Dev nD) : W4 m c (Proc.devRef .tc main_arg18) = m ((c : Thread nD τ).loc main_arg18) := (W4_of m c main_arg18 (by decide)).trans (W3_arg18 m c)
theorem W5_arg18 (c : Dev nD) : W5 m c (Proc.devRef .tc main_arg18) = m ((c : Thread nD τ).loc main_arg18) := (W5_of m c main_arg18 (by decide)).trans (W4_arg18 m c)
theorem W6_arg18 (c : Dev nD) : W6 m c (Proc.devRef .tc main_arg18) = m ((c : Thread nD τ).loc main_arg18) := (W6_of m c main_arg18 (by decide)).trans (W5_arg18 m c)
theorem W7_arg18 (c : Dev nD) : W7 m c (Proc.devRef .tc main_arg18) = m ((c : Thread nD τ).loc main_arg18) := (W7_of m c main_arg18 (by decide)).trans (W6_arg18 m c)
theorem W8_arg18 (c : Dev nD) : W8 m c (Proc.devRef .tc main_arg18) = m ((c : Thread nD τ).loc main_arg18) := (W8_of m c main_arg18 (by decide)).trans (W7_arg18 m c)
theorem W9_arg18 (c : Dev nD) : W9 m c (Proc.devRef .tc main_arg18) = m ((c : Thread nD τ).loc main_arg18) := (W9_of m c main_arg18 (by decide)).trans (W8_arg18 m c)
theorem W10_arg18 (c : Dev nD) : W10 m c (Proc.devRef .tc main_arg18) = m ((c : Thread nD τ).loc main_arg18) := (W10_of m c main_arg18 (by decide)).trans (W9_arg18 m c)
theorem W11_arg18 (c : Dev nD) : W11 m c (Proc.devRef .tc main_arg18) = m ((c : Thread nD τ).loc main_arg18) := (W11_of m c main_arg18 (by decide)).trans (W10_arg18 m c)
theorem W12_arg18 (c : Dev nD) : W12 m c (Proc.devRef .tc main_arg18) = m ((c : Thread nD τ).loc main_arg18) := (W12_of m c main_arg18 (by decide)).trans (W11_arg18 m c)
theorem W13_arg18 (c : Dev nD) : W13 m c (Proc.devRef .tc main_arg18) = m ((c : Thread nD τ).loc main_arg18) := (W13_of m c main_arg18 (by decide)).trans (W12_arg18 m c)
theorem W14_arg18 (c : Dev nD) : W14 m c (Proc.devRef .tc main_arg18) = m ((c : Thread nD τ).loc main_arg18) := (W14_of m c main_arg18 (by decide)).trans (W13_arg18 m c)
theorem W15_arg18 (c : Dev nD) : W15 m c (Proc.devRef .tc main_arg18) = m ((c : Thread nD τ).loc main_arg18) := (W15_of m c main_arg18 (by decide)).trans (W14_arg18 m c)
theorem W16_arg18 (c : Dev nD) : W16 m c (Proc.devRef .tc main_arg18) = m ((c : Thread nD τ).loc main_arg18) := (W16_of m c main_arg18 (by decide)).trans (W15_arg18 m c)
theorem W17_arg18 (c : Dev nD) : W17 m c (Proc.devRef .tc main_arg18) = m ((c : Thread nD τ).loc main_arg18) := (W17_of m c main_arg18 (by decide)).trans (W16_arg18 m c)
theorem W18_arg18 (c : Dev nD) : W18 m c (Proc.devRef .tc main_arg18) = m ((c : Thread nD τ).loc main_arg18) := (W18_of m c main_arg18 (by decide)).trans (W17_arg18 m c)
theorem W19_arg18 (c : Dev nD) : W19 m c (Proc.devRef .tc main_arg18) = m ((c : Thread nD τ).loc main_arg18) := (W19_of m c main_arg18 (by decide)).trans (W18_arg18 m c)
theorem W20_arg18 (c : Dev nD) : W20 m c (Proc.devRef .tc main_arg18) = m ((c : Thread nD τ).loc main_arg18) := (W20_of m c main_arg18 (by decide)).trans (W19_arg18 m c)
theorem W21_arg18 (c : Dev nD) : W21 m c (Proc.devRef .tc main_arg18) = m ((c : Thread nD τ).loc main_arg18) := (W21_of m c main_arg18 (by decide)).trans (W20_arg18 m c)
theorem W22_arg18 (c : Dev nD) : W22 m c (Proc.devRef .tc main_arg18) = m ((c : Thread nD τ).loc main_arg18) := (W22_of m c main_arg18 (by decide)).trans (W21_arg18 m c)
theorem W23_arg18 (c : Dev nD) : W23 m c (Proc.devRef .tc main_arg18) = m ((c : Thread nD τ).loc main_arg18) := (W23_of m c main_arg18 (by decide)).trans (W22_arg18 m c)
theorem W24_arg18 (c : Dev nD) : W24 m c (Proc.devRef .tc main_arg18) = m ((c : Thread nD τ).loc main_arg18) := (W24_of m c main_arg18 (by decide)).trans (W23_arg18 m c)
theorem W25_arg18 (c : Dev nD) : W25 m c (Proc.devRef .tc main_arg18) = m ((c : Thread nD τ).loc main_arg18) := (W25_of m c main_arg18 (by decide)).trans (W24_arg18 m c)
theorem W26_arg18 (c : Dev nD) : W26 m c (Proc.devRef .tc main_arg18) = m ((c : Thread nD τ).loc main_arg18) := (W26_of m c main_arg18 (by decide)).trans (W25_arg18 m c)
theorem W27_arg18 (c : Dev nD) : W27 m c (Proc.devRef .tc main_arg18) = m ((c : Thread nD τ).loc main_arg18) := (W27_of m c main_arg18 (by decide)).trans (W26_arg18 m c)
theorem W28_arg18 (c : Dev nD) : W28 m c (Proc.devRef .tc main_arg18) = m ((c : Thread nD τ).loc main_arg18) := (W28_of m c main_arg18 (by decide)).trans (W27_arg18 m c)
theorem W29_arg18 (c : Dev nD) : W29 m c (Proc.devRef .tc main_arg18) = m ((c : Thread nD τ).loc main_arg18) := (W29_of m c main_arg18 (by decide)).trans (W28_arg18 m c)
theorem W1_arg19 (c : Dev nD) : W1 m c (Proc.devRef .tc main_arg19) = m ((c : Thread nD τ).loc main_arg19) := W1_of m c main_arg19 (by decide)
theorem W2_arg19 (c : Dev nD) : W2 m c (Proc.devRef .tc main_arg19) = m ((c : Thread nD τ).loc main_arg19) := (W2_of m c main_arg19 (by decide)).trans (W1_arg19 m c)
theorem W3_arg19 (c : Dev nD) : W3 m c (Proc.devRef .tc main_arg19) = m ((c : Thread nD τ).loc main_arg19) := (W3_of m c main_arg19 (by decide)).trans (W2_arg19 m c)
theorem W4_arg19 (c : Dev nD) : W4 m c (Proc.devRef .tc main_arg19) = m ((c : Thread nD τ).loc main_arg19) := (W4_of m c main_arg19 (by decide)).trans (W3_arg19 m c)
theorem W5_arg19 (c : Dev nD) : W5 m c (Proc.devRef .tc main_arg19) = m ((c : Thread nD τ).loc main_arg19) := (W5_of m c main_arg19 (by decide)).trans (W4_arg19 m c)
theorem W6_arg19 (c : Dev nD) : W6 m c (Proc.devRef .tc main_arg19) = m ((c : Thread nD τ).loc main_arg19) := (W6_of m c main_arg19 (by decide)).trans (W5_arg19 m c)
theorem W7_arg19 (c : Dev nD) : W7 m c (Proc.devRef .tc main_arg19) = m ((c : Thread nD τ).loc main_arg19) := (W7_of m c main_arg19 (by decide)).trans (W6_arg19 m c)
theorem W8_arg19 (c : Dev nD) : W8 m c (Proc.devRef .tc main_arg19) = m ((c : Thread nD τ).loc main_arg19) := (W8_of m c main_arg19 (by decide)).trans (W7_arg19 m c)
theorem W9_arg19 (c : Dev nD) : W9 m c (Proc.devRef .tc main_arg19) = m ((c : Thread nD τ).loc main_arg19) := (W9_of m c main_arg19 (by decide)).trans (W8_arg19 m c)
theorem W10_arg19 (c : Dev nD) : W10 m c (Proc.devRef .tc main_arg19) = m ((c : Thread nD τ).loc main_arg19) := (W10_of m c main_arg19 (by decide)).trans (W9_arg19 m c)
theorem W11_arg19 (c : Dev nD) : W11 m c (Proc.devRef .tc main_arg19) = m ((c : Thread nD τ).loc main_arg19) := (W11_of m c main_arg19 (by decide)).trans (W10_arg19 m c)
theorem W12_arg19 (c : Dev nD) : W12 m c (Proc.devRef .tc main_arg19) = m ((c : Thread nD τ).loc main_arg19) := (W12_of m c main_arg19 (by decide)).trans (W11_arg19 m c)
theorem W13_arg19 (c : Dev nD) : W13 m c (Proc.devRef .tc main_arg19) = m ((c : Thread nD τ).loc main_arg19) := (W13_of m c main_arg19 (by decide)).trans (W12_arg19 m c)
theorem W14_arg19 (c : Dev nD) : W14 m c (Proc.devRef .tc main_arg19) = m ((c : Thread nD τ).loc main_arg19) := (W14_of m c main_arg19 (by decide)).trans (W13_arg19 m c)
theorem W15_arg19 (c : Dev nD) : W15 m c (Proc.devRef .tc main_arg19) = m ((c : Thread nD τ).loc main_arg19) := (W15_of m c main_arg19 (by decide)).trans (W14_arg19 m c)
theorem W16_arg19 (c : Dev nD) : W16 m c (Proc.devRef .tc main_arg19) = m ((c : Thread nD τ).loc main_arg19) := (W16_of m c main_arg19 (by decide)).trans (W15_arg19 m c)
theorem W17_arg19 (c : Dev nD) : W17 m c (Proc.devRef .tc main_arg19) = m ((c : Thread nD τ).loc main_arg19) := (W17_of m c main_arg19 (by decide)).trans (W16_arg19 m c)
theorem W18_arg19 (c : Dev nD) : W18 m c (Proc.devRef .tc main_arg19) = m ((c : Thread nD τ).loc main_arg19) := (W18_of m c main_arg19 (by decide)).trans (W17_arg19 m c)
theorem W19_arg19 (c : Dev nD) : W19 m c (Proc.devRef .tc main_arg19) = m ((c : Thread nD τ).loc main_arg19) := (W19_of m c main_arg19 (by decide)).trans (W18_arg19 m c)
theorem W20_arg19 (c : Dev nD) : W20 m c (Proc.devRef .tc main_arg19) = m ((c : Thread nD τ).loc main_arg19) := (W20_of m c main_arg19 (by decide)).trans (W19_arg19 m c)
theorem W21_arg19 (c : Dev nD) : W21 m c (Proc.devRef .tc main_arg19) = m ((c : Thread nD τ).loc main_arg19) := (W21_of m c main_arg19 (by decide)).trans (W20_arg19 m c)
theorem W22_arg19 (c : Dev nD) : W22 m c (Proc.devRef .tc main_arg19) = m ((c : Thread nD τ).loc main_arg19) := (W22_of m c main_arg19 (by decide)).trans (W21_arg19 m c)
theorem W23_arg19 (c : Dev nD) : W23 m c (Proc.devRef .tc main_arg19) = m ((c : Thread nD τ).loc main_arg19) := (W23_of m c main_arg19 (by decide)).trans (W22_arg19 m c)
theorem W24_arg19 (c : Dev nD) : W24 m c (Proc.devRef .tc main_arg19) = m ((c : Thread nD τ).loc main_arg19) := (W24_of m c main_arg19 (by decide)).trans (W23_arg19 m c)
theorem W25_arg19 (c : Dev nD) : W25 m c (Proc.devRef .tc main_arg19) = m ((c : Thread nD τ).loc main_arg19) := (W25_of m c main_arg19 (by decide)).trans (W24_arg19 m c)
theorem W26_arg19 (c : Dev nD) : W26 m c (Proc.devRef .tc main_arg19) = m ((c : Thread nD τ).loc main_arg19) := (W26_of m c main_arg19 (by decide)).trans (W25_arg19 m c)
theorem W27_arg19 (c : Dev nD) : W27 m c (Proc.devRef .tc main_arg19) = m ((c : Thread nD τ).loc main_arg19) := (W27_of m c main_arg19 (by decide)).trans (W26_arg19 m c)
theorem W28_arg19 (c : Dev nD) : W28 m c (Proc.devRef .tc main_arg19) = m ((c : Thread nD τ).loc main_arg19) := (W28_of m c main_arg19 (by decide)).trans (W27_arg19 m c)
theorem W29_arg19 (c : Dev nD) : W29 m c (Proc.devRef .tc main_arg19) = m ((c : Thread nD τ).loc main_arg19) := (W29_of m c main_arg19 (by decide)).trans (W28_arg19 m c)
theorem W1_arg20 (c : Dev nD) : W1 m c (Proc.devRef .tc main_arg20) = m ((c : Thread nD τ).loc main_arg20) := W1_of m c main_arg20 (by decide)
theorem W2_arg20 (c : Dev nD) : W2 m c (Proc.devRef .tc main_arg20) = m ((c : Thread nD τ).loc main_arg20) := (W2_of m c main_arg20 (by decide)).trans (W1_arg20 m c)
theorem W3_arg20 (c : Dev nD) : W3 m c (Proc.devRef .tc main_arg20) = m ((c : Thread nD τ).loc main_arg20) := (W3_of m c main_arg20 (by decide)).trans (W2_arg20 m c)
theorem W4_arg20 (c : Dev nD) : W4 m c (Proc.devRef .tc main_arg20) = m ((c : Thread nD τ).loc main_arg20) := (W4_of m c main_arg20 (by decide)).trans (W3_arg20 m c)
theorem W5_arg20 (c : Dev nD) : W5 m c (Proc.devRef .tc main_arg20) = m ((c : Thread nD τ).loc main_arg20) := (W5_of m c main_arg20 (by decide)).trans (W4_arg20 m c)
theorem W6_arg20 (c : Dev nD) : W6 m c (Proc.devRef .tc main_arg20) = m ((c : Thread nD τ).loc main_arg20) := (W6_of m c main_arg20 (by decide)).trans (W5_arg20 m c)
theorem W7_arg20 (c : Dev nD) : W7 m c (Proc.devRef .tc main_arg20) = m ((c : Thread nD τ).loc main_arg20) := (W7_of m c main_arg20 (by decide)).trans (W6_arg20 m c)
theorem W8_arg20 (c : Dev nD) : W8 m c (Proc.devRef .tc main_arg20) = m ((c : Thread nD τ).loc main_arg20) := (W8_of m c main_arg20 (by decide)).trans (W7_arg20 m c)
theorem W9_arg20 (c : Dev nD) : W9 m c (Proc.devRef .tc main_arg20) = m ((c : Thread nD τ).loc main_arg20) := (W9_of m c main_arg20 (by decide)).trans (W8_arg20 m c)
theorem W10_arg20 (c : Dev nD) : W10 m c (Proc.devRef .tc main_arg20) = m ((c : Thread nD τ).loc main_arg20) := (W10_of m c main_arg20 (by decide)).trans (W9_arg20 m c)
theorem W11_arg20 (c : Dev nD) : W11 m c (Proc.devRef .tc main_arg20) = m ((c : Thread nD τ).loc main_arg20) := (W11_of m c main_arg20 (by decide)).trans (W10_arg20 m c)
theorem W12_arg20 (c : Dev nD) : W12 m c (Proc.devRef .tc main_arg20) = m ((c : Thread nD τ).loc main_arg20) := (W12_of m c main_arg20 (by decide)).trans (W11_arg20 m c)
theorem W13_arg20 (c : Dev nD) : W13 m c (Proc.devRef .tc main_arg20) = m ((c : Thread nD τ).loc main_arg20) := (W13_of m c main_arg20 (by decide)).trans (W12_arg20 m c)
theorem W14_arg20 (c : Dev nD) : W14 m c (Proc.devRef .tc main_arg20) = m ((c : Thread nD τ).loc main_arg20) := (W14_of m c main_arg20 (by decide)).trans (W13_arg20 m c)
theorem W15_arg20 (c : Dev nD) : W15 m c (Proc.devRef .tc main_arg20) = m ((c : Thread nD τ).loc main_arg20) := (W15_of m c main_arg20 (by decide)).trans (W14_arg20 m c)
theorem W16_arg20 (c : Dev nD) : W16 m c (Proc.devRef .tc main_arg20) = m ((c : Thread nD τ).loc main_arg20) := (W16_of m c main_arg20 (by decide)).trans (W15_arg20 m c)
theorem W17_arg20 (c : Dev nD) : W17 m c (Proc.devRef .tc main_arg20) = m ((c : Thread nD τ).loc main_arg20) := (W17_of m c main_arg20 (by decide)).trans (W16_arg20 m c)
theorem W18_arg20 (c : Dev nD) : W18 m c (Proc.devRef .tc main_arg20) = m ((c : Thread nD τ).loc main_arg20) := (W18_of m c main_arg20 (by decide)).trans (W17_arg20 m c)
theorem W19_arg20 (c : Dev nD) : W19 m c (Proc.devRef .tc main_arg20) = m ((c : Thread nD τ).loc main_arg20) := (W19_of m c main_arg20 (by decide)).trans (W18_arg20 m c)
theorem W20_arg20 (c : Dev nD) : W20 m c (Proc.devRef .tc main_arg20) = m ((c : Thread nD τ).loc main_arg20) := (W20_of m c main_arg20 (by decide)).trans (W19_arg20 m c)
theorem W21_arg20 (c : Dev nD) : W21 m c (Proc.devRef .tc main_arg20) = m ((c : Thread nD τ).loc main_arg20) := (W21_of m c main_arg20 (by decide)).trans (W20_arg20 m c)
theorem W22_arg20 (c : Dev nD) : W22 m c (Proc.devRef .tc main_arg20) = m ((c : Thread nD τ).loc main_arg20) := (W22_of m c main_arg20 (by decide)).trans (W21_arg20 m c)
theorem W23_arg20 (c : Dev nD) : W23 m c (Proc.devRef .tc main_arg20) = m ((c : Thread nD τ).loc main_arg20) := (W23_of m c main_arg20 (by decide)).trans (W22_arg20 m c)
theorem W24_arg20 (c : Dev nD) : W24 m c (Proc.devRef .tc main_arg20) = m ((c : Thread nD τ).loc main_arg20) := (W24_of m c main_arg20 (by decide)).trans (W23_arg20 m c)
theorem W25_arg20 (c : Dev nD) : W25 m c (Proc.devRef .tc main_arg20) = m ((c : Thread nD τ).loc main_arg20) := (W25_of m c main_arg20 (by decide)).trans (W24_arg20 m c)
theorem W26_arg20 (c : Dev nD) : W26 m c (Proc.devRef .tc main_arg20) = m ((c : Thread nD τ).loc main_arg20) := (W26_of m c main_arg20 (by decide)).trans (W25_arg20 m c)
theorem W27_arg20 (c : Dev nD) : W27 m c (Proc.devRef .tc main_arg20) = m ((c : Thread nD τ).loc main_arg20) := (W27_of m c main_arg20 (by decide)).trans (W26_arg20 m c)
theorem W28_arg20 (c : Dev nD) : W28 m c (Proc.devRef .tc main_arg20) = m ((c : Thread nD τ).loc main_arg20) := (W28_of m c main_arg20 (by decide)).trans (W27_arg20 m c)
theorem W29_arg20 (c : Dev nD) : W29 m c (Proc.devRef .tc main_arg20) = m ((c : Thread nD τ).loc main_arg20) := (W29_of m c main_arg20 (by decide)).trans (W28_arg20 m c)
theorem W1_arg21 (c : Dev nD) : W1 m c (Proc.devRef .tc main_arg21) = m ((c : Thread nD τ).loc main_arg21) := W1_of m c main_arg21 (by decide)
theorem W2_arg21 (c : Dev nD) : W2 m c (Proc.devRef .tc main_arg21) = m ((c : Thread nD τ).loc main_arg21) := (W2_of m c main_arg21 (by decide)).trans (W1_arg21 m c)
theorem W3_arg21 (c : Dev nD) : W3 m c (Proc.devRef .tc main_arg21) = m ((c : Thread nD τ).loc main_arg21) := (W3_of m c main_arg21 (by decide)).trans (W2_arg21 m c)
theorem W4_arg21 (c : Dev nD) : W4 m c (Proc.devRef .tc main_arg21) = m ((c : Thread nD τ).loc main_arg21) := (W4_of m c main_arg21 (by decide)).trans (W3_arg21 m c)
theorem W5_arg21 (c : Dev nD) : W5 m c (Proc.devRef .tc main_arg21) = m ((c : Thread nD τ).loc main_arg21) := (W5_of m c main_arg21 (by decide)).trans (W4_arg21 m c)
theorem W6_arg21 (c : Dev nD) : W6 m c (Proc.devRef .tc main_arg21) = m ((c : Thread nD τ).loc main_arg21) := (W6_of m c main_arg21 (by decide)).trans (W5_arg21 m c)
theorem W7_arg21 (c : Dev nD) : W7 m c (Proc.devRef .tc main_arg21) = m ((c : Thread nD τ).loc main_arg21) := (W7_of m c main_arg21 (by decide)).trans (W6_arg21 m c)
theorem W8_arg21 (c : Dev nD) : W8 m c (Proc.devRef .tc main_arg21) = m ((c : Thread nD τ).loc main_arg21) := (W8_of m c main_arg21 (by decide)).trans (W7_arg21 m c)
theorem W9_arg21 (c : Dev nD) : W9 m c (Proc.devRef .tc main_arg21) = m ((c : Thread nD τ).loc main_arg21) := (W9_of m c main_arg21 (by decide)).trans (W8_arg21 m c)
theorem W10_arg21 (c : Dev nD) : W10 m c (Proc.devRef .tc main_arg21) = m ((c : Thread nD τ).loc main_arg21) := (W10_of m c main_arg21 (by decide)).trans (W9_arg21 m c)
theorem W11_arg21 (c : Dev nD) : W11 m c (Proc.devRef .tc main_arg21) = m ((c : Thread nD τ).loc main_arg21) := (W11_of m c main_arg21 (by decide)).trans (W10_arg21 m c)
theorem W12_arg21 (c : Dev nD) : W12 m c (Proc.devRef .tc main_arg21) = m ((c : Thread nD τ).loc main_arg21) := (W12_of m c main_arg21 (by decide)).trans (W11_arg21 m c)
theorem W13_arg21 (c : Dev nD) : W13 m c (Proc.devRef .tc main_arg21) = m ((c : Thread nD τ).loc main_arg21) := (W13_of m c main_arg21 (by decide)).trans (W12_arg21 m c)
theorem W14_arg21 (c : Dev nD) : W14 m c (Proc.devRef .tc main_arg21) = m ((c : Thread nD τ).loc main_arg21) := (W14_of m c main_arg21 (by decide)).trans (W13_arg21 m c)
theorem W15_arg21 (c : Dev nD) : W15 m c (Proc.devRef .tc main_arg21) = m ((c : Thread nD τ).loc main_arg21) := (W15_of m c main_arg21 (by decide)).trans (W14_arg21 m c)
theorem W16_arg21 (c : Dev nD) : W16 m c (Proc.devRef .tc main_arg21) = m ((c : Thread nD τ).loc main_arg21) := (W16_of m c main_arg21 (by decide)).trans (W15_arg21 m c)
theorem W17_arg21 (c : Dev nD) : W17 m c (Proc.devRef .tc main_arg21) = m ((c : Thread nD τ).loc main_arg21) := (W17_of m c main_arg21 (by decide)).trans (W16_arg21 m c)
theorem W18_arg21 (c : Dev nD) : W18 m c (Proc.devRef .tc main_arg21) = m ((c : Thread nD τ).loc main_arg21) := (W18_of m c main_arg21 (by decide)).trans (W17_arg21 m c)
theorem W19_arg21 (c : Dev nD) : W19 m c (Proc.devRef .tc main_arg21) = m ((c : Thread nD τ).loc main_arg21) := (W19_of m c main_arg21 (by decide)).trans (W18_arg21 m c)
theorem W20_arg21 (c : Dev nD) : W20 m c (Proc.devRef .tc main_arg21) = m ((c : Thread nD τ).loc main_arg21) := (W20_of m c main_arg21 (by decide)).trans (W19_arg21 m c)
theorem W21_arg21 (c : Dev nD) : W21 m c (Proc.devRef .tc main_arg21) = m ((c : Thread nD τ).loc main_arg21) := (W21_of m c main_arg21 (by decide)).trans (W20_arg21 m c)
theorem W22_arg21 (c : Dev nD) : W22 m c (Proc.devRef .tc main_arg21) = m ((c : Thread nD τ).loc main_arg21) := (W22_of m c main_arg21 (by decide)).trans (W21_arg21 m c)
theorem W23_arg21 (c : Dev nD) : W23 m c (Proc.devRef .tc main_arg21) = m ((c : Thread nD τ).loc main_arg21) := (W23_of m c main_arg21 (by decide)).trans (W22_arg21 m c)
theorem W24_arg21 (c : Dev nD) : W24 m c (Proc.devRef .tc main_arg21) = m ((c : Thread nD τ).loc main_arg21) := (W24_of m c main_arg21 (by decide)).trans (W23_arg21 m c)
theorem W25_arg21 (c : Dev nD) : W25 m c (Proc.devRef .tc main_arg21) = m ((c : Thread nD τ).loc main_arg21) := (W25_of m c main_arg21 (by decide)).trans (W24_arg21 m c)
theorem W26_arg21 (c : Dev nD) : W26 m c (Proc.devRef .tc main_arg21) = m ((c : Thread nD τ).loc main_arg21) := (W26_of m c main_arg21 (by decide)).trans (W25_arg21 m c)
theorem W27_arg21 (c : Dev nD) : W27 m c (Proc.devRef .tc main_arg21) = m ((c : Thread nD τ).loc main_arg21) := (W27_of m c main_arg21 (by decide)).trans (W26_arg21 m c)
theorem W28_arg21 (c : Dev nD) : W28 m c (Proc.devRef .tc main_arg21) = m ((c : Thread nD τ).loc main_arg21) := (W28_of m c main_arg21 (by decide)).trans (W27_arg21 m c)
theorem W29_arg21 (c : Dev nD) : W29 m c (Proc.devRef .tc main_arg21) = m ((c : Thread nD τ).loc main_arg21) := (W29_of m c main_arg21 (by decide)).trans (W28_arg21 m c)
theorem W1_arg22 (c : Dev nD) : W1 m c (Proc.devRef .tc main_arg22) = m ((c : Thread nD τ).loc main_arg22) := W1_of m c main_arg22 (by decide)
theorem W2_arg22 (c : Dev nD) : W2 m c (Proc.devRef .tc main_arg22) = m ((c : Thread nD τ).loc main_arg22) := (W2_of m c main_arg22 (by decide)).trans (W1_arg22 m c)
theorem W3_arg22 (c : Dev nD) : W3 m c (Proc.devRef .tc main_arg22) = m ((c : Thread nD τ).loc main_arg22) := (W3_of m c main_arg22 (by decide)).trans (W2_arg22 m c)
theorem W4_arg22 (c : Dev nD) : W4 m c (Proc.devRef .tc main_arg22) = m ((c : Thread nD τ).loc main_arg22) := (W4_of m c main_arg22 (by decide)).trans (W3_arg22 m c)
theorem W5_arg22 (c : Dev nD) : W5 m c (Proc.devRef .tc main_arg22) = m ((c : Thread nD τ).loc main_arg22) := (W5_of m c main_arg22 (by decide)).trans (W4_arg22 m c)
theorem W6_arg22 (c : Dev nD) : W6 m c (Proc.devRef .tc main_arg22) = m ((c : Thread nD τ).loc main_arg22) := (W6_of m c main_arg22 (by decide)).trans (W5_arg22 m c)
theorem W7_arg22 (c : Dev nD) : W7 m c (Proc.devRef .tc main_arg22) = m ((c : Thread nD τ).loc main_arg22) := (W7_of m c main_arg22 (by decide)).trans (W6_arg22 m c)
theorem W8_arg22 (c : Dev nD) : W8 m c (Proc.devRef .tc main_arg22) = m ((c : Thread nD τ).loc main_arg22) := (W8_of m c main_arg22 (by decide)).trans (W7_arg22 m c)
theorem W9_arg22 (c : Dev nD) : W9 m c (Proc.devRef .tc main_arg22) = m ((c : Thread nD τ).loc main_arg22) := (W9_of m c main_arg22 (by decide)).trans (W8_arg22 m c)
theorem W10_arg22 (c : Dev nD) : W10 m c (Proc.devRef .tc main_arg22) = m ((c : Thread nD τ).loc main_arg22) := (W10_of m c main_arg22 (by decide)).trans (W9_arg22 m c)
theorem W11_arg22 (c : Dev nD) : W11 m c (Proc.devRef .tc main_arg22) = m ((c : Thread nD τ).loc main_arg22) := (W11_of m c main_arg22 (by decide)).trans (W10_arg22 m c)
theorem W12_arg22 (c : Dev nD) : W12 m c (Proc.devRef .tc main_arg22) = m ((c : Thread nD τ).loc main_arg22) := (W12_of m c main_arg22 (by decide)).trans (W11_arg22 m c)
theorem W13_arg22 (c : Dev nD) : W13 m c (Proc.devRef .tc main_arg22) = m ((c : Thread nD τ).loc main_arg22) := (W13_of m c main_arg22 (by decide)).trans (W12_arg22 m c)
theorem W14_arg22 (c : Dev nD) : W14 m c (Proc.devRef .tc main_arg22) = m ((c : Thread nD τ).loc main_arg22) := (W14_of m c main_arg22 (by decide)).trans (W13_arg22 m c)
theorem W15_arg22 (c : Dev nD) : W15 m c (Proc.devRef .tc main_arg22) = m ((c : Thread nD τ).loc main_arg22) := (W15_of m c main_arg22 (by decide)).trans (W14_arg22 m c)
theorem W16_arg22 (c : Dev nD) : W16 m c (Proc.devRef .tc main_arg22) = m ((c : Thread nD τ).loc main_arg22) := (W16_of m c main_arg22 (by decide)).trans (W15_arg22 m c)
theorem W17_arg22 (c : Dev nD) : W17 m c (Proc.devRef .tc main_arg22) = m ((c : Thread nD τ).loc main_arg22) := (W17_of m c main_arg22 (by decide)).trans (W16_arg22 m c)
theorem W18_arg22 (c : Dev nD) : W18 m c (Proc.devRef .tc main_arg22) = m ((c : Thread nD τ).loc main_arg22) := (W18_of m c main_arg22 (by decide)).trans (W17_arg22 m c)
theorem W19_arg22 (c : Dev nD) : W19 m c (Proc.devRef .tc main_arg22) = m ((c : Thread nD τ).loc main_arg22) := (W19_of m c main_arg22 (by decide)).trans (W18_arg22 m c)
theorem W20_arg22 (c : Dev nD) : W20 m c (Proc.devRef .tc main_arg22) = m ((c : Thread nD τ).loc main_arg22) := (W20_of m c main_arg22 (by decide)).trans (W19_arg22 m c)
theorem W21_arg22 (c : Dev nD) : W21 m c (Proc.devRef .tc main_arg22) = m ((c : Thread nD τ).loc main_arg22) := (W21_of m c main_arg22 (by decide)).trans (W20_arg22 m c)
theorem W22_arg22 (c : Dev nD) : W22 m c (Proc.devRef .tc main_arg22) = m ((c : Thread nD τ).loc main_arg22) := (W22_of m c main_arg22 (by decide)).trans (W21_arg22 m c)
theorem W23_arg22 (c : Dev nD) : W23 m c (Proc.devRef .tc main_arg22) = m ((c : Thread nD τ).loc main_arg22) := (W23_of m c main_arg22 (by decide)).trans (W22_arg22 m c)
theorem W24_arg22 (c : Dev nD) : W24 m c (Proc.devRef .tc main_arg22) = m ((c : Thread nD τ).loc main_arg22) := (W24_of m c main_arg22 (by decide)).trans (W23_arg22 m c)
theorem W25_arg22 (c : Dev nD) : W25 m c (Proc.devRef .tc main_arg22) = m ((c : Thread nD τ).loc main_arg22) := (W25_of m c main_arg22 (by decide)).trans (W24_arg22 m c)
theorem W26_arg22 (c : Dev nD) : W26 m c (Proc.devRef .tc main_arg22) = m ((c : Thread nD τ).loc main_arg22) := (W26_of m c main_arg22 (by decide)).trans (W25_arg22 m c)
theorem W27_arg22 (c : Dev nD) : W27 m c (Proc.devRef .tc main_arg22) = m ((c : Thread nD τ).loc main_arg22) := (W27_of m c main_arg22 (by decide)).trans (W26_arg22 m c)
theorem W28_arg22 (c : Dev nD) : W28 m c (Proc.devRef .tc main_arg22) = m ((c : Thread nD τ).loc main_arg22) := (W28_of m c main_arg22 (by decide)).trans (W27_arg22 m c)
theorem W29_arg22 (c : Dev nD) : W29 m c (Proc.devRef .tc main_arg22) = m ((c : Thread nD τ).loc main_arg22) := (W29_of m c main_arg22 (by decide)).trans (W28_arg22 m c)
theorem W1_arg23 (c : Dev nD) : W1 m c (Proc.devRef .tc main_arg23) = m ((c : Thread nD τ).loc main_arg23) := W1_of m c main_arg23 (by decide)
theorem W2_arg23 (c : Dev nD) : W2 m c (Proc.devRef .tc main_arg23) = m ((c : Thread nD τ).loc main_arg23) := (W2_of m c main_arg23 (by decide)).trans (W1_arg23 m c)
theorem W3_arg23 (c : Dev nD) : W3 m c (Proc.devRef .tc main_arg23) = m ((c : Thread nD τ).loc main_arg23) := (W3_of m c main_arg23 (by decide)).trans (W2_arg23 m c)
theorem W4_arg23 (c : Dev nD) : W4 m c (Proc.devRef .tc main_arg23) = m ((c : Thread nD τ).loc main_arg23) := (W4_of m c main_arg23 (by decide)).trans (W3_arg23 m c)
theorem W5_arg23 (c : Dev nD) : W5 m c (Proc.devRef .tc main_arg23) = m ((c : Thread nD τ).loc main_arg23) := (W5_of m c main_arg23 (by decide)).trans (W4_arg23 m c)
theorem W6_arg23 (c : Dev nD) : W6 m c (Proc.devRef .tc main_arg23) = m ((c : Thread nD τ).loc main_arg23) := (W6_of m c main_arg23 (by decide)).trans (W5_arg23 m c)
theorem W7_arg23 (c : Dev nD) : W7 m c (Proc.devRef .tc main_arg23) = m ((c : Thread nD τ).loc main_arg23) := (W7_of m c main_arg23 (by decide)).trans (W6_arg23 m c)
theorem W8_arg23 (c : Dev nD) : W8 m c (Proc.devRef .tc main_arg23) = m ((c : Thread nD τ).loc main_arg23) := (W8_of m c main_arg23 (by decide)).trans (W7_arg23 m c)
theorem W9_arg23 (c : Dev nD) : W9 m c (Proc.devRef .tc main_arg23) = m ((c : Thread nD τ).loc main_arg23) := (W9_of m c main_arg23 (by decide)).trans (W8_arg23 m c)
theorem W10_arg23 (c : Dev nD) : W10 m c (Proc.devRef .tc main_arg23) = m ((c : Thread nD τ).loc main_arg23) := (W10_of m c main_arg23 (by decide)).trans (W9_arg23 m c)
theorem W11_arg23 (c : Dev nD) : W11 m c (Proc.devRef .tc main_arg23) = m ((c : Thread nD τ).loc main_arg23) := (W11_of m c main_arg23 (by decide)).trans (W10_arg23 m c)
theorem W12_arg23 (c : Dev nD) : W12 m c (Proc.devRef .tc main_arg23) = m ((c : Thread nD τ).loc main_arg23) := (W12_of m c main_arg23 (by decide)).trans (W11_arg23 m c)
theorem W13_arg23 (c : Dev nD) : W13 m c (Proc.devRef .tc main_arg23) = m ((c : Thread nD τ).loc main_arg23) := (W13_of m c main_arg23 (by decide)).trans (W12_arg23 m c)
theorem W14_arg23 (c : Dev nD) : W14 m c (Proc.devRef .tc main_arg23) = m ((c : Thread nD τ).loc main_arg23) := (W14_of m c main_arg23 (by decide)).trans (W13_arg23 m c)
theorem W15_arg23 (c : Dev nD) : W15 m c (Proc.devRef .tc main_arg23) = m ((c : Thread nD τ).loc main_arg23) := (W15_of m c main_arg23 (by decide)).trans (W14_arg23 m c)
theorem W16_arg23 (c : Dev nD) : W16 m c (Proc.devRef .tc main_arg23) = m ((c : Thread nD τ).loc main_arg23) := (W16_of m c main_arg23 (by decide)).trans (W15_arg23 m c)
theorem W17_arg23 (c : Dev nD) : W17 m c (Proc.devRef .tc main_arg23) = m ((c : Thread nD τ).loc main_arg23) := (W17_of m c main_arg23 (by decide)).trans (W16_arg23 m c)
theorem W18_arg23 (c : Dev nD) : W18 m c (Proc.devRef .tc main_arg23) = m ((c : Thread nD τ).loc main_arg23) := (W18_of m c main_arg23 (by decide)).trans (W17_arg23 m c)
theorem W19_arg23 (c : Dev nD) : W19 m c (Proc.devRef .tc main_arg23) = m ((c : Thread nD τ).loc main_arg23) := (W19_of m c main_arg23 (by decide)).trans (W18_arg23 m c)
theorem W20_arg23 (c : Dev nD) : W20 m c (Proc.devRef .tc main_arg23) = m ((c : Thread nD τ).loc main_arg23) := (W20_of m c main_arg23 (by decide)).trans (W19_arg23 m c)
theorem W21_arg23 (c : Dev nD) : W21 m c (Proc.devRef .tc main_arg23) = m ((c : Thread nD τ).loc main_arg23) := (W21_of m c main_arg23 (by decide)).trans (W20_arg23 m c)
theorem W22_arg23 (c : Dev nD) : W22 m c (Proc.devRef .tc main_arg23) = m ((c : Thread nD τ).loc main_arg23) := (W22_of m c main_arg23 (by decide)).trans (W21_arg23 m c)
theorem W23_arg23 (c : Dev nD) : W23 m c (Proc.devRef .tc main_arg23) = m ((c : Thread nD τ).loc main_arg23) := (W23_of m c main_arg23 (by decide)).trans (W22_arg23 m c)
theorem W24_arg23 (c : Dev nD) : W24 m c (Proc.devRef .tc main_arg23) = m ((c : Thread nD τ).loc main_arg23) := (W24_of m c main_arg23 (by decide)).trans (W23_arg23 m c)
theorem W25_arg23 (c : Dev nD) : W25 m c (Proc.devRef .tc main_arg23) = m ((c : Thread nD τ).loc main_arg23) := (W25_of m c main_arg23 (by decide)).trans (W24_arg23 m c)
theorem W26_arg23 (c : Dev nD) : W26 m c (Proc.devRef .tc main_arg23) = m ((c : Thread nD τ).loc main_arg23) := (W26_of m c main_arg23 (by decide)).trans (W25_arg23 m c)
theorem W27_arg23 (c : Dev nD) : W27 m c (Proc.devRef .tc main_arg23) = m ((c : Thread nD τ).loc main_arg23) := (W27_of m c main_arg23 (by decide)).trans (W26_arg23 m c)
theorem W28_arg23 (c : Dev nD) : W28 m c (Proc.devRef .tc main_arg23) = m ((c : Thread nD τ).loc main_arg23) := (W28_of m c main_arg23 (by decide)).trans (W27_arg23 m c)
theorem W29_arg23 (c : Dev nD) : W29 m c (Proc.devRef .tc main_arg23) = m ((c : Thread nD τ).loc main_arg23) := (W29_of m c main_arg23 (by decide)).trans (W28_arg23 m c)
theorem W1_arg24 (c : Dev nD) : W1 m c (Proc.devRef .tc main_arg24) = m ((c : Thread nD τ).loc main_arg24) := W1_of m c main_arg24 (by decide)
theorem W2_arg24 (c : Dev nD) : W2 m c (Proc.devRef .tc main_arg24) = m ((c : Thread nD τ).loc main_arg24) := (W2_of m c main_arg24 (by decide)).trans (W1_arg24 m c)
theorem W3_arg24 (c : Dev nD) : W3 m c (Proc.devRef .tc main_arg24) = m ((c : Thread nD τ).loc main_arg24) := (W3_of m c main_arg24 (by decide)).trans (W2_arg24 m c)
theorem W4_arg24 (c : Dev nD) : W4 m c (Proc.devRef .tc main_arg24) = m ((c : Thread nD τ).loc main_arg24) := (W4_of m c main_arg24 (by decide)).trans (W3_arg24 m c)
theorem W5_arg24 (c : Dev nD) : W5 m c (Proc.devRef .tc main_arg24) = m ((c : Thread nD τ).loc main_arg24) := (W5_of m c main_arg24 (by decide)).trans (W4_arg24 m c)
theorem W6_arg24 (c : Dev nD) : W6 m c (Proc.devRef .tc main_arg24) = m ((c : Thread nD τ).loc main_arg24) := (W6_of m c main_arg24 (by decide)).trans (W5_arg24 m c)
theorem W7_arg24 (c : Dev nD) : W7 m c (Proc.devRef .tc main_arg24) = m ((c : Thread nD τ).loc main_arg24) := (W7_of m c main_arg24 (by decide)).trans (W6_arg24 m c)
theorem W8_arg24 (c : Dev nD) : W8 m c (Proc.devRef .tc main_arg24) = m ((c : Thread nD τ).loc main_arg24) := (W8_of m c main_arg24 (by decide)).trans (W7_arg24 m c)
theorem W9_arg24 (c : Dev nD) : W9 m c (Proc.devRef .tc main_arg24) = m ((c : Thread nD τ).loc main_arg24) := (W9_of m c main_arg24 (by decide)).trans (W8_arg24 m c)
theorem W10_arg24 (c : Dev nD) : W10 m c (Proc.devRef .tc main_arg24) = m ((c : Thread nD τ).loc main_arg24) := (W10_of m c main_arg24 (by decide)).trans (W9_arg24 m c)
theorem W11_arg24 (c : Dev nD) : W11 m c (Proc.devRef .tc main_arg24) = m ((c : Thread nD τ).loc main_arg24) := (W11_of m c main_arg24 (by decide)).trans (W10_arg24 m c)
theorem W12_arg24 (c : Dev nD) : W12 m c (Proc.devRef .tc main_arg24) = m ((c : Thread nD τ).loc main_arg24) := (W12_of m c main_arg24 (by decide)).trans (W11_arg24 m c)
theorem W13_arg24 (c : Dev nD) : W13 m c (Proc.devRef .tc main_arg24) = m ((c : Thread nD τ).loc main_arg24) := (W13_of m c main_arg24 (by decide)).trans (W12_arg24 m c)
theorem W14_arg24 (c : Dev nD) : W14 m c (Proc.devRef .tc main_arg24) = m ((c : Thread nD τ).loc main_arg24) := (W14_of m c main_arg24 (by decide)).trans (W13_arg24 m c)
theorem W15_arg24 (c : Dev nD) : W15 m c (Proc.devRef .tc main_arg24) = m ((c : Thread nD τ).loc main_arg24) := (W15_of m c main_arg24 (by decide)).trans (W14_arg24 m c)
theorem W16_arg24 (c : Dev nD) : W16 m c (Proc.devRef .tc main_arg24) = m ((c : Thread nD τ).loc main_arg24) := (W16_of m c main_arg24 (by decide)).trans (W15_arg24 m c)
theorem W17_arg24 (c : Dev nD) : W17 m c (Proc.devRef .tc main_arg24) = m ((c : Thread nD τ).loc main_arg24) := (W17_of m c main_arg24 (by decide)).trans (W16_arg24 m c)
theorem W18_arg24 (c : Dev nD) : W18 m c (Proc.devRef .tc main_arg24) = m ((c : Thread nD τ).loc main_arg24) := (W18_of m c main_arg24 (by decide)).trans (W17_arg24 m c)
theorem W19_arg24 (c : Dev nD) : W19 m c (Proc.devRef .tc main_arg24) = m ((c : Thread nD τ).loc main_arg24) := (W19_of m c main_arg24 (by decide)).trans (W18_arg24 m c)
theorem W20_arg24 (c : Dev nD) : W20 m c (Proc.devRef .tc main_arg24) = m ((c : Thread nD τ).loc main_arg24) := (W20_of m c main_arg24 (by decide)).trans (W19_arg24 m c)
theorem W21_arg24 (c : Dev nD) : W21 m c (Proc.devRef .tc main_arg24) = m ((c : Thread nD τ).loc main_arg24) := (W21_of m c main_arg24 (by decide)).trans (W20_arg24 m c)
theorem W22_arg24 (c : Dev nD) : W22 m c (Proc.devRef .tc main_arg24) = m ((c : Thread nD τ).loc main_arg24) := (W22_of m c main_arg24 (by decide)).trans (W21_arg24 m c)
theorem W23_arg24 (c : Dev nD) : W23 m c (Proc.devRef .tc main_arg24) = m ((c : Thread nD τ).loc main_arg24) := (W23_of m c main_arg24 (by decide)).trans (W22_arg24 m c)
theorem W24_arg24 (c : Dev nD) : W24 m c (Proc.devRef .tc main_arg24) = m ((c : Thread nD τ).loc main_arg24) := (W24_of m c main_arg24 (by decide)).trans (W23_arg24 m c)
theorem W25_arg24 (c : Dev nD) : W25 m c (Proc.devRef .tc main_arg24) = m ((c : Thread nD τ).loc main_arg24) := (W25_of m c main_arg24 (by decide)).trans (W24_arg24 m c)
theorem W26_arg24 (c : Dev nD) : W26 m c (Proc.devRef .tc main_arg24) = m ((c : Thread nD τ).loc main_arg24) := (W26_of m c main_arg24 (by decide)).trans (W25_arg24 m c)
theorem W27_arg24 (c : Dev nD) : W27 m c (Proc.devRef .tc main_arg24) = m ((c : Thread nD τ).loc main_arg24) := (W27_of m c main_arg24 (by decide)).trans (W26_arg24 m c)
theorem W28_arg24 (c : Dev nD) : W28 m c (Proc.devRef .tc main_arg24) = m ((c : Thread nD τ).loc main_arg24) := (W28_of m c main_arg24 (by decide)).trans (W27_arg24 m c)
theorem W29_arg24 (c : Dev nD) : W29 m c (Proc.devRef .tc main_arg24) = m ((c : Thread nD τ).loc main_arg24) := (W29_of m c main_arg24 (by decide)).trans (W28_arg24 m c)
theorem W1_arg25 (c : Dev nD) : W1 m c (Proc.devRef .tc main_arg25) = m ((c : Thread nD τ).loc main_arg25) := W1_of m c main_arg25 (by decide)
theorem W2_arg25 (c : Dev nD) : W2 m c (Proc.devRef .tc main_arg25) = m ((c : Thread nD τ).loc main_arg25) := (W2_of m c main_arg25 (by decide)).trans (W1_arg25 m c)
theorem W3_arg25 (c : Dev nD) : W3 m c (Proc.devRef .tc main_arg25) = m ((c : Thread nD τ).loc main_arg25) := (W3_of m c main_arg25 (by decide)).trans (W2_arg25 m c)
theorem W4_arg25 (c : Dev nD) : W4 m c (Proc.devRef .tc main_arg25) = m ((c : Thread nD τ).loc main_arg25) := (W4_of m c main_arg25 (by decide)).trans (W3_arg25 m c)
theorem W5_arg25 (c : Dev nD) : W5 m c (Proc.devRef .tc main_arg25) = m ((c : Thread nD τ).loc main_arg25) := (W5_of m c main_arg25 (by decide)).trans (W4_arg25 m c)
theorem W6_arg25 (c : Dev nD) : W6 m c (Proc.devRef .tc main_arg25) = m ((c : Thread nD τ).loc main_arg25) := (W6_of m c main_arg25 (by decide)).trans (W5_arg25 m c)
theorem W7_arg25 (c : Dev nD) : W7 m c (Proc.devRef .tc main_arg25) = m ((c : Thread nD τ).loc main_arg25) := (W7_of m c main_arg25 (by decide)).trans (W6_arg25 m c)
theorem W8_arg25 (c : Dev nD) : W8 m c (Proc.devRef .tc main_arg25) = m ((c : Thread nD τ).loc main_arg25) := (W8_of m c main_arg25 (by decide)).trans (W7_arg25 m c)
theorem W9_arg25 (c : Dev nD) : W9 m c (Proc.devRef .tc main_arg25) = m ((c : Thread nD τ).loc main_arg25) := (W9_of m c main_arg25 (by decide)).trans (W8_arg25 m c)
theorem W10_arg25 (c : Dev nD) : W10 m c (Proc.devRef .tc main_arg25) = m ((c : Thread nD τ).loc main_arg25) := (W10_of m c main_arg25 (by decide)).trans (W9_arg25 m c)
theorem W11_arg25 (c : Dev nD) : W11 m c (Proc.devRef .tc main_arg25) = m ((c : Thread nD τ).loc main_arg25) := (W11_of m c main_arg25 (by decide)).trans (W10_arg25 m c)
theorem W12_arg25 (c : Dev nD) : W12 m c (Proc.devRef .tc main_arg25) = m ((c : Thread nD τ).loc main_arg25) := (W12_of m c main_arg25 (by decide)).trans (W11_arg25 m c)
theorem W13_arg25 (c : Dev nD) : W13 m c (Proc.devRef .tc main_arg25) = m ((c : Thread nD τ).loc main_arg25) := (W13_of m c main_arg25 (by decide)).trans (W12_arg25 m c)
theorem W14_arg25 (c : Dev nD) : W14 m c (Proc.devRef .tc main_arg25) = m ((c : Thread nD τ).loc main_arg25) := (W14_of m c main_arg25 (by decide)).trans (W13_arg25 m c)
theorem W15_arg25 (c : Dev nD) : W15 m c (Proc.devRef .tc main_arg25) = m ((c : Thread nD τ).loc main_arg25) := (W15_of m c main_arg25 (by decide)).trans (W14_arg25 m c)
theorem W16_arg25 (c : Dev nD) : W16 m c (Proc.devRef .tc main_arg25) = m ((c : Thread nD τ).loc main_arg25) := (W16_of m c main_arg25 (by decide)).trans (W15_arg25 m c)
theorem W17_arg25 (c : Dev nD) : W17 m c (Proc.devRef .tc main_arg25) = m ((c : Thread nD τ).loc main_arg25) := (W17_of m c main_arg25 (by decide)).trans (W16_arg25 m c)
theorem W18_arg25 (c : Dev nD) : W18 m c (Proc.devRef .tc main_arg25) = m ((c : Thread nD τ).loc main_arg25) := (W18_of m c main_arg25 (by decide)).trans (W17_arg25 m c)
theorem W19_arg25 (c : Dev nD) : W19 m c (Proc.devRef .tc main_arg25) = m ((c : Thread nD τ).loc main_arg25) := (W19_of m c main_arg25 (by decide)).trans (W18_arg25 m c)
theorem W20_arg25 (c : Dev nD) : W20 m c (Proc.devRef .tc main_arg25) = m ((c : Thread nD τ).loc main_arg25) := (W20_of m c main_arg25 (by decide)).trans (W19_arg25 m c)
theorem W21_arg25 (c : Dev nD) : W21 m c (Proc.devRef .tc main_arg25) = m ((c : Thread nD τ).loc main_arg25) := (W21_of m c main_arg25 (by decide)).trans (W20_arg25 m c)
theorem W22_arg25 (c : Dev nD) : W22 m c (Proc.devRef .tc main_arg25) = m ((c : Thread nD τ).loc main_arg25) := (W22_of m c main_arg25 (by decide)).trans (W21_arg25 m c)
theorem W23_arg25 (c : Dev nD) : W23 m c (Proc.devRef .tc main_arg25) = m ((c : Thread nD τ).loc main_arg25) := (W23_of m c main_arg25 (by decide)).trans (W22_arg25 m c)
theorem W24_arg25 (c : Dev nD) : W24 m c (Proc.devRef .tc main_arg25) = m ((c : Thread nD τ).loc main_arg25) := (W24_of m c main_arg25 (by decide)).trans (W23_arg25 m c)
theorem W25_arg25 (c : Dev nD) : W25 m c (Proc.devRef .tc main_arg25) = m ((c : Thread nD τ).loc main_arg25) := (W25_of m c main_arg25 (by decide)).trans (W24_arg25 m c)
theorem W26_arg25 (c : Dev nD) : W26 m c (Proc.devRef .tc main_arg25) = m ((c : Thread nD τ).loc main_arg25) := (W26_of m c main_arg25 (by decide)).trans (W25_arg25 m c)
theorem W27_arg25 (c : Dev nD) : W27 m c (Proc.devRef .tc main_arg25) = m ((c : Thread nD τ).loc main_arg25) := (W27_of m c main_arg25 (by decide)).trans (W26_arg25 m c)
theorem W28_arg25 (c : Dev nD) : W28 m c (Proc.devRef .tc main_arg25) = m ((c : Thread nD τ).loc main_arg25) := (W28_of m c main_arg25 (by decide)).trans (W27_arg25 m c)
theorem W29_arg25 (c : Dev nD) : W29 m c (Proc.devRef .tc main_arg25) = m ((c : Thread nD τ).loc main_arg25) := (W29_of m c main_arg25 (by decide)).trans (W28_arg25 m c)
theorem W1_arg26 (c : Dev nD) : W1 m c (Proc.devRef .tc main_arg26) = m ((c : Thread nD τ).loc main_arg26) := W1_of m c main_arg26 (by decide)
theorem W2_arg26 (c : Dev nD) : W2 m c (Proc.devRef .tc main_arg26) = m ((c : Thread nD τ).loc main_arg26) := (W2_of m c main_arg26 (by decide)).trans (W1_arg26 m c)
theorem W3_arg26 (c : Dev nD) : W3 m c (Proc.devRef .tc main_arg26) = m ((c : Thread nD τ).loc main_arg26) := (W3_of m c main_arg26 (by decide)).trans (W2_arg26 m c)
theorem W4_arg26 (c : Dev nD) : W4 m c (Proc.devRef .tc main_arg26) = m ((c : Thread nD τ).loc main_arg26) := (W4_of m c main_arg26 (by decide)).trans (W3_arg26 m c)
theorem W5_arg26 (c : Dev nD) : W5 m c (Proc.devRef .tc main_arg26) = m ((c : Thread nD τ).loc main_arg26) := (W5_of m c main_arg26 (by decide)).trans (W4_arg26 m c)
theorem W6_arg26 (c : Dev nD) : W6 m c (Proc.devRef .tc main_arg26) = m ((c : Thread nD τ).loc main_arg26) := (W6_of m c main_arg26 (by decide)).trans (W5_arg26 m c)
theorem W7_arg26 (c : Dev nD) : W7 m c (Proc.devRef .tc main_arg26) = m ((c : Thread nD τ).loc main_arg26) := (W7_of m c main_arg26 (by decide)).trans (W6_arg26 m c)
theorem W8_arg26 (c : Dev nD) : W8 m c (Proc.devRef .tc main_arg26) = m ((c : Thread nD τ).loc main_arg26) := (W8_of m c main_arg26 (by decide)).trans (W7_arg26 m c)
theorem W9_arg26 (c : Dev nD) : W9 m c (Proc.devRef .tc main_arg26) = m ((c : Thread nD τ).loc main_arg26) := (W9_of m c main_arg26 (by decide)).trans (W8_arg26 m c)
theorem W10_arg26 (c : Dev nD) : W10 m c (Proc.devRef .tc main_arg26) = m ((c : Thread nD τ).loc main_arg26) := (W10_of m c main_arg26 (by decide)).trans (W9_arg26 m c)
theorem W11_arg26 (c : Dev nD) : W11 m c (Proc.devRef .tc main_arg26) = m ((c : Thread nD τ).loc main_arg26) := (W11_of m c main_arg26 (by decide)).trans (W10_arg26 m c)
theorem W12_arg26 (c : Dev nD) : W12 m c (Proc.devRef .tc main_arg26) = m ((c : Thread nD τ).loc main_arg26) := (W12_of m c main_arg26 (by decide)).trans (W11_arg26 m c)
theorem W13_arg26 (c : Dev nD) : W13 m c (Proc.devRef .tc main_arg26) = m ((c : Thread nD τ).loc main_arg26) := (W13_of m c main_arg26 (by decide)).trans (W12_arg26 m c)
theorem W14_arg26 (c : Dev nD) : W14 m c (Proc.devRef .tc main_arg26) = m ((c : Thread nD τ).loc main_arg26) := (W14_of m c main_arg26 (by decide)).trans (W13_arg26 m c)
theorem W15_arg26 (c : Dev nD) : W15 m c (Proc.devRef .tc main_arg26) = m ((c : Thread nD τ).loc main_arg26) := (W15_of m c main_arg26 (by decide)).trans (W14_arg26 m c)
theorem W16_arg26 (c : Dev nD) : W16 m c (Proc.devRef .tc main_arg26) = m ((c : Thread nD τ).loc main_arg26) := (W16_of m c main_arg26 (by decide)).trans (W15_arg26 m c)
theorem W17_arg26 (c : Dev nD) : W17 m c (Proc.devRef .tc main_arg26) = m ((c : Thread nD τ).loc main_arg26) := (W17_of m c main_arg26 (by decide)).trans (W16_arg26 m c)
theorem W18_arg26 (c : Dev nD) : W18 m c (Proc.devRef .tc main_arg26) = m ((c : Thread nD τ).loc main_arg26) := (W18_of m c main_arg26 (by decide)).trans (W17_arg26 m c)
theorem W19_arg26 (c : Dev nD) : W19 m c (Proc.devRef .tc main_arg26) = m ((c : Thread nD τ).loc main_arg26) := (W19_of m c main_arg26 (by decide)).trans (W18_arg26 m c)
theorem W20_arg26 (c : Dev nD) : W20 m c (Proc.devRef .tc main_arg26) = m ((c : Thread nD τ).loc main_arg26) := (W20_of m c main_arg26 (by decide)).trans (W19_arg26 m c)
theorem W21_arg26 (c : Dev nD) : W21 m c (Proc.devRef .tc main_arg26) = m ((c : Thread nD τ).loc main_arg26) := (W21_of m c main_arg26 (by decide)).trans (W20_arg26 m c)
theorem W22_arg26 (c : Dev nD) : W22 m c (Proc.devRef .tc main_arg26) = m ((c : Thread nD τ).loc main_arg26) := (W22_of m c main_arg26 (by decide)).trans (W21_arg26 m c)
theorem W23_arg26 (c : Dev nD) : W23 m c (Proc.devRef .tc main_arg26) = m ((c : Thread nD τ).loc main_arg26) := (W23_of m c main_arg26 (by decide)).trans (W22_arg26 m c)
theorem W24_arg26 (c : Dev nD) : W24 m c (Proc.devRef .tc main_arg26) = m ((c : Thread nD τ).loc main_arg26) := (W24_of m c main_arg26 (by decide)).trans (W23_arg26 m c)
theorem W25_arg26 (c : Dev nD) : W25 m c (Proc.devRef .tc main_arg26) = m ((c : Thread nD τ).loc main_arg26) := (W25_of m c main_arg26 (by decide)).trans (W24_arg26 m c)
theorem W26_arg26 (c : Dev nD) : W26 m c (Proc.devRef .tc main_arg26) = m ((c : Thread nD τ).loc main_arg26) := (W26_of m c main_arg26 (by decide)).trans (W25_arg26 m c)
theorem W27_arg26 (c : Dev nD) : W27 m c (Proc.devRef .tc main_arg26) = m ((c : Thread nD τ).loc main_arg26) := (W27_of m c main_arg26 (by decide)).trans (W26_arg26 m c)
theorem W28_arg26 (c : Dev nD) : W28 m c (Proc.devRef .tc main_arg26) = m ((c : Thread nD τ).loc main_arg26) := (W28_of m c main_arg26 (by decide)).trans (W27_arg26 m c)
theorem W29_arg26 (c : Dev nD) : W29 m c (Proc.devRef .tc main_arg26) = m ((c : Thread nD τ).loc main_arg26) := (W29_of m c main_arg26 (by decide)).trans (W28_arg26 m c)
theorem W1_arg27 (c : Dev nD) : W1 m c (Proc.devRef .tc main_arg27) = m ((c : Thread nD τ).loc main_arg27) := W1_of m c main_arg27 (by decide)
theorem W2_arg27 (c : Dev nD) : W2 m c (Proc.devRef .tc main_arg27) = m ((c : Thread nD τ).loc main_arg27) := (W2_of m c main_arg27 (by decide)).trans (W1_arg27 m c)
theorem W3_arg27 (c : Dev nD) : W3 m c (Proc.devRef .tc main_arg27) = m ((c : Thread nD τ).loc main_arg27) := (W3_of m c main_arg27 (by decide)).trans (W2_arg27 m c)
theorem W4_arg27 (c : Dev nD) : W4 m c (Proc.devRef .tc main_arg27) = m ((c : Thread nD τ).loc main_arg27) := (W4_of m c main_arg27 (by decide)).trans (W3_arg27 m c)
theorem W5_arg27 (c : Dev nD) : W5 m c (Proc.devRef .tc main_arg27) = m ((c : Thread nD τ).loc main_arg27) := (W5_of m c main_arg27 (by decide)).trans (W4_arg27 m c)
theorem W6_arg27 (c : Dev nD) : W6 m c (Proc.devRef .tc main_arg27) = m ((c : Thread nD τ).loc main_arg27) := (W6_of m c main_arg27 (by decide)).trans (W5_arg27 m c)
theorem W7_arg27 (c : Dev nD) : W7 m c (Proc.devRef .tc main_arg27) = m ((c : Thread nD τ).loc main_arg27) := (W7_of m c main_arg27 (by decide)).trans (W6_arg27 m c)
theorem W8_arg27 (c : Dev nD) : W8 m c (Proc.devRef .tc main_arg27) = m ((c : Thread nD τ).loc main_arg27) := (W8_of m c main_arg27 (by decide)).trans (W7_arg27 m c)
theorem W9_arg27 (c : Dev nD) : W9 m c (Proc.devRef .tc main_arg27) = m ((c : Thread nD τ).loc main_arg27) := (W9_of m c main_arg27 (by decide)).trans (W8_arg27 m c)
theorem W10_arg27 (c : Dev nD) : W10 m c (Proc.devRef .tc main_arg27) = m ((c : Thread nD τ).loc main_arg27) := (W10_of m c main_arg27 (by decide)).trans (W9_arg27 m c)
theorem W11_arg27 (c : Dev nD) : W11 m c (Proc.devRef .tc main_arg27) = m ((c : Thread nD τ).loc main_arg27) := (W11_of m c main_arg27 (by decide)).trans (W10_arg27 m c)
theorem W12_arg27 (c : Dev nD) : W12 m c (Proc.devRef .tc main_arg27) = m ((c : Thread nD τ).loc main_arg27) := (W12_of m c main_arg27 (by decide)).trans (W11_arg27 m c)
theorem W13_arg27 (c : Dev nD) : W13 m c (Proc.devRef .tc main_arg27) = m ((c : Thread nD τ).loc main_arg27) := (W13_of m c main_arg27 (by decide)).trans (W12_arg27 m c)
theorem W14_arg27 (c : Dev nD) : W14 m c (Proc.devRef .tc main_arg27) = m ((c : Thread nD τ).loc main_arg27) := (W14_of m c main_arg27 (by decide)).trans (W13_arg27 m c)
theorem W15_arg27 (c : Dev nD) : W15 m c (Proc.devRef .tc main_arg27) = m ((c : Thread nD τ).loc main_arg27) := (W15_of m c main_arg27 (by decide)).trans (W14_arg27 m c)
theorem W16_arg27 (c : Dev nD) : W16 m c (Proc.devRef .tc main_arg27) = m ((c : Thread nD τ).loc main_arg27) := (W16_of m c main_arg27 (by decide)).trans (W15_arg27 m c)
theorem W17_arg27 (c : Dev nD) : W17 m c (Proc.devRef .tc main_arg27) = m ((c : Thread nD τ).loc main_arg27) := (W17_of m c main_arg27 (by decide)).trans (W16_arg27 m c)
theorem W18_arg27 (c : Dev nD) : W18 m c (Proc.devRef .tc main_arg27) = m ((c : Thread nD τ).loc main_arg27) := (W18_of m c main_arg27 (by decide)).trans (W17_arg27 m c)
theorem W19_arg27 (c : Dev nD) : W19 m c (Proc.devRef .tc main_arg27) = m ((c : Thread nD τ).loc main_arg27) := (W19_of m c main_arg27 (by decide)).trans (W18_arg27 m c)
theorem W20_arg27 (c : Dev nD) : W20 m c (Proc.devRef .tc main_arg27) = m ((c : Thread nD τ).loc main_arg27) := (W20_of m c main_arg27 (by decide)).trans (W19_arg27 m c)
theorem W21_arg27 (c : Dev nD) : W21 m c (Proc.devRef .tc main_arg27) = m ((c : Thread nD τ).loc main_arg27) := (W21_of m c main_arg27 (by decide)).trans (W20_arg27 m c)
theorem W22_arg27 (c : Dev nD) : W22 m c (Proc.devRef .tc main_arg27) = m ((c : Thread nD τ).loc main_arg27) := (W22_of m c main_arg27 (by decide)).trans (W21_arg27 m c)
theorem W23_arg27 (c : Dev nD) : W23 m c (Proc.devRef .tc main_arg27) = m ((c : Thread nD τ).loc main_arg27) := (W23_of m c main_arg27 (by decide)).trans (W22_arg27 m c)
theorem W24_arg27 (c : Dev nD) : W24 m c (Proc.devRef .tc main_arg27) = m ((c : Thread nD τ).loc main_arg27) := (W24_of m c main_arg27 (by decide)).trans (W23_arg27 m c)
theorem W25_arg27 (c : Dev nD) : W25 m c (Proc.devRef .tc main_arg27) = m ((c : Thread nD τ).loc main_arg27) := (W25_of m c main_arg27 (by decide)).trans (W24_arg27 m c)
theorem W26_arg27 (c : Dev nD) : W26 m c (Proc.devRef .tc main_arg27) = m ((c : Thread nD τ).loc main_arg27) := (W26_of m c main_arg27 (by decide)).trans (W25_arg27 m c)
theorem W27_arg27 (c : Dev nD) : W27 m c (Proc.devRef .tc main_arg27) = m ((c : Thread nD τ).loc main_arg27) := (W27_of m c main_arg27 (by decide)).trans (W26_arg27 m c)
theorem W28_arg27 (c : Dev nD) : W28 m c (Proc.devRef .tc main_arg27) = m ((c : Thread nD τ).loc main_arg27) := (W28_of m c main_arg27 (by decide)).trans (W27_arg27 m c)
theorem W29_arg27 (c : Dev nD) : W29 m c (Proc.devRef .tc main_arg27) = m ((c : Thread nD τ).loc main_arg27) := (W29_of m c main_arg27 (by decide)).trans (W28_arg27 m c)
theorem W1_arg28 (c : Dev nD) : W1 m c (Proc.devRef .tc main_arg28) = m ((c : Thread nD τ).loc main_arg28) := W1_of m c main_arg28 (by decide)
theorem W2_arg28 (c : Dev nD) : W2 m c (Proc.devRef .tc main_arg28) = m ((c : Thread nD τ).loc main_arg28) := (W2_of m c main_arg28 (by decide)).trans (W1_arg28 m c)
theorem W3_arg28 (c : Dev nD) : W3 m c (Proc.devRef .tc main_arg28) = m ((c : Thread nD τ).loc main_arg28) := (W3_of m c main_arg28 (by decide)).trans (W2_arg28 m c)
theorem W4_arg28 (c : Dev nD) : W4 m c (Proc.devRef .tc main_arg28) = m ((c : Thread nD τ).loc main_arg28) := (W4_of m c main_arg28 (by decide)).trans (W3_arg28 m c)
theorem W5_arg28 (c : Dev nD) : W5 m c (Proc.devRef .tc main_arg28) = m ((c : Thread nD τ).loc main_arg28) := (W5_of m c main_arg28 (by decide)).trans (W4_arg28 m c)
theorem W6_arg28 (c : Dev nD) : W6 m c (Proc.devRef .tc main_arg28) = m ((c : Thread nD τ).loc main_arg28) := (W6_of m c main_arg28 (by decide)).trans (W5_arg28 m c)
theorem W7_arg28 (c : Dev nD) : W7 m c (Proc.devRef .tc main_arg28) = m ((c : Thread nD τ).loc main_arg28) := (W7_of m c main_arg28 (by decide)).trans (W6_arg28 m c)
theorem W8_arg28 (c : Dev nD) : W8 m c (Proc.devRef .tc main_arg28) = m ((c : Thread nD τ).loc main_arg28) := (W8_of m c main_arg28 (by decide)).trans (W7_arg28 m c)
theorem W9_arg28 (c : Dev nD) : W9 m c (Proc.devRef .tc main_arg28) = m ((c : Thread nD τ).loc main_arg28) := (W9_of m c main_arg28 (by decide)).trans (W8_arg28 m c)
theorem W10_arg28 (c : Dev nD) : W10 m c (Proc.devRef .tc main_arg28) = m ((c : Thread nD τ).loc main_arg28) := (W10_of m c main_arg28 (by decide)).trans (W9_arg28 m c)
theorem W11_arg28 (c : Dev nD) : W11 m c (Proc.devRef .tc main_arg28) = m ((c : Thread nD τ).loc main_arg28) := (W11_of m c main_arg28 (by decide)).trans (W10_arg28 m c)
theorem W12_arg28 (c : Dev nD) : W12 m c (Proc.devRef .tc main_arg28) = m ((c : Thread nD τ).loc main_arg28) := (W12_of m c main_arg28 (by decide)).trans (W11_arg28 m c)
theorem W13_arg28 (c : Dev nD) : W13 m c (Proc.devRef .tc main_arg28) = m ((c : Thread nD τ).loc main_arg28) := (W13_of m c main_arg28 (by decide)).trans (W12_arg28 m c)
theorem W14_arg28 (c : Dev nD) : W14 m c (Proc.devRef .tc main_arg28) = m ((c : Thread nD τ).loc main_arg28) := (W14_of m c main_arg28 (by decide)).trans (W13_arg28 m c)
theorem W15_arg28 (c : Dev nD) : W15 m c (Proc.devRef .tc main_arg28) = m ((c : Thread nD τ).loc main_arg28) := (W15_of m c main_arg28 (by decide)).trans (W14_arg28 m c)
theorem W16_arg28 (c : Dev nD) : W16 m c (Proc.devRef .tc main_arg28) = m ((c : Thread nD τ).loc main_arg28) := (W16_of m c main_arg28 (by decide)).trans (W15_arg28 m c)
theorem W17_arg28 (c : Dev nD) : W17 m c (Proc.devRef .tc main_arg28) = m ((c : Thread nD τ).loc main_arg28) := (W17_of m c main_arg28 (by decide)).trans (W16_arg28 m c)
theorem W18_arg28 (c : Dev nD) : W18 m c (Proc.devRef .tc main_arg28) = m ((c : Thread nD τ).loc main_arg28) := (W18_of m c main_arg28 (by decide)).trans (W17_arg28 m c)
theorem W19_arg28 (c : Dev nD) : W19 m c (Proc.devRef .tc main_arg28) = m ((c : Thread nD τ).loc main_arg28) := (W19_of m c main_arg28 (by decide)).trans (W18_arg28 m c)
theorem W20_arg28 (c : Dev nD) : W20 m c (Proc.devRef .tc main_arg28) = m ((c : Thread nD τ).loc main_arg28) := (W20_of m c main_arg28 (by decide)).trans (W19_arg28 m c)
theorem W21_arg28 (c : Dev nD) : W21 m c (Proc.devRef .tc main_arg28) = m ((c : Thread nD τ).loc main_arg28) := (W21_of m c main_arg28 (by decide)).trans (W20_arg28 m c)
theorem W22_arg28 (c : Dev nD) : W22 m c (Proc.devRef .tc main_arg28) = m ((c : Thread nD τ).loc main_arg28) := (W22_of m c main_arg28 (by decide)).trans (W21_arg28 m c)
theorem W23_arg28 (c : Dev nD) : W23 m c (Proc.devRef .tc main_arg28) = m ((c : Thread nD τ).loc main_arg28) := (W23_of m c main_arg28 (by decide)).trans (W22_arg28 m c)
theorem W24_arg28 (c : Dev nD) : W24 m c (Proc.devRef .tc main_arg28) = m ((c : Thread nD τ).loc main_arg28) := (W24_of m c main_arg28 (by decide)).trans (W23_arg28 m c)
theorem W25_arg28 (c : Dev nD) : W25 m c (Proc.devRef .tc main_arg28) = m ((c : Thread nD τ).loc main_arg28) := (W25_of m c main_arg28 (by decide)).trans (W24_arg28 m c)
theorem W26_arg28 (c : Dev nD) : W26 m c (Proc.devRef .tc main_arg28) = m ((c : Thread nD τ).loc main_arg28) := (W26_of m c main_arg28 (by decide)).trans (W25_arg28 m c)
theorem W27_arg28 (c : Dev nD) : W27 m c (Proc.devRef .tc main_arg28) = m ((c : Thread nD τ).loc main_arg28) := (W27_of m c main_arg28 (by decide)).trans (W26_arg28 m c)
theorem W28_arg28 (c : Dev nD) : W28 m c (Proc.devRef .tc main_arg28) = m ((c : Thread nD τ).loc main_arg28) := (W28_of m c main_arg28 (by decide)).trans (W27_arg28 m c)
theorem W29_arg28 (c : Dev nD) : W29 m c (Proc.devRef .tc main_arg28) = m ((c : Thread nD τ).loc main_arg28) := (W29_of m c main_arg28 (by decide)).trans (W28_arg28 m c)

/-! ## A stage's buffer is not written again before it is read -/

theorem W16_v52_from7 (c : Dev nD) : W16 m c (Proc.devRef .tc main_v52) = W7 m c (Proc.devRef .tc main_v52) :=
  (W16_of m c main_v52 (by decide)).trans ((W15_of m c main_v52 (by decide)).trans ((W14_of m c main_v52 (by decide)).trans ((W13_of m c main_v52 (by decide)).trans ((W12_of m c main_v52 (by decide)).trans ((W11_of m c main_v52 (by decide)).trans ((W10_of m c main_v52 (by decide)).trans ((W9_of m c main_v52 (by decide)).trans ((W8_of m c main_v52 (by decide))))))))))
theorem W15_v52_from7 (c : Dev nD) : W15 m c (Proc.devRef .tc main_v52) = W7 m c (Proc.devRef .tc main_v52) :=
  (W15_of m c main_v52 (by decide)).trans ((W14_of m c main_v52 (by decide)).trans ((W13_of m c main_v52 (by decide)).trans ((W12_of m c main_v52 (by decide)).trans ((W11_of m c main_v52 (by decide)).trans ((W10_of m c main_v52 (by decide)).trans ((W9_of m c main_v52 (by decide)).trans ((W8_of m c main_v52 (by decide)))))))))
theorem W16_v103_from13 (c : Dev nD) : W16 m c (Proc.devRef .tc main_v103) = W13 m c (Proc.devRef .tc main_v103) :=
  (W16_of m c main_v103 (by decide)).trans ((W15_of m c main_v103 (by decide)).trans ((W14_of m c main_v103 (by decide))))
theorem W16_v105_from14 (c : Dev nD) : W16 m c (Proc.devRef .tc main_v105) = W14 m c (Proc.devRef .tc main_v105) :=
  (W16_of m c main_v105 (by decide)).trans ((W15_of m c main_v105 (by decide)))
theorem W6_v1_from1 (c : Dev nD) : W6 m c (Proc.devRef .tc main_v1) = W1 m c (Proc.devRef .tc main_v1) :=
  (W6_of m c main_v1 (by decide)).trans ((W5_of m c main_v1 (by decide)).trans ((W4_of m c main_v1 (by decide)).trans ((W3_of m c main_v1 (by decide)).trans ((W2_of m c main_v1 (by decide))))))

/-! ## Each region's output array holds what the region left -/

theorem W2_out (c : Dev nD) : W2 m c (Proc.devRef .tc main_v3) = o2 m c := by rw [W2_def]; exact upd_out (W1 m c) main_v3 (o2 m c)
theorem W8_out (c : Dev nD) : W8 m c (Proc.devRef .tc main_v54) = o8 m c := by rw [W8_def]; exact upd_out (W7 m c) main_v54 (o8 m c)
theorem W14_out (c : Dev nD) : W14 m c (Proc.devRef .tc main_v105) = o14 m c := by rw [W14_def]; exact upd_out (W13 m c) main_v105 (o14 m c)
theorem W16_out (c : Dev nD) : W16 m c (Proc.devRef .tc main_v107) = o16 m c := by rw [W16_def]; exact upd_out (W15 m c) main_v107 (o16 m c)
theorem W18_out (c : Dev nD) : W18 m c (Proc.devRef .tc main_v140) = o18 m c := by rw [W18_def]; exact upd_out (W17 m c) main_v140 (o18 m c)
theorem W24_out (c : Dev nD) : W24 m c (Proc.devRef .tc main_v162) = o24 m c := by rw [W24_def]; exact upd_out (W23 m c) main_v162 (o24 m c)

end Cert.KernelIdeal.Hand

end
-- ==== Proof.Ref.Defs.lean ====
import proofs.«141825_j60318520705103_1_alg».proof.Proof.Gen.ReferenceIdeal
import Idealize.ShloMosaic.Lib.StableHlo

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One graph-convolution layer after its feature matmul `h`: self-loops appended to the edge list `ei` (weights `ew`, the loops' weight one), symmetric normalisation by the scatter-added in-degree, the normalised messages gathered at the sources and scatter-added at the targets, the bias added, a leaky rectifier of slope 0.01. -/
def gcnTail (h : (⟨S8192x512, .f32⟩ : BufTy).Contents (Elt F)) (ei : (⟨S2x262144, .i32⟩ : BufTy).Contents (Elt F)) (ew : (⟨S262144, .f32⟩ : BufTy).Contents (Elt F)) (bias : (⟨S512, .f32⟩ : BufTy).Contents (Elt F)) : (⟨S8192x512, .f32⟩ : BufTy).Contents (Elt F) :=
  let v0 : (⟨S8192, .i32⟩ : BufTy).Contents (Elt F) := (iotaInDim S8192 32 0)
  let v1 : (⟨S1x262144, .i32⟩ : BufTy).Contents (Elt F) := (((extractStridedSlice S1x262144 ![0, 0] · slices_S2x262144_S1x262144_0_0) : (⟨S2x262144, .i32⟩ : BufTy).Contents (Elt F) → (⟨S1x262144, .i32⟩ : BufTy).Contents (Elt F))) ei
  let v2 : (⟨S262144, .i32⟩ : BufTy).Contents (Elt F) := shapeCast S262144 v1 shapeCasts_S1x262144_S262144
  let v3 : (⟨S270336, .i32⟩ : BufTy).Contents (Elt F) := (((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F))) v2 v0
  let v4 : (⟨S1x262144, .i32⟩ : BufTy).Contents (Elt F) := (((extractStridedSlice S1x262144 ![1, 0] · slices_S2x262144_S1x262144_1_0) : (⟨S2x262144, .i32⟩ : BufTy).Contents (Elt F) → (⟨S1x262144, .i32⟩ : BufTy).Contents (Elt F))) ei
  let v5 : (⟨S262144, .i32⟩ : BufTy).Contents (Elt F) := shapeCast S262144 v4 shapeCasts_S1x262144_S262144
  let v6 : (⟨S270336, .i32⟩ : BufTy).Contents (Elt F) := (((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F))) v5 v0
  let cst : (⟨S_, .f32⟩ : BufTy).Contents (Elt F) := (constant S_ .f32 0x3F800000#32)
  let v7 : (⟨S8192, .f32⟩ : BufTy).Contents (Elt F) := ((broadcastInDim S8192 ![] bcast_S_S8192 : (⟨S_, .f32⟩ : BufTy).Contents (Elt F) → (⟨S8192, .f32⟩ : BufTy).Contents (Elt F))) cst
  let v8 : (⟨S270336, .f32⟩ : BufTy).Contents (Elt F) := (((fun a b => concatenate S270336 0 [⟨S262144, a⟩, ⟨S8192, b⟩] concatenates_S262144_S8192_S270336_d0) : (⟨S262144, .f32⟩ : BufTy).Contents (Elt F) → (⟨S8192, .f32⟩ : BufTy).Contents (Elt F) → (⟨S270336, .f32⟩ : BufTy).Contents (Elt F))) ew v7
  let cst_0 : (⟨S_, .f32⟩ : BufTy).Contents (Elt F) := (constant S_ .f32 0x00000000#32)
  let v9 : (⟨S8192, .f32⟩ : BufTy).Contents (Elt F) := ((broadcastInDim S8192 ![] bcast_S_S8192 : (⟨S_, .f32⟩ : BufTy).Contents (Elt F) → (⟨S8192, .f32⟩ : BufTy).Contents (Elt F))) cst_0
  let v10 : (⟨S270336x1, .i32⟩ : BufTy).Contents (Elt F) := ((broadcastInDim S270336x1 ![0] bcast_S270336_S270336x1_0 : (⟨S270336, .i32⟩ : BufTy).Contents (Elt F) → (⟨S270336x1, .i32⟩ : BufTy).Contents (Elt F))) v6
  let v11 : (⟨S8192, .f32⟩ : BufTy).Contents (Elt F) := (((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F))) v9 v10 v8
  let cst_1 : (⟨S_, .f32⟩ : BufTy).Contents (Elt F) := (constant S_ .f32 0x00000000#32)
  let v12 : (⟨S8192, .f32⟩ : BufTy).Contents (Elt F) := ((broadcastInDim S8192 ![] bcast_S_S8192 : (⟨S_, .f32⟩ : BufTy).Contents (Elt F) → (⟨S8192, .f32⟩ : BufTy).Contents (Elt F))) cst_1
  let v13 : (⟨S8192, .i1⟩ : BufTy).Contents (Elt F) := ((cmpf .ogt : (⟨S8192, .f32⟩ : BufTy).Contents (Elt F) → (⟨S8192, .f32⟩ : BufTy).Contents (Elt F) → (⟨S8192, .i1⟩ : BufTy).Contents (Elt F))) v11 v12
  let v14 : (⟨S8192, .f32⟩ : BufTy).Contents (Elt F) := ((Host.rsqrt : (⟨S8192, .f32⟩ : BufTy).Contents (Elt F) → (⟨S8192, .f32⟩ : BufTy).Contents (Elt F))) v11
  let cst_2 : (⟨S_, .f32⟩ : BufTy).Contents (Elt F) := (constant S_ .f32 0x00000000#32)
  let call0_v0 : (⟨S_, .f32⟩ : BufTy).Contents (Elt F) := id cst_2
  let call0_v1 : (⟨S8192, .f32⟩ : BufTy).Contents (Elt F) := ((broadcastInDim S8192 ![] bcast_S_S8192)) call0_v0
  let v15 : (⟨S8192, .f32⟩ : BufTy).Contents (Elt F) := select v13 v14 call0_v1
  let c : (⟨S_, .i32⟩ : BufTy).Contents (Elt F) := (constantI S_ 32 0#32)
  let v16 : (⟨S270336, .i32⟩ : BufTy).Contents (Elt F) := ((broadcastInDim S270336 ![] bcast_S_S270336 : (⟨S_, .i32⟩ : BufTy).Contents (Elt F) → (⟨S270336, .i32⟩ : BufTy).Contents (Elt F))) c
  let v17 : (⟨S270336, .i1⟩ : BufTy).Contents (Elt F) := ((cmpi .slt : (⟨S270336, .i32⟩ : BufTy).Contents (Elt F) → (⟨S270336, .i32⟩ : BufTy).Contents (Elt F) → (⟨S270336, .i1⟩ : BufTy).Contents (Elt F))) v3 v16
  let c_3 : (⟨S_, .i32⟩ : BufTy).Contents (Elt F) := (constantI S_ 32 8192#32)
  let v18 : (⟨S270336, .i32⟩ : BufTy).Contents (Elt F) := ((broadcastInDim S270336 ![] bcast_S_S270336 : (⟨S_, .i32⟩ : BufTy).Contents (Elt F) → (⟨S270336, .i32⟩ : BufTy).Contents (Elt F))) c_3
  let v19 : (⟨S270336, .i32⟩ : BufTy).Contents (Elt F) := ((addi : (⟨S270336, .i32⟩ : BufTy).Contents (Elt F) → (⟨S270336, .i32⟩ : BufTy).Contents (Elt F) → (⟨S270336, .i32⟩ : BufTy).Contents (Elt F))) v3 v18
  let v20 : (⟨S270336, .i32⟩ : BufTy).Contents (Elt F) := ((select : (⟨S270336, .i1⟩ : BufTy).Contents (Elt F) → (⟨S270336, .i32⟩ : BufTy).Contents (Elt F) → (⟨S270336, .i32⟩ : BufTy).Contents (Elt F) → (⟨S270336, .i32⟩ : BufTy).Contents (Elt F))) v17 v19 v3
  let v21 : (⟨S270336x1, .i32⟩ : BufTy).Contents (Elt F) := ((broadcastInDim S270336x1 ![0] bcast_S270336_S270336x1_0 : (⟨S270336, .i32⟩ : BufTy).Contents (Elt F) → (⟨S270336x1, .i32⟩ : BufTy).Contents (Elt F))) v20
  let v22 : (⟨S270336, .f32⟩ : BufTy).Contents (Elt F) := (((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F))) v15 v21
  let v23 : (⟨S270336, .f32⟩ : BufTy).Contents (Elt F) := ((mulf : (⟨S270336, .f32⟩ : BufTy).Contents (Elt F) → (⟨S270336, .f32⟩ : BufTy).Contents (Elt F) → (⟨S270336, .f32⟩ : BufTy).Contents (Elt F))) v22 v8
  let c_4 : (⟨S_, .i32⟩ : BufTy).Contents (Elt F) := (constantI S_ 32 0#32)
  let v24 : (⟨S270336, .i32⟩ : BufTy).Contents (Elt F) := ((broadcastInDim S270336 ![] bcast_S_S270336 : (⟨S_, .i32⟩ : BufTy).Contents (Elt F) → (⟨S270336, .i32⟩ : BufTy).Contents (Elt F))) c_4
  let v25 : (⟨S270336, .i1⟩ : BufTy).Contents (Elt F) := ((cmpi .slt : (⟨S270336, .i32⟩ : BufTy).Contents (Elt F) → (⟨S270336, .i32⟩ : BufTy).Contents (Elt F) → (⟨S270336, .i1⟩ : BufTy).Contents (Elt F))) v6 v24
  let c_5 : (⟨S_, .i32⟩ : BufTy).Contents (Elt F) := (constantI S_ 32 8192#32)
  let v26 : (⟨S270336, .i32⟩ : BufTy).Contents (Elt F) := ((broadcastInDim S270336 ![] bcast_S_S270336 : (⟨S_, .i32⟩ : BufTy).Contents (Elt F) → (⟨S270336, .i32⟩ : BufTy).Contents (Elt F))) c_5
  let v27 : (⟨S270336, .i32⟩ : BufTy).Contents (Elt F) := ((addi : (⟨S270336, .i32⟩ : BufTy).Contents (Elt F) → (⟨S270336, .i32⟩ : BufTy).Contents (Elt F) → (⟨S270336, .i32⟩ : BufTy).Contents (Elt F))) v6 v26
  let v28 : (⟨S270336, .i32⟩ : BufTy).Contents (Elt F) := ((select : (⟨S270336, .i1⟩ : BufTy).Contents (Elt F) → (⟨S270336, .i32⟩ : BufTy).Contents (Elt F) → (⟨S270336, .i32⟩ : BufTy).Contents (Elt F) → (⟨S270336, .i32⟩ : BufTy).Contents (Elt F))) v25 v27 v6
  let v29 : (⟨S270336x1, .i32⟩ : BufTy).Contents (Elt F) := ((broadcastInDim S270336x1 ![0] bcast_S270336_S270336x1_0 : (⟨S270336, .i32⟩ : BufTy).Contents (Elt F) → (⟨S270336x1, .i32⟩ : BufTy).Contents (Elt F))) v28
  let v30 : (⟨S270336, .f32⟩ : BufTy).Contents (Elt F) := (((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F))) v15 v29
  let v31 : (⟨S270336, .f32⟩ : BufTy).Contents (Elt F) := ((mulf : (⟨S270336, .f32⟩ : BufTy).Contents (Elt F) → (⟨S270336, .f32⟩ : BufTy).Contents (Elt F) → (⟨S270336, .f32⟩ : BufTy).Contents (Elt F))) v23 v30
  let c_6 : (⟨S_, .i32⟩ : BufTy).Contents (Elt F) := (constantI S_ 32 0#32)
  let v33 : (⟨S270336, .i32⟩ : BufTy).Contents (Elt F) := ((broadcastInDim S270336 ![] bcast_S_S270336 : (⟨S_, .i32⟩ : BufTy).Contents (Elt F) → (⟨S270336, .i32⟩ : BufTy).Contents (Elt F))) c_6
  let v34 : (⟨S270336, .i1⟩ : BufTy).Contents (Elt F) := ((cmpi .slt : (⟨S270336, .i32⟩ : BufTy).Contents (Elt F) → (⟨S270336, .i32⟩ : BufTy).Contents (Elt F) → (⟨S270336, .i1⟩ : BufTy).Contents (Elt F))) v3 v33
  let c_7 : (⟨S_, .i32⟩ : BufTy).Contents (Elt F) := (constantI S_ 32 8192#32)
  let v35 : (⟨S270336, .i32⟩ : BufTy).Contents (Elt F) := ((broadcastInDim S270336 ![] bcast_S_S270336 : (⟨S_, .i32⟩ : BufTy).Contents (Elt F) → (⟨S270336, .i32⟩ : BufTy).Contents (Elt F))) c_7
  let v36 : (⟨S270336, .i32⟩ : BufTy).Contents (Elt F) := ((addi : (⟨S270336, .i32⟩ : BufTy).Contents (Elt F) → (⟨S270336, .i32⟩ : BufTy).Contents (Elt F) → (⟨S270336, .i32⟩ : BufTy).Contents (Elt F))) v3 v35
  let v37 : (⟨S270336, .i32⟩ : BufTy).Contents (Elt F) := ((select : (⟨S270336, .i1⟩ : BufTy).Contents (Elt F) → (⟨S270336, .i32⟩ : BufTy).Contents (Elt F) → (⟨S270336, .i32⟩ : BufTy).Contents (Elt F) → (⟨S270336, .i32⟩ : BufTy).Contents (Elt F))) v34 v36 v3
  let v38 : (⟨S270336x1, .i32⟩ : BufTy).Contents (Elt F) := ((broadcastInDim S270336x1 ![0] bcast_S270336_S270336x1_0 : (⟨S270336, .i32⟩ : BufTy).Contents (Elt F) → (⟨S270336x1, .i32⟩ : BufTy).Contents (Elt F))) v37
  let v39 : (⟨S270336x512, .f32⟩ : BufTy).Contents (Elt F) := (((fun x i => Host.gather gather_S8192x512_S270336x1_S270336x512_1_0_n_n_0_1_1512 x i) : (⟨S8192x512, .f32⟩ : BufTy).Contents (Elt F) → (⟨S270336x1, .i32⟩ : BufTy).Contents (Elt F) → (⟨S270336x512, .f32⟩ : BufTy).Contents (Elt F))) h v38
  let v40 : (⟨S270336x1, .f32⟩ : BufTy).Contents (Elt F) := ((broadcastInDim S270336x1 ![0] bcast_S270336_S270336x1_0 : (⟨S270336, .f32⟩ : BufTy).Contents (Elt F) → (⟨S270336x1, .f32⟩ : BufTy).Contents (Elt F))) v31
  let v41 : (⟨S270336x512, .f32⟩ : BufTy).Contents (Elt F) := ((broadcastInDim S270336x512 ![0, 1] bcast_S270336x1_S270336x512_0_1 : (⟨S270336x1, .f32⟩ : BufTy).Contents (Elt F) → (⟨S270336x512, .f32⟩ : BufTy).Contents (Elt F))) v40
  let v42 : (⟨S270336x512, .f32⟩ : BufTy).Contents (Elt F) := ((mulf : (⟨S270336x512, .f32⟩ : BufTy).Contents (Elt F) → (⟨S270336x512, .f32⟩ : BufTy).Contents (Elt F) → (⟨S270336x512, .f32⟩ : BufTy).Contents (Elt F))) v39 v41
  let cst_8 : (⟨S_, .f32⟩ : BufTy).Contents (Elt F) := (constant S_ .f32 0x00000000#32)
  let v43 : (⟨S8192x512, .f32⟩ : BufTy).Contents (Elt F) := ((broadcastInDim S8192x512 ![] bcast_S_S8192x512 : (⟨S_, .f32⟩ : BufTy).Contents (Elt F) → (⟨S8192x512, .f32⟩ : BufTy).Contents (Elt F))) cst_8
  let v44 : (⟨S270336x1, .i32⟩ : BufTy).Contents (Elt F) := ((broadcastInDim S270336x1 ![0] bcast_S270336_S270336x1_0 : (⟨S270336, .i32⟩ : BufTy).Contents (Elt F) → (⟨S270336x1, .i32⟩ : BufTy).Contents (Elt F))) v6
  let v45 : (⟨S8192x512, .f32⟩ : BufTy).Contents (Elt F) := (((fun x i u => Host.scatterAdd scatter_S8192x512_S270336x1_S270336x512_1_0_0_1 x i u) : (⟨S8192x512, .f32⟩ : BufTy).Contents (Elt F) → (⟨S270336x1, .i32⟩ : BufTy).Contents (Elt F) → (⟨S270336x512, .f32⟩ : BufTy).Contents (Elt F) → (⟨S8192x512, .f32⟩ : BufTy).Contents (Elt F))) v43 v44 v42
  let v46 : (⟨S1x512, .f32⟩ : BufTy).Contents (Elt F) := ((broadcastInDim S1x512 ![1] bcast_S512_S1x512_1 : (⟨S512, .f32⟩ : BufTy).Contents (Elt F) → (⟨S1x512, .f32⟩ : BufTy).Contents (Elt F))) bias
  let v47 : (⟨S8192x512, .f32⟩ : BufTy).Contents (Elt F) := ((broadcastInDim S8192x512 ![0, 1] bcast_S1x512_S8192x512_0_1 : (⟨S1x512, .f32⟩ : BufTy).Contents (Elt F) → (⟨S8192x512, .f32⟩ : BufTy).Contents (Elt F))) v46
  let v48 : (⟨S8192x512, .f32⟩ : BufTy).Contents (Elt F) := ((addf : (⟨S8192x512, .f32⟩ : BufTy).Contents (Elt F) → (⟨S8192x512, .f32⟩ : BufTy).Contents (Elt F) → (⟨S8192x512, .f32⟩ : BufTy).Contents (Elt F))) v45 v47
  let cst_9 : (⟨S_, .f32⟩ : BufTy).Contents (Elt F) := (constant S_ .f32 0x3C23D70A#32)
  let call1_cst : (⟨S_, .f32⟩ : BufTy).Contents (Elt F) := (constant S_ .f32 0x00000000#32)
  let call1_v0 : (⟨S8192x512, .f32⟩ : BufTy).Contents (Elt F) := ((broadcastInDim S8192x512 ![] bcast_S_S8192x512)) call1_cst
  let call1_v1 : (⟨S8192x512, .i1⟩ : BufTy).Contents (Elt F) := ((cmpf .oge)) v48 call1_v0
  let call1_v2 : (⟨S_, .f32⟩ : BufTy).Contents (Elt F) := id cst_9
  let call1_v3 : (⟨S8192x512, .f32⟩ : BufTy).Contents (Elt F) := ((broadcastInDim S8192x512 ![] bcast_S_S8192x512)) call1_v2
  let call1_v4 : (⟨S8192x512, .f32⟩ : BufTy).Contents (Elt F) := mulf call1_v3 v48
  let v49 : (⟨S8192x512, .f32⟩ : BufTy).Contents (Elt F) := select call1_v1 v48 call1_v4
  v49

/-- `relu ((a · x) · w + bias)`, the bias broadcast along rows. -/
def affinity (a : (⟨S8192x8192, .f32⟩ : BufTy).Contents (Elt F)) (x : (⟨S8192x512, .f32⟩ : BufTy).Contents (Elt F)) (w : (⟨S512x512, .f32⟩ : BufTy).Contents (Elt F)) (bias : (⟨S512, .f32⟩ : BufTy).Contents (Elt F)) : (⟨S8192x512, .f32⟩ : BufTy).Contents (Elt F) :=
  let v114 : (⟨S8192x512, .f32⟩ : BufTy).Contents (Elt F) := (((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F))) a x
  let v115 : (⟨S8192x512, .f32⟩ : BufTy).Contents (Elt F) := (((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F))) v114 w
  let v116 : (⟨S1x512, .f32⟩ : BufTy).Contents (Elt F) := ((broadcastInDim S1x512 ![1] bcast_S512_S1x512_1 : (⟨S512, .f32⟩ : BufTy).Contents (Elt F) → (⟨S1x512, .f32⟩ : BufTy).Contents (Elt F))) bias
  let v117 : (⟨S8192x512, .f32⟩ : BufTy).Contents (Elt F) := ((broadcastInDim S8192x512 ![0, 1] bcast_S1x512_S8192x512_0_1 : (⟨S1x512, .f32⟩ : BufTy).Contents (Elt F) → (⟨S8192x512, .f32⟩ : BufTy).Contents (Elt F))) v116
  let v118 : (⟨S8192x512, .f32⟩ : BufTy).Contents (Elt F) := ((addf : (⟨S8192x512, .f32⟩ : BufTy).Contents (Elt F) → (⟨S8192x512, .f32⟩ : BufTy).Contents (Elt F) → (⟨S8192x512, .f32⟩ : BufTy).Contents (Elt F))) v115 v117
  let call4_cst : (⟨S_, .f32⟩ : BufTy).Contents (Elt F) := (constant S_ .f32 0x00000000#32)
  let call4_v0 : (⟨S8192x512, .f32⟩ : BufTy).Contents (Elt F) := ((broadcastInDim S8192x512 ![] bcast_S_S8192x512)) call4_cst
  let v119 : (⟨S8192x512, .f32⟩ : BufTy).Contents (Elt F) := maximumf v118 call4_v0
  v119

/-- `relu ((aᵀ · x) · w + bias)`, the bias broadcast along rows. -/
def affinityT (a : (⟨S8192x8192, .f32⟩ : BufTy).Contents (Elt F)) (x : (⟨S8192x512, .f32⟩ : BufTy).Contents (Elt F)) (w : (⟨S512x512, .f32⟩ : BufTy).Contents (Elt F)) (bias : (⟨S512, .f32⟩ : BufTy).Contents (Elt F)) : (⟨S8192x512, .f32⟩ : BufTy).Contents (Elt F) :=
  let v127 : (⟨S8192x8192, .f32⟩ : BufTy).Contents (Elt F) := (((transpose S8192x8192 [1, 0] · transposes_S8192x8192_S8192x8192_1_0) : (⟨S8192x8192, .f32⟩ : BufTy).Contents (Elt F) → (⟨S8192x8192, .f32⟩ : BufTy).Contents (Elt F))) a
  let v128 : (⟨S8192x512, .f32⟩ : BufTy).Contents (Elt F) := (((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F))) v127 x
  let v129 : (⟨S8192x512, .f32⟩ : BufTy).Contents (Elt F) := (((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F))) v128 w
  let v130 : (⟨S1x512, .f32⟩ : BufTy).Contents (Elt F) := ((broadcastInDim S1x512 ![1] bcast_S512_S1x512_1 : (⟨S512, .f32⟩ : BufTy).Contents (Elt F) → (⟨S1x512, .f32⟩ : BufTy).Contents (Elt F))) bias
  let v131 : (⟨S8192x512, .f32⟩ : BufTy).Contents (Elt F) := ((broadcastInDim S8192x512 ![0, 1] bcast_S1x512_S8192x512_0_1 : (⟨S1x512, .f32⟩ : BufTy).Contents (Elt F) → (⟨S8192x512, .f32⟩ : BufTy).Contents (Elt F))) v130
  let v132 : (⟨S8192x512, .f32⟩ : BufTy).Contents (Elt F) := ((addf : (⟨S8192x512, .f32⟩ : BufTy).Contents (Elt F) → (⟨S8192x512, .f32⟩ : BufTy).Contents (Elt F) → (⟨S8192x512, .f32⟩ : BufTy).Contents (Elt F))) v129 v131
  let call5_cst : (⟨S_, .f32⟩ : BufTy).Contents (Elt F) := (constant S_ .f32 0x00000000#32)
  let call5_v0 : (⟨S8192x512, .f32⟩ : BufTy).Contents (Elt F) := ((broadcastInDim S8192x512 ![] bcast_S_S8192x512)) call5_cst
  let v133 : (⟨S8192x512, .f32⟩ : BufTy).Contents (Elt F) := maximumf v132 call5_v0
  v133

/-- The pair features: `dv`, `pe`, the rows of `ecfps` and `p2d` at the indices `di` side by side, the rows of `gos` and `d2p` at the indices `pi` side by side, concatenated along columns (a negative index counted from the end). -/
def feature (dv : (⟨S4096x300, .f32⟩ : BufTy).Contents (Elt F)) (pe : (⟨S4096x1024, .f32⟩ : BufTy).Contents (Elt F)) (ecfps : (⟨S8192x512, .f32⟩ : BufTy).Contents (Elt F)) (gos : (⟨S8192x512, .f32⟩ : BufTy).Contents (Elt F)) (p2d : (⟨S8192x512, .f32⟩ : BufTy).Contents (Elt F)) (d2p : (⟨S8192x512, .f32⟩ : BufTy).Contents (Elt F)) (di : (⟨S4096, .i32⟩ : BufTy).Contents (Elt F)) (pi : (⟨S4096, .i32⟩ : BufTy).Contents (Elt F)) : (⟨S4096x3372, .f32⟩ : BufTy).Contents (Elt F) :=
  let c_22 : (⟨S_, .i32⟩ : BufTy).Contents (Elt F) := (constantI S_ 32 0#32)
  let v100 : (⟨S4096, .i32⟩ : BufTy).Contents (Elt F) := ((broadcastInDim S4096 ![] bcast_S_S4096 : (⟨S_, .i32⟩ : BufTy).Contents (Elt F) → (⟨S4096, .i32⟩ : BufTy).Contents (Elt F))) c_22
  let v101 : (⟨S4096, .i1⟩ : BufTy).Contents (Elt F) := ((cmpi .slt : (⟨S4096, .i32⟩ : BufTy).Contents (Elt F) → (⟨S4096, .i32⟩ : BufTy).Contents (Elt F) → (⟨S4096, .i1⟩ : BufTy).Contents (Elt F))) di v100
  let c_23 : (⟨S_, .i32⟩ : BufTy).Contents (Elt F) := (constantI S_ 32 8192#32)
  let v102 : (⟨S4096, .i32⟩ : BufTy).Contents (Elt F) := ((broadcastInDim S4096 ![] bcast_S_S4096 : (⟨S_, .i32⟩ : BufTy).Contents (Elt F) → (⟨S4096, .i32⟩ : BufTy).Contents (Elt F))) c_23
  let v103 : (⟨S4096, .i32⟩ : BufTy).Contents (Elt F) := ((addi : (⟨S4096, .i32⟩ : BufTy).Contents (Elt F) → (⟨S4096, .i32⟩ : BufTy).Contents (Elt F) → (⟨S4096, .i32⟩ : BufTy).Contents (Elt F))) di v102
  let v104 : (⟨S4096, .i32⟩ : BufTy).Contents (Elt F) := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) v101 v103 di
  let v105 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) v104
  let v106 : (⟨S4096x512, .f32⟩ : BufTy).Contents (Elt F) := (((fun x i => Host.gather gather_S8192x512_S4096x1_S4096x512_1_0_n_n_0_1_1512 x i) : (⟨S8192x512, .f32⟩ : BufTy).Contents (Elt F) → (⟨S4096x1, .i32⟩ : BufTy).Contents (Elt F) → (⟨S4096x512, .f32⟩ : BufTy).Contents (Elt F))) ecfps v105
  let c_24 : (⟨S_, .i32⟩ : BufTy).Contents (Elt F) := (constantI S_ 32 0#32)
  let v107 : (⟨S4096, .i32⟩ : BufTy).Contents (Elt F) := ((broadcastInDim S4096 ![] bcast_S_S4096 : (⟨S_, .i32⟩ : BufTy).Contents (Elt F) → (⟨S4096, .i32⟩ : BufTy).Contents (Elt F))) c_24
  let v108 : (⟨S4096, .i1⟩ : BufTy).Contents (Elt F) := ((cmpi .slt : (⟨S4096, .i32⟩ : BufTy).Contents (Elt F) → (⟨S4096, .i32⟩ : BufTy).Contents (Elt F) → (⟨S4096, .i1⟩ : BufTy).Contents (Elt F))) pi v107
  let c_25 : (⟨S_, .i32⟩ : BufTy).Contents (Elt F) := (constantI S_ 32 8192#32)
  let v109 : (⟨S4096, .i32⟩ : BufTy).Contents (Elt F) := ((broadcastInDim S4096 ![] bcast_S_S4096 : (⟨S_, .i32⟩ : BufTy).Contents (Elt F) → (⟨S4096, .i32⟩ : BufTy).Contents (Elt F))) c_25
  let v110 : (⟨S4096, .i32⟩ : BufTy).Contents (Elt F) := ((addi : (⟨S4096, .i32⟩ : BufTy).Contents (Elt F) → (⟨S4096, .i32⟩ : BufTy).Contents (Elt F) → (⟨S4096, .i32⟩ : BufTy).Contents (Elt F))) pi v109
  let v111 : (⟨S4096, .i32⟩ : BufTy).Contents (Elt F) := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) v108 v110 pi
  let v112 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) v111
  let v113 : (⟨S4096x512, .f32⟩ : BufTy).Contents (Elt F) := (((fun x i => Host.gather gather_S8192x512_S4096x1_S4096x512_1_0_n_n_0_1_1512 x i) : (⟨S8192x512, .f32⟩ : BufTy).Contents (Elt F) → (⟨S4096x1, .i32⟩ : BufTy).Contents (Elt F) → (⟨S4096x512, .f32⟩ : BufTy).Contents (Elt F))) gos v112
  let c_26 : (⟨S_, .i32⟩ : BufTy).Contents (Elt F) := (constantI S_ 32 0#32)
  let v120 : (⟨S4096, .i32⟩ : BufTy).Contents (Elt F) := ((broadcastInDim S4096 ![] bcast_S_S4096 : (⟨S_, .i32⟩ : BufTy).Contents (Elt F) → (⟨S4096, .i32⟩ : BufTy).Contents (Elt F))) c_26
  let v121 : (⟨S4096, .i1⟩ : BufTy).Contents (Elt F) := ((cmpi .slt : (⟨S4096, .i32⟩ : BufTy).Contents (Elt F) → (⟨S4096, .i32⟩ : BufTy).Contents (Elt F) → (⟨S4096, .i1⟩ : BufTy).Contents (Elt F))) di v120
  let c_27 : (⟨S_, .i32⟩ : BufTy).Contents (Elt F) := (constantI S_ 32 8192#32)
  let v122 : (⟨S4096, .i32⟩ : BufTy).Contents (Elt F) := ((broadcastInDim S4096 ![] bcast_S_S4096 : (⟨S_, .i32⟩ : BufTy).Contents (Elt F) → (⟨S4096, .i32⟩ : BufTy).Contents (Elt F))) c_27
  let v123 : (⟨S4096, .i32⟩ : BufTy).Contents (Elt F) := ((addi : (⟨S4096, .i32⟩ : BufTy).Contents (Elt F) → (⟨S4096, .i32⟩ : BufTy).Contents (Elt F) → (⟨S4096, .i32⟩ : BufTy).Contents (Elt F))) di v122
  let v124 : (⟨S4096, .i32⟩ : BufTy).Contents (Elt F) := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) v121 v123 di
  let v125 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) v124
  let v126 : (⟨S4096x512, .f32⟩ : BufTy).Contents (Elt F) := (((fun x i => Host.gather gather_S8192x512_S4096x1_S4096x512_1_0_n_n_0_1_1512 x i) : (⟨S8192x512, .f32⟩ : BufTy).Contents (Elt F) → (⟨S4096x1, .i32⟩ : BufTy).Contents (Elt F) → (⟨S4096x512, .f32⟩ : BufTy).Contents (Elt F))) p2d v125
  let c_28 : (⟨S_, .i32⟩ : BufTy).Contents (Elt F) := (constantI S_ 32 0#32)
  let v134 : (⟨S4096, .i32⟩ : BufTy).Contents (Elt F) := ((broadcastInDim S4096 ![] bcast_S_S4096 : (⟨S_, .i32⟩ : BufTy).Contents (Elt F) → (⟨S4096, .i32⟩ : BufTy).Contents (Elt F))) c_28
  let v135 : (⟨S4096, .i1⟩ : BufTy).Contents (Elt F) := ((cmpi .slt : (⟨S4096, .i32⟩ : BufTy).Contents (Elt F) → (⟨S4096, .i32⟩ : BufTy).Contents (Elt F) → (⟨S4096, .i1⟩ : BufTy).Contents (Elt F))) pi v134
  let c_29 : (⟨S_, .i32⟩ : BufTy).Contents (Elt F) := (constantI S_ 32 8192#32)
  let v136 : (⟨S4096, .i32⟩ : BufTy).Contents (Elt F) := ((broadcastInDim S4096 ![] bcast_S_S4096 : (⟨S_, .i32⟩ : BufTy).Contents (Elt F) → (⟨S4096, .i32⟩ : BufTy).Contents (Elt F))) c_29
  let v137 : (⟨S4096, .i32⟩ : BufTy).Contents (Elt F) := ((addi : (⟨S4096, .i32⟩ : BufTy).Contents (Elt F) → (⟨S4096, .i32⟩ : BufTy).Contents (Elt F) → (⟨S4096, .i32⟩ : BufTy).Contents (Elt F))) pi v136
  let v138 : (⟨S4096, .i32⟩ : BufTy).Contents (Elt F) := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) v135 v137 pi
  let v139 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) v138
  let v140 : (⟨S4096x512, .f32⟩ : BufTy).Contents (Elt F) := (((fun x i => Host.gather gather_S8192x512_S4096x1_S4096x512_1_0_n_n_0_1_1512 x i) : (⟨S8192x512, .f32⟩ : BufTy).Contents (Elt F) → (⟨S4096x1, .i32⟩ : BufTy).Contents (Elt F) → (⟨S4096x512, .f32⟩ : BufTy).Contents (Elt F))) d2p v139
  let v141 : (⟨S4096x1024, .f32⟩ : BufTy).Contents (Elt F) := (((fun a b => concatenate S4096x1024 1 [⟨S4096x512, a⟩, ⟨S4096x512, b⟩] concatenates_S4096x512_S4096x512_S4096x1024_d1) : (⟨S4096x512, .f32⟩ : BufTy).Contents (Elt F) → (⟨S4096x512, .f32⟩ : BufTy).Contents (Elt F) → (⟨S4096x1024, .f32⟩ : BufTy).Contents (Elt F))) v106 v126
  let v142 : (⟨S4096x1024, .f32⟩ : BufTy).Contents (Elt F) := (((fun a b => concatenate S4096x1024 1 [⟨S4096x512, a⟩, ⟨S4096x512, b⟩] concatenates_S4096x512_S4096x512_S4096x1024_d1) : (⟨S4096x512, .f32⟩ : BufTy).Contents (Elt F) → (⟨S4096x512, .f32⟩ : BufTy).Contents (Elt F) → (⟨S4096x1024, .f32⟩ : BufTy).Contents (Elt F))) v113 v140
  let v143 : (⟨S4096x3372, .f32⟩ : BufTy).Contents (Elt F) := concatenate S4096x3372 1 [⟨S4096x300, dv⟩, ⟨S4096x1024, pe⟩, ⟨S4096x1024, v141⟩, ⟨S4096x1024, v142⟩] concatenates_S4096x300_S4096x1024_S4096x1024_S4096x1024_S4096x3372_d1
  v143

/-- `x · w + b`, the bias broadcast along rows (3372 → 1024 columns). -/
def dense1 (x : (⟨S4096x3372, .f32⟩ : BufTy).Contents (Elt F)) (w : (⟨S3372x1024, .f32⟩ : BufTy).Contents (Elt F)) (b : (⟨S1024, .f32⟩ : BufTy).Contents (Elt F)) : (⟨S4096x1024, .f32⟩ : BufTy).Contents (Elt F) :=
  let v144 : (⟨S4096x1024, .f32⟩ : BufTy).Contents (Elt F) := (((fun l r => Host.dotGeneral dot_S4096x3372_S3372x1024_S4096x1024_1_0_0_1_n_n none l r) : (⟨S4096x3372, .f32⟩ : BufTy).Contents (Elt F) → (⟨S3372x1024, .f32⟩ : BufTy).Contents (Elt F) → (⟨S4096x1024, .f32⟩ : BufTy).Contents (Elt F))) x w
  let v145 : (⟨S1x1024, .f32⟩ : BufTy).Contents (Elt F) := ((broadcastInDim S1x1024 ![1] bcast_S1024_S1x1024_1 : (⟨S1024, .f32⟩ : BufTy).Contents (Elt F) → (⟨S1x1024, .f32⟩ : BufTy).Contents (Elt F))) b
  let v146 : (⟨S4096x1024, .f32⟩ : BufTy).Contents (Elt F) := ((broadcastInDim S4096x1024 ![0, 1] bcast_S1x1024_S4096x1024_0_1 : (⟨S1x1024, .f32⟩ : BufTy).Contents (Elt F) → (⟨S4096x1024, .f32⟩ : BufTy).Contents (Elt F))) v145
  let v147 : (⟨S4096x1024, .f32⟩ : BufTy).Contents (Elt F) := ((addf : (⟨S4096x1024, .f32⟩ : BufTy).Contents (Elt F) → (⟨S4096x1024, .f32⟩ : BufTy).Contents (Elt F) → (⟨S4096x1024, .f32⟩ : BufTy).Contents (Elt F))) v144 v146
  v147

/-- Training-mode batch normalisation over the 4096 rows (column mean, biased column variance, ε = 1e-5, scale `g`, shift `be`) followed by a rectifier, at 1024 columns. -/
def bnRelu1 (y : (⟨S4096x1024, .f32⟩ : BufTy).Contents (Elt F)) (g : (⟨S1024, .f32⟩ : BufTy).Contents (Elt F)) (be : (⟨S1024, .f32⟩ : BufTy).Contents (Elt F)) : (⟨S4096x1024, .f32⟩ : BufTy).Contents (Elt F) :=
  let cst_30 : (⟨S_, .f32⟩ : BufTy).Contents (Elt F) := (constant S_ .f32 0x00000000#32)
  let v148 : (⟨S1024, .f32⟩ : BufTy).Contents (Elt F) := (((fun x v => Host.reduceAdd x v reducesTo_S4096x1024_S1024_d0 h_S_) : (⟨S4096x1024, .f32⟩ : BufTy).Contents (Elt F) → (⟨S_, .f32⟩ : BufTy).Contents (Elt F) → (⟨S1024, .f32⟩ : BufTy).Contents (Elt F))) y cst_30
  let cst_31 : (⟨S_, .f32⟩ : BufTy).Contents (Elt F) := (constant S_ .f32 0x45800000#32)
  let v149 : (⟨S1024, .f32⟩ : BufTy).Contents (Elt F) := ((broadcastInDim S1024 ![] bcast_S_S1024 : (⟨S_, .f32⟩ : BufTy).Contents (Elt F) → (⟨S1024, .f32⟩ : BufTy).Contents (Elt F))) cst_31
  let v150 : (⟨S1024, .f32⟩ : BufTy).Contents (Elt F) := ((Host.divf : (⟨S1024, .f32⟩ : BufTy).Contents (Elt F) → (⟨S1024, .f32⟩ : BufTy).Contents (Elt F) → (⟨S1024, .f32⟩ : BufTy).Contents (Elt F))) v148 v149
  let c_32 : (⟨S_, .i32⟩ : BufTy).Contents (Elt F) := (constantI S_ 32 0#32)
  let call6_cst : (⟨S_, .f32⟩ : BufTy).Contents (Elt F) := (constant S_ .f32 0x00000000#32)
  let call6_v0 : (⟨S1024, .f32⟩ : BufTy).Contents (Elt F) := ((fun x v => Host.reduceAdd x v reducesTo_S4096x1024_S1024_d0 h_S_)) y call6_cst
  let call6_v1 : (⟨S1x1024, .f32⟩ : BufTy).Contents (Elt F) := ((broadcastInDim S1x1024 ![1] bcast_S1024_S1x1024_1)) call6_v0
  let call6_cst_0 : (⟨S_, .f32⟩ : BufTy).Contents (Elt F) := (constant S_ .f32 0x45800000#32)
  let call6_v2 : (⟨S1x1024, .f32⟩ : BufTy).Contents (Elt F) := ((broadcastInDim S1x1024 ![] bcast_S_S1x1024)) call6_cst_0
  let call6_v3 : (⟨S1x1024, .f32⟩ : BufTy).Contents (Elt F) := (Host.divf) call6_v1 call6_v2
  let call6_v4 : (⟨S4096x1024, .f32⟩ : BufTy).Contents (Elt F) := ((broadcastInDim S4096x1024 ![0, 1] bcast_S1x1024_S4096x1024_0_1)) call6_v3
  let call6_v5 : (⟨S4096x1024, .f32⟩ : BufTy).Contents (Elt F) := subf y call6_v4
  let call6_v6 : (⟨S4096x1024, .f32⟩ : BufTy).Contents (Elt F) := mulf call6_v5 call6_v5
  let call6_v7 : (⟨S_, .f32⟩ : BufTy).Contents (Elt F) := ((sitofp .f32)) c_32
  let call6_cst_1 : (⟨S_, .f32⟩ : BufTy).Contents (Elt F) := (constant S_ .f32 0x45800000#32)
  let call6_v8 : (⟨S_, .f32⟩ : BufTy).Contents (Elt F) := subf call6_cst_1 call6_v7
  let call6_cst_2 : (⟨S_, .f32⟩ : BufTy).Contents (Elt F) := (constant S_ .f32 0x00000000#32)
  let call6_v9 : (⟨S1024, .f32⟩ : BufTy).Contents (Elt F) := ((fun x v => Host.reduceAdd x v reducesTo_S4096x1024_S1024_d0 h_S_)) call6_v6 call6_cst_2
  let call6_v10 : (⟨S1024, .f32⟩ : BufTy).Contents (Elt F) := ((broadcastInDim S1024 ![] bcast_S_S1024)) call6_v8
  let call6_v11 : (⟨S1024, .f32⟩ : BufTy).Contents (Elt F) := (Host.divf) call6_v9 call6_v10
  let call6_cst_3 : (⟨S_, .f32⟩ : BufTy).Contents (Elt F) := (constant S_ .f32 0x00000000#32)
  let call6_v12 : (⟨S_, .i1⟩ : BufTy).Contents (Elt F) := ((cmpf .ogt)) call6_v8 call6_cst_3
  let call6_cst_4 : (⟨S_, .f32⟩ : BufTy).Contents (Elt F) := (constant S_ .f32 0x7FC00000#32)
  let call6_call0_v0 : (⟨S_, .f32⟩ : BufTy).Contents (Elt F) := id call6_cst_4
  let call6_call0_v1 : (⟨S1024, .f32⟩ : BufTy).Contents (Elt F) := ((broadcastInDim S1024 ![] bcast_S_S1024)) call6_call0_v0
  let v151 : (⟨S1024, .f32⟩ : BufTy).Contents (Elt F) := ((fun p a b => select (broadcastInDim S1024 ![] bcast_S_S1024 p) a b)) call6_v12 call6_v11 call6_call0_v1
  let v152 : (⟨S1x1024, .f32⟩ : BufTy).Contents (Elt F) := ((broadcastInDim S1x1024 ![1] bcast_S1024_S1x1024_1 : (⟨S1024, .f32⟩ : BufTy).Contents (Elt F) → (⟨S1x1024, .f32⟩ : BufTy).Contents (Elt F))) v150
  let v153 : (⟨S4096x1024, .f32⟩ : BufTy).Contents (Elt F) := ((broadcastInDim S4096x1024 ![0, 1] bcast_S1x1024_S4096x1024_0_1 : (⟨S1x1024, .f32⟩ : BufTy).Contents (Elt F) → (⟨S4096x1024, .f32⟩ : BufTy).Contents (Elt F))) v152
  let v154 : (⟨S4096x1024, .f32⟩ : BufTy).Contents (Elt F) := ((subf : (⟨S4096x1024, .f32⟩ : BufTy).Contents (Elt F) → (⟨S4096x1024, .f32⟩ : BufTy).Contents (Elt F) → (⟨S4096x1024, .f32⟩ : BufTy).Contents (Elt F))) y v153
  let cst_33 : (⟨S_, .f32⟩ : BufTy).Contents (Elt F) := (constant S_ .f32 0x3727C5AC#32)
  let v155 : (⟨S1024, .f32⟩ : BufTy).Contents (Elt F) := ((broadcastInDim S1024 ![] bcast_S_S1024 : (⟨S_, .f32⟩ : BufTy).Contents (Elt F) → (⟨S1024, .f32⟩ : BufTy).Contents (Elt F))) cst_33
  let v156 : (⟨S1024, .f32⟩ : BufTy).Contents (Elt F) := ((addf : (⟨S1024, .f32⟩ : BufTy).Contents (Elt F) → (⟨S1024, .f32⟩ : BufTy).Contents (Elt F) → (⟨S1024, .f32⟩ : BufTy).Contents (Elt F))) v151 v155
  let v157 : (⟨S1024, .f32⟩ : BufTy).Contents (Elt F) := ((Host.rsqrt : (⟨S1024, .f32⟩ : BufTy).Contents (Elt F) → (⟨S1024, .f32⟩ : BufTy).Contents (Elt F))) v156
  let v158 : (⟨S1x1024, .f32⟩ : BufTy).Contents (Elt F) := ((broadcastInDim S1x1024 ![1] bcast_S1024_S1x1024_1 : (⟨S1024, .f32⟩ : BufTy).Contents (Elt F) → (⟨S1x1024, .f32⟩ : BufTy).Contents (Elt F))) v157
  let v159 : (⟨S4096x1024, .f32⟩ : BufTy).Contents (Elt F) := ((broadcastInDim S4096x1024 ![0, 1] bcast_S1x1024_S4096x1024_0_1 : (⟨S1x1024, .f32⟩ : BufTy).Contents (Elt F) → (⟨S4096x1024, .f32⟩ : BufTy).Contents (Elt F))) v158
  let v160 : (⟨S4096x1024, .f32⟩ : BufTy).Contents (Elt F) := ((mulf : (⟨S4096x1024, .f32⟩ : BufTy).Contents (Elt F) → (⟨S4096x1024, .f32⟩ : BufTy).Contents (Elt F) → (⟨S4096x1024, .f32⟩ : BufTy).Contents (Elt F))) v154 v159
  let v161 : (⟨S1x1024, .f32⟩ : BufTy).Contents (Elt F) := ((broadcastInDim S1x1024 ![1] bcast_S1024_S1x1024_1 : (⟨S1024, .f32⟩ : BufTy).Contents (Elt F) → (⟨S1x1024, .f32⟩ : BufTy).Contents (Elt F))) g
  let v162 : (⟨S4096x1024, .f32⟩ : BufTy).Contents (Elt F) := ((broadcastInDim S4096x1024 ![0, 1] bcast_S1x1024_S4096x1024_0_1 : (⟨S1x1024, .f32⟩ : BufTy).Contents (Elt F) → (⟨S4096x1024, .f32⟩ : BufTy).Contents (Elt F))) v161
  let v163 : (⟨S4096x1024, .f32⟩ : BufTy).Contents (Elt F) := ((mulf : (⟨S4096x1024, .f32⟩ : BufTy).Contents (Elt F) → (⟨S4096x1024, .f32⟩ : BufTy).Contents (Elt F) → (⟨S4096x1024, .f32⟩ : BufTy).Contents (Elt F))) v160 v162
  let v164 : (⟨S1x1024, .f32⟩ : BufTy).Contents (Elt F) := ((broadcastInDim S1x1024 ![1] bcast_S1024_S1x1024_1 : (⟨S1024, .f32⟩ : BufTy).Contents (Elt F) → (⟨S1x1024, .f32⟩ : BufTy).Contents (Elt F))) be
  let v165 : (⟨S4096x1024, .f32⟩ : BufTy).Contents (Elt F) := ((broadcastInDim S4096x1024 ![0, 1] bcast_S1x1024_S4096x1024_0_1 : (⟨S1x1024, .f32⟩ : BufTy).Contents (Elt F) → (⟨S4096x1024, .f32⟩ : BufTy).Contents (Elt F))) v164
  let v166 : (⟨S4096x1024, .f32⟩ : BufTy).Contents (Elt F) := ((addf : (⟨S4096x1024, .f32⟩ : BufTy).Contents (Elt F) → (⟨S4096x1024, .f32⟩ : BufTy).Contents (Elt F) → (⟨S4096x1024, .f32⟩ : BufTy).Contents (Elt F))) v163 v165
  let call7_cst : (⟨S_, .f32⟩ : BufTy).Contents (Elt F) := (constant S_ .f32 0x00000000#32)
  let call7_v0 : (⟨S4096x1024, .f32⟩ : BufTy).Contents (Elt F) := ((broadcastInDim S4096x1024 ![] bcast_S_S4096x1024)) call7_cst
  let v167 : (⟨S4096x1024, .f32⟩ : BufTy).Contents (Elt F) := maximumf v166 call7_v0
  v167

/-- `x · w + b`, the bias broadcast along rows (1024 → 256 columns). -/
def dense2 (x : (⟨S4096x1024, .f32⟩ : BufTy).Contents (Elt F)) (w : (⟨S1024x256, .f32⟩ : BufTy).Contents (Elt F)) (b : (⟨S256, .f32⟩ : BufTy).Contents (Elt F)) : (⟨S4096x256, .f32⟩ : BufTy).Contents (Elt F) :=
  let v168 : (⟨S4096x256, .f32⟩ : BufTy).Contents (Elt F) := (((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F))) x w
  let v169 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) b
  let v170 : (⟨S4096x256, .f32⟩ : BufTy).Contents (Elt F) := ((broadcastInDim S4096x256 ![0, 1] bcast_S1x256_S4096x256_0_1 : (⟨S1x256, .f32⟩ : BufTy).Contents (Elt F) → (⟨S4096x256, .f32⟩ : BufTy).Contents (Elt F))) v169
  let v171 : (⟨S4096x256, .f32⟩ : BufTy).Contents (Elt F) := ((addf : (⟨S4096x256, .f32⟩ : BufTy).Contents (Elt F) → (⟨S4096x256, .f32⟩ : BufTy).Contents (Elt F) → (⟨S4096x256, .f32⟩ : BufTy).Contents (Elt F))) v168 v170
  v171

/-- Training-mode batch normalisation over the 4096 rows followed by a rectifier, at 256 columns. -/
def bnRelu2 (y : (⟨S4096x256, .f32⟩ : BufTy).Contents (Elt F)) (g : (⟨S256, .f32⟩ : BufTy).Contents (Elt F)) (be : (⟨S256, .f32⟩ : BufTy).Contents (Elt F)) : (⟨S4096x256, .f32⟩ : BufTy).Contents (Elt F) :=
  let cst_34 : (⟨S_, .f32⟩ : BufTy).Contents (Elt F) := (constant S_ .f32 0x00000000#32)
  let v172 : (⟨S256, .f32⟩ : BufTy).Contents (Elt F) := (((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F))) y cst_34
  let cst_35 : (⟨S_, .f32⟩ : BufTy).Contents (Elt F) := (constant S_ .f32 0x45800000#32)
  let v173 : (⟨S256, .f32⟩ : BufTy).Contents (Elt F) := ((broadcastInDim S256 ![] bcast_S_S256 : (⟨S_, .f32⟩ : BufTy).Contents (Elt F) → (⟨S256, .f32⟩ : BufTy).Contents (Elt F))) cst_35
  let v174 : (⟨S256, .f32⟩ : BufTy).Contents (Elt F) := ((Host.divf : (⟨S256, .f32⟩ : BufTy).Contents (Elt F) → (⟨S256, .f32⟩ : BufTy).Contents (Elt F) → (⟨S256, .f32⟩ : BufTy).Contents (Elt F))) v172 v173
  let c_36 : (⟨S_, .i32⟩ : BufTy).Contents (Elt F) := (constantI S_ 32 0#32)
  let call8_cst : (⟨S_, .f32⟩ : BufTy).Contents (Elt F) := (constant S_ .f32 0x00000000#32)
  let call8_v0 : (⟨S256, .f32⟩ : BufTy).Contents (Elt F) := ((fun x v => Host.reduceAdd x v reducesTo_S4096x256_S256_d0 h_S_)) y call8_cst
  let call8_v1 : (⟨S1x256, .f32⟩ : BufTy).Contents (Elt F) := ((broadcastInDim S1x256 ![1] bcast_S256_S1x256_1)) call8_v0
  let call8_cst_0 : (⟨S_, .f32⟩ : BufTy).Contents (Elt F) := (constant S_ .f32 0x45800000#32)
  let call8_v2 : (⟨S1x256, .f32⟩ : BufTy).Contents (Elt F) := ((broadcastInDim S1x256 ![] bcast_S_S1x256)) call8_cst_0
  let call8_v3 : (⟨S1x256, .f32⟩ : BufTy).Contents (Elt F) := (Host.divf) call8_v1 call8_v2
  let call8_v4 : (⟨S4096x256, .f32⟩ : BufTy).Contents (Elt F) := ((broadcastInDim S4096x256 ![0, 1] bcast_S1x256_S4096x256_0_1)) call8_v3
  let call8_v5 : (⟨S4096x256, .f32⟩ : BufTy).Contents (Elt F) := subf y call8_v4
  let call8_v6 : (⟨S4096x256, .f32⟩ : BufTy).Contents (Elt F) := mulf call8_v5 call8_v5
  let call8_v7 : (⟨S_, .f32⟩ : BufTy).Contents (Elt F) := ((sitofp .f32)) c_36
  let call8_cst_1 : (⟨S_, .f32⟩ : BufTy).Contents (Elt F) := (constant S_ .f32 0x45800000#32)
  let call8_v8 : (⟨S_, .f32⟩ : BufTy).Contents (Elt F) := subf call8_cst_1 call8_v7
  let call8_cst_2 : (⟨S_, .f32⟩ : BufTy).Contents (Elt F) := (constant S_ .f32 0x00000000#32)
  let call8_v9 : (⟨S256, .f32⟩ : BufTy).Contents (Elt F) := ((fun x v => Host.reduceAdd x v reducesTo_S4096x256_S256_d0 h_S_)) call8_v6 call8_cst_2
  let call8_v10 : (⟨S256, .f32⟩ : BufTy).Contents (Elt F) := ((broadcastInDim S256 ![] bcast_S_S256)) call8_v8
  let call8_v11 : (⟨S256, .f32⟩ : BufTy).Contents (Elt F) := (Host.divf) call8_v9 call8_v10
  let call8_cst_3 : (⟨S_, .f32⟩ : BufTy).Contents (Elt F) := (constant S_ .f32 0x00000000#32)
  let call8_v12 : (⟨S_, .i1⟩ : BufTy).Contents (Elt F) := ((cmpf .ogt)) call8_v8 call8_cst_3
  let call8_cst_4 : (⟨S_, .f32⟩ : BufTy).Contents (Elt F) := (constant S_ .f32 0x7FC00000#32)
  let call8_call0_v0 : (⟨S_, .f32⟩ : BufTy).Contents (Elt F) := id call8_cst_4
  let call8_call0_v1 : (⟨S256, .f32⟩ : BufTy).Contents (Elt F) := ((broadcastInDim S256 ![] bcast_S_S256)) call8_call0_v0
  let v175 : (⟨S256, .f32⟩ : BufTy).Contents (Elt F) := ((fun p a b => select (broadcastInDim S256 ![] bcast_S_S256 p) a b)) call8_v12 call8_v11 call8_call0_v1
  let v176 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) v174
  let v177 : (⟨S4096x256, .f32⟩ : BufTy).Contents (Elt F) := ((broadcastInDim S4096x256 ![0, 1] bcast_S1x256_S4096x256_0_1 : (⟨S1x256, .f32⟩ : BufTy).Contents (Elt F) → (⟨S4096x256, .f32⟩ : BufTy).Contents (Elt F))) v176
  let v178 : (⟨S4096x256, .f32⟩ : BufTy).Contents (Elt F) := ((subf : (⟨S4096x256, .f32⟩ : BufTy).Contents (Elt F) → (⟨S4096x256, .f32⟩ : BufTy).Contents (Elt F) → (⟨S4096x256, .f32⟩ : BufTy).Contents (Elt F))) y v177
  let cst_37 : (⟨S_, .f32⟩ : BufTy).Contents (Elt F) := (constant S_ .f32 0x3727C5AC#32)
  let v179 : (⟨S256, .f32⟩ : BufTy).Contents (Elt F) := ((broadcastInDim S256 ![] bcast_S_S256 : (⟨S_, .f32⟩ : BufTy).Contents (Elt F) → (⟨S256, .f32⟩ : BufTy).Contents (Elt F))) cst_37
  let v180 : (⟨S256, .f32⟩ : BufTy).Contents (Elt F) := ((addf : (⟨S256, .f32⟩ : BufTy).Contents (Elt F) → (⟨S256, .f32⟩ : BufTy).Contents (Elt F) → (⟨S256, .f32⟩ : BufTy).Contents (Elt F))) v175 v179
  let v181 : (⟨S256, .f32⟩ : BufTy).Contents (Elt F) := ((Host.rsqrt : (⟨S256, .f32⟩ : BufTy).Contents (Elt F) → (⟨S256, .f32⟩ : BufTy).Contents (Elt F))) v180
  let v182 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) v181
  let v183 : (⟨S4096x256, .f32⟩ : BufTy).Contents (Elt F) := ((broadcastInDim S4096x256 ![0, 1] bcast_S1x256_S4096x256_0_1 : (⟨S1x256, .f32⟩ : BufTy).Contents (Elt F) → (⟨S4096x256, .f32⟩ : BufTy).Contents (Elt F))) v182
  let v184 : (⟨S4096x256, .f32⟩ : BufTy).Contents (Elt F) := ((mulf : (⟨S4096x256, .f32⟩ : BufTy).Contents (Elt F) → (⟨S4096x256, .f32⟩ : BufTy).Contents (Elt F) → (⟨S4096x256, .f32⟩ : BufTy).Contents (Elt F))) v178 v183
  let v185 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) g
  let v186 : (⟨S4096x256, .f32⟩ : BufTy).Contents (Elt F) := ((broadcastInDim S4096x256 ![0, 1] bcast_S1x256_S4096x256_0_1 : (⟨S1x256, .f32⟩ : BufTy).Contents (Elt F) → (⟨S4096x256, .f32⟩ : BufTy).Contents (Elt F))) v185
  let v187 : (⟨S4096x256, .f32⟩ : BufTy).Contents (Elt F) := ((mulf : (⟨S4096x256, .f32⟩ : BufTy).Contents (Elt F) → (⟨S4096x256, .f32⟩ : BufTy).Contents (Elt F) → (⟨S4096x256, .f32⟩ : BufTy).Contents (Elt F))) v184 v186
  let v188 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) be
  let v189 : (⟨S4096x256, .f32⟩ : BufTy).Contents (Elt F) := ((broadcastInDim S4096x256 ![0, 1] bcast_S1x256_S4096x256_0_1 : (⟨S1x256, .f32⟩ : BufTy).Contents (Elt F) → (⟨S4096x256, .f32⟩ : BufTy).Contents (Elt F))) v188
  let v190 : (⟨S4096x256, .f32⟩ : BufTy).Contents (Elt F) := ((addf : (⟨S4096x256, .f32⟩ : BufTy).Contents (Elt F) → (⟨S4096x256, .f32⟩ : BufTy).Contents (Elt F) → (⟨S4096x256, .f32⟩ : BufTy).Contents (Elt F))) v187 v189
  let call9_cst : (⟨S_, .f32⟩ : BufTy).Contents (Elt F) := (constant S_ .f32 0x00000000#32)
  let call9_v0 : (⟨S4096x256, .f32⟩ : BufTy).Contents (Elt F) := ((broadcastInDim S4096x256 ![] bcast_S_S4096x256)) call9_cst
  let v191 : (⟨S4096x256, .f32⟩ : BufTy).Contents (Elt F) := maximumf v190 call9_v0
  v191

/-- `x · w + b`, the bias broadcast along rows (256 → 1 column). -/
def dense3 (x : (⟨S4096x256, .f32⟩ : BufTy).Contents (Elt F)) (w : (⟨S256x1, .f32⟩ : BufTy).Contents (Elt F)) (b : (⟨S1, .f32⟩ : BufTy).Contents (Elt F)) : (⟨S4096x1, .f32⟩ : BufTy).Contents (Elt F) :=
  let v192 : (⟨S4096x1, .f32⟩ : BufTy).Contents (Elt F) := (((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F))) x w
  let v193 : (⟨S1x1, .f32⟩ : BufTy).Contents (Elt F) := ((broadcastInDim S1x1 ![1] bcast_S1_S1x1_1 : (⟨S1, .f32⟩ : BufTy).Contents (Elt F) → (⟨S1x1, .f32⟩ : BufTy).Contents (Elt F))) b
  let v194 : (⟨S4096x1, .f32⟩ : BufTy).Contents (Elt F) := ((broadcastInDim S4096x1 ![0, 1] bcast_S1x1_S4096x1_0_1 : (⟨S1x1, .f32⟩ : BufTy).Contents (Elt F) → (⟨S4096x1, .f32⟩ : BufTy).Contents (Elt F))) v193
  let v195 : (⟨S4096x1, .f32⟩ : BufTy).Contents (Elt F) := ((addf : (⟨S4096x1, .f32⟩ : BufTy).Contents (Elt F) → (⟨S4096x1, .f32⟩ : BufTy).Contents (Elt F) → (⟨S4096x1, .f32⟩ : BufTy).Contents (Elt F))) v192 v194
  v195

end Cert.ReferenceIdeal.Hand

end
-- ==== Proof.KI.Stages.lean ====
/-
  Between its regions the kernel program applies the reference's own host operations: each host stretch's result is the
  reference's stage function of the stretch's operands (the graph-layer tail, the two normalised hidden layers, the
  last product), read off the fold of the stretch's operations.
-/
import proofs.«141825_j60318520705103_1_alg».proof.Proof.KI.Vals
import proofs.«141825_j60318520705103_1_alg».proof.Proof.Ref.Defs
import Idealize.ShloMosaic.Lib.StableHlo.Run

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- The first graph layer's output: the reference's layer tail of what region 0 left and the layer's arguments. -/
theorem ecfps_eq (c : Dev nD) :
    W7 m c (Proc.devRef .tc main_v52) = Cert.ReferenceIdeal.Hand.gcnTail (F := F) (W2 m c (Proc.devRef .tc main_v3)) (W2 m c (Proc.devRef .tc main_arg5)) (W2 m c (Proc.devRef .tc main_arg6)) (W2 m c (Proc.devRef .tc main_arg12)) := by
  rw [W7_def, W6_def, W5_def, W4_def, W3_def]
  generalize W2 m c = W
  after_results_simp
  rfl

/-- The second graph layer's output: the same tail of what region 1 left. -/
theorem gos_eq (c : Dev nD) :
    W13 m c (Proc.devRef .tc main_v103) = Cert.ReferenceIdeal.Hand.gcnTail (F := F) (W8 m c (Proc.devRef .tc main_v54)) (W8 m c (Proc.devRef .tc main_arg8)) (W8 m c (Proc.devRef .tc main_arg9)) (W8 m c (Proc.devRef .tc main_arg14)) := by
  rw [W13_def, W12_def, W11_def, W10_def, W9_def]
  generalize W8 m c = W
  after_results_simp
  rfl

/-- The first hidden layer: the reference's batch normalisation and rectifier of what region 4 left. -/
theorem h1_eq (c : Dev nD) :
    W23 m c (Proc.devRef .tc main_v160) = Cert.ReferenceIdeal.Hand.bnRelu1 (F := F) (W18 m c (Proc.devRef .tc main_v140)) (W18 m c (Proc.devRef .tc main_arg21)) (W18 m c (Proc.devRef .tc main_arg22)) := by
  rw [W23_def, W22_def, W21_def, W20_def, W19_def]
  generalize W18 m c = W
  after_results_simp
  rfl

/-- The second hidden layer: the reference's batch normalisation and rectifier of what region 5 left. -/
theorem h2_eq (c : Dev nD) :
    W28 m c (Proc.devRef .tc main_v182) = Cert.ReferenceIdeal.Hand.bnRelu2 (F := F) (W24 m c (Proc.devRef .tc main_v162)) (W24 m c (Proc.devRef .tc main_arg25)) (W24 m c (Proc.devRef .tc main_arg26)) := by
  rw [W28_def, W27_def, W26_def, W25_def]
  generalize W24 m c = W
  after_results_simp
  rfl

/-- The result: the reference's last product and bias over the second hidden layer. -/
theorem result_eq (c : Dev nD) :
    W29 m c (Proc.devRef .tc main_v186) = Cert.ReferenceIdeal.Hand.dense3 (F := F) (W28 m c (Proc.devRef .tc main_v182)) (W28 m c (Proc.devRef .tc main_arg27)) (W28 m c (Proc.devRef .tc main_arg28)) := by
  rw [W29_def]
  generalize W28 m c = W
  after_results_simp
  rfl

end Cert.KernelIdeal.Hand

end
-- ==== Proof.KI.StageFeature.lean ====
import proofs.«141825_j60318520705103_1_alg».proof.Proof.Gen.KernelIdeal.Launch
import proofs.«141825_j60318520705103_1_alg».proof.Proof.Ref.Defs
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

attribute [local irreducible] Host.gather concatenate broadcastInDim in
set_option maxRecDepth 16384 in
set_option maxHeartbeats 1000000 in
/-- The host stretch that builds the pair features computes the reference's `feature` of the two layers' outputs, the
    two affinity outputs, the two dense inputs and the two index vectors: the same four row gathers (a negative index
    counted from the end), the same two pairings, the same four-way concatenation along columns. -/
theorem feature_after (Y : Valuation τ sig (Elt F)) :
    StableHlo.after hostOps4 Y (Proc.devRef .tc main_v138)
      = Cert.ReferenceIdeal.Hand.feature (F := F) (Y (Proc.devRef .tc main_arg2)) (Y (Proc.devRef .tc main_arg3)) (Y (Proc.devRef .tc main_v52)) (Y (Proc.devRef .tc main_v103)) (Y (Proc.devRef .tc main_v105)) (Y (Proc.devRef .tc main_v107)) (Y (Proc.devRef .tc main_arg0)) (Y (Proc.devRef .tc main_arg1)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "feature_after: the composed term is not the reference's feature by rfl"

end Cert.KernelIdeal.Hand

end
-- ==== Proof.KI.Bias.lean ====
import proofs.«141825_j60318520705103_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo Idealize.ShloMosaic.ValueIdx

/-- A zero splat of 512 entries reads zero at every entry. -/
private theorem zero_splat_apply (j : Fin 512) :
    broadcastInDim S512 ![] bcast_S_S512 (constant (F := Ideal) S_ .f32 0x00000000#32) (ix1 j) = (0 : EReal) :=
  (broadcastInDim_scalar_apply _ _ _).trans ((constant_apply _ _).trans Ideal.ofBits_zero_f32)

/-- The first zero splat, laid as one row, reads zero at (0, j). -/
theorem bias_v2 (Y : Valuation τ sig (Elt Ideal)) (j : Fin 512) :
    (StableHlo.after hostOps0 Y (Proc.devRef .tc main_v2) : S1x512.Idx → EReal) (ix2 0 j) = (0 : EReal) := by
  after_results_simp
  exact (shapeCast_a_1a_apply (broadcastInDim S512 ![] bcast_S_S512 (constant (F := Ideal) S_ .f32 0x00000000#32)) shapeCasts_S512_S1x512 0 j).trans (zero_splat_apply j)

/-- The second zero splat reads zero at every entry. -/
theorem zero_v1 (Y : Valuation τ sig (Elt Ideal)) (j : Fin 512) :
    (StableHlo.after hostOps0 Y (Proc.devRef .tc main_v1) : S512.Idx → EReal) (ix1 j) = (0 : EReal) := by
  after_results_simp
  exact zero_splat_apply j

/-- The row laid from `main_v1` reads, at (0, j), that vector's entry j. -/
theorem bias_v53 (Y : Valuation τ sig (Elt Ideal)) (j : Fin 512) :
    (StableHlo.after hostOps1_4 Y (Proc.devRef .tc main_v53) : S1x512.Idx → EReal) (ix2 0 j) = (Y (Proc.devRef .tc main_v1) : S512.Idx → EReal) (ix1 j) := by
  after_results_simp
  exact shapeCast_a_1a_apply (Y (Proc.devRef .tc main_v1)) shapeCasts_S512_S1x512 0 j

/-- The row laid from `main_arg16` reads, at (0, j), that vector's entry j. -/
theorem bias_v104 (Y : Valuation τ sig (Elt Ideal)) (j : Fin 512) :
    (StableHlo.after hostOps2_4 Y (Proc.devRef .tc main_v104) : S1x512.Idx → EReal) (ix2 0 j) = (Y (Proc.devRef .tc main_arg16) : S512.Idx → EReal) (ix1 j) := by
  after_results_simp
  exact shapeCast_a_1a_apply (Y (Proc.devRef .tc main_arg16)) shapeCasts_S512_S1x512 0 j

/-- The row laid from `main_arg18` reads, at (0, j), that vector's entry j. -/
theorem bias_v106 (Y : Valuation τ sig (Elt Ideal)) (j : Fin 512) :
    (StableHlo.after hostOps3 Y (Proc.devRef .tc main_v106) : S1x512.Idx → EReal) (ix2 0 j) = (Y (Proc.devRef .tc main_arg18) : S512.Idx → EReal) (ix1 j) := by
  after_results_simp
  exact shapeCast_a_1a_apply (Y (Proc.devRef .tc main_arg18)) shapeCasts_S512_S1x512 0 j

/-- The row laid from `main_arg20` reads, at (0, j), that vector's entry j. -/
theorem bias_v139 (Y : Valuation τ sig (Elt Ideal)) (j : Fin 1024) :
    (StableHlo.after hostOps4 Y (Proc.devRef .tc main_v139) : S1x1024.Idx → EReal) (ix2 0 j) = (Y (Proc.devRef .tc main_arg20) : S1024.Idx → EReal) (ix1 j) := by
  after_results_simp
  exact shapeCast_a_1a_apply (Y (Proc.devRef .tc main_arg20)) shapeCasts_S1024_S1x1024 0 j

/-- The row laid from `main_arg24` reads, at (0, j), that vector's entry j. -/
theorem bias_v161 (Y : Valuation τ sig (Elt Ideal)) (j : Fin 256) :
    (StableHlo.after hostOps5_4 Y (Proc.devRef .tc main_v161) : S1x256.Idx → EReal) (ix2 0 j) = (Y (Proc.devRef .tc main_arg24) : S256.Idx → EReal) (ix1 j) := by
  after_results_simp
  exact shapeCast_a_1a_apply (Y (Proc.devRef .tc main_arg24)) shapeCasts_S256_S1x256 0 j

end Cert.KernelIdeal.Hand

end
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.KI.Value0.lean ====
/- Region 0 at the ideal values: the output array after the region, entry by entry, as a function of the
   region-entry contents — the row of x times the column of w, summed over the one contracted axis, plus the bias
   row's entry. The payload read at an index; each block the pipeline writes back as a block of that function; the
   output's blocks cover its array. -/
import proofs.«141825_j60318520705103_1_alg».proof.Proof.KI.Region0
import proofs.«141825_j60318520705103_1_alg».proof.Proof.LibDotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem hz2_0 : (![0, 0] : Fin 2 → Nat) = fun _ => 0 := funext fun a => by fin_cases a <;> rfl

/-! ## The payload at an entry -/

/-- The body's payload at an entry of the block: the row of the x block times the column of the w block, summed over
    the contracted axis, plus the bias row's entry. Rounding to the narrower float type is the identity at the ideal
    values, and the accumulator is the zero word. -/
theorem pay0_apply (x0 : Vec Ideal S1024x1024 .f32) (x1 : Vec Ideal S1024x512 .f32) (x2 : Vec Ideal S1x512 .f32)
    (r : Fin 1024) (j : Fin 512) :
    (k0_pay1 x0 x1 x2 : S1024x512.Idx → EReal) (ix2 r j)
      = (∑ k : Fin 1024, (x0 : S1024x1024.Idx → EReal) (ix2 r k) * (x1 : S1024x512.Idx → EReal) (ix2 k j))
        + (x2 : S1x512.Idx → EReal) (ix2 0 j) := by
  unfold k0_pay1
  rw [addf_apply]
  show FloatOps.matmul dot_S1024x1024_S1024x512_S1024x512_1_0_0_1_n_n none (truncf .bf16 x0 bitsLt_bf16_f32) (truncf .bf16 x1 bitsLt_bf16_f32)
      (constant (F := Ideal) ⟨2, ![1024, 512]⟩ .f32 0x00000000#32) (ix2 r j) + _ = _
  rw [show dot_S1024x1024_S1024x512_S1024x512_1_0_0_1_n_n = DotDims.plain 1024 1024 512 from rfl]
  rw [DotRead.matmul_plain_zero_apply]
  rw [shapeCast_self, broadcastTo_1b_ab_apply]
  rfl

/-! ## The array the region leaves -/

/-- What the output array ends holding: x · w plus the bias row, entry by entry. -/
abbrev G0 (a0 : S8192x1024.Idx → EReal) (a1 : S1024x512.Idx → EReal) (a2 : S1x512.Idx → EReal) : S8192x512.Idx → EReal :=
  fun i => (∑ k : Fin 1024, a0 (ix2 (i 0) k) * a1 (ix2 k (i 1))) + a2 (ix2 0 (i 1))

variable (V : (c : Dev nD) → (b : Ref sig .tc) → Buf (Elt Ideal) ((c : Thread nD τ).loc b))

/-- The printed index maps, decided over the grid: the x window and the output window are at row block `t`, column
    block 0; the w window and the bias window stay at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block is some point's. -/
theorem idx_onto0 : ∀ q : Fin 8, ∃ t : Fin cfg0.N, t.val = q.val :=
  (by decide +kernel : ∀ q : Fin 8, ∃ t : Fin grid0.N, t.val = q.val)

/-- What point `t` writes back is block `t` of `G0` of the arrays as the region finds them. -/
theorem flushed0_eq (c : Dev nD) (t : Fin cfg0.N) :
    (dat0 (F := Ideal) V c).flushed 3 t
      = ((cfg0.win 3).blk t).view.read (Elt Ideal) (G0 (V c main_arg4) (V c main_arg11) (V c main_v2)) := by
  show (cfg0.win 3).cut (grid0.coords t) ((dat0 V c).after 3 t) = _
  rw [after0_3]
  unfold out0_3
  rw [View.canon_unit_zero hz2_0]
  simp only [View.ld_unit_zero (S := S1024x1024) hz2_0, View.ld_unit_zero (S := S1024x512) hz2_0, View.ld_unit_zero (S := S1x512) hz2_0]
  obtain ⟨e00, e01, e10, e11, e20, e21, e30, e31⟩ := idx_facts0 t
  funext y
  obtain ⟨r, j, rfl⟩ : ∃ (r : Fin 1024) (j : Fin 512), y = ix2 r j := ⟨y 0, y 1, eq_ix2 y⟩
  show (k0_pay1 (iblk0 V c 0 t) (iblk0 V c 1 t) (iblk0 V c 2 t) : S1024x512.Idx → EReal) (ix2 r j)
    = G0 (V c main_arg4) (V c main_arg11) (V c main_v2) (((cfg0.win 3).blk t).view.emb (ix2 r j))
  rw [pay0_apply]
  have h0 : ∀ k : Fin 1024, (iblk0 V c 0 t : S1024x1024.Idx → EReal) (ix2 r k)
      = (V c main_arg4 : S8192x1024.Idx → EReal) (ix2 ((((cfg0.win 3).blk t).view.emb (ix2 r j)) 0) k) := fun k => by
    show (V c main_arg4 : S8192x1024.Idx → EReal) (((cfg0.win 0).blk t).view.emb (ix2 r k)) = _
    congr 1; funext a; apply Fin.ext
    match a with
    | ⟨0, _⟩ => show win0_0.index t (0 : Fin 2) * 1024 + 1 * r.val = win0_3.index t (0 : Fin 2) * 1024 + 1 * r.val; omega
    | ⟨1, _⟩ => show win0_0.index t (1 : Fin 2) * 1024 + 1 * k.val = k.val; omega
  have h1 : ∀ k : Fin 1024, (iblk0 V c 1 t : S1024x512.Idx → EReal) (ix2 k j)
      = (V c main_arg11 : S1024x512.Idx → EReal) (ix2 k ((((cfg0.win 3).blk t).view.emb (ix2 r j)) 1)) := fun k => by
    show (V c main_arg11 : S1024x512.Idx → EReal) (((cfg0.win 1).blk t).view.emb (ix2 k j)) = _
    congr 1; funext a; apply Fin.ext
    match a with
    | ⟨0, _⟩ => show win0_1.index t (0 : Fin 2) * 1024 + 1 * k.val = k.val; omega
    | ⟨1, _⟩ => show win0_1.index t (1 : Fin 2) * 512 + 1 * j.val = win0_3.index t (1 : Fin 2) * 512 + 1 * j.val; omega
  have h2 : (iblk0 V c 2 t : S1x512.Idx → EReal) (ix2 0 j)
      = (V c main_v2 : S1x512.Idx → EReal) (ix2 0 ((((cfg0.win 3).blk t).view.emb (ix2 r j)) 1)) := by
    show (V c main_v2 : S1x512.Idx → EReal) (((cfg0.win 2).blk t).view.emb (ix2 0 j)) = _
    congr 1; funext a; apply Fin.ext
    match a with
    | ⟨0, _⟩ => show win0_2.index t (0 : Fin 2) * 1 + 1 * 0 = 0; omega
    | ⟨1, _⟩ => show win0_2.index t (1 : Fin 2) * 512 + 1 * j.val = win0_3.index t (1 : Fin 2) * 512 + 1 * j.val; omega
  simp only [h0, h1, h2]

/-- An index of the array is in point `t`'s block iff each coordinate is in the block's range on its axis. -/
theorem mem_blk0 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v3).slice (win0_3.rect t)).set ↔ _
  rw [View.set_slice_whole, Rect.mem_set_unit]
  exact Iff.rfl

/-- The output's blocks cover its array: row `r` is in the block of point `r / 1024`. -/
theorem cover0 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  obtain ⟨t, ht⟩ := idx_onto0 ⟨(i 0).val / 1024, by omega⟩
  have ht' : t.val = (i 0).val / 1024 := ht
  obtain ⟨e00, e01, e10, e11, e20, e21, e30, e31⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output array after the region is `G0` of the region-entry contents. -/
theorem final0 (c : Dev nD) :
    (dat0 (F := Ideal) V c).arrAt 3 cfg0.N = G0 (V c main_arg4) (V c main_arg11) (V c main_v2) :=
  (dat0 (F := Ideal) V c).arrAt_eq_of_cover 3 (G0 (V c main_arg4) (V c main_arg11) (V c main_v2))
    (fun t _ => flushed0_eq V c t) cover0

/-- The three input arrays as the region finds them, at their literal index types. -/
abbrev xArr0 (c : Dev nD) : S8192x1024.Idx → EReal := V c main_arg4
abbrev wArr0 (c : Dev nD) : S1024x512.Idx → EReal := V c main_arg11
abbrev bArr0 (c : Dev nD) : S1x512.Idx → EReal := V c main_v2

/-- The output array after the region, entry by entry. -/
theorem value0 (c : Dev nD) (r : Fin 8192) (j : Fin 512) :
    ((dat0 (F := Ideal) V c).arrAt 3 cfg0.N : S8192x512.Idx → EReal) (ix2 r j)
      = (∑ k : Fin 1024, xArr0 V c (ix2 r k) * wArr0 V c (ix2 k j)) + bArr0 V c (ix2 0 j) := by
  rw [final0]

end Cert.KernelIdeal.Hand
-- ==== Proof.Ref.Read.lean ====
import proofs.«141825_j60318520705103_1_alg».proof.Proof.Ref.Defs
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.StackMember
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-- A vector laid as the one row of a one-row matrix reads, at (0, t), its entry t. -/
private theorem bcast_vec_row_apply {α : Type} {n : Nat} (h : (⟨1, ![n]⟩ : Shape).BroadcastsInDim ⟨2, ![1, n]⟩ ![1])
    (y : (⟨1, ![n]⟩ : Shape).Idx → α) (t : Fin n) :
    broadcastInDim ⟨2, ![1, n]⟩ ![1] h y (ix2 (0 : Fin 1) t) = y (ix1 t) := by
  refine broadcastInDim_apply ![1] h y (ix2 (0 : Fin 1) t) (ix1 t) ?_
  intro a
  match a with
  | ⟨0, _⟩ =>
    show t.val = if n = 1 then 0 else t.val
    split_ifs with hn
    · have := t.isLt; omega
    · rfl

/-- A bias vector broadcast along the rows of an m × n matrix reads, at (r, t), its entry t. -/
private theorem bias_rows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (y : (⟨1, ![n]⟩ : Shape).Idx → α) (r : Fin m) (t : Fin n) :
    broadcastInDim ⟨2, ![m, n]⟩ ![0, 1] h2 (broadcastInDim ⟨2, ![1, n]⟩ ![1] h1 y) (ix2 r t) = y (ix1 t) :=
  (broadcastInDim_oneRow_apply h2 _ r t).trans (bcast_vec_row_apply h1 y t)

/-- The first layer's feature product at an entry: the sum over the contracted axis. -/
theorem dot_hE_apply (a : S8192x1024.Idx → EReal) (b : S1024x512.Idx → EReal) (r : Fin 8192) (j : Fin 512) :
    (Host.dotGeneral (F := Ideal) (φ₁ := .f32) (φ₂ := .f32) dot_S8192x1024_S1024x512_S8192x512_1_0_0_1_n_n none a b) (ix2 r j)
      = ∑ k : Fin 1024, a (ix2 r k) * b (ix2 k j) :=
  StackMember.dotGeneral_plain_apply none a b r j

/-- `affinity` at an entry. -/
theorem affinity_apply (a : S8192x8192.Idx → EReal) (x : S8192x512.Idx → EReal) (w : S512x512.Idx → EReal) (bias : S512.Idx → EReal)
    (r : Fin 8192) (j : Fin 512) :
    affinity (F := Ideal) a x w bias (ix2 r j)
      = max ((∑ l : Fin 512, (∑ k : Fin 8192, a (ix2 r k) * x (ix2 k l)) * w (ix2 l j)) + bias (ix1 j)) (Ideal.ofBits .f32 0x00000000#32) := by
  have hd1 : ∀ l : Fin 512, (Host.dotGeneral (F := Ideal) (φ₁ := .f32) (φ₂ := .f32) dot_S8192x8192_S8192x512_S8192x512_1_0_0_1_n_n none a x) (ix2 r l)
      = ∑ k : Fin 8192, a (ix2 r k) * x (ix2 k l) := fun l => StackMember.dotGeneral_plain_apply none a x r l
  have hd2 : (Host.dotGeneral (F := Ideal) (φ₁ := .f32) (φ₂ := .f32) dot_S8192x512_S512x512_S8192x512_1_0_0_1_n_n none (Host.dotGeneral (F := Ideal) (φ₁ := .f32) (φ₂ := .f32) dot_S8192x8192_S8192x512_S8192x512_1_0_0_1_n_n none a x) w) (ix2 r j)
      = ∑ l : Fin 512, (Host.dotGeneral (F := Ideal) (φ₁ := .f32) (φ₂ := .f32) dot_S8192x8192_S8192x512_S8192x512_1_0_0_1_n_n none a x) (ix2 r l) * w (ix2 l j) :=
    StackMember.dotGeneral_plain_apply none _ w r j
  have hb : broadcastInDim S8192x512 ![0, 1] bcast_S1x512_S8192x512_0_1 (broadcastInDim S1x512 ![1] bcast_S512_S1x512_1 bias) (ix2 r j) = bias (ix1 j) :=
    bias_rows_apply _ _ bias r j
  have hz : broadcastInDim S8192x512 ![] bcast_S_S8192x512 (constant (F := Ideal) S_ .f32 0x00000000#32) (ix2 r j) = Ideal.ofBits .f32 0x00000000#32 :=
    (broadcastInDim_scalar_apply _ _ _).trans (constant_apply _ _)
  show max ((Host.dotGeneral (F := Ideal) (φ₁ := .f32) (φ₂ := .f32) dot_S8192x512_S512x512_S8192x512_1_0_0_1_n_n none (Host.dotGeneral (F := Ideal) (φ₁ := .f32) (φ₂ := .f32) dot_S8192x8192_S8192x512_S8192x512_1_0_0_1_n_n none a x) w) (ix2 r j)
        + broadcastInDim S8192x512 ![0, 1] bcast_S1x512_S8192x512_0_1 (broadcastInDim S1x512 ![1] bcast_S512_S1x512_1 bias) (ix2 r j))
      (broadcastInDim S8192x512 ![] bcast_S_S8192x512 (constant (F := Ideal) S_ .f32 0x00000000#32) (ix2 r j)) = _
  rw [hd2, hb, hz]
  simp only [hd1]

/-- `affinityT` at an entry: the first operand read transposed. -/
theorem affinityT_apply (a : S8192x8192.Idx → EReal) (x : S8192x512.Idx → EReal) (w : S512x512.Idx → EReal) (bias : S512.Idx → EReal)
    (r : Fin 8192) (j : Fin 512) :
    affinityT (F := Ideal) a x w bias (ix2 r j)
      = max ((∑ l : Fin 512, (∑ k : Fin 8192, a (ix2 k r) * x (ix2 k l)) * w (ix2 l j)) + bias (ix1 j)) (Ideal.ofBits .f32 0x00000000#32) := by
  have ht : ∀ k : Fin 8192, transpose S8192x8192 [1, 0] a transposes_S8192x8192_S8192x8192_1_0 (ix2 r k) = a (ix2 k r) :=
    fun k => transpose_ix2_apply a _ r k
  have hd1 : ∀ l : Fin 512, (Host.dotGeneral (F := Ideal) (φ₁ := .f32) (φ₂ := .f32) dot_S8192x8192_S8192x512_S8192x512_1_0_0_1_n_n none (transpose S8192x8192 [1, 0] a transposes_S8192x8192_S8192x8192_1_0) x) (ix2 r l)
      = ∑ k : Fin 8192, transpose S8192x8192 [1, 0] a transposes_S8192x8192_S8192x8192_1_0 (ix2 r k) * x (ix2 k l) := fun l => StackMember.dotGeneral_plain_apply none _ x r l
  have hd2 : (Host.dotGeneral (F := Ideal) (φ₁ := .f32) (φ₂ := .f32) dot_S8192x512_S512x512_S8192x512_1_0_0_1_n_n none (Host.dotGeneral (F := Ideal) (φ₁ := .f32) (φ₂ := .f32) dot_S8192x8192_S8192x512_S8192x512_1_0_0_1_n_n none (transpose S8192x8192 [1, 0] a transposes_S8192x8192_S8192x8192_1_0) x) w) (ix2 r j)
      = ∑ l : Fin 512, (Host.dotGeneral (F := Ideal) (φ₁ := .f32) (φ₂ := .f32) dot_S8192x8192_S8192x512_S8192x512_1_0_0_1_n_n none (transpose S8192x8192 [1, 0] a transposes_S8192x8192_S8192x8192_1_0) x) (ix2 r l) * w (ix2 l j) :=
    StackMember.dotGeneral_plain_apply none _ w r j
  have hb : broadcastInDim S8192x512 ![0, 1] bcast_S1x512_S8192x512_0_1 (broadcastInDim S1x512 ![1] bcast_S512_S1x512_1 bias) (ix2 r j) = bias (ix1 j) :=
    bias_rows_apply _ _ bias r j
  have hz : broadcastInDim S8192x512 ![] bcast_S_S8192x512 (constant (F := Ideal) S_ .f32 0x00000000#32) (ix2 r j) = Ideal.ofBits .f32 0x00000000#32 :=
    (broadcastInDim_scalar_apply _ _ _).trans (constant_apply _ _)
  show max ((Host.dotGeneral (F := Ideal) (φ₁ := .f32) (φ₂ := .f32) dot_S8192x512_S512x512_S8192x512_1_0_0_1_n_n none (Host.dotGeneral (F := Ideal) (φ₁ := .f32) (φ₂ := .f32) dot_S8192x8192_S8192x512_S8192x512_1_0_0_1_n_n none (transpose S8192x8192 [1, 0] a transposes_S8192x8192_S8192x8192_1_0) x) w) (ix2 r j)
        + broadcastInDim S8192x512 ![0, 1] bcast_S1x512_S8192x512_0_1 (broadcastInDim S1x512 ![1] bcast_S512_S1x512_1 bias) (ix2 r j))
      (broadcastInDim S8192x512 ![] bcast_S_S8192x512 (constant (F := Ideal) S_ .f32 0x00000000#32) (ix2 r j)) = _
  rw [hd2, hb, hz]
  simp only [hd1, ht]

/-- `dense1` at an entry. -/
theorem dense1_apply (x : S4096x3372.Idx → EReal) (w : S3372x1024.Idx → EReal) (b : S1024.Idx → EReal) (r : Fin 4096) (j : Fin 1024) :
    dense1 (F := Ideal) x w b (ix2 r j) = (∑ k : Fin 3372, x (ix2 r k) * w (ix2 k j)) + b (ix1 j) := by
  have hd : (Host.dotGeneral (F := Ideal) (φ₁ := .f32) (φ₂ := .f32) dot_S4096x3372_S3372x1024_S4096x1024_1_0_0_1_n_n none x w) (ix2 r j) = ∑ k : Fin 3372, x (ix2 r k) * w (ix2 k j) :=
    StackMember.dotGeneral_plain_apply none x w r j
  have hb : broadcastInDim S4096x1024 ![0, 1] bcast_S1x1024_S4096x1024_0_1 (broadcastInDim S1x1024 ![1] bcast_S1024_S1x1024_1 b) (ix2 r j) = b (ix1 j) :=
    bias_rows_apply _ _ b r j
  show (Host.dotGeneral (F := Ideal) (φ₁ := .f32) (φ₂ := .f32) dot_S4096x3372_S3372x1024_S4096x1024_1_0_0_1_n_n none x w) (ix2 r j)
      + broadcastInDim S4096x1024 ![0, 1] bcast_S1x1024_S4096x1024_0_1 (broadcastInDim S1x1024 ![1] bcast_S1024_S1x1024_1 b) (ix2 r j) = _
  rw [hd, hb]

/-- `dense2` at an entry. -/
theorem dense2_apply (x : S4096x1024.Idx → EReal) (w : S1024x256.Idx → EReal) (b : S256.Idx → EReal) (r : Fin 4096) (j : Fin 256) :
    dense2 (F := Ideal) x w b (ix2 r j) = (∑ k : Fin 1024, x (ix2 r k) * w (ix2 k j)) + b (ix1 j) := by
  have hd : (Host.dotGeneral (F := Ideal) (φ₁ := .f32) (φ₂ := .f32) dot_S4096x1024_S1024x256_S4096x256_1_0_0_1_n_n none x w) (ix2 r j) = ∑ k : Fin 1024, x (ix2 r k) * w (ix2 k j) :=
    StackMember.dotGeneral_plain_apply none x w r j
  have hb : broadcastInDim S4096x256 ![0, 1] bcast_S1x256_S4096x256_0_1 (broadcastInDim S1x256 ![1] bcast_S256_S1x256_1 b) (ix2 r j) = b (ix1 j) :=
    bias_rows_apply _ _ b r j
  show (Host.dotGeneral (F := Ideal) (φ₁ := .f32) (φ₂ := .f32) dot_S4096x1024_S1024x256_S4096x256_1_0_0_1_n_n none x w) (ix2 r j)
      + broadcastInDim S4096x256 ![0, 1] bcast_S1x256_S4096x256_0_1 (broadcastInDim S1x256 ![1] bcast_S256_S1x256_1 b) (ix2 r j) = _
  rw [hd, hb]

/-- `dense3` at an entry. -/
theorem dense3_apply (x : S4096x256.Idx → EReal) (w : S256x1.Idx → EReal) (b : S1.Idx → EReal) (r : Fin 4096) (j : Fin 1) :
    dense3 (F := Ideal) x w b (ix2 r j) = (∑ k : Fin 256, x (ix2 r k) * w (ix2 k j)) + b (ix1 j) := by
  have hd : (Host.dotGeneral (F := Ideal) (φ₁ := .f32) (φ₂ := .f32) dot_S4096x256_S256x1_S4096x1_1_0_0_1_n_n none x w) (ix2 r j) = ∑ k : Fin 256, x (ix2 r k) * w (ix2 k j) :=
    StackMember.dotGeneral_plain_apply none x w r j
  have hb : broadcastInDim S4096x1 ![0, 1] bcast_S1x1_S4096x1_0_1 (broadcastInDim S1x1 ![1] bcast_S1_S1x1_1 b) (ix2 r j) = b (ix1 j) :=
    bias_rows_apply _ _ b r j
  show (Host.dotGeneral (F := Ideal) (φ₁ := .f32) (φ₂ := .f32) dot_S4096x256_S256x1_S4096x1_1_0_0_1_n_n none x w) (ix2 r j)
      + broadcastInDim S4096x1 ![0, 1] bcast_S1x1_S4096x1_0_1 (broadcastInDim S1x1 ![1] bcast_S1_S1x1_1 b) (ix2 r j) = _
  rw [hd, hb]

end Cert.ReferenceIdeal.Hand

end
-- ==== Proof.KI.Join0.lean ====
/- Region 0's output array joined to the reference's own term for the same stage: entry by entry both are the row of
   x times the column of w summed over the contracted axis, plus the bias entry. -/
import proofs.«141825_j60318520705103_1_alg».proof.Proof.KI.Value0
import proofs.«141825_j60318520705103_1_alg».proof.Proof.Ref.Defs
import proofs.«141825_j60318520705103_1_alg».proof.Proof.Ref.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- With a zero bias row, the region's output array is the reference's product of the two arrays. -/
theorem join0 (c : Dev nD) (hb : ∀ j : Fin 512, bArr0 V c (ix2 0 j) = 0) :
    (dat0 (F := Ideal) V c).arrAt 3 cfg0.N
      = Host.dotGeneral (F := Ideal) (φ₁ := .f32) (φ₂ := .f32) Cert.ReferenceIdeal.dot_S8192x1024_S1024x512_S8192x512_1_0_0_1_n_n none (V c main_arg4) (V c main_arg11) := by
  funext i
  obtain ⟨r, j, rfl⟩ : ∃ (r : Fin 8192) (j : Fin 512), i = ix2 r j := ⟨i 0, i 1, eq_ix2 i⟩
  rw [value0, hb, add_zero]
  exact (Cert.ReferenceIdeal.Hand.dot_hE_apply (xArr0 V c) (wArr0 V c) r j).symm

end Cert.KernelIdeal.Hand
-- ==== Proof.KI.Value1.lean ====
/- Region 1 at the ideal values: the output array after the region, entry by entry, as a function of the
   region-entry contents — the row of x times the column of w, summed over the one contracted axis, plus the bias
   row's entry. The payload read at an index; each block the pipeline writes back as a block of that function; the
   output's blocks cover its array. -/
import proofs.«141825_j60318520705103_1_alg».proof.Proof.KI.Region1
import proofs.«141825_j60318520705103_1_alg».proof.Proof.LibDotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem hz2_1 : (![0, 0] : Fin 2 → Nat) = fun _ => 0 := funext fun a => by fin_cases a <;> rfl

/-! ## The payload at an entry -/

/-- The body's payload at an entry of the block: the row of the x block times the column of the w block, summed over
    the contracted axis, plus the bias row's entry. Rounding to the narrower float type is the identity at the ideal
    values, and the accumulator is the zero word. -/
theorem pay1_apply (x0 : Vec Ideal S1024x1024 .f32) (x1 : Vec Ideal S1024x512 .f32) (x2 : Vec Ideal S1x512 .f32)
    (r : Fin 1024) (j : Fin 512) :
    (k1_pay1 x0 x1 x2 : S1024x512.Idx → EReal) (ix2 r j)
      = (∑ k : Fin 1024, (x0 : S1024x1024.Idx → EReal) (ix2 r k) * (x1 : S1024x512.Idx → EReal) (ix2 k j))
        + (x2 : S1x512.Idx → EReal) (ix2 0 j) := by
  unfold k1_pay1
  rw [addf_apply]
  show FloatOps.matmul dot_S1024x1024_S1024x512_S1024x512_1_0_0_1_n_n none (truncf .bf16 x0 bitsLt_bf16_f32) (truncf .bf16 x1 bitsLt_bf16_f32)
      (constant (F := Ideal) ⟨2, ![1024, 512]⟩ .f32 0x00000000#32) (ix2 r j) + _ = _
  rw [show dot_S1024x1024_S1024x512_S1024x512_1_0_0_1_n_n = DotDims.plain 1024 1024 512 from rfl]
  rw [DotRead.matmul_plain_zero_apply]
  rw [shapeCast_self, broadcastTo_1b_ab_apply]
  rfl

/-! ## The array the region leaves -/

/-- What the output array ends holding: x · w plus the bias row, entry by entry. -/
abbrev G1 (a0 : S8192x1024.Idx → EReal) (a1 : S1024x512.Idx → EReal) (a2 : S1x512.Idx → EReal) : S8192x512.Idx → EReal :=
  fun i => (∑ k : Fin 1024, a0 (ix2 (i 0) k) * a1 (ix2 k (i 1))) + a2 (ix2 0 (i 1))

variable (V : (c : Dev nD) → (b : Ref sig .tc) → Buf (Elt Ideal) ((c : Thread nD τ).loc b))

/-- The printed index maps, decided over the grid: the x window and the output window are at row block `t`, column
    block 0; the w window and the bias window stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem idx_onto1 : ∀ q : Fin 8, ∃ t : Fin cfg1.N, t.val = q.val :=
  (by decide +kernel : ∀ q : Fin 8, ∃ t : Fin grid1.N, t.val = q.val)

/-- What point `t` writes back is block `t` of `G1` of the arrays as the region finds them. -/
theorem flushed1_eq (c : Dev nD) (t : Fin cfg1.N) :
    (dat1 (F := Ideal) V c).flushed 3 t
      = ((cfg1.win 3).blk t).view.read (Elt Ideal) (G1 (V c main_arg7) (V c main_arg13) (V c main_v53)) := by
  show (cfg1.win 3).cut (grid1.coords t) ((dat1 V c).after 3 t) = _
  rw [after1_3]
  unfold out1_3
  rw [View.canon_unit_zero hz2_1]
  simp only [View.ld_unit_zero (S := S1024x1024) hz2_1, View.ld_unit_zero (S := S1024x512) hz2_1, View.ld_unit_zero (S := S1x512) hz2_1]
  obtain ⟨e00, e01, e10, e11, e20, e21, e30, e31⟩ := idx_facts1 t
  funext y
  obtain ⟨r, j, rfl⟩ : ∃ (r : Fin 1024) (j : Fin 512), y = ix2 r j := ⟨y 0, y 1, eq_ix2 y⟩
  show (k1_pay1 (iblk1 V c 0 t) (iblk1 V c 1 t) (iblk1 V c 2 t) : S1024x512.Idx → EReal) (ix2 r j)
    = G1 (V c main_arg7) (V c main_arg13) (V c main_v53) (((cfg1.win 3).blk t).view.emb (ix2 r j))
  rw [pay1_apply]
  have h0 : ∀ k : Fin 1024, (iblk1 V c 0 t : S1024x1024.Idx → EReal) (ix2 r k)
      = (V c main_arg7 : S8192x1024.Idx → EReal) (ix2 ((((cfg1.win 3).blk t).view.emb (ix2 r j)) 0) k) := fun k => by
    show (V c main_arg7 : S8192x1024.Idx → EReal) (((cfg1.win 0).blk t).view.emb (ix2 r k)) = _
    congr 1; funext a; apply Fin.ext
    match a with
    | ⟨0, _⟩ => show win1_0.index t (0 : Fin 2) * 1024 + 1 * r.val = win1_3.index t (0 : Fin 2) * 1024 + 1 * r.val; omega
    | ⟨1, _⟩ => show win1_0.index t (1 : Fin 2) * 1024 + 1 * k.val = k.val; omega
  have h1 : ∀ k : Fin 1024, (iblk1 V c 1 t : S1024x512.Idx → EReal) (ix2 k j)
      = (V c main_arg13 : S1024x512.Idx → EReal) (ix2 k ((((cfg1.win 3).blk t).view.emb (ix2 r j)) 1)) := fun k => by
    show (V c main_arg13 : S1024x512.Idx → EReal) (((cfg1.win 1).blk t).view.emb (ix2 k j)) = _
    congr 1; funext a; apply Fin.ext
    match a with
    | ⟨0, _⟩ => show win1_1.index t (0 : Fin 2) * 1024 + 1 * k.val = k.val; omega
    | ⟨1, _⟩ => show win1_1.index t (1 : Fin 2) * 512 + 1 * j.val = win1_3.index t (1 : Fin 2) * 512 + 1 * j.val; omega
  have h2 : (iblk1 V c 2 t : S1x512.Idx → EReal) (ix2 0 j)
      = (V c main_v53 : S1x512.Idx → EReal) (ix2 0 ((((cfg1.win 3).blk t).view.emb (ix2 r j)) 1)) := by
    show (V c main_v53 : S1x512.Idx → EReal) (((cfg1.win 2).blk t).view.emb (ix2 0 j)) = _
    congr 1; funext a; apply Fin.ext
    match a with
    | ⟨0, _⟩ => show win1_2.index t (0 : Fin 2) * 1 + 1 * 0 = 0; omega
    | ⟨1, _⟩ => show win1_2.index t (1 : Fin 2) * 512 + 1 * j.val = win1_3.index t (1 : Fin 2) * 512 + 1 * j.val; omega
  simp only [h0, h1, h2]

/-- An index of the array is in point `t`'s block iff each coordinate is in the block's range on its axis. -/
theorem mem_blk1 (t : Fin cfg1.N) (i : S8192x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v54).slice (win1_3.rect t)).set ↔ _
  rw [View.set_slice_whole, Rect.mem_set_unit]
  exact Iff.rfl

/-- The output's blocks cover its array: row `r` is in the block of point `r / 1024`. -/
theorem cover1 (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  obtain ⟨t, ht⟩ := idx_onto1 ⟨(i 0).val / 1024, by omega⟩
  have ht' : t.val = (i 0).val / 1024 := ht
  obtain ⟨e00, e01, e10, e11, e20, e21, e30, e31⟩ := idx_facts1 t
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The output array after the region is `G1` of the region-entry contents. -/
theorem final1 (c : Dev nD) :
    (dat1 (F := Ideal) V c).arrAt 3 cfg1.N = G1 (V c main_arg7) (V c main_arg13) (V c main_v53) :=
  (dat1 (F := Ideal) V c).arrAt_eq_of_cover 3 (G1 (V c main_arg7) (V c main_arg13) (V c main_v53))
    (fun t _ => flushed1_eq V c t) cover1

/-- The three input arrays as the region finds them, at their literal index types. -/
abbrev xArr1 (c : Dev nD) : S8192x1024.Idx → EReal := V c main_arg7
abbrev wArr1 (c : Dev nD) : S1024x512.Idx → EReal := V c main_arg13
abbrev bArr1 (c : Dev nD) : S1x512.Idx → EReal := V c main_v53

/-- The output array after the region, entry by entry. -/
theorem value1 (c : Dev nD) (r : Fin 8192) (j : Fin 512) :
    ((dat1 (F := Ideal) V c).arrAt 3 cfg1.N : S8192x512.Idx → EReal) (ix2 r j)
      = (∑ k : Fin 1024, xArr1 V c (ix2 r k) * wArr1 V c (ix2 k j)) + bArr1 V c (ix2 0 j) := by
  rw [final1]

end Cert.KernelIdeal.Hand
-- ==== Proof.KI.Join1.lean ====
/- Region 1's output array joined to the reference's own term for the same stage: entry by entry both are the row of
   x times the column of w summed over the contracted axis, plus the bias entry. -/
import proofs.«141825_j60318520705103_1_alg».proof.Proof.KI.Value1
import proofs.«141825_j60318520705103_1_alg».proof.Proof.Ref.Defs
import proofs.«141825_j60318520705103_1_alg».proof.Proof.Ref.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- With a zero bias row, the region's output array is the reference's product of the two arrays. -/
theorem join1 (c : Dev nD) (hb : ∀ j : Fin 512, bArr1 V c (ix2 0 j) = 0) :
    (dat1 (F := Ideal) V c).arrAt 3 cfg1.N
      = Host.dotGeneral (F := Ideal) (φ₁ := .f32) (φ₂ := .f32) Cert.ReferenceIdeal.dot_S8192x1024_S1024x512_S8192x512_1_0_0_1_n_n none (V c main_arg7) (V c main_arg13) := by
  funext i
  obtain ⟨r, j, rfl⟩ : ∃ (r : Fin 8192) (j : Fin 512), i = ix2 r j := ⟨i 0, i 1, eq_ix2 i⟩
  rw [value1, hb, add_zero]
  exact (Cert.ReferenceIdeal.Hand.dot_hE_apply (xArr1 V c) (wArr1 V c) r j).symm

end Cert.KernelIdeal.Hand
-- ==== Proof.LibSumRuns.lean ====
/-
  Two small tools for a matrix product taken in blocks along the contracted axis.

  `sum_runs`: in any commutative additive monoid, a sum over `m·n` consecutive naturals is the sum over `m` runs of
  `n` — `∑ s < m, ∑ d' < n, F (s·n + d') = ∑ d < m·n, F d` — so the partial products of the runs of a contraction add
  up to the whole contraction.  On the extended reals this asks no finiteness: only commutativity and associativity
  of addition are used.

  `rd2`: a two-dimensional array read at natural coordinates (its entry inside the array, zero outside), so that the
  entry of a block at a grid point can be named by plain arithmetic on the point's number, with the bounds supplied
  only where the entry is finally read (`rd2_of_lt`).
-/
import Idealize.ShloMosaic.Lib.ValueIdx
import Idealize.ShloMosaic.PureOps.Ideal.Laws

noncomputable section

namespace Cert.SumRuns

open Idealize.ShloMosaic Idealize.ShloMosaic.ValueIdx

/-- A sum over `m·n` consecutive naturals, regrouped as `m` runs of `n`. -/
theorem sum_runs {β : Type*} [AddCommMonoid β] (m n : ℕ) (F : ℕ → β) :
    ∑ s ∈ Finset.range m, ∑ d' : Fin n, F (s * n + d'.val) = ∑ d : Fin (m * n), F d.val := by
  rw [Finset.sum_range, ← Equiv.sum_comp finProdFinEquiv, Fintype.sum_prod_type]
  refine Finset.sum_congr rfl fun s _ => Finset.sum_congr rfl fun d' _ => ?_
  refine congrArg F ?_
  show s.val * n + d'.val = d'.val + n * s.val
  rw [Nat.mul_comm, Nat.add_comm]

/-- A two-dimensional array read at natural coordinates: its entry inside the array, zero outside. -/
def rd2 {n0 n1 : ℕ} (f : (⟨2, ![n0, n1]⟩ : Shape).Idx → EReal) (r c : ℕ) : EReal :=
  if h : r < n0 ∧ c < n1 then f (ix2 ⟨r, h.1⟩ ⟨c, h.2⟩) else 0

/-- Inside the array, `rd2` is the array's entry. -/
theorem rd2_of_lt {n0 n1 : ℕ} (f : (⟨2, ![n0, n1]⟩ : Shape).Idx → EReal) (r c : ℕ) (h0 : r < n0) (h1 : c < n1) :
    rd2 f r c = f (ix2 ⟨r, h0⟩ ⟨c, h1⟩) := dif_pos ⟨h0, h1⟩

end Cert.SumRuns

end
-- ==== Proof.KI.Value2.lean ====
import proofs.«141825_j60318520705103_1_alg».proof.Proof.KI.Region2
import proofs.«141825_j60318520705103_1_alg».proof.Proof.LibDotRead
import proofs.«141825_j60318520705103_1_alg».proof.Proof.LibSumRuns
import Idealize.ShloMosaic.Lib.Pipeline.Value
import Idealize.ShloMosaic.Lib.ValueIdx
import Idealize.ShloMosaic.Lib.ValueLayout
import Idealize.ShloMosaic.Lib.ValueIdxCoords
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## What each case's stores leave, as the payloads of the blocks -/

theorem hz2 : (![0, 0] : Fin 2 → Nat) = fun _ => 0 := funext fun a => by fin_cases a <;> rfl

/-- Inner coordinate 1 or 2: the accumulator is left at itself plus the block product. -/
theorem piecesB2 (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i) (x0 : Vec F S512x2048 .f32) (x1 : Vec F S2048x512 .f32) (x2 : Vec F S512x512 .f32) (x3 : Vec F S1x512 .f32) (xs0 : Vec F S512x512 .f32) :
    VS2.read (Elt F) (VS2.writes (Elt F) VS2.junk (kernelRun2_B c i arg2 harg2 arg3 harg3 arg4 harg4 arg5 harg5 arg6 harg6 arg7 harg7 hc0 hc1 x0 x1 x2 x3 xs0).2.1) = k2_pay2 x0 x1 xs0 := by
  rw [View.read_writes_junk_eq_canon]
  unfold kernelRun2_B
  dsimp only
  rw [View.canon_unit_zero hz2]
  simp only [View.readAt_eq_ld, harg2.read_unread, harg3.read_unread, harg7.read_unread, View.ld_unit_zero (S := S512x2048) hz2, View.ld_unit_zero (S := S2048x512) hz2, View.ld_unit_zero (S := S512x512) hz2]

/-- Inner coordinate 0: the accumulator is zeroed, read back, and left at zero plus the block product. -/
theorem piecesA2 (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i) (x0 : Vec F S512x2048 .f32) (x1 : Vec F S2048x512 .f32) (x2 : Vec F S512x512 .f32) (x3 : Vec F S1x512 .f32) :
    VS2.read (Elt F) (VS2.writes (Elt F) VS2.junk (kernelRun2_A c i arg2 harg2 arg3 harg3 arg4 harg4 arg5 harg5 arg6 harg6 arg7 harg7 hc0 hc1 x0 x1 x2 x3).2.1) = k2_pay2 x0 x1 k2_pay1 := by
  rw [View.read_writes_junk_eq_canon]
  unfold kernelRun2_A
  dsimp only
  sl_unfold_words
  rw [View.canon_cons_unit_zero (S := S512x512) hz2, View.readCov_unit_zero (S := S512x512) _ hz2]
  simp only [View.readAt_eq_ld, harg2.read_unread, harg3.read_unread, View.ld_unit_zero (S := S512x2048) hz2, View.ld_unit_zero (S := S2048x512) hz2]

/-- Inner coordinate 3: the accumulator as in the middle case; -/
theorem piecesCs2 (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x2048 .f32) (x1 : Vec F S2048x512 .f32) (x2 : Vec F S512x512 .f32) (x3 : Vec F S1x512 .f32) (xs0 : Vec F S512x512 .f32) :
    VS2.read (Elt F) (VS2.writes (Elt F) VS2.junk (kernelRun2_C c i arg2 harg2 arg3 harg3 arg4 harg4 arg5 harg5 arg6 harg6 arg7 harg7 hc0 hc1 x0 x1 x2 x3 xs0).2.1) = k2_pay2 x0 x1 xs0 := by
  rw [View.read_writes_junk_eq_canon]
  unfold kernelRun2_C
  dsimp only
  sl_unfold_words
  rw [View.canon_unit_zero hz2]
  simp only [View.readAt_eq_ld, harg2.read_unread, harg3.read_unread, harg7.read_unread, View.ld_unit_zero (S := S512x2048) hz2, View.ld_unit_zero (S := S2048x512) hz2, View.ld_unit_zero (S := S512x512) hz2]

/-- and the output block is the epilogue of the accumulator just stored. -/
theorem piecesCo2 (c : Dev nD) (i : grid2.Coords) (arg2 : Memref sig .tc .vmem S512x2048 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x2048 .f32) (x1 : Vec F S2048x512 .f32) (x2 : Vec F S512x512 .f32) (x3 : Vec F S1x512 .f32) (xs0 : Vec F S512x512 .f32) :
    VO2_4.read (Elt F) (VO2_4.writes (Elt F) VO2_4.junk (kernelRun2_C c i arg2 harg2 arg3 harg3 arg4 harg4 arg5 harg5 arg6 harg6 arg7 harg7 hc0 hc1 x0 x1 x2 x3 xs0).1) = k2_pay3 (k2_pay2 x0 x1 xs0) x2 x3 := by
  rw [View.read_writes_junk_eq_canon]
  unfold kernelRun2_C
  dsimp only
  sl_unfold_words
  rw [View.canon_unit_zero hz2, View.readCov_unit_zero (S := S512x512) _ hz2]
  simp only [View.readAt_eq_ld, harg2.read_unread, harg3.read_unread, harg4.read_unread, harg5.read_unread, harg7.read_unread, View.ld_unit_zero (S := S512x2048) hz2, View.ld_unit_zero (S := S2048x512) hz2, View.ld_unit_zero (S := S512x512) hz2, View.ld_unit_zero (S := S1x512) hz2]

/-! ## The payloads at an index, on the extended reals -/

section IdealSide

/-- A two-dimensional array at an index is its read at the index's natural coordinates. -/
theorem rd2_idx {n0 n1 : ℕ} (f : (⟨2, ![n0, n1]⟩ : Shape).Idx → EReal) (i : (⟨2, ![n0, n1]⟩ : Shape).Idx) :
    f i = SumRuns.rd2 f (i 0).val (i 1).val := by
  rw [SumRuns.rd2_of_lt f _ _ (i 0).isLt (i 1).isLt]; exact congrArg f (eq_ix2 i)

/-- The zero block. -/
theorem pay1_apply2 (p q : Fin 512) : (k2_pay1 (F := Ideal) : S512x512.Idx → EReal) (ix2 p q) = 0 := by
  unfold k2_pay1
  simp only [shapeCast_self]
  exact Ideal.ofBits_zero_f32

/-- The accumulation step: the accumulator's entry plus the block product's (rounding to bf16 is the identity on the
    extended reals, and the matrix unit into a zero accumulator is the plain sum over the contracted axis). -/
theorem pay2_apply2 (x0 : Vec Ideal S512x2048 .f32) (x1 : Vec Ideal S2048x512 .f32) (xs : Vec Ideal S512x512 .f32) (p q : Fin 512) :
    (k2_pay2 x0 x1 xs : S512x512.Idx → EReal) (ix2 p q)
      = (xs : S512x512.Idx → EReal) (ix2 p q) + ∑ k : Fin 2048, (x0 : S512x2048.Idx → EReal) (ix2 p k) * (x1 : S2048x512.Idx → EReal) (ix2 k q) := by
  unfold k2_pay2
  simp only [shapeCast_self]
  exact congrArg ((xs : S512x512.Idx → EReal) (ix2 p q) + ·) (DotRead.matmul_plain_zero_apply 512 2048 512 none x0 x1 p q)

/-- The epilogue: the accumulator times the weight block, plus the bias row, clamped below at zero. -/
theorem pay3_apply2 (a : Vec Ideal S512x512 .f32) (w : Vec Ideal S512x512 .f32) (b : Vec Ideal S1x512 .f32) (p q : Fin 512) :
    (k2_pay3 a w b : S512x512.Idx → EReal) (ix2 p q)
      = max ((∑ l : Fin 512, (a : S512x512.Idx → EReal) (ix2 p l) * (w : S512x512.Idx → EReal) (ix2 l q)) + (b : S1x512.Idx → EReal) (ix2 (0 : Fin 1) q)) (Ideal.ofBits .f32 0x00000000#32) := by
  unfold k2_pay3
  simp only [shapeCast_self]
  exact congrArg₂ (fun u v => max (u + v) (Ideal.ofBits .f32 0x00000000#32))
    (DotRead.matmul_plain_zero_apply 512 512 512 none a w p q)
    (broadcastTo_1b_ab_apply (a := 512) (b := 512) b broadcasts_S1x512_S512x512 p q)

end IdealSide

/-! ## The cases at a point, as payloads of the point's blocks -/

section Region2
variable (V : (c : Dev nD) → (b : Ref sig .tc) → Buf (Elt F) ((c : Thread nD τ).loc b))

theorem soutA2_eq (c : Dev nD) (t : Fin cfg2.N) (h0 : t.val % 4 = 0) (h1 : ¬t.val % 4 = 3) :
    soutA2 V c t h0 h1 = k2_pay2 (iblk2 V c 0 t) (iblk2 V c 1 t) k2_pay1 := by
  unfold soutA2
  exact piecesA2 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)

theorem soutB2_eq (c : Dev nD) (t : Fin cfg2.N) (h0 : ¬t.val % 4 = 0) (h1 : ¬t.val % 4 = 3) (xs : Vec F S512x512 .f32) :
    soutB2 V c t h0 h1 xs = k2_pay2 (iblk2 V c 0 t) (iblk2 V c 1 t) xs := by
  unfold soutB2
  exact piecesB2 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) xs

theorem soutC2_eq (c : Dev nD) (t : Fin cfg2.N) (h0 : ¬t.val % 4 = 0) (h1 : t.val % 4 = 3) (xs : Vec F S512x512 .f32) :
    soutC2 V c t h0 h1 xs = k2_pay2 (iblk2 V c 0 t) (iblk2 V c 1 t) xs := by
  unfold soutC2
  exact piecesCs2 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) xs

theorem outC2_eq (c : Dev nD) (t : Fin cfg2.N) (h0 : ¬t.val % 4 = 0) (h1 : t.val % 4 = 3) (xs : Vec F S512x512 .f32) :
    outC2 V c t h0 h1 xs = k2_pay3 (k2_pay2 (iblk2 V c 0 t) (iblk2 V c 1 t) xs) (iblk2 V c 2 t) (iblk2 V c 3 t) := by
  unfold outC2
  exact piecesCo2 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) xs

/-- The accumulator after a point: the step's payload over the zero block (inner coordinate 0) or over what the point before
    left. -/
theorem acc2_step (c : Dev nD) (t : Fin cfg2.N) :
    acc2 V c t.val t.isLt = k2_pay2 (iblk2 V c 0 t) (iblk2 V c 1 t)
      (if t.val % 4 = 0 then k2_pay1 else acc2 V c (t.val - 1) (Nat.lt_of_le_of_lt (Nat.sub_le _ _) t.isLt)) := by
  by_cases h0 : t.val % 4 = 0
  · rw [if_pos h0, acc2_A V c t h0 (by omega), soutA2_eq]
  · rw [if_neg h0]
    by_cases h1 : t.val % 4 = 3
    · rw [acc2_C V c t h0 h1, soutC2_eq]
    · rw [acc2_B V c t h0 h1, soutB2_eq]

end Region2

/-! ## The blocks, read at natural coordinates; the contraction assembled; the output array -/

section Value2
variable (V : (c : Dev nD) → (b : Ref sig .tc) → Buf (Elt Ideal) ((c : Thread nD τ).loc b))

/-- The index maps in closed form, decided over the grid. -/
theorem idx_facts2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val / 4 ∧ win2_4.index t (1 : Fin 2) = 0 :=
  (by decide +kernel : ∀ t : Fin grid2.N, _)

/-- The four operand arrays as the region finds them, on the extended reals. -/
abbrev A2 (c : Dev nD) : S8192x8192.Idx → EReal := V c main_arg10
abbrev B2 (c : Dev nD) : S8192x512.Idx → EReal := V c main_v103
abbrev wArr2 (c : Dev nD) : S512x512.Idx → EReal := V c main_arg15
abbrev bias2 (c : Dev nD) : S1x512.Idx → EReal := V c main_v104

/-- The four input blocks at a point, at their literal shapes. -/
abbrev blkA2 (c : Dev nD) (t : Fin cfg2.N) : Vec Ideal S512x2048 .f32 := iblk2 V c 0 t
abbrev blkB2 (c : Dev nD) (t : Fin cfg2.N) : Vec Ideal S2048x512 .f32 := iblk2 V c 1 t
abbrev blkW2 (c : Dev nD) (t : Fin cfg2.N) : Vec Ideal S512x512 .f32 := iblk2 V c 2 t
abbrev blkb2 (c : Dev nD) (t : Fin cfg2.N) : Vec Ideal S1x512 .f32 := iblk2 V c 3 t

theorem blkA2_apply (c : Dev nD) (t : Fin cfg2.N) (p : Fin 512) (k : Fin 2048) :
    blkA2 V c t (ix2 p k) = SumRuns.rd2 (A2 V c) (t.val / 4 * 512 + p.val) (t.val % 4 * 2048 + k.val) := by
  obtain ⟨e0, e1, -⟩ := idx_facts2 t
  show A2 V c (((cfg2.win 0).blk t).view.emb (ix2 p k)) = _
  refine (rd2_idx (A2 V c) _).trans ?_
  refine congr (congrArg _ ?_) ?_
  · show win2_0.index t (0 : Fin 2) * 512 + 1 * p.val = _
    rw [e0]; omega
  · show win2_0.index t (1 : Fin 2) * 2048 + 1 * k.val = _
    rw [e1]; omega

theorem blkB2_apply (c : Dev nD) (t : Fin cfg2.N) (k : Fin 2048) (q : Fin 512) :
    blkB2 V c t (ix2 k q) = SumRuns.rd2 (B2 V c) (t.val % 4 * 2048 + k.val) q.val := by
  obtain ⟨-, -, e2, e3, -⟩ := idx_facts2 t
  show B2 V c (((cfg2.win 1).blk t).view.emb (ix2 k q)) = _
  refine (rd2_idx (B2 V c) _).trans ?_
  refine congr (congrArg _ ?_) ?_
  · show win2_1.index t (0 : Fin 2) * 2048 + 1 * k.val = _
    rw [e2]; omega
  · show win2_1.index t (1 : Fin 2) * 512 + 1 * q.val = _
    rw [e3]; omega

theorem blkW2_apply (c : Dev nD) (t : Fin cfg2.N) (l q : Fin 512) :
    blkW2 V c t (ix2 l q) = wArr2 V c (ix2 l q) := by
  obtain ⟨-, -, -, -, e4, e5, -⟩ := idx_facts2 t
  show wArr2 V c (((cfg2.win 2).blk t).view.emb (ix2 l q)) = _
  refine congrArg _ (funext fun a => Fin.ext ?_)
  match a with
  | ⟨0, _⟩ => show win2_2.index t (0 : Fin 2) * 512 + 1 * l.val = l.val; rw [e4]; omega
  | ⟨1, _⟩ => show win2_2.index t (1 : Fin 2) * 512 + 1 * q.val = q.val; rw [e5]; omega

theorem blkb2_apply (c : Dev nD) (t : Fin cfg2.N) (q : Fin 512) :
    blkb2 V c t (ix2 (0 : Fin 1) q) = bias2 V c (ix2 (0 : Fin 1) q) := by
  obtain ⟨-, -, -, -, -, -, e6, e7, -⟩ := idx_facts2 t
  show bias2 V c (((cfg2.win 3).blk t).view.emb (ix2 (0 : Fin 1) q)) = _
  refine congrArg _ (funext fun a => Fin.ext ?_)
  match a with
  | ⟨0, _⟩ => show win2_3.index t (0 : Fin 2) * 1 + 1 * (0 : Fin 1).val = (0 : Fin 1).val; rw [e6]; rfl
  | ⟨1, _⟩ => show win2_3.index t (1 : Fin 2) * 512 + 1 * q.val = q.val; rw [e7]; omega

/-- One block product's entry: the run of 2048 contraction positions number `s`, at the output's array row `r`. -/
def blockTerm2 (c : Dev nD) (r : ℕ) (q : Fin 512) (s : ℕ) : EReal :=
  ∑ k : Fin 2048, SumRuns.rd2 (A2 V c) r (s * 2048 + k.val) * SumRuns.rd2 (B2 V c) (s * 2048 + k.val) q.val

theorem step2 (c : Dev nD) (t : Fin cfg2.N) (p q : Fin 512) :
    (∑ k : Fin 2048, blkA2 V c t (ix2 p k) * blkB2 V c t (ix2 k q)) = blockTerm2 V c (t.val / 4 * 512 + p.val) q (t.val % 4) := by
  unfold blockTerm2
  refine Finset.sum_congr rfl fun k _ => ?_
  rw [blkA2_apply V c t p k, blkB2_apply V c t k q]

/-- After a point with inner coordinate 0 the accumulator holds the first block product. -/
theorem acc2_apply_first (c : Dev nD) (t : Fin cfg2.N) (h0 : t.val % 4 = 0) (p q : Fin 512) :
    (acc2 V c t.val t.isLt : S512x512.Idx → EReal) (ix2 p q) = ∑ s ∈ Finset.range (t.val % 4 + 1), blockTerm2 V c (t.val / 4 * 512 + p.val) q s := by
  have e := acc2_step V c t
  rw [if_pos h0] at e
  refine (congrFun e (ix2 p q)).trans ?_
  refine (pay2_apply2 (blkA2 V c t) (blkB2 V c t) (k2_pay1 (F := Ideal)) p q).trans ?_
  rw [pay1_apply2, zero_add, step2, h0, Finset.sum_range_succ, Finset.sum_range_zero, zero_add]

/-- The accumulator after point `t` holds the block products of the point's row block over the inner coordinates so far. -/
theorem acc2_apply (c : Dev nD) : ∀ (n : ℕ) (t : Fin cfg2.N), t.val = n → ∀ (p q : Fin 512),
    (acc2 V c t.val t.isLt : S512x512.Idx → EReal) (ix2 p q) = ∑ s ∈ Finset.range (t.val % 4 + 1), blockTerm2 V c (t.val / 4 * 512 + p.val) q s := by
  intro n
  induction n with
  | zero =>
    intro t ht p q
    exact acc2_apply_first V c t (by rw [ht]) p q
  | succ n ih =>
    intro t ht p q
    by_cases h0 : t.val % 4 = 0
    · exact acc2_apply_first V c t h0 p q
    · have e := acc2_step V c t
      rw [if_neg h0] at e
      have hlt : t.val - 1 < cfg2.N := Nat.lt_of_le_of_lt (Nat.sub_le _ _) t.isLt
      have iht := ih ⟨t.val - 1, hlt⟩ (by show t.val - 1 = n; omega) p q
      have hq : (t.val - 1) / 4 = t.val / 4 := by omega
      have hr : (t.val - 1) % 4 + 1 = t.val % 4 := by omega
      refine (congrFun e (ix2 p q)).trans ?_
      refine (pay2_apply2 (blkA2 V c t) (blkB2 V c t) (acc2 V c (t.val - 1) hlt) p q).trans ?_
      rw [step2]
      refine (congrArg (· + blockTerm2 V c (t.val / 4 * 512 + p.val) q (t.val % 4)) iht).trans ?_
      show (∑ s ∈ Finset.range ((t.val - 1) % 4 + 1), blockTerm2 V c ((t.val - 1) / 4 * 512 + p.val) q s) + _ = _
      rw [hq, hr, Finset.sum_range_succ]

/-- The row block's whole contraction: four runs of 2048 positions are the 8192 positions. -/
theorem contraction2 (c : Dev nD) (r : Fin 8192) (l : Fin 512) :
    ∑ s ∈ Finset.range 4, blockTerm2 V c r.val l s = ∑ k : Fin 8192, A2 V c (ix2 r k) * B2 V c (ix2 k l) := by
  unfold blockTerm2
  refine (SumRuns.sum_runs 4 2048 fun d => SumRuns.rd2 (A2 V c) r.val d * SumRuns.rd2 (B2 V c) d l.val).trans ?_
  show ∑ d : Fin 8192, SumRuns.rd2 (A2 V c) r.val d.val * SumRuns.rd2 (B2 V c) d.val l.val = _
  refine Finset.sum_congr rfl fun k _ => ?_
  rw [SumRuns.rd2_of_lt _ _ _ r.isLt k.isLt, SumRuns.rd2_of_lt _ _ _ k.isLt l.isLt]

/-- The output array, entry by entry. -/
def G2 (c : Dev nD) : S8192x512.Idx → EReal := fun i =>
  max ((∑ l : Fin 512, (∑ k : Fin 8192, A2 V c (ix2 (i 0) k) * B2 V c (ix2 k l)) * wArr2 V c (ix2 l (i 1))) + bias2 V c (ix2 (0 : Fin 1) (i 1)))
    (Ideal.ofBits .f32 0x00000000#32)

/-- What a point with inner coordinate 3 leaves in the output block, entry by entry. -/
theorem out2_apply (c : Dev nD) (t : Fin cfg2.N) (h1 : t.val % 4 = 3) (p q : Fin 512) (hr : t.val / 4 * 512 + p.val < 8192) :
    (out2 V c t : S512x512.Idx → EReal) (ix2 p q) = G2 V c (ix2 ⟨t.val / 4 * 512 + p.val, hr⟩ q) := by
  have h0 : ¬t.val % 4 = 0 := by omega
  have hlt : t.val - 1 < cfg2.N := Nat.lt_of_le_of_lt (Nat.sub_le _ _) t.isLt
  have eo : out2 V c t = k2_pay3 (acc2 V c t.val t.isLt) (blkW2 V c t) (blkb2 V c t) := by
    have e := acc2_step V c t
    rw [if_neg h0] at e
    rw [show out2 V c t = outC2 V c t h0 h1 (acc2 V c (t.val - 1) hlt) from dif_pos h1, outC2_eq, ← e]
  refine (congrFun eo (ix2 p q)).trans ?_
  refine (pay3_apply2 (acc2 V c t.val t.isLt) (blkW2 V c t) (blkb2 V c t) p q).trans ?_
  unfold G2
  simp only [ix2_0, ix2_1]
  rw [blkb2_apply V c t q]
  refine congrArg (fun u => max (u + bias2 V c (ix2 (0 : Fin 1) q)) (Ideal.ofBits .f32 0x00000000#32)) ?_
  refine Finset.sum_congr rfl fun l _ => ?_
  rw [blkW2_apply V c t l q, acc2_apply V c t.val t rfl p l, h1]
  exact congrArg (· * wArr2 V c (ix2 l q)) (contraction2 V c ⟨t.val / 4 * 512 + p.val, hr⟩ l)

/-- What a point that writes back writes is its block of the output array. -/
theorem flushed2_eq (c : Dev nD) (t : Fin cfg2.N) (hf : (cfg2.win 4).flush t = true) :
    (dat2 V c).flushed 4 t = ((cfg2.win 4).blk t).view.read (Elt Ideal) (G2 V c) := by
  have h1 : t.val % 4 = 3 := (flush2_4 t).mp hf
  have hN : t.val < 64 := lt_of_lt_of_eq t.isLt (show cfg2.N = 64 from N_2)
  obtain ⟨-, -, -, -, -, -, -, -, e8, e9⟩ := idx_facts2 t
  show (cfg2.win 4).cut (grid2.coords t) ((dat2 V c).after 4 t) = _
  rw [after2_4]
  funext j
  have hj0 : (j 0).val < 512 := (j 0).isLt
  have hj1 : (j 1).val < 512 := (j 1).isLt
  show (out2 V c t : S512x512.Idx → EReal) j = G2 V c (((cfg2.win 4).blk t).view.emb j)
  refine ((congrArg (out2 V c t : S512x512.Idx → EReal) (eq_ix2 j)).trans (out2_apply V c t h1 (j 0) (j 1) (by omega))).trans ?_
  refine congrArg (G2 V c) (funext fun a => Fin.ext ?_)
  match a with
  | ⟨0, _⟩ => show t.val / 4 * 512 + (j 0).val = win2_4.index t (0 : Fin 2) * 512 + 1 * (j 0).val; rw [e8]; omega
  | ⟨1, _⟩ => show (j 1).val = win2_4.index t (1 : Fin 2) * 512 + 1 * (j 1).val; rw [e9]; omega

/-- An index of the array is in point `t`'s block iff each coordinate is in the block's range on its axis. -/
theorem mem_blk2 (t : Fin cfg2.N) (i : S8192x512.Idx) :
    i ∈ ((cfg2.win 4).blk t).view.set ↔ ∀ a : Fin 2, win2_4.index t a * S512x512.size a ≤ (i a).val ∧ (i a).val < win2_4.index t a * S512x512.size a + S512x512.size a := by
  show i ∈ ((View.whole main_v105).slice (win2_4.rect t)).set ↔ _
  rw [View.set_slice_whole, Rect.mem_set_unit]
  exact Iff.rfl

/-- The output array after the region: every row is covered by the last point of its row block. -/
theorem final2 (c : Dev nD) : (dat2 V c).arrAt 4 cfg2.N = G2 V c :=
  (dat2 V c).arrAt_eq_of_cover 4 (G2 V c) (flushed2_eq V c) fun i => by
    have hi0 : (i 0).val < 8192 := (i 0).isLt
    have hi1 : (i 1).val < 512 := (i 1).isLt
    have hN : cfg2.N = 64 := N_2
    have hlt : 4 * ((i 0).val / 512) + 3 < cfg2.N := by rw [hN]; omega
    obtain ⟨-, -, -, -, -, -, -, -, e8, e9⟩ := idx_facts2 ⟨4 * ((i 0).val / 512) + 3, hlt⟩
    have e8' : win2_4.index ⟨4 * ((i 0).val / 512) + 3, hlt⟩ (0 : Fin 2) = (4 * ((i 0).val / 512) + 3) / 4 := e8
    refine ⟨⟨4 * ((i 0).val / 512) + 3, hlt⟩, (flush2_4 _).mpr (by show (4 * ((i 0).val / 512) + 3) % 4 = 3; omega), ?_⟩
    rw [mem_blk2]
    intro a
    match a with
    | ⟨0, _⟩ => show win2_4.index ⟨4 * ((i 0).val / 512) + 3, hlt⟩ (0 : Fin 2) * 512 ≤ (i 0).val ∧ (i 0).val < win2_4.index ⟨4 * ((i 0).val / 512) + 3, hlt⟩ (0 : Fin 2) * 512 + 512; rw [e8']; omega
    | ⟨1, _⟩ => show win2_4.index ⟨4 * ((i 0).val / 512) + 3, hlt⟩ (1 : Fin 2) * 512 ≤ (i 1).val ∧ (i 1).val < win2_4.index ⟨4 * ((i 0).val / 512) + 3, hlt⟩ (1 : Fin 2) * 512 + 512; rw [e9]; omega

/-- THE VALUE of the region's output array, entry by entry: the contraction of the two operands over the 8192 positions, the
    weight product, the bias row, clamped below at zero. -/
theorem value2 (c : Dev nD) (r : Fin 8192) (j : Fin 512) :
    ((dat2 (F := Ideal) V c).arrAt 4 cfg2.N : S8192x512.Idx → EReal) (ix2 r j)
      = max ((∑ l : Fin 512, (∑ k : Fin 8192, A2 V c (ix2 r k) * B2 V c (ix2 k l)) * wArr2 V c (ix2 l j)) + bias2 V c (ix2 (0 : Fin 1) j)) (Ideal.ofBits .f32 0x00000000#32) := by
  rw [final2]; rfl

end Value2

end Cert.KernelIdeal.Hand

end
-- ==== Proof.KI.Join2.lean ====
import proofs.«141825_j60318520705103_1_alg».proof.Proof.KI.Value2
import proofs.«141825_j60318520705103_1_alg».proof.Proof.Ref.Read
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

section Join2
variable (V : (c : Dev nD) → (b : Ref sig .tc) → Buf (Elt Ideal) ((c : Thread nD τ).loc b))

/-- The region's output array is the reference's stage function of the operand arrays as the region finds them, the bias
    row read as the vector it was reshaped from: both sides, entry by entry, are the contraction over the 8192 positions, the
    weight product, the bias, clamped below at zero. -/
theorem join2 (c : Dev nD) (b : S512.Idx → EReal) (hb : ∀ j : Fin 512, (V c main_v104 : S1x512.Idx → EReal) (ix2 0 j) = b (ix1 j)) :
    (dat2 (F := Ideal) V c).arrAt 4 cfg2.N = Cert.ReferenceIdeal.Hand.affinity (F := Ideal) (V c main_arg10) (V c main_v103) (V c main_arg15) b := by
  funext i
  have hi := eq_ix2 (n0 := 8192) (n1 := 512) i
  refine (congrArg ((dat2 (F := Ideal) V c).arrAt 4 cfg2.N : S8192x512.Idx → EReal) hi).trans ?_
  refine Eq.trans ?_ (congrArg (Cert.ReferenceIdeal.Hand.affinity (F := Ideal) (A2 V c) (B2 V c) (wArr2 V c) b : S8192x512.Idx → EReal) hi).symm
  refine (value2 V c (i 0) (i 1)).trans ?_
  refine Eq.trans ?_ (Cert.ReferenceIdeal.Hand.affinity_apply (A2 V c) (B2 V c) (wArr2 V c) b (i 0) (i 1)).symm
  rw [show bias2 V c (ix2 (0 : Fin 1) (i 1)) = b (ix1 (i 1)) from hb (i 1)]

end Join2

end Cert.KernelIdeal.Hand

end
-- ==== Proof.KI.Value3.lean ====
import proofs.«141825_j60318520705103_1_alg».proof.Proof.KI.Region3
import proofs.«141825_j60318520705103_1_alg».proof.Proof.LibDotRead
import proofs.«141825_j60318520705103_1_alg».proof.Proof.LibSumRuns
import Idealize.ShloMosaic.Lib.Pipeline.Value
import Idealize.ShloMosaic.Lib.ValueIdx
import Idealize.ShloMosaic.Lib.ValueLayout
import Idealize.ShloMosaic.Lib.ValueIdxCoords
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## What each case's stores leave, as the payloads of the blocks -/

theorem hz3 : (![0, 0] : Fin 2 → Nat) = fun _ => 0 := funext fun a => by fin_cases a <;> rfl

/-- Inner coordinate 1 or 2: the accumulator is left at itself plus the block product. -/
theorem piecesB3 (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : ¬cond3_1 i) (x0 : Vec F S2048x512 .f32) (x1 : Vec F S2048x512 .f32) (x2 : Vec F S512x512 .f32) (x3 : Vec F S1x512 .f32) (xs0 : Vec F S512x512 .f32) :
    VS3.read (Elt F) (VS3.writes (Elt F) VS3.junk (kernelRun3_B c i arg2 harg2 arg3 harg3 arg4 harg4 arg5 harg5 arg6 harg6 arg7 harg7 hc0 hc1 x0 x1 x2 x3 xs0).2.1) = k3_pay2 x0 x1 xs0 := by
  rw [View.read_writes_junk_eq_canon]
  unfold kernelRun3_B
  dsimp only
  rw [View.canon_unit_zero hz3]
  simp only [View.readAt_eq_ld, harg2.read_unread, harg3.read_unread, harg7.read_unread, View.ld_unit_zero (S := S2048x512) hz3, View.ld_unit_zero (S := S2048x512) hz3, View.ld_unit_zero (S := S512x512) hz3]

/-- Inner coordinate 0: the accumulator is zeroed, read back, and left at zero plus the block product. -/
theorem piecesA3 (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond3_0 i) (hc1 : ¬cond3_1 i) (x0 : Vec F S2048x512 .f32) (x1 : Vec F S2048x512 .f32) (x2 : Vec F S512x512 .f32) (x3 : Vec F S1x512 .f32) :
    VS3.read (Elt F) (VS3.writes (Elt F) VS3.junk (kernelRun3_A c i arg2 harg2 arg3 harg3 arg4 harg4 arg5 harg5 arg6 harg6 arg7 harg7 hc0 hc1 x0 x1 x2 x3).2.1) = k3_pay2 x0 x1 k3_pay1 := by
  rw [View.read_writes_junk_eq_canon]
  unfold kernelRun3_A
  dsimp only
  sl_unfold_words
  rw [View.canon_cons_unit_zero (S := S512x512) hz3, View.readCov_unit_zero (S := S512x512) _ hz3]
  simp only [View.readAt_eq_ld, harg2.read_unread, harg3.read_unread, View.ld_unit_zero (S := S2048x512) hz3, View.ld_unit_zero (S := S2048x512) hz3]

/-- Inner coordinate 3: the accumulator as in the middle case; -/
theorem piecesCs3 (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : cond3_1 i) (x0 : Vec F S2048x512 .f32) (x1 : Vec F S2048x512 .f32) (x2 : Vec F S512x512 .f32) (x3 : Vec F S1x512 .f32) (xs0 : Vec F S512x512 .f32) :
    VS3.read (Elt F) (VS3.writes (Elt F) VS3.junk (kernelRun3_C c i arg2 harg2 arg3 harg3 arg4 harg4 arg5 harg5 arg6 harg6 arg7 harg7 hc0 hc1 x0 x1 x2 x3 xs0).2.1) = k3_pay2 x0 x1 xs0 := by
  rw [View.read_writes_junk_eq_canon]
  unfold kernelRun3_C
  dsimp only
  sl_unfold_words
  rw [View.canon_unit_zero hz3]
  simp only [View.readAt_eq_ld, harg2.read_unread, harg3.read_unread, harg7.read_unread, View.ld_unit_zero (S := S2048x512) hz3, View.ld_unit_zero (S := S2048x512) hz3, View.ld_unit_zero (S := S512x512) hz3]

/-- and the output block is the epilogue of the accumulator just stored. -/
theorem piecesCo3 (c : Dev nD) (i : grid3.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond3_0 i) (hc1 : cond3_1 i) (x0 : Vec F S2048x512 .f32) (x1 : Vec F S2048x512 .f32) (x2 : Vec F S512x512 .f32) (x3 : Vec F S1x512 .f32) (xs0 : Vec F S512x512 .f32) :
    VO3_4.read (Elt F) (VO3_4.writes (Elt F) VO3_4.junk (kernelRun3_C c i arg2 harg2 arg3 harg3 arg4 harg4 arg5 harg5 arg6 harg6 arg7 harg7 hc0 hc1 x0 x1 x2 x3 xs0).1) = k3_pay3 (k3_pay2 x0 x1 xs0) x2 x3 := by
  rw [View.read_writes_junk_eq_canon]
  unfold kernelRun3_C
  dsimp only
  sl_unfold_words
  rw [View.canon_unit_zero hz3, View.readCov_unit_zero (S := S512x512) _ hz3]
  simp only [View.readAt_eq_ld, harg2.read_unread, harg3.read_unread, harg4.read_unread, harg5.read_unread, harg7.read_unread, View.ld_unit_zero (S := S2048x512) hz3, View.ld_unit_zero (S := S2048x512) hz3, View.ld_unit_zero (S := S512x512) hz3, View.ld_unit_zero (S := S1x512) hz3]

/-! ## The payloads at an index, on the extended reals -/

section IdealSide

/-- A two-dimensional array at an index is its read at the index's natural coordinates. -/
theorem rd2_idx3 {n0 n1 : ℕ} (f : (⟨2, ![n0, n1]⟩ : Shape).Idx → EReal) (i : (⟨2, ![n0, n1]⟩ : Shape).Idx) :
    f i = SumRuns.rd2 f (i 0).val (i 1).val := by
  rw [SumRuns.rd2_of_lt f _ _ (i 0).isLt (i 1).isLt]; exact congrArg f (eq_ix2 i)

/-! ### The matrix unit contracting axis 0 of both operands -/

abbrev D3 : DotDims S2048x512 S2048x512 S512x512 := dot_S2048x512_S2048x512_S512x512_0_0_1_1_n_n

/-- The left operand's row is the contraction position; -/
theorem d3_lhs_row (i : S512x512.Idx) (q : D3.contr.Idx) : (D3.lhsIdx i q 0).val = (q ⟨0, Nat.one_pos⟩).val :=
  D3.lhsIdx_val_of_single rfl i q
/-- its column is the output's row. -/
theorem d3_lhs_col (i : S512x512.Idx) (q : D3.contr.Idx) : (D3.lhsIdx i q 1).val = (i 0).val := by
  unfold DotDims.lhsIdx
  rw [dif_neg (show ¬(1 : Fin S2048x512.rank) ∈ D3.lhsBatch from List.not_mem_nil),
    dif_pos (show (1 : Fin S2048x512.rank) ∈ D3.lhsNonContracting from List.mem_singleton.mpr rfl)]
  rfl
/-- The right operand's row is the contraction position; -/
theorem d3_rhs_row (i : S512x512.Idx) (q : D3.contr.Idx) : (D3.rhsIdx i q 0).val = (q ⟨0, Nat.one_pos⟩).val :=
  D3.rhsIdx_val_of_single rfl i q
/-- its column is the output's column. -/
theorem d3_rhs_col (i : S512x512.Idx) (q : D3.contr.Idx) : (D3.rhsIdx i q 1).val = (i 1).val := by
  unfold DotDims.rhsIdx
  rw [dif_neg (show ¬(1 : Fin S2048x512.rank) ∈ D3.rhsBatch from List.not_mem_nil),
    dif_pos (show (1 : Fin S2048x512.rank) ∈ D3.rhsNonContracting from List.mem_singleton.mpr rfl)]
  rfl

/-- Entry `(r, c)` of the product of the transposed left operand with the right one, accumulated into zero, is
    `∑ k, A (k, r) * B (k, c)`. -/
theorem matmul3_zero_apply {φ₁ φ₂ : FTy} (prec : Option ContractPrecision)
    (lhs : FVec Ideal S2048x512 φ₁) (rhs : FVec Ideal S2048x512 φ₂) (r c : Fin 512) :
    FloatOps.matmul D3 prec lhs rhs (constant (F := Ideal) S512x512 .f32 0x00000000#32) (ix2 r c)
      = ∑ k : Fin 2048, lhs (ix2 k r) * rhs (ix2 k c) := by
  rw [Ideal.matmul_constant_zero_apply, ← Equiv.sum_comp (contrEquiv1 D3 2048 rfl rfl).symm]
  refine Finset.sum_congr rfl fun k _ => ?_
  have hk := contrEquiv1_symm_val D3 2048 rfl rfl k
  have el : D3.lhsIdx (ix2 r c) ((contrEquiv1 D3 2048 rfl rfl).symm k) = ix2 k r :=
    funext fun a => Fin.ext (by
      match a with
      | ⟨0, _⟩ => exact (d3_lhs_row _ _).trans hk
      | ⟨1, _⟩ => exact d3_lhs_col _ _)
  have er : D3.rhsIdx (ix2 r c) ((contrEquiv1 D3 2048 rfl rfl).symm k) = ix2 k c :=
    funext fun a => Fin.ext (by
      match a with
      | ⟨0, _⟩ => exact (d3_rhs_row _ _).trans hk
      | ⟨1, _⟩ => exact d3_rhs_col _ _)
  rw [el, er]

/-- The zero block. -/
theorem pay1_apply3 (p q : Fin 512) : (k3_pay1 (F := Ideal) : S512x512.Idx → EReal) (ix2 p q) = 0 := by
  unfold k3_pay1
  simp only [shapeCast_self]
  exact Ideal.ofBits_zero_f32

/-- The accumulation step: the accumulator's entry plus the block product's (rounding to bf16 is the identity on the
    extended reals, and the matrix unit into a zero accumulator is the plain sum over the contracted axis). -/
theorem pay2_apply3 (x0 : Vec Ideal S2048x512 .f32) (x1 : Vec Ideal S2048x512 .f32) (xs : Vec Ideal S512x512 .f32) (p q : Fin 512) :
    (k3_pay2 x0 x1 xs : S512x512.Idx → EReal) (ix2 p q)
      = (xs : S512x512.Idx → EReal) (ix2 p q) + ∑ k : Fin 2048, (x0 : S2048x512.Idx → EReal) (ix2 k p) * (x1 : S2048x512.Idx → EReal) (ix2 k q) := by
  unfold k3_pay2
  simp only [shapeCast_self]
  exact congrArg ((xs : S512x512.Idx → EReal) (ix2 p q) + ·) (matmul3_zero_apply none x0 x1 p q)

/-- The epilogue: the accumulator times the weight block, plus the bias row, clamped below at zero. -/
theorem pay3_apply3 (a : Vec Ideal S512x512 .f32) (w : Vec Ideal S512x512 .f32) (b : Vec Ideal S1x512 .f32) (p q : Fin 512) :
    (k3_pay3 a w b : S512x512.Idx → EReal) (ix2 p q)
      = max ((∑ l : Fin 512, (a : S512x512.Idx → EReal) (ix2 p l) * (w : S512x512.Idx → EReal) (ix2 l q)) + (b : S1x512.Idx → EReal) (ix2 (0 : Fin 1) q)) (Ideal.ofBits .f32 0x00000000#32) := by
  unfold k3_pay3
  simp only [shapeCast_self]
  exact congrArg₂ (fun u v => max (u + v) (Ideal.ofBits .f32 0x00000000#32))
    (DotRead.matmul_plain_zero_apply 512 512 512 none a w p q)
    (broadcastTo_1b_ab_apply (a := 512) (b := 512) b broadcasts_S1x512_S512x512 p q)

end IdealSide

/-! ## The cases at a point, as payloads of the point's blocks -/

section Region3
variable (V : (c : Dev nD) → (b : Ref sig .tc) → Buf (Elt F) ((c : Thread nD τ).loc b))

theorem soutA3_eq (c : Dev nD) (t : Fin cfg3.N) (h0 : t.val % 4 = 0) (h1 : ¬t.val % 4 = 3) :
    soutA3 V c t h0 h1 = k3_pay2 (iblk3 V c 0 t) (iblk3 V c 1 t) k3_pay1 := by
  unfold soutA3
  exact piecesA3 c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t) (iblk3 V c 2 t) (iblk3 V c 3 t)

theorem soutB3_eq (c : Dev nD) (t : Fin cfg3.N) (h0 : ¬t.val % 4 = 0) (h1 : ¬t.val % 4 = 3) (xs : Vec F S512x512 .f32) :
    soutB3 V c t h0 h1 xs = k3_pay2 (iblk3 V c 0 t) (iblk3 V c 1 t) xs := by
  unfold soutB3
  exact piecesB3 c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (iblk3 V c 2 t) (iblk3 V c 3 t) xs

theorem soutC3_eq (c : Dev nD) (t : Fin cfg3.N) (h0 : ¬t.val % 4 = 0) (h1 : t.val % 4 = 3) (xs : Vec F S512x512 .f32) :
    soutC3 V c t h0 h1 xs = k3_pay2 (iblk3 V c 0 t) (iblk3 V c 1 t) xs := by
  unfold soutC3
  exact piecesCs3 c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) xs

theorem outC3_eq (c : Dev nD) (t : Fin cfg3.N) (h0 : ¬t.val % 4 = 0) (h1 : t.val % 4 = 3) (xs : Vec F S512x512 .f32) :
    outC3 V c t h0 h1 xs = k3_pay3 (k3_pay2 (iblk3 V c 0 t) (iblk3 V c 1 t) xs) (iblk3 V c 2 t) (iblk3 V c 3 t) := by
  unfold outC3
  exact piecesCo3 c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) xs

/-- The accumulator after a point: the step's payload over the zero block (inner coordinate 0) or over what the point before
    left. -/
theorem acc3_step (c : Dev nD) (t : Fin cfg3.N) :
    acc3 V c t.val t.isLt = k3_pay2 (iblk3 V c 0 t) (iblk3 V c 1 t)
      (if t.val % 4 = 0 then k3_pay1 else acc3 V c (t.val - 1) (Nat.lt_of_le_of_lt (Nat.sub_le _ _) t.isLt)) := by
  by_cases h0 : t.val % 4 = 0
  · rw [if_pos h0, acc3_A V c t h0 (by omega), soutA3_eq]
  · rw [if_neg h0]
    by_cases h1 : t.val % 4 = 3
    · rw [acc3_C V c t h0 h1, soutC3_eq]
    · rw [acc3_B V c t h0 h1, soutB3_eq]

end Region3

/-! ## The blocks, read at natural coordinates; the contraction assembled; the output array -/

section Value3
variable (V : (c : Dev nD) → (b : Ref sig .tc) → Buf (Elt Ideal) ((c : Thread nD τ).loc b))

/-- The index maps in closed form, decided over the grid. -/
theorem idx_facts3 : ∀ t : Fin cfg3.N,
    win3_0.index t (0 : Fin 2) = t.val % 4 ∧ win3_0.index t (1 : Fin 2) = t.val / 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val / 4 ∧ win3_4.index t (1 : Fin 2) = 0 :=
  (by decide +kernel : ∀ t : Fin grid3.N, _)

/-- The four operand arrays as the region finds them, on the extended reals. -/
abbrev A3 (c : Dev nD) : S8192x8192.Idx → EReal := V c main_arg10
abbrev B3 (c : Dev nD) : S8192x512.Idx → EReal := V c main_v52
abbrev wArr3 (c : Dev nD) : S512x512.Idx → EReal := V c main_arg17
abbrev bias3 (c : Dev nD) : S1x512.Idx → EReal := V c main_v106

/-- The four input blocks at a point, at their literal shapes. -/
abbrev blkA3 (c : Dev nD) (t : Fin cfg3.N) : Vec Ideal S2048x512 .f32 := iblk3 V c 0 t
abbrev blkB3 (c : Dev nD) (t : Fin cfg3.N) : Vec Ideal S2048x512 .f32 := iblk3 V c 1 t
abbrev blkW3 (c : Dev nD) (t : Fin cfg3.N) : Vec Ideal S512x512 .f32 := iblk3 V c 2 t
abbrev blkb3 (c : Dev nD) (t : Fin cfg3.N) : Vec Ideal S1x512 .f32 := iblk3 V c 3 t

theorem blkA3_apply (c : Dev nD) (t : Fin cfg3.N) (k : Fin 2048) (p : Fin 512) :
    blkA3 V c t (ix2 k p) = SumRuns.rd2 (A3 V c) (t.val % 4 * 2048 + k.val) (t.val / 4 * 512 + p.val) := by
  obtain ⟨e0, e1, -⟩ := idx_facts3 t
  show A3 V c (((cfg3.win 0).blk t).view.emb (ix2 k p)) = _
  refine (rd2_idx3 (A3 V c) _).trans ?_
  refine congr (congrArg _ ?_) ?_
  · show win3_0.index t (0 : Fin 2) * 2048 + 1 * k.val = _
    rw [e0]; omega
  · show win3_0.index t (1 : Fin 2) * 512 + 1 * p.val = _
    rw [e1]; omega

theorem blkB3_apply (c : Dev nD) (t : Fin cfg3.N) (k : Fin 2048) (q : Fin 512) :
    blkB3 V c t (ix2 k q) = SumRuns.rd2 (B3 V c) (t.val % 4 * 2048 + k.val) q.val := by
  obtain ⟨-, -, e2, e3, -⟩ := idx_facts3 t
  show B3 V c (((cfg3.win 1).blk t).view.emb (ix2 k q)) = _
  refine (rd2_idx3 (B3 V c) _).trans ?_
  refine congr (congrArg _ ?_) ?_
  · show win3_1.index t (0 : Fin 2) * 2048 + 1 * k.val = _
    rw [e2]; omega
  · show win3_1.index t (1 : Fin 2) * 512 + 1 * q.val = _
    rw [e3]; omega

theorem blkW3_apply (c : Dev nD) (t : Fin cfg3.N) (l q : Fin 512) :
    blkW3 V c t (ix2 l q) = wArr3 V c (ix2 l q) := by
  obtain ⟨-, -, -, -, e4, e5, -⟩ := idx_facts3 t
  show wArr3 V c (((cfg3.win 2).blk t).view.emb (ix2 l q)) = _
  refine congrArg _ (funext fun a => Fin.ext ?_)
  match a with
  | ⟨0, _⟩ => show win3_2.index t (0 : Fin 2) * 512 + 1 * l.val = l.val; rw [e4]; omega
  | ⟨1, _⟩ => show win3_2.index t (1 : Fin 2) * 512 + 1 * q.val = q.val; rw [e5]; omega

theorem blkb3_apply (c : Dev nD) (t : Fin cfg3.N) (q : Fin 512) :
    blkb3 V c t (ix2 (0 : Fin 1) q) = bias3 V c (ix2 (0 : Fin 1) q) := by
  obtain ⟨-, -, -, -, -, -, e6, e7, -⟩ := idx_facts3 t
  show bias3 V c (((cfg3.win 3).blk t).view.emb (ix2 (0 : Fin 1) q)) = _
  refine congrArg _ (funext fun a => Fin.ext ?_)
  match a with
  | ⟨0, _⟩ => show win3_3.index t (0 : Fin 2) * 1 + 1 * (0 : Fin 1).val = (0 : Fin 1).val; rw [e6]; rfl
  | ⟨1, _⟩ => show win3_3.index t (1 : Fin 2) * 512 + 1 * q.val = q.val; rw [e7]; omega

/-- One block product's entry: the run of 2048 contraction positions number `s`, at the output's array row `r`. -/
def blockTerm3 (c : Dev nD) (r : ℕ) (q : Fin 512) (s : ℕ) : EReal :=
  ∑ k : Fin 2048, SumRuns.rd2 (A3 V c) (s * 2048 + k.val) r * SumRuns.rd2 (B3 V c) (s * 2048 + k.val) q.val

theorem step3 (c : Dev nD) (t : Fin cfg3.N) (p q : Fin 512) :
    (∑ k : Fin 2048, blkA3 V c t (ix2 k p) * blkB3 V c t (ix2 k q)) = blockTerm3 V c (t.val / 4 * 512 + p.val) q (t.val % 4) := by
  unfold blockTerm3
  refine Finset.sum_congr rfl fun k _ => ?_
  rw [blkA3_apply V c t k p, blkB3_apply V c t k q]

/-- After a point with inner coordinate 0 the accumulator holds the first block product. -/
theorem acc3_apply_first (c : Dev nD) (t : Fin cfg3.N) (h0 : t.val % 4 = 0) (p q : Fin 512) :
    (acc3 V c t.val t.isLt : S512x512.Idx → EReal) (ix2 p q) = ∑ s ∈ Finset.range (t.val % 4 + 1), blockTerm3 V c (t.val / 4 * 512 + p.val) q s := by
  have e := acc3_step V c t
  rw [if_pos h0] at e
  refine (congrFun e (ix2 p q)).trans ?_
  refine (pay2_apply3 (blkA3 V c t) (blkB3 V c t) (k3_pay1 (F := Ideal)) p q).trans ?_
  rw [pay1_apply3, zero_add, step3, h0, Finset.sum_range_succ, Finset.sum_range_zero, zero_add]

/-- The accumulator after point `t` holds the block products of the point's row block over the inner coordinates so far. -/
theorem acc3_apply (c : Dev nD) : ∀ (n : ℕ) (t : Fin cfg3.N), t.val = n → ∀ (p q : Fin 512),
    (acc3 V c t.val t.isLt : S512x512.Idx → EReal) (ix2 p q) = ∑ s ∈ Finset.range (t.val % 4 + 1), blockTerm3 V c (t.val / 4 * 512 + p.val) q s := by
  intro n
  induction n with
  | zero =>
    intro t ht p q
    exact acc3_apply_first V c t (by rw [ht]) p q
  | succ n ih =>
    intro t ht p q
    by_cases h0 : t.val % 4 = 0
    · exact acc3_apply_first V c t h0 p q
    · have e := acc3_step V c t
      rw [if_neg h0] at e
      have hlt : t.val - 1 < cfg3.N := Nat.lt_of_le_of_lt (Nat.sub_le _ _) t.isLt
      have iht := ih ⟨t.val - 1, hlt⟩ (by show t.val - 1 = n; omega) p q
      have hq : (t.val - 1) / 4 = t.val / 4 := by omega
      have hr : (t.val - 1) % 4 + 1 = t.val % 4 := by omega
      refine (congrFun e (ix2 p q)).trans ?_
      refine (pay2_apply3 (blkA3 V c t) (blkB3 V c t) (acc3 V c (t.val - 1) hlt) p q).trans ?_
      rw [step3]
      refine (congrArg (· + blockTerm3 V c (t.val / 4 * 512 + p.val) q (t.val % 4)) iht).trans ?_
      show (∑ s ∈ Finset.range ((t.val - 1) % 4 + 1), blockTerm3 V c ((t.val - 1) / 4 * 512 + p.val) q s) + _ = _
      rw [hq, hr, Finset.sum_range_succ]

/-- The row block's whole contraction: four runs of 2048 positions are the 8192 positions. -/
theorem contraction3 (c : Dev nD) (r : Fin 8192) (l : Fin 512) :
    ∑ s ∈ Finset.range 4, blockTerm3 V c r.val l s = ∑ k : Fin 8192, A3 V c (ix2 k r) * B3 V c (ix2 k l) := by
  unfold blockTerm3
  refine (SumRuns.sum_runs 4 2048 fun d => SumRuns.rd2 (A3 V c) d r.val * SumRuns.rd2 (B3 V c) d l.val).trans ?_
  show ∑ d : Fin 8192, SumRuns.rd2 (A3 V c) d.val r.val * SumRuns.rd2 (B3 V c) d.val l.val = _
  refine Finset.sum_congr rfl fun k _ => ?_
  rw [SumRuns.rd2_of_lt _ _ _ k.isLt r.isLt, SumRuns.rd2_of_lt _ _ _ k.isLt l.isLt]

/-- The output array, entry by entry. -/
def G3 (c : Dev nD) : S8192x512.Idx → EReal := fun i =>
  max ((∑ l : Fin 512, (∑ k : Fin 8192, A3 V c (ix2 k (i 0)) * B3 V c (ix2 k l)) * wArr3 V c (ix2 l (i 1))) + bias3 V c (ix2 (0 : Fin 1) (i 1)))
    (Ideal.ofBits .f32 0x00000000#32)

/-- What a point with inner coordinate 3 leaves in the output block, entry by entry. -/
theorem out3_apply (c : Dev nD) (t : Fin cfg3.N) (h1 : t.val % 4 = 3) (p q : Fin 512) (hr : t.val / 4 * 512 + p.val < 8192) :
    (out3 V c t : S512x512.Idx → EReal) (ix2 p q) = G3 V c (ix2 ⟨t.val / 4 * 512 + p.val, hr⟩ q) := by
  have h0 : ¬t.val % 4 = 0 := by omega
  have hlt : t.val - 1 < cfg3.N := Nat.lt_of_le_of_lt (Nat.sub_le _ _) t.isLt
  have eo : out3 V c t = k3_pay3 (acc3 V c t.val t.isLt) (blkW3 V c t) (blkb3 V c t) := by
    have e := acc3_step V c t
    rw [if_neg h0] at e
    rw [show out3 V c t = outC3 V c t h0 h1 (acc3 V c (t.val - 1) hlt) from dif_pos h1, outC3_eq, ← e]
  refine (congrFun eo (ix2 p q)).trans ?_
  refine (pay3_apply3 (acc3 V c t.val t.isLt) (blkW3 V c t) (blkb3 V c t) p q).trans ?_
  unfold G3
  simp only [ix2_0, ix2_1]
  rw [blkb3_apply V c t q]
  refine congrArg (fun u => max (u + bias3 V c (ix2 (0 : Fin 1) q)) (Ideal.ofBits .f32 0x00000000#32)) ?_
  refine Finset.sum_congr rfl fun l _ => ?_
  rw [blkW3_apply V c t l q, acc3_apply V c t.val t rfl p l, h1]
  exact congrArg (· * wArr3 V c (ix2 l q)) (contraction3 V c ⟨t.val / 4 * 512 + p.val, hr⟩ l)

/-- What a point that writes back writes is its block of the output array. -/
theorem flushed3_eq (c : Dev nD) (t : Fin cfg3.N) (hf : (cfg3.win 4).flush t = true) :
    (dat3 V c).flushed 4 t = ((cfg3.win 4).blk t).view.read (Elt Ideal) (G3 V c) := by
  have h1 : t.val % 4 = 3 := (flush3_4 t).mp hf
  have hN : t.val < 64 := lt_of_lt_of_eq t.isLt (show cfg3.N = 64 from N_3)
  obtain ⟨-, -, -, -, -, -, -, -, e8, e9⟩ := idx_facts3 t
  show (cfg3.win 4).cut (grid3.coords t) ((dat3 V c).after 4 t) = _
  rw [after3_4]
  funext j
  have hj0 : (j 0).val < 512 := (j 0).isLt
  have hj1 : (j 1).val < 512 := (j 1).isLt
  show (out3 V c t : S512x512.Idx → EReal) j = G3 V c (((cfg3.win 4).blk t).view.emb j)
  refine ((congrArg (out3 V c t : S512x512.Idx → EReal) (eq_ix2 j)).trans (out3_apply V c t h1 (j 0) (j 1) (by omega))).trans ?_
  refine congrArg (G3 V c) (funext fun a => Fin.ext ?_)
  match a with
  | ⟨0, _⟩ => show t.val / 4 * 512 + (j 0).val = win3_4.index t (0 : Fin 2) * 512 + 1 * (j 0).val; rw [e8]; omega
  | ⟨1, _⟩ => show (j 1).val = win3_4.index t (1 : Fin 2) * 512 + 1 * (j 1).val; rw [e9]; omega

/-- An index of the array is in point `t`'s block iff each coordinate is in the block's range on its axis. -/
theorem mem_blk3 (t : Fin cfg3.N) (i : S8192x512.Idx) :
    i ∈ ((cfg3.win 4).blk t).view.set ↔ ∀ a : Fin 2, win3_4.index t a * S512x512.size a ≤ (i a).val ∧ (i a).val < win3_4.index t a * S512x512.size a + S512x512.size a := by
  show i ∈ ((View.whole main_v107).slice (win3_4.rect t)).set ↔ _
  rw [View.set_slice_whole, Rect.mem_set_unit]
  exact Iff.rfl

/-- The output array after the region: every row is covered by the last point of its row block. -/
theorem final3 (c : Dev nD) : (dat3 V c).arrAt 4 cfg3.N = G3 V c :=
  (dat3 V c).arrAt_eq_of_cover 4 (G3 V c) (flushed3_eq V c) fun i => by
    have hi0 : (i 0).val < 8192 := (i 0).isLt
    have hi1 : (i 1).val < 512 := (i 1).isLt
    have hN : cfg3.N = 64 := N_3
    have hlt : 4 * ((i 0).val / 512) + 3 < cfg3.N := by rw [hN]; omega
    obtain ⟨-, -, -, -, -, -, -, -, e8, e9⟩ := idx_facts3 ⟨4 * ((i 0).val / 512) + 3, hlt⟩
    have e8' : win3_4.index ⟨4 * ((i 0).val / 512) + 3, hlt⟩ (0 : Fin 2) = (4 * ((i 0).val / 512) + 3) / 4 := e8
    refine ⟨⟨4 * ((i 0).val / 512) + 3, hlt⟩, (flush3_4 _).mpr (by show (4 * ((i 0).val / 512) + 3) % 4 = 3; omega), ?_⟩
    rw [mem_blk3]
    intro a
    match a with
    | ⟨0, _⟩ => show win3_4.index ⟨4 * ((i 0).val / 512) + 3, hlt⟩ (0 : Fin 2) * 512 ≤ (i 0).val ∧ (i 0).val < win3_4.index ⟨4 * ((i 0).val / 512) + 3, hlt⟩ (0 : Fin 2) * 512 + 512; rw [e8']; omega
    | ⟨1, _⟩ => show win3_4.index ⟨4 * ((i 0).val / 512) + 3, hlt⟩ (1 : Fin 2) * 512 ≤ (i 1).val ∧ (i 1).val < win3_4.index ⟨4 * ((i 0).val / 512) + 3, hlt⟩ (1 : Fin 2) * 512 + 512; rw [e9]; omega

/-- THE VALUE of the region's output array, entry by entry: the contraction of the two operands over the 8192 positions, the
    weight product, the bias row, clamped below at zero. -/
theorem value3 (c : Dev nD) (r : Fin 8192) (j : Fin 512) :
    ((dat3 (F := Ideal) V c).arrAt 4 cfg3.N : S8192x512.Idx → EReal) (ix2 r j)
      = max ((∑ l : Fin 512, (∑ k : Fin 8192, A3 V c (ix2 k r) * B3 V c (ix2 k l)) * wArr3 V c (ix2 l j)) + bias3 V c (ix2 (0 : Fin 1) j)) (Ideal.ofBits .f32 0x00000000#32) := by
  rw [final3]; rfl

end Value3

end Cert.KernelIdeal.Hand

end
-- ==== Proof.KI.Join3.lean ====
import proofs.«141825_j60318520705103_1_alg».proof.Proof.KI.Value3
import proofs.«141825_j60318520705103_1_alg».proof.Proof.Ref.Read
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

section Join3
variable (V : (c : Dev nD) → (b : Ref sig .tc) → Buf (Elt Ideal) ((c : Thread nD τ).loc b))

/-- The region's output array is the reference's stage function of the operand arrays as the region finds them, the bias
    row read as the vector it was reshaped from: both sides, entry by entry, are the contraction over the 8192 positions, the
    weight product, the bias, clamped below at zero. -/
theorem join3 (c : Dev nD) (b : S512.Idx → EReal) (hb : ∀ j : Fin 512, (V c main_v106 : S1x512.Idx → EReal) (ix2 0 j) = b (ix1 j)) :
    (dat3 (F := Ideal) V c).arrAt 4 cfg3.N = Cert.ReferenceIdeal.Hand.affinityT (F := Ideal) (V c main_arg10) (V c main_v52) (V c main_arg17) b := by
  funext i
  have hi := eq_ix2 (n0 := 8192) (n1 := 512) i
  refine (congrArg ((dat3 (F := Ideal) V c).arrAt 4 cfg3.N : S8192x512.Idx → EReal) hi).trans ?_
  refine Eq.trans ?_ (congrArg (Cert.ReferenceIdeal.Hand.affinityT (F := Ideal) (A3 V c) (B3 V c) (wArr3 V c) b : S8192x512.Idx → EReal) hi).symm
  refine (value3 V c (i 0) (i 1)).trans ?_
  refine Eq.trans ?_ (Cert.ReferenceIdeal.Hand.affinityT_apply (A3 V c) (B3 V c) (wArr3 V c) b (i 0) (i 1)).symm
  rw [show bias3 V c (ix2 (0 : Fin 1) (i 1)) = b (ix1 (i 1)) from hb (i 1)]

end Join3

end Cert.KernelIdeal.Hand

end
-- ==== Proof.KI.Value4.lean ====
/- Region 4 at the ideal values: the output array after the region, entry by entry, as a function of the
   region-entry contents — the row of x times the column of w, summed over the one contracted axis, plus the bias
   row's entry. The payload read at an index; each block the pipeline writes back as a block of that function; the
   output's blocks cover its array. -/
import proofs.«141825_j60318520705103_1_alg».proof.Proof.KI.Region4
import proofs.«141825_j60318520705103_1_alg».proof.Proof.LibDotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem hz2_4 : (![0, 0] : Fin 2 → Nat) = fun _ => 0 := funext fun a => by fin_cases a <;> rfl

/-! ## The payload at an entry -/

/-- The body's payload at an entry of the block: the row of the x block times the column of the w block, summed over
    the contracted axis, plus the bias row's entry. Rounding to the narrower float type is the identity at the ideal
    values, and the accumulator is the zero word. -/
theorem pay4_apply (x0 : Vec Ideal S256x3372 .f32) (x1 : Vec Ideal S3372x1024 .f32) (x2 : Vec Ideal S1x1024 .f32)
    (r : Fin 256) (j : Fin 1024) :
    (k4_pay1 x0 x1 x2 : S256x1024.Idx → EReal) (ix2 r j)
      = (∑ k : Fin 3372, (x0 : S256x3372.Idx → EReal) (ix2 r k) * (x1 : S3372x1024.Idx → EReal) (ix2 k j))
        + (x2 : S1x1024.Idx → EReal) (ix2 0 j) := by
  unfold k4_pay1
  rw [addf_apply]
  show FloatOps.matmul dot_S256x3372_S3372x1024_S256x1024_1_0_0_1_n_n none (truncf .bf16 (shapeCast S256x3372 x0 shapeCasts_S256x3372_S256x3372) bitsLt_bf16_f32) (truncf .bf16 x1 bitsLt_bf16_f32)
      (constant (F := Ideal) ⟨2, ![256, 1024]⟩ .f32 0x00000000#32) (ix2 r j) + _ = _
  rw [show dot_S256x3372_S3372x1024_S256x1024_1_0_0_1_n_n = DotDims.plain 256 3372 1024 from rfl]
  rw [DotRead.matmul_plain_zero_apply]
  rw [shapeCast_self, broadcastTo_1b_ab_apply]
  rw [shapeCast_self]
  rfl

/-! ## The array the region leaves -/

/-- What the output array ends holding: x · w plus the bias row, entry by entry. -/
abbrev G4 (a0 : S4096x3372.Idx → EReal) (a1 : S3372x1024.Idx → EReal) (a2 : S1x1024.Idx → EReal) : S4096x1024.Idx → EReal :=
  fun i => (∑ k : Fin 3372, a0 (ix2 (i 0) k) * a1 (ix2 k (i 1))) + a2 (ix2 0 (i 1))

variable (V : (c : Dev nD) → (b : Ref sig .tc) → Buf (Elt Ideal) ((c : Thread nD τ).loc b))

/-- The printed index maps, decided over the grid: the x window and the output window are at row block `t`, column
    block 0; the w window and the bias window stay at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Every row block is some point's. -/
theorem idx_onto4 : ∀ q : Fin 16, ∃ t : Fin cfg4.N, t.val = q.val :=
  (by decide +kernel : ∀ q : Fin 16, ∃ t : Fin grid4.N, t.val = q.val)

/-- What point `t` writes back is block `t` of `G4` of the arrays as the region finds them. -/
theorem flushed4_eq (c : Dev nD) (t : Fin cfg4.N) :
    (dat4 (F := Ideal) V c).flushed 3 t
      = ((cfg4.win 3).blk t).view.read (Elt Ideal) (G4 (V c main_v138) (V c main_arg19) (V c main_v139)) := by
  show (cfg4.win 3).cut (grid4.coords t) ((dat4 V c).after 3 t) = _
  rw [after4_3]
  unfold out4_3
  rw [View.canon_unit_zero hz2_4]
  simp only [View.ld_unit_zero (S := S256x3372) hz2_4, View.ld_unit_zero (S := S3372x1024) hz2_4, View.ld_unit_zero (S := S1x1024) hz2_4]
  obtain ⟨e00, e01, e10, e11, e20, e21, e30, e31⟩ := idx_facts4 t
  funext y
  obtain ⟨r, j, rfl⟩ : ∃ (r : Fin 256) (j : Fin 1024), y = ix2 r j := ⟨y 0, y 1, eq_ix2 y⟩
  show (k4_pay1 (iblk4 V c 0 t) (iblk4 V c 1 t) (iblk4 V c 2 t) : S256x1024.Idx → EReal) (ix2 r j)
    = G4 (V c main_v138) (V c main_arg19) (V c main_v139) (((cfg4.win 3).blk t).view.emb (ix2 r j))
  rw [pay4_apply]
  have h0 : ∀ k : Fin 3372, (iblk4 V c 0 t : S256x3372.Idx → EReal) (ix2 r k)
      = (V c main_v138 : S4096x3372.Idx → EReal) (ix2 ((((cfg4.win 3).blk t).view.emb (ix2 r j)) 0) k) := fun k => by
    show (V c main_v138 : S4096x3372.Idx → EReal) (((cfg4.win 0).blk t).view.emb (ix2 r k)) = _
    congr 1; funext a; apply Fin.ext
    match a with
    | ⟨0, _⟩ => show win4_0.index t (0 : Fin 2) * 256 + 1 * r.val = win4_3.index t (0 : Fin 2) * 256 + 1 * r.val; omega
    | ⟨1, _⟩ => show win4_0.index t (1 : Fin 2) * 3372 + 1 * k.val = k.val; omega
  have h1 : ∀ k : Fin 3372, (iblk4 V c 1 t : S3372x1024.Idx → EReal) (ix2 k j)
      = (V c main_arg19 : S3372x1024.Idx → EReal) (ix2 k ((((cfg4.win 3).blk t).view.emb (ix2 r j)) 1)) := fun k => by
    show (V c main_arg19 : S3372x1024.Idx → EReal) (((cfg4.win 1).blk t).view.emb (ix2 k j)) = _
    congr 1; funext a; apply Fin.ext
    match a with
    | ⟨0, _⟩ => show win4_1.index t (0 : Fin 2) * 3372 + 1 * k.val = k.val; omega
    | ⟨1, _⟩ => show win4_1.index t (1 : Fin 2) * 1024 + 1 * j.val = win4_3.index t (1 : Fin 2) * 1024 + 1 * j.val; omega
  have h2 : (iblk4 V c 2 t : S1x1024.Idx → EReal) (ix2 0 j)
      = (V c main_v139 : S1x1024.Idx → EReal) (ix2 0 ((((cfg4.win 3).blk t).view.emb (ix2 r j)) 1)) := by
    show (V c main_v139 : S1x1024.Idx → EReal) (((cfg4.win 2).blk t).view.emb (ix2 0 j)) = _
    congr 1; funext a; apply Fin.ext
    match a with
    | ⟨0, _⟩ => show win4_2.index t (0 : Fin 2) * 1 + 1 * 0 = 0; omega
    | ⟨1, _⟩ => show win4_2.index t (1 : Fin 2) * 1024 + 1 * j.val = win4_3.index t (1 : Fin 2) * 1024 + 1 * j.val; omega
  simp only [h0, h1, h2]

/-- An index of the array is in point `t`'s block iff each coordinate is in the block's range on its axis. -/
theorem mem_blk4 (t : Fin cfg4.N) (i : S4096x1024.Idx) :
    i ∈ ((cfg4.win 3).blk t).view.set ↔ ∀ a : Fin 2, win4_3.index t a * S256x1024.size a ≤ (i a).val ∧ (i a).val < win4_3.index t a * S256x1024.size a + S256x1024.size a := by
  show i ∈ ((View.whole main_v140).slice (win4_3.rect t)).set ↔ _
  rw [View.set_slice_whole, Rect.mem_set_unit]
  exact Iff.rfl

/-- The output's blocks cover its array: row `r` is in the block of point `r / 256`. -/
theorem cover4 (i : S4096x1024.Idx) : ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ := idx_onto4 ⟨(i 0).val / 256, by omega⟩
  have ht' : t.val = (i 0).val / 256 := ht
  obtain ⟨e00, e01, e10, e11, e20, e21, e30, e31⟩ := idx_facts4 t
  refine ⟨t, flush4_3 t, ?_⟩
  rw [mem_blk4]
  intro a
  match a with
  | ⟨0, _⟩ => show win4_3.index t (0 : Fin 2) * 256 ≤ (i 0).val ∧ (i 0).val < win4_3.index t (0 : Fin 2) * 256 + 256; omega
  | ⟨1, _⟩ => show win4_3.index t (1 : Fin 2) * 1024 ≤ (i 1).val ∧ (i 1).val < win4_3.index t (1 : Fin 2) * 1024 + 1024; omega

/-- The output array after the region is `G4` of the region-entry contents. -/
theorem final4 (c : Dev nD) :
    (dat4 (F := Ideal) V c).arrAt 3 cfg4.N = G4 (V c main_v138) (V c main_arg19) (V c main_v139) :=
  (dat4 (F := Ideal) V c).arrAt_eq_of_cover 3 (G4 (V c main_v138) (V c main_arg19) (V c main_v139))
    (fun t _ => flushed4_eq V c t) cover4

/-- The three input arrays as the region finds them, at their literal index types. -/
abbrev xArr4 (c : Dev nD) : S4096x3372.Idx → EReal := V c main_v138
abbrev wArr4 (c : Dev nD) : S3372x1024.Idx → EReal := V c main_arg19
abbrev bArr4 (c : Dev nD) : S1x1024.Idx → EReal := V c main_v139

/-- The output array after the region, entry by entry. -/
theorem value4 (c : Dev nD) (r : Fin 4096) (j : Fin 1024) :
    ((dat4 (F := Ideal) V c).arrAt 3 cfg4.N : S4096x1024.Idx → EReal) (ix2 r j)
      = (∑ k : Fin 3372, xArr4 V c (ix2 r k) * wArr4 V c (ix2 k j)) + bArr4 V c (ix2 0 j) := by
  rw [final4]

end Cert.KernelIdeal.Hand
-- ==== Proof.KI.Join4.lean ====
/- Region 4's output array joined to the reference's own term for the same stage: entry by entry both are the row of
   x times the column of w summed over the contracted axis, plus the bias entry. -/
import proofs.«141825_j60318520705103_1_alg».proof.Proof.KI.Value4
import proofs.«141825_j60318520705103_1_alg».proof.Proof.Ref.Defs
import proofs.«141825_j60318520705103_1_alg».proof.Proof.Ref.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- With the bias row holding the bias vector `b`, the region's output array is the reference's `x · w + b`. -/
theorem join4 (c : Dev nD) (b : S1024.Idx → EReal) (hb : ∀ j : Fin 1024, bArr4 V c (ix2 0 j) = b (ix1 j)) :
    (dat4 (F := Ideal) V c).arrAt 3 cfg4.N
      = Cert.ReferenceIdeal.Hand.dense1 (F := Ideal) (V c main_v138) (V c main_arg19) b := by
  funext i
  obtain ⟨r, j, rfl⟩ : ∃ (r : Fin 4096) (j : Fin 1024), i = ix2 r j := ⟨i 0, i 1, eq_ix2 i⟩
  rw [value4, hb]
  exact (Cert.ReferenceIdeal.Hand.dense1_apply (xArr4 V c) (wArr4 V c) b r j).symm

end Cert.KernelIdeal.Hand
-- ==== Proof.KI.Value5.lean ====
/- Region 5 at the ideal values: the output array after the region, entry by entry, as a function of the
   region-entry contents — the row of x times the column of w, summed over the one contracted axis, plus the bias
   row's entry. The payload read at an index; each block the pipeline writes back as a block of that function; the
   output's blocks cover its array. -/
import proofs.«141825_j60318520705103_1_alg».proof.Proof.KI.Region5
import proofs.«141825_j60318520705103_1_alg».proof.Proof.LibDotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem hz2_5 : (![0, 0] : Fin 2 → Nat) = fun _ => 0 := funext fun a => by fin_cases a <;> rfl

/-! ## The payload at an entry -/

/-- The body's payload at an entry of the block: the row of the x block times the column of the w block, summed over
    the contracted axis, plus the bias row's entry. Rounding to the narrower float type is the identity at the ideal
    values, and the accumulator is the zero word. -/
theorem pay5_apply (x0 : Vec Ideal S512x1024 .f32) (x1 : Vec Ideal S1024x256 .f32) (x2 : Vec Ideal S1x256 .f32)
    (r : Fin 512) (j : Fin 256) :
    (k5_pay1 x0 x1 x2 : S512x256.Idx → EReal) (ix2 r j)
      = (∑ k : Fin 1024, (x0 : S512x1024.Idx → EReal) (ix2 r k) * (x1 : S1024x256.Idx → EReal) (ix2 k j))
        + (x2 : S1x256.Idx → EReal) (ix2 0 j) := by
  unfold k5_pay1
  rw [addf_apply]
  show FloatOps.matmul dot_S512x1024_S1024x256_S512x256_1_0_0_1_n_n none (truncf .bf16 (shapeCast S512x1024 x0 shapeCasts_S512x1024_S512x1024) bitsLt_bf16_f32) (truncf .bf16 x1 bitsLt_bf16_f32)
      (constant (F := Ideal) ⟨2, ![512, 256]⟩ .f32 0x00000000#32) (ix2 r j) + _ = _
  rw [show dot_S512x1024_S1024x256_S512x256_1_0_0_1_n_n = DotDims.plain 512 1024 256 from rfl]
  rw [DotRead.matmul_plain_zero_apply]
  rw [shapeCast_self, broadcastTo_1b_ab_apply]
  rw [shapeCast_self]
  rfl

/-! ## The array the region leaves -/

/-- What the output array ends holding: x · w plus the bias row, entry by entry. -/
abbrev G5 (a0 : S4096x1024.Idx → EReal) (a1 : S1024x256.Idx → EReal) (a2 : S1x256.Idx → EReal) : S4096x256.Idx → EReal :=
  fun i => (∑ k : Fin 1024, a0 (ix2 (i 0) k) * a1 (ix2 k (i 1))) + a2 (ix2 0 (i 1))

variable (V : (c : Dev nD) → (b : Ref sig .tc) → Buf (Elt Ideal) ((c : Thread nD τ).loc b))

/-- The printed index maps, decided over the grid: the x window and the output window are at row block `t`, column
    block 0; the w window and the bias window stay at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Every row block is some point's. -/
theorem idx_onto5 : ∀ q : Fin 8, ∃ t : Fin cfg5.N, t.val = q.val :=
  (by decide +kernel : ∀ q : Fin 8, ∃ t : Fin grid5.N, t.val = q.val)

/-- What point `t` writes back is block `t` of `G5` of the arrays as the region finds them. -/
theorem flushed5_eq (c : Dev nD) (t : Fin cfg5.N) :
    (dat5 (F := Ideal) V c).flushed 3 t
      = ((cfg5.win 3).blk t).view.read (Elt Ideal) (G5 (V c main_v160) (V c main_arg23) (V c main_v161)) := by
  show (cfg5.win 3).cut (grid5.coords t) ((dat5 V c).after 3 t) = _
  rw [after5_3]
  unfold out5_3
  rw [View.canon_unit_zero hz2_5]
  simp only [View.ld_unit_zero (S := S512x1024) hz2_5, View.ld_unit_zero (S := S1024x256) hz2_5, View.ld_unit_zero (S := S1x256) hz2_5]
  obtain ⟨e00, e01, e10, e11, e20, e21, e30, e31⟩ := idx_facts5 t
  funext y
  obtain ⟨r, j, rfl⟩ : ∃ (r : Fin 512) (j : Fin 256), y = ix2 r j := ⟨y 0, y 1, eq_ix2 y⟩
  show (k5_pay1 (iblk5 V c 0 t) (iblk5 V c 1 t) (iblk5 V c 2 t) : S512x256.Idx → EReal) (ix2 r j)
    = G5 (V c main_v160) (V c main_arg23) (V c main_v161) (((cfg5.win 3).blk t).view.emb (ix2 r j))
  rw [pay5_apply]
  have h0 : ∀ k : Fin 1024, (iblk5 V c 0 t : S512x1024.Idx → EReal) (ix2 r k)
      = (V c main_v160 : S4096x1024.Idx → EReal) (ix2 ((((cfg5.win 3).blk t).view.emb (ix2 r j)) 0) k) := fun k => by
    show (V c main_v160 : S4096x1024.Idx → EReal) (((cfg5.win 0).blk t).view.emb (ix2 r k)) = _
    congr 1; funext a; apply Fin.ext
    match a with
    | ⟨0, _⟩ => show win5_0.index t (0 : Fin 2) * 512 + 1 * r.val = win5_3.index t (0 : Fin 2) * 512 + 1 * r.val; omega
    | ⟨1, _⟩ => show win5_0.index t (1 : Fin 2) * 1024 + 1 * k.val = k.val; omega
  have h1 : ∀ k : Fin 1024, (iblk5 V c 1 t : S1024x256.Idx → EReal) (ix2 k j)
      = (V c main_arg23 : S1024x256.Idx → EReal) (ix2 k ((((cfg5.win 3).blk t).view.emb (ix2 r j)) 1)) := fun k => by
    show (V c main_arg23 : S1024x256.Idx → EReal) (((cfg5.win 1).blk t).view.emb (ix2 k j)) = _
    congr 1; funext a; apply Fin.ext
    match a with
    | ⟨0, _⟩ => show win5_1.index t (0 : Fin 2) * 1024 + 1 * k.val = k.val; omega
    | ⟨1, _⟩ => show win5_1.index t (1 : Fin 2) * 256 + 1 * j.val = win5_3.index t (1 : Fin 2) * 256 + 1 * j.val; omega
  have h2 : (iblk5 V c 2 t : S1x256.Idx → EReal) (ix2 0 j)
      = (V c main_v161 : S1x256.Idx → EReal) (ix2 0 ((((cfg5.win 3).blk t).view.emb (ix2 r j)) 1)) := by
    show (V c main_v161 : S1x256.Idx → EReal) (((cfg5.win 2).blk t).view.emb (ix2 0 j)) = _
    congr 1; funext a; apply Fin.ext
    match a with
    | ⟨0, _⟩ => show win5_2.index t (0 : Fin 2) * 1 + 1 * 0 = 0; omega
    | ⟨1, _⟩ => show win5_2.index t (1 : Fin 2) * 256 + 1 * j.val = win5_3.index t (1 : Fin 2) * 256 + 1 * j.val; omega
  simp only [h0, h1, h2]

/-- An index of the array is in point `t`'s block iff each coordinate is in the block's range on its axis. -/
theorem mem_blk5 (t : Fin cfg5.N) (i : S4096x256.Idx) :
    i ∈ ((cfg5.win 3).blk t).view.set ↔ ∀ a : Fin 2, win5_3.index t a * S512x256.size a ≤ (i a).val ∧ (i a).val < win5_3.index t a * S512x256.size a + S512x256.size a := by
  show i ∈ ((View.whole main_v162).slice (win5_3.rect t)).set ↔ _
  rw [View.set_slice_whole, Rect.mem_set_unit]
  exact Iff.rfl

/-- The output's blocks cover its array: row `r` is in the block of point `r / 512`. -/
theorem cover5 (i : S4096x256.Idx) : ∃ t : Fin cfg5.N, (cfg5.win 3).flush t = true ∧ i ∈ ((cfg5.win 3).blk t).view.set := by
  have hi0 : (i 0).val < 4096 := (i 0).isLt
  have hi1 : (i 1).val < 256 := (i 1).isLt
  obtain ⟨t, ht⟩ := idx_onto5 ⟨(i 0).val / 512, by omega⟩
  have ht' : t.val = (i 0).val / 512 := ht
  obtain ⟨e00, e01, e10, e11, e20, e21, e30, e31⟩ := idx_facts5 t
  refine ⟨t, flush5_3 t, ?_⟩
  rw [mem_blk5]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 256 ≤ (i 1).val ∧ (i 1).val < win5_3.index t (1 : Fin 2) * 256 + 256; omega

/-- The output array after the region is `G5` of the region-entry contents. -/
theorem final5 (c : Dev nD) :
    (dat5 (F := Ideal) V c).arrAt 3 cfg5.N = G5 (V c main_v160) (V c main_arg23) (V c main_v161) :=
  (dat5 (F := Ideal) V c).arrAt_eq_of_cover 3 (G5 (V c main_v160) (V c main_arg23) (V c main_v161))
    (fun t _ => flushed5_eq V c t) cover5

/-- The three input arrays as the region finds them, at their literal index types. -/
abbrev xArr5 (c : Dev nD) : S4096x1024.Idx → EReal := V c main_v160
abbrev wArr5 (c : Dev nD) : S1024x256.Idx → EReal := V c main_arg23
abbrev bArr5 (c : Dev nD) : S1x256.Idx → EReal := V c main_v161

/-- The output array after the region, entry by entry. -/
theorem value5 (c : Dev nD) (r : Fin 4096) (j : Fin 256) :
    ((dat5 (F := Ideal) V c).arrAt 3 cfg5.N : S4096x256.Idx → EReal) (ix2 r j)
      = (∑ k : Fin 1024, xArr5 V c (ix2 r k) * wArr5 V c (ix2 k j)) + bArr5 V c (ix2 0 j) := by
  rw [final5]

end Cert.KernelIdeal.Hand
-- ==== Proof.KI.Join5.lean ====
/- Region 5's output array joined to the reference's own term for the same stage: entry by entry both are the row of
   x times the column of w summed over the contracted axis, plus the bias entry. -/
import proofs.«141825_j60318520705103_1_alg».proof.Proof.KI.Value5
import proofs.«141825_j60318520705103_1_alg».proof.Proof.Ref.Defs
import proofs.«141825_j60318520705103_1_alg».proof.Proof.Ref.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- With the bias row holding the bias vector `b`, the region's output array is the reference's `x · w + b`. -/
theorem join5 (c : Dev nD) (b : S256.Idx → EReal) (hb : ∀ j : Fin 256, bArr5 V c (ix2 0 j) = b (ix1 j)) :
    (dat5 (F := Ideal) V c).arrAt 3 cfg5.N
      = Cert.ReferenceIdeal.Hand.dense2 (F := Ideal) (V c main_v160) (V c main_arg23) b := by
  funext i
  obtain ⟨r, j, rfl⟩ : ∃ (r : Fin 4096) (j : Fin 256), i = ix2 r j := ⟨i 0, i 1, eq_ix2 i⟩
  rw [value5, hb]
  exact (Cert.ReferenceIdeal.Hand.dense2_apply (xArr5 V c) (wArr5 V c) b r j).symm

end Cert.KernelIdeal.Hand
-- ==== Proof.Ref.Base.lean ====
import proofs.«141825_j60318520705103_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

omit [FloatOps F] in
/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

omit [FloatOps F] in
/-- An operation whose one written buffer is a listed reference writes inside the list. -/
theorem writes_sub {op : HloOp τ sig (Elt F)} {y : Ref sig .tc} {L : List (Ref sig .tc)}
    (h : op.writes = {Proc.devRef .tc y}) (hy : y ∈ L) :
    op.writes ⊆ (L.map (Proc.devRef (τ := τ) .tc)).toFinset := by
  rw [h, Finset.singleton_subset_iff, List.mem_toFinset]; exact List.mem_map_of_mem hy

end Cert.ReferenceIdeal.Hand

end
-- ==== Proof.Ref.Part0.lean ====
import proofs.«141825_j60318520705103_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 0 … 41 of @main's straight line (calls replaced by their callees' operations over the call's buffer record). -/
def a1 : List (HloOp τ sig (Elt F)) :=
  [
    StableHlo.nullary main_v0 (iotaInDim S8192 32 0),
    StableHlo.unary main_arg5 main_v1 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v1 main_v2 rfl shapeCasts_S1x262144_S262144,
    StableHlo.binary main_v2 main_v0 main_v3 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.unary main_arg5 main_v4 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v4 main_v5 rfl shapeCasts_S1x262144_S262144,
    StableHlo.binary main_v5 main_v0 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.nullary main_cst (constant S_ .f32 0x3F800000#32),
    StableHlo.unary main_cst main_v7 (broadcastInDim S8192 ![] bcast_S_S8192 : (⟨S_, .f32⟩ : BufTy).Contents (Elt F) → (⟨S8192, .f32⟩ : BufTy).Contents (Elt F)),
    StableHlo.binary main_arg6 main_v7 main_v8 ((fun a b => concatenate S270336 0 [⟨S262144, a⟩, ⟨S8192, b⟩] concatenates_S262144_S8192_S270336_d0) : (⟨S262144, .f32⟩ : BufTy).Contents (Elt F) → (⟨S8192, .f32⟩ : BufTy).Contents (Elt F) → (⟨S270336, .f32⟩ : BufTy).Contents (Elt F)),
    StableHlo.nullary main_cst_0 (constant S_ .f32 0x00000000#32),
    StableHlo.unary main_cst_0 main_v9 (broadcastInDim S8192 ![] bcast_S_S8192 : (⟨S_, .f32⟩ : BufTy).Contents (Elt F) → (⟨S8192, .f32⟩ : BufTy).Contents (Elt F)),
    StableHlo.unary main_v6 main_v10 (broadcastInDim S270336x1 ![0] bcast_S270336_S270336x1_0 : (⟨S270336, .i32⟩ : BufTy).Contents (Elt F) → (⟨S270336x1, .i32⟩ : BufTy).Contents (Elt F)),
    StableHlo.ternary main_v9 main_v10 main_v8 main_v11 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    StableHlo.nullary main_cst_1 (constant S_ .f32 0x00000000#32),
    StableHlo.unary main_cst_1 main_v12 (broadcastInDim S8192 ![] bcast_S_S8192 : (⟨S_, .f32⟩ : BufTy).Contents (Elt F) → (⟨S8192, .f32⟩ : BufTy).Contents (Elt F)),
    StableHlo.binary main_v11 main_v12 main_v13 (cmpf .ogt : (⟨S8192, .f32⟩ : BufTy).Contents (Elt F) → (⟨S8192, .f32⟩ : BufTy).Contents (Elt F) → (⟨S8192, .i1⟩ : BufTy).Contents (Elt F)),
    StableHlo.unary main_v11 main_v14 (Host.rsqrt : (⟨S8192, .f32⟩ : BufTy).Contents (Elt F) → (⟨S8192, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S8192 ![] bcast_S_S8192),
    StableHlo.TRef.ternary (.of main_v13) (.of main_v14) main_call0.v1 main_call0.v2 select,
    StableHlo.nullary main_c (constantI S_ 32 0#32),
    StableHlo.unary main_c main_v16 (broadcastInDim S270336 ![] bcast_S_S270336 : (⟨S_, .i32⟩ : BufTy).Contents (Elt F) → (⟨S270336, .i32⟩ : BufTy).Contents (Elt F)),
    StableHlo.binary main_v3 main_v16 main_v17 (cmpi .slt : (⟨S270336, .i32⟩ : BufTy).Contents (Elt F) → (⟨S270336, .i32⟩ : BufTy).Contents (Elt F) → (⟨S270336, .i1⟩ : BufTy).Contents (Elt F)),
    StableHlo.nullary main_c_3 (constantI S_ 32 8192#32),
    StableHlo.unary main_c_3 main_v18 (broadcastInDim S270336 ![] bcast_S_S270336 : (⟨S_, .i32⟩ : BufTy).Contents (Elt F) → (⟨S270336, .i32⟩ : BufTy).Contents (Elt F)),
    StableHlo.binary main_v3 main_v18 main_v19 (addi : (⟨S270336, .i32⟩ : BufTy).Contents (Elt F) → (⟨S270336, .i32⟩ : BufTy).Contents (Elt F) → (⟨S270336, .i32⟩ : BufTy).Contents (Elt F)),
    StableHlo.ternary main_v17 main_v19 main_v3 main_v20 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v20 main_v21 (broadcastInDim S270336x1 ![0] bcast_S270336_S270336x1_0 : (⟨S270336, .i32⟩ : BufTy).Contents (Elt F) → (⟨S270336x1, .i32⟩ : BufTy).Contents (Elt F)),
    StableHlo.binary main_v15 main_v21 main_v22 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v22 main_v8 main_v23 (mulf : (⟨S270336, .f32⟩ : BufTy).Contents (Elt F) → (⟨S270336, .f32⟩ : BufTy).Contents (Elt F) → (⟨S270336, .f32⟩ : BufTy).Contents (Elt F)),
    StableHlo.nullary main_c_4 (constantI S_ 32 0#32),
    StableHlo.unary main_c_4 main_v24 (broadcastInDim S270336 ![] bcast_S_S270336 : (⟨S_, .i32⟩ : BufTy).Contents (Elt F) → (⟨S270336, .i32⟩ : BufTy).Contents (Elt F)),
    StableHlo.binary main_v6 main_v24 main_v25 (cmpi .slt : (⟨S270336, .i32⟩ : BufTy).Contents (Elt F) → (⟨S270336, .i32⟩ : BufTy).Contents (Elt F) → (⟨S270336, .i1⟩ : BufTy).Contents (Elt F)),
    StableHlo.nullary main_c_5 (constantI S_ 32 8192#32),
    StableHlo.unary main_c_5 main_v26 (broadcastInDim S270336 ![] bcast_S_S270336 : (⟨S_, .i32⟩ : BufTy).Contents (Elt F) → (⟨S270336, .i32⟩ : BufTy).Contents (Elt F)),
    StableHlo.binary main_v6 main_v26 main_v27 (addi : (⟨S270336, .i32⟩ : BufTy).Contents (Elt F) → (⟨S270336, .i32⟩ : BufTy).Contents (Elt F) → (⟨S270336, .i32⟩ : BufTy).Contents (Elt F)),
    StableHlo.ternary main_v25 main_v27 main_v6 main_v28 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v28 main_v29 (broadcastInDim S270336x1 ![0] bcast_S270336_S270336x1_0 : (⟨S270336, .i32⟩ : BufTy).Contents (Elt F) → (⟨S270336x1, .i32⟩ : BufTy).Contents (Elt F)),
    StableHlo.binary main_v15 main_v29 main_v30 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v23 main_v30 main_v31 (mulf : (⟨S270336, .f32⟩ : BufTy).Contents (Elt F) → (⟨S270336, .f32⟩ : BufTy).Contents (Elt F) → (⟨S270336, .f32⟩ : BufTy).Contents (Elt F)) ]

theorem a1_sub : (a1 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem a1_fresh : (a1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references these operations write. -/
abbrev a1_W : List (Ref sig .tc) := [main_v0, main_v1, main_v2, main_v3, main_v4, main_v5, main_v6, main_cst, main_v7, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_v23, main_c_4, main_v24, main_v25, main_c_5, main_v26, main_v27, main_v28, main_v29, main_v30, main_v31]

theorem a1_writes : (a1 : List (HloOp τ sig (Elt F))).Forall fun op => op.writes ⊆ (a1_W.map (Proc.devRef (τ := τ) .tc)).toFinset :=
  ⟨writes_sub (nullary_writes ..) (by decide),
    writes_sub (unary_writes ..) (by decide),
    writes_sub (reshape_writes ..) (by decide),
    writes_sub (binary_writes ..) (by decide),
    writes_sub (unary_writes ..) (by decide),
    writes_sub (reshape_writes ..) (by decide),
    writes_sub (binary_writes ..) (by decide),
    writes_sub (nullary_writes ..) (by decide),
    writes_sub (unary_writes ..) (by decide),
    writes_sub (binary_writes ..) (by decide),
    writes_sub (nullary_writes ..) (by decide),
    writes_sub (unary_writes ..) (by decide),
    writes_sub (unary_writes ..) (by decide),
    writes_sub (ternary_writes ..) (by decide),
    writes_sub (nullary_writes ..) (by decide),
    writes_sub (unary_writes ..) (by decide),
    writes_sub (binary_writes ..) (by decide),
    writes_sub (unary_writes ..) (by decide),
    writes_sub (nullary_writes ..) (by decide),
    writes_sub (unary_writes ..) (by decide),
    writes_sub (unary_writes ..) (by decide),
    writes_sub (ternary_writes ..) (by decide),
    writes_sub (nullary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (ternary_writes ..) (by decide),
    writes_sub (unary_writes ..) (by decide),
    writes_sub (binary_writes ..) (by decide),
    writes_sub (binary_writes ..) (by decide),
    writes_sub (nullary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (ternary_writes ..) (by decide),
    writes_sub (unary_writes ..) (by decide),
    writes_sub (binary_writes ..) (by decide),
    writes_sub (binary_writes ..) (by decide)⟩

/-- A reference these operations do not write keeps its contents across them. -/
theorem a1_frame (Y : Valuation τ sig (Elt F)) (r : Ref sig .tc) (h : r ∉ a1_W) :
    after a1 Y (no_index (Proc.devRef .tc r)) = Y (Proc.devRef .tc r) :=
  after_of_writes_sub a1 Y a1_writes h

/-- Operations 42 … 42 of @main's straight line (calls replaced by their callees' operations over the call's buffer record). -/
def a2 : List (HloOp τ sig (Elt F)) :=
  [
    StableHlo.binary main_arg4 main_arg11 main_v32 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)) ]

theorem a2_sub : (a2 : List (HloOp τ sig (Elt F))).Forall fun op => op.bufs ⊆ tcRefs τ sig :=
  binary_bufs_sub ..

theorem a2_fresh : (a2 : List (HloOp τ sig (Elt F))).Forall fun op => op.fresh = ∅ :=
  rfl

/-- The references these operations write. -/
abbrev a2_W : List (Ref sig .tc) := [main_v32]

theorem a2_writes : (a2 : List (HloOp τ sig (Elt F))).Forall fun op => op.writes ⊆ (a2_W.map (Proc.devRef (τ := τ) .tc)).toFinset :=
  writes_sub (binary_writes ..) (by decide)

/-- A reference these operations do not write keeps its contents across them. -/
theorem a2_frame (Y : Valuation τ sig (Elt F)) (r : Ref sig .tc) (h : r ∉ a2_W) :
    after a2 Y (no_index (Proc.devRef .tc r)) = Y (Proc.devRef .tc r) :=
  after_of_writes_sub a2 Y a2_writes h

/-- Operations 43 … 61 of @main's straight line (calls replaced by their callees' operations over the call's buffer record). -/
def a3 : List (HloOp τ sig (Elt F)) :=
  [
    StableHlo.nullary main_c_6 (constantI S_ 32 0#32),
    StableHlo.unary main_c_6 main_v33 (broadcastInDim S270336 ![] bcast_S_S270336 : (⟨S_, .i32⟩ : BufTy).Contents (Elt F) → (⟨S270336, .i32⟩ : BufTy).Contents (Elt F)),
    StableHlo.binary main_v3 main_v33 main_v34 (cmpi .slt : (⟨S270336, .i32⟩ : BufTy).Contents (Elt F) → (⟨S270336, .i32⟩ : BufTy).Contents (Elt F) → (⟨S270336, .i1⟩ : BufTy).Contents (Elt F)),
    StableHlo.nullary main_c_7 (constantI S_ 32 8192#32),
    StableHlo.unary main_c_7 main_v35 (broadcastInDim S270336 ![] bcast_S_S270336 : (⟨S_, .i32⟩ : BufTy).Contents (Elt F) → (⟨S270336, .i32⟩ : BufTy).Contents (Elt F)),
    StableHlo.binary main_v3 main_v35 main_v36 (addi : (⟨S270336, .i32⟩ : BufTy).Contents (Elt F) → (⟨S270336, .i32⟩ : BufTy).Contents (Elt F) → (⟨S270336, .i32⟩ : BufTy).Contents (Elt F)),
    StableHlo.ternary main_v34 main_v36 main_v3 main_v37 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v37 main_v38 (broadcastInDim S270336x1 ![0] bcast_S270336_S270336x1_0 : (⟨S270336, .i32⟩ : BufTy).Contents (Elt F) → (⟨S270336x1, .i32⟩ : BufTy).Contents (Elt F)),
    StableHlo.binary main_v32 main_v38 main_v39 ((fun x i => Host.gather gather_S8192x512_S270336x1_S270336x512_1_0_n_n_0_1_1512 x i) : (⟨S8192x512, .f32⟩ : BufTy).Contents (Elt F) → (⟨S270336x1, .i32⟩ : BufTy).Contents (Elt F) → (⟨S270336x512, .f32⟩ : BufTy).Contents (Elt F)),
    StableHlo.unary main_v31 main_v40 (broadcastInDim S270336x1 ![0] bcast_S270336_S270336x1_0 : (⟨S270336, .f32⟩ : BufTy).Contents (Elt F) → (⟨S270336x1, .f32⟩ : BufTy).Contents (Elt F)),
    StableHlo.unary main_v40 main_v41 (broadcastInDim S270336x512 ![0, 1] bcast_S270336x1_S270336x512_0_1 : (⟨S270336x1, .f32⟩ : BufTy).Contents (Elt F) → (⟨S270336x512, .f32⟩ : BufTy).Contents (Elt F)),
    StableHlo.binary main_v39 main_v41 main_v42 (mulf : (⟨S270336x512, .f32⟩ : BufTy).Contents (Elt F) → (⟨S270336x512, .f32⟩ : BufTy).Contents (Elt F) → (⟨S270336x512, .f32⟩ : BufTy).Contents (Elt F)),
    StableHlo.nullary main_cst_8 (constant S_ .f32 0x00000000#32),
    StableHlo.unary main_cst_8 main_v43 (broadcastInDim S8192x512 ![] bcast_S_S8192x512 : (⟨S_, .f32⟩ : BufTy).Contents (Elt F) → (⟨S8192x512, .f32⟩ : BufTy).Contents (Elt F)),
    StableHlo.unary main_v6 main_v44 (broadcastInDim S270336x1 ![0] bcast_S270336_S270336x1_0 : (⟨S270336, .i32⟩ : BufTy).Contents (Elt F) → (⟨S270336x1, .i32⟩ : BufTy).Contents (Elt F)),
    StableHlo.ternary main_v43 main_v44 main_v42 main_v45 ((fun x i u => Host.scatterAdd scatter_S8192x512_S270336x1_S270336x512_1_0_0_1 x i u) : (⟨S8192x512, .f32⟩ : BufTy).Contents (Elt F) → (⟨S270336x1, .i32⟩ : BufTy).Contents (Elt F) → (⟨S270336x512, .f32⟩ : BufTy).Contents (Elt F) → (⟨S8192x512, .f32⟩ : BufTy).Contents (Elt F)),
    StableHlo.unary main_arg12 main_v46 (broadcastInDim S1x512 ![1] bcast_S512_S1x512_1 : (⟨S512, .f32⟩ : BufTy).Contents (Elt F) → (⟨S1x512, .f32⟩ : BufTy).Contents (Elt F)),
    StableHlo.unary main_v46 main_v47 (broadcastInDim S8192x512 ![0, 1] bcast_S1x512_S8192x512_0_1 : (⟨S1x512, .f32⟩ : BufTy).Contents (Elt F) → (⟨S8192x512, .f32⟩ : BufTy).Contents (Elt F)),
    StableHlo.binary main_v45 main_v47 main_v48 (addf : (⟨S8192x512, .f32⟩ : BufTy).Contents (Elt F) → (⟨S8192x512, .f32⟩ : BufTy).Contents (Elt F) → (⟨S8192x512, .f32⟩ : BufTy).Contents (Elt F)) ]

theorem a3_sub : (a3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem a3_fresh : (a3 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The references these operations write. -/
abbrev a3_W : List (Ref sig .tc) := [main_c_6, main_v33, main_v34, main_c_7, main_v35, main_v36, main_v37, main_v38, main_v39, main_v40, main_v41, main_v42, main_cst_8, main_v43, main_v44, main_v45, main_v46, main_v47, main_v48]

theorem a3_writes : (a3 : List (HloOp τ sig (Elt F))).Forall fun op => op.writes ⊆ (a3_W.map (Proc.devRef (τ := τ) .tc)).toFinset :=
  ⟨writes_sub (nullary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (ternary_writes ..) (by decide),
    writes_sub (unary_writes ..) (by decide),
    writes_sub (binary_writes ..) (by decide),
    writes_sub (unary_writes ..) (by decide),
    writes_sub (unary_writes ..) (by decide),
    writes_sub (binary_writes ..) (by decide),
    writes_sub (nullary_writes ..) (by decide),
    writes_sub (unary_writes ..) (by decide),
    writes_sub (unary_writes ..) (by decide),
    writes_sub (ternary_writes ..) (by decide),
    writes_sub (unary_writes ..) (by decide),
    writes_sub (unary_writes ..) (by decide),
    writes_sub (binary_writes ..) (by decide)⟩

/-- A reference these operations do not write keeps its contents across them. -/
theorem a3_frame (Y : Valuation τ sig (Elt F)) (r : Ref sig .tc) (h : r ∉ a3_W) :
    after a3 Y (no_index (Proc.devRef .tc r)) = Y (Proc.devRef .tc r) :=
  after_of_writes_sub a3 Y a3_writes h

/-- Window 0 of @main as operations. -/
abbrev ops0 : List (HloOp τ sig (Elt F)) := a1 ++ (a2 ++ (a3))

set_option maxRecDepth 8192 in
set_option maxHeartbeats 1600000 in
/-- Window 0 is that straight line: the callees' definitions unfolded at their calls, sequencing reassociated. -/
theorem part0_eq (c : Dev nD) : main_part0 (F := F) c = seq ops0 := by
  simp only [main_part0, fn_where.body, fn_where_0.body, fn_leaky_relu.body, fn_relu.body, fn_where_1.body, fn_var.body, fn_relu_2.body, fn_where_4.body, fn_var_3.body, fn_relu_5.body, a1, a2, a3, List.cons_append, List.nil_append, seq, bind_assoc, pure_bind]
  try rfl

theorem ops0_sub : (ops0 : List (HloOp τ sig (Elt F))).Forall fun op => op.bufs ⊆ tcRefs τ sig :=
  List.forall_append.mpr ⟨a1_sub, List.forall_append.mpr ⟨a2_sub, a3_sub⟩⟩

theorem ops0_fresh : (ops0 : List (HloOp τ sig (Elt F))).Forall fun op => op.fresh = ∅ :=
  List.forall_append.mpr ⟨a1_fresh, List.forall_append.mpr ⟨a2_fresh, a3_fresh⟩⟩

end Cert.ReferenceIdeal.Hand

end
-- ==== Proof.Ref.Part1.lean ====
import proofs.«141825_j60318520705103_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 62 … 69 of @main's straight line (calls replaced by their callees' operations over the call's buffer record). -/
def a4 : List (HloOp τ sig (Elt F)) :=
  [
    StableHlo.nullary main_cst_9 (constant S_ .f32 0x3C23D70A#32),
    StableHlo.TRef.nullary main_call1.cst (constant S_ .f32 0x00000000#32),
    StableHlo.TRef.unary main_call1.cst main_call1.v0 (broadcastInDim S8192x512 ![] bcast_S_S8192x512),
    StableHlo.TRef.binary (.of main_v48) main_call1.v0 main_call1.v1 (cmpf .oge),
    StableHlo.TRef.unary (.of main_cst_9) main_call1.v2 id,
    StableHlo.TRef.unary main_call1.v2 main_call1.v3 (broadcastInDim S8192x512 ![] bcast_S_S8192x512),
    StableHlo.TRef.binary main_call1.v3 (.of main_v48) main_call1.v4 mulf,
    StableHlo.TRef.ternary main_call1.v1 (.of main_v48) main_call1.v4 main_call1.call0.v0 select ]

theorem a4_sub : (a4 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩

theorem a4_fresh : (a4 : List (HloOp τ sig (Elt F))).Forall fun op => op.fresh = ∅ :=
  ⟨rfl, rfl, rfl, rfl, rfl, rfl, rfl, rfl⟩

/-- The references these operations write. -/
abbrev a4_W : List (Ref sig .tc) := [main_cst_9, main_call1_cst, main_call1_v0, main_call1_v1, main_call1_v2, main_call1_v3, main_call1_v4, main_v49]

theorem a4_writes : (a4 : List (HloOp τ sig (Elt F))).Forall fun op => op.writes ⊆ (a4_W.map (Proc.devRef (τ := τ) .tc)).toFinset :=
  ⟨writes_sub (nullary_writes ..) (by decide),
    writes_sub (nullary_writes ..) (by decide),
    writes_sub (unary_writes ..) (by decide),
    writes_sub (binary_writes ..) (by decide),
    writes_sub (unary_writes ..) (by decide),
    writes_sub (unary_writes ..) (by decide),
    writes_sub (binary_writes ..) (by decide),
    writes_sub (ternary_writes ..) (by decide)⟩

/-- A reference these operations do not write keeps its contents across them. -/
theorem a4_frame (Y : Valuation τ sig (Elt F)) (r : Ref sig .tc) (h : r ∉ a4_W) :
    after a4 Y (no_index (Proc.devRef .tc r)) = Y (Proc.devRef .tc r) :=
  after_of_writes_sub a4 Y a4_writes h

/-- Operations 70 … 111 of @main's straight line (calls replaced by their callees' operations over the call's buffer record). -/
def a5 : List (HloOp τ sig (Elt F)) :=
  [
    StableHlo.nullary main_v50 (iotaInDim S8192 32 0),
    StableHlo.unary main_arg8 main_v51 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v51 main_v52 rfl shapeCasts_S1x262144_S262144,
    StableHlo.binary main_v52 main_v50 main_v53 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.unary main_arg8 main_v54 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v54 main_v55 rfl shapeCasts_S1x262144_S262144,
    StableHlo.binary main_v55 main_v50 main_v56 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.nullary main_cst_10 (constant S_ .f32 0x3F800000#32),
    StableHlo.unary main_cst_10 main_v57 (broadcastInDim S8192 ![] bcast_S_S8192 : (⟨S_, .f32⟩ : BufTy).Contents (Elt F) → (⟨S8192, .f32⟩ : BufTy).Contents (Elt F)),
    StableHlo.binary main_arg9 main_v57 main_v58 ((fun a b => concatenate S270336 0 [⟨S262144, a⟩, ⟨S8192, b⟩] concatenates_S262144_S8192_S270336_d0) : (⟨S262144, .f32⟩ : BufTy).Contents (Elt F) → (⟨S8192, .f32⟩ : BufTy).Contents (Elt F) → (⟨S270336, .f32⟩ : BufTy).Contents (Elt F)),
    StableHlo.nullary main_cst_11 (constant S_ .f32 0x00000000#32),
    StableHlo.unary main_cst_11 main_v59 (broadcastInDim S8192 ![] bcast_S_S8192 : (⟨S_, .f32⟩ : BufTy).Contents (Elt F) → (⟨S8192, .f32⟩ : BufTy).Contents (Elt F)),
    StableHlo.unary main_v56 main_v60 (broadcastInDim S270336x1 ![0] bcast_S270336_S270336x1_0 : (⟨S270336, .i32⟩ : BufTy).Contents (Elt F) → (⟨S270336x1, .i32⟩ : BufTy).Contents (Elt F)),
    StableHlo.ternary main_v59 main_v60 main_v58 main_v61 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    StableHlo.nullary main_cst_12 (constant S_ .f32 0x00000000#32),
    StableHlo.unary main_cst_12 main_v62 (broadcastInDim S8192 ![] bcast_S_S8192 : (⟨S_, .f32⟩ : BufTy).Contents (Elt F) → (⟨S8192, .f32⟩ : BufTy).Contents (Elt F)),
    StableHlo.binary main_v61 main_v62 main_v63 (cmpf .ogt : (⟨S8192, .f32⟩ : BufTy).Contents (Elt F) → (⟨S8192, .f32⟩ : BufTy).Contents (Elt F) → (⟨S8192, .i1⟩ : BufTy).Contents (Elt F)),
    StableHlo.unary main_v61 main_v64 (Host.rsqrt : (⟨S8192, .f32⟩ : BufTy).Contents (Elt F) → (⟨S8192, .f32⟩ : BufTy).Contents (Elt F)),
    StableHlo.nullary main_cst_13 (constant S_ .f32 0x00000000#32),
    StableHlo.TRef.unary (.of main_cst_13) main_call2.v0 id,
    StableHlo.TRef.unary main_call2.v0 main_call2.v1 (broadcastInDim S8192 ![] bcast_S_S8192),
    StableHlo.TRef.ternary (.of main_v63) (.of main_v64) main_call2.v1 main_call2.v2 select,
    StableHlo.nullary main_c_14 (constantI S_ 32 0#32),
    StableHlo.unary main_c_14 main_v66 (broadcastInDim S270336 ![] bcast_S_S270336 : (⟨S_, .i32⟩ : BufTy).Contents (Elt F) → (⟨S270336, .i32⟩ : BufTy).Contents (Elt F)),
    StableHlo.binary main_v53 main_v66 main_v67 (cmpi .slt : (⟨S270336, .i32⟩ : BufTy).Contents (Elt F) → (⟨S270336, .i32⟩ : BufTy).Contents (Elt F) → (⟨S270336, .i1⟩ : BufTy).Contents (Elt F)),
    StableHlo.nullary main_c_15 (constantI S_ 32 8192#32),
    StableHlo.unary main_c_15 main_v68 (broadcastInDim S270336 ![] bcast_S_S270336 : (⟨S_, .i32⟩ : BufTy).Contents (Elt F) → (⟨S270336, .i32⟩ : BufTy).Contents (Elt F)),
    StableHlo.binary main_v53 main_v68 main_v69 (addi : (⟨S270336, .i32⟩ : BufTy).Contents (Elt F) → (⟨S270336, .i32⟩ : BufTy).Contents (Elt F) → (⟨S270336, .i32⟩ : BufTy).Contents (Elt F)),
    StableHlo.ternary main_v67 main_v69 main_v53 main_v70 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v70 main_v71 (broadcastInDim S270336x1 ![0] bcast_S270336_S270336x1_0 : (⟨S270336, .i32⟩ : BufTy).Contents (Elt F) → (⟨S270336x1, .i32⟩ : BufTy).Contents (Elt F)),
    StableHlo.binary main_v65 main_v71 main_v72 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v72 main_v58 main_v73 (mulf : (⟨S270336, .f32⟩ : BufTy).Contents (Elt F) → (⟨S270336, .f32⟩ : BufTy).Contents (Elt F) → (⟨S270336, .f32⟩ : BufTy).Contents (Elt F)),
    StableHlo.nullary main_c_16 (constantI S_ 32 0#32),
    StableHlo.unary main_c_16 main_v74 (broadcastInDim S270336 ![] bcast_S_S270336 : (⟨S_, .i32⟩ : BufTy).Contents (Elt F) → (⟨S270336, .i32⟩ : BufTy).Contents (Elt F)),
    StableHlo.binary main_v56 main_v74 main_v75 (cmpi .slt : (⟨S270336, .i32⟩ : BufTy).Contents (Elt F) → (⟨S270336, .i32⟩ : BufTy).Contents (Elt F) → (⟨S270336, .i1⟩ : BufTy).Contents (Elt F)),
    StableHlo.nullary main_c_17 (constantI S_ 32 8192#32),
    StableHlo.unary main_c_17 main_v76 (broadcastInDim S270336 ![] bcast_S_S270336 : (⟨S_, .i32⟩ : BufTy).Contents (Elt F) → (⟨S270336, .i32⟩ : BufTy).Contents (Elt F)),
    StableHlo.binary main_v56 main_v76 main_v77 (addi : (⟨S270336, .i32⟩ : BufTy).Contents (Elt F) → (⟨S270336, .i32⟩ : BufTy).Contents (Elt F) → (⟨S270336, .i32⟩ : BufTy).Contents (Elt F)),
    StableHlo.ternary main_v75 main_v77 main_v56 main_v78 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v78 main_v79 (broadcastInDim S270336x1 ![0] bcast_S270336_S270336x1_0 : (⟨S270336, .i32⟩ : BufTy).Contents (Elt F) → (⟨S270336x1, .i32⟩ : BufTy).Contents (Elt F)),
    StableHlo.binary main_v65 main_v79 main_v80 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v73 main_v80 main_v81 (mulf : (⟨S270336, .f32⟩ : BufTy).Contents (Elt F) → (⟨S270336, .f32⟩ : BufTy).Contents (Elt F) → (⟨S270336, .f32⟩ : BufTy).Contents (Elt F)) ]

theorem a5_sub : (a5 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem a5_fresh : (a5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references these operations write. -/
abbrev a5_W : List (Ref sig .tc) := [main_v50, main_v51, main_v52, main_v53, main_v54, main_v55, main_v56, main_cst_10, main_v57, main_v58, main_cst_11, main_v59, main_v60, main_v61, main_cst_12, main_v62, main_v63, main_v64, main_cst_13, main_call2_v0, main_call2_v1, main_v65, main_c_14, main_v66, main_v67, main_c_15, main_v68, main_v69, main_v70, main_v71, main_v72, main_v73, main_c_16, main_v74, main_v75, main_c_17, main_v76, main_v77, main_v78, main_v79, main_v80, main_v81]

theorem a5_writes : (a5 : List (HloOp τ sig (Elt F))).Forall fun op => op.writes ⊆ (a5_W.map (Proc.devRef (τ := τ) .tc)).toFinset :=
  ⟨writes_sub (nullary_writes ..) (by decide),
    writes_sub (unary_writes ..) (by decide),
    writes_sub (reshape_writes ..) (by decide),
    writes_sub (binary_writes ..) (by decide),
    writes_sub (unary_writes ..) (by decide),
    writes_sub (reshape_writes ..) (by decide),
    writes_sub (binary_writes ..) (by decide),
    writes_sub (nullary_writes ..) (by decide),
    writes_sub (unary_writes ..) (by decide),
    writes_sub (binary_writes ..) (by decide),
    writes_sub (nullary_writes ..) (by decide),
    writes_sub (unary_writes ..) (by decide),
    writes_sub (unary_writes ..) (by decide),
    writes_sub (ternary_writes ..) (by decide),
    writes_sub (nullary_writes ..) (by decide),
    writes_sub (unary_writes ..) (by decide),
    writes_sub (binary_writes ..) (by decide),
    writes_sub (unary_writes ..) (by decide),
    writes_sub (nullary_writes ..) (by decide),
    writes_sub (unary_writes ..) (by decide),
    writes_sub (unary_writes ..) (by decide),
    writes_sub (ternary_writes ..) (by decide),
    writes_sub (nullary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (ternary_writes ..) (by decide),
    writes_sub (unary_writes ..) (by decide),
    writes_sub (binary_writes ..) (by decide),
    writes_sub (binary_writes ..) (by decide),
    writes_sub (nullary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (ternary_writes ..) (by decide),
    writes_sub (unary_writes ..) (by decide),
    writes_sub (binary_writes ..) (by decide),
    writes_sub (binary_writes ..) (by decide)⟩

/-- A reference these operations do not write keeps its contents across them. -/
theorem a5_frame (Y : Valuation τ sig (Elt F)) (r : Ref sig .tc) (h : r ∉ a5_W) :
    after a5 Y (no_index (Proc.devRef .tc r)) = Y (Proc.devRef .tc r) :=
  after_of_writes_sub a5 Y a5_writes h

/-- Operations 112 … 112 of @main's straight line (calls replaced by their callees' operations over the call's buffer record). -/
def a6 : List (HloOp τ sig (Elt F)) :=
  [
    StableHlo.binary main_arg7 main_arg13 main_v82 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)) ]

theorem a6_sub : (a6 : List (HloOp τ sig (Elt F))).Forall fun op => op.bufs ⊆ tcRefs τ sig :=
  binary_bufs_sub ..

theorem a6_fresh : (a6 : List (HloOp τ sig (Elt F))).Forall fun op => op.fresh = ∅ :=
  rfl

/-- The references these operations write. -/
abbrev a6_W : List (Ref sig .tc) := [main_v82]

theorem a6_writes : (a6 : List (HloOp τ sig (Elt F))).Forall fun op => op.writes ⊆ (a6_W.map (Proc.devRef (τ := τ) .tc)).toFinset :=
  writes_sub (binary_writes ..) (by decide)

/-- A reference these operations do not write keeps its contents across them. -/
theorem a6_frame (Y : Valuation τ sig (Elt F)) (r : Ref sig .tc) (h : r ∉ a6_W) :
    after a6 Y (no_index (Proc.devRef .tc r)) = Y (Proc.devRef .tc r) :=
  after_of_writes_sub a6 Y a6_writes h

/-- Operations 113 … 129 of @main's straight line (calls replaced by their callees' operations over the call's buffer record). -/
def a7 : List (HloOp τ sig (Elt F)) :=
  [
    StableHlo.nullary main_c_18 (constantI S_ 32 0#32),
    StableHlo.unary main_c_18 main_v83 (broadcastInDim S270336 ![] bcast_S_S270336 : (⟨S_, .i32⟩ : BufTy).Contents (Elt F) → (⟨S270336, .i32⟩ : BufTy).Contents (Elt F)),
    StableHlo.binary main_v53 main_v83 main_v84 (cmpi .slt : (⟨S270336, .i32⟩ : BufTy).Contents (Elt F) → (⟨S270336, .i32⟩ : BufTy).Contents (Elt F) → (⟨S270336, .i1⟩ : BufTy).Contents (Elt F)),
    StableHlo.nullary main_c_19 (constantI S_ 32 8192#32),
    StableHlo.unary main_c_19 main_v85 (broadcastInDim S270336 ![] bcast_S_S270336 : (⟨S_, .i32⟩ : BufTy).Contents (Elt F) → (⟨S270336, .i32⟩ : BufTy).Contents (Elt F)),
    StableHlo.binary main_v53 main_v85 main_v86 (addi : (⟨S270336, .i32⟩ : BufTy).Contents (Elt F) → (⟨S270336, .i32⟩ : BufTy).Contents (Elt F) → (⟨S270336, .i32⟩ : BufTy).Contents (Elt F)),
    StableHlo.ternary main_v84 main_v86 main_v53 main_v87 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v87 main_v88 (broadcastInDim S270336x1 ![0] bcast_S270336_S270336x1_0 : (⟨S270336, .i32⟩ : BufTy).Contents (Elt F) → (⟨S270336x1, .i32⟩ : BufTy).Contents (Elt F)),
    StableHlo.binary main_v82 main_v88 main_v89 ((fun x i => Host.gather gather_S8192x512_S270336x1_S270336x512_1_0_n_n_0_1_1512 x i) : (⟨S8192x512, .f32⟩ : BufTy).Contents (Elt F) → (⟨S270336x1, .i32⟩ : BufTy).Contents (Elt F) → (⟨S270336x512, .f32⟩ : BufTy).Contents (Elt F)),
    StableHlo.unary main_v81 main_v90 (broadcastInDim S270336x1 ![0] bcast_S270336_S270336x1_0 : (⟨S270336, .f32⟩ : BufTy).Contents (Elt F) → (⟨S270336x1, .f32⟩ : BufTy).Contents (Elt F)),
    StableHlo.unary main_v90 main_v91 (broadcastInDim S270336x512 ![0, 1] bcast_S270336x1_S270336x512_0_1 : (⟨S270336x1, .f32⟩ : BufTy).Contents (Elt F) → (⟨S270336x512, .f32⟩ : BufTy).Contents (Elt F)),
    StableHlo.binary main_v89 main_v91 main_v92 (mulf : (⟨S270336x512, .f32⟩ : BufTy).Contents (Elt F) → (⟨S270336x512, .f32⟩ : BufTy).Contents (Elt F) → (⟨S270336x512, .f32⟩ : BufTy).Contents (Elt F)),
    StableHlo.nullary main_cst_20 (constant S_ .f32 0x00000000#32),
    StableHlo.unary main_cst_20 main_v93 (broadcastInDim S8192x512 ![] bcast_S_S8192x512 : (⟨S_, .f32⟩ : BufTy).Contents (Elt F) → (⟨S8192x512, .f32⟩ : BufTy).Contents (Elt F)),
    StableHlo.unary main_v56 main_v94 (broadcastInDim S270336x1 ![0] bcast_S270336_S270336x1_0 : (⟨S270336, .i32⟩ : BufTy).Contents (Elt F) → (⟨S270336x1, .i32⟩ : BufTy).Contents (Elt F)),
    StableHlo.ternary main_v93 main_v94 main_v92 main_v95 ((fun x i u => Host.scatterAdd scatter_S8192x512_S270336x1_S270336x512_1_0_0_1 x i u) : (⟨S8192x512, .f32⟩ : BufTy).Contents (Elt F) → (⟨S270336x1, .i32⟩ : BufTy).Contents (Elt F) → (⟨S270336x512, .f32⟩ : BufTy).Contents (Elt F) → (⟨S8192x512, .f32⟩ : BufTy).Contents (Elt F)),
    StableHlo.unary main_arg14 main_v96 (broadcastInDim S1x512 ![1] bcast_S512_S1x512_1 : (⟨S512, .f32⟩ : BufTy).Contents (Elt F) → (⟨S1x512, .f32⟩ : BufTy).Contents (Elt F)) ]

theorem a7_sub : (a7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub ..⟩

theorem a7_fresh : (a7 : List (HloOp τ sig (Elt F))).Forall fun op => op.fresh = ∅ :=
  ⟨rfl, rfl, rfl, rfl, rfl, rfl, rfl, rfl, rfl, rfl, rfl, rfl, rfl, rfl, rfl, rfl, rfl⟩

/-- The references these operations write. -/
abbrev a7_W : List (Ref sig .tc) := [main_c_18, main_v83, main_v84, main_c_19, main_v85, main_v86, main_v87, main_v88, main_v89, main_v90, main_v91, main_v92, main_cst_20, main_v93, main_v94, main_v95, main_v96]

theorem a7_writes : (a7 : List (HloOp τ sig (Elt F))).Forall fun op => op.writes ⊆ (a7_W.map (Proc.devRef (τ := τ) .tc)).toFinset :=
  ⟨writes_sub (nullary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (ternary_writes ..) (by decide),
    writes_sub (unary_writes ..) (by decide),
    writes_sub (binary_writes ..) (by decide),
    writes_sub (unary_writes ..) (by decide),
    writes_sub (unary_writes ..) (by decide),
    writes_sub (binary_writes ..) (by decide),
    writes_sub (nullary_writes ..) (by decide),
    writes_sub (unary_writes ..) (by decide),
    writes_sub (unary_writes ..) (by decide),
    writes_sub (ternary_writes ..) (by decide),
    writes_sub (unary_writes ..) (by decide)⟩

/-- A reference these operations do not write keeps its contents across them. -/
theorem a7_frame (Y : Valuation τ sig (Elt F)) (r : Ref sig .tc) (h : r ∉ a7_W) :
    after a7 Y (no_index (Proc.devRef .tc r)) = Y (Proc.devRef .tc r) :=
  after_of_writes_sub a7 Y a7_writes h

/-- Window 1 of @main as operations. -/
abbrev ops1 : List (HloOp τ sig (Elt F)) := a4 ++ (a5 ++ (a6 ++ (a7)))

set_option maxRecDepth 8192 in
set_option maxHeartbeats 1600000 in
/-- Window 1 is that straight line: the callees' definitions unfolded at their calls, sequencing reassociated. -/
theorem part1_eq (c : Dev nD) : main_part1 (F := F) c = seq ops1 := by
  simp only [main_part1, fn_where.body, fn_where_0.body, fn_leaky_relu.body, fn_relu.body, fn_where_1.body, fn_var.body, fn_relu_2.body, fn_where_4.body, fn_var_3.body, fn_relu_5.body, a4, a5, a6, a7, List.cons_append, List.nil_append, seq, bind_assoc, pure_bind]
  try rfl

theorem ops1_sub : (ops1 : List (HloOp τ sig (Elt F))).Forall fun op => op.bufs ⊆ tcRefs τ sig :=
  List.forall_append.mpr ⟨a4_sub, List.forall_append.mpr ⟨a5_sub, List.forall_append.mpr ⟨a6_sub, a7_sub⟩⟩⟩

theorem ops1_fresh : (ops1 : List (HloOp τ sig (Elt F))).Forall fun op => op.fresh = ∅ :=
  List.forall_append.mpr ⟨a4_fresh, List.forall_append.mpr ⟨a5_fresh, List.forall_append.mpr ⟨a6_fresh, a7_fresh⟩⟩⟩

end Cert.ReferenceIdeal.Hand

end
-- ==== Proof.Ref.Part2.lean ====
import proofs.«141825_j60318520705103_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 130 … 139 of @main's straight line (calls replaced by their callees' operations over the call's buffer record). -/
def a8 : List (HloOp τ sig (Elt F)) :=
  [
    StableHlo.unary main_v96 main_v97 (broadcastInDim S8192x512 ![0, 1] bcast_S1x512_S8192x512_0_1 : (⟨S1x512, .f32⟩ : BufTy).Contents (Elt F) → (⟨S8192x512, .f32⟩ : BufTy).Contents (Elt F)),
    StableHlo.binary main_v95 main_v97 main_v98 (addf : (⟨S8192x512, .f32⟩ : BufTy).Contents (Elt F) → (⟨S8192x512, .f32⟩ : BufTy).Contents (Elt F) → (⟨S8192x512, .f32⟩ : BufTy).Contents (Elt F)),
    StableHlo.nullary main_cst_21 (constant S_ .f32 0x3C23D70A#32),
    StableHlo.TRef.nullary main_call3.cst (constant S_ .f32 0x00000000#32),
    StableHlo.TRef.unary main_call3.cst main_call3.v0 (broadcastInDim S8192x512 ![] bcast_S_S8192x512),
    StableHlo.TRef.binary (.of main_v98) main_call3.v0 main_call3.v1 (cmpf .oge),
    StableHlo.TRef.unary (.of main_cst_21) main_call3.v2 id,
    StableHlo.TRef.unary main_call3.v2 main_call3.v3 (broadcastInDim S8192x512 ![] bcast_S_S8192x512),
    StableHlo.TRef.binary main_call3.v3 (.of main_v98) main_call3.v4 mulf,
    StableHlo.TRef.ternary main_call3.v1 (.of main_v98) main_call3.v4 main_call3.call0.v0 select ]

theorem a8_sub : (a8 : List (HloOp τ sig (Elt F))).Forall fun op => op.bufs ⊆ tcRefs τ sig :=
  ⟨unary_bufs_sub .., binary_bufs_sub .., nullary_bufs_sub .., nullary_bufs_sub .., unary_bufs_sub .., binary_bufs_sub .., unary_bufs_sub .., unary_bufs_sub .., binary_bufs_sub .., ternary_bufs_sub ..⟩

theorem a8_fresh : (a8 : List (HloOp τ sig (Elt F))).Forall fun op => op.fresh = ∅ :=
  ⟨rfl, rfl, rfl, rfl, rfl, rfl, rfl, rfl, rfl, rfl⟩

/-- The references these operations write. -/
abbrev a8_W : List (Ref sig .tc) := [main_v97, main_v98, main_cst_21, main_call3_cst, main_call3_v0, main_call3_v1, main_call3_v2, main_call3_v3, main_call3_v4, main_v99]

theorem a8_writes : (a8 : List (HloOp τ sig (Elt F))).Forall fun op => op.writes ⊆ (a8_W.map (Proc.devRef (τ := τ) .tc)).toFinset :=
  ⟨writes_sub (unary_writes ..) (by decide),
    writes_sub (binary_writes ..) (by decide),
    writes_sub (nullary_writes ..) (by decide),
    writes_sub (nullary_writes ..) (by decide),
    writes_sub (unary_writes ..) (by decide),
    writes_sub (binary_writes ..) (by decide),
    writes_sub (unary_writes ..) (by decide),
    writes_sub (unary_writes ..) (by decide),
    writes_sub (binary_writes ..) (by decide),
    writes_sub (ternary_writes ..) (by decide)⟩

/-- A reference these operations do not write keeps its contents across them. -/
theorem a8_frame (Y : Valuation τ sig (Elt F)) (r : Ref sig .tc) (h : r ∉ a8_W) :
    after a8 Y (no_index (Proc.devRef .tc r)) = Y (Proc.devRef .tc r) :=
  after_of_writes_sub a8 Y a8_writes h

/-- Operations 140 … 157 of @main's straight line (calls replaced by their callees' operations over the call's buffer record). -/
def a9 : List (HloOp τ sig (Elt F)) :=
  [
    StableHlo.nullary main_c_22 (constantI S_ 32 0#32),
    StableHlo.unary main_c_22 main_v100 (broadcastInDim S4096 ![] bcast_S_S4096 : (⟨S_, .i32⟩ : BufTy).Contents (Elt F) → (⟨S4096, .i32⟩ : BufTy).Contents (Elt F)),
    StableHlo.binary main_arg0 main_v100 main_v101 (cmpi .slt : (⟨S4096, .i32⟩ : BufTy).Contents (Elt F) → (⟨S4096, .i32⟩ : BufTy).Contents (Elt F) → (⟨S4096, .i1⟩ : BufTy).Contents (Elt F)),
    StableHlo.nullary main_c_23 (constantI S_ 32 8192#32),
    StableHlo.unary main_c_23 main_v102 (broadcastInDim S4096 ![] bcast_S_S4096 : (⟨S_, .i32⟩ : BufTy).Contents (Elt F) → (⟨S4096, .i32⟩ : BufTy).Contents (Elt F)),
    StableHlo.binary main_arg0 main_v102 main_v103 (addi : (⟨S4096, .i32⟩ : BufTy).Contents (Elt F) → (⟨S4096, .i32⟩ : BufTy).Contents (Elt F) → (⟨S4096, .i32⟩ : BufTy).Contents (Elt F)),
    StableHlo.ternary main_v101 main_v103 main_arg0 main_v104 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v104 main_v105 (broadcastInDim S4096x1 ![0] bcast_S4096_S4096x1_0 : (⟨S4096, .i32⟩ : BufTy).Contents (Elt F) → (⟨S4096x1, .i32⟩ : BufTy).Contents (Elt F)),
    StableHlo.binary main_v49 main_v105 main_v106 ((fun x i => Host.gather gather_S8192x512_S4096x1_S4096x512_1_0_n_n_0_1_1512 x i) : (⟨S8192x512, .f32⟩ : BufTy).Contents (Elt F) → (⟨S4096x1, .i32⟩ : BufTy).Contents (Elt F) → (⟨S4096x512, .f32⟩ : BufTy).Contents (Elt F)),
    StableHlo.nullary main_c_24 (constantI S_ 32 0#32),
    StableHlo.unary main_c_24 main_v107 (broadcastInDim S4096 ![] bcast_S_S4096 : (⟨S_, .i32⟩ : BufTy).Contents (Elt F) → (⟨S4096, .i32⟩ : BufTy).Contents (Elt F)),
    StableHlo.binary main_arg1 main_v107 main_v108 (cmpi .slt : (⟨S4096, .i32⟩ : BufTy).Contents (Elt F) → (⟨S4096, .i32⟩ : BufTy).Contents (Elt F) → (⟨S4096, .i1⟩ : BufTy).Contents (Elt F)),
    StableHlo.nullary main_c_25 (constantI S_ 32 8192#32),
    StableHlo.unary main_c_25 main_v109 (broadcastInDim S4096 ![] bcast_S_S4096 : (⟨S_, .i32⟩ : BufTy).Contents (Elt F) → (⟨S4096, .i32⟩ : BufTy).Contents (Elt F)),
    StableHlo.binary main_arg1 main_v109 main_v110 (addi : (⟨S4096, .i32⟩ : BufTy).Contents (Elt F) → (⟨S4096, .i32⟩ : BufTy).Contents (Elt F) → (⟨S4096, .i32⟩ : BufTy).Contents (Elt F)),
    StableHlo.ternary main_v108 main_v110 main_arg1 main_v111 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v111 main_v112 (broadcastInDim S4096x1 ![0] bcast_S4096_S4096x1_0 : (⟨S4096, .i32⟩ : BufTy).Contents (Elt F) → (⟨S4096x1, .i32⟩ : BufTy).Contents (Elt F)),
    StableHlo.binary main_v99 main_v112 main_v113 ((fun x i => Host.gather gather_S8192x512_S4096x1_S4096x512_1_0_n_n_0_1_1512 x i) : (⟨S8192x512, .f32⟩ : BufTy).Contents (Elt F) → (⟨S4096x1, .i32⟩ : BufTy).Contents (Elt F) → (⟨S4096x512, .f32⟩ : BufTy).Contents (Elt F)) ]

theorem a9_sub : (a9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem a9_fresh : (a9 : List (HloOp τ sig (Elt F))).Forall fun op => op.fresh = ∅ :=
  ⟨rfl, rfl, rfl, rfl, rfl, rfl, rfl, rfl, rfl, rfl, rfl, rfl, rfl, rfl, rfl, rfl, rfl, rfl⟩

/-- The references these operations write. -/
abbrev a9_W : List (Ref sig .tc) := [main_c_22, main_v100, main_v101, main_c_23, main_v102, main_v103, main_v104, main_v105, main_v106, main_c_24, main_v107, main_v108, main_c_25, main_v109, main_v110, main_v111, main_v112, main_v113]

theorem a9_writes : (a9 : List (HloOp τ sig (Elt F))).Forall fun op => op.writes ⊆ (a9_W.map (Proc.devRef (τ := τ) .tc)).toFinset :=
  ⟨writes_sub (nullary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (ternary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (ternary_writes ..) (by decide),
    writes_sub (unary_writes ..) (by decide),
    writes_sub (binary_writes ..) (by decide)⟩

/-- A reference these operations do not write keeps its contents across them. -/
theorem a9_frame (Y : Valuation τ sig (Elt F)) (r : Ref sig .tc) (h : r ∉ a9_W) :
    after a9 Y (no_index (Proc.devRef .tc r)) = Y (Proc.devRef .tc r) :=
  after_of_writes_sub a9 Y a9_writes h

/-- Operations 158 … 165 of @main's straight line (calls replaced by their callees' operations over the call's buffer record). -/
def a10 : List (HloOp τ sig (Elt F)) :=
  [
    StableHlo.binary main_arg10 main_v99 main_v114 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    StableHlo.binary main_v114 main_arg15 main_v115 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    StableHlo.unary main_arg16 main_v116 (broadcastInDim S1x512 ![1] bcast_S512_S1x512_1 : (⟨S512, .f32⟩ : BufTy).Contents (Elt F) → (⟨S1x512, .f32⟩ : BufTy).Contents (Elt F)),
    StableHlo.unary main_v116 main_v117 (broadcastInDim S8192x512 ![0, 1] bcast_S1x512_S8192x512_0_1 : (⟨S1x512, .f32⟩ : BufTy).Contents (Elt F) → (⟨S8192x512, .f32⟩ : BufTy).Contents (Elt F)),
    StableHlo.binary main_v115 main_v117 main_v118 (addf : (⟨S8192x512, .f32⟩ : BufTy).Contents (Elt F) → (⟨S8192x512, .f32⟩ : BufTy).Contents (Elt F) → (⟨S8192x512, .f32⟩ : BufTy).Contents (Elt F)),
    StableHlo.TRef.nullary main_call4.cst (constant S_ .f32 0x00000000#32),
    StableHlo.TRef.unary main_call4.cst main_call4.v0 (broadcastInDim S8192x512 ![] bcast_S_S8192x512),
    StableHlo.TRef.binary (.of main_v118) main_call4.v0 main_call4.v1 maximumf ]

theorem a10_sub : (a10 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩

theorem a10_fresh : (a10 : List (HloOp τ sig (Elt F))).Forall fun op => op.fresh = ∅ :=
  ⟨rfl, rfl, rfl, rfl, rfl, rfl, rfl, rfl⟩

/-- The references these operations write. -/
abbrev a10_W : List (Ref sig .tc) := [main_v114, main_v115, main_v116, main_v117, main_v118, main_call4_cst, main_call4_v0, main_v119]

theorem a10_writes : (a10 : List (HloOp τ sig (Elt F))).Forall fun op => op.writes ⊆ (a10_W.map (Proc.devRef (τ := τ) .tc)).toFinset :=
  ⟨writes_sub (binary_writes ..) (by decide),
    writes_sub (binary_writes ..) (by decide),
    writes_sub (unary_writes ..) (by decide),
    writes_sub (unary_writes ..) (by decide),
    writes_sub (binary_writes ..) (by decide),
    writes_sub (nullary_writes ..) (by decide),
    writes_sub (unary_writes ..) (by decide),
    writes_sub (binary_writes ..) (by decide)⟩

/-- A reference these operations do not write keeps its contents across them. -/
theorem a10_frame (Y : Valuation τ sig (Elt F)) (r : Ref sig .tc) (h : r ∉ a10_W) :
    after a10 Y (no_index (Proc.devRef .tc r)) = Y (Proc.devRef .tc r) :=
  after_of_writes_sub a10 Y a10_writes h

/-- Operations 166 … 174 of @main's straight line (calls replaced by their callees' operations over the call's buffer record). -/
def a11 : List (HloOp τ sig (Elt F)) :=
  [
    StableHlo.nullary main_c_26 (constantI S_ 32 0#32),
    StableHlo.unary main_c_26 main_v120 (broadcastInDim S4096 ![] bcast_S_S4096 : (⟨S_, .i32⟩ : BufTy).Contents (Elt F) → (⟨S4096, .i32⟩ : BufTy).Contents (Elt F)),
    StableHlo.binary main_arg0 main_v120 main_v121 (cmpi .slt : (⟨S4096, .i32⟩ : BufTy).Contents (Elt F) → (⟨S4096, .i32⟩ : BufTy).Contents (Elt F) → (⟨S4096, .i1⟩ : BufTy).Contents (Elt F)),
    StableHlo.nullary main_c_27 (constantI S_ 32 8192#32),
    StableHlo.unary main_c_27 main_v122 (broadcastInDim S4096 ![] bcast_S_S4096 : (⟨S_, .i32⟩ : BufTy).Contents (Elt F) → (⟨S4096, .i32⟩ : BufTy).Contents (Elt F)),
    StableHlo.binary main_arg0 main_v122 main_v123 (addi : (⟨S4096, .i32⟩ : BufTy).Contents (Elt F) → (⟨S4096, .i32⟩ : BufTy).Contents (Elt F) → (⟨S4096, .i32⟩ : BufTy).Contents (Elt F)),
    StableHlo.ternary main_v121 main_v123 main_arg0 main_v124 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v124 main_v125 (broadcastInDim S4096x1 ![0] bcast_S4096_S4096x1_0 : (⟨S4096, .i32⟩ : BufTy).Contents (Elt F) → (⟨S4096x1, .i32⟩ : BufTy).Contents (Elt F)),
    StableHlo.binary main_v119 main_v125 main_v126 ((fun x i => Host.gather gather_S8192x512_S4096x1_S4096x512_1_0_n_n_0_1_1512 x i) : (⟨S8192x512, .f32⟩ : BufTy).Contents (Elt F) → (⟨S4096x1, .i32⟩ : BufTy).Contents (Elt F) → (⟨S4096x512, .f32⟩ : BufTy).Contents (Elt F)) ]

theorem a11_sub : (a11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem a11_fresh : (a11 : List (HloOp τ sig (Elt F))).Forall fun op => op.fresh = ∅ :=
  ⟨rfl, rfl, rfl, rfl, rfl, rfl, rfl, rfl, rfl⟩

/-- The references these operations write. -/
abbrev a11_W : List (Ref sig .tc) := [main_c_26, main_v120, main_v121, main_c_27, main_v122, main_v123, main_v124, main_v125, main_v126]

theorem a11_writes : (a11 : List (HloOp τ sig (Elt F))).Forall fun op => op.writes ⊆ (a11_W.map (Proc.devRef (τ := τ) .tc)).toFinset :=
  ⟨writes_sub (nullary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (ternary_writes ..) (by decide),
    writes_sub (unary_writes ..) (by decide),
    writes_sub (binary_writes ..) (by decide)⟩

/-- A reference these operations do not write keeps its contents across them. -/
theorem a11_frame (Y : Valuation τ sig (Elt F)) (r : Ref sig .tc) (h : r ∉ a11_W) :
    after a11 Y (no_index (Proc.devRef .tc r)) = Y (Proc.devRef .tc r) :=
  after_of_writes_sub a11 Y a11_writes h

/-- Operations 175 … 183 of @main's straight line (calls replaced by their callees' operations over the call's buffer record). -/
def a12 : List (HloOp τ sig (Elt F)) :=
  [
    StableHlo.unary main_arg10 main_v127 ((transpose S8192x8192 [1, 0] · transposes_S8192x8192_S8192x8192_1_0) : (⟨S8192x8192, .f32⟩ : BufTy).Contents (Elt F) → (⟨S8192x8192, .f32⟩ : BufTy).Contents (Elt F)),
    StableHlo.binary main_v127 main_v49 main_v128 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    StableHlo.binary main_v128 main_arg17 main_v129 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    StableHlo.unary main_arg18 main_v130 (broadcastInDim S1x512 ![1] bcast_S512_S1x512_1 : (⟨S512, .f32⟩ : BufTy).Contents (Elt F) → (⟨S1x512, .f32⟩ : BufTy).Contents (Elt F)),
    StableHlo.unary main_v130 main_v131 (broadcastInDim S8192x512 ![0, 1] bcast_S1x512_S8192x512_0_1 : (⟨S1x512, .f32⟩ : BufTy).Contents (Elt F) → (⟨S8192x512, .f32⟩ : BufTy).Contents (Elt F)),
    StableHlo.binary main_v129 main_v131 main_v132 (addf : (⟨S8192x512, .f32⟩ : BufTy).Contents (Elt F) → (⟨S8192x512, .f32⟩ : BufTy).Contents (Elt F) → (⟨S8192x512, .f32⟩ : BufTy).Contents (Elt F)),
    StableHlo.TRef.nullary main_call5.cst (constant S_ .f32 0x00000000#32),
    StableHlo.TRef.unary main_call5.cst main_call5.v0 (broadcastInDim S8192x512 ![] bcast_S_S8192x512),
    StableHlo.TRef.binary (.of main_v132) main_call5.v0 main_call5.v1 maximumf ]

theorem a12_sub : (a12 : List (HloOp τ sig (Elt F))).Forall fun op => op.bufs ⊆ tcRefs τ sig :=
  ⟨unary_bufs_sub .., binary_bufs_sub .., binary_bufs_sub .., unary_bufs_sub .., unary_bufs_sub .., binary_bufs_sub .., nullary_bufs_sub .., unary_bufs_sub .., binary_bufs_sub ..⟩

theorem a12_fresh : (a12 : List (HloOp τ sig (Elt F))).Forall fun op => op.fresh = ∅ :=
  ⟨rfl, rfl, rfl, rfl, rfl, rfl, rfl, rfl, rfl⟩

/-- The references these operations write. -/
abbrev a12_W : List (Ref sig .tc) := [main_v127, main_v128, main_v129, main_v130, main_v131, main_v132, main_call5_cst, main_call5_v0, main_v133]

theorem a12_writes : (a12 : List (HloOp τ sig (Elt F))).Forall fun op => op.writes ⊆ (a12_W.map (Proc.devRef (τ := τ) .tc)).toFinset :=
  ⟨writes_sub (unary_writes ..) (by decide),
    writes_sub (binary_writes ..) (by decide),
    writes_sub (binary_writes ..) (by decide),
    writes_sub (unary_writes ..) (by decide),
    writes_sub (unary_writes ..) (by decide),
    writes_sub (binary_writes ..) (by decide),
    writes_sub (nullary_writes ..) (by decide),
    writes_sub (unary_writes ..) (by decide),
    writes_sub (binary_writes ..) (by decide)⟩

/-- A reference these operations do not write keeps its contents across them. -/
theorem a12_frame (Y : Valuation τ sig (Elt F)) (r : Ref sig .tc) (h : r ∉ a12_W) :
    after a12 Y (no_index (Proc.devRef .tc r)) = Y (Proc.devRef .tc r) :=
  after_of_writes_sub a12 Y a12_writes h

/-- Operations 184 … 195 of @main's straight line (calls replaced by their callees' operations over the call's buffer record). -/
def a13 : List (HloOp τ sig (Elt F)) :=
  [
    StableHlo.nullary main_c_28 (constantI S_ 32 0#32),
    StableHlo.unary main_c_28 main_v134 (broadcastInDim S4096 ![] bcast_S_S4096 : (⟨S_, .i32⟩ : BufTy).Contents (Elt F) → (⟨S4096, .i32⟩ : BufTy).Contents (Elt F)),
    StableHlo.binary main_arg1 main_v134 main_v135 (cmpi .slt : (⟨S4096, .i32⟩ : BufTy).Contents (Elt F) → (⟨S4096, .i32⟩ : BufTy).Contents (Elt F) → (⟨S4096, .i1⟩ : BufTy).Contents (Elt F)),
    StableHlo.nullary main_c_29 (constantI S_ 32 8192#32),
    StableHlo.unary main_c_29 main_v136 (broadcastInDim S4096 ![] bcast_S_S4096 : (⟨S_, .i32⟩ : BufTy).Contents (Elt F) → (⟨S4096, .i32⟩ : BufTy).Contents (Elt F)),
    StableHlo.binary main_arg1 main_v136 main_v137 (addi : (⟨S4096, .i32⟩ : BufTy).Contents (Elt F) → (⟨S4096, .i32⟩ : BufTy).Contents (Elt F) → (⟨S4096, .i32⟩ : BufTy).Contents (Elt F)),
    StableHlo.ternary main_v135 main_v137 main_arg1 main_v138 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v138 main_v139 (broadcastInDim S4096x1 ![0] bcast_S4096_S4096x1_0 : (⟨S4096, .i32⟩ : BufTy).Contents (Elt F) → (⟨S4096x1, .i32⟩ : BufTy).Contents (Elt F)),
    StableHlo.binary main_v133 main_v139 main_v140 ((fun x i => Host.gather gather_S8192x512_S4096x1_S4096x512_1_0_n_n_0_1_1512 x i) : (⟨S8192x512, .f32⟩ : BufTy).Contents (Elt F) → (⟨S4096x1, .i32⟩ : BufTy).Contents (Elt F) → (⟨S4096x512, .f32⟩ : BufTy).Contents (Elt F)),
    StableHlo.binary main_v106 main_v126 main_v141 ((fun a b => concatenate S4096x1024 1 [⟨S4096x512, a⟩, ⟨S4096x512, b⟩] concatenates_S4096x512_S4096x512_S4096x1024_d1) : (⟨S4096x512, .f32⟩ : BufTy).Contents (Elt F) → (⟨S4096x512, .f32⟩ : BufTy).Contents (Elt F) → (⟨S4096x1024, .f32⟩ : BufTy).Contents (Elt F)),
    StableHlo.binary main_v113 main_v140 main_v142 ((fun a b => concatenate S4096x1024 1 [⟨S4096x512, a⟩, ⟨S4096x512, b⟩] concatenates_S4096x512_S4096x512_S4096x1024_d1) : (⟨S4096x512, .f32⟩ : BufTy).Contents (Elt F) → (⟨S4096x512, .f32⟩ : BufTy).Contents (Elt F) → (⟨S4096x1024, .f32⟩ : BufTy).Contents (Elt F)),
    StableHlo.nary ![main_arg2, main_arg3, main_v141, main_v142] main_v143 (fun u => concatenate S4096x3372 1 [⟨S4096x300, u 0⟩, ⟨S4096x1024, u 1⟩, ⟨S4096x1024, u 2⟩, ⟨S4096x1024, u 3⟩] concatenates_S4096x300_S4096x1024_S4096x1024_S4096x1024_S4096x3372_d1) ]

theorem a13_sub : (a13 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nary_bufs_sub ..⟩

theorem a13_fresh : (a13 : List (HloOp τ sig (Elt F))).Forall fun op => op.fresh = ∅ :=
  ⟨rfl, rfl, rfl, rfl, rfl, rfl, rfl, rfl, rfl, rfl, rfl, rfl⟩

/-- The references these operations write. -/
abbrev a13_W : List (Ref sig .tc) := [main_c_28, main_v134, main_v135, main_c_29, main_v136, main_v137, main_v138, main_v139, main_v140, main_v141, main_v142, main_v143]

theorem a13_writes : (a13 : List (HloOp τ sig (Elt F))).Forall fun op => op.writes ⊆ (a13_W.map (Proc.devRef (τ := τ) .tc)).toFinset :=
  ⟨writes_sub (nullary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (ternary_writes ..) (by decide),
    writes_sub (unary_writes ..) (by decide),
    writes_sub (binary_writes ..) (by decide),
    writes_sub (binary_writes ..) (by decide),
    writes_sub (binary_writes ..) (by decide),
    writes_sub (nary_writes ..) (by decide)⟩

/-- A reference these operations do not write keeps its contents across them. -/
theorem a13_frame (Y : Valuation τ sig (Elt F)) (r : Ref sig .tc) (h : r ∉ a13_W) :
    after a13 Y (no_index (Proc.devRef .tc r)) = Y (Proc.devRef .tc r) :=
  after_of_writes_sub a13 Y a13_writes h

/-- Operations 196 … 199 of @main's straight line (calls replaced by their callees' operations over the call's buffer record). -/
def a14 : List (HloOp τ sig (Elt F)) :=
  [
    StableHlo.binary main_v143 main_arg19 main_v144 ((fun l r => Host.dotGeneral dot_S4096x3372_S3372x1024_S4096x1024_1_0_0_1_n_n none l r) : (⟨S4096x3372, .f32⟩ : BufTy).Contents (Elt F) → (⟨S3372x1024, .f32⟩ : BufTy).Contents (Elt F) → (⟨S4096x1024, .f32⟩ : BufTy).Contents (Elt F)),
    StableHlo.unary main_arg20 main_v145 (broadcastInDim S1x1024 ![1] bcast_S1024_S1x1024_1 : (⟨S1024, .f32⟩ : BufTy).Contents (Elt F) → (⟨S1x1024, .f32⟩ : BufTy).Contents (Elt F)),
    StableHlo.unary main_v145 main_v146 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v144 main_v146 main_v147 (addf : (⟨S4096x1024, .f32⟩ : BufTy).Contents (Elt F) → (⟨S4096x1024, .f32⟩ : BufTy).Contents (Elt F) → (⟨S4096x1024, .f32⟩ : BufTy).Contents (Elt F)) ]

theorem a14_sub : (a14 : List (HloOp τ sig (Elt F))).Forall fun op => op.bufs ⊆ tcRefs τ sig :=
  ⟨binary_bufs_sub .., unary_bufs_sub .., unary_bufs_sub .., binary_bufs_sub ..⟩

theorem a14_fresh : (a14 : List (HloOp τ sig (Elt F))).Forall fun op => op.fresh = ∅ :=
  ⟨rfl, rfl, rfl, rfl⟩

/-- The references these operations write. -/
abbrev a14_W : List (Ref sig .tc) := [main_v144, main_v145, main_v146, main_v147]

theorem a14_writes : (a14 : List (HloOp τ sig (Elt F))).Forall fun op => op.writes ⊆ (a14_W.map (Proc.devRef (τ := τ) .tc)).toFinset :=
  ⟨writes_sub (binary_writes ..) (by decide),
    writes_sub (unary_writes ..) (by decide),
    writes_sub (unary_writes ..) (by decide),
    writes_sub (binary_writes ..) (by decide)⟩

/-- A reference these operations do not write keeps its contents across them. -/
theorem a14_frame (Y : Valuation τ sig (Elt F)) (r : Ref sig .tc) (h : r ∉ a14_W) :
    after a14 Y (no_index (Proc.devRef .tc r)) = Y (Proc.devRef .tc r) :=
  after_of_writes_sub a14 Y a14_writes h

/-- Window 2 of @main as operations. -/
abbrev ops2 : List (HloOp τ sig (Elt F)) := a8 ++ (a9 ++ (a10 ++ (a11 ++ (a12 ++ (a13 ++ (a14))))))

set_option maxRecDepth 8192 in
set_option maxHeartbeats 1600000 in
/-- Window 2 is that straight line: the callees' definitions unfolded at their calls, sequencing reassociated. -/
theorem part2_eq (c : Dev nD) : main_part2 (F := F) c = seq ops2 := by
  simp only [main_part2, fn_where.body, fn_where_0.body, fn_leaky_relu.body, fn_relu.body, fn_where_1.body, fn_var.body, fn_relu_2.body, fn_where_4.body, fn_var_3.body, fn_relu_5.body, a8, a9, a10, a11, a12, a13, a14, List.cons_append, List.nil_append, seq, bind_assoc, pure_bind]
  try rfl

theorem ops2_sub : (ops2 : List (HloOp τ sig (Elt F))).Forall fun op => op.bufs ⊆ tcRefs τ sig :=
  List.forall_append.mpr ⟨a8_sub, List.forall_append.mpr ⟨a9_sub, List.forall_append.mpr ⟨a10_sub, List.forall_append.mpr ⟨a11_sub, List.forall_append.mpr ⟨a12_sub, List.forall_append.mpr ⟨a13_sub, a14_sub⟩⟩⟩⟩⟩⟩

theorem ops2_fresh : (ops2 : List (HloOp τ sig (Elt F))).Forall fun op => op.fresh = ∅ :=
  List.forall_append.mpr ⟨a8_fresh, List.forall_append.mpr ⟨a9_fresh, List.forall_append.mpr ⟨a10_fresh, List.forall_append.mpr ⟨a11_fresh, List.forall_append.mpr ⟨a12_fresh, List.forall_append.mpr ⟨a13_fresh, a14_fresh⟩⟩⟩⟩⟩⟩

end Cert.ReferenceIdeal.Hand

end
-- ==== Proof.Ref.Part3.lean ====
import proofs.«141825_j60318520705103_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 200 … 246 of @main's straight line (calls replaced by their callees' operations over the call's buffer record). -/
def a15 : List (HloOp τ sig (Elt F)) :=
  [
    StableHlo.nullary main_cst_30 (constant S_ .f32 0x00000000#32),
    StableHlo.binary main_v147 main_cst_30 main_v148 ((fun x v => Host.reduceAdd x v reducesTo_S4096x1024_S1024_d0 h_S_) : (⟨S4096x1024, .f32⟩ : BufTy).Contents (Elt F) → (⟨S_, .f32⟩ : BufTy).Contents (Elt F) → (⟨S1024, .f32⟩ : BufTy).Contents (Elt F)),
    StableHlo.nullary main_cst_31 (constant S_ .f32 0x45800000#32),
    StableHlo.unary main_cst_31 main_v149 (broadcastInDim S1024 ![] bcast_S_S1024 : (⟨S_, .f32⟩ : BufTy).Contents (Elt F) → (⟨S1024, .f32⟩ : BufTy).Contents (Elt F)),
    StableHlo.binary main_v148 main_v149 main_v150 (Host.divf : (⟨S1024, .f32⟩ : BufTy).Contents (Elt F) → (⟨S1024, .f32⟩ : BufTy).Contents (Elt F) → (⟨S1024, .f32⟩ : BufTy).Contents (Elt F)),
    StableHlo.nullary main_c_32 (constantI S_ 32 0#32),
    StableHlo.TRef.nullary main_call6.cst (constant S_ .f32 0x00000000#32),
    StableHlo.TRef.binary (.of main_v147) main_call6.cst main_call6.v0 (fun x v => Host.reduceAdd x v reducesTo_S4096x1024_S1024_d0 h_S_),
    StableHlo.TRef.unary main_call6.v0 main_call6.v1 (broadcastInDim S1x1024 ![1] bcast_S1024_S1x1024_1),
    StableHlo.TRef.nullary main_call6.cst_0 (constant S_ .f32 0x45800000#32),
    StableHlo.TRef.unary main_call6.cst_0 main_call6.v2 (broadcastInDim S1x1024 ![] bcast_S_S1x1024),
    StableHlo.TRef.binary main_call6.v1 main_call6.v2 main_call6.v3 Host.divf,
    StableHlo.TRef.unary main_call6.v3 main_call6.v4 (broadcastInDim S4096x1024 ![0, 1] bcast_S1x1024_S4096x1024_0_1),
    StableHlo.TRef.binary (.of main_v147) main_call6.v4 main_call6.v5 subf,
    StableHlo.TRef.binary main_call6.v5 main_call6.v5 main_call6.v6 mulf,
    StableHlo.TRef.unary (.of main_c_32) main_call6.v7 (sitofp .f32),
    StableHlo.TRef.nullary main_call6.cst_1 (constant S_ .f32 0x45800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S4096x1024_S1024_d0 h_S_),
    StableHlo.TRef.unary main_call6.v8 main_call6.v10 (broadcastInDim S1024 ![] bcast_S_S1024),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S1024 ![] bcast_S_S1024),
    StableHlo.TRef.ternary main_call6.v12 main_call6.v11 main_call6.call0.v1 main_call6.call0.v2 (fun p a b => select (broadcastInDim S1024 ![] bcast_S_S1024 p) a b),
    StableHlo.unary main_v150 main_v152 (broadcastInDim S1x1024 ![1] bcast_S1024_S1x1024_1 : (⟨S1024, .f32⟩ : BufTy).Contents (Elt F) → (⟨S1x1024, .f32⟩ : BufTy).Contents (Elt F)),
    StableHlo.unary main_v152 main_v153 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v147 main_v153 main_v154 (subf : (⟨S4096x1024, .f32⟩ : BufTy).Contents (Elt F) → (⟨S4096x1024, .f32⟩ : BufTy).Contents (Elt F) → (⟨S4096x1024, .f32⟩ : BufTy).Contents (Elt F)),
    StableHlo.nullary main_cst_33 (constant S_ .f32 0x3727C5AC#32),
    StableHlo.unary main_cst_33 main_v155 (broadcastInDim S1024 ![] bcast_S_S1024 : (⟨S_, .f32⟩ : BufTy).Contents (Elt F) → (⟨S1024, .f32⟩ : BufTy).Contents (Elt F)),
    StableHlo.binary main_v151 main_v155 main_v156 (addf : (⟨S1024, .f32⟩ : BufTy).Contents (Elt F) → (⟨S1024, .f32⟩ : BufTy).Contents (Elt F) → (⟨S1024, .f32⟩ : BufTy).Contents (Elt F)),
    StableHlo.unary main_v156 main_v157 (Host.rsqrt : (⟨S1024, .f32⟩ : BufTy).Contents (Elt F) → (⟨S1024, .f32⟩ : BufTy).Contents (Elt F)),
    StableHlo.unary main_v157 main_v158 (broadcastInDim S1x1024 ![1] bcast_S1024_S1x1024_1 : (⟨S1024, .f32⟩ : BufTy).Contents (Elt F) → (⟨S1x1024, .f32⟩ : BufTy).Contents (Elt F)),
    StableHlo.unary main_v158 main_v159 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v154 main_v159 main_v160 (mulf : (⟨S4096x1024, .f32⟩ : BufTy).Contents (Elt F) → (⟨S4096x1024, .f32⟩ : BufTy).Contents (Elt F) → (⟨S4096x1024, .f32⟩ : BufTy).Contents (Elt F)),
    StableHlo.unary main_arg21 main_v161 (broadcastInDim S1x1024 ![1] bcast_S1024_S1x1024_1 : (⟨S1024, .f32⟩ : BufTy).Contents (Elt F) → (⟨S1x1024, .f32⟩ : BufTy).Contents (Elt F)),
    StableHlo.unary main_v161 main_v162 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v160 main_v162 main_v163 (mulf : (⟨S4096x1024, .f32⟩ : BufTy).Contents (Elt F) → (⟨S4096x1024, .f32⟩ : BufTy).Contents (Elt F) → (⟨S4096x1024, .f32⟩ : BufTy).Contents (Elt F)),
    StableHlo.unary main_arg22 main_v164 (broadcastInDim S1x1024 ![1] bcast_S1024_S1x1024_1 : (⟨S1024, .f32⟩ : BufTy).Contents (Elt F) → (⟨S1x1024, .f32⟩ : BufTy).Contents (Elt F)),
    StableHlo.unary main_v164 main_v165 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v163 main_v165 main_v166 (addf : (⟨S4096x1024, .f32⟩ : BufTy).Contents (Elt F) → (⟨S4096x1024, .f32⟩ : BufTy).Contents (Elt F) → (⟨S4096x1024, .f32⟩ : BufTy).Contents (Elt F)),
    StableHlo.TRef.nullary main_call7.cst (constant S_ .f32 0x00000000#32),
    StableHlo.TRef.unary main_call7.cst main_call7.v0 (broadcastInDim S4096x1024 ![] bcast_S_S4096x1024),
    StableHlo.TRef.binary (.of main_v166) main_call7.v0 main_call7.v1 maximumf ]

theorem a15_sub : (a15 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem a15_fresh : (a15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references these operations write. -/
abbrev a15_W : List (Ref sig .tc) := [main_cst_30, main_v148, main_cst_31, main_v149, main_v150, main_c_32, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v151, main_v152, main_v153, main_v154, main_cst_33, main_v155, main_v156, main_v157, main_v158, main_v159, main_v160, main_v161, main_v162, main_v163, main_v164, main_v165, main_v166, main_call7_cst, main_call7_v0, main_v167]

theorem a15_writes : (a15 : List (HloOp τ sig (Elt F))).Forall fun op => op.writes ⊆ (a15_W.map (Proc.devRef (τ := τ) .tc)).toFinset :=
  ⟨writes_sub (nullary_writes ..) (by decide),
    writes_sub (binary_writes ..) (by decide),
    writes_sub (nullary_writes ..) (by decide),
    writes_sub (unary_writes ..) (by decide),
    writes_sub (binary_writes ..) (by decide),
    writes_sub (nullary_writes ..) (by decide),
    writes_sub (nullary_writes ..) (by decide),
    writes_sub (binary_writes ..) (by decide),
    writes_sub (unary_writes ..) (by decide),
    writes_sub (nullary_writes ..) (by decide),
    writes_sub (unary_writes ..) (by decide),
    writes_sub (binary_writes ..) (by decide),
    writes_sub (unary_writes ..) (by decide),
    writes_sub (binary_writes ..) (by decide),
    writes_sub (binary_writes ..) (by decide),
    writes_sub (unary_writes ..) (by decide),
    writes_sub (nullary_writes ..) (by decide),
    writes_sub (binary_writes ..) (by decide),
    writes_sub (nullary_writes ..) (by decide),
    writes_sub (binary_writes ..) (by decide),
    writes_sub (unary_writes ..) (by decide),
    writes_sub (binary_writes ..) (by decide),
    writes_sub (nullary_writes ..) (by decide),
    writes_sub (binary_writes ..) (by decide),
    writes_sub (nullary_writes ..) (by decide),
    writes_sub (unary_writes ..) (by decide),
    writes_sub (unary_writes ..) (by decide),
    writes_sub (ternary_writes ..) (by decide),
    writes_sub (unary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (unary_writes ..) (by decide),
    writes_sub (unary_writes ..) (by decide),
    writes_sub (unary_writes ..) (by decide),
    writes_sub (binary_writes ..) (by decide),
    writes_sub (unary_writes ..) (by decide),
    writes_sub (unary_writes ..) (by decide),
    writes_sub (binary_writes ..) (by decide),
    writes_sub (unary_writes ..) (by decide),
    writes_sub (unary_writes ..) (by decide),
    writes_sub (binary_writes ..) (by decide),
    writes_sub (nullary_writes ..) (by decide),
    writes_sub (unary_writes ..) (by decide),
    writes_sub (binary_writes ..) (by decide)⟩

/-- A reference these operations do not write keeps its contents across them. -/
theorem a15_frame (Y : Valuation τ sig (Elt F)) (r : Ref sig .tc) (h : r ∉ a15_W) :
    after a15 Y (no_index (Proc.devRef .tc r)) = Y (Proc.devRef .tc r) :=
  after_of_writes_sub a15 Y a15_writes h

/-- Operations 247 … 250 of @main's straight line (calls replaced by their callees' operations over the call's buffer record). -/
def a16 : List (HloOp τ sig (Elt F)) :=
  [
    StableHlo.binary main_v167 main_arg23 main_v168 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    StableHlo.unary main_arg24 main_v169 (broadcastInDim S1x256 ![1] bcast_S256_S1x256_1 : (⟨S256, .f32⟩ : BufTy).Contents (Elt F) → (⟨S1x256, .f32⟩ : BufTy).Contents (Elt F)),
    StableHlo.unary main_v169 main_v170 (broadcastInDim S4096x256 ![0, 1] bcast_S1x256_S4096x256_0_1 : (⟨S1x256, .f32⟩ : BufTy).Contents (Elt F) → (⟨S4096x256, .f32⟩ : BufTy).Contents (Elt F)),
    StableHlo.binary main_v168 main_v170 main_v171 (addf : (⟨S4096x256, .f32⟩ : BufTy).Contents (Elt F) → (⟨S4096x256, .f32⟩ : BufTy).Contents (Elt F) → (⟨S4096x256, .f32⟩ : BufTy).Contents (Elt F)) ]

theorem a16_sub : (a16 : List (HloOp τ sig (Elt F))).Forall fun op => op.bufs ⊆ tcRefs τ sig :=
  ⟨binary_bufs_sub .., unary_bufs_sub .., unary_bufs_sub .., binary_bufs_sub ..⟩

theorem a16_fresh : (a16 : List (HloOp τ sig (Elt F))).Forall fun op => op.fresh = ∅ :=
  ⟨rfl, rfl, rfl, rfl⟩

/-- The references these operations write. -/
abbrev a16_W : List (Ref sig .tc) := [main_v168, main_v169, main_v170, main_v171]

theorem a16_writes : (a16 : List (HloOp τ sig (Elt F))).Forall fun op => op.writes ⊆ (a16_W.map (Proc.devRef (τ := τ) .tc)).toFinset :=
  ⟨writes_sub (binary_writes ..) (by decide),
    writes_sub (unary_writes ..) (by decide),
    writes_sub (unary_writes ..) (by decide),
    writes_sub (binary_writes ..) (by decide)⟩

/-- A reference these operations do not write keeps its contents across them. -/
theorem a16_frame (Y : Valuation τ sig (Elt F)) (r : Ref sig .tc) (h : r ∉ a16_W) :
    after a16 Y (no_index (Proc.devRef .tc r)) = Y (Proc.devRef .tc r) :=
  after_of_writes_sub a16 Y a16_writes h

/-- Operations 251 … 297 of @main's straight line (calls replaced by their callees' operations over the call's buffer record). -/
def a17 : List (HloOp τ sig (Elt F)) :=
  [
    StableHlo.nullary main_cst_34 (constant S_ .f32 0x00000000#32),
    StableHlo.binary main_v171 main_cst_34 main_v172 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    StableHlo.nullary main_cst_35 (constant S_ .f32 0x45800000#32),
    StableHlo.unary main_cst_35 main_v173 (broadcastInDim S256 ![] bcast_S_S256 : (⟨S_, .f32⟩ : BufTy).Contents (Elt F) → (⟨S256, .f32⟩ : BufTy).Contents (Elt F)),
    StableHlo.binary main_v172 main_v173 main_v174 (Host.divf : (⟨S256, .f32⟩ : BufTy).Contents (Elt F) → (⟨S256, .f32⟩ : BufTy).Contents (Elt F) → (⟨S256, .f32⟩ : BufTy).Contents (Elt F)),
    StableHlo.nullary main_c_36 (constantI S_ 32 0#32),
    StableHlo.TRef.nullary main_call8.cst (constant S_ .f32 0x00000000#32),
    StableHlo.TRef.binary (.of main_v171) main_call8.cst main_call8.v0 (fun x v => Host.reduceAdd x v reducesTo_S4096x256_S256_d0 h_S_),
    StableHlo.TRef.unary main_call8.v0 main_call8.v1 (broadcastInDim S1x256 ![1] bcast_S256_S1x256_1),
    StableHlo.TRef.nullary main_call8.cst_0 (constant S_ .f32 0x45800000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S4096x256 ![0, 1] bcast_S1x256_S4096x256_0_1),
    StableHlo.TRef.binary (.of main_v171) main_call8.v4 main_call8.v5 subf,
    StableHlo.TRef.binary main_call8.v5 main_call8.v5 main_call8.v6 mulf,
    StableHlo.TRef.unary (.of main_c_36) main_call8.v7 (sitofp .f32),
    StableHlo.TRef.nullary main_call8.cst_1 (constant S_ .f32 0x45800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S4096x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v174 main_v176 (broadcastInDim S1x256 ![1] bcast_S256_S1x256_1 : (⟨S256, .f32⟩ : BufTy).Contents (Elt F) → (⟨S1x256, .f32⟩ : BufTy).Contents (Elt F)),
    StableHlo.unary main_v176 main_v177 (broadcastInDim S4096x256 ![0, 1] bcast_S1x256_S4096x256_0_1 : (⟨S1x256, .f32⟩ : BufTy).Contents (Elt F) → (⟨S4096x256, .f32⟩ : BufTy).Contents (Elt F)),
    StableHlo.binary main_v171 main_v177 main_v178 (subf : (⟨S4096x256, .f32⟩ : BufTy).Contents (Elt F) → (⟨S4096x256, .f32⟩ : BufTy).Contents (Elt F) → (⟨S4096x256, .f32⟩ : BufTy).Contents (Elt F)),
    StableHlo.nullary main_cst_37 (constant S_ .f32 0x3727C5AC#32),
    StableHlo.unary main_cst_37 main_v179 (broadcastInDim S256 ![] bcast_S_S256 : (⟨S_, .f32⟩ : BufTy).Contents (Elt F) → (⟨S256, .f32⟩ : BufTy).Contents (Elt F)),
    StableHlo.binary main_v175 main_v179 main_v180 (addf : (⟨S256, .f32⟩ : BufTy).Contents (Elt F) → (⟨S256, .f32⟩ : BufTy).Contents (Elt F) → (⟨S256, .f32⟩ : BufTy).Contents (Elt F)),
    StableHlo.unary main_v180 main_v181 (Host.rsqrt : (⟨S256, .f32⟩ : BufTy).Contents (Elt F) → (⟨S256, .f32⟩ : BufTy).Contents (Elt F)),
    StableHlo.unary main_v181 main_v182 (broadcastInDim S1x256 ![1] bcast_S256_S1x256_1 : (⟨S256, .f32⟩ : BufTy).Contents (Elt F) → (⟨S1x256, .f32⟩ : BufTy).Contents (Elt F)),
    StableHlo.unary main_v182 main_v183 (broadcastInDim S4096x256 ![0, 1] bcast_S1x256_S4096x256_0_1 : (⟨S1x256, .f32⟩ : BufTy).Contents (Elt F) → (⟨S4096x256, .f32⟩ : BufTy).Contents (Elt F)),
    StableHlo.binary main_v178 main_v183 main_v184 (mulf : (⟨S4096x256, .f32⟩ : BufTy).Contents (Elt F) → (⟨S4096x256, .f32⟩ : BufTy).Contents (Elt F) → (⟨S4096x256, .f32⟩ : BufTy).Contents (Elt F)),
    StableHlo.unary main_arg25 main_v185 (broadcastInDim S1x256 ![1] bcast_S256_S1x256_1 : (⟨S256, .f32⟩ : BufTy).Contents (Elt F) → (⟨S1x256, .f32⟩ : BufTy).Contents (Elt F)),
    StableHlo.unary main_v185 main_v186 (broadcastInDim S4096x256 ![0, 1] bcast_S1x256_S4096x256_0_1 : (⟨S1x256, .f32⟩ : BufTy).Contents (Elt F) → (⟨S4096x256, .f32⟩ : BufTy).Contents (Elt F)),
    StableHlo.binary main_v184 main_v186 main_v187 (mulf : (⟨S4096x256, .f32⟩ : BufTy).Contents (Elt F) → (⟨S4096x256, .f32⟩ : BufTy).Contents (Elt F) → (⟨S4096x256, .f32⟩ : BufTy).Contents (Elt F)),
    StableHlo.unary main_arg26 main_v188 (broadcastInDim S1x256 ![1] bcast_S256_S1x256_1 : (⟨S256, .f32⟩ : BufTy).Contents (Elt F) → (⟨S1x256, .f32⟩ : BufTy).Contents (Elt F)),
    StableHlo.unary main_v188 main_v189 (broadcastInDim S4096x256 ![0, 1] bcast_S1x256_S4096x256_0_1 : (⟨S1x256, .f32⟩ : BufTy).Contents (Elt F) → (⟨S4096x256, .f32⟩ : BufTy).Contents (Elt F)),
    StableHlo.binary main_v187 main_v189 main_v190 (addf : (⟨S4096x256, .f32⟩ : BufTy).Contents (Elt F) → (⟨S4096x256, .f32⟩ : BufTy).Contents (Elt F) → (⟨S4096x256, .f32⟩ : BufTy).Contents (Elt F)),
    StableHlo.TRef.nullary main_call9.cst (constant S_ .f32 0x00000000#32),
    StableHlo.TRef.unary main_call9.cst main_call9.v0 (broadcastInDim S4096x256 ![] bcast_S_S4096x256),
    StableHlo.TRef.binary (.of main_v190) main_call9.v0 main_call9.v1 maximumf ]

theorem a17_sub : (a17 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem a17_fresh : (a17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references these operations write. -/
abbrev a17_W : List (Ref sig .tc) := [main_cst_34, main_v172, main_cst_35, main_v173, main_v174, main_c_36, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v175, main_v176, main_v177, main_v178, main_cst_37, main_v179, main_v180, main_v181, main_v182, main_v183, main_v184, main_v185, main_v186, main_v187, main_v188, main_v189, main_v190, main_call9_cst, main_call9_v0, main_v191]

theorem a17_writes : (a17 : List (HloOp τ sig (Elt F))).Forall fun op => op.writes ⊆ (a17_W.map (Proc.devRef (τ := τ) .tc)).toFinset :=
  ⟨writes_sub (nullary_writes ..) (by decide),
    writes_sub (binary_writes ..) (by decide),
    writes_sub (nullary_writes ..) (by decide),
    writes_sub (unary_writes ..) (by decide),
    writes_sub (binary_writes ..) (by decide),
    writes_sub (nullary_writes ..) (by decide),
    writes_sub (nullary_writes ..) (by decide),
    writes_sub (binary_writes ..) (by decide),
    writes_sub (unary_writes ..) (by decide),
    writes_sub (nullary_writes ..) (by decide),
    writes_sub (unary_writes ..) (by decide),
    writes_sub (binary_writes ..) (by decide),
    writes_sub (unary_writes ..) (by decide),
    writes_sub (binary_writes ..) (by decide),
    writes_sub (binary_writes ..) (by decide),
    writes_sub (unary_writes ..) (by decide),
    writes_sub (nullary_writes ..) (by decide),
    writes_sub (binary_writes ..) (by decide),
    writes_sub (nullary_writes ..) (by decide),
    writes_sub (binary_writes ..) (by decide),
    writes_sub (unary_writes ..) (by decide),
    writes_sub (binary_writes ..) (by decide),
    writes_sub (nullary_writes ..) (by decide),
    writes_sub (binary_writes ..) (by decide),
    writes_sub (nullary_writes ..) (by decide),
    writes_sub (unary_writes ..) (by decide),
    writes_sub (unary_writes ..) (by decide),
    writes_sub (ternary_writes ..) (by decide),
    writes_sub (unary_writes ..) (by decide),
    writes_sub (unary_writes ..) (by decide),
    writes_sub (binary_writes ..) (by decide),
    writes_sub (nullary_writes ..) (by decide),
    writes_sub (unary_writes ..) (by decide),
    writes_sub (binary_writes ..) (by decide),
    writes_sub (unary_writes ..) (by decide),
    writes_sub (unary_writes ..) (by decide),
    writes_sub (unary_writes ..) (by decide),
    writes_sub (binary_writes ..) (by decide),
    writes_sub (unary_writes ..) (by decide),
    writes_sub (unary_writes ..) (by decide),
    writes_sub (binary_writes ..) (by decide),
    writes_sub (unary_writes ..) (by decide),
    writes_sub (unary_writes ..) (by decide),
    writes_sub (binary_writes ..) (by decide),
    writes_sub (nullary_writes ..) (by decide),
    writes_sub (unary_writes ..) (by decide),
    writes_sub (binary_writes ..) (by decide)⟩

/-- A reference these operations do not write keeps its contents across them. -/
theorem a17_frame (Y : Valuation τ sig (Elt F)) (r : Ref sig .tc) (h : r ∉ a17_W) :
    after a17 Y (no_index (Proc.devRef .tc r)) = Y (Proc.devRef .tc r) :=
  after_of_writes_sub a17 Y a17_writes h

/-- Operations 298 … 301 of @main's straight line (calls replaced by their callees' operations over the call's buffer record). -/
def a18 : List (HloOp τ sig (Elt F)) :=
  [
    StableHlo.binary main_v191 main_arg27 main_v192 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    StableHlo.unary main_arg28 main_v193 (broadcastInDim S1x1 ![1] bcast_S1_S1x1_1 : (⟨S1, .f32⟩ : BufTy).Contents (Elt F) → (⟨S1x1, .f32⟩ : BufTy).Contents (Elt F)),
    StableHlo.unary main_v193 main_v194 (broadcastInDim S4096x1 ![0, 1] bcast_S1x1_S4096x1_0_1 : (⟨S1x1, .f32⟩ : BufTy).Contents (Elt F) → (⟨S4096x1, .f32⟩ : BufTy).Contents (Elt F)),
    StableHlo.binary main_v192 main_v194 main_v195 (addf : (⟨S4096x1, .f32⟩ : BufTy).Contents (Elt F) → (⟨S4096x1, .f32⟩ : BufTy).Contents (Elt F) → (⟨S4096x1, .f32⟩ : BufTy).Contents (Elt F)) ]

theorem a18_sub : (a18 : List (HloOp τ sig (Elt F))).Forall fun op => op.bufs ⊆ tcRefs τ sig :=
  ⟨binary_bufs_sub .., unary_bufs_sub .., unary_bufs_sub .., binary_bufs_sub ..⟩

theorem a18_fresh : (a18 : List (HloOp τ sig (Elt F))).Forall fun op => op.fresh = ∅ :=
  ⟨rfl, rfl, rfl, rfl⟩

/-- The references these operations write. -/
abbrev a18_W : List (Ref sig .tc) := [main_v192, main_v193, main_v194, main_v195]

theorem a18_writes : (a18 : List (HloOp τ sig (Elt F))).Forall fun op => op.writes ⊆ (a18_W.map (Proc.devRef (τ := τ) .tc)).toFinset :=
  ⟨writes_sub (binary_writes ..) (by decide),
    writes_sub (unary_writes ..) (by decide),
    writes_sub (unary_writes ..) (by decide),
    writes_sub (binary_writes ..) (by decide)⟩

/-- A reference these operations do not write keeps its contents across them. -/
theorem a18_frame (Y : Valuation τ sig (Elt F)) (r : Ref sig .tc) (h : r ∉ a18_W) :
    after a18 Y (no_index (Proc.devRef .tc r)) = Y (Proc.devRef .tc r) :=
  after_of_writes_sub a18 Y a18_writes h

/-- Window 3 of @main as operations. -/
abbrev ops3 : List (HloOp τ sig (Elt F)) := a15 ++ (a16 ++ (a17 ++ (a18)))

set_option maxRecDepth 8192 in
set_option maxHeartbeats 1600000 in
/-- Window 3 is that straight line: the callees' definitions unfolded at their calls, sequencing reassociated. -/
theorem part3_eq (c : Dev nD) : main_part3 (F := F) c = seq ops3 := by
  simp only [main_part3, fn_where.body, fn_where_0.body, fn_leaky_relu.body, fn_relu.body, fn_where_1.body, fn_var.body, fn_relu_2.body, fn_where_4.body, fn_var_3.body, fn_relu_5.body, a15, a16, a17, a18, List.cons_append, List.nil_append, seq, bind_assoc, pure_bind]
  try rfl

theorem ops3_sub : (ops3 : List (HloOp τ sig (Elt F))).Forall fun op => op.bufs ⊆ tcRefs τ sig :=
  List.forall_append.mpr ⟨a15_sub, List.forall_append.mpr ⟨a16_sub, List.forall_append.mpr ⟨a17_sub, a18_sub⟩⟩⟩

theorem ops3_fresh : (ops3 : List (HloOp τ sig (Elt F))).Forall fun op => op.fresh = ∅ :=
  List.forall_append.mpr ⟨a15_fresh, List.forall_append.mpr ⟨a16_fresh, List.forall_append.mpr ⟨a17_fresh, a18_fresh⟩⟩⟩

end Cert.ReferenceIdeal.Hand

end
-- ==== Proof.Ref.Run.lean ====
import proofs.«141825_j60318520705103_1_alg».proof.Proof.Ref.Part0
import proofs.«141825_j60318520705103_1_alg».proof.Proof.Ref.Part1
import proofs.«141825_j60318520705103_1_alg».proof.Proof.Ref.Part2
import proofs.«141825_j60318520705103_1_alg».proof.Proof.Ref.Part3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order, every call replaced by its callee's operations. -/
abbrev ops : List (HloOp τ sig (Elt F)) := ops0 ++ (ops1 ++ (ops2 ++ ops3))

/-- @main is that straight line: its four windows are, and sequencing two lines is running their concatenation. -/
theorem main_eq (c : Dev nD) : main (F := F) c = seq ops := by
  rw [show (ops : List (HloOp τ sig (Elt F))) = ops0 ++ (ops1 ++ (ops2 ++ ops3)) from rfl,
    seq_append ops0 (ops1 ++ (ops2 ++ ops3)), seq_append ops1 (ops2 ++ ops3), seq_append ops2 ops3,
    ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

theorem ops_fresh : (ops : List (HloOp τ sig (Elt F))).Forall fun op => op.fresh = ∅ :=
  List.forall_append.mpr ⟨ops0_fresh, List.forall_append.mpr ⟨ops1_fresh, List.forall_append.mpr ⟨ops2_fresh, ops3_fresh⟩⟩⟩

/-- On every device, for any float values, from any memory with zero counters: every weakly fair execution of
    @main terminates with each TensorCore buffer at the operations' fold over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp ops_fresh op h)

/-- The fold over @main's operations, sub-list by sub-list. -/
theorem after_ops (V : Valuation τ sig (Elt F)) :
    after ops V = after a18 (after a17 (after a16 (after a15 (after a14 (after a13 (after a12 (after a11 (after a10 (after a9 (after a8 (after a7 (after a6 (after a5 (after a4 (after a3 (after a2 (after a1 (V)))))))))))))))))) := by
  simp only [ops, ops0, ops1, ops2, ops3, after_app]

/-- No operation writes argument 0. -/
theorem after_main_arg0 (V : Valuation τ sig (Elt F)) :
    after ops V (Proc.devRef .tc main_arg0) = V (Proc.devRef .tc main_arg0) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 1. -/
theorem after_main_arg1 (V : Valuation τ sig (Elt F)) :
    after ops V (Proc.devRef .tc main_arg1) = V (Proc.devRef .tc main_arg1) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 2. -/
theorem after_main_arg2 (V : Valuation τ sig (Elt F)) :
    after ops V (Proc.devRef .tc main_arg2) = V (Proc.devRef .tc main_arg2) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 3. -/
theorem after_main_arg3 (V : Valuation τ sig (Elt F)) :
    after ops V (Proc.devRef .tc main_arg3) = V (Proc.devRef .tc main_arg3) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 4. -/
theorem after_main_arg4 (V : Valuation τ sig (Elt F)) :
    after ops V (Proc.devRef .tc main_arg4) = V (Proc.devRef .tc main_arg4) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 5. -/
theorem after_main_arg5 (V : Valuation τ sig (Elt F)) :
    after ops V (Proc.devRef .tc main_arg5) = V (Proc.devRef .tc main_arg5) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 6. -/
theorem after_main_arg6 (V : Valuation τ sig (Elt F)) :
    after ops V (Proc.devRef .tc main_arg6) = V (Proc.devRef .tc main_arg6) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 7. -/
theorem after_main_arg7 (V : Valuation τ sig (Elt F)) :
    after ops V (Proc.devRef .tc main_arg7) = V (Proc.devRef .tc main_arg7) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 8. -/
theorem after_main_arg8 (V : Valuation τ sig (Elt F)) :
    after ops V (Proc.devRef .tc main_arg8) = V (Proc.devRef .tc main_arg8) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 9. -/
theorem after_main_arg9 (V : Valuation τ sig (Elt F)) :
    after ops V (Proc.devRef .tc main_arg9) = V (Proc.devRef .tc main_arg9) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 10. -/
theorem after_main_arg10 (V : Valuation τ sig (Elt F)) :
    after ops V (Proc.devRef .tc main_arg10) = V (Proc.devRef .tc main_arg10) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 11. -/
theorem after_main_arg11 (V : Valuation τ sig (Elt F)) :
    after ops V (Proc.devRef .tc main_arg11) = V (Proc.devRef .tc main_arg11) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 12. -/
theorem after_main_arg12 (V : Valuation τ sig (Elt F)) :
    after ops V (Proc.devRef .tc main_arg12) = V (Proc.devRef .tc main_arg12) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 13. -/
theorem after_main_arg13 (V : Valuation τ sig (Elt F)) :
    after ops V (Proc.devRef .tc main_arg13) = V (Proc.devRef .tc main_arg13) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 14. -/
theorem after_main_arg14 (V : Valuation τ sig (Elt F)) :
    after ops V (Proc.devRef .tc main_arg14) = V (Proc.devRef .tc main_arg14) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 15. -/
theorem after_main_arg15 (V : Valuation τ sig (Elt F)) :
    after ops V (Proc.devRef .tc main_arg15) = V (Proc.devRef .tc main_arg15) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 16. -/
theorem after_main_arg16 (V : Valuation τ sig (Elt F)) :
    after ops V (Proc.devRef .tc main_arg16) = V (Proc.devRef .tc main_arg16) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 17. -/
theorem after_main_arg17 (V : Valuation τ sig (Elt F)) :
    after ops V (Proc.devRef .tc main_arg17) = V (Proc.devRef .tc main_arg17) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 18. -/
theorem after_main_arg18 (V : Valuation τ sig (Elt F)) :
    after ops V (Proc.devRef .tc main_arg18) = V (Proc.devRef .tc main_arg18) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 19. -/
theorem after_main_arg19 (V : Valuation τ sig (Elt F)) :
    after ops V (Proc.devRef .tc main_arg19) = V (Proc.devRef .tc main_arg19) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 20. -/
theorem after_main_arg20 (V : Valuation τ sig (Elt F)) :
    after ops V (Proc.devRef .tc main_arg20) = V (Proc.devRef .tc main_arg20) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 21. -/
theorem after_main_arg21 (V : Valuation τ sig (Elt F)) :
    after ops V (Proc.devRef .tc main_arg21) = V (Proc.devRef .tc main_arg21) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 22. -/
theorem after_main_arg22 (V : Valuation τ sig (Elt F)) :
    after ops V (Proc.devRef .tc main_arg22) = V (Proc.devRef .tc main_arg22) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 23. -/
theorem after_main_arg23 (V : Valuation τ sig (Elt F)) :
    after ops V (Proc.devRef .tc main_arg23) = V (Proc.devRef .tc main_arg23) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 24. -/
theorem after_main_arg24 (V : Valuation τ sig (Elt F)) :
    after ops V (Proc.devRef .tc main_arg24) = V (Proc.devRef .tc main_arg24) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 25. -/
theorem after_main_arg25 (V : Valuation τ sig (Elt F)) :
    after ops V (Proc.devRef .tc main_arg25) = V (Proc.devRef .tc main_arg25) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 26. -/
theorem after_main_arg26 (V : Valuation τ sig (Elt F)) :
    after ops V (Proc.devRef .tc main_arg26) = V (Proc.devRef .tc main_arg26) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 27. -/
theorem after_main_arg27 (V : Valuation τ sig (Elt F)) :
    after ops V (Proc.devRef .tc main_arg27) = V (Proc.devRef .tc main_arg27) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- No operation writes argument 28. -/
theorem after_main_arg28 (V : Valuation τ sig (Elt F)) :
    after ops V (Proc.devRef .tc main_arg28) = V (Proc.devRef .tc main_arg28) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18_frame]

/-- The arguments are unchanged by @main. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c =>
    ⟨(h c main_arg0).trans (after_main_arg0 _),
      (h c main_arg1).trans (after_main_arg1 _),
      (h c main_arg2).trans (after_main_arg2 _),
      (h c main_arg3).trans (after_main_arg3 _),
      (h c main_arg4).trans (after_main_arg4 _),
      (h c main_arg5).trans (after_main_arg5 _),
      (h c main_arg6).trans (after_main_arg6 _),
      (h c main_arg7).trans (after_main_arg7 _),
      (h c main_arg8).trans (after_main_arg8 _),
      (h c main_arg9).trans (after_main_arg9 _),
      (h c main_arg10).trans (after_main_arg10 _),
      (h c main_arg11).trans (after_main_arg11 _),
      (h c main_arg12).trans (after_main_arg12 _),
      (h c main_arg13).trans (after_main_arg13 _),
      (h c main_arg14).trans (after_main_arg14 _),
      (h c main_arg15).trans (after_main_arg15 _),
      (h c main_arg16).trans (after_main_arg16 _),
      (h c main_arg17).trans (after_main_arg17 _),
      (h c main_arg18).trans (after_main_arg18 _),
      (h c main_arg19).trans (after_main_arg19 _),
      (h c main_arg20).trans (after_main_arg20 _),
      (h c main_arg21).trans (after_main_arg21 _),
      (h c main_arg22).trans (after_main_arg22 _),
      (h c main_arg23).trans (after_main_arg23 _),
      (h c main_arg24).trans (after_main_arg24 _),
      (h c main_arg25).trans (after_main_arg25 _),
      (h c main_arg26).trans (after_main_arg26 _),
      (h c main_arg27).trans (after_main_arg27 _),
      (h c main_arg28).trans (after_main_arg28 _)⟩)
    (run_raw m ρ)

end Cert.ReferenceIdeal.Hand

end
-- ==== Proof.Ref.StageAffinity.lean ====
import proofs.«141825_j60318520705103_1_alg».proof.Proof.Ref.Run
import proofs.«141825_j60318520705103_1_alg».proof.Proof.Ref.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.reduceAdd Host.rsqrt Host.divf concatenate broadcastInDim extractStridedSlice transpose shapeCast in
set_option maxRecDepth 16384 in
set_option maxHeartbeats 4000000 in
/-- The first affinity branch's buffer holds `affinity` of the second layer's output. -/
theorem stage_p2d (V : Valuation τ sig (Elt F)) :
    after ops V (Proc.devRef .tc main_v119) = affinity (V (Proc.devRef .tc main_arg10)) (after ops V (Proc.devRef .tc main_v99)) (V (Proc.devRef .tc main_arg15)) (V (Proc.devRef .tc main_arg16)) := by
  simp (disch := decide) only [after_ops, a1_frame, a2_frame, a3_frame, a4_frame, a5_frame, a6_frame, a7_frame, a8_frame, a9_frame, a11_frame, a12_frame, a13_frame, a14_frame, a15_frame, a16_frame, a17_frame, a18_frame, a10, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "stage_p2d: the composed term is not the definition's by rfl"

attribute [local irreducible] Host.scatterAdd Host.gather Host.reduceAdd Host.rsqrt Host.divf concatenate broadcastInDim extractStridedSlice transpose shapeCast in
set_option maxRecDepth 16384 in
set_option maxHeartbeats 4000000 in
/-- The second affinity branch's buffer holds `affinityT` of the first layer's output. -/
theorem stage_d2p (V : Valuation τ sig (Elt F)) :
    after ops V (Proc.devRef .tc main_v133) = affinityT (V (Proc.devRef .tc main_arg10)) (after ops V (Proc.devRef .tc main_v49)) (V (Proc.devRef .tc main_arg17)) (V (Proc.devRef .tc main_arg18)) := by
  simp (disch := decide) only [after_ops, a1_frame, a2_frame, a3_frame, a4_frame, a5_frame, a6_frame, a7_frame, a8_frame, a9_frame, a10_frame, a11_frame, a13_frame, a14_frame, a15_frame, a16_frame, a17_frame, a18_frame, a12, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "stage_d2p: the composed term is not the definition's by rfl"

end Cert.ReferenceIdeal.Hand

end
-- ==== Proof.Ref.StageDense.lean ====
import proofs.«141825_j60318520705103_1_alg».proof.Proof.Ref.Run
import proofs.«141825_j60318520705103_1_alg».proof.Proof.Ref.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.reduceAdd Host.rsqrt Host.divf concatenate broadcastInDim extractStridedSlice transpose shapeCast in
set_option maxRecDepth 16384 in
set_option maxHeartbeats 4000000 in
/-- The first dense layer. -/
theorem stage_y1 (V : Valuation τ sig (Elt F)) :
    after ops V (Proc.devRef .tc main_v147) = dense1 (after ops V (Proc.devRef .tc main_v143)) (V (Proc.devRef .tc main_arg19)) (V (Proc.devRef .tc main_arg20)) := by
  simp (disch := decide) only [after_ops, a1_frame, a2_frame, a3_frame, a4_frame, a5_frame, a6_frame, a7_frame, a8_frame, a9_frame, a10_frame, a11_frame, a12_frame, a13_frame, a15_frame, a16_frame, a17_frame, a18_frame, a14, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "stage_y1: the composed term is not the definition's by rfl"

attribute [local irreducible] Host.scatterAdd Host.gather Host.reduceAdd Host.rsqrt Host.divf concatenate broadcastInDim extractStridedSlice transpose shapeCast in
set_option maxRecDepth 16384 in
set_option maxHeartbeats 4000000 in
/-- The second dense layer. -/
theorem stage_y2 (V : Valuation τ sig (Elt F)) :
    after ops V (Proc.devRef .tc main_v171) = dense2 (after ops V (Proc.devRef .tc main_v167)) (V (Proc.devRef .tc main_arg23)) (V (Proc.devRef .tc main_arg24)) := by
  simp (disch := decide) only [after_ops, a1_frame, a2_frame, a3_frame, a4_frame, a5_frame, a6_frame, a7_frame, a8_frame, a9_frame, a10_frame, a11_frame, a12_frame, a13_frame, a14_frame, a15_frame, a17_frame, a18_frame, a16, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "stage_y2: the composed term is not the definition's by rfl"

attribute [local irreducible] Host.scatterAdd Host.gather Host.reduceAdd Host.rsqrt Host.divf concatenate broadcastInDim extractStridedSlice transpose shapeCast in
set_option maxRecDepth 16384 in
set_option maxHeartbeats 4000000 in
/-- The result is the last dense layer of the second normalised activation. -/
theorem stage_result (V : Valuation τ sig (Elt F)) :
    after ops V (Proc.devRef .tc main_v195) = dense3 (after ops V (Proc.devRef .tc main_v191)) (V (Proc.devRef .tc main_arg27)) (V (Proc.devRef .tc main_arg28)) := by
  simp (disch := decide) only [after_ops, a1_frame, a2_frame, a3_frame, a4_frame, a5_frame, a6_frame, a7_frame, a8_frame, a9_frame, a10_frame, a11_frame, a12_frame, a13_frame, a14_frame, a15_frame, a16_frame, a17_frame, a18, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "stage_result: the composed term is not the definition's by rfl"

end Cert.ReferenceIdeal.Hand

end
-- ==== Proof.Ref.StageFeature.lean ====
import proofs.«141825_j60318520705103_1_alg».proof.Proof.Ref.Run
import proofs.«141825_j60318520705103_1_alg».proof.Proof.Ref.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.reduceAdd Host.rsqrt Host.divf concatenate broadcastInDim extractStridedSlice transpose shapeCast in
set_option maxRecDepth 16384 in
set_option maxHeartbeats 4000000 in
/-- The concatenated pair features. -/
theorem stage_feature (V : Valuation τ sig (Elt F)) :
    after ops V (Proc.devRef .tc main_v143) = feature (V (Proc.devRef .tc main_arg2)) (V (Proc.devRef .tc main_arg3)) (after ops V (Proc.devRef .tc main_v49)) (after ops V (Proc.devRef .tc main_v99)) (after ops V (Proc.devRef .tc main_v119)) (after ops V (Proc.devRef .tc main_v133)) (V (Proc.devRef .tc main_arg0)) (V (Proc.devRef .tc main_arg1)) := by
  simp (disch := decide) only [after_ops, a1_frame, a2_frame, a3_frame, a4_frame, a5_frame, a6_frame, a7_frame, a8_frame, a10_frame, a12_frame, a14_frame, a15_frame, a16_frame, a17_frame, a18_frame, a9, a11, a13, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "stage_feature: the composed term is not the definition's by rfl"

end Cert.ReferenceIdeal.Hand

end
-- ==== Proof.Ref.StageBn1.lean ====
import proofs.«141825_j60318520705103_1_alg».proof.Proof.Ref.Run
import proofs.«141825_j60318520705103_1_alg».proof.Proof.Ref.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.reduceAdd Host.rsqrt Host.divf concatenate broadcastInDim extractStridedSlice transpose shapeCast in
set_option maxRecDepth 16384 in
set_option maxHeartbeats 4000000 in
/-- The first normalised activation. -/
theorem stage_h1 (V : Valuation τ sig (Elt F)) :
    after ops V (Proc.devRef .tc main_v167) = bnRelu1 (after ops V (Proc.devRef .tc main_v147)) (V (Proc.devRef .tc main_arg21)) (V (Proc.devRef .tc main_arg22)) := by
  simp (disch := decide) only [after_ops, a1_frame, a2_frame, a3_frame, a4_frame, a5_frame, a6_frame, a7_frame, a8_frame, a9_frame, a10_frame, a11_frame, a12_frame, a13_frame, a14_frame, a16_frame, a17_frame, a18_frame, a15, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "stage_h1: the composed term is not the definition's by rfl"

end Cert.ReferenceIdeal.Hand

end
-- ==== Proof.Ref.StageBn2.lean ====
import proofs.«141825_j60318520705103_1_alg».proof.Proof.Ref.Run
import proofs.«141825_j60318520705103_1_alg».proof.Proof.Ref.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.reduceAdd Host.rsqrt Host.divf concatenate broadcastInDim extractStridedSlice transpose shapeCast in
set_option maxRecDepth 16384 in
set_option maxHeartbeats 4000000 in
/-- The second normalised activation. -/
theorem stage_h2 (V : Valuation τ sig (Elt F)) :
    after ops V (Proc.devRef .tc main_v191) = bnRelu2 (after ops V (Proc.devRef .tc main_v171)) (V (Proc.devRef .tc main_arg25)) (V (Proc.devRef .tc main_arg26)) := by
  simp (disch := decide) only [after_ops, a1_frame, a2_frame, a3_frame, a4_frame, a5_frame, a6_frame, a7_frame, a8_frame, a9_frame, a10_frame, a11_frame, a12_frame, a13_frame, a14_frame, a15_frame, a16_frame, a18_frame, a17, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "stage_h2: the composed term is not the definition's by rfl"

end Cert.ReferenceIdeal.Hand

end
-- ==== Proof.Ref.StageGcnE.lean ====
import proofs.«141825_j60318520705103_1_alg».proof.Proof.Ref.Run
import proofs.«141825_j60318520705103_1_alg».proof.Proof.Ref.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.reduceAdd Host.rsqrt Host.divf concatenate broadcastInDim extractStridedSlice transpose shapeCast in
set_option maxRecDepth 16384 in
set_option maxHeartbeats 4000000 in
/-- The first graph-convolution layer's output. -/
theorem stage_ecfps (V : Valuation τ sig (Elt F)) :
    after ops V (Proc.devRef .tc main_v49) = gcnTail (after ops V (Proc.devRef .tc main_v32)) (V (Proc.devRef .tc main_arg5)) (V (Proc.devRef .tc main_arg6)) (V (Proc.devRef .tc main_arg12)) := by
  simp (disch := decide) only [after_ops, a2_frame, a5_frame, a6_frame, a7_frame, a8_frame, a9_frame, a10_frame, a11_frame, a12_frame, a13_frame, a14_frame, a15_frame, a16_frame, a17_frame, a18_frame, a1, a3, a4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "stage_ecfps: the composed term is not the definition's by rfl"

end Cert.ReferenceIdeal.Hand

end
-- ==== Proof.Ref.StageGcnG.lean ====
import proofs.«141825_j60318520705103_1_alg».proof.Proof.Ref.Run
import proofs.«141825_j60318520705103_1_alg».proof.Proof.Ref.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.reduceAdd Host.rsqrt Host.divf concatenate broadcastInDim extractStridedSlice transpose shapeCast in
set_option maxRecDepth 16384 in
set_option maxHeartbeats 4000000 in
/-- The second graph-convolution layer's output, by the same function on its own arguments. -/
theorem stage_gos (V : Valuation τ sig (Elt F)) :
    after ops V (Proc.devRef .tc main_v99) = gcnTail (after ops V (Proc.devRef .tc main_v82)) (V (Proc.devRef .tc main_arg8)) (V (Proc.devRef .tc main_arg9)) (V (Proc.devRef .tc main_arg14)) := by
  simp (disch := decide) only [after_ops, a1_frame, a2_frame, a3_frame, a4_frame, a6_frame, a9_frame, a10_frame, a11_frame, a12_frame, a13_frame, a14_frame, a15_frame, a16_frame, a17_frame, a18_frame, a5, a7, a8, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | rfl | fail "stage_gos: the composed term is not the definition's by rfl"

end Cert.ReferenceIdeal.Hand

end
-- ==== Proof.Ref.StageDot.lean ====
import proofs.«141825_j60318520705103_1_alg».proof.Proof.Ref.Run
import proofs.«141825_j60318520705103_1_alg».proof.Proof.Ref.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The layer's feature matmul. -/
theorem stage_hE (V : Valuation τ sig (Elt F)) :
    after ops V (Proc.devRef .tc main_v32) = Host.dotGeneral dot_S8192x1024_S1024x512_S8192x512_1_0_0_1_n_n none (V (Proc.devRef .tc main_arg4)) (V (Proc.devRef .tc main_arg11)) := by
  simp (disch := decide) only [after_ops, a1_frame, a3_frame, a4_frame, a5_frame, a6_frame, a7_frame, a8_frame, a9_frame, a10_frame, a11_frame, a12_frame, a13_frame, a14_frame, a15_frame, a16_frame, a17_frame, a18_frame, a2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The layer's feature matmul. -/
theorem stage_hG (V : Valuation τ sig (Elt F)) :
    after ops V (Proc.devRef .tc main_v82) = Host.dotGeneral dot_S8192x1024_S1024x512_S8192x512_1_0_0_1_n_n none (V (Proc.devRef .tc main_arg7)) (V (Proc.devRef .tc main_arg13)) := by
  simp (disch := decide) only [after_ops, a1_frame, a2_frame, a3_frame, a4_frame, a5_frame, a7_frame, a8_frame, a9_frame, a10_frame, a11_frame, a12_frame, a13_frame, a14_frame, a15_frame, a16_frame, a17_frame, a18_frame, a6, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

end Cert.ReferenceIdeal.Hand

end
-- ==== Proof.Ref.Stages.lean ====
import proofs.«141825_j60318520705103_1_alg».proof.Proof.Ref.StageAffinity
import proofs.«141825_j60318520705103_1_alg».proof.Proof.Ref.StageDense
import proofs.«141825_j60318520705103_1_alg».proof.Proof.Ref.StageFeature
import proofs.«141825_j60318520705103_1_alg».proof.Proof.Ref.StageBn1
import proofs.«141825_j60318520705103_1_alg».proof.Proof.Ref.StageBn2
import proofs.«141825_j60318520705103_1_alg».proof.Proof.Ref.StageGcnE
import proofs.«141825_j60318520705103_1_alg».proof.Proof.Ref.StageGcnG
import proofs.«141825_j60318520705103_1_alg».proof.Proof.Ref.StageDot
import proofs.«141825_j60318520705103_1_alg».proof.Proof.Ref.Read
-- ==== Proof.Ref.Compose.lean ====
import proofs.«141825_j60318520705103_1_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's result as one function of its twenty-nine arguments: two graph-convolution layers, the two
    affinity branches across them, the gathered pair features, and the three-layer head with its two batch
    normalisations. -/
def spec (a0 : (⟨S4096, .i32⟩ : BufTy).Contents (Elt F)) (a1 : (⟨S4096, .i32⟩ : BufTy).Contents (Elt F)) (a2 : (⟨S4096x300, .f32⟩ : BufTy).Contents (Elt F)) (a3 : (⟨S4096x1024, .f32⟩ : BufTy).Contents (Elt F)) (a4 : (⟨S8192x1024, .f32⟩ : BufTy).Contents (Elt F)) (a5 : (⟨S2x262144, .i32⟩ : BufTy).Contents (Elt F)) (a6 : (⟨S262144, .f32⟩ : BufTy).Contents (Elt F)) (a7 : (⟨S8192x1024, .f32⟩ : BufTy).Contents (Elt F)) (a8 : (⟨S2x262144, .i32⟩ : BufTy).Contents (Elt F)) (a9 : (⟨S262144, .f32⟩ : BufTy).Contents (Elt F)) (a10 : (⟨S8192x8192, .f32⟩ : BufTy).Contents (Elt F)) (a11 : (⟨S1024x512, .f32⟩ : BufTy).Contents (Elt F)) (a12 : (⟨S512, .f32⟩ : BufTy).Contents (Elt F)) (a13 : (⟨S1024x512, .f32⟩ : BufTy).Contents (Elt F)) (a14 : (⟨S512, .f32⟩ : BufTy).Contents (Elt F)) (a15 : (⟨S512x512, .f32⟩ : BufTy).Contents (Elt F)) (a16 : (⟨S512, .f32⟩ : BufTy).Contents (Elt F)) (a17 : (⟨S512x512, .f32⟩ : BufTy).Contents (Elt F)) (a18 : (⟨S512, .f32⟩ : BufTy).Contents (Elt F)) (a19 : (⟨S3372x1024, .f32⟩ : BufTy).Contents (Elt F)) (a20 : (⟨S1024, .f32⟩ : BufTy).Contents (Elt F)) (a21 : (⟨S1024, .f32⟩ : BufTy).Contents (Elt F)) (a22 : (⟨S1024, .f32⟩ : BufTy).Contents (Elt F)) (a23 : (⟨S1024x256, .f32⟩ : BufTy).Contents (Elt F)) (a24 : (⟨S256, .f32⟩ : BufTy).Contents (Elt F)) (a25 : (⟨S256, .f32⟩ : BufTy).Contents (Elt F)) (a26 : (⟨S256, .f32⟩ : BufTy).Contents (Elt F)) (a27 : (⟨S256x1, .f32⟩ : BufTy).Contents (Elt F)) (a28 : (⟨S1, .f32⟩ : BufTy).Contents (Elt F)) : (⟨S4096x1, .f32⟩ : BufTy).Contents (Elt F) :=
  let hE := Host.dotGeneral dot_S8192x1024_S1024x512_S8192x512_1_0_0_1_n_n none a4 a11
  let ecfps := gcnTail hE a5 a6 a12
  let hG := Host.dotGeneral dot_S8192x1024_S1024x512_S8192x512_1_0_0_1_n_n none a7 a13
  let gos := gcnTail hG a8 a9 a14
  let p2d := affinity a10 gos a15 a16
  let d2p := affinityT a10 ecfps a17 a18
  let ft := feature a2 a3 ecfps gos p2d d2p a0 a1
  let y1 := dense1 ft a19 a20
  let h1 := bnRelu1 y1 a21 a22
  let y2 := dense2 h1 a23 a24
  let h2 := bnRelu2 y2 a25 a26
  dense3 h2 a27 a28

/-- The result buffer holds `spec` of the arguments' launch contents: the twelve stages chained. -/
theorem result_spec (V : Valuation τ sig (Elt F)) :
    after ops V (Proc.devRef .tc main_v195) = spec (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) := by
  rw [stage_result, stage_h2, stage_y2, stage_h1, stage_y1, stage_feature, stage_d2p, stage_p2d, stage_gos, stage_ecfps, stage_hG, stage_hE]
  try rfl

/-- On every device, for any float values, from any memory with zero counters: every weakly fair execution of
    @main terminates with the result buffer at `spec` of the arguments' launch contents and the arguments unchanged. -/
theorem run_spec (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v195) = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c =>
    ⟨(h c main_v195).trans (result_spec (launchContents m c)),
      (h c main_arg0).trans (after_main_arg0 _),
      (h c main_arg1).trans (after_main_arg1 _),
      (h c main_arg2).trans (after_main_arg2 _),
      (h c main_arg3).trans (after_main_arg3 _),
      (h c main_arg4).trans (after_main_arg4 _),
      (h c main_arg5).trans (after_main_arg5 _),
      (h c main_arg6).trans (after_main_arg6 _),
      (h c main_arg7).trans (after_main_arg7 _),
      (h c main_arg8).trans (after_main_arg8 _),
      (h c main_arg9).trans (after_main_arg9 _),
      (h c main_arg10).trans (after_main_arg10 _),
      (h c main_arg11).trans (after_main_arg11 _),
      (h c main_arg12).trans (after_main_arg12 _),
      (h c main_arg13).trans (after_main_arg13 _),
      (h c main_arg14).trans (after_main_arg14 _),
      (h c main_arg15).trans (after_main_arg15 _),
      (h c main_arg16).trans (after_main_arg16 _),
      (h c main_arg17).trans (after_main_arg17 _),
      (h c main_arg18).trans (after_main_arg18 _),
      (h c main_arg19).trans (after_main_arg19 _),
      (h c main_arg20).trans (after_main_arg20 _),
      (h c main_arg21).trans (after_main_arg21 _),
      (h c main_arg22).trans (after_main_arg22 _),
      (h c main_arg23).trans (after_main_arg23 _),
      (h c main_arg24).trans (after_main_arg24 _),
      (h c main_arg25).trans (after_main_arg25 _),
      (h c main_arg26).trans (after_main_arg26 _),
      (h c main_arg27).trans (after_main_arg27 _),
      (h c main_arg28).trans (after_main_arg28 _)⟩)
    (run_raw m ρ)

end Cert.ReferenceIdeal.Hand

end
-- ==== Proof.KI.Bridge.lean ====
/-
  The kernel program's result is the reference's composed function of the arguments. Each kernel region's output array
  is the reference's stage over the same operands: a dense region is the plain product (plus its bias row, a row of
  zeros for the two graph layers), an accumulating region is the rectified projection of the full contraction, the
  blocked sums regrouped. Between regions both programs apply the same host operations, so each host stretch's result
  is the reference's stage function of the stretch's operands, and the stages compose to the reference's result.
-/
import proofs.«141825_j60318520705103_1_alg».proof.Proof.KI.Keep
import proofs.«141825_j60318520705103_1_alg».proof.Proof.KI.Stages
import proofs.«141825_j60318520705103_1_alg».proof.Proof.KI.StageFeature
import proofs.«141825_j60318520705103_1_alg».proof.Proof.KI.Bias
import proofs.«141825_j60318520705103_1_alg».proof.Proof.KI.Join0
import proofs.«141825_j60318520705103_1_alg».proof.Proof.KI.Join1
import proofs.«141825_j60318520705103_1_alg».proof.Proof.KI.Join2
import proofs.«141825_j60318520705103_1_alg».proof.Proof.KI.Join3
import proofs.«141825_j60318520705103_1_alg».proof.Proof.KI.Join4
import proofs.«141825_j60318520705103_1_alg».proof.Proof.KI.Join5
import proofs.«141825_j60318520705103_1_alg».proof.Proof.Ref.Compose

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## The regions' outputs as the reference's stages -/

/-- Region 0 leaves the first layer's product: its bias row is a row of zeros. -/
theorem hE_eq : W2 m c (Proc.devRef .tc main_v3)
    = Host.dotGeneral (F := Ideal) (φ₁ := .f32) (φ₂ := .f32) Cert.ReferenceIdeal.dot_S8192x1024_S1024x512_S8192x512_1_0_0_1_n_n none (m ((c : Thread nD τ).loc main_arg4)) (m ((c : Thread nD τ).loc main_arg11)) := by
  rw [W2_out]; unfold o2
  rw [join0 (atTc (W1 m)) c (fun j => by
    show (W1 m c (Proc.devRef .tc main_v2) : S1x512.Idx → EReal) (ix2 0 j) = (0 : EReal)
    rw [W1_def]; exact bias_v2 (V0 m c) j)]
  dsimp only [atTc]
  rw [W1_arg4, W1_arg11]

/-- Region 1 leaves the second layer's product. -/
theorem hG_eq : W8 m c (Proc.devRef .tc main_v54)
    = Host.dotGeneral (F := Ideal) (φ₁ := .f32) (φ₂ := .f32) Cert.ReferenceIdeal.dot_S8192x1024_S1024x512_S8192x512_1_0_0_1_n_n none (m ((c : Thread nD τ).loc main_arg7)) (m ((c : Thread nD τ).loc main_arg13)) := by
  rw [W8_out]; unfold o8
  rw [join1 (atTc (W7 m)) c (fun j => by
    show (W7 m c (Proc.devRef .tc main_v53) : S1x512.Idx → EReal) (ix2 0 j) = (0 : EReal)
    rw [W7_def, bias_v53 (W6 m c) j, W6_v1_from1, W1_def]; exact zero_v1 (V0 m c) j)]
  dsimp only [atTc]
  rw [W7_arg7, W7_arg13]

/-- The two graph layers' outputs. -/
theorem ecfps_val : W7 m c (Proc.devRef .tc main_v52) = Cert.ReferenceIdeal.Hand.gcnTail (F := Ideal) (W2 m c (Proc.devRef .tc main_v3)) (m ((c : Thread nD τ).loc main_arg5)) (m ((c : Thread nD τ).loc main_arg6)) (m ((c : Thread nD τ).loc main_arg12)) := by
  rw [ecfps_eq m c, W2_arg5, W2_arg6, W2_arg12]
theorem gos_val : W13 m c (Proc.devRef .tc main_v103) = Cert.ReferenceIdeal.Hand.gcnTail (F := Ideal) (W8 m c (Proc.devRef .tc main_v54)) (m ((c : Thread nD τ).loc main_arg8)) (m ((c : Thread nD τ).loc main_arg9)) (m ((c : Thread nD τ).loc main_arg14)) := by
  rw [gos_eq m c, W8_arg8, W8_arg9, W8_arg14]

/-- Region 2 leaves the rectified projection of the affinity product with the second layer's output. -/
theorem p2d_eq : W14 m c (Proc.devRef .tc main_v105)
    = Cert.ReferenceIdeal.Hand.affinity (F := Ideal) (m ((c : Thread nD τ).loc main_arg10)) (W13 m c (Proc.devRef .tc main_v103)) (m ((c : Thread nD τ).loc main_arg15)) (m ((c : Thread nD τ).loc main_arg16)) := by
  rw [W14_out]; unfold o14
  rw [join2 (atTc (W13 m)) c (m ((c : Thread nD τ).loc main_arg16)) (fun j => by
    show (W13 m c (Proc.devRef .tc main_v104) : S1x512.Idx → EReal) (ix2 0 j) = _
    rw [W13_def, bias_v104 (W12 m c) j, W12_arg16])]
  show Cert.ReferenceIdeal.Hand.affinity (W13 m c (Proc.devRef .tc main_arg10)) (W13 m c (Proc.devRef .tc main_v103)) (W13 m c (Proc.devRef .tc main_arg15)) _ = _
  rw [W13_arg10, W13_arg15]

/-- Region 3 leaves the rectified projection of the transposed affinity product with the first layer's output. -/
theorem d2p_eq : W16 m c (Proc.devRef .tc main_v107)
    = Cert.ReferenceIdeal.Hand.affinityT (F := Ideal) (m ((c : Thread nD τ).loc main_arg10)) (W7 m c (Proc.devRef .tc main_v52)) (m ((c : Thread nD τ).loc main_arg17)) (m ((c : Thread nD τ).loc main_arg18)) := by
  rw [W16_out]; unfold o16
  rw [join3 (atTc (W15 m)) c (m ((c : Thread nD τ).loc main_arg18)) (fun j => by
    show (W15 m c (Proc.devRef .tc main_v106) : S1x512.Idx → EReal) (ix2 0 j) = _
    rw [W15_def, bias_v106 (W14 m c) j, W14_arg18])]
  show Cert.ReferenceIdeal.Hand.affinityT (W15 m c (Proc.devRef .tc main_arg10)) (W15 m c (Proc.devRef .tc main_v52)) (W15 m c (Proc.devRef .tc main_arg17)) _ = _
  rw [W15_arg10, W15_arg17, W15_v52_from7]

/-- The pair features: the host stretch after region 3 is the reference's concatenation of the two argument blocks with the
    gathered rows of the four node tables. -/
theorem feature_eq : W17 m c (Proc.devRef .tc main_v138)
    = Cert.ReferenceIdeal.Hand.feature (F := Ideal) (W16 m c (Proc.devRef .tc main_arg2)) (W16 m c (Proc.devRef .tc main_arg3)) (W16 m c (Proc.devRef .tc main_v52)) (W16 m c (Proc.devRef .tc main_v103)) (W16 m c (Proc.devRef .tc main_v105)) (W16 m c (Proc.devRef .tc main_v107)) (W16 m c (Proc.devRef .tc main_arg0)) (W16 m c (Proc.devRef .tc main_arg1)) := by
  rw [W17_def]; exact feature_after (W16 m c)

/-- The pair features over the stages' values. -/
theorem feature_val : W17 m c (Proc.devRef .tc main_v138)
    = Cert.ReferenceIdeal.Hand.feature (F := Ideal) (m ((c : Thread nD τ).loc main_arg2)) (m ((c : Thread nD τ).loc main_arg3)) (W7 m c (Proc.devRef .tc main_v52)) (W13 m c (Proc.devRef .tc main_v103)) (W14 m c (Proc.devRef .tc main_v105)) (W16 m c (Proc.devRef .tc main_v107)) (m ((c : Thread nD τ).loc main_arg0)) (m ((c : Thread nD τ).loc main_arg1)) := by
  rw [feature_eq m c, W16_arg2, W16_arg3, W16_arg0, W16_arg1, W16_v52_from7, W16_v103_from13, W16_v105_from14]

/-- Region 4 leaves the first head layer's product and bias. -/
theorem y1_eq : W18 m c (Proc.devRef .tc main_v140) = Cert.ReferenceIdeal.Hand.dense1 (F := Ideal) (W17 m c (Proc.devRef .tc main_v138)) (m ((c : Thread nD τ).loc main_arg19)) (m ((c : Thread nD τ).loc main_arg20)) := by
  rw [W18_out]; unfold o18
  rw [join4 (atTc (W17 m)) c (m ((c : Thread nD τ).loc main_arg20)) (fun j => by
    show (W17 m c (Proc.devRef .tc main_v139) : S1x1024.Idx → EReal) (ix2 0 j) = _
    rw [W17_def, bias_v139 (W16 m c) j, W16_arg20])]
  show Cert.ReferenceIdeal.Hand.dense1 (W17 m c (Proc.devRef .tc main_v138)) (W17 m c (Proc.devRef .tc main_arg19)) _ = _
  rw [W17_arg19]

theorem h1_val : W23 m c (Proc.devRef .tc main_v160) = Cert.ReferenceIdeal.Hand.bnRelu1 (F := Ideal) (W18 m c (Proc.devRef .tc main_v140)) (m ((c : Thread nD τ).loc main_arg21)) (m ((c : Thread nD τ).loc main_arg22)) := by
  rw [h1_eq m c, W18_arg21, W18_arg22]

/-- Region 5 leaves the second head layer's product and bias. -/
theorem y2_eq : W24 m c (Proc.devRef .tc main_v162) = Cert.ReferenceIdeal.Hand.dense2 (F := Ideal) (W23 m c (Proc.devRef .tc main_v160)) (m ((c : Thread nD τ).loc main_arg23)) (m ((c : Thread nD τ).loc main_arg24)) := by
  rw [W24_out]; unfold o24
  rw [join5 (atTc (W23 m)) c (m ((c : Thread nD τ).loc main_arg24)) (fun j => by
    show (W23 m c (Proc.devRef .tc main_v161) : S1x256.Idx → EReal) (ix2 0 j) = _
    rw [W23_def, bias_v161 (W22 m c) j, W22_arg24])]
  show Cert.ReferenceIdeal.Hand.dense2 (W23 m c (Proc.devRef .tc main_v160)) (W23 m c (Proc.devRef .tc main_arg23)) _ = _
  rw [W23_arg23]

theorem h2_val : W28 m c (Proc.devRef .tc main_v182) = Cert.ReferenceIdeal.Hand.bnRelu2 (F := Ideal) (W24 m c (Proc.devRef .tc main_v162)) (m ((c : Thread nD τ).loc main_arg25)) (m ((c : Thread nD τ).loc main_arg26)) := by
  rw [h2_eq m c, W24_arg25, W24_arg26]

/-! ## The result -/

/-- The kernel program's result buffer ends at the reference's composed function of the launch arguments. -/
theorem kernel_spec : W29 m c (Proc.devRef .tc main_v186) = Cert.ReferenceIdeal.Hand.spec (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  rw [result_eq m c, W28_arg27, W28_arg28, h2_val, y2_eq, h1_val, y1_eq, feature_val, d2p_eq, p2d_eq, gos_val, ecfps_val, hG_eq, hE_eq]
  rfl

end Cert.KernelIdeal.Hand

end
-- ==== Proof.lean ====
/-
  A drug–protein affinity network: two graph-convolution layers (a dense projection, then a normalised scatter-add over
  the edges and a leaky rectifier), two affinity products with a fused projection, bias and rectifier, a gather and
  concatenation into pair features, and a three-layer head with two training-mode batch normalisations. The kernel
  program computes the six matrix products in tiled kernel regions and everything else on the host, exactly as the
  reference does on the host alone.

  At the ideal instance a change of float format is the identity and every product is exact, so each dense region's
  output is the plain product of its operands plus its bias row (a row of zeros for the two graph layers, and x + 0 = x
  on the extended reals), and each accumulating region's output is the rectified projection of the whole contraction,
  the four blocked partial sums regrouped into one sum (addition of extended reals is commutative and associative; no
  finiteness is used). The host operations between the regions are the reference's own, so the two programs' results
  are one function of the arguments. The three frames: the kernel programs' from the regions' segment records over
  the program's conditional frame, the reference's from its run as a list of host operations. The ideal pass rewrote
  nothing, so the idealization claim is trivial.
-/
import proofs.«141825_j60318520705103_1_alg».proof.Defs
import proofs.«141825_j60318520705103_1_alg».proof.Proof.Gen.Kernel
import proofs.«141825_j60318520705103_1_alg».proof.Proof.Gen.KernelIdeal
import proofs.«141825_j60318520705103_1_alg».proof.Proof.Gen.ReferenceIdeal
import proofs.«141825_j60318520705103_1_alg».proof.Proof.Gen.Pre_finite_inputs
import proofs.«141825_j60318520705103_1_alg».proof.Proof.K.Run
import proofs.«141825_j60318520705103_1_alg».proof.Proof.KI.Run
import proofs.«141825_j60318520705103_1_alg».proof.Proof.KI.Bridge
import proofs.«141825_j60318520705103_1_alg».proof.Proof.Ref.Run
import proofs.«141825_j60318520705103_1_alg».proof.Proof.Ref.Compose
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ
/-- So does its idealization, -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
/-- and the reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

set_option maxHeartbeats 1000000 in
/-- From memories agreeing on the arguments both programs end with their result buffers at the reference's composed
    function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Hand.spec (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27))
      (m ((c.tc : Thread Cert.KernelIdeal.nD Cert.KernelIdeal.τ).loc Cert.KernelIdeal.main_arg28)), ?_, ?_⟩
  · exact (θ_run (Cert.KernelIdeal.defs (F := Ideal)) _ _).mono
      (fun r h c => ⟨(h c).1.trans (Cert.KernelIdeal.Hand.kernel_spec m c), (h c).2⟩)
      (Cert.KernelIdeal.Hand.run_value (F := Ideal) m ρ)
  · refine (θ_run (Cert.ReferenceIdeal.defs (F := Ideal)) _ _).mono (fun r h c => ⟨(h c).1.trans ?_, (h c).2⟩)
      (Cert.ReferenceIdeal.Hand.run_spec (F := Ideal) m' ρ')
    obtain ⟨h0, h1, h2, h3, h4, h5, h6, h7, h8, h9, h10, h11, h12, h13, h14, h15, h16, h17, h18, h19, h20, h21, h22, h23, h24, h25, h26, h27, h28⟩ := hagree c
    rw [h0, h1, h2, h3, h4, h5, h6, h7, h8, h9, h10, h11, h12, h13, h14, h15, h16, h17, h18, h19, h20, h21, h22, h23, h24, h25, h26, h27, h28]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
